-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S100x64 : Shape := ⟨2, ![100, 64]⟩
abbrev S5x8 : Shape := ⟨2, ![5, 8]⟩
abbrev S8x16 : Shape := ⟨2, ![8, 16]⟩
abbrev S25x8 : Shape := ⟨2, ![25, 8]⟩
abbrev S61x8 : Shape := ⟨2, ![61, 8]⟩
abbrev S500x64 : Shape := ⟨2, ![500, 64]⟩
abbrev S40x16 : Shape := ⟨2, ![40, 16]⟩
abbrev S256x1 : Shape := ⟨2, ![256, 1]⟩
abbrev S1 : Shape := ⟨1, ![1]⟩
abbrev S256x32 : Shape := ⟨2, ![256, 32]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S5x8 : S_.BroadcastsInDim S5x8 (![] : Fin 0 → Fin S5x8.rank)
  reducesTo_S5x8_S_d0_1 : S5x8.ReducesTo [0, 1] S_
  bcast_S_S8x16 : S_.BroadcastsInDim S8x16 (![] : Fin 0 → Fin S8x16.rank)
  reducesTo_S8x16_S_d0_1 : S8x16.ReducesTo [0, 1] S_
  bcast_S_S25x8 : S_.BroadcastsInDim S25x8 (![] : Fin 0 → Fin S25x8.rank)
  reducesTo_S25x8_S_d0_1 : S25x8.ReducesTo [0, 1] S_
  bcast_S_S61x8 : S_.BroadcastsInDim S61x8 (![] : Fin 0 → Fin S61x8.rank)
  reducesTo_S61x8_S_d0_1 : S61x8.ReducesTo [0, 1] S_
  bcast_S_S500x64 : S_.BroadcastsInDim S500x64 (![] : Fin 0 → Fin S500x64.rank)
  reducesTo_S500x64_S_d0_1 : S500x64.ReducesTo [0, 1] S_
  bcast_S_S40x16 : S_.BroadcastsInDim S40x16 (![] : Fin 0 → Fin S40x16.rank)
  reducesTo_S40x16_S_d0_1 : S40x16.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x32 : S_.BroadcastsInDim S256x32 (![] : Fin 0 → Fin S256x32.rank)
  reducesTo_S256x32_S_d0_1 : S256x32.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S16384 : S_.BroadcastsInDim S16384 (![] : Fin 0 → Fin S16384.rank)
  reducesTo_S16384_S_d0 : S16384.ReducesTo [0] S_

variable [Facts]

def fn_part9 {F : FTy → Type} [FloatOps F] (main_arg8 : IVec S16384 32) (main_v149 : IVec S_ 1) (main_v151 : IVec S16384 1) (main_c_61 : IVec S_ 32) : IVec S_ 1 :=
  let main_v152 : IVec S16384 32 := broadcastInDim S16384 ![] bcast_S_S16384 main_c_61
  let main_v153 : IVec S16384 1 := cmpi .sle main_arg8 main_v152
  let main_v154 : IVec S16384 1 := andi main_v151 main_v153
  let main_c_62 : IVec S_ 1 := constantI S_ 1 1#1
  let main_v155 : IVec S_ 1 := (fun x v => Host.reduce IntOp.andi x v reducesTo_S16384_S_d0 h_S_) main_v154 main_c_62
  let main_v156 : IVec S_ 1 := andi main_v149 main_v155
  main_v156

def fn_part8 {F : FTy → Type} [FloatOps F] (main_arg6 : IVec S16384 32) (main_arg7 : IVec S16384 32) (main_arg8 : IVec S16384 32) (main_v135 : IVec S_ 1) : IVec S_ 1 :=
  let main_c_54 : IVec S_ 32 := constantI S_ 32 0#32
  let main_v136 : IVec S16384 32 := broadcastInDim S16384 ![] bcast_S_S16384 main_c_54
  let main_v137 : IVec S16384 1 := cmpi .sge main_arg6 main_v136
  let main_c_55 : IVec S_ 32 := constantI S_ 32 60#32
  let main_v138 : IVec S16384 32 := broadcastInDim S16384 ![] bcast_S_S16384 main_c_55
  let main_v139 : IVec S16384 1 := cmpi .sle main_arg6 main_v138
  let main_v140 : IVec S16384 1 := andi main_v137 main_v139
  let main_c_56 : IVec S_ 1 := constantI S_ 1 1#1
  let main_v141 : IVec S_ 1 := (fun x v => Host.reduce IntOp.andi x v reducesTo_S16384_S_d0 h_S_) main_v140 main_c_56
  let main_v142 : IVec S_ 1 := andi main_v135 main_v141
  let main_c_57 : IVec S_ 32 := constantI S_ 32 0#32
  let main_v143 : IVec S16384 32 := broadcastInDim S16384 ![] bcast_S_S16384 main_c_57
  let main_v144 : IVec S16384 1 := cmpi .sge main_arg7 main_v143
  let main_c_58 : IVec S_ 32 := constantI S_ 32 499#32
  let main_v145 : IVec S16384 32 := broadcastInDim S16384 ![] bcast_S_S16384 main_c_58
  let main_v146 : IVec S16384 1 := cmpi .sle main_arg7 main_v145
  let main_v147 : IVec S16384 1 := andi main_v144 main_v146
  let main_c_59 : IVec S_ 1 := constantI S_ 1 1#1
  let main_v148 : IVec S_ 1 := (fun x v => Host.reduce IntOp.andi x v reducesTo_S16384_S_d0 h_S_) main_v147 main_c_59
  let main_v149 : IVec S_ 1 := andi main_v142 main_v148
  let main_c_60 : IVec S_ 32 := constantI S_ 32 0#32
  let main_v150 : IVec S16384 32 := broadcastInDim S16384 ![] bcast_S_S16384 main_c_60
  let main_v151 : IVec S16384 1 := cmpi .sge main_arg8 main_v150
  let main_c_61 : IVec S_ 32 := constantI S_ 32 39#32
  fn_part9 (F := F) main_arg8 main_v149 main_v151 main_c_61

def fn_part7 {F : FTy → Type} [FloatOps F] (main_arg4 : IVec S16384 32) (main_arg5 : IVec S16384 32) (main_arg6 : IVec S16384 32) (main_arg7 : IVec S16384 32) (main_arg8 : IVec S16384 32) (main_v114 : IVec S_ 1) (main_v116 : IVec S16384 1) (main_v118 : IVec S16384 1) : IVec S_ 1 :=
  let main_v119 : IVec S16384 1 := andi main_v116 main_v118
  let main_c_47 : IVec S_ 1 := constantI S_ 1 1#1
  let main_v120 : IVec S_ 1 := (fun x v => Host.reduce IntOp.andi x v reducesTo_S16384_S_d0 h_S_) main_v119 main_c_47
  let main_v121 : IVec S_ 1 := andi main_v114 main_v120
  let main_c_48 : IVec S_ 32 := constantI S_ 32 0#32
  let main_v122 : IVec S16384 32 := broadcastInDim S16384 ![] bcast_S_S16384 main_c_48
  let main_v123 : IVec S16384 1 := cmpi .sge main_arg4 main_v122
  let main_c_49 : IVec S_ 32 := constantI S_ 32 24#32
  let main_v124 : IVec S16384 32 := broadcastInDim S16384 ![] bcast_S_S16384 main_c_49
  let main_v125 : IVec S16384 1 := cmpi .sle main_arg4 main_v124
  let main_v126 : IVec S16384 1 := andi main_v123 main_v125
  let main_c_50 : IVec S_ 1 := constantI S_ 1 1#1
  let main_v127 : IVec S_ 1 := (fun x v => Host.reduce IntOp.andi x v reducesTo_S16384_S_d0 h_S_) main_v126 main_c_50
  let main_v128 : IVec S_ 1 := andi main_v121 main_v127
  let main_c_51 : IVec S_ 32 := constantI S_ 32 0#32
  let main_v129 : IVec S16384 32 := broadcastInDim S16384 ![] bcast_S_S16384 main_c_51
  let main_v130 : IVec S16384 1 := cmpi .sge main_arg5 main_v129
  let main_c_52 : IVec S_ 32 := constantI S_ 32 60#32
  let main_v131 : IVec S16384 32 := broadcastInDim S16384 ![] bcast_S_S16384 main_c_52
  let main_v132 : IVec S16384 1 := cmpi .sle main_arg5 main_v131
  let main_v133 : IVec S16384 1 := andi main_v130 main_v132
  let main_c_53 : IVec S_ 1 := constantI S_ 1 1#1
  let main_v134 : IVec S_ 1 := (fun x v => Host.reduce IntOp.andi x v reducesTo_S16384_S_d0 h_S_) main_v133 main_c_53
  let main_v135 : IVec S_ 1 := andi main_v128 main_v134
  fn_part8 (F := F) main_arg6 main_arg7 main_arg8 main_v135

def fn_part6 {F : FTy → Type} [FloatOps F] (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_v100 : IVec S_ 1) (main_v101 : IVec S16384 32) : IVec S_ 1 :=
  let main_v102 : IVec S16384 1 := cmpi .sge main_arg1 main_v101
  let main_c_40 : IVec S_ 32 := constantI S_ 32 99#32
  let main_v103 : IVec S16384 32 := broadcastInDim S16384 ![] bcast_S_S16384 main_c_40
  let main_v104 : IVec S16384 1 := cmpi .sle main_arg1 main_v103
  let main_v105 : IVec S16384 1 := andi main_v102 main_v104
  let main_c_41 : IVec S_ 1 := constantI S_ 1 1#1
  let main_v106 : IVec S_ 1 := (fun x v => Host.reduce IntOp.andi x v reducesTo_S16384_S_d0 h_S_) main_v105 main_c_41
  let main_v107 : IVec S_ 1 := andi main_v100 main_v106
  let main_c_42 : IVec S_ 32 := constantI S_ 32 0#32
  let main_v108 : IVec S16384 32 := broadcastInDim S16384 ![] bcast_S_S16384 main_c_42
  let main_v109 : IVec S16384 1 := cmpi .sge main_arg2 main_v108
  let main_c_43 : IVec S_ 32 := constantI S_ 32 4#32
  let main_v110 : IVec S16384 32 := broadcastInDim S16384 ![] bcast_S_S16384 main_c_43
  let main_v111 : IVec S16384 1 := cmpi .sle main_arg2 main_v110
  let main_v112 : IVec S16384 1 := andi main_v109 main_v111
  let main_c_44 : IVec S_ 1 := constantI S_ 1 1#1
  let main_v113 : IVec S_ 1 := (fun x v => Host.reduce IntOp.andi x v reducesTo_S16384_S_d0 h_S_) main_v112 main_c_44
  let main_v114 : IVec S_ 1 := andi main_v107 main_v113
  let main_c_45 : IVec S_ 32 := constantI S_ 32 0#32
  let main_v115 : IVec S16384 32 := broadcastInDim S16384 ![] bcast_S_S16384 main_c_45
  let main_v116 : IVec S16384 1 := cmpi .sge main_arg3 main_v115
  let main_c_46 : IVec S_ 32 := constantI S_ 32 7#32
  let main_v117 : IVec S16384 32 := broadcastInDim S16384 ![] bcast_S_S16384 main_c_46
  let main_v118 : IVec S16384 1 := cmpi .sle main_arg3 main_v117
  fn_part7 (F := F) main_arg4 main_arg5 main_arg6 main_arg7 main_arg8 main_v114 main_v116 main_v118

def fn_part5 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg27 : FVec F S128x1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg27
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_c_36 : IVec S_ 32 := constantI S_ 32 0#32
  let main_v94 : IVec S16384 32 := broadcastInDim S16384 ![] bcast_S_S16384 main_c_36
  let main_v95 : IVec S16384 1 := cmpi .sge main_arg0 main_v94
  let main_c_37 : IVec S_ 32 := constantI S_ 32 999999#32
  let main_v96 : IVec S16384 32 := broadcastInDim S16384 ![] bcast_S_S16384 main_c_37
  let main_v97 : IVec S16384 1 := cmpi .sle main_arg0 main_v96
  let main_v98 : IVec S16384 1 := andi main_v95 main_v97
  let main_c_38 : IVec S_ 1 := constantI S_ 1 1#1
  let main_v99 : IVec S_ 1 := (fun x v => Host.reduce IntOp.andi x v reducesTo_S16384_S_d0 h_S_) main_v98 main_c_38
  let main_v100 : IVec S_ 1 := andi main_v93 main_v99
  let main_c_39 : IVec S_ 32 := constantI S_ 32 0#32
  let main_v101 : IVec S16384 32 := broadcastInDim S16384 ![] bcast_S_S16384 main_c_39
  fn_part6 (F := F) main_arg1 main_arg2 main_arg3 main_arg4 main_arg5 main_arg6 main_arg7 main_arg8 main_v100 main_v101

def fn_part4 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg23 : FVec F S128x128 .f32) (main_arg24 : FVec F S128 .f32) (main_arg25 : FVec F S128x128 .f32) (main_arg26 : FVec F S128 .f32) (main_arg27 : FVec F S128x1 .f32) (main_v63 : IVec S_ 1) (main_v67 : IVec S_ 1) : IVec S_ 1 :=
  let main_v68 : IVec S_ 1 := andi main_v63 main_v67
  let main_v69 : FVec F S128x128 .f32 := Host.absf main_arg23
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg24
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg25
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg26
  let main_cst_32 : FVec F S_ .f32 := constant S_ .f32 0x7F800000#32
  fn_part5 (F := F) main_arg0 main_arg1 main_arg2 main_arg3 main_arg4 main_arg5 main_arg6 main_arg7 main_arg8 main_arg27 main_v83 main_v84 main_cst_32

def fn_part3 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg20 : FVec F S256x32 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) (main_arg27 : FVec F S128x1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S256x32 .f32 := Host.absf main_arg20
  let main_cst_20 : FVec F S_ .f32 := constant S_ .f32 0x7F800000#32
  let main_v55 : FVec F S256x32 .f32 := broadcastInDim S256x32 ![] bcast_S_S256x32 main_cst_20
  let main_v56 : IVec S256x32 1 := cmpf .olt main_v54 main_v55
  let main_c_21 : IVec S_ 1 := constantI S_ 1 1#1
  let main_v57 : IVec S_ 1 := (fun x v => Host.reduce IntOp.andi x v reducesTo_S256x32_S_d0_1 h_S_) main_v56 main_c_21
  let main_v58 : IVec S_ 1 := andi main_v53 main_v57
  let main_v59 : FVec F S256x128 .f32 := Host.absf main_arg21
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg22
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg1 main_arg2 main_arg3 main_arg4 main_arg5 main_arg6 main_arg7 main_arg8 main_arg23 main_arg24 main_arg25 main_arg26 main_arg27 main_v63 main_v67

def fn_part2 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg16 : FVec F S500x64 .f32) (main_arg17 : FVec F S40x16 .f32) (main_arg18 : FVec F S256x1 .f32) (main_arg19 : FVec F S1 .f32) (main_arg20 : FVec F S256x32 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) (main_arg27 : FVec F S128x1 .f32) (main_v33 : IVec S_ 1) : IVec S_ 1 :=
  let main_v34 : FVec F S500x64 .f32 := Host.absf main_arg16
  let main_cst_12 : FVec F S_ .f32 := constant S_ .f32 0x7F800000#32
  let main_v35 : FVec F S500x64 .f32 := broadcastInDim S500x64 ![] bcast_S_S500x64 main_cst_12
  let main_v36 : IVec S500x64 1 := cmpf .olt main_v34 main_v35
  let main_c_13 : IVec S_ 1 := constantI S_ 1 1#1
  let main_v37 : IVec S_ 1 := (fun x v => Host.reduce IntOp.andi x v reducesTo_S500x64_S_d0_1 h_S_) main_v36 main_c_13
  let main_v38 : IVec S_ 1 := andi main_v33 main_v37
  let main_v39 : FVec F S40x16 .f32 := Host.absf main_arg17
  let main_cst_14 : FVec F S_ .f32 := constant S_ .f32 0x7F800000#32
  let main_v40 : FVec F S40x16 .f32 := broadcastInDim S40x16 ![] bcast_S_S40x16 main_cst_14
  let main_v41 : IVec S40x16 1 := cmpf .olt main_v39 main_v40
  let main_c_15 : IVec S_ 1 := constantI S_ 1 1#1
  let main_v42 : IVec S_ 1 := (fun x v => Host.reduce IntOp.andi x v reducesTo_S40x16_S_d0_1 h_S_) main_v41 main_c_15
  let main_v43 : IVec S_ 1 := andi main_v38 main_v42
  let main_v44 : FVec F S256x1 .f32 := Host.absf main_arg18
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg19
  let main_cst_18 : FVec F S_ .f32 := constant S_ .f32 0x7F800000#32
  let main_v50 : FVec F S1 .f32 := broadcastInDim S1 ![] bcast_S_S1 main_cst_18
  fn_part3 (F := F) main_arg0 main_arg1 main_arg2 main_arg3 main_arg4 main_arg5 main_arg6 main_arg7 main_arg8 main_arg20 main_arg21 main_arg22 main_arg23 main_arg24 main_arg25 main_arg26 main_arg27 main_v48 main_v49 main_v50

def fn_part1 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg13 : FVec F S25x8 .f32) (main_arg14 : FVec F S61x8 .f32) (main_arg15 : FVec F S61x8 .f32) (main_arg16 : FVec F S500x64 .f32) (main_arg17 : FVec F S40x16 .f32) (main_arg18 : FVec F S256x1 .f32) (main_arg19 : FVec F S1 .f32) (main_arg20 : FVec F S256x32 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) (main_arg27 : FVec F S128x1 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S25x8 .f32 := Host.absf main_arg13
  let main_cst_6 : FVec F S_ .f32 := constant S_ .f32 0x7F800000#32
  let main_v20 : FVec F S25x8 .f32 := broadcastInDim S25x8 ![] bcast_S_S25x8 main_cst_6
  let main_v21 : IVec S25x8 1 := cmpf .olt main_v19 main_v20
  let main_c_7 : IVec S_ 1 := constantI S_ 1 1#1
  let main_v22 : IVec S_ 1 := (fun x v => Host.reduce IntOp.andi x v reducesTo_S25x8_S_d0_1 h_S_) main_v21 main_c_7
  let main_v23 : IVec S_ 1 := andi main_v18 main_v22
  let main_v24 : FVec F S61x8 .f32 := Host.absf main_arg14
  let main_cst_8 : FVec F S_ .f32 := constant S_ .f32 0x7F800000#32
  let main_v25 : FVec F S61x8 .f32 := broadcastInDim S61x8 ![] bcast_S_S61x8 main_cst_8
  let main_v26 : IVec S61x8 1 := cmpf .olt main_v24 main_v25
  let main_c_9 : IVec S_ 1 := constantI S_ 1 1#1
  let main_v27 : IVec S_ 1 := (fun x v => Host.reduce IntOp.andi x v reducesTo_S61x8_S_d0_1 h_S_) main_v26 main_c_9
  let main_v28 : IVec S_ 1 := andi main_v23 main_v27
  let main_v29 : FVec F S61x8 .f32 := Host.absf main_arg15
  let main_cst_10 : FVec F S_ .f32 := constant S_ .f32 0x7F800000#32
  let main_v30 : FVec F S61x8 .f32 := broadcastInDim S61x8 ![] bcast_S_S61x8 main_cst_10
  let main_v31 : IVec S61x8 1 := cmpf .olt main_v29 main_v30
  let main_c_11 : IVec S_ 1 := constantI S_ 1 1#1
  let main_v32 : IVec S_ 1 := (fun x v => Host.reduce IntOp.andi x v reducesTo_S61x8_S_d0_1 h_S_) main_v31 main_c_11
  let main_v33 : IVec S_ 1 := andi main_v28 main_v32
  fn_part2 (F := F) main_arg0 main_arg1 main_arg2 main_arg3 main_arg4 main_arg5 main_arg6 main_arg7 main_arg8 main_arg16 main_arg17 main_arg18 main_arg19 main_arg20 main_arg21 main_arg22 main_arg23 main_arg24 main_arg25 main_arg26 main_arg27 main_v33

def fn {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : FVec F S1000000x64 .f32) (main_arg10 : FVec F S100x64 .f32) (main_arg11 : FVec F S5x8 .f32) (main_arg12 : FVec F S8x16 .f32) (main_arg13 : FVec F S25x8 .f32) (main_arg14 : FVec F S61x8 .f32) (main_arg15 : FVec F S61x8 .f32) (main_arg16 : FVec F S500x64 .f32) (main_arg17 : FVec F S40x16 .f32) (main_arg18 : FVec F S256x1 .f32) (main_arg19 : FVec F S1 .f32) (main_arg20 : FVec F S256x32 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) (main_arg27 : FVec F S128x1 .f32) : IVec S_ 1 :=
  let main_v0 : FVec F S1000000x64 .f32 := Host.absf main_arg9
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100x64 .f32 := Host.absf main_arg10
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S5x8 .f32 := Host.absf main_arg11
  let main_cst_2 : FVec F S_ .f32 := constant S_ .f32 0x7F800000#32
  let main_v10 : FVec F S5x8 .f32 := broadcastInDim S5x8 ![] bcast_S_S5x8 main_cst_2
  let main_v11 : IVec S5x8 1 := cmpf .olt main_v9 main_v10
  let main_c_3 : IVec S_ 1 := constantI S_ 1 1#1
  let main_v12 : IVec S_ 1 := (fun x v => Host.reduce IntOp.andi x v reducesTo_S5x8_S_d0_1 h_S_) main_v11 main_c_3
  let main_v13 : IVec S_ 1 := andi main_v8 main_v12
  let main_v14 : FVec F S8x16 .f32 := Host.absf main_arg12
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg0 main_arg1 main_arg2 main_arg3 main_arg4 main_arg5 main_arg6 main_arg7 main_arg8 main_arg13 main_arg14 main_arg15 main_arg16 main_arg17 main_arg18 main_arg19 main_arg20 main_arg21 main_arg22 main_arg23 main_arg24 main_arg25 main_arg26 main_arg27 main_v13 main_v16
-- ==== Kernel.lean ====
abbrev S16384 : Shape := ⟨1, ![16384]⟩
abbrev S1000000x64 : Shape := ⟨2, ![1000000, 64]⟩
abbrev S100x64 : Shape := ⟨2, ![100, 64]⟩
abbrev S5x8 : Shape := ⟨2, ![5, 8]⟩
abbrev S8x16 : Shape := ⟨2, ![8, 16]⟩
abbrev S25x8 : Shape := ⟨2, ![25, 8]⟩
abbrev S61x8 : Shape := ⟨2, ![61, 8]⟩
abbrev S500x64 : Shape := ⟨2, ![500, 64]⟩
abbrev S40x16 : Shape := ⟨2, ![40, 16]⟩
abbrev S256x1 : Shape := ⟨2, ![256, 1]⟩
abbrev S1 : Shape := ⟨1, ![1]⟩
abbrev S256x32 : Shape := ⟨2, ![256, 32]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S64x1000000 : Shape := ⟨2, ![64, 1000000]⟩
abbrev S507904x128 : Shape := ⟨2, ![507904, 128]⟩
abbrev S64x32768 : Shape := ⟨2, ![64, 32768]⟩
abbrev S16384x128 : Shape := ⟨2, ![16384, 128]⟩
abbrev S32768x64 : Shape := ⟨2, ![32768, 64]⟩
abbrev S16384x64 : Shape := ⟨2, ![16384, 64]⟩
abbrev S512 : Shape := ⟨1, ![512]⟩
abbrev S512x128 : Shape := ⟨2, ![512, 128]⟩
abbrev S_ : Shape := ⟨0, ![]⟩
abbrev S16 : Shape := ⟨1, ![16]⟩
abbrev S8x1x2048 : Shape := ⟨3, ![8, 1, 2048]⟩
abbrev S1x1 : Shape := ⟨2, ![1, 1]⟩
abbrev S1x128 : Shape := ⟨2, ![1, 128]⟩
abbrev S16384x1 : Shape := ⟨2, ![16384, 1]⟩
abbrev S2048x128 : Shape := ⟨2, ![2048, 128]⟩
abbrev S1x1x2048 : Shape := ⟨3, ![1, 1, 2048]⟩
abbrev S2048x1 : Shape := ⟨2, ![2048, 1]⟩
abbrev S2048 : Shape := ⟨1, ![2048]⟩
abbrev S2048x64 : Shape := ⟨2, ![2048, 64]⟩
abbrev S2048x100 : Shape := ⟨2, ![2048, 100]⟩
abbrev S2048x5 : Shape := ⟨2, ![2048, 5]⟩
abbrev S2048x8 : Shape := ⟨2, ![2048, 8]⟩
abbrev S2048x16 : Shape := ⟨2, ![2048, 16]⟩
abbrev S2048x25 : Shape := ⟨2, ![2048, 25]⟩
abbrev S2048x61 : Shape := ⟨2, ![2048, 61]⟩
abbrev S2048x500 : Shape := ⟨2, ![2048, 500]⟩
abbrev S2048x40 : Shape := ⟨2, ![2048, 40]⟩
abbrev S2048x256 : Shape := ⟨2, ![2048, 256]⟩
abbrev S2048x32 : Shape := ⟨2, ![2048, 32]⟩

abbrev nBuf : Table → Nat
  | .hbm => 45
  | .local .tc .vmem => 44
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S1000000x64, .f32⟩
  | .hbm, ⟨10, _⟩ => ⟨S100x64, .f32⟩
  | .hbm, ⟨11, _⟩ => ⟨S5x8, .f32⟩
  | .hbm, ⟨12, _⟩ => ⟨S8x16, .f32⟩
  | .hbm, ⟨13, _⟩ => ⟨S25x8, .f32⟩
  | .hbm, ⟨14, _⟩ => ⟨S61x8, .f32⟩
  | .hbm, ⟨15, _⟩ => ⟨S61x8, .f32⟩
  | .hbm, ⟨16, _⟩ => ⟨S500x64, .f32⟩
  | .hbm, ⟨17, _⟩ => ⟨S40x16, .f32⟩
  | .hbm, ⟨18, _⟩ => ⟨S256x1, .f32⟩
  | .hbm, ⟨19, _⟩ => ⟨S1, .f32⟩
  | .hbm, ⟨20, _⟩ => ⟨S256x32, .f32⟩
  | .hbm, ⟨21, _⟩ => ⟨S256x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S128x1, .f32⟩
  | .hbm, ⟨28, _⟩ => ⟨S64x1000000, .f32⟩
  | .hbm, ⟨29, _⟩ => ⟨S507904x128, .f32⟩
  | .hbm, ⟨30, _⟩ => ⟨S16384x128, .f32⟩
  | .hbm, ⟨31, _⟩ => ⟨S8x1x2048, .i32⟩
  | .hbm, ⟨32, _⟩ => ⟨S8x1x2048, .i32⟩
  | .hbm, ⟨33, _⟩ => ⟨S8x1x2048, .i32⟩
  | .hbm, ⟨34, _⟩ => ⟨S8x1x2048, .i32⟩
  | .hbm, ⟨35, _⟩ => ⟨S8x1x2048, .i32⟩
  | .hbm, ⟨36, _⟩ => ⟨S8x1x2048, .i32⟩
  | .hbm, ⟨37, _⟩ => ⟨S8x1x2048, .i32⟩
  | .hbm, ⟨38, _⟩ => ⟨S8x1x2048, .i32⟩
  | .hbm, ⟨39, _⟩ => ⟨S8x1x2048, .i32⟩
  | .hbm, ⟨40, _⟩ => ⟨S1x1, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S16384x1, .f32⟩
  | .local .tc .vmem, ⟨0, _⟩ => ⟨S64x32768, .f32⟩
  | .local .tc .vmem, ⟨1, _⟩ => ⟨S64x32768, .f32⟩
  | .local .tc .vmem, ⟨2, _⟩ => ⟨S16384x128, .f32⟩
  | .local .tc .vmem, ⟨3, _⟩ => ⟨S16384x128, .f32⟩
  | .local .tc .vmem, ⟨4, _⟩ => ⟨S2048x128, .f32⟩
  | .local .tc .vmem, ⟨5, _⟩ => ⟨S2048x128, .f32⟩
  | .local .tc .vmem, ⟨6, _⟩ => ⟨S1x1x2048, .i32⟩
  | .local .tc .vmem, ⟨7, _⟩ => ⟨S1x1x2048, .i32⟩
  | .local .tc .vmem, ⟨8, _⟩ => ⟨S1x1x2048, .i32⟩
  | .local .tc .vmem, ⟨9, _⟩ => ⟨S1x1x2048, .i32⟩
  | .local .tc .vmem, ⟨10, _⟩ => ⟨S1x1x2048, .i32⟩
  | .local .tc .vmem, ⟨11, _⟩ => ⟨S1x1x2048, .i32⟩
  | .local .tc .vmem, ⟨12, _⟩ => ⟨S1x1x2048, .i32⟩
  | .local .tc .vmem, ⟨13, _⟩ => ⟨S1x1x2048, .i32⟩
  | .local .tc .vmem, ⟨14, _⟩ => ⟨S1x1x2048, .i32⟩
  | .local .tc .vmem, ⟨15, _⟩ => ⟨S1x1x2048, .i32⟩
  | .local .tc .vmem, ⟨16, _⟩ => ⟨S1x1x2048, .i32⟩
  | .local .tc .vmem, ⟨17, _⟩ => ⟨S1x1x2048, .i32⟩
  | .local .tc .vmem, ⟨18, _⟩ => ⟨S1x1x2048, .i32⟩
  | .local .tc .vmem, ⟨19, _⟩ => ⟨S1x1x2048, .i32⟩
  | .local .tc .vmem, ⟨20, _⟩ => ⟨S1x1x2048, .i32⟩
  | .local .tc .vmem, ⟨21, _⟩ => ⟨S1x1x2048, .i32⟩
  | .local .tc .vmem, ⟨22, _⟩ => ⟨S1x1x2048, .i32⟩
  | .local .tc .vmem, ⟨23, _⟩ => ⟨S1x1x2048, .i32⟩
  | .local .tc .vmem, ⟨24, _⟩ => ⟨S100x64, .f32⟩
  | .local .tc .vmem, ⟨25, _⟩ => ⟨S5x8, .f32⟩
  | .local .tc .vmem, ⟨26, _⟩ => ⟨S8x16, .f32⟩
  | .local .tc .vmem, ⟨27, _⟩ => ⟨S25x8, .f32⟩
  | .local .tc .vmem, ⟨28, _⟩ => ⟨S61x8, .f32⟩
  | .local .tc .vmem, ⟨29, _⟩ => ⟨S61x8, .f32⟩
  | .local .tc .vmem, ⟨30, _⟩ => ⟨S500x64, .f32⟩
  | .local .tc .vmem, ⟨31, _⟩ => ⟨S40x16, .f32⟩
  | .local .tc .vmem, ⟨32, _⟩ => ⟨S256x1, .f32⟩
  | .local .tc .vmem, ⟨33, _⟩ => ⟨S1x1, .f32⟩
  | .local .tc .vmem, ⟨34, _⟩ => ⟨S256x32, .f32⟩
  | .local .tc .vmem, ⟨35, _⟩ => ⟨S256x128, .f32⟩
  | .local .tc .vmem, ⟨36, _⟩ => ⟨S1x128, .f32⟩
  | .local .tc .vmem, ⟨37, _⟩ => ⟨S128x128, .f32⟩
  | .local .tc .vmem, ⟨38, _⟩ => ⟨S1x128, .f32⟩
  | .local .tc .vmem, ⟨39, _⟩ => ⟨S128x128, .f32⟩
  | .local .tc .vmem, ⟨40, _⟩ => ⟨S1x128, .f32⟩
  | .local .tc .vmem, ⟨41, _⟩ => ⟨S128x1, .f32⟩
  | .local .tc .vmem, ⟨42, _⟩ => ⟨S2048x1, .f32⟩
  | .local .tc .vmem, ⟨43, _⟩ => ⟨S2048x1, .f32⟩
  | .local .scVector .vmem, ⟨0, _⟩ => ⟨S512, .i32⟩
  | .local .scVector .vmem, ⟨1, _⟩ => ⟨S512, .i32⟩
  | .local .scVector .vmem, ⟨2, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 47 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTables nBuf rfl bufTy 4 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v1_scv : Ref sig .scVector := ⟨.hbm, 29, rfl⟩
abbrev main_arg0_scv : Ref sig .scVector := ⟨.hbm, 0, rfl⟩
abbrev main_v2_scv : Ref sig .scVector := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg5_1 : Ref sig .tc := ⟨.vmem, 15, rfl⟩
abbrev cc2_stg6_0 : Ref sig .tc := ⟨.vmem, 16, rfl⟩
abbrev cc2_stg6_1 : Ref sig .tc := ⟨.vmem, 17, rfl⟩
abbrev cc2_stg7_0 : Ref sig .tc := ⟨.vmem, 18, rfl⟩
abbrev cc2_stg7_1 : Ref sig .tc := ⟨.vmem, 19, rfl⟩
abbrev cc2_stg8_0 : Ref sig .tc := ⟨.vmem, 20, rfl⟩
abbrev cc2_stg8_1 : Ref sig .tc := ⟨.vmem, 21, rfl⟩
abbrev cc2_stg9_0 : Ref sig .tc := ⟨.vmem, 22, rfl⟩
abbrev cc2_stg9_1 : Ref sig .tc := ⟨.vmem, 23, rfl⟩
abbrev cc2_stg10_0 : Ref sig .tc := ⟨.vmem, 24, rfl⟩
abbrev cc2_stg11_0 : Ref sig .tc := ⟨.vmem, 25, rfl⟩
abbrev cc2_stg12_0 : Ref sig .tc := ⟨.vmem, 26, rfl⟩
abbrev cc2_stg13_0 : Ref sig .tc := ⟨.vmem, 27, rfl⟩
abbrev cc2_stg14_0 : Ref sig .tc := ⟨.vmem, 28, rfl⟩
abbrev cc2_stg15_0 : Ref sig .tc := ⟨.vmem, 29, rfl⟩
abbrev cc2_stg16_0 : Ref sig .tc := ⟨.vmem, 30, rfl⟩
abbrev cc2_stg17_0 : Ref sig .tc := ⟨.vmem, 31, rfl⟩
abbrev cc2_stg18_0 : Ref sig .tc := ⟨.vmem, 32, rfl⟩
abbrev cc2_stg19_0 : Ref sig .tc := ⟨.vmem, 33, rfl⟩
abbrev cc2_stg20_0 : Ref sig .tc := ⟨.vmem, 34, rfl⟩
abbrev cc2_stg21_0 : Ref sig .tc := ⟨.vmem, 35, rfl⟩
abbrev cc2_stg22_0 : Ref sig .tc := ⟨.vmem, 36, rfl⟩
abbrev cc2_stg23_0 : Ref sig .tc := ⟨.vmem, 37, rfl⟩
abbrev cc2_stg24_0 : Ref sig .tc := ⟨.vmem, 38, rfl⟩
abbrev cc2_stg25_0 : Ref sig .tc := ⟨.vmem, 39, rfl⟩
abbrev cc2_stg26_0 : Ref sig .tc := ⟨.vmem, 40, rfl⟩
abbrev cc2_stg27_0 : Ref sig .tc := ⟨.vmem, 41, rfl⟩
abbrev cc2_stg28_0 : Ref sig .tc := ⟨.vmem, 42, rfl⟩
abbrev cc2_stg28_1 : Ref sig .tc := ⟨.vmem, 43, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16
abbrev cc2_sem5_0 : DmaSem sig := 17
abbrev cc2_sem5_1 : DmaSem sig := 18
abbrev cc2_sem6_0 : DmaSem sig := 19
abbrev cc2_sem6_1 : DmaSem sig := 20
abbrev cc2_sem7_0 : DmaSem sig := 21
abbrev cc2_sem7_1 : DmaSem sig := 22
abbrev cc2_sem8_0 : DmaSem sig := 23
abbrev cc2_sem8_1 : DmaSem sig := 24
abbrev cc2_sem9_0 : DmaSem sig := 25
abbrev cc2_sem9_1 : DmaSem sig := 26
abbrev cc2_sem10_0 : DmaSem sig := 27
abbrev cc2_sem11_0 : DmaSem sig := 28
abbrev cc2_sem12_0 : DmaSem sig := 29
abbrev cc2_sem13_0 : DmaSem sig := 30
abbrev cc2_sem14_0 : DmaSem sig := 31
abbrev cc2_sem15_0 : DmaSem sig := 32
abbrev cc2_sem16_0 : DmaSem sig := 33
abbrev cc2_sem17_0 : DmaSem sig := 34
abbrev cc2_sem18_0 : DmaSem sig := 35
abbrev cc2_sem19_0 : DmaSem sig := 36
abbrev cc2_sem20_0 : DmaSem sig := 37
abbrev cc2_sem21_0 : DmaSem sig := 38
abbrev cc2_sem22_0 : DmaSem sig := 39
abbrev cc2_sem23_0 : DmaSem sig := 40
abbrev cc2_sem24_0 : DmaSem sig := 41
abbrev cc2_sem25_0 : DmaSem sig := 42
abbrev cc2_sem26_0 : DmaSem sig := 43
abbrev cc2_sem27_0 : DmaSem sig := 44
abbrev cc2_sem28_0 : DmaSem sig := 45
abbrev cc2_sem28_1 : DmaSem sig := 46
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_128_r1 : BitVec 32 := 0#32
  ![v2.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_22 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_23 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_24 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_25 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_26 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_27 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_28 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x2048 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x2048 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x2048 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x2048 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x2048 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x2048 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x2048 .i32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x2048 .i32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S100x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S5x8 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S8x16 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S25x8 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S61x8 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S61x8 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S500x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S40x16 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S256x1 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S1x1 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S256x32 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 1 → Memref sig .tc .vmem S256x128 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false]

abbrev stage2_22 : Fin 1 → Memref sig .tc .vmem S1x128 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
abbrev reads2_22 : Fin grid2.rank → Bool := ![false]

abbrev stage2_23 : Fin 1 → Memref sig .tc .vmem S128x128 .f32 := fun | 0 => Memref.whole cc2_stg23_0 | ⟨_ + 1, h⟩ => absurd h (Nat.not_lt.2 (Nat.le_add_left _ _))
abbrev sem2_23 : Fin 1 → DmaSem sig := fun | 0 => cc2_sem23_0 | ⟨_ + 1, h⟩ => absurd h (Nat.not_lt.2 (Nat.le_add_left _ _))
abbrev reads2_23 : Fin grid2.rank → Bool := ![false]

abbrev stage2_24 : Fin 1 → Memref sig .tc .vmem S1x128 .f32 := fun | 0 => Memref.whole cc2_stg24_0 | ⟨_ + 1, h⟩ => absurd h (Nat.not_lt.2 (Nat.le_add_left _ _))
abbrev sem2_24 : Fin 1 → DmaSem sig := fun | 0 => cc2_sem24_0 | ⟨_ + 1, h⟩ => absurd h (Nat.not_lt.2 (Nat.le_add_left _ _))
abbrev reads2_24 : Fin grid2.rank → Bool := ![false]

abbrev stage2_25 : Fin 1 → Memref sig .tc .vmem S128x128 .f32 := fun | 0 => Memref.whole cc2_stg25_0 | ⟨_ + 1, h⟩ => absurd h (Nat.not_lt.2 (Nat.le_add_left _ _))
abbrev sem2_25 : Fin 1 → DmaSem sig := fun | 0 => cc2_sem25_0 | ⟨_ + 1, h⟩ => absurd h (Nat.not_lt.2 (Nat.le_add_left _ _))
abbrev reads2_25 : Fin grid2.rank → Bool := ![false]

abbrev stage2_26 : Fin 1 → Memref sig .tc .vmem S1x128 .f32 := fun | 0 => Memref.whole cc2_stg26_0 | ⟨_ + 1, h⟩ => absurd h (Nat.not_lt.2 (Nat.le_add_left _ _))
abbrev sem2_26 : Fin 1 → DmaSem sig := fun | 0 => cc2_sem26_0 | ⟨_ + 1, h⟩ => absurd h (Nat.not_lt.2 (Nat.le_add_left _ _))
abbrev reads2_26 : Fin grid2.rank → Bool := ![false]

abbrev stage2_27 : Fin 1 → Memref sig .tc .vmem S128x1 .f32 := fun | 0 => Memref.whole cc2_stg27_0 | ⟨_ + 1, h⟩ => absurd h (Nat.not_lt.2 (Nat.le_add_left _ _))
abbrev sem2_27 : Fin 1 → DmaSem sig := fun | 0 => cc2_sem27_0 | ⟨_ + 1, h⟩ => absurd h (Nat.not_lt.2 (Nat.le_add_left _ _))
abbrev reads2_27 : Fin grid2.rank → Bool := ![false]

abbrev stage2_28 : Fin 2 → Memref sig .tc .vmem S2048x1 .f32 := fun | 0 => Memref.whole cc2_stg28_0 | 1 => Memref.whole cc2_stg28_1 | ⟨_ + 2, h⟩ => absurd h (Nat.not_lt.2 (Nat.le_add_left _ _))
abbrev sem2_28 : Fin 2 → DmaSem sig := fun | 0 => cc2_sem28_0 | 1 => cc2_sem28_1 | ⟨_ + 2, h⟩ => absurd h (Nat.not_lt.2 (Nat.le_add_left _ _))
abbrev reads2_28 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  transposes_S64x32768_p1_0_S32768x64 : S64x32768.Transposes [1, 0] S32768x64
  slices_S32768x64_o0_0_S16384x64 : S32768x64.Slices ![0, 0] S16384x64
  slices_S32768x64_o16384_0_S16384x64 : S32768x64.Slices ![16384, 0] S16384x64
  concatenates_S16384x64_S16384x64_S16384x128_d1 : Shape.Concatenates [S16384x64, S16384x64] S16384x128 1
  inb_S16384x128_S16384x128_0_0 : ∀ a, (![0, 0] : Fin 2 → Nat) a + S16384x128.size a ≤ S16384x128.size a
  h_S16384x128 : 0 < S16384x128.numel
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  inb_S507904x128_S507904x128_0_0 : ∀ a, (![0, 0] : Fin 2 → Nat) a + S507904x128.size a ≤ S507904x128.size a
  gathers_S507904x128_S512x128 : S507904x128.Gathers 0 S512x128
  shapeCasts_S16384_S8x1x2048 : S16384.ShapeCasts S8x1x2048
  shapeCasts_S1_S1x1 : S1.ShapeCasts S1x1
  shapeCasts_S128_S1x128 : S128.ShapeCasts S1x128
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048_S2048x1 : S2048.ShapeCasts S2048x1
  slices_S2048x128_o0_64_S2048x64 : S2048x128.Slices ![0, 64] S2048x64
  slices_S2048x128_o0_0_S2048x64 : S2048x128.Slices ![0, 0] S2048x64
  shapeCasts_S2048x1_S2048x1 : S2048x1.ShapeCasts S2048x1
  broadcasts_S2048x1_S2048x64 : S2048x1.Broadcasts S2048x64
  inb_S100x64_S100x64_0_0 : ∀ a, (![0, 0] : Fin 2 → Nat) a + S100x64.size a ≤ S100x64.size a
  h_S100x64 : 0 < S100x64.numel
  iota_S2048x100_d1_w32 : S2048x100.Iotas .tc 32 [1]
  broadcasts_S2048x1_S2048x100 : S2048x1.Broadcasts S2048x100
  inb_S5x8_S5x8_0_0 : ∀ a, (![0, 0] : Fin 2 → Nat) a + S5x8.size a ≤ S5x8.size a
  h_S5x8 : 0 < S5x8.numel
  iota_S2048x5_d1_w32 : S2048x5.Iotas .tc 32 [1]
  broadcasts_S2048x1_S2048x5 : S2048x1.Broadcasts S2048x5
  inb_S8x16_S8x16_0_0 : ∀ a, (![0, 0] : Fin 2 → Nat) a + S8x16.size a ≤ S8x16.size a
  h_S8x16 : 0 < S8x16.numel
  iota_S2048x8_d1_w32 : S2048x8.Iotas .tc 32 [1]
  broadcasts_S2048x1_S2048x8 : S2048x1.Broadcasts S2048x8
  inb_S25x8_S25x8_0_0 : ∀ a, (![0, 0] : Fin 2 → Nat) a + S25x8.size a ≤ S25x8.size a
  h_S25x8 : 0 < S25x8.numel
  iota_S2048x25_d1_w32 : S2048x25.Iotas .tc 32 [1]
  broadcasts_S2048x1_S2048x25 : S2048x1.Broadcasts S2048x25
  inb_S61x8_S61x8_0_0 : ∀ a, (![0, 0] : Fin 2 → Nat) a + S61x8.size a ≤ S61x8.size a
  h_S61x8 : 0 < S61x8.numel
  iota_S2048x61_d1_w32 : S2048x61.Iotas .tc 32 [1]
  broadcasts_S2048x1_S2048x61 : S2048x1.Broadcasts S2048x61
  inb_S500x64_S500x64_0_0 : ∀ a, (![0, 0] : Fin 2 → Nat) a + S500x64.size a ≤ S500x64.size a
  h_S500x64 : 0 < S500x64.numel
  iota_S2048x500_d1_w32 : S2048x500.Iotas .tc 32 [1]
  broadcasts_S2048x1_S2048x500 : S2048x1.Broadcasts S2048x500
  inb_S40x16_S40x16_0_0 : ∀ a, (![0, 0] : Fin 2 → Nat) a + S40x16.size a ≤ S40x16.size a
  h_S40x16 : 0 < S40x16.numel
  iota_S2048x40_d1_w32 : S2048x40.Iotas .tc 32 [1]
  broadcasts_S2048x1_S2048x40 : S2048x1.Broadcasts S2048x40
  concatenates_S2048x64_S2048x64_S2048x8_S2048x16_S2048x8_S2048x8_S2048x8_S2048x64_S2048x16_S2048x256_d1 : Shape.Concatenates [S2048x64, S2048x64, S2048x8, S2048x16, S2048x8, S2048x8, S2048x8, S2048x64, S2048x16] S2048x256 1
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x32_S256x32_0_0 : ∀ a, (![0, 0] : Fin 2 → Nat) a + S256x32.size a ≤ S256x32.size a
  h_S256x32 : 0 < S256x32.numel
  reduces_S2048x32_S2048 : S2048x32.Reduces [1] S2048
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S2048x1_S2048x1_0_0 : ∀ a, (![0, 0] : Fin 2 → Nat) a + S2048x1.size a ≤ S2048x1.size a
  h_S2048x1 : 0 < S2048x1.numel
  dot_S2048x100_S100x64_S2048x64_1_0_0_1_n_n_wf : DotDims.WF S2048x100 S100x64 S2048x64 [1] [0] [0] [1] [] []
  dot_S2048x5_S5x8_S2048x8_1_0_0_1_n_n_wf : DotDims.WF S2048x5 S5x8 S2048x8 [1] [0] [0] [1] [] []
  dot_S2048x8_S8x16_S2048x16_1_0_0_1_n_n_wf : DotDims.WF S2048x8 S8x16 S2048x16 [1] [0] [0] [1] [] []
  dot_S2048x25_S25x8_S2048x8_1_0_0_1_n_n_wf : DotDims.WF S2048x25 S25x8 S2048x8 [1] [0] [0] [1] [] []
  dot_S2048x61_S61x8_S2048x8_1_0_0_1_n_n_wf : DotDims.WF S2048x61 S61x8 S2048x8 [1] [0] [0] [1] [] []
  dot_S2048x500_S500x64_S2048x64_1_0_0_1_n_n_wf : DotDims.WF S2048x500 S500x64 S2048x64 [1] [0] [0] [1] [] []
  dot_S2048x40_S40x16_S2048x16_1_0_0_1_n_n_wf : DotDims.WF S2048x40 S40x16 S2048x16 [1] [0] [0] [1] [] []
  dot_S2048x256_S256x1_S2048x1_1_0_0_1_n_n_wf : DotDims.WF S2048x256 S256x1 S2048x1 [1] [0] [0] [1] [] []
  dot_S2048x256_S256x32_S2048x32_1_0_0_1_n_n_wf : DotDims.WF S2048x256 S256x32 S2048x32 [1] [0] [0] [1] [] []
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hcc1_scratch3 : 4 + S_.numel ≤ 47
  hcc1_scoped0 : 5 + S_.numel ≤ 47
  hcc1_scoped1 : 6 + S_.numel ≤ 47
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x32768.size a < S64x1000000.size a
  hwx0_0 : ∀ i : grid0.Coords, EltTy.bits .f32 = 32 ∨ (Rect.unit (s := S64x1000000) (fun a => cc0_transform_0 i a * S64x32768.size a) (fun a => (Pipeline.Clip.of (cc0_transform_0 i a) (S64x32768.size a) (S64x1000000.size a)).extent (S64x32768.size a)) fun a => Pipeline.Clip.inb (Pipeline.Clip.ok_of (hstart0_0 i a))).WholeWords (EltTy.packing .f32)
  hwxs0_0 : ∀ i : grid0.Coords, EltTy.bits .f32 = 32 ∨ (Rect.unit (s := S64x32768) (fun _ => 0) (fun a => (Pipeline.Clip.of (cc0_transform_0 i a) (S64x32768.size a) (S64x1000000.size a)).extent (S64x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S507904x128.size a
  hwx0_1 : ∀ i : grid0.Coords, EltTy.bits .f32 = 32 ∨ (Rect.block (s := S507904x128) S16384x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_off2_inb : ∀ i : grid1.Coords, ∀ a, (k1_off2 i) a + S512x128.size a ≤ S16384x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x2048.size a ≤ S8x1x2048.size a
  hwx2_1 : ∀ i : grid2.Coords, EltTy.bits .i32 = 32 ∨ (Rect.block (s := S8x1x2048) S1x1x2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x2048.size a ≤ S8x1x2048.size a
  hwx2_2 : ∀ i : grid2.Coords, EltTy.bits .i32 = 32 ∨ (Rect.block (s := S8x1x2048) S1x1x2048.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x2048.size a ≤ S8x1x2048.size a
  hwx2_3 : ∀ i : grid2.Coords, EltTy.bits .i32 = 32 ∨ (Rect.block (s := S8x1x2048) S1x1x2048.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x2048.size a ≤ S8x1x2048.size a
  hwx2_4 : ∀ i : grid2.Coords, EltTy.bits .i32 = 32 ∨ (Rect.block (s := S8x1x2048) S1x1x2048.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x2048.size a ≤ S8x1x2048.size a
  hwx2_5 : ∀ i : grid2.Coords, EltTy.bits .i32 = 32 ∨ (Rect.block (s := S8x1x2048) S1x1x2048.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x2048.size a ≤ S8x1x2048.size a
  hwx2_6 : ∀ i : grid2.Coords, EltTy.bits .i32 = 32 ∨ (Rect.block (s := S8x1x2048) S1x1x2048.size (cc2_transform_6 i) (hinb2_6 i)).WholeWords (EltTy.packing .i32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x2048.size a ≤ S8x1x2048.size a
  hwx2_7 : ∀ i : grid2.Coords, EltTy.bits .i32 = 32 ∨ (Rect.block (s := S8x1x2048) S1x1x2048.size (cc2_transform_7 i) (hinb2_7 i)).WholeWords (EltTy.packing .i32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x2048.size a ≤ S8x1x2048.size a
  hwx2_8 : ∀ i : grid2.Coords, EltTy.bits .i32 = 32 ∨ (Rect.block (s := S8x1x2048) S1x1x2048.size (cc2_transform_8 i) (hinb2_8 i)).WholeWords (EltTy.packing .i32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x2048.size a ≤ S8x1x2048.size a
  hwx2_9 : ∀ i : grid2.Coords, EltTy.bits .i32 = 32 ∨ (Rect.block (s := S8x1x2048) S1x1x2048.size (cc2_transform_9 i) (hinb2_9 i)).WholeWords (EltTy.packing .i32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S100x64.size a ≤ S100x64.size a
  hwx2_10 : ∀ i : grid2.Coords, EltTy.bits .f32 = 32 ∨ (Rect.block (s := S100x64) S100x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S5x8.size a ≤ S5x8.size a
  hwx2_11 : ∀ i : grid2.Coords, EltTy.bits .f32 = 32 ∨ (Rect.block (s := S5x8) S5x8.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S8x16.size a ≤ S8x16.size a
  hwx2_12 : ∀ i : grid2.Coords, EltTy.bits .f32 = 32 ∨ (Rect.block (s := S8x16) S8x16.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S25x8.size a ≤ S25x8.size a
  hwx2_13 : ∀ i : grid2.Coords, EltTy.bits .f32 = 32 ∨ (Rect.block (s := S25x8) S25x8.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S61x8.size a ≤ S61x8.size a
  hwx2_14 : ∀ i : grid2.Coords, EltTy.bits .f32 = 32 ∨ (Rect.block (s := S61x8) S61x8.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S61x8.size a ≤ S61x8.size a
  hwx2_15 : ∀ i : grid2.Coords, EltTy.bits .f32 = 32 ∨ (Rect.block (s := S61x8) S61x8.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S500x64.size a ≤ S500x64.size a
  hwx2_16 : ∀ i : grid2.Coords, EltTy.bits .f32 = 32 ∨ (Rect.block (s := S500x64) S500x64.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S40x16.size a ≤ S40x16.size a
  hwx2_17 : ∀ i : grid2.Coords, EltTy.bits .f32 = 32 ∨ (Rect.block (s := S40x16) S40x16.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S256x1.size a ≤ S256x1.size a
  hwx2_18 : ∀ i : grid2.Coords, EltTy.bits .f32 = 32 ∨ (Rect.block (s := S256x1) S256x1.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S1x1.size a ≤ S1x1.size a
  hwx2_19 : ∀ i : grid2.Coords, EltTy.bits .f32 = 32 ∨ (Rect.block (s := S1x1) S1x1.size (cc2_transform_19 i) (hinb2_19 i)).WholeWords (EltTy.packing .f32)
  hstage2_20 : ∀ j, (stage2_20 j).IsWhole
  nbuf2_20 : grid2.bufCount reads2_20 true = 1
  hreads2_20 : ∀ i i' : grid2.Coords, (∀ a, reads2_20 a = true → i a = i' a) → cc2_transform_20 i = cc2_transform_20 i'
  hinb2_20 : ∀ (i : grid2.Coords) a, (cc2_transform_20 i a + 1) * S256x32.size a ≤ S256x32.size a
  hwx2_20 : ∀ i : grid2.Coords, EltTy.bits .f32 = 32 ∨ (Rect.block (s := S256x32) S256x32.size (cc2_transform_20 i) (hinb2_20 i)).WholeWords (EltTy.packing .f32)
  hstage2_21 : ∀ j, (stage2_21 j).IsWhole
  nbuf2_21 : grid2.bufCount reads2_21 true = 1
  hreads2_21 : ∀ i i' : grid2.Coords, (∀ a, reads2_21 a = true → i a = i' a) → cc2_transform_21 i = cc2_transform_21 i'
  hinb2_21 : ∀ (i : grid2.Coords) a, (cc2_transform_21 i a + 1) * S256x128.size a ≤ S256x128.size a
  hwx2_21 : ∀ i : grid2.Coords, EltTy.bits .f32 = 32 ∨ (Rect.block (s := S256x128) S256x128.size (cc2_transform_21 i) (hinb2_21 i)).WholeWords (EltTy.packing .f32)
  hstage2_22 : ∀ j, (stage2_22 j).IsWhole
  nbuf2_22 : grid2.bufCount reads2_22 true = 1
  hreads2_22 : ∀ i i' : grid2.Coords, (∀ a, reads2_22 a = true → i a = i' a) → cc2_transform_22 i = cc2_transform_22 i'
  hinb2_22 : ∀ (i : grid2.Coords) a, (cc2_transform_22 i a + 1) * S1x128.size a ≤ S1x128.size a
  hwx2_22 : ∀ i : grid2.Coords, EltTy.bits .f32 = 32 ∨ (Rect.block (s := S1x128) S1x128.size (cc2_transform_22 i) (hinb2_22 i)).WholeWords (EltTy.packing .f32)
  hstage2_23 : ∀ j, (stage2_23 j).IsWhole
  nbuf2_23 : grid2.bufCount reads2_23 true = 1
  hreads2_23 : ∀ i i' : grid2.Coords, (∀ a, reads2_23 a = true → i a = i' a) → cc2_transform_23 i = cc2_transform_23 i'
  hinb2_23 : ∀ (i : grid2.Coords) a, (cc2_transform_23 i a + 1) * S128x128.size a ≤ S128x128.size a
  hwx2_23 : ∀ i : grid2.Coords, EltTy.bits .f32 = 32 ∨ (Rect.block (s := S128x128) S128x128.size (cc2_transform_23 i) (hinb2_23 i)).WholeWords (EltTy.packing .f32)
  hstage2_24 : ∀ j, (stage2_24 j).IsWhole
  nbuf2_24 : grid2.bufCount reads2_24 true = 1
  hreads2_24 : ∀ i i' : grid2.Coords, (∀ a, reads2_24 a = true → i a = i' a) → cc2_transform_24 i = cc2_transform_24 i'
  hinb2_24 : ∀ (i : grid2.Coords) a, (cc2_transform_24 i a + 1) * S1x128.size a ≤ S1x128.size a
  hwx2_24 : ∀ i : grid2.Coords, EltTy.bits .f32 = 32 ∨ (Rect.block (s := S1x128) S1x128.size (cc2_transform_24 i) (hinb2_24 i)).WholeWords (EltTy.packing .f32)
  hstage2_25 : ∀ j, (stage2_25 j).IsWhole
  nbuf2_25 : grid2.bufCount reads2_25 true = 1
  hreads2_25 : ∀ i i' : grid2.Coords, (∀ a, reads2_25 a = true → i a = i' a) → cc2_transform_25 i = cc2_transform_25 i'
  hinb2_25 : ∀ (i : grid2.Coords) a, (cc2_transform_25 i a + 1) * S128x128.size a ≤ S128x128.size a
  hwx2_25 : ∀ i : grid2.Coords, EltTy.bits .f32 = 32 ∨ (Rect.block (s := S128x128) S128x128.size (cc2_transform_25 i) (hinb2_25 i)).WholeWords (EltTy.packing .f32)
  hstage2_26 : ∀ j, (stage2_26 j).IsWhole
  nbuf2_26 : grid2.bufCount reads2_26 true = 1
  hreads2_26 : ∀ i i' : grid2.Coords, (∀ a, reads2_26 a = true → i a = i' a) → cc2_transform_26 i = cc2_transform_26 i'
  hinb2_26 : ∀ (i : grid2.Coords) a, (cc2_transform_26 i a + 1) * S1x128.size a ≤ S1x128.size a
  hwx2_26 : ∀ i : grid2.Coords, EltTy.bits .f32 = 32 ∨ (Rect.block (s := S1x128) S1x128.size (cc2_transform_26 i) (hinb2_26 i)).WholeWords (EltTy.packing .f32)
  hstage2_27 : ∀ j, (stage2_27 j).IsWhole
  nbuf2_27 : grid2.bufCount reads2_27 true = 1
  hreads2_27 : ∀ i i' : grid2.Coords, (∀ a, reads2_27 a = true → i a = i' a) → cc2_transform_27 i = cc2_transform_27 i'
  hinb2_27 : ∀ (i : grid2.Coords) a, (cc2_transform_27 i a + 1) * S128x1.size a ≤ S128x1.size a
  hwx2_27 : ∀ i : grid2.Coords, EltTy.bits .f32 = 32 ∨ (Rect.block (s := S128x1) S128x1.size (cc2_transform_27 i) (hinb2_27 i)).WholeWords (EltTy.packing .f32)
  hstage2_28 : ∀ j, (stage2_28 j).IsWhole
  nbuf2_28 : grid2.bufCount reads2_28 false = 2
  hreads2_28 : ∀ i i' : grid2.Coords, (∀ a, reads2_28 a = true → i a = i' a) → cc2_transform_28 i = cc2_transform_28 i'
  hinb2_28 : ∀ (i : grid2.Coords) a, (cc2_transform_28 i a + 1) * S2048x1.size a ≤ S16384x1.size a
  hwx2_28 : ∀ i : grid2.Coords, EltTy.bits .f32 = 32 ∨ (Rect.block (s := S16384x1) S2048x1.size (cc2_transform_28 i) (hinb2_28 i)).WholeWords (EltTy.packing .f32)

variable [Facts₀]

abbrev cc1_scratch3 : DmaSems sig S_ := SemArray.consecutive 4 S_ hcc1_scratch3
abbrev cc1_scoped0 : DmaSems sig S_ := SemArray.consecutive 5 S_ hcc1_scoped0
abbrev cc1_scoped1 : DmaSems sig S_ := SemArray.consecutive 6 S_ hcc1_scoped1
def dot_S2048x100_S100x64_S2048x64_1_0_0_1_n_n : DotDims S2048x100 S100x64 S2048x64 where
  lhsContracting := [1]
  rhsContracting := [0]
  lhsNonContracting := [0]
  rhsNonContracting := [1]
  lhsBatch := []
  rhsBatch := []
  wf := dot_S2048x100_S100x64_S2048x64_1_0_0_1_n_n_wf
def dot_S2048x5_S5x8_S2048x8_1_0_0_1_n_n : DotDims S2048x5 S5x8 S2048x8 where
  lhsContracting := [1]
  rhsContracting := [0]
  lhsNonContracting := [0]
  rhsNonContracting := [1]
  lhsBatch := []
  rhsBatch := []
  wf := dot_S2048x5_S5x8_S2048x8_1_0_0_1_n_n_wf
def dot_S2048x8_S8x16_S2048x16_1_0_0_1_n_n : DotDims S2048x8 S8x16 S2048x16 where
  lhsContracting := [1]
  rhsContracting := [0]
  lhsNonContracting := [0]
  rhsNonContracting := [1]
  lhsBatch := []
  rhsBatch := []
  wf := dot_S2048x8_S8x16_S2048x16_1_0_0_1_n_n_wf
def dot_S2048x25_S25x8_S2048x8_1_0_0_1_n_n : DotDims S2048x25 S25x8 S2048x8 where
  lhsContracting := [1]
  rhsContracting := [0]
  lhsNonContracting := [0]
  rhsNonContracting := [1]
  lhsBatch := []
  rhsBatch := []
  wf := dot_S2048x25_S25x8_S2048x8_1_0_0_1_n_n_wf
def dot_S2048x61_S61x8_S2048x8_1_0_0_1_n_n : DotDims S2048x61 S61x8 S2048x8 where
  lhsContracting := [1]
  rhsContracting := [0]
  lhsNonContracting := [0]
  rhsNonContracting := [1]
  lhsBatch := []
  rhsBatch := []
  wf := dot_S2048x61_S61x8_S2048x8_1_0_0_1_n_n_wf
def dot_S2048x500_S500x64_S2048x64_1_0_0_1_n_n : DotDims S2048x500 S500x64 S2048x64 where
  lhsContracting := [1]
  rhsContracting := [0]
  lhsNonContracting := [0]
  rhsNonContracting := [1]
  lhsBatch := []
  rhsBatch := []
  wf := dot_S2048x500_S500x64_S2048x64_1_0_0_1_n_n_wf
def dot_S2048x40_S40x16_S2048x16_1_0_0_1_n_n : DotDims S2048x40 S40x16 S2048x16 where
  lhsContracting := [1]
  rhsContracting := [0]
  lhsNonContracting := [0]
  rhsNonContracting := [1]
  lhsBatch := []
  rhsBatch := []
  wf := dot_S2048x40_S40x16_S2048x16_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpecClip (Memref.whole main_v0) S64x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S16384x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpec (Memref.whole main_v2) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x1x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x1x2048.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x1x2048.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v9) S1x1x2048.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v10) S1x1x2048.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v11) S1x1x2048.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_arg10) S100x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg11) S5x8.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg12) S8x16.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg13) S25x8.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg14) S61x8.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg15) S61x8.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_arg16) S500x64.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg17) S40x16.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_arg18) S256x1.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v12) S1x1.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_arg20) S256x32.size cc2_transform_20 reads2_20 false true 1 stage2_20 sem2_20
    hrank2 hreads2_20 hinb2_20 nbuf2_20 (Memref.isWhole_whole _) hwx2_20 hstage2_20

abbrev win2_21 : Pipeline.Window sig grid2 :=
  Pipeline.Window.ofSpec (Memref.whole main_arg21) S256x128.size cc2_transform_21 reads2_21 false true 1 stage2_21 sem2_21
    hrank2 hreads2_21 hinb2_21 nbuf2_21 (Memref.isWhole_whole _) hwx2_21 hstage2_21

abbrev win2_22 : Pipeline.Window sig grid2 :=
  Pipeline.Window.ofSpec (Memref.whole main_v13) S1x128.size cc2_transform_22 reads2_22 false true 1 stage2_22 sem2_22
    hrank2 hreads2_22 hinb2_22 nbuf2_22 (Memref.isWhole_whole _) hwx2_22 hstage2_22

abbrev win2_23 : Pipeline.Window sig grid2 :=
  Pipeline.Window.ofSpec (Memref.whole main_arg23) S128x128.size cc2_transform_23 reads2_23 false true 1 stage2_23 sem2_23
    hrank2 hreads2_23 hinb2_23 nbuf2_23 (Memref.isWhole_whole _) hwx2_23 hstage2_23

abbrev win2_24 : Pipeline.Window sig grid2 :=
  Pipeline.Window.ofSpec (Memref.whole main_v14) S1x128.size cc2_transform_24 reads2_24 false true 1 stage2_24 sem2_24
    hrank2 hreads2_24 hinb2_24 nbuf2_24 (Memref.isWhole_whole _) hwx2_24 hstage2_24

abbrev win2_25 : Pipeline.Window sig grid2 :=
  Pipeline.Window.ofSpec (Memref.whole main_arg25) S128x128.size cc2_transform_25 reads2_25 false true 1 stage2_25 sem2_25
    hrank2 hreads2_25 hinb2_25 nbuf2_25 (Memref.isWhole_whole _) hwx2_25 hstage2_25

abbrev win2_26 : Pipeline.Window sig grid2 :=
  Pipeline.Window.ofSpec (Memref.whole main_v15) S1x128.size cc2_transform_26 reads2_26 false true 1 stage2_26 sem2_26
    hrank2 hreads2_26 hinb2_26 nbuf2_26 (Memref.isWhole_whole _) hwx2_26 hstage2_26

abbrev win2_27 : Pipeline.Window sig grid2 :=
  Pipeline.Window.ofSpec (Memref.whole main_arg27) S128x1.size cc2_transform_27 reads2_27 false true 1 stage2_27 sem2_27
    hrank2 hreads2_27 hinb2_27 nbuf2_27 (Memref.isWhole_whole _) hwx2_27 hstage2_27

abbrev win2_28 : Pipeline.Window sig grid2 :=
  Pipeline.Window.ofSpec (Memref.whole main_v16) S2048x1.size cc2_transform_28 reads2_28 true false 2 stage2_28 sem2_28
    hrank2 hreads2_28 hinb2_28 nbuf2_28 (Memref.isWhole_whole _) hwx2_28 hstage2_28

abbrev win2 : Fin 29 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | 22 => win2_22 | 23 => win2_23 | 24 => win2_24 | 25 => win2_25 | 26 => win2_26 | 27 => win2_27 | 28 => win2_28 | ⟨_ + 29, h⟩ => absurd h (Nat.not_lt.2 (Nat.le_add_left _ _))
abbrev spec2 : Fin 29 → Pipeline.WinSpec sig grid2.rank := fun w => (win2 w).toWinSpec

class Facts : Prop extends Facts₀ where

variable [Facts]
-- ==== ReferenceIdeal.lean ====
abbrev S16384 : Shape := ⟨1, ![16384]⟩
abbrev S1000000x64 : Shape := ⟨2, ![1000000, 64]⟩
abbrev S100x64 : Shape := ⟨2, ![100, 64]⟩
abbrev S5x8 : Shape := ⟨2, ![5, 8]⟩
abbrev S8x16 : Shape := ⟨2, ![8, 16]⟩
abbrev S25x8 : Shape := ⟨2, ![25, 8]⟩
abbrev S61x8 : Shape := ⟨2, ![61, 8]⟩
abbrev S500x64 : Shape := ⟨2, ![500, 64]⟩
abbrev S40x16 : Shape := ⟨2, ![40, 16]⟩
abbrev S256x1 : Shape := ⟨2, ![256, 1]⟩
abbrev S1 : Shape := ⟨1, ![1]⟩
abbrev S256x32 : Shape := ⟨2, ![256, 32]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x8 : Shape := ⟨2, ![16384, 8]⟩
abbrev S16384x16 : Shape := ⟨2, ![16384, 16]⟩
abbrev S16384x256 : Shape := ⟨2, ![16384, 256]⟩
abbrev S16384x32 : Shape := ⟨2, ![16384, 32]⟩
abbrev S16384x128 : Shape := ⟨2, ![16384, 128]⟩
abbrev S1x128 : Shape := ⟨2, ![1, 128]⟩

abbrev nBuf : Space → Nat
  | .hbm => 284
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384, .i32⟩
  | 6 => ⟨S16384, .i32⟩
  | 7 => ⟨S16384, .i32⟩
  | 8 => ⟨S16384, .i32⟩
  | 9 => ⟨S1000000x64, .f32⟩
  | 10 => ⟨S100x64, .f32⟩
  | 11 => ⟨S5x8, .f32⟩
  | 12 => ⟨S8x16, .f32⟩
  | 13 => ⟨S25x8, .f32⟩
  | 14 => ⟨S61x8, .f32⟩
  | 15 => ⟨S61x8, .f32⟩
  | 16 => ⟨S500x64, .f32⟩
  | 17 => ⟨S40x16, .f32⟩
  | 18 => ⟨S256x1, .f32⟩
  | 19 => ⟨S1, .f32⟩
  | 20 => ⟨S256x32, .f32⟩
  | 21 => ⟨S256x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128x1, .f32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S1, .i32⟩
  | 37 => ⟨S_, .i32⟩
  | 38 => ⟨S16384x1, .i32⟩
  | 39 => ⟨S16384x1, .i1⟩
  | 40 => ⟨S1x1, .i32⟩
  | 41 => ⟨S16384x1, .i32⟩
  | 42 => ⟨S16384x1, .i1⟩
  | 43 => ⟨S16384x1, .i1⟩
  | 44 => ⟨S_, .i1⟩
  | 45 => ⟨S16384, .i1⟩
  | 46 => ⟨S16384x64, .f32⟩
  | 47 => ⟨S16384x64, .i1⟩
  | 48 => ⟨S_, .f32⟩
  | 49 => ⟨S16384x64, .f32⟩
  | 50 => ⟨S16384x64, .f32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S16384x1, .i32⟩
  | 59 => ⟨S1, .i32⟩
  | 60 => ⟨S_, .i32⟩
  | 61 => ⟨S16384x1, .i32⟩
  | 62 => ⟨S16384x1, .i1⟩
  | 63 => ⟨S1x1, .i32⟩
  | 64 => ⟨S16384x1, .i32⟩
  | 65 => ⟨S16384x1, .i1⟩
  | 66 => ⟨S16384x1, .i1⟩
  | 67 => ⟨S_, .i1⟩
  | 68 => ⟨S16384, .i1⟩
  | 69 => ⟨S16384x64, .f32⟩
  | 70 => ⟨S16384x64, .i1⟩
  | 71 => ⟨S_, .f32⟩
  | 72 => ⟨S16384x64, .f32⟩
  | 73 => ⟨S16384x64, .f32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x8, .f32⟩
  | 93 => ⟨S16384x8, .i1⟩
  | 94 => ⟨S_, .f32⟩
  | 95 => ⟨S16384x8, .f32⟩
  | 96 => ⟨S16384x8, .f32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S1, .i32⟩
  | 106 => ⟨S_, .i32⟩
  | 107 => ⟨S16384x1, .i32⟩
  | 108 => ⟨S16384x1, .i1⟩
  | 109 => ⟨S1x1, .i32⟩
  | 110 => ⟨S16384x1, .i32⟩
  | 111 => ⟨S16384x1, .i1⟩
  | 112 => ⟨S16384x1, .i1⟩
  | 113 => ⟨S_, .i1⟩
  | 114 => ⟨S16384, .i1⟩
  | 115 => ⟨S16384x16, .f32⟩
  | 116 => ⟨S16384x16, .i1⟩
  | 117 => ⟨S_, .f32⟩
  | 118 => ⟨S16384x16, .f32⟩
  | 119 => ⟨S16384x16, .f32⟩
  | 120 => ⟨S_, .i32⟩
  | 121 => ⟨S16384, .i32⟩
  | 122 => ⟨S16384, .i1⟩
  | 123 => ⟨S_, .i32⟩
  | 124 => ⟨S16384, .i32⟩
  | 125 => ⟨S16384, .i32⟩
  | 126 => ⟨S16384, .i32⟩
  | 127 => ⟨S16384x1, .i32⟩
  | _ => ⟨S16384, .i32⟩

abbrev hbmTy0_1 (i : Nat) : BufTy := match i % 128 with
  | 0 => ⟨S1, .i32⟩
  | 1 => ⟨S_, .i32⟩
  | 2 => ⟨S16384x1, .i32⟩
  | 3 => ⟨S16384x1, .i1⟩
  | 4 => ⟨S1x1, .i32⟩
  | 5 => ⟨S16384x1, .i32⟩
  | 6 => ⟨S16384x1, .i1⟩
  | 7 => ⟨S16384x1, .i1⟩
  | 8 => ⟨S_, .i1⟩
  | 9 => ⟨S16384, .i1⟩
  | 10 => ⟨S16384x8, .f32⟩
  | 11 => ⟨S16384x8, .i1⟩
  | 12 => ⟨S_, .f32⟩
  | 13 => ⟨S16384x8, .f32⟩
  | 14 => ⟨S16384x8, .f32⟩
  | 15 => ⟨S_, .i32⟩
  | 16 => ⟨S16384, .i32⟩
  | 17 => ⟨S16384, .i1⟩
  | 18 => ⟨S_, .i32⟩
  | 19 => ⟨S16384, .i32⟩
  | 20 => ⟨S16384, .i32⟩
  | 21 => ⟨S16384, .i32⟩
  | 22 => ⟨S16384x1, .i32⟩
  | 23 => ⟨S1, .i32⟩
  | 24 => ⟨S_, .i32⟩
  | 25 => ⟨S16384x1, .i32⟩
  | 26 => ⟨S16384x1, .i1⟩
  | 27 => ⟨S1x1, .i32⟩
  | 28 => ⟨S16384x1, .i32⟩
  | 29 => ⟨S16384x1, .i1⟩
  | 30 => ⟨S16384x1, .i1⟩
  | 31 => ⟨S_, .i1⟩
  | 32 => ⟨S16384, .i1⟩
  | 33 => ⟨S16384x8, .f32⟩
  | 34 => ⟨S16384x8, .i1⟩
  | 35 => ⟨S_, .f32⟩
  | 36 => ⟨S16384x8, .f32⟩
  | 37 => ⟨S16384x8, .f32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S1, .i32⟩
  | 47 => ⟨S_, .i32⟩
  | 48 => ⟨S16384x1, .i32⟩
  | 49 => ⟨S16384x1, .i1⟩
  | 50 => ⟨S1x1, .i32⟩
  | 51 => ⟨S16384x1, .i32⟩
  | 52 => ⟨S16384x1, .i1⟩
  | 53 => ⟨S16384x1, .i1⟩
  | 54 => ⟨S_, .i1⟩
  | 55 => ⟨S16384, .i1⟩
  | 56 => ⟨S16384x8, .f32⟩
  | 57 => ⟨S16384x8, .i1⟩
  | 58 => ⟨S_, .f32⟩
  | 59 => ⟨S16384x8, .f32⟩
  | 60 => ⟨S16384x8, .f32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1, .i32⟩
  | 70 => ⟨S_, .i32⟩
  | 71 => ⟨S16384x1, .i32⟩
  | 72 => ⟨S16384x1, .i1⟩
  | 73 => ⟨S1x1, .i32⟩
  | 74 => ⟨S16384x1, .i32⟩
  | 75 => ⟨S16384x1, .i1⟩
  | 76 => ⟨S16384x1, .i1⟩
  | 77 => ⟨S_, .i1⟩
  | 78 => ⟨S16384, .i1⟩
  | 79 => ⟨S16384x64, .f32⟩
  | 80 => ⟨S16384x64, .i1⟩
  | 81 => ⟨S_, .f32⟩
  | 82 => ⟨S16384x64, .f32⟩
  | 83 => ⟨S16384x64, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S1, .i32⟩
  | 93 => ⟨S_, .i32⟩
  | 94 => ⟨S16384x1, .i32⟩
  | 95 => ⟨S16384x1, .i1⟩
  | 96 => ⟨S1x1, .i32⟩
  | 97 => ⟨S16384x1, .i32⟩
  | 98 => ⟨S16384x1, .i1⟩
  | 99 => ⟨S16384x1, .i1⟩
  | 100 => ⟨S_, .i1⟩
  | 101 => ⟨S16384, .i1⟩
  | 102 => ⟨S16384x16, .f32⟩
  | 103 => ⟨S16384x16, .i1⟩
  | 104 => ⟨S_, .f32⟩
  | 105 => ⟨S16384x16, .f32⟩
  | 106 => ⟨S16384x16, .f32⟩
  | 107 => ⟨S16384x256, .f32⟩
  | 108 => ⟨S16384x1, .f32⟩
  | 109 => ⟨S1x1, .f32⟩
  | 110 => ⟨S16384x1, .f32⟩
  | 111 => ⟨S16384x1, .f32⟩
  | 112 => ⟨S16384x32, .f32⟩
  | 113 => ⟨S16384x32, .f32⟩
  | 114 => ⟨S16384x256, .f32⟩
  | 115 => ⟨S256x32, .f32⟩
  | 116 => ⟨S16384x32, .f32⟩
  | 117 => ⟨S16384x32, .f32⟩
  | 118 => ⟨S_, .f32⟩
  | 119 => ⟨S16384, .f32⟩
  | 120 => ⟨S16384x1, .f32⟩
  | 121 => ⟨S_, .f32⟩
  | 122 => ⟨S16384x1, .f32⟩
  | 123 => ⟨S16384x1, .f32⟩
  | 124 => ⟨S16384x1, .f32⟩
  | 125 => ⟨S16384x128, .f32⟩
  | 126 => ⟨S1x128, .f32⟩
  | 127 => ⟨S16384x128, .f32⟩
  | _ => ⟨S16384, .i32⟩

abbrev hbmTy0_2 (i : Nat) : BufTy := match i % 128 with
  | 0 => ⟨S16384x128, .f32⟩
  | 1 => ⟨S_, .f32⟩
  | 2 => ⟨S16384x128, .f32⟩
  | 3 => ⟨S16384x128, .f32⟩
  | 4 => ⟨S16384x128, .f32⟩
  | 5 => ⟨S1x128, .f32⟩
  | 6 => ⟨S16384x128, .f32⟩
  | 7 => ⟨S16384x128, .f32⟩
  | 8 => ⟨S_, .f32⟩
  | 9 => ⟨S16384x128, .f32⟩
  | 10 => ⟨S16384x128, .f32⟩
  | 11 => ⟨S16384x128, .f32⟩
  | 12 => ⟨S1x128, .f32⟩
  | 13 => ⟨S16384x128, .f32⟩
  | 14 => ⟨S16384x128, .f32⟩
  | 15 => ⟨S_, .f32⟩
  | 16 => ⟨S16384x128, .f32⟩
  | 17 => ⟨S16384x128, .f32⟩
  | 18 => ⟨S16384x1, .f32⟩
  | 19 => ⟨S16384x1, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S_, .f32⟩
  | 26 => ⟨S16384x1, .f32⟩
  | 27 => ⟨S16384x1, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v0 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v1 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v2 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v3 : Ref sig .tc := ⟨.hbm, 119, rfl⟩
abbrev main_call4_c : Ref sig .tc := ⟨.hbm, 120, rfl⟩
abbrev main_call4_v0 : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_c_1 : Ref sig .tc := ⟨.hbm, 128, rfl⟩
abbrev main_call4_c_2 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_3 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_call4_cst : Ref sig .tc := ⟨.hbm, 140, rfl⟩
abbrev main_call4_v15 : Ref sig .tc := ⟨.hbm, 141, rfl⟩
abbrev main_v4 : Ref sig .tc := ⟨.hbm, 142, rfl⟩
abbrev main_call5_c : Ref sig .tc := ⟨.hbm, 143, rfl⟩
abbrev main_call5_v0 : Ref sig .tc := ⟨.hbm, 144, rfl⟩
abbrev main_call5_v1 : Ref sig .tc := ⟨.hbm, 145, rfl⟩
abbrev main_call5_c_0 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_v5 : Ref sig .tc := ⟨.hbm, 150, rfl⟩
abbrev main_call5_c_1 : Ref sig .tc := ⟨.hbm, 151, rfl⟩
abbrev main_call5_c_2 : Ref sig .tc := ⟨.hbm, 152, rfl⟩
abbrev main_call5_v6 : Ref sig .tc := ⟨.hbm, 153, rfl⟩
abbrev main_call5_v7 : Ref sig .tc := ⟨.hbm, 154, rfl⟩
abbrev main_call5_v8 : Ref sig .tc := ⟨.hbm, 155, rfl⟩
abbrev main_call5_v9 : Ref sig .tc := ⟨.hbm, 156, rfl⟩
abbrev main_call5_v10 : Ref sig .tc := ⟨.hbm, 157, rfl⟩
abbrev main_call5_v11 : Ref sig .tc := ⟨.hbm, 158, rfl⟩
abbrev main_call5_c_3 : Ref sig .tc := ⟨.hbm, 159, rfl⟩
abbrev main_call5_v12 : Ref sig .tc := ⟨.hbm, 160, rfl⟩
abbrev main_call5_v13 : Ref sig .tc := ⟨.hbm, 161, rfl⟩
abbrev main_call5_v14 : Ref sig .tc := ⟨.hbm, 162, rfl⟩
abbrev main_call5_cst : Ref sig .tc := ⟨.hbm, 163, rfl⟩
abbrev main_call5_v15 : Ref sig .tc := ⟨.hbm, 164, rfl⟩
abbrev main_v5 : Ref sig .tc := ⟨.hbm, 165, rfl⟩
abbrev main_call6_c : Ref sig .tc := ⟨.hbm, 166, rfl⟩
abbrev main_call6_v0 : Ref sig .tc := ⟨.hbm, 167, rfl⟩
abbrev main_call6_v1 : Ref sig .tc := ⟨.hbm, 168, rfl⟩
abbrev main_call6_c_0 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_c_1 : Ref sig .tc := ⟨.hbm, 174, rfl⟩
abbrev main_call6_c_2 : Ref sig .tc := ⟨.hbm, 175, rfl⟩
abbrev main_call6_v6 : Ref sig .tc := ⟨.hbm, 176, rfl⟩
abbrev main_call6_v7 : Ref sig .tc := ⟨.hbm, 177, rfl⟩
abbrev main_call6_v8 : Ref sig .tc := ⟨.hbm, 178, rfl⟩
abbrev main_call6_v9 : Ref sig .tc := ⟨.hbm, 179, rfl⟩
abbrev main_call6_v10 : Ref sig .tc := ⟨.hbm, 180, rfl⟩
abbrev main_call6_v11 : Ref sig .tc := ⟨.hbm, 181, rfl⟩
abbrev main_call6_c_3 : Ref sig .tc := ⟨.hbm, 182, rfl⟩
abbrev main_call6_v12 : Ref sig .tc := ⟨.hbm, 183, rfl⟩
abbrev main_call6_v13 : Ref sig .tc := ⟨.hbm, 184, rfl⟩
abbrev main_call6_v14 : Ref sig .tc := ⟨.hbm, 185, rfl⟩
abbrev main_call6_cst : Ref sig .tc := ⟨.hbm, 186, rfl⟩
abbrev main_call6_v15 : Ref sig .tc := ⟨.hbm, 187, rfl⟩
abbrev main_v6 : Ref sig .tc := ⟨.hbm, 188, rfl⟩
abbrev main_call7_c : Ref sig .tc := ⟨.hbm, 189, rfl⟩
abbrev main_call7_v0 : Ref sig .tc := ⟨.hbm, 190, rfl⟩
abbrev main_call7_v1 : Ref sig .tc := ⟨.hbm, 191, rfl⟩
abbrev main_call7_c_0 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_c_1 : Ref sig .tc := ⟨.hbm, 197, rfl⟩
abbrev main_call7_c_2 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_3 : Ref sig .tc := ⟨.hbm, 205, rfl⟩
abbrev main_call7_v12 : Ref sig .tc := ⟨.hbm, 206, rfl⟩
abbrev main_call7_v13 : Ref sig .tc := ⟨.hbm, 207, rfl⟩
abbrev main_call7_v14 : Ref sig .tc := ⟨.hbm, 208, rfl⟩
abbrev main_call7_cst : Ref sig .tc := ⟨.hbm, 209, rfl⟩
abbrev main_call7_v15 : Ref sig .tc := ⟨.hbm, 210, rfl⟩
abbrev main_v7 : Ref sig .tc := ⟨.hbm, 211, rfl⟩
abbrev main_call8_c : Ref sig .tc := ⟨.hbm, 212, rfl⟩
abbrev main_call8_v0 : Ref sig .tc := ⟨.hbm, 213, rfl⟩
abbrev main_call8_v1 : Ref sig .tc := ⟨.hbm, 214, rfl⟩
abbrev main_call8_c_0 : Ref sig .tc := ⟨.hbm, 215, rfl⟩
abbrev main_call8_v2 : Ref sig .tc := ⟨.hbm, 216, rfl⟩
abbrev main_call8_v3 : Ref sig .tc := ⟨.hbm, 217, rfl⟩
abbrev main_call8_v4 : Ref sig .tc := ⟨.hbm, 218, rfl⟩
abbrev main_call8_v5 : Ref sig .tc := ⟨.hbm, 219, rfl⟩
abbrev main_call8_c_1 : Ref sig .tc := ⟨.hbm, 220, rfl⟩
abbrev main_call8_c_2 : Ref sig .tc := ⟨.hbm, 221, rfl⟩
abbrev main_call8_v6 : Ref sig .tc := ⟨.hbm, 222, rfl⟩
abbrev main_call8_v7 : Ref sig .tc := ⟨.hbm, 223, rfl⟩
abbrev main_call8_v8 : Ref sig .tc := ⟨.hbm, 224, rfl⟩
abbrev main_call8_v9 : Ref sig .tc := ⟨.hbm, 225, rfl⟩
abbrev main_call8_v10 : Ref sig .tc := ⟨.hbm, 226, rfl⟩
abbrev main_call8_v11 : Ref sig .tc := ⟨.hbm, 227, rfl⟩
abbrev main_call8_c_3 : Ref sig .tc := ⟨.hbm, 228, rfl⟩
abbrev main_call8_v12 : Ref sig .tc := ⟨.hbm, 229, rfl⟩
abbrev main_call8_v13 : Ref sig .tc := ⟨.hbm, 230, rfl⟩
abbrev main_call8_v14 : Ref sig .tc := ⟨.hbm, 231, rfl⟩
abbrev main_call8_cst : Ref sig .tc := ⟨.hbm, 232, rfl⟩
abbrev main_call8_v15 : Ref sig .tc := ⟨.hbm, 233, rfl⟩
abbrev main_v8 : Ref sig .tc := ⟨.hbm, 234, rfl⟩
abbrev main_v9 : Ref sig .tc := ⟨.hbm, 235, rfl⟩
abbrev main_v10 : Ref sig .tc := ⟨.hbm, 236, rfl⟩
abbrev main_v11 : Ref sig .tc := ⟨.hbm, 237, rfl⟩
abbrev main_v12 : Ref sig .tc := ⟨.hbm, 238, rfl⟩
abbrev main_v13 : Ref sig .tc := ⟨.hbm, 239, rfl⟩
abbrev main_v14 : Ref sig .tc := ⟨.hbm, 240, rfl⟩
abbrev main_v15 : Ref sig .tc := ⟨.hbm, 241, rfl⟩
abbrev main_v16 : Ref sig .tc := ⟨.hbm, 242, rfl⟩
abbrev main_v17 : Ref sig .tc := ⟨.hbm, 243, rfl⟩
abbrev main_v18 : Ref sig .tc := ⟨.hbm, 244, rfl⟩
abbrev main_v19 : Ref sig .tc := ⟨.hbm, 245, rfl⟩
abbrev main_cst : Ref sig .tc := ⟨.hbm, 246, rfl⟩
abbrev main_v20 : Ref sig .tc := ⟨.hbm, 247, rfl⟩
abbrev main_v21 : Ref sig .tc := ⟨.hbm, 248, rfl⟩
abbrev main_cst_0 : Ref sig .tc := ⟨.hbm, 249, rfl⟩
abbrev main_v22 : Ref sig .tc := ⟨.hbm, 250, rfl⟩
abbrev main_v23 : Ref sig .tc := ⟨.hbm, 251, rfl⟩
abbrev main_v24 : Ref sig .tc := ⟨.hbm, 252, rfl⟩
abbrev main_v25 : Ref sig .tc := ⟨.hbm, 253, rfl⟩
abbrev main_v26 : Ref sig .tc := ⟨.hbm, 254, rfl⟩
abbrev main_v27 : Ref sig .tc := ⟨.hbm, 255, rfl⟩
abbrev main_v28 : Ref sig .tc := ⟨.hbm, 256, rfl⟩
abbrev main_call9_cst : Ref sig .tc := ⟨.hbm, 257, rfl⟩
abbrev main_call9_v0 : Ref sig .tc := ⟨.hbm, 258, rfl⟩
abbrev main_v29 : Ref sig .tc := ⟨.hbm, 259, rfl⟩
abbrev main_v30 : Ref sig .tc := ⟨.hbm, 260, rfl⟩
abbrev main_v31 : Ref sig .tc := ⟨.hbm, 261, rfl⟩
abbrev main_v32 : Ref sig .tc := ⟨.hbm, 262, rfl⟩
abbrev main_v33 : Ref sig .tc := ⟨.hbm, 263, rfl⟩
abbrev main_call10_cst : Ref sig .tc := ⟨.hbm, 264, rfl⟩
abbrev main_call10_v0 : Ref sig .tc := ⟨.hbm, 265, rfl⟩
abbrev main_v34 : Ref sig .tc := ⟨.hbm, 266, rfl⟩
abbrev main_v35 : Ref sig .tc := ⟨.hbm, 267, rfl⟩
abbrev main_v36 : Ref sig .tc := ⟨.hbm, 268, rfl⟩
abbrev main_v37 : Ref sig .tc := ⟨.hbm, 269, rfl⟩
abbrev main_v38 : Ref sig .tc := ⟨.hbm, 270, rfl⟩
abbrev main_call11_cst : Ref sig .tc := ⟨.hbm, 271, rfl⟩
abbrev main_call11_v0 : Ref sig .tc := ⟨.hbm, 272, rfl⟩
abbrev main_v39 : Ref sig .tc := ⟨.hbm, 273, rfl⟩
abbrev main_v40 : Ref sig .tc := ⟨.hbm, 274, rfl⟩
abbrev main_v41 : Ref sig .tc := ⟨.hbm, 275, rfl⟩
abbrev main_v42 : Ref sig .tc := ⟨.hbm, 276, rfl⟩
abbrev main_v43 : Ref sig .tc := ⟨.hbm, 277, rfl⟩
abbrev main_cst_1 : Ref sig .tc := ⟨.hbm, 278, rfl⟩
abbrev main_v44 : Ref sig .tc := ⟨.hbm, 279, rfl⟩
abbrev main_v45 : Ref sig .tc := ⟨.hbm, 280, rfl⟩
abbrev main_cst_2 : Ref sig .tc := ⟨.hbm, 281, rfl⟩
abbrev main_v46 : Ref sig .tc := ⟨.hbm, 282, rfl⟩
abbrev main_v47 : Ref sig .tc := ⟨.hbm, 283, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  bcast_S16384_S16384x8_0 : S16384.BroadcastsInDim S16384x8 (![0] : Fin 1 → Fin S16384x8.rank)
  bcast_S_S16384x8 : S_.BroadcastsInDim S16384x8 (![] : Fin 0 → Fin S16384x8.rank)
  bcast_S16384_S16384x16_0 : S16384.BroadcastsInDim S16384x16 (![0] : Fin 1 → Fin S16384x16.rank)
  bcast_S_S16384x16 : S_.BroadcastsInDim S16384x16 (![] : Fin 0 → Fin S16384x16.rank)
  concatenates_S16384x64_S16384x64_S16384x8_S16384x16_S16384x8_S16384x8_S16384x8_S16384x64_S16384x16_S16384x256_d1 : Shape.Concatenates [S16384x64, S16384x64, S16384x8, S16384x16, S16384x8, S16384x8, S16384x8, S16384x64, S16384x16] S16384x256 1
  reducesTo_S16384x32_S16384_d1 : S16384x32.ReducesTo [1] S16384
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  gather_S1000000x64_S16384x1_S16384x64_1_0_n_n_0_1_164_wf : GatherDims.WF S1000000x64 S16384x1 S16384x64 [1] [0] [] [0] [] 1 ![1, 64]
  gather_S100x64_S16384x1_S16384x64_1_0_n_n_0_1_164_wf : GatherDims.WF S100x64 S16384x1 S16384x64 [1] [0] [] [0] [] 1 ![1, 64]
  gather_S5x8_S16384x1_S16384x8_1_0_n_n_0_1_18_wf : GatherDims.WF S5x8 S16384x1 S16384x8 [1] [0] [] [0] [] 1 ![1, 8]
  gather_S8x16_S16384x1_S16384x16_1_0_n_n_0_1_116_wf : GatherDims.WF S8x16 S16384x1 S16384x16 [1] [0] [] [0] [] 1 ![1, 16]
  gather_S25x8_S16384x1_S16384x8_1_0_n_n_0_1_18_wf : GatherDims.WF S25x8 S16384x1 S16384x8 [1] [0] [] [0] [] 1 ![1, 8]
  gather_S61x8_S16384x1_S16384x8_1_0_n_n_0_1_18_wf : GatherDims.WF S61x8 S16384x1 S16384x8 [1] [0] [] [0] [] 1 ![1, 8]
  gather_S500x64_S16384x1_S16384x64_1_0_n_n_0_1_164_wf : GatherDims.WF S500x64 S16384x1 S16384x64 [1] [0] [] [0] [] 1 ![1, 64]
  gather_S40x16_S16384x1_S16384x16_1_0_n_n_0_1_116_wf : GatherDims.WF S40x16 S16384x1 S16384x16 [1] [0] [] [0] [] 1 ![1, 16]
  dot_S16384x256_S256x1_S16384x1_1_0_0_1_n_n_wf : DotDims.WF S16384x256 S256x1 S16384x1 [1] [0] [0] [1] [] []
  dot_S16384x256_S256x32_S16384x32_1_0_0_1_n_n_wf : DotDims.WF S16384x256 S256x32 S16384x32 [1] [0] [0] [1] [] []
  dot_S16384x256_S256x128_S16384x128_1_0_0_1_n_n_wf : DotDims.WF S16384x256 S256x128 S16384x128 [1] [0] [0] [1] [] []
  dot_S16384x128_S128x128_S16384x128_1_0_0_1_n_n_wf : DotDims.WF S16384x128 S128x128 S16384x128 [1] [0] [0] [1] [] []
  dot_S16384x128_S128x1_S16384x1_1_0_0_1_n_n_wf : DotDims.WF S16384x128 S128x1 S16384x1 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S100x64_S16384x1_S16384x64_1_0_n_n_0_1_164 : GatherDims S100x64 S16384x1 S16384x64 where
  offsetDims := [1]
  collapsedSliceDims := [0]
  operandBatchingDims := []
  startIndicesBatchingDims := []
  startIndexMap := [0]
  indexVectorDim := 1
  sliceSizes := ![1, 64]
  wf := gather_S100x64_S16384x1_S16384x64_1_0_n_n_0_1_164_wf
def gather_S5x8_S16384x1_S16384x8_1_0_n_n_0_1_18 : GatherDims S5x8 S16384x1 S16384x8 where
  offsetDims := [1]
  collapsedSliceDims := [0]
  operandBatchingDims := []
  startIndicesBatchingDims := []
  startIndexMap := [0]
  indexVectorDim := 1
  sliceSizes := ![1, 8]
  wf := gather_S5x8_S16384x1_S16384x8_1_0_n_n_0_1_18_wf
def gather_S8x16_S16384x1_S16384x16_1_0_n_n_0_1_116 : GatherDims S8x16 S16384x1 S16384x16 where
  offsetDims := [1]
  collapsedSliceDims := [0]
  operandBatchingDims := []
  startIndicesBatchingDims := []
  startIndexMap := [0]
  indexVectorDim := 1
  sliceSizes := ![1, 16]
  wf := gather_S8x16_S16384x1_S16384x16_1_0_n_n_0_1_116_wf
def gather_S25x8_S16384x1_S16384x8_1_0_n_n_0_1_18 : GatherDims S25x8 S16384x1 S16384x8 where
  offsetDims := [1]
  collapsedSliceDims := [0]
  operandBatchingDims := []
  startIndicesBatchingDims := []
  startIndexMap := [0]
  indexVectorDim := 1
  sliceSizes := ![1, 8]
  wf := gather_S25x8_S16384x1_S16384x8_1_0_n_n_0_1_18_wf
def gather_S61x8_S16384x1_S16384x8_1_0_n_n_0_1_18 : GatherDims S61x8 S16384x1 S16384x8 where
  offsetDims := [1]
  collapsedSliceDims := [0]
  operandBatchingDims := []
  startIndicesBatchingDims := []
  startIndexMap := [0]
  indexVectorDim := 1
  sliceSizes := ![1, 8]
  wf := gather_S61x8_S16384x1_S16384x8_1_0_n_n_0_1_18_wf
def gather_S500x64_S16384x1_S16384x64_1_0_n_n_0_1_164 : GatherDims S500x64 S16384x1 S16384x64 where
  offsetDims := [1]
  collapsedSliceDims := [0]
  operandBatchingDims := []
  startIndicesBatchingDims := []
  startIndexMap := [0]
  indexVectorDim := 1
  sliceSizes := ![1, 64]
  wf := gather_S500x64_S16384x1_S16384x64_1_0_n_n_0_1_164_wf
def gather_S40x16_S16384x1_S16384x16_1_0_n_n_0_1_116 : GatherDims S40x16 S16384x1 S16384x16 where
  offsetDims := [1]
  collapsedSliceDims := [0]
  operandBatchingDims := []
  startIndicesBatchingDims := []
  startIndexMap := [0]
  indexVectorDim := 1
  sliceSizes := ![1, 16]
  wf := gather_S40x16_S16384x1_S16384x16_1_0_n_n_0_1_116_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S16384x256_S256x32_S16384x32_1_0_0_1_n_n : DotDims S16384x256 S256x32 S16384x32 where
  lhsContracting := [1]
  rhsContracting := [0]
  lhsNonContracting := [0]
  rhsNonContracting := [1]
  lhsBatch := []
  rhsBatch := []
  wf := dot_S16384x256_S256x32_S16384x32_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.KRunSetup.lean ====
/-
  The run of the whole program, part 1: the configuration the SparseCore launch theorem is applied at, the
  resource algebra (the handshakes' rounds, the TensorCore pipelines' staging cells' rounds, the transfers'
  counters, side by side), and the embeddings of its three components.
-/
import proofs.«205263_g58420145160647_cont_9to1_m_909_25_alg».proof.Kernel
import proofs.«205263_g58420145160647_cont_9to1_m_909_25_alg».proof.Proof.Gen.Kernel
import proofs.«205263_g58420145160647_cont_9to1_m_909_25_alg».proof.Proof.Gen.Kernel.Launch
import proofs.«205263_g58420145160647_cont_9to1_m_909_25_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Pipeline.RegionsLoop
import Idealize.ShloMosaic.Lib.Pipeline.Frame
import Idealize.ShloMosaic.Lib.Pipeline.FrameBody
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds (duties named by numbers), -/
abbrev UH : Type := URounds (GSem nD τ sig) ℕ
/-- the pipelines' staging cells' rounds (duties unnamed), -/
abbrev UP : Type := UR sig nD τ
/-- and, with them, the transfers' counters. -/
abbrev UU : Type := UH × (UP × Counters)

abbrev 𝕄F (F : FTy → Type) : Type := MT nD τ sig (HIx 1) (Elt F) ℕ UU ℕ

abbrev EH : Emb UH (𝕄F F) := embL
def EP : Emb UP (𝕄F F) :=
  (Emb.inl : Emb UP (UP × Counters)).trans (embR : Emb (UP × Counters) (𝕄F F))

instance EP_landsIn : (EP : Emb UP (𝕄F F)).LandsIn (upEmb : UEmb _ (𝕄F F)) := by unfold EP; infer_instance

example : CountersIn UU := inferInstance

/-- The admissible contents of the pipelines' prefetched tables: no pipeline has one. -/
abbrev adm : (p : Fin 2) → (pcfgs (F := F) p).Adm := fun p => (cfgs p).toPCfg_adm

end Cert.Kernel.Run

end
-- ==== Proof.KRunMain.lean ====
/-
  The run of the whole program, part 2: @main as its five stretches — the host transpose, the first TensorCore
  region, the SparseCore call, the host reshapes, the second TensorCore region — and the buffers' contents at each
  boundary between them.
-/
import proofs.«205263_g58420145160647_cont_9to1_m_909_25_alg».proof.Proof.KRunSetup

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The host stretches -/

/-- The host operation before the first region: the table transposed. -/
abbrev hostOps0 : List (HloOp τ sig (Elt F)) :=
  [StableHlo.unary main_arg9 main_v0 ((transpose S64x1000000 [1, 0] · transposes_S1000000x64_S64x1000000_1_0) : (⟨S1000000x64, .f32⟩ : BufTy).Contents (Elt F) → (⟨S64x1000000, .f32⟩ : BufTy).Contents (Elt F))]

/-- The host operations between the SparseCore call and the second region: the index arrays and the biases re-laid. -/
abbrev hostOps1 : List (HloOp τ sig (Elt F)) :=
  [StableHlo.reshape main_arg0 main_v3 rfl shapeCasts_S16384_S8x1x2048,
   StableHlo.reshape main_arg1 main_v4 rfl shapeCasts_S16384_S8x1x2048,
   StableHlo.reshape main_arg2 main_v5 rfl shapeCasts_S16384_S8x1x2048,
   StableHlo.reshape main_arg3 main_v6 rfl shapeCasts_S16384_S8x1x2048,
   StableHlo.reshape main_arg4 main_v7 rfl shapeCasts_S16384_S8x1x2048,
   StableHlo.reshape main_arg5 main_v8 rfl shapeCasts_S16384_S8x1x2048,
   StableHlo.reshape main_arg6 main_v9 rfl shapeCasts_S16384_S8x1x2048,
   StableHlo.reshape main_arg7 main_v10 rfl shapeCasts_S16384_S8x1x2048,
   StableHlo.reshape main_arg8 main_v11 rfl shapeCasts_S16384_S8x1x2048,
   StableHlo.reshape main_arg19 main_v12 rfl shapeCasts_S1_S1x1,
   StableHlo.reshape main_arg22 main_v13 rfl shapeCasts_S128_S1x128,
   StableHlo.reshape main_arg24 main_v14 rfl shapeCasts_S128_S1x128,
   StableHlo.reshape main_arg26 main_v15 rfl shapeCasts_S128_S1x128]

/-- A TensorCore region's call, as @main spells it in the extended signature: the call in the pipelines' signature, lifted. -/
abbrev regionCall (p : Fin 2) : Prog (TpuEff nD τ sig (Elt F) (SparseCore.Sig (ΛP (F := F)) 1) .tc) PUnit :=
  SparseCore.liftProg (Prog.lift (.customCall (Pipeline.entry p) ()))

/-- @main, stretch by stretch. -/
theorem main_eq (d : Dev nD) :
    main (F := F) d = (StableHlo.seq (hostOps0 (F := F)) >>= fun _ => regionCall (F := F) 0 >>= fun _ => (K (F := F)).run d 0 >>= fun _ =>
      StableHlo.seq (hostOps1 (F := F)) >>= fun _ => regionCall (F := F) 1 >>= fun _ => pure ⟨⟩) := rfl

end Cert.Kernel.Run

end
-- ==== Proof.KTc0Body.lean ====
import proofs.«205263_g58420145160647_cont_9to1_m_909_25_alg».proof.Proof.Gen.Kernel.Launch
import proofs.«205263_g58420145160647_cont_9to1_m_909_25_alg».proof.Proof.Gen.Kernel.Skeleton
import proofs.«205263_g58420145160647_cont_9to1_m_909_25_alg».proof.Proof.Gen.Kernel.Points
import Idealize.ShloMosaic.Lib.Pipeline.FrameBody
import Idealize.ShloMosaic.Lib.Ring
import Idealize.ShloMosaic.Lib.Tactic

/-! # The transposing kernel's body: what it stores, and its triple

The body loads its input window (64 × 32768) whole, transposes it, and stores the two halves of the transpose
side by side (16384 × 128) over the whole of its output window. `out0_1` names the stored block as a function
of the input block; `sound_kernel0` is the body's triple on whole staging memrefs, at ANY contents of the
input buffer. -/

set_option maxRecDepth 16384

noncomputable section

namespace Cert.Kernel.Tc0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U]

local notation "𝕄" => MT nD τ sig Ix (Elt F) ℕ U ℕ

/-! ## The whole-buffer rectangles the body loads and stores through -/

abbrev r_in : Rect S64x32768 := Rect.unit (s := S64x32768) ![0, 0] S64x32768.size inb_S64x32768_S64x32768_0_0
abbrev r_out : Rect S16384x128 := Rect.unit (s := S16384x128) ![0, 0] S16384x128.size inb_S16384x128_S16384x128_0_0

/-! ## What the body leaves in the output window's buffer -/

/-- The output staging buffer after the body, from the input buffer's contents: its one store as a piece
    (the payload is the skeleton's). -/
def out0_1 (x0 : Vec F S64x32768 .f32) : Vec F S16384x128 .f32 :=
  View.canon [⟨r_out, k0_pay1 (View.ld x0 r_in)⟩]

/-- The store's rectangle is the whole buffer, so it covers it. -/
theorem cover0_1 (p0 : Vec F S16384x128 .f32) (y : S16384x128.Idx) :
    ∃ pc ∈ ([⟨r_out, p0⟩] : List (View.Piece (Elt F) S16384x128 .f32)), y ∈ pc.1.set :=
  View.cover_of_tiled [⟨r_out, p0⟩] S16384x128.size (by rfl) y

/-! ## The body's triple -/

set_option maxHeartbeats 1000000 in
/-- The kernel body on whole staging memrefs, the input's at ANY contents `x0` and the output's at anything, runs
    to the continuation holding the input's as it was and the output's at `out0_1 x0`. -/
theorem sound_kernel0 (c : Dev nD) (E : Set ℕ) (i : grid0.Coords)
    (arg1 : Memref sig .tc .vmem S64x32768 .f32) (harg1 : arg1.IsWhole)
    (arg2 : Memref sig .tc .vmem S16384x128 .f32) (harg2 : arg2.IsWhole)
    (x0 : Vec F S64x32768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__tp_body i arg1 harg1 arg2 harg2) K := by
  simp only [cc0__tp_body_eq_skeleton]; unfold cc0__tp_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.Kernel.Tc0

end
-- ==== Proof.KTc0Dat.lean ====
import proofs.«205263_g58420145160647_cont_9to1_m_909_25_alg».proof.Proof.KTc0Body
import Idealize.ShloMosaic.Lib.ValueLayout
import Idealize.ShloMosaic.Lib.Pipeline.Value

/-! # The transposing kernel's pipeline: relational proof data and the body obligation

The operand `main_v0` (64 × 1000000) is read in blocks of 32768 columns; 1000000 = 30 · 32768 + 16960, so the last
block overhangs the array by 15808 columns and its fetch fills the staging buffer's columns 16960‥32767 with words
nothing names. The body transposes those words too and writes them back to rows of the result, so no closed form
names the whole result: the proof data is relational. `After1` says what the body leaves in the result's staging
buffer on the lanes whose source column lies inside the array, in terms of the operand array at region entry;
`rdat0` is the proof data; `body_obligation0` its body obligation at every point. -/

set_option maxRecDepth 16384

noncomputable section

namespace Cert.Kernel.Tc0

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {U : Type} [URA U]

local notation "𝕄" => MT nD τ sig Ix (Elt F) ℕ U ℕ

variable (V : (c : Dev nD) → (b : Ref sig .tc) → Buf (Elt F) ((c : Thread nD τ).loc b))

/-! ## The value the body computes, read at an index -/

/-- Lanes 0‥63 of row `r` of the stored block are column `r` of the loaded block, top to bottom. -/
theorem pay_apply_lo (v0 : Vec F S64x32768 .f32) (r : Fin 16384) (j : Fin 128) (hj : j.val < 64)
    (a : Fin 64) (cc : Fin 32768) (ha : a.val = j.val) (hc : cc.val = r.val) :
    k0_pay1 v0 (ix2 r j) = v0 (ix2 a cc) := by
  unfold k0_pay1
  refine (concatenate_pair_apply_left (t := S16384x128) (s₁ := S16384x64) (s₂ := S16384x64) 1 _ _ _ (ix2 r j) rfl (ix2 r ⟨j.val, hj⟩) (fun b => ?_)).trans ?_
  · match b with
    | ⟨0, _⟩ => rfl
    | ⟨1, _⟩ => rfl
  refine (slice2_axis0_apply 0 _ _ r ⟨j.val, hj⟩ ⟨r.val, by omega⟩ (by simp)).trans ?_
  refine (transpose_ix2_apply _ _ _ _).trans ?_
  rw [shapeCast_self]
  congr 1
  funext b
  match b with
  | ⟨0, _⟩ => exact Fin.ext ha.symm
  | ⟨1, _⟩ => exact Fin.ext hc.symm

/-- Lanes 64‥127 of row `r` are column `16384 + r`. -/
theorem pay_apply_hi (v0 : Vec F S64x32768 .f32) (r : Fin 16384) (j : Fin 128) (hj : 64 ≤ j.val)
    (a : Fin 64) (cc : Fin 32768) (ha : a.val + 64 = j.val) (hc : cc.val = 16384 + r.val) :
    k0_pay1 v0 (ix2 r j) = v0 (ix2 a cc) := by
  unfold k0_pay1
  refine (concatenate_pair_apply_right (t := S16384x128) (s₁ := S16384x64) (s₂ := S16384x64) 1 _ _ _ (ix2 r j) rfl rfl (ix2 r a) (fun b hb => ?_) ?_).trans ?_
  · match b with
    | ⟨0, _⟩ => rfl
    | ⟨1, _⟩ => exact absurd rfl hb
  · exact ha
  refine (slice2_axis0_apply 16384 _ _ r a cc hc).trans ?_
  refine (transpose_ix2_apply _ _ _ _).trans ?_
  rw [shapeCast_self]

/-- The stored block at `(r, j)` is the loaded block at `(j mod 64, (j div 64) · 16384 + r)`. -/
theorem out0_1_apply (x0 : Vec F S64x32768 .f32) (r : Fin 16384) (j : Fin 128)
    (a : Fin 64) (cc : Fin 32768) (ha : a.val = j.val % 64) (hc : cc.val = (j.val / 64) * 16384 + r.val) :
    out0_1 x0 (ix2 r j) = x0 (ix2 a cc) := by
  unfold out0_1
  have he : (ix2 r j : S16384x128.Idx) = r_out.emb (ix2 r j) := by
    funext b; apply Fin.ext; rw [Rect.emb_apply]
    match b with
    | ⟨0, _⟩ => show r.val = 0 + 1 * r.val; omega
    | ⟨1, _⟩ => show j.val = 0 + 1 * j.val; omega
  rw [he, View.canon_cons_emb]
  have hl : View.ld x0 r_in (ix2 a cc) = x0 (ix2 a cc) := by
    show x0 (r_in.idx (ix2 a cc)) = x0 (ix2 a cc)
    congr 1
    funext b; apply Fin.ext
    match b with
    | ⟨0, _⟩ => show 0 + 1 * a.val = a.val; omega
    | ⟨1, _⟩ => show 0 + 1 * cc.val = cc.val; omega
  have hj := j.isLt
  by_cases h64 : j.val < 64
  · exact (pay_apply_lo _ r j h64 a cc (by omega) (by omega)).trans hl
  · exact (pay_apply_hi _ r j (by omega) a cc (by omega) (by omega)).trans hl

/-! ## The schedule, decided over the grid -/

/-- At point `t` the operand's window sits at block (0, t) and moves 64 rows and the block's columns inside the
    array (32768, at the last point 16960); the result's window sits at block (t, 0). -/
theorem grid_facts0 : ∀ t : Fin grid0.N,
    win0_0.index t 0 = 0 ∧ win0_0.index t 1 = t.val
    ∧ win0_0.xsize (grid0.coords t) 0 = 64
    ∧ win0_0.xsize (grid0.coords t) 1 = min 32768 (1000000 - t.val * 32768)
    ∧ win0_1.index t 0 = t.val ∧ win0_1.index t 1 = 0 := by decide +kernel

/-! ## The proof data -/

/-- What the body leaves in the result window's buffer at point `t`, as a relation to the operand array `V c main_v0`
    at region entry: lane `j` of row `r` holds row `j mod 64` of the operand at column
    `t · 32768 + (j div 64) · 16384 + r`, WHEREVER that column lies inside the array. Nothing is said of the other
    lanes (at the last point, the transposed overhang). -/
def After1 (c : Dev nD) (t : Fin cfg0.N) (X : S16384x128.Idx → Elt F .f32) : Prop :=
  ∀ (r : Fin 16384) (j : Fin 128) (h : t.val * 32768 + (j.val / 64) * 16384 + r.val < 1000000),
    X (ix2 r j) = V c main_v0 (ix2 (⟨j.val % 64, Nat.mod_lt _ (by decide)⟩ : Fin 64)
      (⟨t.val * 32768 + (j.val / 64) * 16384 + r.val, h⟩ : Fin 1000000))

/-- The proof data of the transposing pipeline on core `c`: the arrays as the region finds them; the body leaves its
    input buffer as it found it and the result's buffer in the relation `After1` to the operand array; an invariant
    `Φ₀` the body neither reads nor changes; the tallies `O` owed throughout, the recorded pairs within `Rc`
    throughout; full shares. -/
def rdat0 (O : CellTallies nD τ sig Ix) (Rc : Set (SemLoc sig × Ix)) (Φ₀ : sProp 𝕄) (c : Dev nD) :
    RDat τ (Elt F) Ix ℕ U ℕ cfg0 c where
  A w := V c (Pipeline.arrRef spec0 w)
  after w t := match w with
    | ⟨0, _⟩ => fun Y X => X = Y
    | ⟨1, _⟩ => fun _ X => After1 V c t X
  Φ _ := Φ₀
  q _ := fullShare
  owed _ := O
  recorded _ := Rc

variable (O : CellTallies nD τ sig Ix) (Rc : Set (SemLoc sig × Ix)) (Φ₀ : sProp (MT nD τ sig Ix (Elt F) ℕ U ℕ))

theorem A_eq0 (c : Dev nD) (w : Fin cfg0.W) : (rdat0 V O Rc Φ₀ c).A w = V c (Pipeline.arrRef spec0 w) := by
  dsimp only [rdat0]

theorem after0_0 (c : Dev nD) (t : Fin cfg0.N) (Y X) : (rdat0 V O Rc Φ₀ c).after 0 t Y X ↔ X = Y := Iff.rfl
theorem after0_1 (c : Dev nD) (t : Fin cfg0.N) (Y X) : (rdat0 V O Rc Φ₀ c).after 1 t Y X ↔ After1 V c t X := Iff.rfl

/-- What a fetch at point `t` puts in the operand's buffer, at an index whose column lies inside the array: the
    operand array there. -/
theorem fetched0_apply (c : Dev nD) (t : Fin cfg0.N) (d) (a : Fin 64) (cc : Fin 32768) (h : t.val * 32768 + cc.val < 1000000) :
    (rdat0 V O Rc Φ₀ c).fetched 0 t d (ix2 a cc) = V c main_v0 (ix2 a (⟨t.val * 32768 + cc.val, h⟩ : Fin 1000000)) := by
  obtain ⟨h00, h01, hx0, hx1, -, -⟩ := grid_facts0 t
  have hm : win0_0.moved (grid0.coords t) (ix2 a cc) = true := (win0_0.moved_iff _ _).mpr fun ax => by
    match ax with
    | ⟨0, _⟩ => show a.val < win0_0.xsize (grid0.coords t) 0; rw [hx0]; exact a.isLt
    | ⟨1, _⟩ => show cc.val < win0_0.xsize (grid0.coords t) 1; rw [hx1]; have := cc.isLt; omega
  unfold RDat.fetched
  show win0_0.fill (grid0.coords t) d _ (ix2 a cc) = _
  unfold Window.fill
  rw [dif_pos hm]
  unfold RDat.blockOf
  rw [View.read_apply]
  show V c main_v0 ((win0_0.blk t).view.emb _) = _
  refine congrArg (V c main_v0) ?_
  funext ax; apply Fin.ext
  show ((win0_0.rect t).emb _ ax : ℕ) = _
  rw [Window.rect_emb_val]
  match ax with
  | ⟨0, _⟩ => show win0_0.index t 0 * 64 + a.val = a.val; rw [h00]; omega
  | ⟨1, _⟩ => show win0_0.index t 1 * 32768 + cc.val = t.val * 32768 + cc.val; rw [h01]

/-- What the body may find in the operand's buffer at point `t` (the window is fetched at every point), at an index
    whose column lies inside the array: the operand array there. -/
theorem finds0_apply (c : Dev nD) (t : Fin cfg0.N) (Y) (hY : (rdat0 V O Rc Φ₀ c).Finds 0 t Y)
    (a : Fin 64) (cc : Fin 32768) (h : t.val * 32768 + cc.val < 1000000) :
    Y (ix2 a cc) = V c main_v0 (ix2 a (⟨t.val * 32768 + cc.val, h⟩ : Fin 1000000)) := by
  obtain ⟨d, rfl⟩ := ((rdat0 V O Rc Φ₀ c).finds_of_fetch (fetch0_0 t) Y).mp hY
  exact fetched0_apply V O Rc Φ₀ c t d a cc h

/-- The block the body stores, computed from anything it may find in the operand's buffer, is in `After1`. -/
theorem after1_of_finds (c : Dev nD) (t : Fin cfg0.N) (Y) (hY : (rdat0 V O Rc Φ₀ c).Finds 0 t Y) :
    After1 V c t (out0_1 Y) := by
  intro r j h
  have hj := j.isLt
  have hr := r.isLt
  have hc : (j.val / 64) * 16384 + r.val < 32768 := by clear h; omega
  rw [out0_1_apply Y r j ⟨j.val % 64, Nat.mod_lt _ (by decide)⟩ ⟨(j.val / 64) * 16384 + r.val, hc⟩ rfl rfl,
    finds0_apply V O Rc Φ₀ c t Y hY _ _ (show t.val * 32768 + ((j.val / 64) * 16384 + r.val) < 1000000 from (Nat.add_assoc _ _ _) ▸ h)]
  refine congrArg (V c main_v0) (funext fun ax => ?_)
  match ax with
  | ⟨0, _⟩ => rfl
  | ⟨1, _⟩ => exact Fin.ext (Nat.add_assoc _ _ _).symm

/-! ## The body obligation -/

/-- The relational body obligation at every point: the body's triple at whatever the operand's buffer holds; the
    invariant and the core's tallies pass through unread; the operand's buffer is left as found and the result's in
    `After1` (by what `Finds` says of the operand's buffer on the part inside the array). -/
theorem body_obligation0 (ι : Ix) (c : Dev nD) :
    (rdat0 V O Rc Φ₀ c).BodyObligation (defs₀ (F := F)) Variants.none ι Set.univ := fun t Y hY => by
  rw [bigSep_W0, bigSep_W0]
  rw [show (rdat0 V O Rc Φ₀ c).Φ t.succ = (rdat0 V O Rc Φ₀ c).Φ t.castSucc from rfl,
    show (rdat0 V O Rc Φ₀ c).owesAt ι t.succ = (rdat0 V O Rc Φ₀ c).owesAt ι t.castSucc from rfl]
  show _ ⊢ wp frame _ _ (bodyAt0 t) _
  unfold bodyAt0
  iintro ⟨HΦ, Ho, H0, H1⟩
  iapply (sound_kernel0 (F := F) c Set.univ (grid0.coords t) _ _ _ _ (Y 0) _)
  isplitl [H0]; · iexact H0
  isplitl [H1]; · iexists _; iexact H1
  iintro ⟨H0, H1⟩
  isplitl [HΦ]; · iexact HΦ
  isplitl [Ho]; · iexact Ho
  isplitl [H0]
  · iexists (Y 0); isplitr
    · ipureintro; exact (after0_0 V O Rc Φ₀ c t (Y 0) (Y 0)).mpr rfl
    iexact H0
  · iexists (out0_1 (Y 0)); isplitr
    · ipureintro; exact (after0_1 V O Rc Φ₀ c t (Y 1) _).mpr (after1_of_finds V O Rc Φ₀ c t (Y 0) (hY 0))
    iexact H1

end Cert.Kernel.Tc0

end
-- ==== Proof.KTc2Body.lean ====
import proofs.«205263_g58420145160647_cont_9to1_m_909_25_alg».proof.Proof.Gen.Kernel.Launch
import proofs.«205263_g58420145160647_cont_9to1_m_909_25_alg».proof.Proof.Gen.Kernel.Skeleton
import proofs.«205263_g58420145160647_cont_9to1_m_909_25_alg».proof.Proof.Gen.Kernel.Points
import Idealize.ShloMosaic.Lib.Pipeline.FrameBody
import Idealize.ShloMosaic.Lib.Ring
import Idealize.ShloMosaic.Lib.Tactic

/-! # The second TensorCore kernel's body: what it stores, and its triple

The body loads its 28 input windows whole, computes one 2048×1 column from them and stores it over the whole
of its output window. `out2_28` names that column as a function of the input blocks; `sound_kernel2` is the
body's triple on whole staging memrefs. -/

set_option maxRecDepth 16384

noncomputable section

namespace Cert.Kernel.Tc2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U]

local notation "𝕄" => MT nD τ sig Ix (Elt F) ℕ U ℕ

/-! ## The whole-buffer rectangles the body loads and stores through -/

abbrev r_S2048x128 : Rect S2048x128 := Rect.unit (s := S2048x128) ![0, 0] S2048x128.size inb_S2048x128_S2048x128_0_0
abbrev r_S1x1x2048 : Rect S1x1x2048 := Rect.unit (s := S1x1x2048) ![0, 0, 0] S1x1x2048.size inb_S1x1x2048_S1x1x2048_0_0_0
abbrev r_S100x64 : Rect S100x64 := Rect.unit (s := S100x64) ![0, 0] S100x64.size inb_S100x64_S100x64_0_0
abbrev r_S5x8 : Rect S5x8 := Rect.unit (s := S5x8) ![0, 0] S5x8.size inb_S5x8_S5x8_0_0
abbrev r_S8x16 : Rect S8x16 := Rect.unit (s := S8x16) ![0, 0] S8x16.size inb_S8x16_S8x16_0_0
abbrev r_S25x8 : Rect S25x8 := Rect.unit (s := S25x8) ![0, 0] S25x8.size inb_S25x8_S25x8_0_0
abbrev r_S61x8 : Rect S61x8 := Rect.unit (s := S61x8) ![0, 0] S61x8.size inb_S61x8_S61x8_0_0
abbrev r_S500x64 : Rect S500x64 := Rect.unit (s := S500x64) ![0, 0] S500x64.size inb_S500x64_S500x64_0_0
abbrev r_S40x16 : Rect S40x16 := Rect.unit (s := S40x16) ![0, 0] S40x16.size inb_S40x16_S40x16_0_0
abbrev r_S256x1 : Rect S256x1 := Rect.unit (s := S256x1) ![0, 0] S256x1.size inb_S256x1_S256x1_0_0
abbrev r_S1x1 : Rect S1x1 := Rect.unit (s := S1x1) ![0, 0] S1x1.size inb_S1x1_S1x1_0_0
abbrev r_S256x32 : Rect S256x32 := Rect.unit (s := S256x32) ![0, 0] S256x32.size inb_S256x32_S256x32_0_0
abbrev r_S256x128 : Rect S256x128 := Rect.unit (s := S256x128) ![0, 0] S256x128.size inb_S256x128_S256x128_0_0
abbrev r_S1x128 : Rect S1x128 := Rect.unit (s := S1x128) ![0, 0] S1x128.size inb_S1x128_S1x128_0_0
abbrev r_S128x128 : Rect S128x128 := Rect.unit (s := S128x128) ![0, 0] S128x128.size inb_S128x128_S128x128_0_0
abbrev r_S128x1 : Rect S128x1 := Rect.unit (s := S128x1) ![0, 0] S128x1.size inb_S128x1_S128x1_0_0
abbrev r_S2048x1 : Rect S2048x1 := Rect.unit (s := S2048x1) ![0, 0] S2048x1.size inb_S2048x1_S2048x1_0_0

/-! ## What the body computes -/

/-- The concatenated embedding row block (2048×256) as a function of the index blocks and the tables. -/
abbrev emb2 (x0 : Vec F S2048x128 .f32) (x1 : Vec F S1x1x2048 .i32) (x2 : Vec F S1x1x2048 .i32) (x3 : Vec F S1x1x2048 .i32) (x4 : Vec F S1x1x2048 .i32) (x5 : Vec F S1x1x2048 .i32) (x6 : Vec F S1x1x2048 .i32) (x7 : Vec F S1x1x2048 .i32) (x8 : Vec F S1x1x2048 .i32) (x9 : Vec F S1x1x2048 .i32) (x10 : Vec F S100x64 .f32) (x11 : Vec F S5x8 .f32) (x12 : Vec F S8x16 .f32) (x13 : Vec F S25x8 .f32) (x14 : Vec F S61x8 .f32) (x15 : Vec F S61x8 .f32) (x16 : Vec F S500x64 .f32) (x17 : Vec F S40x16 .f32) : FVec F S2048x256 .f32 :=
  k2_pay11 (k2_pay2 (View.ld x1 r_S1x1x2048) (View.ld x0 r_S2048x128)) (k2_pay3 (View.ld x2 r_S1x1x2048) (View.ld x10 r_S100x64))
    (k2_pay7 (View.ld x11 r_S5x8) (k2_pay4 (View.ld x3 r_S1x1x2048)) (k2_pay5 (F := F)) (k2_pay6 (F := F)))
    (k2_pay8 (View.ld x4 r_S1x1x2048) (View.ld x12 r_S8x16)) (k2_pay9 (View.ld x5 r_S1x1x2048) (View.ld x13 r_S25x8)) (k2_pay10 (View.ld x6 r_S1x1x2048) (View.ld x14 r_S61x8))
    (View.ld x7 r_S1x1x2048) (View.ld x15 r_S61x8) (View.ld x8 r_S1x1x2048) (View.ld x16 r_S500x64) (View.ld x9 r_S1x1x2048) (View.ld x17 r_S40x16)

/-- The stored value (2048×1) as a function of the 28 input blocks. -/
abbrev val2 (x0 : Vec F S2048x128 .f32) (x1 : Vec F S1x1x2048 .i32) (x2 : Vec F S1x1x2048 .i32) (x3 : Vec F S1x1x2048 .i32) (x4 : Vec F S1x1x2048 .i32) (x5 : Vec F S1x1x2048 .i32) (x6 : Vec F S1x1x2048 .i32) (x7 : Vec F S1x1x2048 .i32) (x8 : Vec F S1x1x2048 .i32) (x9 : Vec F S1x1x2048 .i32) (x10 : Vec F S100x64 .f32) (x11 : Vec F S5x8 .f32) (x12 : Vec F S8x16 .f32) (x13 : Vec F S25x8 .f32) (x14 : Vec F S61x8 .f32) (x15 : Vec F S61x8 .f32) (x16 : Vec F S500x64 .f32) (x17 : Vec F S40x16 .f32) (x18 : Vec F S256x1 .f32) (x19 : Vec F S1x1 .f32) (x20 : Vec F S256x32 .f32) (x21 : Vec F S256x128 .f32) (x22 : Vec F S1x128 .f32) (x23 : Vec F S128x128 .f32) (x24 : Vec F S1x128 .f32) (x25 : Vec F S128x128 .f32) (x26 : Vec F S1x128 .f32) (x27 : Vec F S128x1 .f32) : FVec F S2048x1 .f32 :=
  k2_pay1 (k2_pay12 (emb2 x0 x1 x2 x3 x4 x5 x6 x7 x8 x9 x10 x11 x12 x13 x14 x15 x16 x17) (View.ld x18 r_S256x1) (View.ld x19 r_S1x1)) (k2_pay13 (emb2 x0 x1 x2 x3 x4 x5 x6 x7 x8 x9 x10 x11 x12 x13 x14 x15 x16 x17) (View.ld x20 r_S256x32))
    (k2_pay14 (emb2 x0 x1 x2 x3 x4 x5 x6 x7 x8 x9 x10 x11 x12 x13 x14 x15 x16 x17) (View.ld x21 r_S256x128) (View.ld x22 r_S1x128) (View.ld x23 r_S128x128) (View.ld x24 r_S1x128) (View.ld x25 r_S128x128)) (View.ld x26 r_S1x128) (View.ld x27 r_S128x1)

/-- Window 28's staging buffer after the body: its one store, over the whole buffer. -/
def out2_28 (x0 : Vec F S2048x128 .f32) (x1 : Vec F S1x1x2048 .i32) (x2 : Vec F S1x1x2048 .i32) (x3 : Vec F S1x1x2048 .i32) (x4 : Vec F S1x1x2048 .i32) (x5 : Vec F S1x1x2048 .i32) (x6 : Vec F S1x1x2048 .i32) (x7 : Vec F S1x1x2048 .i32) (x8 : Vec F S1x1x2048 .i32) (x9 : Vec F S1x1x2048 .i32) (x10 : Vec F S100x64 .f32) (x11 : Vec F S5x8 .f32) (x12 : Vec F S8x16 .f32) (x13 : Vec F S25x8 .f32) (x14 : Vec F S61x8 .f32) (x15 : Vec F S61x8 .f32) (x16 : Vec F S500x64 .f32) (x17 : Vec F S40x16 .f32) (x18 : Vec F S256x1 .f32) (x19 : Vec F S1x1 .f32) (x20 : Vec F S256x32 .f32) (x21 : Vec F S256x128 .f32) (x22 : Vec F S1x128 .f32) (x23 : Vec F S128x128 .f32) (x24 : Vec F S1x128 .f32) (x25 : Vec F S128x128 .f32) (x26 : Vec F S1x128 .f32) (x27 : Vec F S128x1 .f32) : Vec F S2048x1 .f32 :=
  View.canon [⟨r_S2048x1, val2 x0 x1 x2 x3 x4 x5 x6 x7 x8 x9 x10 x11 x12 x13 x14 x15 x16 x17 x18 x19 x20 x21 x22 x23 x24 x25 x26 x27⟩]

/-- The store's rectangle is the whole buffer, so it covers it. -/
theorem cover2_28 (p0 : Vec F S2048x1 .f32) (y : S2048x1.Idx) :
    ∃ pc ∈ ([⟨r_S2048x1, p0⟩] : List (View.Piece (Elt F) S2048x1 .f32)), y ∈ pc.1.set :=
  View.cover_of_tiled [⟨r_S2048x1, p0⟩] S2048x1.size (by rfl) y

/-! ## The body's triple -/

set_option maxHeartbeats 4000000 in
/-- The body on whole staging memrefs, the inputs' at read contents `xW` and the output's at anything, runs to the
    continuation holding the inputs' as they were and the output's at `out2_28` of the inputs'. -/
theorem sound_kernel2 (c : Dev nD) (E : Set ℕ) (i : grid2.Coords) (arg1 : Memref sig .tc .vmem S2048x128 .f32) (harg1 : arg1.IsWhole) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .i32) (harg6 : arg6.IsWhole) (arg7 : Memref sig .tc .vmem S1x1x2048 .i32) (harg7 : arg7.IsWhole) (arg8 : Memref sig .tc .vmem S1x1x2048 .i32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S100x64 .f32) (harg11 : arg11.IsWhole) (arg12 : Memref sig .tc .vmem S5x8 .f32) (harg12 : arg12.IsWhole) (arg13 : Memref sig .tc .vmem S8x16 .f32) (harg13 : arg13.IsWhole) (arg14 : Memref sig .tc .vmem S25x8 .f32) (harg14 : arg14.IsWhole) (arg15 : Memref sig .tc .vmem S61x8 .f32) (harg15 : arg15.IsWhole) (arg16 : Memref sig .tc .vmem S61x8 .f32) (harg16 : arg16.IsWhole) (arg17 : Memref sig .tc .vmem S500x64 .f32) (harg17 : arg17.IsWhole) (arg18 : Memref sig .tc .vmem S40x16 .f32) (harg18 : arg18.IsWhole) (arg19 : Memref sig .tc .vmem S256x1 .f32) (harg19 : arg19.IsWhole) (arg20 : Memref sig .tc .vmem S1x1 .f32) (harg20 : arg20.IsWhole) (arg21 : Memref sig .tc .vmem S256x32 .f32) (harg21 : arg21.IsWhole) (arg22 : Memref sig .tc .vmem S256x128 .f32) (harg22 : arg22.IsWhole) (arg23 : Memref sig .tc .vmem S1x128 .f32) (harg23 : arg23.IsWhole) (arg24 : Memref sig .tc .vmem S128x128 .f32) (harg24 : arg24.IsWhole) (arg25 : Memref sig .tc .vmem S1x128 .f32) (harg25 : arg25.IsWhole) (arg26 : Memref sig .tc .vmem S128x128 .f32) (harg26 : arg26.IsWhole) (arg27 : Memref sig .tc .vmem S1x128 .f32) (harg27 : arg27.IsWhole) (arg28 : Memref sig .tc .vmem S128x1 .f32) (harg28 : arg28.IsWhole) (arg29 : Memref sig .tc .vmem S2048x1 .f32) (harg29 : arg29.IsWhole)
    (x0 : Vec F S2048x128 .f32) (x1 : Vec F S1x1x2048 .i32) (x2 : Vec F S1x1x2048 .i32) (x3 : Vec F S1x1x2048 .i32) (x4 : Vec F S1x1x2048 .i32) (x5 : Vec F S1x1x2048 .i32) (x6 : Vec F S1x1x2048 .i32) (x7 : Vec F S1x1x2048 .i32) (x8 : Vec F S1x1x2048 .i32) (x9 : Vec F S1x1x2048 .i32) (x10 : Vec F S100x64 .f32) (x11 : Vec F S5x8 .f32) (x12 : Vec F S8x16 .f32) (x13 : Vec F S25x8 .f32) (x14 : Vec F S61x8 .f32) (x15 : Vec F S61x8 .f32) (x16 : Vec F S500x64 .f32) (x17 : Vec F S40x16 .f32) (x18 : Vec F S256x1 .f32) (x19 : Vec F S1x1 .f32) (x20 : Vec F S256x32 .f32) (x21 : Vec F S256x128 .f32) (x22 : Vec F S1x128 .f32) (x23 : Vec F S128x128 .f32) (x24 : Vec F S1x128 .f32) (x25 : Vec F S128x128 .f32) (x26 : Vec F S1x128 .f32) (x27 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare (out2_28 x0 x1 x2 x3 x4 x5 x6 x7 x8 x9 x10 x11 x12 x13 x14 x15 x16 x17 x18 x19 x20 x21 x22 x23 x24 x25 x26 x27)) -∗ K ⟨⟩))
      ⊢ wp frame (wpE (defs₀ (F := F)) Variants.none c none) E (cc2__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc2__tc_body_eq_skeleton]; unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  iexists _; isplitr
  swap; · iexact H28
  ipureintro
  exact View.read_writes_eq_canon _ _ _ (cover2_28 _)

end Cert.Kernel.Tc2

end
-- ==== Proof.KTc2Dat.lean ====
import proofs.«205263_g58420145160647_cont_9to1_m_909_25_alg».proof.Proof.KTc2Body

/-! # The second TensorCore kernel: the pipeline's proof data and the body obligation

The arrays are read as the region finds them (`V`, a parameter). Each input window's staging buffer holds, at
every point, that window's block of its array — fetched there or not: the windows whose block index never moves
are fetched at the first point only and keep their block —, and the body leaves in the output window's buffer the
column `out2_28` of the input blocks. -/

set_option maxRecDepth 16384

noncomputable section

namespace Cert.Kernel.Tc2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U]

local notation "𝕄" => MT nD τ sig Ix (Elt F) ℕ U ℕ

variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for ANY proof
data whose array is `V`'s and whose body leaves the block in place: unfetched, the block index has not moved. -/

theorem before2_0_of {c : Dev nD} (dat : Dat τ (Elt F) Ix ℕ U ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix ℕ U ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix ℕ U ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix ℕ U ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix ℕ U ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix ℕ U ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Ix ℕ U ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Ix ℕ U ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Ix ℕ U ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Ix ℕ U ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Ix ℕ U ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Ix ℕ U ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Ix ℕ U ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Ix ℕ U ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
theorem before2_14_of {c : Dev nD} (dat : Dat τ (Elt F) Ix ℕ U ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
theorem before2_15_of {c : Dev nD} (dat : Dat τ (Elt F) Ix ℕ U ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
theorem before2_16_of {c : Dev nD} (dat : Dat τ (Elt F) Ix ℕ U ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
theorem before2_17_of {c : Dev nD} (dat : Dat τ (Elt F) Ix ℕ U ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)
theorem before2_18_of {c : Dev nD} (dat : Dat τ (Elt F) Ix ℕ U ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)
theorem before2_19_of {c : Dev nD} (dat : Dat τ (Elt F) Ix ℕ U ℕ cfg2 c) (hA : dat.A 19 = V c (Pipeline.arrRef spec2 19))
    (hafter : ∀ t, dat.after 19 t = iblk2 V c 19 t) (t : Fin cfg2.N) (d) : dat.before 19 t d = iblk2 V c 19 t :=
  (dat.before_in_eq_fetched 19 rfl (fun _ => rfl) (fun _ _ _ => rfl) (fun t => by rw [hafter]; unfold Dat.blockOf iblk2; rw [hA]; try rfl) t d).trans
    (by unfold Dat.fetched Dat.blockOf iblk2; rw [hA]; try rfl)
theorem before2_20_of {c : Dev nD} (dat : Dat τ (Elt F) Ix ℕ U ℕ cfg2 c) (hA : dat.A 20 = V c (Pipeline.arrRef spec2 20))
    (hafter : ∀ t, dat.after 20 t = iblk2 V c 20 t) (t : Fin cfg2.N) (d) : dat.before 20 t d = iblk2 V c 20 t :=
  (dat.before_in_eq_fetched 20 rfl (fun _ => rfl) (fun _ _ _ => rfl) (fun t => by rw [hafter]; unfold Dat.blockOf iblk2; rw [hA]; try rfl) t d).trans
    (by unfold Dat.fetched Dat.blockOf iblk2; rw [hA]; try rfl)
theorem before2_21_of {c : Dev nD} (dat : Dat τ (Elt F) Ix ℕ U ℕ cfg2 c) (hA : dat.A 21 = V c (Pipeline.arrRef spec2 21))
    (hafter : ∀ t, dat.after 21 t = iblk2 V c 21 t) (t : Fin cfg2.N) (d) : dat.before 21 t d = iblk2 V c 21 t :=
  (dat.before_in_eq_fetched 21 rfl (fun _ => rfl) (fun _ _ _ => rfl) (fun t => by rw [hafter]; unfold Dat.blockOf iblk2; rw [hA]; try rfl) t d).trans
    (by unfold Dat.fetched Dat.blockOf iblk2; rw [hA]; try rfl)
theorem before2_22_of {c : Dev nD} (dat : Dat τ (Elt F) Ix ℕ U ℕ cfg2 c) (hA : dat.A 22 = V c (Pipeline.arrRef spec2 22))
    (hafter : ∀ t, dat.after 22 t = iblk2 V c 22 t) (t : Fin cfg2.N) (d) : dat.before 22 t d = iblk2 V c 22 t :=
  (dat.before_in_eq_fetched 22 rfl (fun _ => rfl) (fun _ _ _ => rfl) (fun t => by rw [hafter]; unfold Dat.blockOf iblk2; rw [hA]; try rfl) t d).trans
    (by unfold Dat.fetched Dat.blockOf iblk2; rw [hA]; try rfl)
theorem before2_23_of {c : Dev nD} (dat : Dat τ (Elt F) Ix ℕ U ℕ cfg2 c) (hA : dat.A 23 = V c (Pipeline.arrRef spec2 23))
    (hafter : ∀ t, dat.after 23 t = iblk2 V c 23 t) (t : Fin cfg2.N) (d) : dat.before 23 t d = iblk2 V c 23 t :=
  (dat.before_in_eq_fetched 23 rfl (fun _ => rfl) (fun _ _ _ => rfl) (fun t => by rw [hafter]; unfold Dat.blockOf iblk2; rw [hA]; try rfl) t d).trans
    (by unfold Dat.fetched Dat.blockOf iblk2; rw [hA]; try rfl)
theorem before2_24_of {c : Dev nD} (dat : Dat τ (Elt F) Ix ℕ U ℕ cfg2 c) (hA : dat.A 24 = V c (Pipeline.arrRef spec2 24))
    (hafter : ∀ t, dat.after 24 t = iblk2 V c 24 t) (t : Fin cfg2.N) (d) : dat.before 24 t d = iblk2 V c 24 t :=
  (dat.before_in_eq_fetched 24 rfl (fun _ => rfl) (fun _ _ _ => rfl) (fun t => by rw [hafter]; unfold Dat.blockOf iblk2; rw [hA]; try rfl) t d).trans
    (by unfold Dat.fetched Dat.blockOf iblk2; rw [hA]; try rfl)
theorem before2_25_of {c : Dev nD} (dat : Dat τ (Elt F) Ix ℕ U ℕ cfg2 c) (hA : dat.A 25 = V c (Pipeline.arrRef spec2 25))
    (hafter : ∀ t, dat.after 25 t = iblk2 V c 25 t) (t : Fin cfg2.N) (d) : dat.before 25 t d = iblk2 V c 25 t :=
  (dat.before_in_eq_fetched 25 rfl (fun _ => rfl) (fun _ _ _ => rfl) (fun t => by rw [hafter]; unfold Dat.blockOf iblk2; rw [hA]; try rfl) t d).trans
    (by unfold Dat.fetched Dat.blockOf iblk2; rw [hA]; try rfl)
theorem before2_26_of {c : Dev nD} (dat : Dat τ (Elt F) Ix ℕ U ℕ cfg2 c) (hA : dat.A 26 = V c (Pipeline.arrRef spec2 26))
    (hafter : ∀ t, dat.after 26 t = iblk2 V c 26 t) (t : Fin cfg2.N) (d) : dat.before 26 t d = iblk2 V c 26 t :=
  (dat.before_in_eq_fetched 26 rfl (fun _ => rfl) (fun _ _ _ => rfl) (fun t => by rw [hafter]; unfold Dat.blockOf iblk2; rw [hA]; try rfl) t d).trans
    (by unfold Dat.fetched Dat.blockOf iblk2; rw [hA]; try rfl)
theorem before2_27_of {c : Dev nD} (dat : Dat τ (Elt F) Ix ℕ U ℕ cfg2 c) (hA : dat.A 27 = V c (Pipeline.arrRef spec2 27))
    (hafter : ∀ t, dat.after 27 t = iblk2 V c 27 t) (t : Fin cfg2.N) (d) : dat.before 27 t d = iblk2 V c 27 t :=
  (dat.before_in_eq_fetched 27 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of the pipeline on core `c`: the arrays as the region finds them; after the body at point `t`
    each input's buffer at its block and the output's at `out2_28` of the input blocks; an invariant `Φ₀` the body
    neither reads nor changes; the tallies `O` owed throughout, the recorded pairs within `Rc` throughout; full shares. -/
noncomputable def dats2 (O : CellTallies nD τ sig Ix) (Rc : Set (SemLoc sig × Ix)) (Φ₀ : sProp 𝕄) (c : Dev nD) : Dat τ (Elt F) Ix ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => iblk2 V c 22 t
    | ⟨23, _⟩ => iblk2 V c 23 t
    | ⟨24, _⟩ => iblk2 V c 24 t
    | ⟨25, _⟩ => iblk2 V c 25 t
    | ⟨26, _⟩ => iblk2 V c 26 t
    | ⟨27, _⟩ => iblk2 V c 27 t
    | ⟨28, _⟩ => out2_28 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t)
    | ⟨_ + 29, h⟩ => absurd h (Nat.not_lt.2 (Nat.le_add_left _ _))
  Φ _ := Φ₀
  q _ := fullShare
  owed _ := O
  recorded _ := Rc

variable (O : CellTallies nD τ sig Ix) (Rc : Set (SemLoc sig × Ix))

/-- The proof data's arrays are the region-entry contents. -/
theorem A_eq2 (Φ₀ : sProp 𝕄) (c : Dev nD) (w : Fin cfg2.W) : (dats2 V O Rc Φ₀ c).A w = V c (Pipeline.arrRef spec2 w) := by
  dsimp only [dats2]

/-- What the body leaves, window by window. -/
theorem after2_0 (Φ₀ : sProp 𝕄) (c : Dev nD) (t : Fin cfg2.N) : (dats2 V O Rc Φ₀ c).after 0 t = iblk2 V c 0 t := by dsimp only [dats2]
theorem after2_1 (Φ₀ : sProp 𝕄) (c : Dev nD) (t : Fin cfg2.N) : (dats2 V O Rc Φ₀ c).after 1 t = iblk2 V c 1 t := by dsimp only [dats2]
theorem after2_2 (Φ₀ : sProp 𝕄) (c : Dev nD) (t : Fin cfg2.N) : (dats2 V O Rc Φ₀ c).after 2 t = iblk2 V c 2 t := by dsimp only [dats2]
theorem after2_3 (Φ₀ : sProp 𝕄) (c : Dev nD) (t : Fin cfg2.N) : (dats2 V O Rc Φ₀ c).after 3 t = iblk2 V c 3 t := by dsimp only [dats2]
theorem after2_4 (Φ₀ : sProp 𝕄) (c : Dev nD) (t : Fin cfg2.N) : (dats2 V O Rc Φ₀ c).after 4 t = iblk2 V c 4 t := by dsimp only [dats2]
theorem after2_5 (Φ₀ : sProp 𝕄) (c : Dev nD) (t : Fin cfg2.N) : (dats2 V O Rc Φ₀ c).after 5 t = iblk2 V c 5 t := by dsimp only [dats2]
theorem after2_6 (Φ₀ : sProp 𝕄) (c : Dev nD) (t : Fin cfg2.N) : (dats2 V O Rc Φ₀ c).after 6 t = iblk2 V c 6 t := by dsimp only [dats2]
theorem after2_7 (Φ₀ : sProp 𝕄) (c : Dev nD) (t : Fin cfg2.N) : (dats2 V O Rc Φ₀ c).after 7 t = iblk2 V c 7 t := by dsimp only [dats2]
theorem after2_8 (Φ₀ : sProp 𝕄) (c : Dev nD) (t : Fin cfg2.N) : (dats2 V O Rc Φ₀ c).after 8 t = iblk2 V c 8 t := by dsimp only [dats2]
theorem after2_9 (Φ₀ : sProp 𝕄) (c : Dev nD) (t : Fin cfg2.N) : (dats2 V O Rc Φ₀ c).after 9 t = iblk2 V c 9 t := by dsimp only [dats2]
theorem after2_10 (Φ₀ : sProp 𝕄) (c : Dev nD) (t : Fin cfg2.N) : (dats2 V O Rc Φ₀ c).after 10 t = iblk2 V c 10 t := by dsimp only [dats2]
theorem after2_11 (Φ₀ : sProp 𝕄) (c : Dev nD) (t : Fin cfg2.N) : (dats2 V O Rc Φ₀ c).after 11 t = iblk2 V c 11 t := by dsimp only [dats2]
theorem after2_12 (Φ₀ : sProp 𝕄) (c : Dev nD) (t : Fin cfg2.N) : (dats2 V O Rc Φ₀ c).after 12 t = iblk2 V c 12 t := by dsimp only [dats2]
theorem after2_13 (Φ₀ : sProp 𝕄) (c : Dev nD) (t : Fin cfg2.N) : (dats2 V O Rc Φ₀ c).after 13 t = iblk2 V c 13 t := by dsimp only [dats2]
theorem after2_14 (Φ₀ : sProp 𝕄) (c : Dev nD) (t : Fin cfg2.N) : (dats2 V O Rc Φ₀ c).after 14 t = iblk2 V c 14 t := by dsimp only [dats2]
theorem after2_15 (Φ₀ : sProp 𝕄) (c : Dev nD) (t : Fin cfg2.N) : (dats2 V O Rc Φ₀ c).after 15 t = iblk2 V c 15 t := by dsimp only [dats2]
theorem after2_16 (Φ₀ : sProp 𝕄) (c : Dev nD) (t : Fin cfg2.N) : (dats2 V O Rc Φ₀ c).after 16 t = iblk2 V c 16 t := by dsimp only [dats2]
theorem after2_17 (Φ₀ : sProp 𝕄) (c : Dev nD) (t : Fin cfg2.N) : (dats2 V O Rc Φ₀ c).after 17 t = iblk2 V c 17 t := by dsimp only [dats2]
theorem after2_18 (Φ₀ : sProp 𝕄) (c : Dev nD) (t : Fin cfg2.N) : (dats2 V O Rc Φ₀ c).after 18 t = iblk2 V c 18 t := by dsimp only [dats2]
theorem after2_19 (Φ₀ : sProp 𝕄) (c : Dev nD) (t : Fin cfg2.N) : (dats2 V O Rc Φ₀ c).after 19 t = iblk2 V c 19 t := by dsimp only [dats2]
theorem after2_20 (Φ₀ : sProp 𝕄) (c : Dev nD) (t : Fin cfg2.N) : (dats2 V O Rc Φ₀ c).after 20 t = iblk2 V c 20 t := by dsimp only [dats2]
theorem after2_21 (Φ₀ : sProp 𝕄) (c : Dev nD) (t : Fin cfg2.N) : (dats2 V O Rc Φ₀ c).after 21 t = iblk2 V c 21 t := by dsimp only [dats2]
theorem after2_22 (Φ₀ : sProp 𝕄) (c : Dev nD) (t : Fin cfg2.N) : (dats2 V O Rc Φ₀ c).after 22 t = iblk2 V c 22 t := by dsimp only [dats2]
theorem after2_23 (Φ₀ : sProp 𝕄) (c : Dev nD) (t : Fin cfg2.N) : (dats2 V O Rc Φ₀ c).after 23 t = iblk2 V c 23 t := by dsimp only [dats2]
theorem after2_24 (Φ₀ : sProp 𝕄) (c : Dev nD) (t : Fin cfg2.N) : (dats2 V O Rc Φ₀ c).after 24 t = iblk2 V c 24 t := by dsimp only [dats2]
theorem after2_25 (Φ₀ : sProp 𝕄) (c : Dev nD) (t : Fin cfg2.N) : (dats2 V O Rc Φ₀ c).after 25 t = iblk2 V c 25 t := by dsimp only [dats2]
theorem after2_26 (Φ₀ : sProp 𝕄) (c : Dev nD) (t : Fin cfg2.N) : (dats2 V O Rc Φ₀ c).after 26 t = iblk2 V c 26 t := by dsimp only [dats2]
theorem after2_27 (Φ₀ : sProp 𝕄) (c : Dev nD) (t : Fin cfg2.N) : (dats2 V O Rc Φ₀ c).after 27 t = iblk2 V c 27 t := by dsimp only [dats2]
theorem after2_28 (Φ₀ : sProp 𝕄) (c : Dev nD) (t : Fin cfg2.N) : (dats2 V O Rc Φ₀ c).after 28 t = out2_28 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) := by dsimp only [dats2]

/-- Each input's current staging buffer holds its block at every point. -/
theorem before2_0 (Φ₀ : sProp 𝕄) (c : Dev nD) (t : Fin cfg2.N) (d) : (dats2 V O Rc Φ₀ c).before 0 t d = iblk2 V c 0 t :=
  before2_0_of V (dats2 V O Rc Φ₀ c) (A_eq2 V O Rc Φ₀ c 0) (after2_0 V O Rc Φ₀ c) t d
theorem before2_1 (Φ₀ : sProp 𝕄) (c : Dev nD) (t : Fin cfg2.N) (d) : (dats2 V O Rc Φ₀ c).before 1 t d = iblk2 V c 1 t :=
  before2_1_of V (dats2 V O Rc Φ₀ c) (A_eq2 V O Rc Φ₀ c 1) (after2_1 V O Rc Φ₀ c) t d
theorem before2_2 (Φ₀ : sProp 𝕄) (c : Dev nD) (t : Fin cfg2.N) (d) : (dats2 V O Rc Φ₀ c).before 2 t d = iblk2 V c 2 t :=
  before2_2_of V (dats2 V O Rc Φ₀ c) (A_eq2 V O Rc Φ₀ c 2) (after2_2 V O Rc Φ₀ c) t d
theorem before2_3 (Φ₀ : sProp 𝕄) (c : Dev nD) (t : Fin cfg2.N) (d) : (dats2 V O Rc Φ₀ c).before 3 t d = iblk2 V c 3 t :=
  before2_3_of V (dats2 V O Rc Φ₀ c) (A_eq2 V O Rc Φ₀ c 3) (after2_3 V O Rc Φ₀ c) t d
theorem before2_4 (Φ₀ : sProp 𝕄) (c : Dev nD) (t : Fin cfg2.N) (d) : (dats2 V O Rc Φ₀ c).before 4 t d = iblk2 V c 4 t :=
  before2_4_of V (dats2 V O Rc Φ₀ c) (A_eq2 V O Rc Φ₀ c 4) (after2_4 V O Rc Φ₀ c) t d
theorem before2_5 (Φ₀ : sProp 𝕄) (c : Dev nD) (t : Fin cfg2.N) (d) : (dats2 V O Rc Φ₀ c).before 5 t d = iblk2 V c 5 t :=
  before2_5_of V (dats2 V O Rc Φ₀ c) (A_eq2 V O Rc Φ₀ c 5) (after2_5 V O Rc Φ₀ c) t d
theorem before2_6 (Φ₀ : sProp 𝕄) (c : Dev nD) (t : Fin cfg2.N) (d) : (dats2 V O Rc Φ₀ c).before 6 t d = iblk2 V c 6 t :=
  before2_6_of V (dats2 V O Rc Φ₀ c) (A_eq2 V O Rc Φ₀ c 6) (after2_6 V O Rc Φ₀ c) t d
theorem before2_7 (Φ₀ : sProp 𝕄) (c : Dev nD) (t : Fin cfg2.N) (d) : (dats2 V O Rc Φ₀ c).before 7 t d = iblk2 V c 7 t :=
  before2_7_of V (dats2 V O Rc Φ₀ c) (A_eq2 V O Rc Φ₀ c 7) (after2_7 V O Rc Φ₀ c) t d
theorem before2_8 (Φ₀ : sProp 𝕄) (c : Dev nD) (t : Fin cfg2.N) (d) : (dats2 V O Rc Φ₀ c).before 8 t d = iblk2 V c 8 t :=
  before2_8_of V (dats2 V O Rc Φ₀ c) (A_eq2 V O Rc Φ₀ c 8) (after2_8 V O Rc Φ₀ c) t d
theorem before2_9 (Φ₀ : sProp 𝕄) (c : Dev nD) (t : Fin cfg2.N) (d) : (dats2 V O Rc Φ₀ c).before 9 t d = iblk2 V c 9 t :=
  before2_9_of V (dats2 V O Rc Φ₀ c) (A_eq2 V O Rc Φ₀ c 9) (after2_9 V O Rc Φ₀ c) t d
theorem before2_10 (Φ₀ : sProp 𝕄) (c : Dev nD) (t : Fin cfg2.N) (d) : (dats2 V O Rc Φ₀ c).before 10 t d = iblk2 V c 10 t :=
  before2_10_of V (dats2 V O Rc Φ₀ c) (A_eq2 V O Rc Φ₀ c 10) (after2_10 V O Rc Φ₀ c) t d
theorem before2_11 (Φ₀ : sProp 𝕄) (c : Dev nD) (t : Fin cfg2.N) (d) : (dats2 V O Rc Φ₀ c).before 11 t d = iblk2 V c 11 t :=
  before2_11_of V (dats2 V O Rc Φ₀ c) (A_eq2 V O Rc Φ₀ c 11) (after2_11 V O Rc Φ₀ c) t d
theorem before2_12 (Φ₀ : sProp 𝕄) (c : Dev nD) (t : Fin cfg2.N) (d) : (dats2 V O Rc Φ₀ c).before 12 t d = iblk2 V c 12 t :=
  before2_12_of V (dats2 V O Rc Φ₀ c) (A_eq2 V O Rc Φ₀ c 12) (after2_12 V O Rc Φ₀ c) t d
theorem before2_13 (Φ₀ : sProp 𝕄) (c : Dev nD) (t : Fin cfg2.N) (d) : (dats2 V O Rc Φ₀ c).before 13 t d = iblk2 V c 13 t :=
  before2_13_of V (dats2 V O Rc Φ₀ c) (A_eq2 V O Rc Φ₀ c 13) (after2_13 V O Rc Φ₀ c) t d
theorem before2_14 (Φ₀ : sProp 𝕄) (c : Dev nD) (t : Fin cfg2.N) (d) : (dats2 V O Rc Φ₀ c).before 14 t d = iblk2 V c 14 t :=
  before2_14_of V (dats2 V O Rc Φ₀ c) (A_eq2 V O Rc Φ₀ c 14) (after2_14 V O Rc Φ₀ c) t d
theorem before2_15 (Φ₀ : sProp 𝕄) (c : Dev nD) (t : Fin cfg2.N) (d) : (dats2 V O Rc Φ₀ c).before 15 t d = iblk2 V c 15 t :=
  before2_15_of V (dats2 V O Rc Φ₀ c) (A_eq2 V O Rc Φ₀ c 15) (after2_15 V O Rc Φ₀ c) t d
theorem before2_16 (Φ₀ : sProp 𝕄) (c : Dev nD) (t : Fin cfg2.N) (d) : (dats2 V O Rc Φ₀ c).before 16 t d = iblk2 V c 16 t :=
  before2_16_of V (dats2 V O Rc Φ₀ c) (A_eq2 V O Rc Φ₀ c 16) (after2_16 V O Rc Φ₀ c) t d
theorem before2_17 (Φ₀ : sProp 𝕄) (c : Dev nD) (t : Fin cfg2.N) (d) : (dats2 V O Rc Φ₀ c).before 17 t d = iblk2 V c 17 t :=
  before2_17_of V (dats2 V O Rc Φ₀ c) (A_eq2 V O Rc Φ₀ c 17) (after2_17 V O Rc Φ₀ c) t d
theorem before2_18 (Φ₀ : sProp 𝕄) (c : Dev nD) (t : Fin cfg2.N) (d) : (dats2 V O Rc Φ₀ c).before 18 t d = iblk2 V c 18 t :=
  before2_18_of V (dats2 V O Rc Φ₀ c) (A_eq2 V O Rc Φ₀ c 18) (after2_18 V O Rc Φ₀ c) t d
theorem before2_19 (Φ₀ : sProp 𝕄) (c : Dev nD) (t : Fin cfg2.N) (d) : (dats2 V O Rc Φ₀ c).before 19 t d = iblk2 V c 19 t :=
  before2_19_of V (dats2 V O Rc Φ₀ c) (A_eq2 V O Rc Φ₀ c 19) (after2_19 V O Rc Φ₀ c) t d
theorem before2_20 (Φ₀ : sProp 𝕄) (c : Dev nD) (t : Fin cfg2.N) (d) : (dats2 V O Rc Φ₀ c).before 20 t d = iblk2 V c 20 t :=
  before2_20_of V (dats2 V O Rc Φ₀ c) (A_eq2 V O Rc Φ₀ c 20) (after2_20 V O Rc Φ₀ c) t d
theorem before2_21 (Φ₀ : sProp 𝕄) (c : Dev nD) (t : Fin cfg2.N) (d) : (dats2 V O Rc Φ₀ c).before 21 t d = iblk2 V c 21 t :=
  before2_21_of V (dats2 V O Rc Φ₀ c) (A_eq2 V O Rc Φ₀ c 21) (after2_21 V O Rc Φ₀ c) t d
theorem before2_22 (Φ₀ : sProp 𝕄) (c : Dev nD) (t : Fin cfg2.N) (d) : (dats2 V O Rc Φ₀ c).before 22 t d = iblk2 V c 22 t :=
  before2_22_of V (dats2 V O Rc Φ₀ c) (A_eq2 V O Rc Φ₀ c 22) (after2_22 V O Rc Φ₀ c) t d
theorem before2_23 (Φ₀ : sProp 𝕄) (c : Dev nD) (t : Fin cfg2.N) (d) : (dats2 V O Rc Φ₀ c).before 23 t d = iblk2 V c 23 t :=
  before2_23_of V (dats2 V O Rc Φ₀ c) (A_eq2 V O Rc Φ₀ c 23) (after2_23 V O Rc Φ₀ c) t d
theorem before2_24 (Φ₀ : sProp 𝕄) (c : Dev nD) (t : Fin cfg2.N) (d) : (dats2 V O Rc Φ₀ c).before 24 t d = iblk2 V c 24 t :=
  before2_24_of V (dats2 V O Rc Φ₀ c) (A_eq2 V O Rc Φ₀ c 24) (after2_24 V O Rc Φ₀ c) t d
theorem before2_25 (Φ₀ : sProp 𝕄) (c : Dev nD) (t : Fin cfg2.N) (d) : (dats2 V O Rc Φ₀ c).before 25 t d = iblk2 V c 25 t :=
  before2_25_of V (dats2 V O Rc Φ₀ c) (A_eq2 V O Rc Φ₀ c 25) (after2_25 V O Rc Φ₀ c) t d
theorem before2_26 (Φ₀ : sProp 𝕄) (c : Dev nD) (t : Fin cfg2.N) (d) : (dats2 V O Rc Φ₀ c).before 26 t d = iblk2 V c 26 t :=
  before2_26_of V (dats2 V O Rc Φ₀ c) (A_eq2 V O Rc Φ₀ c 26) (after2_26 V O Rc Φ₀ c) t d
theorem before2_27 (Φ₀ : sProp 𝕄) (c : Dev nD) (t : Fin cfg2.N) (d) : (dats2 V O Rc Φ₀ c).before 27 t d = iblk2 V c 27 t :=
  before2_27_of V (dats2 V O Rc Φ₀ c) (A_eq2 V O Rc Φ₀ c 27) (after2_27 V O Rc Φ₀ c) t d

/-! ## The body obligation, at a generic point -/

/-- What the body is called with at point `t`, the windows one by one, -/
noncomputable def bodyPre2 (Φ₀ : sProp 𝕄) (ι : Ix) (c : Dev nD) (t : Fin cfg2.N) : sProp 𝕄 :=
  iprop((dats2 V O Rc Φ₀ c).Φ t.castSucc ∗ (dats2 V O Rc Φ₀ c).owesAt ι t.castSucc
    ∗ (∃ d, owns (c : Thread nD τ) (st2_0 t) fullShare ((dats2 V O Rc Φ₀ c).before 0 t d))
    ∗ (∃ d, owns (c : Thread nD τ) (st2_1 t) fullShare ((dats2 V O Rc Φ₀ c).before 1 t d))
    ∗ (∃ d, owns (c : Thread nD τ) (st2_2 t) fullShare ((dats2 V O Rc Φ₀ c).before 2 t d))
    ∗ (∃ d, owns (c : Thread nD τ) (st2_3 t) fullShare ((dats2 V O Rc Φ₀ c).before 3 t d))
    ∗ (∃ d, owns (c : Thread nD τ) (st2_4 t) fullShare ((dats2 V O Rc Φ₀ c).before 4 t d))
    ∗ (∃ d, owns (c : Thread nD τ) (st2_5 t) fullShare ((dats2 V O Rc Φ₀ c).before 5 t d))
    ∗ (∃ d, owns (c : Thread nD τ) (st2_6 t) fullShare ((dats2 V O Rc Φ₀ c).before 6 t d))
    ∗ (∃ d, owns (c : Thread nD τ) (st2_7 t) fullShare ((dats2 V O Rc Φ₀ c).before 7 t d))
    ∗ (∃ d, owns (c : Thread nD τ) (st2_8 t) fullShare ((dats2 V O Rc Φ₀ c).before 8 t d))
    ∗ (∃ d, owns (c : Thread nD τ) (st2_9 t) fullShare ((dats2 V O Rc Φ₀ c).before 9 t d))
    ∗ (∃ d, owns (c : Thread nD τ) (st2_10 t) fullShare ((dats2 V O Rc Φ₀ c).before 10 t d))
    ∗ (∃ d, owns (c : Thread nD τ) (st2_11 t) fullShare ((dats2 V O Rc Φ₀ c).before 11 t d))
    ∗ (∃ d, owns (c : Thread nD τ) (st2_12 t) fullShare ((dats2 V O Rc Φ₀ c).before 12 t d))
    ∗ (∃ d, owns (c : Thread nD τ) (st2_13 t) fullShare ((dats2 V O Rc Φ₀ c).before 13 t d))
    ∗ (∃ d, owns (c : Thread nD τ) (st2_14 t) fullShare ((dats2 V O Rc Φ₀ c).before 14 t d))
    ∗ (∃ d, owns (c : Thread nD τ) (st2_15 t) fullShare ((dats2 V O Rc Φ₀ c).before 15 t d))
    ∗ (∃ d, owns (c : Thread nD τ) (st2_16 t) fullShare ((dats2 V O Rc Φ₀ c).before 16 t d))
    ∗ (∃ d, owns (c : Thread nD τ) (st2_17 t) fullShare ((dats2 V O Rc Φ₀ c).before 17 t d))
    ∗ (∃ d, owns (c : Thread nD τ) (st2_18 t) fullShare ((dats2 V O Rc Φ₀ c).before 18 t d))
    ∗ (∃ d, owns (c : Thread nD τ) (st2_19 t) fullShare ((dats2 V O Rc Φ₀ c).before 19 t d))
    ∗ (∃ d, owns (c : Thread nD τ) (st2_20 t) fullShare ((dats2 V O Rc Φ₀ c).before 20 t d))
    ∗ (∃ d, owns (c : Thread nD τ) (st2_21 t) fullShare ((dats2 V O Rc Φ₀ c).before 21 t d))
    ∗ (∃ d, owns (c : Thread nD τ) (st2_22 t) fullShare ((dats2 V O Rc Φ₀ c).before 22 t d))
    ∗ (∃ d, owns (c : Thread nD τ) (st2_23 t) fullShare ((dats2 V O Rc Φ₀ c).before 23 t d))
    ∗ (∃ d, owns (c : Thread nD τ) (st2_24 t) fullShare ((dats2 V O Rc Φ₀ c).before 24 t d))
    ∗ (∃ d, owns (c : Thread nD τ) (st2_25 t) fullShare ((dats2 V O Rc Φ₀ c).before 25 t d))
    ∗ (∃ d, owns (c : Thread nD τ) (st2_26 t) fullShare ((dats2 V O Rc Φ₀ c).before 26 t d))
    ∗ (∃ d, owns (c : Thread nD τ) (st2_27 t) fullShare ((dats2 V O Rc Φ₀ c).before 27 t d))
    ∗ (∃ d, owns (c : Thread nD τ) (st2_28 t) fullShare ((dats2 V O Rc Φ₀ c).before 28 t d)))

/-- and what it returns. -/
noncomputable def bodyPost2 (Φ₀ : sProp 𝕄) (ι : Ix) (c : Dev nD) (t : Fin cfg2.N) : sProp 𝕄 :=
  iprop((dats2 V O Rc Φ₀ c).Φ t.succ ∗ (dats2 V O Rc Φ₀ c).owesAt ι t.succ
    ∗ owns (c : Thread nD τ) (st2_0 t) fullShare ((dats2 V O Rc Φ₀ c).after 0 t)
    ∗ owns (c : Thread nD τ) (st2_1 t) fullShare ((dats2 V O Rc Φ₀ c).after 1 t)
    ∗ owns (c : Thread nD τ) (st2_2 t) fullShare ((dats2 V O Rc Φ₀ c).after 2 t)
    ∗ owns (c : Thread nD τ) (st2_3 t) fullShare ((dats2 V O Rc Φ₀ c).after 3 t)
    ∗ owns (c : Thread nD τ) (st2_4 t) fullShare ((dats2 V O Rc Φ₀ c).after 4 t)
    ∗ owns (c : Thread nD τ) (st2_5 t) fullShare ((dats2 V O Rc Φ₀ c).after 5 t)
    ∗ owns (c : Thread nD τ) (st2_6 t) fullShare ((dats2 V O Rc Φ₀ c).after 6 t)
    ∗ owns (c : Thread nD τ) (st2_7 t) fullShare ((dats2 V O Rc Φ₀ c).after 7 t)
    ∗ owns (c : Thread nD τ) (st2_8 t) fullShare ((dats2 V O Rc Φ₀ c).after 8 t)
    ∗ owns (c : Thread nD τ) (st2_9 t) fullShare ((dats2 V O Rc Φ₀ c).after 9 t)
    ∗ owns (c : Thread nD τ) (st2_10 t) fullShare ((dats2 V O Rc Φ₀ c).after 10 t)
    ∗ owns (c : Thread nD τ) (st2_11 t) fullShare ((dats2 V O Rc Φ₀ c).after 11 t)
    ∗ owns (c : Thread nD τ) (st2_12 t) fullShare ((dats2 V O Rc Φ₀ c).after 12 t)
    ∗ owns (c : Thread nD τ) (st2_13 t) fullShare ((dats2 V O Rc Φ₀ c).after 13 t)
    ∗ owns (c : Thread nD τ) (st2_14 t) fullShare ((dats2 V O Rc Φ₀ c).after 14 t)
    ∗ owns (c : Thread nD τ) (st2_15 t) fullShare ((dats2 V O Rc Φ₀ c).after 15 t)
    ∗ owns (c : Thread nD τ) (st2_16 t) fullShare ((dats2 V O Rc Φ₀ c).after 16 t)
    ∗ owns (c : Thread nD τ) (st2_17 t) fullShare ((dats2 V O Rc Φ₀ c).after 17 t)
    ∗ owns (c : Thread nD τ) (st2_18 t) fullShare ((dats2 V O Rc Φ₀ c).after 18 t)
    ∗ owns (c : Thread nD τ) (st2_19 t) fullShare ((dats2 V O Rc Φ₀ c).after 19 t)
    ∗ owns (c : Thread nD τ) (st2_20 t) fullShare ((dats2 V O Rc Φ₀ c).after 20 t)
    ∗ owns (c : Thread nD τ) (st2_21 t) fullShare ((dats2 V O Rc Φ₀ c).after 21 t)
    ∗ owns (c : Thread nD τ) (st2_22 t) fullShare ((dats2 V O Rc Φ₀ c).after 22 t)
    ∗ owns (c : Thread nD τ) (st2_23 t) fullShare ((dats2 V O Rc Φ₀ c).after 23 t)
    ∗ owns (c : Thread nD τ) (st2_24 t) fullShare ((dats2 V O Rc Φ₀ c).after 24 t)
    ∗ owns (c : Thread nD τ) (st2_25 t) fullShare ((dats2 V O Rc Φ₀ c).after 25 t)
    ∗ owns (c : Thread nD τ) (st2_26 t) fullShare ((dats2 V O Rc Φ₀ c).after 26 t)
    ∗ owns (c : Thread nD τ) (st2_27 t) fullShare ((dats2 V O Rc Φ₀ c).after 27 t)
    ∗ owns (c : Thread nD τ) (st2_28 t) fullShare ((dats2 V O Rc Φ₀ c).after 28 t))

set_option maxHeartbeats 4000000 in
/-- The body at any point: the inputs' memrefs hold their blocks, so the body's triple applies; the invariant and
    the core's tallies pass through unread. -/
theorem sound_body2 (Φ₀ : sProp 𝕄) (ι : Ix) (c : Dev nD) (t : Fin cfg2.N) :
    bodyPre2 V O Rc Φ₀ ι c t ⊢ wp frame (wpE (defs₀ (F := F)) Variants.none c none) Set.univ (bodyAt2 t) (fun _ => bodyPost2 V O Rc Φ₀ ι c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18, before2_19, before2_20, before2_21, before2_22, before2_23, before2_24, before2_25, before2_26, before2_27]
  rw [show (dats2 V O Rc Φ₀ c).Φ t.succ = (dats2 V O Rc Φ₀ c).Φ t.castSucc from rfl,
    show (dats2 V O Rc Φ₀ c).owesAt ι t.succ = (dats2 V O Rc Φ₀ c).owesAt ι t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22, after2_23, after2_24, after2_25, after2_26, after2_27, after2_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel2 c Set.univ (grid2.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

set_option maxHeartbeats 4000000 in
/-- The library's body obligation, at every point. -/
theorem body_obligation2 (Φ₀ : sProp 𝕄) (ι : Ix) (c : Dev nD) :
    BodyObligation (dats2 (F := F) V O Rc Φ₀ c) (defs₀ (F := F)) Variants.none ι Set.univ := fun t => by
  rw [bigSep_W2, bigSep_W2]
  exact sound_body2 V O Rc Φ₀ ι c t

end Cert.Kernel.Tc2

end
-- ==== Proof.KRunReg0.lean ====
/-
  The run of the whole program, part 3: the first TensorCore region as a segment of @main on the TensorCore thread
  of the SparseCore launch — what it is entered from, what it leaves, and how its arrays are sorted out of the
  thread's buffers and put back.
-/
import proofs.«205263_g58420145160647_cont_9to1_m_909_25_alg».proof.Proof.KRunMain
import proofs.«205263_g58420145160647_cont_9to1_m_909_25_alg».proof.Proof.KTc0Dat
import proofs.«205263_g58420145160647_cont_9to1_m_909_25_alg».proof.Proof.KTc2Dat

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The buffers' contents up to the first region -/

/-- Device `d`'s buffers at launch. -/
abbrev W0 (d : Dev nD) : Valuation τ sig (Elt F) := fun b => m (d, b)
/-- After the host transpose (the first region's entry). -/
abbrev W1 (d : Dev nD) : Valuation τ sig (Elt F) := StableHlo.after (hostOps0 (F := F)) (W0 m d)
/-- The same read at the TensorCore's references. -/
abbrev V1 : (c : Dev nD) → (b : Ref sig .tc) → Buf (Elt F) ((c : Thread nD τ).loc b) := fun c b => W1 m c b

/-! ## What rides beside the buffers -/

/-- The pairs a wait of the TensorCore of `d` may have recorded before call `n`: those at a level at most `8 n`. -/
def Rc (d : Dev nD) (n : ℕ) : Set (SemLoc sig × HIx 1) := {p | (K (F := F)).lev (T d, p.1) p.2 ≤ 8 * n}

/-- The TensorCore's debts before call `n`, its recorded pairs bounded. -/
abbrev OW (d : Dev nD) (n : ℕ) : sProp 𝕄 :=
  iprop(∃ W, ⌜(K (F := F)).WBelow (T d) W (8 * n)⌝ ∗ owes (T d) ((K (F := F)).Otc d n) W)

/-- The invariant of a region whose body keeps nothing of its own: the scoped buffers no window stages and the
    generator register. -/
abbrev ΦR {gr W : Nat} (win : Fin W → Pipeline.WinSpec sig gr) (d : Dev nD) : sProp 𝕄 :=
  iprop(Pipeline.scopedRest (Ix := HIx 1) (Name := ℕ) (U := UU) (Lvl := ℕ) (Val := Elt F) win d ∗ ∃ r, prngReg d r)

/-- Proof data that say nothing, for the pipeline a family's region is not about. -/
def datAny {cfg : Pipeline.Cfg sig Λ₀} (c : Dev nD) : Dat τ (Elt F) (HIx 1) ℕ UU ℕ cfg c where
  A _ := Classical.arbitrary _
  after _ _ := Classical.arbitrary _
  Φ _ := iprop(emp)
  q _ := fullShare
  owed _ := 0

/-- The proof data, the first region's at its entry contents (the second's says nothing here: it is entered later,
    with a family of its own). -/
def rdatsA : (p : Fin 2) → (c : Dev nD) → RDat τ (Elt F) (HIx 1) ℕ UU ℕ (Pipeline.pin (pcfgs (F := F)) adm p) c
  | ⟨0, _⟩ => fun c => Tc0.rdat0 (V1 m) ((K (F := F)).Otc c 0) (Rc (F := F) c 0) (ΦR spec0 c) c
  | ⟨1, _⟩ => fun c => (datAny (cfg := cfg2) c).toR

/-- What the TensorCore owes the SparseCores sits at a call's index: nothing at the kernels' own. -/
theorem Otc_none (d : Dev nD) (n : ℕ) (g : GSem nD τ sig) : (K (F := F)).Otc d n g none = 0 := by
  unfold SparseCore.Cfg.Otc
  simp only [Finset.sum_apply, Finsupp.coe_finset_sum]
  refine Finset.sum_eq_zero fun q _ => ?_
  split
  · simp only [Finset.sum_apply, Finsupp.coe_finset_sum]
    refine Finset.sum_eq_zero fun c _ => ?_
    by_contra h
    exact absurd (Pipeline.tallyAt_pos (Nat.pos_of_ne_zero h)).2 (by simp)
  · rfl

theorem share0 (c : Dev nD) (w : Fin cfg0.W) : (rdatsA m 0 c).share w = fullShare := by unfold RDat.share; split <;> rfl

/-- A window's array of the first region, held as the pipeline holds it, is its buffer whole at the full share. -/
theorem arr0_eq (c : Dev nD) (w : Fin cfg0.W) (X : Buf (Elt F) ((cfg0.win w).arr.view.loc (c.tc : Thread nD τ))) :
    (((cfg0.win w).arr.view.loc (c.tc : Thread nD τ)) ↦[(cfg0.win w).arr.view.set]{(rdatsA m 0 c).share w} X : sProp 𝕄)
      = (((c.tc : Thread nD τ).loc (Pipeline.arrRef spec0 w)) ↦{fullShare} X) := by
  rw [show (cfg0.win w).arr.view.set = Finset.univ from (launch0.arr_whole w).set_eq_univ, share0]

/-- THE FIRST REGION over the TensorCore's thread state. -/
def reg0 : Pipeline.RDat.RegionSeg (pcfgs (F := F)) adm (rdatsA m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := Tc0.body_obligation0 (V1 m) ((K (F := F)).Otc c 0) (Rc (F := F) c 0) (ΦR spec0 c) none c
  hwaits c := Pipeline.RDat.cellsWaits_intro (Pipeline.pin (pcfgs (F := F)) adm) (rdatsA m) none 0 c fun w s t =>
    (K (F := F)).mayWait_none (thr := T c) _ (Otc_none c 0)
  pre c := iprop(StableHlo.held (c : Thread nD τ) (Pipeline.ucRefs τ sig) (W1 m c) ∗ (∃ r, prngReg c r) ∗ OW (F := F) c 0)
  post c := iprop((∃ X0 X1, ⌜(rdatsA m 0 c).ArrAt 0 cfg0.N X0 ∧ (rdatsA m 0 c).ArrAt 1 cfg0.N X1⌝
      ∗ ((c.tc : Thread nD τ).loc (Pipeline.arrRef spec0 0) ↦{fullShare} X0) ∗ ((c.tc : Thread nD τ).loc (Pipeline.arrRef spec0 1) ↦{fullShare} X1))
    ∗ Pipeline.unscopedRest (Ix := HIx 1) (Name := ℕ) (U := UU) (Lvl := ℕ) spec0 c (V1 m c) ∗ (∃ r, prngReg c r) ∗ OW (F := F) c 0)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.RDat.arrays_of_unscopedBufs (p := 0) (pcfgs (F := F)) adm (rdatsA m) launch0.win launch0.arr_whole c
      (share0 m c) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, %hW, HO⟩; iexists W; isplitr
      · ipureintro; exact fun p hp => Or.inl (hW p (Finset.mem_coe.mp hp))
      iexact HO
    isplitl [Hp]; · iexact Hp
    iexact Hrest
  hin c := by
    show iprop(_ ∗ _ ∗ _) ⊢ ΦR spec0 c
    iintro ⟨Hp, -, Hr⟩
    isplitl [Hr]; · iexact Hr
    iexact Hp
  hout c := by
    rw [Pipeline.ownSems0_none]
    show ΦR spec0 c ⊢ _
    iintro ⟨Hr, Hp⟩
    isplitl [Hp]; · iexact Hp
    isplitr; · iempintro
    iexact Hr
  hexit c := by
    iintro ⟨Ha, HO, HY, Hrest⟩
    unfold RDat.arraysAt
    ihave Ha' := (Entails.of_eq (bigSep_W0 _)) $$ Ha
    icases Ha' with ⟨⟨%X0, %h0, H0⟩, ⟨%X1, %h1, H1⟩⟩
    imodintro
    isplitl [H0 H1]
    · iexists X0; iexists X1
      isplitr; · ipureintro; exact ⟨h0, h1⟩
      isplitl [H0]
      · iapply (Entails.of_eq (arr0_eq m c 0 X0)); iexact H0
      · iapply (Entails.of_eq (arr0_eq m c 1 X1)); iexact H1
    isplitl [Hrest]; · iexact Hrest
    isplitl [HY]; · iexact HY
    icases HO with ⟨%W, %hW, HO⟩; iexists W; isplitr
    · ipureintro
      intro p hp
      rcases hW (Finset.mem_coe.mpr hp) with h | ⟨w, s, rfl⟩
      · exact h
      · show (K (F := F)).lev _ none ≤ _
        rw [SparseCore.Cfg.lev_none]
    iexact HO

end Cert.Kernel.Run

end
-- ==== Proof.KRunReg1.lean ====
/-
  The run of the whole program, part 3b: the second TensorCore region as a segment of @main on the TensorCore thread
  — entered from every unscoped buffer the thread still holds after the SparseCore call (all but the pairs' buffer,
  which the vector subcores keep their shares of), at any contents.
-/
import proofs.«205263_g58420145160647_cont_9to1_m_909_25_alg».proof.Proof.KRunReg0

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)

variable {F : FTy → Type} [FloatOps F] [∀ e, Nonempty (Elt F e)]

local notation "𝕄" => MT nD τ sig (HIx 1) (Elt F) ℕ UU ℕ

/-! ## The references held after the SparseCore call -/

/-- Every unscoped TensorCore reference but the pairs' buffer. -/
abbrev S1 : Finset (DevRef τ sig) := (Pipeline.ucRefs τ sig).erase (Proc.devRef .tc main_v1)
/-- The second region's arrays. -/
abbrev T2 : Finset (DevRef τ sig) := Finset.univ.image fun w : Fin cfg2.W => Proc.devRef (τ := τ) .tc (Pipeline.arrRef spec2 w)

theorem arr2_ne_v1 : ∀ w : Fin cfg2.W, Pipeline.arrRef spec2 w ≠ main_v1 := by decide

theorem T2_sub : T2 ⊆ S1 := by
  intro b hb
  obtain ⟨w, -, rfl⟩ := Finset.mem_image.mp hb
  refine Finset.mem_erase.mpr ⟨fun e => arr2_ne_v1 w (Proc.devRef_injective _ e), ?_⟩
  exact Finset.mem_filter.mpr ⟨StableHlo.devRef_mem_tcRefs _, by simpa using launch2.win.arr_unscoped w⟩

theorem arr2_inj : Function.Injective fun w : Fin cfg2.W => Proc.devRef (τ := τ) .tc (Pipeline.arrRef spec2 w) :=
  fun _ _ e => launch2.win.arr_inj (Proc.devRef_injective _ e)

/-- The references held are the second region's arrays and the rest. -/
theorem held_S1_split (c : Dev nD) (W : Valuation τ sig (Elt F)) :
    (StableHlo.held (c.tc : Thread nD τ) S1 W : sProp 𝕄)
      = iprop((bigSep Finset.univ fun w : Fin cfg2.W => (((c.tc : Thread nD τ).loc (Pipeline.arrRef spec2 w)) ↦{fullShare} W (Pipeline.arrRef spec2 w) : sProp 𝕄))
          ∗ StableHlo.held (c.tc : Thread nD τ) (S1 \ T2) W) := by
  rw [StableHlo.held_sub_split (c.tc : Thread nD τ) T2_sub W]
  congr 1

/-! ## The second region -/

variable (W4 : Dev nD → Valuation τ sig (Elt F))

/-- The contents the second region is entered at, read at the TensorCore's references. -/
abbrev V4 : (c : Dev nD) → (b : Ref sig .tc) → Buf (Elt F) ((c : Thread nD τ).loc b) := fun c b => W4 c b

/-- The proof data, the second region's at its entry contents. -/
def pdatsB : (p : Fin 2) → (c : Dev nD) → Dat τ (Elt F) (HIx 1) ℕ UU ℕ (Pipeline.pin (pcfgs (F := F)) adm p) c
  | ⟨0, _⟩ => fun c => datAny (cfg := cfg0) c
  | ⟨1, _⟩ => fun c => Tc2.dats2 (V4 W4) ((K (F := F)).Otc c 1) (Rc (F := F) c 1) (ΦR spec2 c) c

theorem share2 (c : Dev nD) (w : Fin cfg2.W) : (pdatsB W4 1 c).share w = fullShare := by unfold Dat.share; split <;> rfl

/-- THE SECOND REGION over the TensorCore's thread state. -/
def reg1 : Pipeline.RegionSeg (pcfgs (F := F)) adm (pdatsB W4) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (Tc2.body_obligation2 (V4 W4) ((K (F := F)).Otc c 1) (Rc (F := F) c 1) (ΦR spec2 c) none c).loose
  hwaits c := Pipeline.cellsWaits_intro (Pipeline.pin (pcfgs (F := F)) adm) (pdatsB W4) none 1 c fun w s t =>
    (K (F := F)).mayWait_none (thr := T c) _ (Otc_none c 1)
  pre c := iprop(StableHlo.held (c : Thread nD τ) S1 (W4 c) ∗ (∃ r, prngReg c r) ∗ OW (F := F) c 1)
  post c := iprop((bigSep Finset.univ fun w : Fin cfg2.W => (((c.tc : Thread nD τ).loc (Pipeline.arrRef spec2 w)) ↦{fullShare} (pdatsB W4 1 c).arrAt w cfg2.N : sProp 𝕄))
    ∗ StableHlo.held (c : Thread nD τ) (S1 \ T2) (W4 c) ∗ (∃ r, prngReg c r) ∗ OW (F := F) c 1)
  X c := iprop(∃ r, prngReg c r)
  Y c := iprop(∃ r, prngReg c r)
  Z c := StableHlo.held (c : Thread nD τ) (S1 \ T2) (W4 c)
  hentry c := by
    rw [Pipeline.ownSems0_none, held_S1_split]
    iintro ⟨⟨⟨Ha, Hrest⟩, Hp, HO⟩, -, -⟩
    imodintro
    isplitl [Ha]
    · rw [Pipeline.arrays_eq (Pipeline.pin (pcfgs (F := F)) adm) (pdatsB W4) 1 c launch2.arr_whole (share2 W4 c)]
      iexact Ha
    isplitr; · unfold Pipeline.prefHeld; rw [show (Finset.univ : Finset (Fin 0)) = ∅ from rfl, BI.bigSep_empty]; iempintro
    isplitl [HO]
    · icases HO with ⟨%W, %hW, HO⟩; iexists W; isplitr
      · ipureintro; exact fun p hp => Or.inl (hW p (Finset.mem_coe.mp hp))
      iexact HO
    isplitl [Hp]; · iexact Hp
    iexact Hrest
  hin c := by
    show iprop(_ ∗ _ ∗ _) ⊢ ΦR spec2 c
    iintro ⟨Hp, -, Hr⟩
    isplitl [Hr]; · iexact Hr
    iexact Hp
  hout c := by
    rw [Pipeline.ownSems0_none]
    show ΦR spec2 c ⊢ _
    iintro ⟨Hr, Hp⟩
    isplitl [Hp]; · iexact Hp
    isplitr; · iempintro
    iexact Hr
  hexit c := by
    rw [Pipeline.arrays_eq (Pipeline.pin (pcfgs (F := F)) adm) (pdatsB W4) 1 c launch2.arr_whole (share2 W4 c)]
    iintro ⟨Ha, HO, HY, Hrest⟩
    imodintro
    isplitl [Ha]; · iexact Ha
    isplitl [Hrest]; · iexact Hrest
    isplitl [HY]; · iexact HY
    icases HO with ⟨%W, %hW, HO⟩; iexists W; isplitr
    · ipureintro
      intro p hp
      rcases hW (Finset.mem_coe.mpr hp) with h | ⟨w, s, rfl⟩
      · exact h
      · show (K (F := F)).lev _ none ≤ _
        rw [SparseCore.Cfg.lev_none]; exact Nat.zero_le _
    iexact HO

end Cert.Kernel.Run

end
-- ==== Proof.KRunVals.lean ====
/-
  The run of the whole program, part 3c: the buffers' contents after the first region and after the SparseCore call,
  and the bookkeeping that moves the call's three arrays out of the thread's references and back.
-/
import proofs.«205263_g58420145160647_cont_9to1_m_909_25_alg».proof.Proof.KRunReg1

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The contents after the first region and after the SparseCore call -/

abbrev rArg0 : DevRef τ sig := Proc.devRef .tc main_arg0
abbrev rV1 : DevRef τ sig := Proc.devRef .tc main_v1
abbrev rV2 : DevRef τ sig := Proc.devRef .tc main_v2

/-- After the first region: the pairs' buffer at `X1`, everything else as the region found it. -/
abbrev W2 (d : Dev nD) (X1 : (rV1).ty.Contents (Elt F)) : Valuation τ sig (Elt F) := Function.update (W1 m d) rV1 X1
/-- After the SparseCore call: the gathered rows' buffer at `Y`. -/
abbrev W3 (d : Dev nD) (X1 : (rV1).ty.Contents (Elt F)) (Y : (rV2).ty.Contents (Elt F)) : Valuation τ sig (Elt F) :=
  Function.update (W2 m d X1) rV2 Y
/-- After the reshapes (the second region's entry). -/
abbrev W4 (d : Dev nD) (X1 : (rV1).ty.Contents (Elt F)) (Y : (rV2).ty.Contents (Elt F)) : Valuation τ sig (Elt F) :=
  StableHlo.after (hostOps1 (F := F)) (W3 m d X1 Y)

/-- The first region's arrays at what it left and the rest as it was found are every unscoped buffer at `W2`. -/
theorem held_of_reg0 (d : Dev nD) (X0 : Buf (Elt F) ((d.tc : Thread nD τ).loc (Pipeline.arrRef spec0 0)))
    (X1 : Buf (Elt F) ((d.tc : Thread nD τ).loc (Pipeline.arrRef spec0 1))) (h0 : X0 = V1 m d main_v0) :
    iprop((((d.tc : Thread nD τ).loc (Pipeline.arrRef spec0 0)) ↦{fullShare} X0) ∗ (((d.tc : Thread nD τ).loc (Pipeline.arrRef spec0 1)) ↦{fullShare} X1)
        ∗ Pipeline.unscopedRest (Ix := HIx 1) (Name := ℕ) (U := UU) (Lvl := ℕ) spec0 d (V1 m d))
      ⊢ (StableHlo.held (d.tc : Thread nD τ) (Pipeline.ucRefs τ sig) (W2 m d X1) : sProp 𝕄) := by
  subst h0
  rw [← Pipeline.unscopedBufs_held d (W2 m d X1),
    Pipeline.unscopedBufs_split (Pipeline.pin (pcfgs (F := F)) adm) 0 launch0.win.arr_unscoped launch0.win.arr_inj d _, bigSep_W0]
  iintro ⟨H0, H1, Hrest⟩
  isplitl [H0 H1]
  · isplitl [H0]
    · iapply (Entails.of_eq (by
        show _ = ((d.tc : Thread nD τ).loc main_v0 ↦{fullShare} W2 m d X1 (Proc.devRef .tc main_v0) : sProp 𝕄)
        rw [show W2 m d X1 (Proc.devRef .tc main_v0) = W1 m d (Proc.devRef .tc main_v0) from Function.update_of_ne (by decide) _ _]))
      iexact H0
    · iapply (Entails.of_eq (by
        show _ = ((d.tc : Thread nD τ).loc main_v1 ↦{fullShare} W2 m d X1 rV1 : sProp 𝕄)
        rw [show W2 m d X1 rV1 = X1 from Function.update_self _ _ _]))
      iexact H1
  · iapply (Entails.of_eq (show (Pipeline.unscopedRest (Ix := HIx 1) (Name := ℕ) (U := UU) (Lvl := ℕ) spec0 d (V1 m d) : sProp 𝕄)
        = Pipeline.unscopedRest (Pipeline.pin (pcfgs (F := F)) adm 0).spec d (fun b => W2 m d X1 (Proc.devRef .tc b)) from by
      unfold Pipeline.unscopedRest
      refine bigSep_congr fun b hb => ?_
      have hb' : b ≠ main_v1 := fun e => (Finset.mem_sdiff.mp hb).2 (Finset.mem_image.mpr ⟨1, Finset.mem_univ _, e ▸ rfl⟩)
      dsimp only
      rw [show W2 m d X1 (Proc.devRef .tc b) = W1 m d (Proc.devRef .tc b) from
        Function.update_of_ne (fun e => hb' (Proc.devRef_injective _ e)) _ _]))
    iexact Hrest

/-! ## The SparseCore call's three arrays, out of the references held and back -/

abbrev T3 : Finset (DevRef τ sig) := {rArg0, rV1, rV2}
theorem T3_sub : T3 ⊆ Pipeline.ucRefs τ sig := by decide

theorem held_T3 (c : Thread nD τ) (W : Valuation τ sig (Elt F)) :
    (StableHlo.held c T3 W : sProp 𝕄) = iprop(((c.1, rArg0) ↦{fullShare} W rArg0) ∗ ((c.1, rV1) ↦{fullShare} W rV1) ∗ ((c.1, rV2) ↦{fullShare} W rV2)) := by
  unfold StableHlo.held T3
  rw [SparseCore.bigSep_insert' (by decide), SparseCore.bigSep_insert' (by decide), bigSep_singleton]

abbrev T3' : Finset (DevRef τ sig) := {rArg0, rV2}
theorem T3'_sub : T3' ⊆ S1 := by decide
theorem S1_sdiff : S1 \ T3' = Pipeline.ucRefs τ sig \ T3 := by decide

theorem held_T3' (c : Thread nD τ) (W : Valuation τ sig (Elt F)) :
    (StableHlo.held c T3' W : sProp 𝕄) = iprop(((c.1, rArg0) ↦{fullShare} W rArg0) ∗ ((c.1, rV2) ↦{fullShare} W rV2)) := by
  unfold StableHlo.held T3'
  rw [SparseCore.bigSep_insert' (by decide), bigSep_singleton]

/-- After the call: the index array as it was, the gathered rows' buffer at `Y`, and the references that bypassed the
    call are the references still held, at `W3`. -/
theorem held_after_call (d : Dev nD) (X1 : (rV1).ty.Contents (Elt F)) (Y : (rV2).ty.Contents (Elt F)) :
    iprop((((d.tc : Thread nD τ).1, rArg0) ↦{fullShare} W2 m d X1 rArg0) ∗ ((((d.tc : Thread nD τ).1, rV2)) ↦{fullShare} Y)
        ∗ StableHlo.held (d.tc : Thread nD τ) (Pipeline.ucRefs τ sig \ T3) (W2 m d X1))
      ⊢ (StableHlo.held (d.tc : Thread nD τ) S1 (W3 m d X1 Y) : sProp 𝕄) := by
  rw [StableHlo.held_sub_split (d.tc : Thread nD τ) T3'_sub (W3 m d X1 Y), held_T3', S1_sdiff,
    show W3 m d X1 Y rV2 = Y from Function.update_self _ _ _,
    show W3 m d X1 Y rArg0 = W2 m d X1 rArg0 from Function.update_of_ne (by decide) _ _,
    StableHlo.held_congr (c := (d.tc : Thread nD τ)) (S := Pipeline.ucRefs τ sig \ T3) (V := W3 m d X1 Y) (V' := W2 m d X1)
      (fun b hb => Function.update_of_ne (fun e => (Finset.mem_sdiff.mp hb).2 (by rw [e]; decide)) _ _)]
  iintro ⟨Ha, Hy, Hr⟩
  isplitl [Ha Hy]
  · isplitl [Ha] <;> iassumption
  · iexact Hr

end Cert.Kernel.Run

end
-- ==== Proof.KTc0Value.lean ====
import proofs.«205263_g58420145160647_cont_9to1_m_909_25_alg».proof.Proof.KTc0Dat
import Idealize.ShloMosaic.Lib.ValueLayout
import Idealize.ShloMosaic.Lib.Pipeline.Value

/-! # The transposing kernel's pipeline: the arrays after the region, in closed form

From what the library's region exit hands over — each windowed array at SOME contents it may hold after every
write-back (`RDat.ArrAt … cfg0.N`) —: the operand array is as at region entry (`arrAt0_eq`), and the result array
holds the operand transposed block by block on every lane whose source column lies inside the operand
(`arrAt1_closed`). The blocks of the result are disjoint row bands, written once each in point order; the proof
is an induction over the points, reading each write-back at an index inside or outside its band. -/

set_option maxRecDepth 16384

noncomputable section

namespace Cert.Kernel.Tc0

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {U : Type} [URA U]

local notation "𝕄" => MT nD τ sig Ix (Elt F) ℕ U ℕ

variable (V : (c : Dev nD) → (b : Ref sig .tc) → Buf (Elt F) ((c : Thread nD τ).loc b))
variable (O : CellTallies nD τ sig Ix) (Rc : Set (SemLoc sig × Ix)) (Φ₀ : sProp (MT nD τ sig Ix (Elt F) ℕ U ℕ))

/-! ## The operand array -/

/-- The operand is an input: after any number of points its array holds what it held at region entry. -/
theorem arrAt0_eq (c : Dev nD) (n : Nat) (X : Buf (Elt F) ((c : Thread nD τ).loc main_v0))
    (hX : (rdat0 V O Rc Φ₀ c).ArrAt 0 n X) : X = V c main_v0 := by
  rw [(rdat0 V O Rc Φ₀ c).ArrAt_in 0 rfl n] at hX
  exact hX

/-! ## The result array -/

/-- Row `k` of the result lies in the block of point `k div 16384`, at the block's row `k mod 16384`. -/
theorem row_split (k n : Nat) (hk : k / 16384 = n) : k = n * 16384 + k % 16384 := by omega

/-- After the write-backs of the points below `n`, the result's rows of the blocks below `n` hold the operand
    transposed, on every lane whose source column lies inside the array. -/
theorem arrAt1_rows (c : Dev nD) : ∀ (n : Nat), n ≤ cfg0.N → ∀ (P : Buf (Elt F) ((c : Thread nD τ).loc main_v1)),
    (rdat0 V O Rc Φ₀ c).ArrAt 1 n P →
    ∀ (k : Fin 507904) (j : Fin 128), k.val / 16384 < n →
      ∀ h : (k.val / 16384) * 32768 + (j.val / 64) * 16384 + k.val % 16384 < 1000000,
        P (ix2 k j) = V c main_v0 (ix2 (⟨j.val % 64, Nat.mod_lt _ (by decide)⟩ : Fin 64)
          (⟨(k.val / 16384) * 32768 + (j.val / 64) * 16384 + k.val % 16384, h⟩ : Fin 1000000))
  := by
  intro n
  induction n with
  | zero => intro _ _ _ _ _ hk _; exact absurd hk (Nat.not_lt_zero _)
  | succ n ih =>
    intro hn P hP k j hk h
    have hn' : n < cfg0.N := hn
    have e := (rdat0 V O Rc Φ₀ c).ArrAt_succ 1 ⟨n, hn'⟩
    rw [if_pos (flush0_1 _)] at e
    obtain ⟨G₀, X, hG₀, ⟨Y, -, hX⟩, rfl⟩ := (congrFun e P).mp hP
    have hX' : After1 V c ⟨n, hn'⟩ X := (after0_1 V O Rc Φ₀ c ⟨n, hn'⟩ Y X).mp hX
    obtain ⟨-, -, -, -, hi0, hi1⟩ := grid_facts0 ⟨n, hn'⟩
    by_cases hkn : k.val / 16384 = n
    · -- the row lies in this point's block: the write-back put the body's block there
      have hkm : k.val % 16384 < 16384 := Nat.mod_lt _ (by decide)
      have he : (win0_1.blk ⟨n, hn'⟩).view.emb (ix2 (⟨k.val % 16384, hkm⟩ : Fin 16384) j) = ix2 k j := by
        funext ax; apply Fin.ext
        show ((win0_1.rect ⟨n, hn'⟩).emb _ ax : ℕ) = _
        rw [Window.rect_emb_val]
        match ax with
        | ⟨0, _⟩ =>
          show win0_1.index ⟨n, hn'⟩ 0 * 16384 + k.val % 16384 = k.val
          rw [hi0]; exact (row_split k.val n hkn).symm
        | ⟨1, _⟩ =>
          show win0_1.index ⟨n, hn'⟩ 1 * 128 + j.val = j.val
          rw [hi1]; omega
      rw [← he, View.write_emb_of_mem _ _ (Finset.mem_univ _)]
      show X (ix2 (⟨k.val % 16384, hkm⟩ : Fin 16384) j) = _
      subst hkn
      exact hX' ⟨k.val % 16384, hkm⟩ j h
    · -- the row lies in an earlier block, which this write-back does not touch
      have hlt : k.val / 16384 < n := by omega
      have hnot : ix2 k j ∉ (win0_1.blk ⟨n, hn'⟩).view.setOn Finset.univ := by
        rw [View.setOn_univ]
        show _ ∉ ((View.whole main_v1).slice (win0_1.rect ⟨n, hn'⟩)).set
        rw [View.set_slice_whole, Rect.mem_set_unit]
        intro hm
        have h0 := hm 0
        have h0' : win0_1.index ⟨n, hn'⟩ 0 * 16384 ≤ k.val ∧ k.val < win0_1.index ⟨n, hn'⟩ 0 * 16384 + 16384 := h0
        rw [show win0_1.index ⟨n, hn'⟩ 0 = n from hi0] at h0'
        clear h0 hm e hX hX'
        omega
      rw [View.write_of_not_mem _ _ _ hnot]
      exact ih (Nat.le_of_lt hn') G₀ hG₀ k j hlt h

/-- The result array after the whole region, in closed form: row `k`, lane `j` holds row `j mod 64` of the operand at
    column `(k div 16384) · 32768 + (j div 64) · 16384 + k mod 16384`, wherever that column lies inside the array. -/
theorem arrAt1_closed (c : Dev nD) (P : Buf (Elt F) ((c : Thread nD τ).loc main_v1))
    (hP : (rdat0 V O Rc Φ₀ c).ArrAt 1 cfg0.N P) (k : Fin 507904) (j : Fin 128)
    (h : (k.val / 16384) * 32768 + (j.val / 64) * 16384 + k.val % 16384 < 1000000) :
    P (ix2 k j) = V c main_v0 (ix2 (⟨j.val % 64, Nat.mod_lt _ (by decide)⟩ : Fin 64)
      (⟨(k.val / 16384) * 32768 + (j.val / 64) * 16384 + k.val % 16384, h⟩ : Fin 1000000)) :=
  arrAt1_rows V O Rc Φ₀ c cfg0.N (Nat.le_refl _) P hP k j
    (by have := k.isLt; rw [show cfg0.N = 31 from N_0]; omega) h

end Cert.Kernel.Tc0

end
-- ==== Proof.KRunHmain.lean ====
/-
  The run of the whole program, part 4: @main on the TensorCore thread, stretch by stretch.
-/
import proofs.«205263_g58420145160647_cont_9to1_m_909_25_alg».proof.Proof.KRunVals
import proofs.«205263_g58420145160647_cont_9to1_m_909_25_alg».proof.Proof.KTc0Value

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)
variable (P : (K (F := F)).Pay (nD := nD) (Val := Elt F) (Name := ℕ) (U := UU))

/-- The two pipelines' staging cells' ghost state on device `d`, as the launch deals it. -/
abbrev GH (d : Dev nD) : sProp 𝕄 :=
  iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d))

theorem hostOps0_sub : ∀ op ∈ (hostOps0 : List (HloOp τ sig (Elt F))), op.bufs ⊆ Pipeline.ucRefs τ sig := by
  intro op hop
  simp only [List.mem_singleton] at hop
  subst hop
  exact Pipeline.sub_ucRefs _ (StableHlo.unary_bufs_sub ..)

theorem hostOps0_fresh : ∀ op ∈ (hostOps0 : List (HloOp τ sig (Elt F))), op.fresh = ∅ := by
  intro op hop
  simp only [List.mem_singleton] at hop
  subst hop
  rfl

theorem reg0_pre (d : Dev nD) : (reg0 m).pre d
    = iprop(StableHlo.held (d : Thread nD τ) (Pipeline.ucRefs τ sig) (W1 m d) ∗ (∃ r, prngReg d r) ∗ OW (F := F) d 0) := rfl
theorem reg0_post (d : Dev nD) : (reg0 m).post d
    = iprop((∃ X0 X1, ⌜(rdatsA m 0 d).ArrAt 0 cfg0.N X0 ∧ (rdatsA m 0 d).ArrAt 1 cfg0.N X1⌝
      ∗ ((d.tc : Thread nD τ).loc (Pipeline.arrRef spec0 0) ↦{fullShare} X0) ∗ ((d.tc : Thread nD τ).loc (Pipeline.arrRef spec0 1) ↦{fullShare} X1))
    ∗ Pipeline.unscopedRest (Ix := HIx 1) (Name := ℕ) (U := UU) (Lvl := ℕ) spec0 d (V1 m d) ∗ (∃ r, prngReg d r) ∗ OW (F := F) d 0) := rfl

theorem reg1_pre (W4 : Dev nD → Valuation τ sig (Elt F)) (d : Dev nD) : (reg1 W4).pre d
    = iprop(StableHlo.held (d : Thread nD τ) S1 (W4 d) ∗ (∃ r, prngReg d r) ∗ OW (F := F) d 1) := rfl
theorem reg1_post (W4 : Dev nD → Valuation τ sig (Elt F)) (d : Dev nD) : (reg1 W4).post d
    = iprop((bigSep Finset.univ fun w : Fin cfg2.W => (((d.tc : Thread nD τ).loc (Pipeline.arrRef spec2 w)) ↦{fullShare} (pdatsB W4 1 d).arrAt w cfg2.N : sProp 𝕄))
    ∗ StableHlo.held (d : Thread nD τ) (S1 \ T2) (W4 d) ∗ (∃ r, prngReg d r) ∗ OW (F := F) d 1) := rfl

theorem regionCall_eq (p : Fin 2) :
    regionCall (F := F) p = SparseCore.liftProg (.op (.customCall (Pipeline.entry p) ()) fun x => .ret x) := rfl

/-- The launch's unscoped buffers are that set of references held at the launch contents. -/
theorem W0_held (d : Dev nD) :
    (unscopedBufs d (fun b => m ((SparseCore.T d).loc b)) : sProp 𝕄) = StableHlo.held (d.tc : Thread nD τ) (Pipeline.ucRefs τ sig) (W0 m d) :=
  Pipeline.unscopedBufs_held d (W0 m d)

set_option backward.isDefEq.respectTransparency.types false in
theorem hostOps1_sub : ∀ op ∈ (hostOps1 : List (HloOp τ sig (Elt F))), op.bufs ⊆ S1 := by
  intro op hop b hb
  have h1 : op.bufs ⊆ Pipeline.ucRefs τ sig := by
    simp only [hostOps1, List.mem_cons, List.not_mem_nil, or_false] at hop
    rcases hop with rfl | rfl | rfl | rfl | rfl | rfl | rfl | rfl | rfl | rfl | rfl | rfl | rfl <;>
      exact Pipeline.sub_ucRefs _ (StableHlo.reshape_bufs_sub ..)
  refine Finset.mem_erase.mpr ⟨?_, h1 hb⟩
  rintro rfl
  simp only [hostOps1, List.mem_cons, List.not_mem_nil, or_false] at hop
  rcases hop with rfl | rfl | rfl | rfl | rfl | rfl | rfl | rfl | rfl | rfl | rfl | rfl | rfl <;>
    (rw [StableHlo.reshape_bufs, Finset.mem_insert, Finset.mem_singleton] at hb
     rcases hb with h | h <;> exact absurd h (by decide))

theorem hostOps1_fresh : ∀ op ∈ (hostOps1 : List (HloOp τ sig (Elt F))), op.fresh = ∅ := by
  intro op hop
  simp only [hostOps1, List.mem_cons, List.not_mem_nil, or_false] at hop
  rcases hop with rfl | rfl | rfl | rfl | rfl | rfl | rfl | rfl | rfl | rfl | rfl | rfl | rfl <;> rfl

/-- What the run leaves on device `d`'s TensorCore beside its handshake state: for some contents `X1` the first region
    may leave in the pairs' buffer and some `Y` the SparseCore call may leave in the gathered rows', the second region's
    arrays at what its pipeline leaves and every other reference still held, as the second region found it. -/
def FIN (R1 : Dev nD → (rV1).ty.Contents (Elt F) → Prop) (YR : Dev nD → (rV2).ty.Contents (Elt F) → Prop) (d : Dev nD) : sProp 𝕄 :=
  iprop(∃ X1 Y, ⌜R1 d X1 ∧ YR d Y⌝
    ∗ (bigSep Finset.univ fun w : Fin cfg2.W => (((d.tc : Thread nD τ).loc (Pipeline.arrRef spec2 w)) ↦{fullShare} (pdatsB (fun d' => W4 m d' X1 Y) 1 d).arrAt w cfg2.N : sProp 𝕄))
    ∗ StableHlo.held (d : Thread nD τ) (S1 \ T2) (W4 m d X1 Y))

theorem hmain (R1 : Dev nD → (rV1).ty.Contents (Elt F) → Prop) (YR : Dev nD → (rV2).ty.Contents (Elt F) → Prop)
    (hR1 : ∀ d (X1 : Buf (Elt F) ((d.tc : Thread nD τ).loc (Pipeline.arrRef spec0 1))), (rdatsA m 0 d).ArrAt 1 cfg0.N X1 → R1 d X1)
    (hst : ∀ d (X1 : (rV1).ty.Contents (Elt F)), R1 d X1 →
      iprop((((d.tc : Thread nD τ).1, rArg0) ↦{fullShare} W2 m d X1 rArg0) ∗ ((((d.tc : Thread nD τ).1, rV1)) ↦{fullShare} X1)
          ∗ ((((d.tc : Thread nD τ).1, rV2)) ↦{fullShare} W2 m d X1 rV2))
        ⊢ (bigSep Finset.univ fun c : Fin ((K (F := F)).nCore 0) => P.st 0 d c : sProp 𝕄))
    (hdn : ∀ d (X1 : (rV1).ty.Contents (Elt F)), R1 d X1 → (bigSep Finset.univ fun c : Fin ((K (F := F)).nCore 0) => P.dn 0 d c : sProp 𝕄)
        ⊢ iprop((((d.tc : Thread nD τ).1, rArg0) ↦{fullShare} W2 m d X1 rArg0) ∗ ∃ Y, ⌜YR d Y⌝ ∗ ((((d.tc : Thread nD τ).1, rV2)) ↦{fullShare} Y)))
    (κ : GSem nD τ sig → ℕ) (d : Dev nD) :
    iprop((K (F := F)).ctx EH P κ ∗ (K (F := F)).tcSt EH d 0 ∗ (K (F := F)).tcRes m ρ d ∗ GH (F := F) d)
      ⊢ wp frame (wpE ((K (F := F)).defs (D (F := F))) 𝒱 (SparseCore.T d) none) Set.univ (main d)
          fun _ => iprop((K (F := F)).tcSt EH d 1 ∗ FIN m R1 YR d) := by
  rw [main_eq]
  unfold SparseCore.Cfg.tcRes SparseCore.Cfg.tcSt
  rw [W0_held m d]
  iintro ⟨#Hctx, ⟨HOW, Hat, #Hrd, #Hrs, Htoks⟩, ⟨Hb, Hub, Hsm, Hp⟩, ⟨⟨Hcg0, Htk0⟩, ⟨Hcg1, Htk1⟩⟩⟩
  ihave #Hlev := ((K (F := F)).ctx_levAts κ) $$ Hctx
  iapply (StableHlo.wp_seq 𝒱 none Set.univ d (Pipeline.ucRefs τ sig) _ (hostOps0 (F := F)) hostOps0_sub hostOps0_fresh (W0 m d)) $$ [Hb Hub]
  · isplitl [Hb] <;> iassumption
  iintro ⟨Hb, Hub⟩
  -- the first region
  rw [wp_bind, regionCall_eq]
  iapply ((K (F := F)).wp_liftProg (D (F := F)) 𝒱 (SparseCore.T d) Set.univ none _ _)
  iapply (Pipeline.RDat.RegionSeg.wp (pcfgs (F := F)) adm (rdatsA m) none cellOf_inj EP defs₀ 𝒱₀ (K (F := F)).L (K (F := F)).lev (reg0 m) d none
      (fun u hu => nomatch hu) (fun x => .ret x) _)
  rw [reg0_pre m d, reg0_post m d]
  isplitr [Hb Hub Hp HOW Hcg0 Htk0]
  swap
  · isplitl [Hb]; · iexact Hb
    isplitl [Hub Hp HOW]
    · isplitl [Hub]; · iexact Hub
      isplitl [Hp]; · iexists _; iexact Hp
      iexact HOW
    isplitr; · iexact Hlev
    isplitl [Hcg0]; · iexact Hcg0
    iexact Htk0
  iintro ⟨Hb, Hpost⟩
  rw [wp_ret]
  imodintro
  icases Hpost with ⟨⟨%X0, %X1, %hX, H0, H1⟩, Hrest, Hp, HOW⟩
  have hX0 : X0 = V1 m d main_v0 := Tc0.arrAt0_eq (V1 m) _ _ _ d cfg0.N X0 hX.1
  ihave Hub := (held_of_reg0 m d X0 X1 hX0) $$ [H0 H1 Hrest]
  · isplitl [H0]; · iexact H0
    isplitl [H1] <;> iassumption
  ihave Hub' := (Entails.of_eq (StableHlo.held_sub_split (d.tc : Thread nD τ) T3_sub (W2 m d X1))) $$ Hub
  icases Hub' with ⟨H3, Hrest⟩
  ihave H3' := (Entails.of_eq (held_T3 (d.tc : Thread nD τ) (W2 m d X1))) $$ H3
  icases H3' with ⟨Ha0, Hv1, Hv2⟩
  ihave Hv1' := (Entails.of_eq (show ((((d.tc : Thread nD τ).1, rV1)) ↦{fullShare} W2 m d X1 rV1 : sProp 𝕄) = ((((d.tc : Thread nD τ).1, rV1)) ↦{fullShare} X1) by
    rw [show W2 m d X1 rV1 = X1 from Function.update_self _ _ _])) $$ Hv1
  -- the SparseCore call
  rw [wp_bind]
  iapply (SparseCore.Cfg.wp_run (K := K (F := F)) (D (F := F)) 𝒱 (EH := EH) (P := P) κ d 0)
  isplitr; · iexact Hctx
  isplitl [HOW Hat Htoks]
  · unfold SparseCore.Cfg.tcSt
    isplitl [HOW]; · iexact HOW
    isplitl [Hat]; · iexact Hat
    isplitr; · iexact Hrd
    isplitr; · iexact Hrs
    iexact Htoks
  isplitl [Ha0 Hv1' Hv2]
  · iapply (hst d X1 (hR1 d X1 hX.2))
    isplitl [Ha0]; · iexact Ha0
    isplitl [Hv1'] <;> iassumption
  iintro ⟨Hst1, Hdn⟩
  ihave Hdn' := (hdn d X1 (hR1 d X1 hX.2)) $$ Hdn
  icases Hdn' with ⟨Ha0, %Y, %hY, Hv2⟩
  ihave Hub := (held_after_call m d X1 Y) $$ [Ha0 Hv2 Hrest]
  · isplitl [Ha0]; · iexact Ha0
    isplitl [Hv2] <;> iassumption
  -- the reshapes
  iapply (StableHlo.wp_seq 𝒱 none Set.univ d S1 _ (hostOps1 (F := F)) hostOps1_sub hostOps1_fresh (W3 m d X1 Y)) $$ [Hb Hub]
  · isplitl [Hb] <;> iassumption
  iintro ⟨Hb, Hub⟩
  -- the second region
  rw [wp_bind, regionCall_eq]
  iapply ((K (F := F)).wp_liftProg (D (F := F)) 𝒱 (SparseCore.T d) Set.univ none _ _)
  iapply (Pipeline.RegionSeg.wp (pcfgs (F := F)) adm (pdatsB (fun d' => W4 m d' X1 Y)) none cellOf_inj EP defs₀ 𝒱₀ (K (F := F)).L (K (F := F)).lev
      (reg1 (fun d' => W4 m d' X1 Y)) d none (fun u hu => nomatch hu) (fun x => .ret x) _)
  rw [reg1_pre, reg1_post]
  unfold SparseCore.Cfg.tcSt
  icases Hst1 with ⟨HOW1, Hat1, #Hrd1, #Hrs1, Htoks1⟩
  isplitr [Hb Hub Hp HOW1 Hcg1 Htk1]
  swap
  · isplitl [Hb]; · iexact Hb
    isplitl [Hub Hp HOW1]
    · isplitl [Hub]; · iexact Hub
      isplitl [Hp]; · iexact Hp
      iexact HOW1
    isplitr; · iexact Hlev
    isplitl [Hcg1]; · iexact Hcg1
    iexact Htk1
  iintro ⟨Hb, Hpost⟩
  rw [wp_ret]
  imodintro
  rw [wp_pure]
  imodintro
  icases Hpost with ⟨Harr, Hrest, Hp, HOW1⟩
  isplitl [HOW1 Hat1 Htoks1]
  · isplitl [HOW1]; · iexact HOW1
    isplitl [Hat1]; · iexact Hat1
    isplitr; · iexact Hrd1
    isplitr; · iexact Hrs1
    iexact Htoks1
  unfold FIN
  iexists X1; iexists Y
  isplitr; · ipureintro; exact ⟨hR1 d X1 hX.2, hY⟩
  isplitl [Harr]; · iexact Harr
  iexact Hrest

end Cert.Kernel.Run

end
-- ==== Proof.KScSplit.lean ====
/-
  The SparseCore call of the program (the row gather), as the launch theorem sees it: its configuration and facts,
  the contents the call sees (the pair table, the index list, the result at entry) as parameters, the ONE whole-array
  function the result holds at exit (`gathered`: row r is the pair-table row the index list's word r names), and what
  the handshakes carry: per tile, its 512 words of the list, a thirty-second share of the pair table, and its 512 rows
  of the result. The 32 tiles' pieces join to the three arrays whole (`st_eq`, `dn_eq`).
-/
import proofs.«205263_g58420145160647_cont_9to1_m_909_25_alg».proof.Proof.Gen.Kernel
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import Idealize.ShloMosaic.Lib.ValueIdx

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: any algebra with a copy of the transfers' counters -/

variable {U : Type} [URA U] [CountersIn U]

local notation "𝕄" => MT nD τ sig (HIx 1) (Elt F) ℕ U ℕ

/-! ## The three arrays -/

abbrev idxLoc (d : Dev nD) : Loc nD τ sig := (SparseCore.T d).loc main_arg0
abbrev pairsLoc (d : Dev nD) : Loc nD τ sig := (SparseCore.T d).loc main_v1
abbrev outLoc (d : Dev nD) : Loc nD τ sig := (SparseCore.T d).loc main_v2

local notation "pV" => (Memref.whole Cert.Kernel.main_v1_scv : Memref Cert.Kernel.sig Kind.scVector Space.hbm Cert.Kernel.S507904x128 EltTy.f32)
local notation "iV" => (Memref.whole Cert.Kernel.main_arg0_scv : Memref Cert.Kernel.sig Kind.scVector Space.hbm Cert.Kernel.S16384 EltTy.i32)
local notation "oV" => (Memref.whole Cert.Kernel.main_v2_scv : Memref Cert.Kernel.sig Kind.scVector Space.hbm Cert.Kernel.S16384x128 EltTy.f32)

/-! ## The row the kernel reads for a word of the list -/

/-- The pair-table row a word `v` of the list names, as the kernel computes it on the vector unit:
    `((v >>> 15) <<< 14) + (v &&& 16383)`. -/
def kOf (v : BitVec 32) : BitVec 32 :=
  IntOp.addi (IntOp.shli .vector (IntOp.shrui .vector v 15#32) 14#32) (IntOp.andi v 16383#32)

theorem kOf_eq (v : BitVec 32) : kOf v = ((v >>> 15) <<< 14) + (v &&& 16383#32) := by
  unfold kOf IntOp.addi IntOp.shli IntOp.shrui IntOp.andi
  rw [if_pos (by decide), if_pos (by decide)]
  rfl

/-- A word below 1000000 names a row of the pair table: the block number `v >>> 15` is at most 30, so the row is at
    most `30 * 16384 + 16383 = 507903`. -/
theorem kOf_lt (v : BitVec 32) (h : v.toNat < 1000000) : (kOf v).toNat < 507904 := by
  rw [kOf_eq]
  have h1 : (v >>> 15).toNat = v.toNat / 32768 := by
    rw [BitVec.toNat_ushiftRight, Nat.shiftRight_eq_div_pow]
  have h2 : (v &&& 16383#32).toNat = v.toNat % 16384 := by
    rw [BitVec.toNat_and, show (16383#32 : BitVec 32).toNat = 2 ^ 14 - 1 by decide, Nat.and_two_pow_sub_one_eq_mod]
  have h3 : ((v >>> 15) <<< 14).toNat = (v.toNat / 32768) * 16384 := by
    rw [BitVec.toNat_shiftLeft, h1, Nat.shiftLeft_eq, Nat.mod_eq_of_lt (by omega)]
  have h4 : v.toNat / 32768 ≤ 30 := by omega
  have h5 : v.toNat % 16384 < 16384 := Nat.mod_lt _ (by decide)
  rw [BitVec.toNat_add, h3, h2, Nat.mod_eq_of_lt (by omega)]
  omega

/-- A row number as a row of the pair table (total: reduced modulo the table's extent, which changes nothing below it). -/
def rowOfNat (n : ℕ) : Fin 507904 := ⟨n % 507904, Nat.mod_lt _ (by decide)⟩

theorem rowOfNat_of_lt {n : ℕ} (h : n < 507904) : rowOfNat n = ⟨n, h⟩ := Fin.ext (Nat.mod_eq_of_lt h)

/-- What the call leaves in the result, as ONE function of the whole array: row `r`, lane `j` is the pair table at the
    row the list's word `r` names, lane `j`. -/
def gathered (d : Dev nD) (pairs : Buf (Elt F) (pairsLoc d)) (idx : Buf (Elt F) (idxLoc d)) : Buf (Elt F) (outLoc d) :=
  fun i => pairs (ix2 (rowOfNat (kOf (idx (ix1 (i 0)))).toNat) (i 1))

theorem gathered_apply (d : Dev nD) (pairs : Buf (Elt F) (pairsLoc d)) (idx : Buf (Elt F) (idxLoc d)) (i : S16384x128.Idx)
    (h : (kOf (idx (ix1 (i 0)))).toNat < 507904) :
    gathered d pairs idx i = pairs (ix2 (⟨(kOf (idx (ix1 (i 0)))).toNat, h⟩ : Fin 507904) (i 1)) := by
  unfold gathered; rw [rowOfNat_of_lt h]

/-! ## The 32 tiles' rows -/

theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- The tile on SparseCore `c`, vector subcore `s` works on block `2 s + c` of the list and of the result. -/
def wid (c : Fin 2) (s : Fin 16) : Fin 32 := ⟨2 * s.val + c.val, by omega⟩

/-- Tiles and blocks correspond one to one. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem iRowSet_eq (w : Fin 32) : iRowSet w = (irow w).set := by
  show ((View.whole (main_arg0_scv : Ref sig .scVector)).slice (irow w)).set = _
  rw [View.set_slice]; exact Finset.map_refl
theorem oRowSet_eq (w : Fin 32) : oRowSet w = (orow w).set := by
  show ((View.whole (main_v2_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

omit [FloatOps F] [CountersIn U] in
theorem iPts_rows (d : Dev nD) (f : Buf (Elt F) (idxLoc d)) :
    (idxLoc d ↦{fullShare} f : sProp 𝕄) = bigSep Finset.univ fun w : Fin 32 => idxLoc d ↦[iRowSet w]{fullShare} f := by
  rw [← pointsTo_biUnion Finset.univ (ℓ := idxLoc d) iRowSet irows_disjoint, irows_cover]; try rfl
omit [FloatOps F] [CountersIn U] in
theorem oPts_rows (d : Dev nD) (f : Buf (Elt F) (outLoc d)) :
    (outLoc d ↦{fullShare} f : sProp 𝕄) = bigSep Finset.univ fun w : Fin 32 => outLoc d ↦[oRowSet w]{fullShare} f := by
  rw [← pointsTo_biUnion Finset.univ (ℓ := outLoc d) oRowSet orows_disjoint, orows_cover]; try rfl

/-! ## Shares of the pair table: the full share halved five times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit [FloatOps F] [CountersIn U] in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Block `w`'s tile's share of the pair table. -/
abbrev pq (w : Fin 32) : PosShare TreeShare := leaf 5 fullShare w

omit [FloatOps F] [CountersIn U] in
theorem pPts_shares (d : Dev nD) (f : Buf (Elt F) (pairsLoc d)) :
    (pairsLoc d ↦{fullShare} f : sProp 𝕄) = bigSep Finset.univ fun w : Fin 32 => pairsLoc d ↦{pq w} f :=
  pointsTo_leaves Finset.univ f 5 fullShare

omit [FloatOps F] [CountersIn U] in
/-- Pure facts, one per summand, hold for all summands. -/
theorem bigSep_pure_univ {I : Type} [Fintype I] [DecidableEq I] (φ : I → Prop) :
    (bigSep Finset.univ fun i : I => (iprop(⌜φ i⌝) : sProp 𝕄)) ⊢ (iprop(⌜∀ i, φ i⌝) : sProp 𝕄) := by
  suffices h : ∀ s : Finset I, (bigSep s fun i : I => (iprop(⌜φ i⌝) : sProp 𝕄)) ⊢ (iprop(⌜∀ i ∈ s, φ i⌝) : sProp 𝕄) from
    (h Finset.univ).trans (Laws.pure_mono fun h i => h i (Finset.mem_univ i))
  intro s
  induction s using Finset.induction_on with
  | empty => iintro -; ipureintro; intro i hi; exact absurd hi (Finset.notMem_empty _)
  | insert a s ha ih =>
    rw [SparseCore.bigSep_insert' ha]
    iintro ⟨%h1, H⟩
    ihave H' := ih $$ H
    icases H' with %h2
    ipureintro
    intro i hi
    rcases Finset.mem_insert.mp hi with rfl | hi
    · exact h1
    · exact h2 i hi

/-! ## What the handshakes carry

The pair table's contents at the call are not a function of the launch memory: they are SOME contents satisfying a
predicate `R`. So every piece quantifies them; a tile returns its rows of the result at contents that agree with the
gathered function of some such table (its share of the table is dropped: nothing reads the table after the call). -/

variable (R : (d : Dev nD) → Buf (Elt F) (pairsLoc d) → Prop) (idx : (d : Dev nD) → Buf (Elt F) (idxLoc d))
  (o0 : (d : Dev nD) → Buf (Elt F) (outLoc d))

/-- Block `w`'s tile holds: its share of the pair table at `X`, its 512 words of the list, its 512 rows of the result at `f`. -/
abbrev tileIn (d : Dev nD) (w : Fin 32) (X : Buf (Elt F) (pairsLoc d)) (ix : Buf (Elt F) (idxLoc d)) (f : Buf (Elt F) (outLoc d)) : sProp 𝕄 :=
  iprop((pairsLoc d ↦{pq w} X) ∗ (idxLoc d ↦[iRowSet w]{fullShare} ix) ∗ (outLoc d ↦[oRowSet w]{fullShare} f))

/-- `Y` holds the gathered function of the table `X` on block `w`'s rows. -/
def AgreesOn (d : Dev nD) (w : Fin 32) (X : Buf (Elt F) (pairsLoc d)) (ix : Buf (Elt F) (idxLoc d)) (Y : Buf (Elt F) (outLoc d)) : Prop :=
  ∀ i ∈ oRowSet w, Y i = gathered d X ix i

/-- What block `w`'s tile is handed: -/
abbrev goPts (d : Dev nD) (w : Fin 32) : sProp 𝕄 :=
  iprop(∃ X, ⌜R d X⌝ ∗ tileIn d w X (idx d) (o0 d))
/-- and what it hands back. -/
abbrev tdPts (d : Dev nD) (w : Fin 32) : sProp 𝕄 :=
  iprop((idxLoc d ↦[iRowSet w]{fullShare} idx d) ∗ ∃ X Y, ⌜R d X ∧ AgreesOn d w X (idx d) Y⌝ ∗ (outLoc d ↦[oRowSet w]{fullShare} Y))

abbrev cC (c : Fin ((K (F := F)).nCore 0)) : Fin 2 := Fin.cast nCore_zero c
abbrev cS (i : Fin ((K (F := F)).nSub 0)) : Fin 16 := Fin.cast nSub_zero i

/-- The one call: a SparseCore takes and returns its sixteen tiles' pieces. -/
def P : (K (F := F)).Pay (nD := nD) (Val := Elt F) (Name := ℕ) (U := U) where
  st := fun q d c => match q with
    | 0 => bigSep Finset.univ fun i : Fin ((K (F := F)).nSub 0) => goPts R idx o0 d (wid (cC c) (cS i))
  dn := fun q d c => match q with
    | 0 => bigSep Finset.univ fun i : Fin ((K (F := F)).nSub 0) => tdPts R idx d (wid (cC c) (cS i))
  go := fun q d c i => match q with
    | 0 => goPts R idx o0 d (wid (cC c) (cS i))
  td := fun q d c i => match q with
    | 0 => tdPts R idx d (wid (cC c) (cS i))
  x := fun _ _ => iprop(emp)

instance P_storable : (P (F := F) (U := U) R idx o0).IsStorable where
  st q d c := match q with
    | 0 => (inferInstance : BI.Storable (upEmb : UEmb _ 𝕄)
        (bigSep Finset.univ fun i : Fin ((K (F := F)).nSub 0) => goPts R idx o0 d (wid (cC c) (cS i))))
  dn q d c := match q with
    | 0 => (inferInstance : BI.Storable (upEmb : UEmb _ 𝕄)
        (bigSep Finset.univ fun i : Fin ((K (F := F)).nSub 0) => tdPts R idx d (wid (cC c) (cS i))))
  go q d c i := match q with
    | 0 => (inferInstance : BI.Storable (upEmb : UEmb _ 𝕄) (goPts R idx o0 d (wid (cC c) (cS i))))
  td q d c i := match q with
    | 0 => (inferInstance : BI.Storable (upEmb : UEmb _ 𝕄) (tdPts R idx d (wid (cC c) (cS i))))

theorem P_go (d : Dev nD) (c : Fin ((K (F := F)).nCore 0)) (i : Fin ((K (F := F)).nSub 0)) :
    (P (U := U) R idx o0).go 0 d c i = goPts R idx o0 d (wid (cC c) (cS i)) := rfl
theorem P_td (d : Dev nD) (c : Fin ((K (F := F)).nCore 0)) (i : Fin ((K (F := F)).nSub 0)) :
    (P (U := U) R idx o0).td 0 d c i = tdPts R idx d (wid (cC c) (cS i)) := rfl
theorem P_st (d : Dev nD) (c : Fin ((K (F := F)).nCore 0)) :
    (P (U := U) R idx o0).st 0 d c = bigSep Finset.univ fun i : Fin ((K (F := F)).nSub 0) => (P (U := U) R idx o0).go 0 d c i := rfl
theorem P_dn (d : Dev nD) (c : Fin ((K (F := F)).nCore 0)) :
    (P (U := U) R idx o0).dn 0 d c = bigSep Finset.univ fun i : Fin ((K (F := F)).nSub 0) => (P (U := U) R idx o0).td 0 d c i := rfl

/-- A SparseCore's operands ARE its tiles' pieces, and its results theirs. -/
theorem vecSplit : (K (F := F)).VecSplit' (P (U := U) R idx o0) 0 := by
  intro d c
  rw [P_st, P_dn]
  iintro H; imodintro
  isplitl [H]; · iexact H
  iintro H; iexact H

/-! ## The tiles' pieces and the three arrays -/

omit [CountersIn U] in
/-- Tiles by (SparseCore, subcore) are blocks by number. -/
theorem bigSep_tiles (Φ : Fin 32 → sProp 𝕄) :
    (bigSep Finset.univ fun c : Fin 2 => bigSep Finset.univ fun s : Fin 16 => Φ (wid c s)) = bigSep Finset.univ Φ :=
  (bigSep_univ_prod (M := 𝕄) (fun p : Fin 2 × Fin 16 => Φ (wid p.1 p.2))).symm.trans (bigSep_univ_equiv (M := 𝕄) widEquiv Φ).symm

omit [CountersIn U] in
theorem tiles_join (d : Dev nD) (X : Buf (Elt F) (pairsLoc d)) (ix : Buf (Elt F) (idxLoc d)) (f : Buf (Elt F) (outLoc d)) :
    (bigSep Finset.univ fun w : Fin 32 => (tileIn d w X ix f : sProp 𝕄))
      = iprop((pairsLoc d ↦{fullShare} X) ∗ (idxLoc d ↦{fullShare} ix) ∗ (outLoc d ↦{fullShare} f)) := by
  rw [bigSep_sep', bigSep_sep', ← iPts_rows, ← pPts_shares, ← oPts_rows]

theorem st_unfold (d : Dev nD) :
    (bigSep Finset.univ fun c : Fin ((K (F := F)).nCore 0) => (P (U := U) R idx o0).st 0 d c)
      = bigSep Finset.univ fun c : Fin 2 => bigSep Finset.univ fun s : Fin 16 => goPts (U := U) R idx o0 d (wid c s) := rfl
theorem dn_unfold (d : Dev nD) :
    (bigSep Finset.univ fun c : Fin ((K (F := F)).nCore 0) => (P (U := U) R idx o0).dn 0 d c)
      = bigSep Finset.univ fun c : Fin 2 => bigSep Finset.univ fun s : Fin 16 => tdPts (U := U) R idx d (wid c s) := rfl

/-- The call's operands, the pair table at contents satisfying `R`, are the SparseCores' pieces. -/
theorem st_intro (d : Dev nD) (X : Buf (Elt F) (pairsLoc d)) :
    iprop(⌜R d X⌝ ∗ (pairsLoc d ↦{fullShare} X) ∗ (idxLoc d ↦{fullShare} idx d) ∗ (outLoc d ↦{fullShare} o0 d))
      ⊢ bigSep Finset.univ fun c : Fin ((K (F := F)).nCore 0) => (P (U := U) R idx o0).st 0 d c := by
  iintro ⟨%hR, H⟩
  ihave H' := (Entails.of_eq (tiles_join (F := F) (U := U) d X (idx d) (o0 d)).symm) $$ H
  have hm : (bigSep Finset.univ fun w : Fin 32 => (tileIn d w X (idx d) (o0 d) : sProp 𝕄)) ⊢ bigSep Finset.univ fun w : Fin 32 => goPts (U := U) R idx o0 d w :=
    bigSep_mono (fun w _ => by
      show (tileIn d w X (idx d) (o0 d) : sProp 𝕄) ⊢ goPts (U := U) R idx o0 d w
      iintro Hw; iexists X; isplitr
      · ipureintro; exact hR
      · iexact Hw)
  iapply (Entails.of_eq ((bigSep_tiles (F := F) (U := U) (fun w => goPts R idx o0 d w)).symm.trans (st_unfold R idx o0 d).symm))
  iapply hm $$ H'

/-- What a result satisfying the tiles' agreements says row by row. -/
theorem rows_of_agrees (d : Dev nD) (Xs : Fin 32 → Buf (Elt F) (pairsLoc d)) (Ys : Fin 32 → Buf (Elt F) (outLoc d)) (g : Buf (Elt F) (outLoc d))
    (hX : ∀ w, R d (Xs w) ∧ AgreesOn d w (Xs w) (idx d) (Ys w)) (hg : ∀ w ∈ (Finset.univ : Finset (Fin 32)), ∀ i ∈ oRowSet w, g i = Ys w i) :
    ∀ r : Fin 16384, ∃ X, R d X ∧ ∀ j : Fin 128, g (ix2 r j) = gathered d X (idx d) (ix2 r j) := by
  intro r
  have hmem : (ix2 r (⟨0, by decide⟩ : Fin 128) : S16384x128.Idx) ∈ (Finset.univ : Finset (Fin 32)).biUnion oRowSet := by
    rw [orows_cover]; exact Finset.mem_univ _
  obtain ⟨w, -, hw⟩ := Finset.mem_biUnion.mp hmem
  refine ⟨Xs w, (hX w).1, fun j => ?_⟩
  have hj : (ix2 r j : S16384x128.Idx) ∈ oRowSet w := by
    rw [oRowSet_eq, Rect.mem_set_unit] at hw ⊢
    intro a
    match a with
    | 0 => exact hw 0
    | 1 => simp [Shape.partIx, Shape.partSize]
  rw [hg w (Finset.mem_univ w) _ hj]
  exact (hX w).2 _ hj

omit [CountersIn U] in
set_option maxRecDepth 4096 in
/-- The tiles' rows of the result join to the result whole, each row the gathered row of some table satisfying `R`. -/
theorem out_join (d : Dev nD) :
    (bigSep Finset.univ fun w : Fin 32 => (iprop(∃ X Y, ⌜R d X ∧ AgreesOn d w X (idx d) Y⌝ ∗ (outLoc d ↦[oRowSet w]{fullShare} Y)) : sProp 𝕄))
      ⊢ iprop(∃ Y, ⌜∀ r : Fin 16384, ∃ X, R d X ∧ ∀ j : Fin 128, Y (ix2 r j) = gathered d X (idx d) (ix2 r j)⌝ ∗ (outLoc d ↦{fullShare} Y)) := by
  refine (bigSep_exists_pi Finset.univ (fun (w : Fin 32) (X : Buf (Elt F) (pairsLoc d)) =>
    (iprop(∃ Y, ⌜R d X ∧ AgreesOn d w X (idx d) Y⌝ ∗ (outLoc d ↦[oRowSet w]{fullShare} Y)) : sProp 𝕄))).trans ?_
  iintro ⟨%Xs, Ho1⟩
  ihave Ho2 := (bigSep_exists_pi Finset.univ (fun (w : Fin 32) (Y : Buf (Elt F) (outLoc d)) =>
    (iprop(⌜R d (Xs w) ∧ AgreesOn d w (Xs w) (idx d) Y⌝ ∗ (outLoc d ↦[oRowSet w]{fullShare} Y)) : sProp 𝕄))) $$ Ho1
  icases Ho2 with ⟨%Ys, Ho2⟩
  ihave Ho2' := (Entails.of_eq (bigSep_sep' Finset.univ (fun w : Fin 32 => (iprop(⌜R d (Xs w) ∧ AgreesOn d w (Xs w) (idx d) (Ys w)⌝) : sProp 𝕄))
    (fun w : Fin 32 => (outLoc d ↦[oRowSet w]{fullShare} Ys w : sProp 𝕄)))) $$ Ho2
  icases Ho2' with ⟨Hp, Ho3⟩
  ihave Hp' := (bigSep_pure_univ (F := F) (U := U) (fun w : Fin 32 => R d (Xs w) ∧ AgreesOn d w (Xs w) (idx d) (Ys w))) $$ Hp
  icases Hp' with %hX
  ihave H' := (pointsTo_biUnion_join (ℓ := outLoc d) (q := fullShare) (Val := Elt F) Finset.univ oRowSet Ys (Ys 0) orows_disjoint) $$ Ho3
  icases H' with ⟨%g, %hg, Hg⟩
  ihave Hg' := (Entails.of_eq (show (outLoc d ↦[(Finset.univ : Finset (Fin 32)).biUnion oRowSet]{fullShare} g : sProp 𝕄) = (outLoc d ↦{fullShare} g) by rw [orows_cover])) $$ Hg
  iexists g
  isplitr
  · ipureintro; exact rows_of_agrees R idx d Xs Ys g hX hg
  · iexact Hg'

/-- The SparseCores' results are the list unchanged and the result whole, each row the gathered row of SOME table
    satisfying `R`. -/
theorem dn_elim (d : Dev nD) :
    (bigSep Finset.univ fun c : Fin ((K (F := F)).nCore 0) => (P (U := U) R idx o0).dn 0 d c)
      ⊢ iprop((idxLoc d ↦{fullShare} idx d)
          ∗ ∃ Y, ⌜∀ r : Fin 16384, ∃ X, R d X ∧ ∀ j : Fin 128, Y (ix2 r j) = gathered d X (idx d) (ix2 r j)⌝ ∗ (outLoc d ↦{fullShare} Y)) := by
  refine (Entails.of_eq ((dn_unfold R idx o0 d).trans (bigSep_tiles (F := F) (U := U) (fun w => tdPts R idx d w)))).trans ?_
  refine (Entails.of_eq (bigSep_sep' Finset.univ (fun w : Fin 32 => (idxLoc d ↦[iRowSet w]{fullShare} idx d : sProp 𝕄))
    (fun w : Fin 32 => (iprop(∃ X Y, ⌜R d X ∧ AgreesOn d w X (idx d) Y⌝ ∗ (outLoc d ↦[oRowSet w]{fullShare} Y)) : sProp 𝕄)))).trans ?_
  rw [← iPts_rows]
  exact sep_mono_right (out_join R idx d)

end Cert.Kernel.Sc

end
-- ==== Proof.KScValue.lean ====
/-
  The row gather on one vector subcore, the mathematics: the tile at a symbolic place addresses block `2 s + c` of the
  index list and of the result; each group of sixteen words it stores into the row-number scratch is the row function
  `kOf` of the sixteen words it fetched, so the scratch, written by 32 such stores, reads as ONE function of the fetched
  words; the stream's payload over that list, copied out, is the gathered function on the tile's rows.
-/
import proofs.«205263_g58420145160647_cont_9to1_m_909_25_alg».proof.Proof.KScSplit
import Idealize.ShloMosaic.Lib.Pipeline.Value
import Idealize.ShloMosaic.Lib.Pipeline.FrameBody
import Idealize.ShloMosaic.Lib.Writes

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]
variable {U : Type} [URA U] [CountersIn U]

local notation "𝕄" => MT nD τ sig (HIx 1) (Elt F) ℕ U ℕ

local notation "pV" => (Memref.whole Cert.Kernel.main_v1_scv : Memref Cert.Kernel.sig Kind.scVector Space.hbm Cert.Kernel.S507904x128 EltTy.f32)
local notation "iV" => (Memref.whole Cert.Kernel.main_arg0_scv : Memref Cert.Kernel.sig Kind.scVector Space.hbm Cert.Kernel.S16384 EltTy.i32)
local notation "oV" => (Memref.whole Cert.Kernel.main_v2_scv : Memref Cert.Kernel.sig Kind.scVector Space.hbm Cert.Kernel.S16384x128 EltTy.f32)
local notation "sV" => (Memref.whole Cert.Kernel.cc1_scratch0 : Memref Cert.Kernel.sig Kind.scVector Space.vmem Cert.Kernel.S512 EltTy.i32)
local notation "kV" => (Memref.whole Cert.Kernel.cc1_scratch1 : Memref Cert.Kernel.sig Kind.scVector Space.vmem Cert.Kernel.S512 EltTy.i32)
local notation "rV" => (Memref.whole Cert.Kernel.cc1_scratch2 : Memref Cert.Kernel.sig Kind.scVector Space.vmem Cert.Kernel.S512x128 EltTy.f32)

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
/-- The block the tile at `L` works on. -/
def wL (L : grid1.Coords) : Fin 32 := ⟨2 * (L 1).val + (L 0).val, by
  have h0 := (L 0).isLt; have h1 := (L 1).isLt
  have e0 : grid1.bound 0 = 2 := rfl; have e1 : grid1.bound 1 = 16 := rfl
  omega⟩
omit [FloatOps F] in
theorem wL_eq (L : grid1.Coords) : wL L = wid (Fin.cast bound_zero (L 0)) (Fin.cast bound_one (L 1)) := rfl

abbrev irowK (L : grid1.Coords) : Rect S16384 := Rect.unit (s := S16384) (k1_off1 L) S512.size (k1_off1_inb L)
abbrev orowK (L : grid1.Coords) : Rect S16384x128 := Rect.unit (s := S16384x128) (k1_off2 L) S512x128.size (k1_off2_inb L)
/-- The tile's words of the list and rows of the result, as it addresses them, and the pair table whole. -/
abbrev iRowK (L : grid1.Coords) : Memref sig .scVector .hbm S512 .i32 := (iV).slice (irowK L) (fun _ => rfl)
abbrev oRowK (L : grid1.Coords) : Memref sig .scVector .hbm S512x128 .f32 := (oV).slice (orowK L) (fun _ => rfl)
abbrev pAllK : Memref sig .scVector .hbm S507904x128 .f32 := (pV).slice (Rect.unit (s := S507904x128) ![0, 0] S507904x128.size inb_S507904x128_S507904x128_0_0) (fun _ => rfl)

omit [FloatOps F] in
theorem irowK_eq : irowK L = irow (wL L) := by
  unfold irowK irow Rect.part Rect.block
  congr 1 <;> funext a
  · rw [k1_off1_eq]
    match a with
    | 0 => simp [Shape.partIx, Shape.partSize, wL]; omega
  · match a with
    | 0 => simp [Shape.partSize]
omit [FloatOps F] in
theorem orowK_eq : orowK L = orow (wL L) := by
  unfold orowK orow Rect.part Rect.block
  congr 1 <;> funext a
  · rw [k1_off2_eq]
    match a with
    | 0 => simp [Shape.partIx, Shape.partSize, wL]; omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] [CountersIn U] in
theorem pts_iRowK (f : Buf (Elt F) (idxLoc d)) :
    ((iRowK L).view.loc (V d (cV L) (jV L)) ↦[(iRowK L).view.set]{fullShare} f : sProp 𝕄) = idxLoc d ↦[iRowSet (wL L)]{fullShare} f := by
  rw [set_iRowK]
omit [FloatOps F] [CountersIn U] in
theorem pts_oRowK (f : Buf (Elt F) (outLoc d)) :
    ((oRowK L).view.loc (V d (cV L) (jV L)) ↦[(oRowK L).view.set]{fullShare} f : sProp 𝕄) = outLoc d ↦[oRowSet (wL L)]{fullShare} f := by
  rw [set_oRowK]
omit [FloatOps F] [CountersIn U] in
theorem pts_pV (q : PosShare TreeShare) (f : Buf (Elt F) (pairsLoc d)) :
    ((pV).view.loc (V d (cV L) (jV L)) ↦{q} f : sProp 𝕄) = pairsLoc d ↦{q} f := rfl
omit [FloatOps F] [CountersIn U] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] [CountersIn U] in
theorem pts_kV (f : Buf (Elt F) ((V d (cV L) (jV L)).loc cc1_scratch1)) :
    ((kV).view.loc (V d (cV L) (jV L)) ↦{fullShare} f : sProp 𝕄) = (V d (cV L) (jV L)).loc cc1_scratch1 ↦{fullShare} f := rfl
omit [FloatOps F] [CountersIn U] in
theorem pts_rV (f : Buf (Elt F) ((V d (cV L) (jV L)).loc cc1_scratch2)) :
    ((rV).view.loc (V d (cV L) (jV L)) ↦{fullShare} f : sProp 𝕄) = (V d (cV L) (jV L)).loc cc1_scratch2 ↦{fullShare} f := rfl

/-! ## One group's store -/

omit [CountersIn U] in
/-- Sixteen words loaded at `off` from the word scratch, holding the fetched words `sread`, and pushed through the kernel's
    vector chain, are `kOf` of the fetched words there. -/
theorem pay_apply (fs : Buf (Elt F) ((V d (cV L) (jV L)).loc cc1_scratch0)) (sread : S512.Idx → Elt F .i32)
    (off : Fin 1 → ℕ) (inb : ∀ a, off a + S16.size a ≤ S512.size a) (h1 h2 : S16.ShapeCasts S16) (x : S16.Idx) :
    shapeCast S16 (addi (shli (shrui (shapeCast S16 (View.readAt (Elt F) (sV).view (Rect.unit (s := S512) off S16.size inb).toLoadRect
        (View.write (Elt F) (sV).view fs sread Finset.univ)) h1) (broadcast S16 15#32)) (broadcast S16 14#32))
      (andi (shapeCast S16 (View.readAt (Elt F) (sV).view (Rect.unit (s := S512) off S16.size inb).toLoadRect
        (View.write (Elt F) (sV).view fs sread Finset.univ)) h1) (broadcast S16 16383#32))) h2 x
      = kOf (sread ((Rect.unit (s := S512) off S16.size inb).emb x)) := by
  have e : shapeCast S16 (View.readAt (Elt F) (sV).view (Rect.unit (s := S512) off S16.size inb).toLoadRect
        (View.write (Elt F) (sV).view fs sread Finset.univ)) h1
      = fun x => sread ((Rect.unit (s := S512) off S16.size inb).emb x) := by
    refine (shapeCast_self (s := S16) _ h1).trans ?_
    rw [View.readAt_eq_ld, View.read_write_univ]; rfl
  rw [shapeCast_self, e]; rfl

/-! ## Pieces of one function -/

omit [FloatOps F] in
theorem pieces_nil {S : Shape} {e : EltTy} (G : S.Idx → Elt F e) :
    ∀ p ∈ ([] : List (View.Piece (Elt F) S e)), ∀ x : p.1.shape.Idx, p.2 x = G (p.1.emb x) :=
  fun _ h => absurd h List.not_mem_nil
omit [FloatOps F] in
theorem pieces_cons {S : Shape} {e : EltTy} (G : S.Idx → Elt F e) (p : View.Piece (Elt F) S e) (Lst : List (View.Piece (Elt F) S e))
    (h1 : ∀ x : p.1.shape.Idx, p.2 x = G (p.1.emb x)) (h2 : ∀ q ∈ Lst, ∀ x : q.1.shape.Idx, q.2 x = G (q.1.emb x)) :
    ∀ q ∈ p :: Lst, ∀ x : q.1.shape.Idx, q.2 x = G (q.1.emb x) := by
  intro q hq
  rcases List.mem_cons.mp hq with rfl | hq
  · exact h1
  · exact h2 q hq

omit [CountersIn U] in
/-- The row-number scratch after stores that cover it, each a block of ONE function `G`, reads as `G`. -/
theorem kv_read [∀ e, Nonempty (Elt F e)] (G : S512.Idx → Elt F .i32) (Lst : List (View.Piece (Elt F) S512 .i32))
    (hp : ∀ p ∈ Lst, ∀ x : p.1.shape.Idx, p.2 x = G (p.1.emb x)) (hc : ∀ y : S512.Idx, ∃ p ∈ Lst, y ∈ p.1.set) (y : S512.Idx) :
    (kV).view.read (Elt F) ((kV).view.writes (Elt F) (kV).view.junk Lst) y = G y := by
  rw [View.read_writes_apply_eq_canon _ _ _ _ (hc y)]
  exact View.canon_apply_of_pieces G Lst hp y (hc y)

/-! ## The gathered rows -/

omit [FloatOps F] in
theorem rowNo_lt (n : ℕ) (hn : n < 512) : 1024 * (L 1).val + 512 * (L 0).val + n < 16384 := by
  have h0 := (L 0).isLt; have h1 := (L 1).isLt
  have e0 : grid1.bound 0 = 2 := rfl; have e1 : grid1.bound 1 = 16 := rfl
  omega
omit [FloatOps F] in
/-- Word `y` of the tile's block of the list is word `512 w + y` of the list. -/
theorem iRowK_emb (y : S512.Idx) :
    (iRowK L).view.emb y = ix1 (⟨1024 * (L 1).val + 512 * (L 0).val + (y 0).val, rowNo_lt L _ (y 0).isLt⟩ : Fin 16384) := by
  funext a
  match a with
  | 0 =>
    apply Fin.ext
    show (k1_off1 L) 0 + 1 * (y 0).val = 1024 * (L 1).val + 512 * (L 0).val + (y 0).val
    rw [k1_off1_eq]; simp
omit [FloatOps F] in
/-- Row `j 0`, lane `j 1` of the tile's block of the result is row `512 w + j 0`, lane `j 1` of the result. -/
theorem oRowK_emb (j : S512x128.Idx) :
    (oRowK L).view.emb j = ix2 (⟨1024 * (L 1).val + 512 * (L 0).val + (j 0).val, rowNo_lt L _ (j 0).isLt⟩ : Fin 16384) (j 1) := by
  funext a
  match a with
  | 0 =>
    apply Fin.ext
    show (k1_off2 L) 0 + 1 * (j 0).val = 1024 * (L 1).val + 512 * (L 0).val + (j 0).val
    rw [k1_off2_eq]; simp
  | 1 =>
    apply Fin.ext
    show (k1_off2 L) 1 + 1 * (j 1).val = (j 1).val
    rw [k1_off2_eq]; simp
omit [FloatOps F] in
/-- The pair table sliced whole is the pair table. -/
theorem pAllK_emb (z : S507904x128.Idx) : (pAllK).view.emb z = z := by
  funext a
  apply Fin.ext
  show (![0, 0] : Fin 2 → ℕ) a + 1 * (z a).val = (z a).val
  match a with
  | 0 => simp
  | 1 => simp

omit [CountersIn U] in
/-- The stream's payload over a list that reads as `kOf` of the tile's words is the gathered function on the tile's rows. -/
theorem gather_value (X : Buf (Elt F) (pairsLoc d)) (ix : Buf (Elt F) (idxLoc d)) (kread : S512.Idx → Elt F .i32)
    (hn : S512.numel = S512x128.size gathers_S507904x128_S512x128.axis')
    (hin : ∀ x, (kread x).toNat < S507904x128.size gathers_S507904x128_S512x128.axis)
    (hk : ∀ y, kread y = kOf (ix ((iRowK L).view.emb y))) (j : S512x128.Idx) :
    SparseCore.gatherPayload gathers_S507904x128_S512x128 ((pAllK).view.read (Elt F) X) (SparseCore.rows kread hn hin) j
      = gathered d X ix ((oRowK L).view.emb j) := by
  unfold SparseCore.gatherPayload
  rw [View.read_apply]
  show X ((pAllK).view.emb _) = _
  rw [pAllK_emb]
  have hrow : ∀ y : S512.Idx, (y 0).val = (j 0).val → (iRowK L).view.emb y = ix1 (((oRowK L).view.emb j) 0) := by
    intro y hy
    rw [iRowK_emb, oRowK_emb]
    congr 1
    apply Fin.ext
    show _ + (y 0).val = _ + (j 0).val
    rw [hy]
  have hy0 : ((S512.rowMajor.symm ((j 0).cast hn.symm)) 0).val = (j 0).val := by
    have e := Shape.rowMajor_val_one (S512.rowMajor.symm ((j 0).cast hn.symm))
    rw [Equiv.apply_symm_apply] at e
    exact e.symm
  have hk0 : kread (S512.rowMajor.symm ((j 0).cast hn.symm)) = kOf (ix (ix1 (((oRowK L).view.emb j) 0))) := by
    have h := hk (S512.rowMajor.symm ((j 0).cast hn.symm))
    rw [hrow _ hy0] at h
    exact h
  have hlt : (kOf (ix (ix1 (((oRowK L).view.emb j) 0)))).toNat < 507904 := by
    have h := hin (S512.rowMajor.symm ((j 0).cast hn.symm))
    rw [hk0] at h
    exact h
  rw [gathered_apply d X ix _ hlt]
  congr 1
  funext a
  match a with
  | 0 =>
    apply Fin.ext
    refine (congrArg Fin.val (Shape.Gathers.idx_axis gathers_S507904x128_S512x128 (SparseCore.rows kread hn hin) j)).trans ?_
    show (kread (S512.rowMajor.symm ((j 0).cast hn.symm))).toNat = _
    rw [hk0]
  | 1 =>
    apply Fin.ext
    refine (Shape.Gathers.idx_of_ne gathers_S507904x128_S512x128 (SparseCore.rows kread hn hin) j 1 (by decide)).trans ?_
    show (j 1).val = ((oRowK L).view.emb j 1).val
    exact (congrArg Fin.val (congrFun (oRowK_emb L j) 1)).symm

omit [CountersIn U] in
/-- The tile's rows of the result, written whole with a payload that is the gathered function there, hold it. -/
theorem out_value (X : Buf (Elt F) (pairsLoc d)) (ix : Buf (Elt F) (idxLoc d)) (fo : Buf (Elt F) (outLoc d)) (pay : S512x128.Idx → Elt F .f32)
    (hpay : ∀ j, pay j = gathered d X ix ((oRowK L).view.emb j)) :
    ∀ i ∈ (oRowK L).view.set, (oRowK L).view.writes (Elt F) fo [⟨Rect.whole S512x128, pay⟩] i = gathered d X ix i := by
  intro i hi
  obtain ⟨j, -, rfl⟩ := Finset.mem_map.mp hi
  have e := View.read_writes_cons_emb (oRowK L).view fo (Rect.whole S512x128) pay [] j
  rw [Rect.emb_whole_apply, View.read_apply] at e
  rw [← hpay j, ← e]
  rfl

end Tile

end Cert.Kernel.Sc

end
-- ==== Proof.KScTile.lean ====
/-
  The body of the row gather on one vector subcore, at a symbolic place: the tile fetches
  its 512 words of the index list, stores for each group of sixteen the pair-table rows they name, gathers those 512
  rows by the indirect stream (its offsets in range because every word of the list is below 1000000), waits, and copies
  them out to its 512 rows of the result, which then hold the gathered function. Then the launch theorem's obligation
  for a tile: the pair table at SOME contents satisfying the predicate, the result's rows returned at contents agreeing
  with the gathered function of that table.
-/
import proofs.«205263_g58420145160647_cont_9to1_m_909_25_alg».proof.Proof.KScValue
import proofs.«205263_g58420145160647_cont_9to1_m_909_25_alg».proof.Proof.Gen.Kernel.Skeleton
import Idealize.ShloMosaic.Lib.Ring

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]
variable {U : Type} [URA U] [CountersIn U]

local notation "𝕄" => MT nD τ sig (HIx 1) (Elt F) ℕ U ℕ

local notation "pV" => (Memref.whole Cert.Kernel.main_v1_scv : Memref Cert.Kernel.sig Kind.scVector Space.hbm Cert.Kernel.S507904x128 EltTy.f32)
local notation "iV" => (Memref.whole Cert.Kernel.main_arg0_scv : Memref Cert.Kernel.sig Kind.scVector Space.hbm Cert.Kernel.S16384 EltTy.i32)
local notation "oV" => (Memref.whole Cert.Kernel.main_v2_scv : Memref Cert.Kernel.sig Kind.scVector Space.hbm Cert.Kernel.S16384x128 EltTy.f32)
local notation "sV" => (Memref.whole Cert.Kernel.cc1_scratch0 : Memref Cert.Kernel.sig Kind.scVector Space.vmem Cert.Kernel.S512 EltTy.i32)
local notation "kV" => (Memref.whole Cert.Kernel.cc1_scratch1 : Memref Cert.Kernel.sig Kind.scVector Space.vmem Cert.Kernel.S512 EltTy.i32)
local notation "rV" => (Memref.whole Cert.Kernel.cc1_scratch2 : Memref Cert.Kernel.sig Kind.scVector Space.vmem Cert.Kernel.S512x128 EltTy.f32)

section Tile

variable (d : Dev nD) (L : grid1.Coords)

abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

omit [FloatOps F] [CountersIn U] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] [CountersIn U] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

variable (X : Buf (Elt F) (pairsLoc d)) (ix : Buf (Elt F) (idxLoc d)) (fo : Buf (Elt F) (outLoc d))

set_option maxHeartbeats 4000000 in
set_option maxRecDepth 16384 in
/-- The task on vector subcore `(L 0, L 1)` of device `d`, the pair table at `X`: the fetch of the list's words, the 32
    groups' stores, the stream and its wait, the copy-out; the stream's offsets are in range and the result's rows hold the
    gathered function because every store's payload is `kOf` of the fetched words. -/
theorem tile_body (hF : (K (F := F)).Facts) (hpre : ∀ r : S16384.Idx, (ix r).toNat < 1000000)
    (O : CellTallies nD τ sig (HIx 1)) (W : Waits sig (HIx 1)) (hO : ∀ g, O g none = 0) :
    iprop(levAts (K (F := F)).L (K (F := F)).lev ∗ emp
        ∗ tileIn (U := U) d (wL L) X ix fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L pV (Memref.isWhole_whole _) iV (Memref.isWhole_whole _) oV (Memref.isWhole_whole _)
            sV (Memref.isWhole_whole _) kV (Memref.isWhole_whole _) rV (Memref.isWhole_whole _) cc1_scratch3 cc1_scoped0 cc1_scoped1)
          fun _ => iprop(tileIn (U := U) d (wL L) X ix (gathered d X ix)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fk, Hk⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) (U := U) d L _).symm) $$ Hi
  ihave Ho' := (Entails.of_eq (pts_oRowK (F := F) (U := U) d L _).symm) $$ Ho
  ihave Hx' := (Entails.of_eq (pts_pV (F := F) (U := U) d L _ _).symm) $$ Hx
  ihave Hs' := (Entails.of_eq (pts_sV (F := F) (U := U) d L _).symm) $$ Hs
  ihave Hk' := (Entails.of_eq (pts_kV (F := F) (U := U) d L _).symm) $$ Hk
  ihave Hr' := (Entails.of_eq (pts_rV (F := F) (U := U) d L _).symm) $$ Hr
  sl_exec
  -- THE ROW NUMBERS: the 32 stores' pieces are blocks of ONE function, `kOf` of the fetched words, and cover the scratch.
  have hpieces : ∀ p ∈ tile_body.sl.Hk'_32 d L ix fs, ∀ x : p.1.shape.Idx,
      p.2 x = (fun y : S512.Idx => kOf (tile_body.sl.dma0 d L ix y)) (p.1.emb x) := by
    unfold tile_body.sl.Hk'_32
    repeat (refine pieces_cons (F := F) (S := S512) (e := .i32) (fun y : S512.Idx => kOf (tile_body.sl.dma0 d L ix y)) _ _ (by intro x; exact pay_apply (F := F) d L fs (tile_body.sl.dma0 d L ix) _ _ _ _ x) ?_)
    exact pieces_nil (F := F) (S := S512) (e := .i32) (fun y : S512.Idx => kOf (tile_body.sl.dma0 d L ix y))
  have hcover : ∀ y : S512.Idx, ∃ p ∈ tile_body.sl.Hk'_32 d L ix fs, y ∈ p.1.set :=
    View.cover_of_tiledL _ S16.size (by sl_kernel_rfl)
  have hk : ∀ y, (kV).view.read (Elt F) ((kV).view.writes (Elt F) (kV).view.junk (tile_body.sl.Hk'_32 d L ix fs)) y
      = kOf (ix ((iRowK L).view.emb y)) :=
    fun y => kv_read (F := F) (fun y : S512.Idx => kOf (tile_body.sl.dma0 d L ix y)) _ hpieces hcover y
  have hin : ∀ x, ((kV).view.read (Elt F) ((kV).view.writes (Elt F) (kV).view.junk (tile_body.sl.Hk'_32 d L ix fs)) x).toNat
      < S507904x128.size gathers_S507904x128_S512x128.axis := fun x => by
    rw [hk x]; exact kOf_lt _ (hpre _)
  -- THE INDIRECT GATHER: the stream over the row numbers; the tile hands in its share of the pair table, the row buffer,
  -- the list's buffer whole and the cell at zero; back comes the stream's flight.
  ihave Hxs := (pointsTo_split_subset (q := pq (wL L)) (f := X) (S := Finset.univ) (Finset.subset_univ (pAllK).view.set)).1 $$ Hx'
  icases Hxs with ⟨Hxs, Hxr⟩
  have hrs : (rV).view.set = Finset.univ := View.set_whole _
  have hks : (kV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hk'' := (Entails.of_eq (show ((kV).view.loc (V d (cV L) (jV L)) ↦{fullShare} (kV).view.writes (Elt F) (kV).view.junk (tile_body.sl.Hk'_32 d L ix fs) : sProp 𝕄)
      = (kV).view.loc (V d (cV L) (jV L)) ↦[(kV).view.set]{fullShare} (kV).view.writes (Elt F) (kV).view.junk (tile_body.sl.Hk'_32 d L ix fs)
      by rw [hks])) $$ Hk'
  have hN : ∀ h : S507904x128.Gathers 0 S512x128, ∑ j, ((rV).slice (S512x128.rowRect h.axis' j) (S512x128.stride_rowRect h.axis' j)).view.dmaCredit
      = (rV).view.dmaCredit := fun h => SparseCore.sum_rowCredit_eq_dmaCredit (rV) h.axis' (fun _ => rfl)
  iapply (SparseCore.wp_indirectGatherLocal countersEmb 𝒱₀ (V d (cV L) (jV L)) none (hg := gathers_S507904x128_S512x128) (default : HIx 1)
      (rV).view.dmaCredit (hN _) (by decide) hin) $$ [Hxs Hr'' Hk'' HsemA]
  · isplitl [Hxs]; · iexact Hxs
    isplitl [Hr'']; · iexact Hr''
    isplitl [Hk'']; · iexact Hk''
    iexact HsemA
  iintro Hfl
  sl_exec
  -- ITS WAIT: the row buffer written with the gathered rows, the share of the pair table and the list's buffer back.
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch3.sem)) $$ Hmw
  iintro ⟨⟨Hr', Hxs, Hk'⟩, HsemA, HO⟩
  ihave Hx' := (pointsTo_split_subset (q := pq (wL L)) (f := X) (S := Finset.univ) (Finset.subset_univ (pAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hk3 := (Entails.of_eq (show ((kV).view.loc (V d (cV L) (jV L)) ↦[(kV).view.set]{fullShare} _ : sProp 𝕄)
      = (kV).view.loc (V d (cV L) (jV L)) ↦{fullShare} _ by rw [hks])) $$ Hk'
  sl_exec
  sl_step
  -- THE VALUE: what the copy-out wrote is the stream's payload read back, the gathered function on the tile's rows.
  have hval : ∀ i ∈ (oRowK L).view.set,
      (oRowK L).view.writes (Elt F) fo [⟨Rect.whole S512x128, tile_body.sl.dma0_1 d L X ix fs fr hin⟩] i = gathered d X ix i :=
    out_value (F := F) d L X ix fo _ (fun j => by
      unfold tile_body.sl.dma0_1
      rw [ReadAs.apply_same, View.read_write_univ]
      exact gather_value (F := F) d L X ix _ _ hin hk j)
  isplitl [Hi' Hx' Ho']
  · isplitl [Hx']; · iexact Hx'
    isplitl [Hi']; · iapply (Entails.of_eq (pts_iRowK (F := F) (U := U) d L _)); iexact Hi'
    iapply (Entails.of_eq (pts_oRowK (F := F) (U := U) d L _))
    iapply (Entails.of_eq (pointsTo_congr hval)); iexact Ho'
  isplitl [Hs' Hk3 Hr3 Hbufs]
  · isplitl [Hs']; · iexists _; iexact Hs'
    isplitl [Hk3]; · iexists _; iexact Hk3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The obligation -/

section Obl

variable (R : (d : Dev nD) → Buf (Elt F) (pairsLoc d) → Prop) (idx : (d : Dev nD) → Buf (Elt F) (idxLoc d))
  (o0 : (d : Dev nD) → Buf (Elt F) (outLoc d))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          pV (Memref.isWhole_whole _) iV (Memref.isWhole_whole _) oV (Memref.isWhole_whole _)
          sV (Memref.isWhole_whole _) kV (Memref.isWhole_whole _) rV (Memref.isWhole_whole _) cc1_scratch3 cc1_scoped0 cc1_scoped1) ⟨⟩ c s := rfl

omit [FloatOps F] [CountersIn U] in
/-- The table's contents, quantified in what a tile is handed, are fixed for its run. -/
theorem go_open {A B C Q : sProp 𝕄} {α : Type} {φ : α → Prop} {G : α → sProp 𝕄}
    (h : ∀ X, φ X → iprop(A ∗ B ∗ G X ∗ C) ⊢ Q) : iprop(A ∗ B ∗ (∃ X, ⌜φ X⌝ ∗ G X) ∗ C) ⊢ Q := by
  iintro ⟨HA, HB, ⟨%X, %hX, HG⟩, HC⟩
  iapply (h X hX)
  isplitl [HA]; · iexact HA
  isplitl [HB]; · iexact HB
  isplitl [HG]; · iexact HG
  iexact HC

omit [CountersIn U] in
/-- What the body leaves is what the tile hands back: the table's share dropped, the rows at contents that agree with the
    gathered function of a table satisfying `R`. -/
theorem td_post (d : Dev nD) (w : Fin 32) (X : Buf (Elt F) (pairsLoc d)) (hR : R d X) {thr : Thread nD τ} {B C : sProp 𝕄}
    {O : CellTallies nD τ sig (HIx 1)} {W : Waits sig (HIx 1)} {q : Fin 1} :
    iprop(tileIn (U := U) d w X (idx d) (gathered d X (idx d)) ∗ B ∗ C ∗ ∃ W', ⌜∀ p ∈ W', p ∈ W ∨ p.2 = none⌝ ∗ owes thr O W')
      ⊢ iprop(tdPts (U := U) R idx d w ∗ B ∗ C ∗ ∃ W', ⌜∀ p ∈ W', p ∈ W ∨ p.2 = none ∨ p.2 = some q⌝ ∗ owes thr O W') := by
  iintro ⟨⟨-, Hi, Ho⟩, HB, HC, %W', %hW', HO⟩
  isplitl [Hi Ho]
  · isplitl [Hi]; · iexact Hi
    iexists X; iexists (gathered d X (idx d)); isplitr
    · ipureintro; exact ⟨hR, fun _ _ => rfl⟩
    · iexact Ho
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d (r : S16384.Idx), (idx d r).toNat < 1000000) :
    (K (F := F)).TileObl (D (F := F)) 𝒱 (P (U := U) R idx o0) v₀ 0 := by
  intro d c i O W hO _ _
  simp only [show (P (U := U) R idx o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go]; simp only [P_td]
  refine go_open (fun X hR => ?_)
  exact (tile_body (U := U) d (coordsV ⟨_, hci.1⟩ ⟨_, hci.2⟩) X (idx d) (o0 d) hF (hpre d) O W hO).trans
    (wp_mono frame _ _ fun _ => td_post (U := U) R idx d _ X hR)

end Obl

end Cert.Kernel.Sc

end
-- ==== Proof.KGatherValue.lean ====
import proofs.«205263_g58420145160647_cont_9to1_m_909_25_alg».proof.Proof.KTc0Value
import proofs.«205263_g58420145160647_cont_9to1_m_909_25_alg».proof.Proof.KScSplit
import proofs.«205263_g58420145160647_cont_9to1_m_909_25_alg».proof.Proof.KRunReg0
import Idealize.ShloMosaic.Lib.StableHlo.Run
/-! # The gathered rows and the first region's entry contents, read at an index

(A) The SparseCore call copies, for each word `v` of the list, row `kOf v` of the pair table into the result. The
first region leaves the pair table holding the operand `main_v0` (the table transposed) block by block, so the 64
lanes of the half `halfOf v` of that row are column `v` of the operand: the table's row `v`
(`gathered_half`). The arithmetic is on the words' numbers: below 2^20, `kOf v = (v div 32768) · 16384 + v mod 16384`
and `halfOf v = (v div 16384) mod 2`.

(B) The operand at the first region's entry is the host's transpose of the table (`Host.V1_main_v0_apply`); every
other reference is as launched (`Host.V1_of`). -/

set_option maxRecDepth 16384

noncomputable section

namespace Cert.Kernel.Gather

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {U : Type} [URA U]

/-! ## The words of the list: the row they name and the half they select -/

/-- Which half of a pair-table row holds the table row a word `v` of the list names, as the second kernel computes
    it on the vector unit: `(v >>> 14) &&& 1`. -/
def halfOf (v : BitVec 32) : BitVec 32 := IntOp.andi (IntOp.shrui .vector v 14#32) 1#32

theorem halfOf_eq (v : BitVec 32) : halfOf v = (v >>> 14) &&& 1#32 := by
  unfold halfOf IntOp.shrui IntOp.andi
  rw [if_pos (by decide)]
  rfl

/-- The half as a number: bit 14 of the word. -/
theorem halfOf_toNat (v : BitVec 32) : (halfOf v).toNat = (v.toNat / 16384) % 2 := by
  rw [halfOf_eq, BitVec.toNat_and, BitVec.toNat_ushiftRight, Nat.shiftRight_eq_div_pow,
    show (1#32 : BitVec 32).toNat = 2 ^ 1 - 1 by decide, Nat.and_two_pow_sub_one_eq_mod]

/-- The row as a number: the block number `v div 32768` times 16384 plus the row in the block `v mod 16384`. -/
theorem kOf_toNat (v : BitVec 32) (h : v.toNat < 1000000) :
    (Sc.kOf v).toNat = (v.toNat / 32768) * 16384 + v.toNat % 16384 := by
  rw [Sc.kOf_eq]
  have h1 : (v >>> 15).toNat = v.toNat / 32768 := by
    rw [BitVec.toNat_ushiftRight, Nat.shiftRight_eq_div_pow]
  have h2 : (v &&& 16383#32).toNat = v.toNat % 16384 := by
    rw [BitVec.toNat_and, show (16383#32 : BitVec 32).toNat = 2 ^ 14 - 1 by decide, Nat.and_two_pow_sub_one_eq_mod]
  have h3 : ((v >>> 15) <<< 14).toNat = (v.toNat / 32768) * 16384 := by
    rw [BitVec.toNat_shiftLeft, h1, Nat.shiftLeft_eq, Nat.mod_eq_of_lt (by omega)]
  rw [BitVec.toNat_add, h3, h2, Nat.mod_eq_of_lt (by omega)]

/-- The arithmetic of the selection: for a word `n` below 1000000 naming row `k` and half `hf`, lane `64 hf + j` of
    pair-table row `k` has source row `j` and source column `n`. -/
theorem col_arith (n k hf j : ℕ) (hn : n < 1000000) (hk : k = (n / 32768) * 16384 + n % 16384) (hh : hf = (n / 16384) % 2)
    (hj : j < 64) :
    (64 * hf + j) % 64 = j ∧ (k / 16384) * 32768 + ((64 * hf + j) / 64) * 16384 + k % 16384 = n := by
  subst hk hh
  omega

variable (V : (c : Dev nD) → (b : Ref sig .tc) → Buf (Elt F) ((c : Thread nD τ).loc b))
variable (O : CellTallies nD τ sig Ix) (Rc : Set (SemLoc sig × Ix)) (Φ₀ : sProp (MT nD τ sig Ix (Elt F) ℕ U ℕ))

/-! ## The selected half of a gathered row is the table's row -/

/-- Row `r` of the gathered array, read at the 64 lanes of the half its word selects, is the table row the word names
    (the operand `main_v0` is the table transposed: its column `v`). The pair table may be ANY contents the first
    region may leave, a different one for each row. -/
theorem gathered_half (c : Dev nD) (idx : Buf (Elt F) (Sc.idxLoc c)) (Y : Buf (Elt F) (Sc.outLoc c))
    (hidx : ∀ r : Fin 16384, (idx (ix1 r) : BitVec 32).toNat < 1000000)
    (hY : ∀ r : Fin 16384, ∃ X : Buf (Elt F) ((c : Thread nD τ).loc main_v1),
      (Tc0.rdat0 V O Rc Φ₀ c).ArrAt 1 cfg0.N X ∧ ∀ j : Fin 128, Y (ix2 r j) = Sc.gathered c X idx (ix2 r j))
    (r : Fin 16384) (j : Fin 64) (hl : 64 * (halfOf (idx (ix1 r))).toNat + j.val < 128) :
    Y (ix2 r (⟨64 * (halfOf (idx (ix1 r))).toNat + j.val, hl⟩ : Fin 128))
      = V c main_v0 (ix2 j (⟨(idx (ix1 r) : BitVec 32).toNat, hidx r⟩ : Fin 1000000)) := by
  obtain ⟨X, hX, hYr⟩ := hY r
  have hv := hidx r
  have hk := kOf_toNat (idx (ix1 r)) hv
  have hh := halfOf_toNat (idx (ix1 r))
  have hklt : (Sc.kOf (idx (ix1 r))).toNat < 507904 := Sc.kOf_lt _ hv
  have hj := j.isLt
  obtain ⟨e4, hcol⟩ := col_arith _ _ _ _ hv hk hh hj
  rw [hYr]
  show X (ix2 (Sc.rowOfNat (Sc.kOf (idx (ix1 r))).toNat) (⟨64 * (halfOf (idx (ix1 r))).toNat + j.val, hl⟩ : Fin 128)) = _
  rw [Sc.rowOfNat_of_lt hklt]
  refine (Tc0.arrAt1_closed V O Rc Φ₀ c X hX ⟨(Sc.kOf (idx (ix1 r))).toNat, hklt⟩ ⟨64 * (halfOf (idx (ix1 r))).toNat + j.val, hl⟩
    (lt_of_eq_of_lt hcol hv)).trans ?_
  refine congrArg (V c main_v0) (funext fun ax => ?_)
  match ax with
  | ⟨0, _⟩ => exact Fin.ext e4
  | ⟨1, _⟩ => exact Fin.ext hcol

/-! ## The first region's entry contents -/

namespace Host

open Cert.Kernel.Run

variable (m : (ℓ : Loc nD τ sig) → Buf (Elt F) ℓ)

/-- The operand `main_v0` at the first region's entry is the table `main_arg9` transposed by the host. -/
theorem V1_main_v0 (c : Dev nD) :
    (V1 m c main_v0 : S64x1000000.Idx → Elt F .f32)
      = transpose S64x1000000 [1, 0] (m ((c : Thread nD τ).loc main_arg9)) transposes_S1000000x64_S64x1000000_1_0 := by
  dsimp only [V1, W1, W0, hostOps0]; after_results

/-- Read at an index: row `j`, column `u` of the operand is row `u`, column `j` of the table. -/
theorem V1_main_v0_apply (c : Dev nD) (j : Fin 64) (u : Fin 1000000) :
    V1 m c main_v0 (ix2 j u) = m ((c : Thread nD τ).loc main_arg9) (ix2 u j) := by
  rw [V1_main_v0]; exact transpose_ix2_apply _ _ j u

/-- The one reference the host operation before the first region writes. -/
abbrev hostOps0_W : List (Ref sig .tc) := [main_v0]

theorem hostOps0_writes : (hostOps0 : List (HloOp τ sig (Elt F))).Forall fun op => op.writes ⊆ (hostOps0_W.map (Proc.devRef (τ := τ) .tc)).toFinset := by
  simp only [List.Forall]; exact (by simp only [StableHlo.unary_writes, Finset.singleton_subset_iff, List.mem_toFinset]; exact List.mem_map_of_mem (by decide))

/-- Every other reference is at the first region's entry as launched. -/
theorem V1_of (c : Dev nD) (r : Ref sig .tc) (h : r ∉ hostOps0_W) : V1 m c r = m ((c : Thread nD τ).loc r) :=
  StableHlo.after_of_writes_sub hostOps0 _ hostOps0_writes h

end Host

end Cert.Kernel.Gather

end
-- ==== Proof.KRunLaunch.lean ====
/-
  The run of the whole program, part 5: the launch — the SparseCore launch theorem applied to the vector subcores'
  task, the operands' split, @main on the TensorCore, the launch element of the ghost state, and the reading of the
  final memory.
-/
import proofs.«205263_g58420145160647_cont_9to1_m_909_25_alg».proof.Proof.KRunHmain
import proofs.«205263_g58420145160647_cont_9to1_m_909_25_alg».proof.Proof.KScTile
import proofs.«205263_g58420145160647_cont_9to1_m_909_25_alg».proof.Proof.KGatherValue

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)
open Idealize.ShloMosaic.ValueIdx

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## What the SparseCore call is handed and hands back -/

/-- The index array the call reads and the contents its result buffer is launched with. -/
abbrev idxOf (d : Dev nD) : Buf (Elt F) (Sc.idxLoc d) := m (Sc.idxLoc d)
abbrev o0Of (d : Dev nD) : Buf (Elt F) (Sc.outLoc d) := m (Sc.outLoc d)

/-- What the first region may leave in the pairs' buffer. -/
def R1 (d : Dev nD) (X : Buf (Elt F) (Sc.pairsLoc d)) : Prop := (rdatsA m 0 d).ArrAt 1 cfg0.N X

/-- What the call may leave in the gathered rows' buffer: row by row the gather of some contents the first region may
    have left. -/
def YR (d : Dev nD) (Y : Buf (Elt F) (Sc.outLoc d)) : Prop :=
  ∀ r : Fin 16384, ∃ X, R1 m d X ∧ ∀ j : Fin 128, Y (ix2 r j) = Sc.gathered d X (idxOf m d) (ix2 r j)

/-- What the handshakes carry. -/
abbrev PP : (K (F := F)).Pay (nD := nD) (Val := Elt F) (Name := ℕ) (U := UU) := Sc.P (R1 m) (idxOf m) (o0Of m)

theorem W2_arg0 (d : Dev nD) (X1 : (rV1).ty.Contents (Elt F)) : W2 m d X1 rArg0 = idxOf m d :=
  (Function.update_of_ne (by decide) _ _).trans (Gather.Host.V1_of m d main_arg0 (by decide))
theorem W2_v2 (d : Dev nD) (X1 : (rV1).ty.Contents (Elt F)) : W2 m d X1 rV2 = o0Of m d :=
  (Function.update_of_ne (by decide) _ _).trans (Gather.Host.V1_of m d main_v2 (by decide))

theorem hst (d : Dev nD) (X1 : (rV1).ty.Contents (Elt F)) (h : R1 m d X1) :
    iprop((((d.tc : Thread nD τ).1, rArg0) ↦{fullShare} W2 m d X1 rArg0) ∗ ((((d.tc : Thread nD τ).1, rV1)) ↦{fullShare} X1)
        ∗ ((((d.tc : Thread nD τ).1, rV2)) ↦{fullShare} W2 m d X1 rV2))
      ⊢ (bigSep Finset.univ fun c : Fin ((K (F := F)).nCore 0) => (PP m).st 0 d c : sProp 𝕄) := by
  rw [W2_arg0, W2_v2]
  iintro ⟨Ha, Hv1, Hv2⟩
  iapply (Sc.st_intro (R1 m) (idxOf m) (o0Of m) d X1)
  isplitr; · ipureintro; exact h
  isplitl [Hv1]; · iexact Hv1
  isplitl [Ha]; · iexact Ha
  iexact Hv2

theorem hdn (d : Dev nD) (X1 : (rV1).ty.Contents (Elt F)) (h : R1 m d X1) :
    (bigSep Finset.univ fun c : Fin ((K (F := F)).nCore 0) => (PP m).dn 0 d c : sProp 𝕄)
      ⊢ iprop((((d.tc : Thread nD τ).1, rArg0) ↦{fullShare} W2 m d X1 rArg0) ∗ ∃ Y, ⌜YR m d Y⌝ ∗ ((((d.tc : Thread nD τ).1, rV2)) ↦{fullShare} Y)) := by
  rw [W2_arg0]
  exact Sc.dn_elim (R1 m) (idxOf m) (o0Of m) d

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

theorem bigSep_emp' {I : Type} (s : Finset I) : (bigSep s fun _ => iprop(emp)) = (iprop(emp) : sProp 𝕄) := bigSep_emp_const s

theorem own_EP (x : UP) :
    (BI.own ((Emb.inl : Emb UP (UP × Counters)).trans (embR : Emb (UP × Counters) (𝕄F F)) x) : sProp 𝕄) = BI.own (EP x) := rfl

theorem GH_one (d : Dev nD) :
    iprop((bigSep Finset.univ fun p : Fin 2 => Pipeline.cellsGhost (Pipeline.pin (pcfgs (F := F)) adm) EP p d)
        ∗ (bigSep Finset.univ fun p : Fin 2 => (Pipeline.toksInit (Pipeline.pin (pcfgs (F := F)) adm) EP p d : sProp 𝕄)))
      ⊢ (GH (F := F) d : sProp 𝕄) := by
  rw [bigSep_W0, bigSep_W0]
  iintro ⟨⟨H0, H1⟩, ⟨K0, K1⟩⟩
  isplitl [H0 K0]
  · isplitl [H0] <;> iassumption
  · isplitl [H1] <;> iassumption

/-- The pipelines' ghost state, dealt per device. -/
theorem GH_of :
    iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => (Pipeline.toksInit (Pipeline.pin (pcfgs (F := F)) adm) EP p c : sProp 𝕄)))
      ⊢ (bigSep Finset.univ fun d : Dev nD => GH (F := F) d : sProp 𝕄) := by
  rw [← bigSep_sep']
  exact bigSep_mono fun d _ => GH_one d

theorem hu₀ : (ownU (u₀ (F := F)) : sProp 𝕄)
    ⊢ |={Set.univ}=> iprop(BI.own (EH (initOf (K (F := F)).hsCells (K (F := F)).hsToks)) ∗ (bigSep Finset.univ fun d : Dev nD => GH (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb (embR : Emb (UP × Counters) (𝕄F F)) _ _) $$ HR
  icases H with ⟨HP, -⟩
  ihave HP' := (Entails.of_eq (own_EP _)) $$ HP
  imod (Pipeline.fund_ghost (Pipeline.pin (pcfgs (F := F)) adm) EP cellOf_inj) $$ HP' with ⟨Hcg, Htk⟩
  imodintro
  isplitl [HH]; · iexact HH
  isplitl [Hcg Htk]
  · iapply GH_of; isplitl [Hcg] <;> iassumption
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## Reading the final memory -/

/-- Buffers held whole beside the state interpretation of a state are that state's memory there. -/
theorem bigSep_read {I : Type} [DecidableEq I] (s : Finset I) (ℓ : I → Loc nD τ sig) (f : (i : I) → Buf (Elt F) (ℓ i)) (s' : Phys nD τ sig (Elt F)) :
    iprop((bigSep s fun i => (ℓ i ↦{fullShare} f i : sProp 𝕄)) ∗ SI s') ⊢ (⌜∀ i ∈ s, s'.mem.mem (ℓ i) = f i⌝ : sProp 𝕄) := by
  have h : ∀ i ∈ s, iprop((bigSep s fun i => (ℓ i ↦{fullShare} f i : sProp 𝕄)) ∗ SI s') ⊢ (⌜s'.mem.mem (ℓ i) = f i⌝ : sProp 𝕄) := by
    intro i hi
    iintro ⟨H, HSI⟩
    ihave Hi := (show (bigSep s fun i => (ℓ i ↦{fullShare} f i : sProp 𝕄)) ⊢ (ℓ i ↦{fullShare} f i : sProp 𝕄) from bigSep_elim hi) $$ H
    ihave Hg := (SI_pointsTo_agree (st := s') (ℓ := ℓ i) (I := Finset.univ) (q := fullShare) (f := f i)) $$ [HSI Hi]
    · isplitl [HSI] <;> iassumption
    icases Hg with %hg
    ipureintro; exact funext fun j => hg j (Finset.mem_univ j)
  exact fun a ha i hi => h i hi a ha

/-- What the final memory of device `d` satisfies. -/
def fq (d : Dev nD) (s' : Phys nD τ sig (Elt F)) : Prop :=
  ∃ (X1 : (rV1).ty.Contents (Elt F)) (Y : (rV2).ty.Contents (Elt F)), R1 m d X1 ∧ YR m d Y
    ∧ (∀ w : Fin cfg2.W, s'.mem.mem ((d.tc : Thread nD τ).loc (Pipeline.arrRef spec2 w)) = (pdatsB (fun d' => W4 m d' X1 Y) 1 d).arrAt w cfg2.N)
    ∧ (∀ b ∈ S1 \ T2, s'.mem.mem ((d.tc : Thread nD τ).1, b) = W4 m d X1 Y b)

theorem hfin (d : Dev nD) (s' : Phys nD τ sig (Elt F)) : iprop(FIN m (R1 m) (YR m) d ∗ SI s') ⊢ (⌜fq m d s'⌝ : sProp 𝕄) := by
  unfold FIN
  iintro ⟨⟨%X1, %Y, %hRY, Harr, Hheld⟩, HSI⟩
  ihave H1 := (persistent_entails_right (bigSep_read (Finset.univ : Finset (Fin cfg2.W)) (fun w => (d.tc : Thread nD τ).loc (Pipeline.arrRef spec2 w))
      (fun w => (pdatsB (fun d' => W4 m d' X1 Y) 1 d).arrAt w cfg2.N) s')) $$ [Harr HSI]
  · isplitl [Harr] <;> iassumption
  icases H1 with ⟨%h1, -, HSI⟩
  unfold StableHlo.held
  ihave H2 := (bigSep_read (S1 \ T2) (fun b => ((d.tc : Thread nD τ).1, b)) (fun b => W4 m d X1 Y b) s') $$ [Hheld HSI]
  · isplitl [Hheld] <;> iassumption
  icases H2 with %h2
  ipureintro
  exact ⟨X1, Y, hRY.1, hRY.2, fun w => h1 w (Finset.mem_univ w), h2⟩

/-! ## The run -/

/-- What the proof asks of the launch memory: every user id names a row of the user table. -/
def PreOK : Prop := ∀ (d : Dev nD) (r : S16384.Idx), (idxOf m d r).toNat < 1000000

/-- What every final memory satisfies. -/
def QC : PUnit × MemSt nD τ sig (Elt F) → Prop := fun r => ∀ d : Dev nD,
  ∃ (X1 : (rV1).ty.Contents (Elt F)) (Y : (rV2).ty.Contents (Elt F)), R1 m d X1 ∧ YR m d Y
    ∧ (∀ w : Fin cfg2.W, r.2.mem ((d.tc : Thread nD τ).loc (Pipeline.arrRef spec2 w)) = (pdatsB (fun d' => W4 m d' X1 Y) 1 d).arrAt w cfg2.N)
    ∧ (∀ b ∈ S1 \ T2, r.2.mem ((d.tc : Thread nD τ).1, b) = W4 m d X1 Y b)

theorem run_main (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => Sc.tileObl (R1 m) (idxOf m) (o0Of m) facts hpre)
    (fun q _ => match q with | 0 => SparseCore.Cfg.VecSplit.of_plain (Sc.vecSplit (R1 m) (idxOf m) (o0Of m)))
    m ρ main (fun d => GH (F := F) d) (FIN m (R1 m) (YR m)) (u₀ (F := F)) (sep_elim_left.trans (hu₀ m))
    (hmain m ρ (PP m) (R1 m) (YR m) (fun _ _ h => h) (hst m) (hdn m)) (fq m) (hfin m) (QC m) (fun _ h => h)

end Cert.Kernel.Run

end
-- ==== Proof.KRunReads.lean ====
import proofs.«205263_g58420145160647_cont_9to1_m_909_25_alg».proof.Proof.KRunVals
import proofs.«205263_g58420145160647_cont_9to1_m_909_25_alg».proof.Proof.KGatherValue

/-! # The second region's entry contents, read at an index

The buffers at the second TensorCore region's entry are `W4`: the first region's entry contents with the pairs'
buffer and the gathered rows' buffer replaced by what the first region and the SparseCore call left, then the
thirteen host reshapes. Here: the gathered rows' buffer is what the call left (`W4_rV2`); each reshaped array
is its argument as launched, re-laid, and read at an index (`W4_main_vJ`, `W4_main_vJ_apply`); every reference
nothing writes before the region is as launched (`W4_of_not_written`). -/

set_option maxRecDepth 16384

noncomputable section

namespace Cert.Kernel.Run

open Cert.Kernel Cert.Kernel.Gen
open Idealize.ShloMosaic Idealize.ShloMosaic.TcCoe Idealize.ShloMosaic.Tactic
open Idealize.ShloMosaic.ValueIdx

variable {F : FTy → Type} [FloatOps F]

variable (m : (ℓ : Loc nD τ sig) → Buf (Elt F) ℓ)

/-! ## What the reshapes before the second region write, and what they leave -/

/-- The references the reshapes before the second region write. -/
abbrev hostOps1_W : List (Ref sig .tc) :=
  [main_v3, main_v4, main_v5, main_v6, main_v7, main_v8, main_v9, main_v10, main_v11, main_v12, main_v13, main_v14, main_v15]

theorem hostOps1_writes : (hostOps1 : List (HloOp τ sig (Elt F))).Forall fun op =>
    op.writes ⊆ (hostOps1_W.map (Proc.devRef (τ := τ) .tc)).toFinset := by
  simp only [List.Forall, StableHlo.reshape_writes, Finset.singleton_subset_iff, List.mem_toFinset]
  repeat' apply And.intro
  all_goals exact List.mem_map_of_mem (by decide)

/-- A reference no reshape writes is after the reshapes as before them. -/
theorem W4_of (c : Dev nD) (X1 : (rV1).ty.Contents (Elt F)) (Y : (rV2).ty.Contents (Elt F)) (r : Ref sig .tc) (h : r ∉ hostOps1_W) :
    W4 m c X1 Y (Proc.devRef .tc r) = W3 m c X1 Y (Proc.devRef .tc r) :=
  StableHlo.after_of_writes_sub hostOps1 _ hostOps1_writes h

/-- The gathered rows' buffer at the second region's entry is what the SparseCore call left. -/
theorem W4_rV2 (c : Dev nD) (X1 : (rV1).ty.Contents (Elt F)) (Y : (rV2).ty.Contents (Elt F)) : W4 m c X1 Y rV2 = Y :=
  (W4_of m c X1 Y main_v2 (by decide)).trans (Function.update_self _ _ _)

/-- A reference that is neither the pairs' buffer nor the gathered rows' is after the call as at the first region's entry. -/
theorem W3_of (c : Dev nD) (X1 : (rV1).ty.Contents (Elt F)) (Y : (rV2).ty.Contents (Elt F)) (b : Ref sig .tc)
    (h1 : b ≠ main_v1) (h2 : b ≠ main_v2) : W3 m c X1 Y (Proc.devRef .tc b) = W1 m c (Proc.devRef .tc b) := by
  show Function.update (Function.update (W1 m c) rV1 X1) rV2 Y (Proc.devRef .tc b) = _
  rw [Function.update_of_ne (StableHlo.devRef_ne_of_ne h2), Function.update_of_ne (StableHlo.devRef_ne_of_ne h1)]

/-- Every reference written before the second region: the host transpose's, the first region's, the call's, the reshapes'. -/
abbrev written4 : List (Ref sig .tc) := main_v0 :: main_v1 :: main_v2 :: hostOps1_W

/-- A reference nothing before the second region writes — every argument of the program — is at its entry as launched. -/
theorem W4_of_not_written (c : Dev nD) (X1 : (rV1).ty.Contents (Elt F)) (Y : (rV2).ty.Contents (Elt F)) (b : Ref sig .tc)
    (h : b ∉ written4) : W4 m c X1 Y (Proc.devRef .tc b) = m ((c : Thread nD τ).loc b) := by
  have hne : ∀ x ∈ written4, b ≠ x := fun x hx e => h (e ▸ hx)
  rw [W4_of m c X1 Y b (fun hb => h (List.mem_cons_of_mem _ (List.mem_cons_of_mem _ (List.mem_cons_of_mem _ hb)))),
    W3_of m c X1 Y b (hne _ (by decide)) (hne _ (by decide))]
  exact Gather.Host.V1_of m c b (fun hb => h (List.mem_cons.mpr (Or.inl (List.mem_singleton.mp hb))))

/-! ## The reshapes read at an index -/

/-- A list of 16384 re-laid as 8 × 1 × 2048 reads, at `(t, 0, p)`, the list at `2048 t + p`. -/
theorem shapeCast_8x1x2048_apply {α : Type} (x : S16384.Idx → α) (t : Fin 8) (u : Fin 1) (p : Fin 2048) (h : t.val * 2048 + p.val < 16384) :
    shapeCast S8x1x2048 x shapeCasts_S16384_S8x1x2048 (ix3 t u p) = x (ix1 (⟨t.val * 2048 + p.val, h⟩ : Fin 16384)) :=
  shapeCast_apply x _ _ _ (by
    rw [Shape.rowMajor_val_one, Shape.rowMajor_val_three]
    show t.val * 2048 + p.val = (t.val * 1 + u.val) * 2048 + p.val
    have := u.isLt
    omega)

theorem idx_lt (t : Fin 8) (p : Fin 2048) : t.val * 2048 + p.val < 16384 := by omega

/-- A vector of 128 re-laid as 1 × 128 reads, at `(0, k)`, the vector at `k`. -/
theorem shapeCast_1x128_apply {α : Type} (x : S128.Idx → α) (u : Fin 1) (k : Fin 128) :
    shapeCast S1x128 x shapeCasts_S128_S1x128 (ix2 u k) = x (ix1 k) :=
  shapeCast_apply x _ _ _ (by
    rw [Shape.rowMajor_val_one, Shape.rowMajor_val_two]
    show k.val = u.val * 128 + k.val
    have := u.isLt
    omega)

/-- A single word re-laid as 1 × 1. -/
theorem shapeCast_1x1_apply {α : Type} (x : Cert.Kernel.S1.Idx → α) (u v : Fin 1) :
    shapeCast S1x1 x shapeCasts_S1_S1x1 (ix2 u v) = x (ix1 0) :=
  shapeCast_apply x _ _ _ (by
    rw [Shape.rowMajor_val_one, Shape.rowMajor_val_two]
    show (0 : Fin 1).val = u.val * 1 + v.val
    have := u.isLt
    have := v.isLt
    show 0 = _
    omega)

/-- `main_v3` at the second region's entry is `main_arg0` as launched, re-laid as 8 × 1 × 2048. -/
theorem W4_main_v3 (c : Dev nD) (X1 : (rV1).ty.Contents (Elt F)) (Y : (rV2).ty.Contents (Elt F)) :
    (W4 m c X1 Y (Proc.devRef .tc main_v3) : S8x1x2048.Idx → Elt F .i32)
      = shapeCast S8x1x2048 (m ((c : Thread nD τ).loc main_arg0)) shapeCasts_S16384_S8x1x2048 := by
  have e : W3 m c X1 Y (Proc.devRef .tc main_arg0) = m ((c : Thread nD τ).loc main_arg0) :=
    (W3_of m c X1 Y main_arg0 (by decide) (by decide)).trans (Gather.Host.V1_of m c main_arg0 (by decide))
  dsimp only [W4, hostOps1]; after_results
  rw [e]
  rfl
theorem W4_main_v3_apply (c : Dev nD) (X1 : (rV1).ty.Contents (Elt F)) (Y : (rV2).ty.Contents (Elt F)) (t : Fin 8) (p : Fin 2048) :
    (W4 m c X1 Y (Proc.devRef .tc main_v3) : S8x1x2048.Idx → Elt F .i32) (ix3 t 0 p)
      = m ((c : Thread nD τ).loc main_arg0) (ix1 (⟨t.val * 2048 + p.val, idx_lt t p⟩ : Fin 16384)) := by
  rw [W4_main_v3]; exact shapeCast_8x1x2048_apply _ t 0 p _

/-- `main_v4` at the second region's entry is `main_arg1` as launched, re-laid as 8 × 1 × 2048. -/
theorem W4_main_v4 (c : Dev nD) (X1 : (rV1).ty.Contents (Elt F)) (Y : (rV2).ty.Contents (Elt F)) :
    (W4 m c X1 Y (Proc.devRef .tc main_v4) : S8x1x2048.Idx → Elt F .i32)
      = shapeCast S8x1x2048 (m ((c : Thread nD τ).loc main_arg1)) shapeCasts_S16384_S8x1x2048 := by
  have e : W3 m c X1 Y (Proc.devRef .tc main_arg1) = m ((c : Thread nD τ).loc main_arg1) :=
    (W3_of m c X1 Y main_arg1 (by decide) (by decide)).trans (Gather.Host.V1_of m c main_arg1 (by decide))
  dsimp only [W4, hostOps1]; after_results
  rw [e]
  rfl
theorem W4_main_v4_apply (c : Dev nD) (X1 : (rV1).ty.Contents (Elt F)) (Y : (rV2).ty.Contents (Elt F)) (t : Fin 8) (p : Fin 2048) :
    (W4 m c X1 Y (Proc.devRef .tc main_v4) : S8x1x2048.Idx → Elt F .i32) (ix3 t 0 p)
      = m ((c : Thread nD τ).loc main_arg1) (ix1 (⟨t.val * 2048 + p.val, idx_lt t p⟩ : Fin 16384)) := by
  rw [W4_main_v4]; exact shapeCast_8x1x2048_apply _ t 0 p _

/-- `main_v5` at the second region's entry is `main_arg2` as launched, re-laid as 8 × 1 × 2048. -/
theorem W4_main_v5 (c : Dev nD) (X1 : (rV1).ty.Contents (Elt F)) (Y : (rV2).ty.Contents (Elt F)) :
    (W4 m c X1 Y (Proc.devRef .tc main_v5) : S8x1x2048.Idx → Elt F .i32)
      = shapeCast S8x1x2048 (m ((c : Thread nD τ).loc main_arg2)) shapeCasts_S16384_S8x1x2048 := by
  have e : W3 m c X1 Y (Proc.devRef .tc main_arg2) = m ((c : Thread nD τ).loc main_arg2) :=
    (W3_of m c X1 Y main_arg2 (by decide) (by decide)).trans (Gather.Host.V1_of m c main_arg2 (by decide))
  dsimp only [W4, hostOps1]; after_results
  rw [e]
  rfl
theorem W4_main_v5_apply (c : Dev nD) (X1 : (rV1).ty.Contents (Elt F)) (Y : (rV2).ty.Contents (Elt F)) (t : Fin 8) (p : Fin 2048) :
    (W4 m c X1 Y (Proc.devRef .tc main_v5) : S8x1x2048.Idx → Elt F .i32) (ix3 t 0 p)
      = m ((c : Thread nD τ).loc main_arg2) (ix1 (⟨t.val * 2048 + p.val, idx_lt t p⟩ : Fin 16384)) := by
  rw [W4_main_v5]; exact shapeCast_8x1x2048_apply _ t 0 p _

/-- `main_v6` at the second region's entry is `main_arg3` as launched, re-laid as 8 × 1 × 2048. -/
theorem W4_main_v6 (c : Dev nD) (X1 : (rV1).ty.Contents (Elt F)) (Y : (rV2).ty.Contents (Elt F)) :
    (W4 m c X1 Y (Proc.devRef .tc main_v6) : S8x1x2048.Idx → Elt F .i32)
      = shapeCast S8x1x2048 (m ((c : Thread nD τ).loc main_arg3)) shapeCasts_S16384_S8x1x2048 := by
  have e : W3 m c X1 Y (Proc.devRef .tc main_arg3) = m ((c : Thread nD τ).loc main_arg3) :=
    (W3_of m c X1 Y main_arg3 (by decide) (by decide)).trans (Gather.Host.V1_of m c main_arg3 (by decide))
  dsimp only [W4, hostOps1]; after_results
  rw [e]
  rfl
theorem W4_main_v6_apply (c : Dev nD) (X1 : (rV1).ty.Contents (Elt F)) (Y : (rV2).ty.Contents (Elt F)) (t : Fin 8) (p : Fin 2048) :
    (W4 m c X1 Y (Proc.devRef .tc main_v6) : S8x1x2048.Idx → Elt F .i32) (ix3 t 0 p)
      = m ((c : Thread nD τ).loc main_arg3) (ix1 (⟨t.val * 2048 + p.val, idx_lt t p⟩ : Fin 16384)) := by
  rw [W4_main_v6]; exact shapeCast_8x1x2048_apply _ t 0 p _

/-- `main_v7` at the second region's entry is `main_arg4` as launched, re-laid as 8 × 1 × 2048. -/
theorem W4_main_v7 (c : Dev nD) (X1 : (rV1).ty.Contents (Elt F)) (Y : (rV2).ty.Contents (Elt F)) :
    (W4 m c X1 Y (Proc.devRef .tc main_v7) : S8x1x2048.Idx → Elt F .i32)
      = shapeCast S8x1x2048 (m ((c : Thread nD τ).loc main_arg4)) shapeCasts_S16384_S8x1x2048 := by
  have e : W3 m c X1 Y (Proc.devRef .tc main_arg4) = m ((c : Thread nD τ).loc main_arg4) :=
    (W3_of m c X1 Y main_arg4 (by decide) (by decide)).trans (Gather.Host.V1_of m c main_arg4 (by decide))
  dsimp only [W4, hostOps1]; after_results
  rw [e]
  rfl
theorem W4_main_v7_apply (c : Dev nD) (X1 : (rV1).ty.Contents (Elt F)) (Y : (rV2).ty.Contents (Elt F)) (t : Fin 8) (p : Fin 2048) :
    (W4 m c X1 Y (Proc.devRef .tc main_v7) : S8x1x2048.Idx → Elt F .i32) (ix3 t 0 p)
      = m ((c : Thread nD τ).loc main_arg4) (ix1 (⟨t.val * 2048 + p.val, idx_lt t p⟩ : Fin 16384)) := by
  rw [W4_main_v7]; exact shapeCast_8x1x2048_apply _ t 0 p _

/-- `main_v8` at the second region's entry is `main_arg5` as launched, re-laid as 8 × 1 × 2048. -/
theorem W4_main_v8 (c : Dev nD) (X1 : (rV1).ty.Contents (Elt F)) (Y : (rV2).ty.Contents (Elt F)) :
    (W4 m c X1 Y (Proc.devRef .tc main_v8) : S8x1x2048.Idx → Elt F .i32)
      = shapeCast S8x1x2048 (m ((c : Thread nD τ).loc main_arg5)) shapeCasts_S16384_S8x1x2048 := by
  have e : W3 m c X1 Y (Proc.devRef .tc main_arg5) = m ((c : Thread nD τ).loc main_arg5) :=
    (W3_of m c X1 Y main_arg5 (by decide) (by decide)).trans (Gather.Host.V1_of m c main_arg5 (by decide))
  dsimp only [W4, hostOps1]; after_results
  rw [e]
  rfl
theorem W4_main_v8_apply (c : Dev nD) (X1 : (rV1).ty.Contents (Elt F)) (Y : (rV2).ty.Contents (Elt F)) (t : Fin 8) (p : Fin 2048) :
    (W4 m c X1 Y (Proc.devRef .tc main_v8) : S8x1x2048.Idx → Elt F .i32) (ix3 t 0 p)
      = m ((c : Thread nD τ).loc main_arg5) (ix1 (⟨t.val * 2048 + p.val, idx_lt t p⟩ : Fin 16384)) := by
  rw [W4_main_v8]; exact shapeCast_8x1x2048_apply _ t 0 p _

/-- `main_v9` at the second region's entry is `main_arg6` as launched, re-laid as 8 × 1 × 2048. -/
theorem W4_main_v9 (c : Dev nD) (X1 : (rV1).ty.Contents (Elt F)) (Y : (rV2).ty.Contents (Elt F)) :
    (W4 m c X1 Y (Proc.devRef .tc main_v9) : S8x1x2048.Idx → Elt F .i32)
      = shapeCast S8x1x2048 (m ((c : Thread nD τ).loc main_arg6)) shapeCasts_S16384_S8x1x2048 := by
  have e : W3 m c X1 Y (Proc.devRef .tc main_arg6) = m ((c : Thread nD τ).loc main_arg6) :=
    (W3_of m c X1 Y main_arg6 (by decide) (by decide)).trans (Gather.Host.V1_of m c main_arg6 (by decide))
  dsimp only [W4, hostOps1]; after_results
  rw [e]
  rfl
theorem W4_main_v9_apply (c : Dev nD) (X1 : (rV1).ty.Contents (Elt F)) (Y : (rV2).ty.Contents (Elt F)) (t : Fin 8) (p : Fin 2048) :
    (W4 m c X1 Y (Proc.devRef .tc main_v9) : S8x1x2048.Idx → Elt F .i32) (ix3 t 0 p)
      = m ((c : Thread nD τ).loc main_arg6) (ix1 (⟨t.val * 2048 + p.val, idx_lt t p⟩ : Fin 16384)) := by
  rw [W4_main_v9]; exact shapeCast_8x1x2048_apply _ t 0 p _

/-- `main_v10` at the second region's entry is `main_arg7` as launched, re-laid as 8 × 1 × 2048. -/
theorem W4_main_v10 (c : Dev nD) (X1 : (rV1).ty.Contents (Elt F)) (Y : (rV2).ty.Contents (Elt F)) :
    (W4 m c X1 Y (Proc.devRef .tc main_v10) : S8x1x2048.Idx → Elt F .i32)
      = shapeCast S8x1x2048 (m ((c : Thread nD τ).loc main_arg7)) shapeCasts_S16384_S8x1x2048 := by
  have e : W3 m c X1 Y (Proc.devRef .tc main_arg7) = m ((c : Thread nD τ).loc main_arg7) :=
    (W3_of m c X1 Y main_arg7 (by decide) (by decide)).trans (Gather.Host.V1_of m c main_arg7 (by decide))
  dsimp only [W4, hostOps1]; after_results
  rw [e]
  rfl
theorem W4_main_v10_apply (c : Dev nD) (X1 : (rV1).ty.Contents (Elt F)) (Y : (rV2).ty.Contents (Elt F)) (t : Fin 8) (p : Fin 2048) :
    (W4 m c X1 Y (Proc.devRef .tc main_v10) : S8x1x2048.Idx → Elt F .i32) (ix3 t 0 p)
      = m ((c : Thread nD τ).loc main_arg7) (ix1 (⟨t.val * 2048 + p.val, idx_lt t p⟩ : Fin 16384)) := by
  rw [W4_main_v10]; exact shapeCast_8x1x2048_apply _ t 0 p _

/-- `main_v11` at the second region's entry is `main_arg8` as launched, re-laid as 8 × 1 × 2048. -/
theorem W4_main_v11 (c : Dev nD) (X1 : (rV1).ty.Contents (Elt F)) (Y : (rV2).ty.Contents (Elt F)) :
    (W4 m c X1 Y (Proc.devRef .tc main_v11) : S8x1x2048.Idx → Elt F .i32)
      = shapeCast S8x1x2048 (m ((c : Thread nD τ).loc main_arg8)) shapeCasts_S16384_S8x1x2048 := by
  have e : W3 m c X1 Y (Proc.devRef .tc main_arg8) = m ((c : Thread nD τ).loc main_arg8) :=
    (W3_of m c X1 Y main_arg8 (by decide) (by decide)).trans (Gather.Host.V1_of m c main_arg8 (by decide))
  dsimp only [W4, hostOps1]; after_results
  rw [e]
  rfl
theorem W4_main_v11_apply (c : Dev nD) (X1 : (rV1).ty.Contents (Elt F)) (Y : (rV2).ty.Contents (Elt F)) (t : Fin 8) (p : Fin 2048) :
    (W4 m c X1 Y (Proc.devRef .tc main_v11) : S8x1x2048.Idx → Elt F .i32) (ix3 t 0 p)
      = m ((c : Thread nD τ).loc main_arg8) (ix1 (⟨t.val * 2048 + p.val, idx_lt t p⟩ : Fin 16384)) := by
  rw [W4_main_v11]; exact shapeCast_8x1x2048_apply _ t 0 p _

/-- `main_v12` at the second region's entry is `main_arg19` as launched, re-laid as 1 × 1. -/
theorem W4_main_v12 (c : Dev nD) (X1 : (rV1).ty.Contents (Elt F)) (Y : (rV2).ty.Contents (Elt F)) :
    (W4 m c X1 Y (Proc.devRef .tc main_v12) : S1x1.Idx → Elt F .f32)
      = shapeCast S1x1 (m ((c : Thread nD τ).loc main_arg19)) shapeCasts_S1_S1x1 := by
  have e : W3 m c X1 Y (Proc.devRef .tc main_arg19) = m ((c : Thread nD τ).loc main_arg19) :=
    (W3_of m c X1 Y main_arg19 (by decide) (by decide)).trans (Gather.Host.V1_of m c main_arg19 (by decide))
  dsimp only [W4, hostOps1]; after_results
  rw [e]
  rfl
theorem W4_main_v12_apply (c : Dev nD) (X1 : (rV1).ty.Contents (Elt F)) (Y : (rV2).ty.Contents (Elt F)) :
    (W4 m c X1 Y (Proc.devRef .tc main_v12) : S1x1.Idx → Elt F .f32) (ix2 0 0) = m ((c : Thread nD τ).loc main_arg19) (ix1 0) := by
  rw [W4_main_v12]; exact shapeCast_1x1_apply _ 0 0

/-- `main_v13` at the second region's entry is `main_arg22` as launched, re-laid as 1 × 128. -/
theorem W4_main_v13 (c : Dev nD) (X1 : (rV1).ty.Contents (Elt F)) (Y : (rV2).ty.Contents (Elt F)) :
    (W4 m c X1 Y (Proc.devRef .tc main_v13) : S1x128.Idx → Elt F .f32)
      = shapeCast S1x128 (m ((c : Thread nD τ).loc main_arg22)) shapeCasts_S128_S1x128 := by
  have e : W3 m c X1 Y (Proc.devRef .tc main_arg22) = m ((c : Thread nD τ).loc main_arg22) :=
    (W3_of m c X1 Y main_arg22 (by decide) (by decide)).trans (Gather.Host.V1_of m c main_arg22 (by decide))
  dsimp only [W4, hostOps1]; after_results
  rw [e]
  rfl
theorem W4_main_v13_apply (c : Dev nD) (X1 : (rV1).ty.Contents (Elt F)) (Y : (rV2).ty.Contents (Elt F)) (k : Fin 128) :
    (W4 m c X1 Y (Proc.devRef .tc main_v13) : S1x128.Idx → Elt F .f32) (ix2 0 k) = m ((c : Thread nD τ).loc main_arg22) (ix1 k) := by
  rw [W4_main_v13]; exact shapeCast_1x128_apply _ 0 k

/-- `main_v14` at the second region's entry is `main_arg24` as launched, re-laid as 1 × 128. -/
theorem W4_main_v14 (c : Dev nD) (X1 : (rV1).ty.Contents (Elt F)) (Y : (rV2).ty.Contents (Elt F)) :
    (W4 m c X1 Y (Proc.devRef .tc main_v14) : S1x128.Idx → Elt F .f32)
      = shapeCast S1x128 (m ((c : Thread nD τ).loc main_arg24)) shapeCasts_S128_S1x128 := by
  have e : W3 m c X1 Y (Proc.devRef .tc main_arg24) = m ((c : Thread nD τ).loc main_arg24) :=
    (W3_of m c X1 Y main_arg24 (by decide) (by decide)).trans (Gather.Host.V1_of m c main_arg24 (by decide))
  dsimp only [W4, hostOps1]; after_results
  rw [e]
  rfl
theorem W4_main_v14_apply (c : Dev nD) (X1 : (rV1).ty.Contents (Elt F)) (Y : (rV2).ty.Contents (Elt F)) (k : Fin 128) :
    (W4 m c X1 Y (Proc.devRef .tc main_v14) : S1x128.Idx → Elt F .f32) (ix2 0 k) = m ((c : Thread nD τ).loc main_arg24) (ix1 k) := by
  rw [W4_main_v14]; exact shapeCast_1x128_apply _ 0 k

/-- `main_v15` at the second region's entry is `main_arg26` as launched, re-laid as 1 × 128. -/
theorem W4_main_v15 (c : Dev nD) (X1 : (rV1).ty.Contents (Elt F)) (Y : (rV2).ty.Contents (Elt F)) :
    (W4 m c X1 Y (Proc.devRef .tc main_v15) : S1x128.Idx → Elt F .f32)
      = shapeCast S1x128 (m ((c : Thread nD τ).loc main_arg26)) shapeCasts_S128_S1x128 := by
  have e : W3 m c X1 Y (Proc.devRef .tc main_arg26) = m ((c : Thread nD τ).loc main_arg26) :=
    (W3_of m c X1 Y main_arg26 (by decide) (by decide)).trans (Gather.Host.V1_of m c main_arg26 (by decide))
  dsimp only [W4, hostOps1]; after_results
  rw [e]
  rfl
theorem W4_main_v15_apply (c : Dev nD) (X1 : (rV1).ty.Contents (Elt F)) (Y : (rV2).ty.Contents (Elt F)) (k : Fin 128) :
    (W4 m c X1 Y (Proc.devRef .tc main_v15) : S1x128.Idx → Elt F .f32) (ix2 0 k) = m ((c : Thread nD τ).loc main_arg26) (ix1 k) := by
  rw [W4_main_v15]; exact shapeCast_1x128_apply _ 0 k

end Cert.Kernel.Run

end
-- ==== Proof.KKiArgs.lean ====
/- The kernel's argument arrays after its run: each is as launched — an array the second region stages is an input
   window's (never written back), and at the region's entry still the launch contents; any other is held untouched
   from the region's entry on. -/
import proofs.«205263_g58420145160647_cont_9to1_m_909_25_alg».proof.Proof.KRunReads
import proofs.«205263_g58420145160647_cont_9to1_m_909_25_alg».proof.Proof.KRunReg1
import proofs.«205263_g58420145160647_cont_9to1_m_909_25_alg».proof.Proof.KTc2Dat

noncomputable section

namespace Cert.Kernel.Run

open Cert.Kernel Cert.Kernel.Gen
open Idealize.ShloMosaic Idealize.ShloMosaic.TcCoe
open Idealize.ShloMosaic.Pipeline (Dat RDat)

variable {F : FTy → Type} [FloatOps F] [∀ e, Nonempty (Elt F e)]

variable (m : (ℓ : Loc nD τ sig) → Buf (Elt F) ℓ)

/-- An input window's array of the second region, at the run's end, is the launch memory's. -/
theorem arg_of_window (mem : (ℓ : Loc nD τ sig) → Buf (Elt F) ℓ) (d : Dev nD) (X1 : (rV1).ty.Contents (Elt F))
    (Y : (rV2).ty.Contents (Elt F)) (w : Fin cfg2.W) (hin : (cfg2.win w).isOut = false)
    (hnw : Pipeline.arrRef spec2 w ∉ written4)
    (h3 : mem ((d.tc : Thread nD τ).loc (Pipeline.arrRef spec2 w)) = (pdatsB (fun d' => W4 m d' X1 Y) 1 d).arrAt w cfg2.N) :
    mem ((d.tc : Thread nD τ).loc (Pipeline.arrRef spec2 w)) = m ((d.tc : Thread nD τ).loc (Pipeline.arrRef spec2 w)) :=
  h3.trans (((pdatsB (fun d' => W4 m d' X1 Y) 1 d).arrAt_in w hin _).trans
    ((Tc2.A_eq2 _ _ _ _ d w).trans (W4_of_not_written m d X1 Y (Pipeline.arrRef spec2 w) hnw)))

/-- An array the second region does not stage, at the run's end, is the launch memory's. -/
theorem arg_of_rest (mem : (ℓ : Loc nD τ sig) → Buf (Elt F) ℓ) (d : Dev nD) (X1 : (rV1).ty.Contents (Elt F))
    (Y : (rV2).ty.Contents (Elt F)) (b : Ref sig .tc) (hb : Proc.devRef (τ := τ) .tc b ∈ S1 \ T2) (hnw : b ∉ written4)
    (h4 : ∀ b ∈ S1 \ T2, mem ((d.tc : Thread nD τ).1, b) = W4 m d X1 Y b) :
    mem ((d.tc : Thread nD τ).loc b) = m ((d.tc : Thread nD τ).loc b) :=
  (h4 _ hb).trans (W4_of_not_written m d X1 Y b hnw)

set_option maxRecDepth 16384 in
/-- All 28 arguments, in order. -/
theorem args_unchanged (mem : (ℓ : Loc nD τ sig) → Buf (Elt F) ℓ) (d : Dev nD) (X1 : (rV1).ty.Contents (Elt F))
    (Y : (rV2).ty.Contents (Elt F))
    (h3 : ∀ w : Fin cfg2.W, mem ((d.tc : Thread nD τ).loc (Pipeline.arrRef spec2 w)) = (pdatsB (fun d' => W4 m d' X1 Y) 1 d).arrAt w cfg2.N)
    (h4 : ∀ b ∈ S1 \ T2, mem ((d.tc : Thread nD τ).1, b) = W4 m d X1 Y b) :
    mem ((d.tc : Thread nD τ).loc main_arg0) = m ((d.tc : Thread nD τ).loc main_arg0)
    ∧ mem ((d.tc : Thread nD τ).loc main_arg1) = m ((d.tc : Thread nD τ).loc main_arg1)
    ∧ mem ((d.tc : Thread nD τ).loc main_arg2) = m ((d.tc : Thread nD τ).loc main_arg2)
    ∧ mem ((d.tc : Thread nD τ).loc main_arg3) = m ((d.tc : Thread nD τ).loc main_arg3)
    ∧ mem ((d.tc : Thread nD τ).loc main_arg4) = m ((d.tc : Thread nD τ).loc main_arg4)
    ∧ mem ((d.tc : Thread nD τ).loc main_arg5) = m ((d.tc : Thread nD τ).loc main_arg5)
    ∧ mem ((d.tc : Thread nD τ).loc main_arg6) = m ((d.tc : Thread nD τ).loc main_arg6)
    ∧ mem ((d.tc : Thread nD τ).loc main_arg7) = m ((d.tc : Thread nD τ).loc main_arg7)
    ∧ mem ((d.tc : Thread nD τ).loc main_arg8) = m ((d.tc : Thread nD τ).loc main_arg8)
    ∧ mem ((d.tc : Thread nD τ).loc main_arg9) = m ((d.tc : Thread nD τ).loc main_arg9)
    ∧ mem ((d.tc : Thread nD τ).loc main_arg10) = m ((d.tc : Thread nD τ).loc main_arg10)
    ∧ mem ((d.tc : Thread nD τ).loc main_arg11) = m ((d.tc : Thread nD τ).loc main_arg11)
    ∧ mem ((d.tc : Thread nD τ).loc main_arg12) = m ((d.tc : Thread nD τ).loc main_arg12)
    ∧ mem ((d.tc : Thread nD τ).loc main_arg13) = m ((d.tc : Thread nD τ).loc main_arg13)
    ∧ mem ((d.tc : Thread nD τ).loc main_arg14) = m ((d.tc : Thread nD τ).loc main_arg14)
    ∧ mem ((d.tc : Thread nD τ).loc main_arg15) = m ((d.tc : Thread nD τ).loc main_arg15)
    ∧ mem ((d.tc : Thread nD τ).loc main_arg16) = m ((d.tc : Thread nD τ).loc main_arg16)
    ∧ mem ((d.tc : Thread nD τ).loc main_arg17) = m ((d.tc : Thread nD τ).loc main_arg17)
    ∧ mem ((d.tc : Thread nD τ).loc main_arg18) = m ((d.tc : Thread nD τ).loc main_arg18)
    ∧ mem ((d.tc : Thread nD τ).loc main_arg19) = m ((d.tc : Thread nD τ).loc main_arg19)
    ∧ mem ((d.tc : Thread nD τ).loc main_arg20) = m ((d.tc : Thread nD τ).loc main_arg20)
    ∧ mem ((d.tc : Thread nD τ).loc main_arg21) = m ((d.tc : Thread nD τ).loc main_arg21)
    ∧ mem ((d.tc : Thread nD τ).loc main_arg22) = m ((d.tc : Thread nD τ).loc main_arg22)
    ∧ mem ((d.tc : Thread nD τ).loc main_arg23) = m ((d.tc : Thread nD τ).loc main_arg23)
    ∧ mem ((d.tc : Thread nD τ).loc main_arg24) = m ((d.tc : Thread nD τ).loc main_arg24)
    ∧ mem ((d.tc : Thread nD τ).loc main_arg25) = m ((d.tc : Thread nD τ).loc main_arg25)
    ∧ mem ((d.tc : Thread nD τ).loc main_arg26) = m ((d.tc : Thread nD τ).loc main_arg26)
    ∧ mem ((d.tc : Thread nD τ).loc main_arg27) = m ((d.tc : Thread nD τ).loc main_arg27) :=
  ⟨arg_of_rest m mem d X1 Y main_arg0 (by decide) (by decide) h4,
   arg_of_rest m mem d X1 Y main_arg1 (by decide) (by decide) h4,
   arg_of_rest m mem d X1 Y main_arg2 (by decide) (by decide) h4,
   arg_of_rest m mem d X1 Y main_arg3 (by decide) (by decide) h4,
   arg_of_rest m mem d X1 Y main_arg4 (by decide) (by decide) h4,
   arg_of_rest m mem d X1 Y main_arg5 (by decide) (by decide) h4,
   arg_of_rest m mem d X1 Y main_arg6 (by decide) (by decide) h4,
   arg_of_rest m mem d X1 Y main_arg7 (by decide) (by decide) h4,
   arg_of_rest m mem d X1 Y main_arg8 (by decide) (by decide) h4,
   arg_of_rest m mem d X1 Y main_arg9 (by decide) (by decide) h4,
   arg_of_window m mem d X1 Y 10 rfl (by decide) (h3 10),
   arg_of_window m mem d X1 Y 11 rfl (by decide) (h3 11),
   arg_of_window m mem d X1 Y 12 rfl (by decide) (h3 12),
   arg_of_window m mem d X1 Y 13 rfl (by decide) (h3 13),
   arg_of_window m mem d X1 Y 14 rfl (by decide) (h3 14),
   arg_of_window m mem d X1 Y 15 rfl (by decide) (h3 15),
   arg_of_window m mem d X1 Y 16 rfl (by decide) (h3 16),
   arg_of_window m mem d X1 Y 17 rfl (by decide) (h3 17),
   arg_of_window m mem d X1 Y 18 rfl (by decide) (h3 18),
   arg_of_rest m mem d X1 Y main_arg19 (by decide) (by decide) h4,
   arg_of_window m mem d X1 Y 20 rfl (by decide) (h3 20),
   arg_of_window m mem d X1 Y 21 rfl (by decide) (h3 21),
   arg_of_rest m mem d X1 Y main_arg22 (by decide) (by decide) h4,
   arg_of_window m mem d X1 Y 23 rfl (by decide) (h3 23),
   arg_of_rest m mem d X1 Y main_arg24 (by decide) (by decide) h4,
   arg_of_window m mem d X1 Y 25 rfl (by decide) (h3 25),
   arg_of_rest m mem d X1 Y main_arg26 (by decide) (by decide) h4,
   arg_of_window m mem d X1 Y 27 rfl (by decide) (h3 27)⟩

end Cert.Kernel.Run

end
-- ==== Proof.Tc2Math.lean ====
import Idealize.ShloMosaic.PureOps
import Idealize.ShloMosaic.PureOps.Ideal.Laws
import Idealize.ShloMosaic.Lib.ValueIdx
import Idealize.ShloMosaic.Lib.Pipeline.Value

/-! # A matrix product and a one-hot lookup read at an index, at the ideal values -/

noncomputable section

open scoped BigOperators

namespace Cert.Tc2Math

open Idealize.ShloMosaic Idealize.ShloMosaic.ValueIdx

/-- The f32 word of one is the extended real one. -/
theorem ofBits_one_f32 : Ideal.ofBits .f32 0x3F800000#32 = 1 := by
  simp [Ideal.ofBits, Ideal.ieee]
  rw [← EReal.coe_mul]; norm_num

/-- A plain M×K by K×N product into the zero splat, at (p, j): the sum over the contraction coordinate. -/
theorem matmul_plain_zero_apply (M K N : ℕ) (prec : Option ContractPrecision)
    (A : FVec Ideal ⟨2, ![M, K]⟩ .f32) (B : FVec Ideal ⟨2, ![K, N]⟩ .f32) (p : Fin M) (j : Fin N) :
    matmul (DotDims.plain M K N) prec A B (constant ⟨2, ![M, N]⟩ .f32 0x00000000#32) (ix2 p j)
      = ∑ k : Fin K, A (ix2 p k) * B (ix2 k j) := by
  show FloatOps.matmul _ _ _ _ _ _ = _
  rw [Ideal.matmul_constant_zero_apply]
  rw [← Equiv.sum_comp (contrEquiv1 (DotDims.plain M K N) K rfl rfl).symm]
  refine Finset.sum_congr rfl fun k _ => ?_
  have hk := contrEquiv1_symm_val (DotDims.plain M K N) K rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

/-- A word compared for equality gives the bit one exactly when the words are equal. -/
theorem cmpi_eq_one_iff {w : ℕ} (a b : BitVec w) : IntOp.cmpi .eq a b = 1 ↔ a = b := by
  show BitVec.ofBool (a == b) = 1 ↔ a = b
  by_cases h : a = b
  · subst h; simp
  · have hb : (a == b) = false := beq_eq_false_iff_ne.mpr h
    rw [hb]
    constructor
    · intro h'; exact absurd h' (by decide)
    · intro h'; exact absurd h' h

/-- A select of one or zero on "the words are equal" is the indicator of that equality. -/
theorem select_cmpi_eq {w : ℕ} (a b : BitVec w) (one zero : EReal) :
    Scalar.select (IntOp.cmpi .eq a b) one zero = if a = b then one else zero := by
  unfold Scalar.select
  by_cases h : a = b
  · rw [if_pos h, if_pos ((cmpi_eq_one_iff a b).mpr h)]
  · rw [if_neg h, if_neg (fun h' => h ((cmpi_eq_one_iff a b).mp h'))]

/-- A sum against the indicator of one position is the term at that position. -/
theorem sum_indicator_mul {n : ℕ} (k₀ : Fin n) (P : Fin n → Prop) [DecidablePred P] (hP : ∀ k, P k ↔ k = k₀) (f : Fin n → EReal) :
    ∑ k : Fin n, (if P k then (1 : EReal) else 0) * f k = f k₀ := by
  rw [Finset.sum_eq_single k₀]
  · rw [if_pos ((hP k₀).mpr rfl), one_mul]
  · intro k _ hk; rw [if_neg (fun h => hk ((hP k).mp h)), zero_mul]
  · intro h; exact absurd (Finset.mem_univ _) h

/-! ## A dense layer with a rectifier, and the factorization-machine cross term, on a block of 2048 rows -/

/-- One dense layer with a rectifier: `max (X·W + b) 0`, the bias row laid along every row. -/
def layerV (K N : ℕ) (X : FVec Ideal ⟨2, ![2048, K]⟩ .f32) (W : FVec Ideal ⟨2, ![K, N]⟩ .f32) (b : FVec Ideal ⟨2, ![1, N]⟩ .f32)
    (hsc : (⟨2, ![1, N]⟩ : Shape).ShapeCasts ⟨2, ![1, N]⟩) (hbc : (⟨2, ![1, N]⟩ : Shape).Broadcasts ⟨2, ![2048, N]⟩) :
    FVec Ideal ⟨2, ![2048, N]⟩ .f32 :=
  maximumf (addf (matmul (DotDims.plain 2048 K N) none X W (constant ⟨2, ![2048, N]⟩ .f32 0x00000000#32))
      (broadcastTo ⟨2, ![2048, N]⟩ (shapeCast ⟨2, ![1, N]⟩ b hsc) hbc))
    (broadcast ⟨2, ![2048, N]⟩ (Scalar.ofBits .f32 0x00000000#32))

/-- The bias row laid along every row, read at (p, m): the bias at m. -/
theorem bias_apply (N : ℕ) (b : FVec Ideal ⟨2, ![1, N]⟩ .f32)
    (hsc : (⟨2, ![1, N]⟩ : Shape).ShapeCasts ⟨2, ![1, N]⟩) (hbc : (⟨2, ![1, N]⟩ : Shape).Broadcasts ⟨2, ![2048, N]⟩)
    (p : Fin 2048) (m : Fin N) :
    broadcastTo ⟨2, ![2048, N]⟩ (shapeCast ⟨2, ![1, N]⟩ b hsc) hbc (ix2 p m) = b (ix2 0 m) := by
  rw [shapeCast_self]
  refine broadcastTo_apply b hbc (ix2 p m) (ix2 (0 : Fin 1) m) fun a => ?_
  match a with
  | ⟨0, _⟩ => rfl
  | ⟨1, _⟩ =>
    show m.val = if N = 1 then 0 else m.val
    split
    · have := m.isLt; omega
    · rfl

/-- The layer at (p, m). -/
theorem layerV_apply (K N : ℕ) (X : FVec Ideal ⟨2, ![2048, K]⟩ .f32) (W : FVec Ideal ⟨2, ![K, N]⟩ .f32) (b : FVec Ideal ⟨2, ![1, N]⟩ .f32)
    (hsc : (⟨2, ![1, N]⟩ : Shape).ShapeCasts ⟨2, ![1, N]⟩) (hbc : (⟨2, ![1, N]⟩ : Shape).Broadcasts ⟨2, ![2048, N]⟩)
    (p : Fin 2048) (m : Fin N) :
    layerV K N X W b hsc hbc (ix2 p m) = max ((∑ k : Fin K, X (ix2 p k) * W (ix2 k m)) + b (ix2 0 m)) 0 := by
  unfold layerV
  rw [maximumf_apply, addf_apply, broadcast_apply, matmul_plain_zero_apply, bias_apply]
  show max _ (Ideal.ofBits .f32 0x00000000#32) = _
  rw [Ideal.ofBits_zero_f32]

/-- The cross term: half the row sum of `(E·fmk)² − E²·fmk²`. -/
def crossV (E : FVec Ideal ⟨2, ![2048, 256]⟩ .f32) (fmk : FVec Ideal ⟨2, ![256, 32]⟩ .f32)
    (hred : Shape.Reduces ⟨2, ![2048, 32]⟩ [1] ⟨1, ![2048]⟩) (hφ : FKind.Formats .f32)
    (hacc : (0x00000000#32 : BitVec 32) = FKind.add.neutral .f32 hφ)
    (hsc : (⟨1, ![2048]⟩ : Shape).ShapeCasts ⟨2, ![2048, 1]⟩) : FVec Ideal ⟨2, ![2048, 1]⟩ .f32 :=
  mulf (broadcast ⟨2, ![2048, 1]⟩ (Scalar.ofBits .f32 0x3F000000#32))
    (shapeCast ⟨2, ![2048, 1]⟩
      (multiReduction .add [1] ⟨1, ![2048]⟩
        (subf (mulf (matmul (DotDims.plain 2048 256 32) none E fmk (constant ⟨2, ![2048, 32]⟩ .f32 0x00000000#32))
                    (matmul (DotDims.plain 2048 256 32) none E fmk (constant ⟨2, ![2048, 32]⟩ .f32 0x00000000#32)))
              (matmul (DotDims.plain 2048 256 32) none (mulf E E) (mulf fmk fmk) (constant ⟨2, ![2048, 32]⟩ .f32 0x00000000#32)))
        0x00000000#32 hred hφ hacc) hsc)

/-- The cross term at row p. -/
theorem crossV_apply (E : FVec Ideal ⟨2, ![2048, 256]⟩ .f32) (fmk : FVec Ideal ⟨2, ![256, 32]⟩ .f32)
    (hred : Shape.Reduces ⟨2, ![2048, 32]⟩ [1] ⟨1, ![2048]⟩) (hφ : FKind.Formats .f32)
    (hacc : (0x00000000#32 : BitVec 32) = FKind.add.neutral .f32 hφ)
    (hsc : (⟨1, ![2048]⟩ : Shape).ShapeCasts ⟨2, ![2048, 1]⟩) (p : Fin 2048) (z : Fin 1) :
    crossV E fmk hred hφ hacc hsc (ix2 p z)
      = Ideal.ofBits .f32 0x3F000000#32 * ∑ q : Fin 32,
          ((∑ k : Fin 256, E (ix2 p k) * fmk (ix2 k q)) * (∑ k : Fin 256, E (ix2 p k) * fmk (ix2 k q))
            - ∑ k : Fin 256, (E (ix2 p k) * E (ix2 p k)) * (fmk (ix2 k q) * fmk (ix2 k q))) := by
  unfold crossV
  rw [mulf_apply, broadcast_apply]
  congr 1
  refine (shapeCast_apply _ hsc (ix2 p z) (ix1 p) ?_).trans ?_
  · rw [Shape.rowMajor_val_one, Shape.rowMajor_val_two]
    show p.val = p.val * 1 + z.val
    have := z.isLt; omega
  refine (Ideal.multiReduction_add_single _ 0x00000000#32 hred hφ hacc (ix1 p)).trans ?_
  show ∑ q : Fin 32, _ = _
  refine Finset.sum_congr rfl fun q _ => ?_
  have hl : hred.lift (ix1 p) q = ix2 p q := by
    funext a; apply Fin.ext
    match a with
    | ⟨0, _⟩ => rfl
    | ⟨1, _⟩ => rfl
  rw [hl, subf_apply, mulf_apply, matmul_plain_zero_apply, matmul_plain_zero_apply]
  rfl

/-! ## The same, of one row -/

/-- One dense layer with a rectifier applied to one row `x`, at output column `m`. -/
def dense (K N : ℕ) (x : Fin K → EReal) (W : FVec Ideal ⟨2, ![K, N]⟩ .f32) (b : FVec Ideal ⟨2, ![1, N]⟩ .f32) (m : Fin N) : EReal :=
  max ((∑ k : Fin K, x k * W (ix2 k m)) + b (ix2 0 m)) 0

/-- The cross term of one row `e`. -/
def fmCross (e : Fin 256 → EReal) (fmk : FVec Ideal ⟨2, ![256, 32]⟩ .f32) : EReal :=
  Ideal.ofBits .f32 0x3F000000#32 * ∑ q : Fin 32,
    ((∑ k : Fin 256, e k * fmk (ix2 k q)) * (∑ k : Fin 256, e k * fmk (ix2 k q))
      - ∑ k : Fin 256, (e k * e k) * (fmk (ix2 k q) * fmk (ix2 k q)))

/-! ## A one-hot lookup on a block of 2048 rows -/

/-- The index column, cast from its [1,1,2048] block and laid along n columns, at (p, k): the index of row p. -/
theorem idxcol_apply (n : ℕ) (idx : IVec ⟨3, ![1, 1, 2048]⟩ 32)
    (h1 : (⟨3, ![1, 1, 2048]⟩ : Shape).ShapeCasts ⟨1, ![2048]⟩) (h2 : (⟨1, ![2048]⟩ : Shape).ShapeCasts ⟨2, ![2048, 1]⟩)
    (hb : (⟨2, ![2048, 1]⟩ : Shape).Broadcasts ⟨2, ![2048, n]⟩) (p : Fin 2048) (k : Fin n) :
    broadcastTo ⟨2, ![2048, n]⟩ (shapeCast ⟨2, ![2048, 1]⟩ (shapeCast ⟨1, ![2048]⟩ idx h1) h2) hb (ix2 p k) = idx (ix3 0 0 p) := by
  refine (broadcastTo_apply _ hb (ix2 p k) (ix2 p (0 : Fin 1)) fun a => ?_).trans ?_
  · match a with
    | ⟨0, _⟩ => exact (if_neg (show ¬ ((2048 : ℕ) = 1) by decide)).symm
    | ⟨1, _⟩ => exact (if_pos (show (1 : ℕ) = 1 from rfl)).symm
  refine (shapeCast_apply _ h2 (ix2 p (0 : Fin 1)) (ix1 p) ?_).trans ?_
  · rw [Shape.rowMajor_val_one, Shape.rowMajor_val_two]
    show p.val = p.val * 1 + 0
    omega
  refine shapeCast_apply idx h1 (ix1 p) (ix3 (0 : Fin 1) (0 : Fin 1) p) ?_
  rw [Shape.rowMajor_val_three, Shape.rowMajor_val_one]
  show (0 * 1 + 0) * 2048 + p.val = p.val
  omega

/-- The one-hot lookup `(iota == idx ? 1 : 0) · tbl`. -/
def onehotV (n d : ℕ) (idx : IVec ⟨3, ![1, 1, 2048]⟩ 32) (tbl : FVec Ideal ⟨2, ![n, d]⟩ .f32)
    (h1 : (⟨3, ![1, 1, 2048]⟩ : Shape).ShapeCasts ⟨1, ![2048]⟩) (h2 : (⟨1, ![2048]⟩ : Shape).ShapeCasts ⟨2, ![2048, 1]⟩)
    (hi : (⟨2, ![2048, n]⟩ : Shape).Iotas .tc 32 [1]) (hb : (⟨2, ![2048, 1]⟩ : Shape).Broadcasts ⟨2, ![2048, n]⟩) :
    FVec Ideal ⟨2, ![2048, d]⟩ .f32 :=
  matmul (DotDims.plain 2048 n d) none
    (select (cmpi .eq (iota .tc ⟨2, ![2048, n]⟩ 32 [1] hi)
        (broadcastTo ⟨2, ![2048, n]⟩ (shapeCast ⟨2, ![2048, 1]⟩ (shapeCast ⟨1, ![2048]⟩ idx h1) h2) hb))
      (broadcast ⟨2, ![2048, n]⟩ (Scalar.ofBits .f32 0x3F800000#32)) (broadcast ⟨2, ![2048, n]⟩ (Scalar.ofBits .f32 0x00000000#32)))
    tbl (constant ⟨2, ![2048, d]⟩ .f32 0x00000000#32)

/-- With the index of row p in range of the table, the lookup at (p, j) is the table's row at that index. -/
theorem onehotV_apply (n d : ℕ) (hn : n ≤ 2 ^ 32) (idx : IVec ⟨3, ![1, 1, 2048]⟩ 32) (tbl : FVec Ideal ⟨2, ![n, d]⟩ .f32)
    (h1 : (⟨3, ![1, 1, 2048]⟩ : Shape).ShapeCasts ⟨1, ![2048]⟩) (h2 : (⟨1, ![2048]⟩ : Shape).ShapeCasts ⟨2, ![2048, 1]⟩)
    (hi : (⟨2, ![2048, n]⟩ : Shape).Iotas .tc 32 [1]) (hb : (⟨2, ![2048, 1]⟩ : Shape).Broadcasts ⟨2, ![2048, n]⟩)
    (p : Fin 2048) (j : Fin d) (hlt : (idx (ix3 0 0 p)).toNat < n) :
    onehotV n d idx tbl h1 h2 hi hb (ix2 p j) = tbl (ix2 ⟨(idx (ix3 0 0 p)).toNat, hlt⟩ j) := by
  unfold onehotV
  rw [matmul_plain_zero_apply]
  have key : ∀ k : Fin n,
      select (cmpi .eq (iota .tc ⟨2, ![2048, n]⟩ 32 [1] hi)
          (broadcastTo ⟨2, ![2048, n]⟩ (shapeCast ⟨2, ![2048, 1]⟩ (shapeCast ⟨1, ![2048]⟩ idx h1) h2) hb))
        (broadcast ⟨2, ![2048, n]⟩ (Scalar.ofBits (F := Ideal) .f32 0x3F800000#32))
        (broadcast ⟨2, ![2048, n]⟩ (Scalar.ofBits (F := Ideal) .f32 0x00000000#32)) (ix2 p k)
        = if BitVec.ofNat 32 k.val = idx (ix3 0 0 p) then (1 : EReal) else 0 := by
    intro k
    rw [select_apply, broadcast_apply, broadcast_apply]
    show Scalar.select (IntOp.cmpi .eq (iota .tc ⟨2, ![2048, n]⟩ 32 [1] hi (ix2 p k)) (broadcastTo ⟨2, ![2048, n]⟩ _ hb (ix2 p k))) _ _ = _
    rw [iota_single_apply, idxcol_apply, select_cmpi_eq]
    show (if _ then Ideal.ofBits .f32 0x3F800000#32 else Ideal.ofBits .f32 0x00000000#32) = _
    rw [ofBits_one_f32, Ideal.ofBits_zero_f32]
    rfl
  rw [Finset.sum_congr rfl fun k _ => by rw [key k]]
  refine sum_indicator_mul (⟨(idx (ix3 0 0 p)).toNat, hlt⟩ : Fin n) _ (fun k => ?_) (fun k => tbl (ix2 k j))
  constructor
  · intro h
    apply Fin.ext
    show k.val = (idx (ix3 0 0 p)).toNat
    have h' := congrArg BitVec.toNat h
    rw [BitVec.toNat_ofNat] at h'
    rw [← h']
    exact (Nat.mod_eq_of_lt (lt_of_lt_of_le k.isLt hn)).symm
  · intro h
    subst h
    show BitVec.ofNat 32 (idx (ix3 0 0 p)).toNat = idx (ix3 0 0 p)
    simp

end Cert.Tc2Math

end
-- ==== Proof.Spec.lean ====
/- The function both programs compute, index by index, as finite sums over the extended reals: nine table lookups side by
   side (the 256-wide embedding of a row), the first-order term, the factorisation-machine cross term, three dense layers
   with a rectifier, a last product, and the logistic function of their sum. No program is mentioned. -/
import Idealize.ShloMosaic.PureOps.Ideal
import Idealize.ShloMosaic.Lib.ValueIdx
import proofs.«205263_g58420145160647_cont_9to1_m_909_25_alg».proof.Proof.Tc2Math

noncomputable section

open scoped BigOperators

namespace Cert.Spec

open Idealize.ShloMosaic Idealize.ShloMosaic.ValueIdx Cert.Tc2Math

/-- The table row an index word names: the word read unsigned when that is a row of the table, row 0 otherwise. -/
def rowOf (n : ℕ) (hn : 0 < n) (w : BitVec 32) : Fin n := if h : w.toNat < n then ⟨w.toNat, h⟩ else ⟨0, hn⟩

theorem rowOf_val {n : ℕ} (hn : 0 < n) {w : BitVec 32} (h : w.toNat < n) : (rowOf n hn w).val = w.toNat := by
  unfold rowOf; rw [dif_pos h]

/-- Every entry of an index array, read unsigned, is a row of a table with `n` rows. -/
def InRange (n : ℕ) (idx : IVec (⟨1, ![16384]⟩ : Shape) 32) : Prop := ∀ r : Fin 16384, (idx (ix1 r)).toNat < n

/-- The nine index arrays name rows of their tables. -/
structure Dom (uid age gen wd hr mi se it cat : IVec (⟨1, ![16384]⟩ : Shape) 32) : Prop where
  uid : InRange 1000000 uid
  age : InRange 100 age
  gen : InRange 5 gen
  wd : InRange 8 wd
  hr : InRange 25 hr
  mi : InRange 61 mi
  se : InRange 61 se
  it : InRange 500 it
  cat : InRange 40 cat

/-- A length-`N` bias as the `1 × N` row a dense layer adds. -/
def biasRow (N : ℕ) (b : FVec Ideal (⟨1, ![N]⟩ : Shape) .f32) : FVec Ideal (⟨2, ![1, N]⟩ : Shape) .f32 :=
  fun i => b (ix1 ⟨(i 1).val, idx2_lt1 i⟩)

theorem biasRow_apply (N : ℕ) (b : FVec Ideal (⟨1, ![N]⟩ : Shape) .f32) (m : Fin N) : biasRow N b (ix2 0 m) = b (ix1 m) := rfl

section

variable (uid age gen wd hr mi se it cat : IVec (⟨1, ![16384]⟩ : Shape) 32)
  (utab : FVec Ideal (⟨2, ![1000000, 64]⟩ : Shape) .f32) (agetab : FVec Ideal (⟨2, ![100, 64]⟩ : Shape) .f32)
  (gentab : FVec Ideal (⟨2, ![5, 8]⟩ : Shape) .f32) (wdtab : FVec Ideal (⟨2, ![8, 16]⟩ : Shape) .f32)
  (hrtab : FVec Ideal (⟨2, ![25, 8]⟩ : Shape) .f32) (mitab : FVec Ideal (⟨2, ![61, 8]⟩ : Shape) .f32)
  (setab : FVec Ideal (⟨2, ![61, 8]⟩ : Shape) .f32) (ittab : FVec Ideal (⟨2, ![500, 64]⟩ : Shape) .f32)
  (cattab : FVec Ideal (⟨2, ![40, 16]⟩ : Shape) .f32)
  (flw : FVec Ideal (⟨2, ![256, 1]⟩ : Shape) .f32) (flb : FVec Ideal (⟨1, ![1]⟩ : Shape) .f32)
  (fmk : FVec Ideal (⟨2, ![256, 32]⟩ : Shape) .f32)
  (W2 : FVec Ideal (⟨2, ![256, 128]⟩ : Shape) .f32) (b2 : FVec Ideal (⟨1, ![128]⟩ : Shape) .f32)
  (W3 : FVec Ideal (⟨2, ![128, 128]⟩ : Shape) .f32) (b3 : FVec Ideal (⟨1, ![128]⟩ : Shape) .f32)
  (W4 : FVec Ideal (⟨2, ![128, 128]⟩ : Shape) .f32) (b4 : FVec Ideal (⟨1, ![128]⟩ : Shape) .f32)
  (W5 : FVec Ideal (⟨2, ![128, 1]⟩ : Shape) .f32)

/-- Row `r`, column `j` of the embedding: the table the column range selects, at the row the index array names —
    columns [0,64) user, [64,128) age, [128,136) gender, [136,152) weekday, [152,160) hour, [160,168) minute,
    [168,176) second, [176,240) item, [240,256) catalog. -/
def emb (r : Fin 16384) (j : Fin 256) : EReal :=
  if h0 : j.val < 64 then utab (ix2 (rowOf 1000000 (by decide) (uid (ix1 r))) ⟨j.val, h0⟩)
  else if h1 : j.val < 128 then agetab (ix2 (rowOf 100 (by decide) (age (ix1 r))) ⟨j.val - 64, by omega⟩)
  else if h2 : j.val < 136 then gentab (ix2 (rowOf 5 (by decide) (gen (ix1 r))) ⟨j.val - 128, by omega⟩)
  else if h3 : j.val < 152 then wdtab (ix2 (rowOf 8 (by decide) (wd (ix1 r))) ⟨j.val - 136, by omega⟩)
  else if h4 : j.val < 160 then hrtab (ix2 (rowOf 25 (by decide) (hr (ix1 r))) ⟨j.val - 152, by omega⟩)
  else if h5 : j.val < 168 then mitab (ix2 (rowOf 61 (by decide) (mi (ix1 r))) ⟨j.val - 160, by omega⟩)
  else if h6 : j.val < 176 then setab (ix2 (rowOf 61 (by decide) (se (ix1 r))) ⟨j.val - 168, by omega⟩)
  else if h7 : j.val < 240 then ittab (ix2 (rowOf 500 (by decide) (it (ix1 r))) ⟨j.val - 176, by omega⟩)
  else cattab (ix2 (rowOf 40 (by decide) (cat (ix1 r))) ⟨j.val - 240, by have := j.isLt; omega⟩)

/-- From one embedding row to the prediction: `logistic (((e · w + b) + cross e) + dnn e)`, the network three dense
    layers with a rectifier and a last product. -/
def tail (e : Fin 256 → EReal) : EReal :=
  Ideal.logistic
    ((((∑ k : Fin 256, e k * flw (ix2 k 0)) + flb (ix1 0)) + fmCross e fmk)
      + ∑ m : Fin 128, dense 128 128 (dense 128 128 (dense 256 128 e W2 (biasRow 128 b2)) W3 (biasRow 128 b3)) W4 (biasRow 128 b4) m
          * W5 (ix2 m 0))

/-- The result array, index by index. -/
def G (i : (⟨2, ![16384, 1]⟩ : Shape).Idx) : EReal :=
  tail flw flb fmk W2 b2 W3 b3 W4 b4 W5
    (emb uid age gen wd hr mi se it cat utab agetab gentab wdtab hrtab mitab setab ittab cattab ⟨(i 0).val, idx2_lt0 i⟩)

end

end Cert.Spec

end
-- ==== Proof.PreDom.lean ====
/- The input-domain predicate read back: where it is all ones, each of the nine index arrays names rows of its table
   (every entry, read unsigned, below the table's length). For any float values. -/
import proofs.«205263_g58420145160647_cont_9to1_m_909_25_alg».proof.Pre_input_domain
import proofs.«205263_g58420145160647_cont_9to1_m_909_25_alg».proof.Proof.Gen.Pre_input_domain
import proofs.«205263_g58420145160647_cont_9to1_m_909_25_alg».proof.Proof.Spec
import Idealize.ShloMosaic.Lib.ReduceAll
import Idealize.ShloMosaic.Lib.Affine

noncomputable section

namespace Cert.Pre_input_domain.PreDom

open Cert.Pre_input_domain Idealize.ShloMosaic Idealize.ShloMosaic.ValueIdx

instance : Subsingleton S_.Idx := ⟨fun a b => funext fun d => d.elim0⟩

variable [Facts]
open Facts

/-- A conjunction of two rank-zero bits that is one: both are. -/
theorem split (X R : IVec S_ 1) (h : andi X R ix0 = 1#1) : X ix0 = 1#1 ∧ R ix0 = 1#1 :=
  IntOp.andi_eq_one.mp h

/-- One range test read back: `all (0 ≤ a ∧ a ≤ hi)` (signed) being one, every entry of `a` read unsigned is below
    `n = hi + 1`. -/
theorem inRange_of_check (a : IVec S16384 32) (hi : BitVec 32) (n : ℕ) (hhi : hi.toInt = (n : ℤ) - 1) (hn : n ≤ 2 ^ 31)
    (e : Host.reduce IntOp.andi
        (andi (cmpi .sge a (broadcastInDim S16384 ![] bcast_S_S16384 (constantI S_ 32 0#32)))
          (cmpi .sle a (broadcastInDim S16384 ![] bcast_S_S16384 (constantI S_ 32 hi))))
        (constantI S_ 1 1#1) reducesTo_S16384_S_d0 h_S_ ix0 = 1#1) : Cert.Spec.InRange n a := by
  intro r
  have h := Host.reduce_andi_all _ _ _ _ _ e (ix1 r)
  have h' : IntOp.andi (IntOp.cmpi .sge (a (ix1 r)) 0#32) (IntOp.cmpi .sle (a (ix1 r)) hi) = 1#1 := h
  obtain ⟨h1, h2⟩ := IntOp.andi_eq_one.mp h'
  have g1 := IntOp.cmpi_sge.mp h1
  have g2 := IntOp.cmpi_sle.mp h2
  have h0 : (0#32 : BitVec 32).toInt = 0 := by decide
  rw [h0] at g1
  rw [hhi] at g2
  have hc := BitVec.toInt_eq_toNat_cond (a (ix1 r))
  split at hc <;> omega

set_option maxRecDepth 16384 in
set_option maxHeartbeats 2000000 in
/-- Where the predicate is all ones, the nine index arrays are in range. -/
theorem dom_of_pre {F : FTy → Type} [FloatOps F] (a0 : IVec S16384 32) (a1 : IVec S16384 32) (a2 : IVec S16384 32) (a3 : IVec S16384 32) (a4 : IVec S16384 32) (a5 : IVec S16384 32) (a6 : IVec S16384 32) (a7 : IVec S16384 32) (a8 : IVec S16384 32)
    (a9 : FVec F S1000000x64 .f32) (a10 : FVec F S100x64 .f32) (a11 : FVec F S5x8 .f32) (a12 : FVec F S8x16 .f32) (a13 : FVec F S25x8 .f32) (a14 : FVec F S61x8 .f32) (a15 : FVec F S61x8 .f32) (a16 : FVec F S500x64 .f32) (a17 : FVec F S40x16 .f32) (a18 : FVec F S256x1 .f32) (a19 : FVec F S1 .f32) (a20 : FVec F S256x32 .f32) (a21 : FVec F S256x128 .f32) (a22 : FVec F S128 .f32) (a23 : FVec F S128x128 .f32) (a24 : FVec F S128 .f32) (a25 : FVec F S128x128 .f32) (a26 : FVec F S128 .f32) (a27 : FVec F S128x1 .f32)
    (h : fn (F := F) a0 a1 a2 a3 a4 a5 a6 a7 a8 a9 a10 a11 a12 a13 a14 a15 a16 a17 a18 a19 a20 a21 a22 a23 a24 a25 a26 a27 = fun _ => 1#1) :
    Cert.Spec.Dom a0 a1 a2 a3 a4 a5 a6 a7 a8 := by
  have h0 := congrFun h ix0
  dsimp only [fn, fn_part1, fn_part2, fn_part3, fn_part4, fn_part5, fn_part6, fn_part7, fn_part8, fn_part9] at h0
  obtain ⟨h8, c8⟩ := split _ _ h0
  obtain ⟨h7, c7⟩ := split _ _ h8
  obtain ⟨h6, c6⟩ := split _ _ h7
  obtain ⟨h5, c5⟩ := split _ _ h6
  obtain ⟨h4, c4⟩ := split _ _ h5
  obtain ⟨h3, c3⟩ := split _ _ h4
  obtain ⟨h2, c2⟩ := split _ _ h3
  obtain ⟨h1, c1⟩ := split _ _ h2
  obtain ⟨_, c0⟩ := split _ _ h1
  exact ⟨inRange_of_check a0 999999#32 1000000 (by decide) (by decide) c0,
    inRange_of_check a1 99#32 100 (by decide) (by decide) c1,
    inRange_of_check a2 4#32 5 (by decide) (by decide) c2,
    inRange_of_check a3 7#32 8 (by decide) (by decide) c3,
    inRange_of_check a4 24#32 25 (by decide) (by decide) c4,
    inRange_of_check a5 60#32 61 (by decide) (by decide) c5,
    inRange_of_check a6 60#32 61 (by decide) (by decide) c6,
    inRange_of_check a7 499#32 500 (by decide) (by decide) c7,
    inRange_of_check a8 39#32 40 (by decide) (by decide) c8⟩

end Cert.Pre_input_domain.PreDom

end
-- ==== Proof.KClaims.lean ====
/- The kernel as printed: the precondition gives the run its hypothesis, and the run's final memory has the 28 arguments
   as launched. -/
import proofs.«205263_g58420145160647_cont_9to1_m_909_25_alg».proof.Proof.KRunLaunch
import proofs.«205263_g58420145160647_cont_9to1_m_909_25_alg».proof.Proof.KKiArgs
import proofs.«205263_g58420145160647_cont_9to1_m_909_25_alg».proof.Proof.PreDom
import proofs.«205263_g58420145160647_cont_9to1_m_909_25_alg».proof.Defs

noncomputable section

namespace Cert.Proof.KClaims

open Idealize.ShloMosaic Idealize.SL.Sem Idealize.ShloMosaic.ValueIdx
open Cert.Kernel.Run

/-- Where the input-domain predicate is all ones on every device, every user id names a row of the user table. -/
theorem preOK_of_fn [Cert.Pre_input_domain.Facts] {F : FTy → Type} [FloatOps F] [∀ e, Nonempty (Elt F e)]
    (m : (ℓ : Loc Cert.Kernel.nD Cert.Kernel.τ Cert.Kernel.sig) → Buf (Elt F) ℓ)
    (h : ∀ c : Dev Cert.Kernel.nD, Cert.Pre_input_domain.fn (F := F) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) = fun _ => 1#1) :
    PreOK (F := F) m := fun d r => by
  have hu := (Cert.Pre_input_domain.PreDom.dom_of_pre _ _ _ _ _ _ _ _ _ _ _ _ _ _ _ _ _ _ _ _ _ _ _ _ _ _ _ _ (h d)).uid (r 0)
  have e := eq_ix1 r
  rw [e]
  exact hu

theorem preOK_of_pre [Cert.Pre_input_domain.Facts]
    (m : (ℓ : Loc Cert.Kernel.nD Cert.Kernel.τ Cert.Kernel.sig) → Buf (Elt Bits) ℓ) (hpre : Cert.Pre_Kernel m) :
    PreOK (F := Bits) m := preOK_of_fn m hpre

/-- The kernel runs and leaves its arguments unchanged. -/
theorem frame_k : Cert.frame_Kernel := fun m ρ hpre =>
  (θ_run _ _ _).mono (fun r h c => by
    obtain ⟨X1, Y, -, -, h3, h4⟩ := h c
    exact args_unchanged m r.2.mem c X1 Y h3 h4) (run_main (F := Bits) m ρ (preOK_of_pre m hpre))

end Cert.Proof.KClaims

end
-- ==== Proof.RunSetup.lean ====
/-
  The run of the whole program, part 1: the configuration the SparseCore launch theorem is applied at, the
  resource algebra (the handshakes' rounds, the TensorCore pipelines' staging cells' rounds, the transfers'
  counters, side by side), and the embeddings of its three components.
-/
import proofs.«205263_g58420145160647_cont_9to1_m_909_25_alg».proof.KernelIdeal
import proofs.«205263_g58420145160647_cont_9to1_m_909_25_alg».proof.Proof.Gen.KernelIdeal
import proofs.«205263_g58420145160647_cont_9to1_m_909_25_alg».proof.Proof.Gen.KernelIdeal.Launch
import proofs.«205263_g58420145160647_cont_9to1_m_909_25_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Pipeline.RegionsLoop
import Idealize.ShloMosaic.Lib.Pipeline.Frame
import Idealize.ShloMosaic.Lib.Pipeline.FrameBody
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds (duties named by numbers), -/
abbrev UH : Type := URounds (GSem nD τ sig) ℕ
/-- the pipelines' staging cells' rounds (duties unnamed), -/
abbrev UP : Type := UR sig nD τ
/-- and, with them, the transfers' counters. -/
abbrev UU : Type := UH × (UP × Counters)

abbrev 𝕄F (F : FTy → Type) : Type := MT nD τ sig (HIx 1) (Elt F) ℕ UU ℕ

abbrev EH : Emb UH (𝕄F F) := embL
def EP : Emb UP (𝕄F F) :=
  (Emb.inl : Emb UP (UP × Counters)).trans (embR : Emb (UP × Counters) (𝕄F F))

instance EP_landsIn : (EP : Emb UP (𝕄F F)).LandsIn (upEmb : UEmb _ (𝕄F F)) := by unfold EP; infer_instance

example : CountersIn UU := inferInstance

/-- The admissible contents of the pipelines' prefetched tables: no pipeline has one. -/
abbrev adm : (p : Fin 2) → (pcfgs (F := F) p).Adm := fun p => (cfgs p).toPCfg_adm

end Cert.KernelIdeal.Run

end
-- ==== Proof.RunMain.lean ====
/-
  The run of the whole program, part 2: @main as its five stretches — the host transpose, the first TensorCore
  region, the SparseCore call, the host reshapes, the second TensorCore region — and the buffers' contents at each
  boundary between them.
-/
import proofs.«205263_g58420145160647_cont_9to1_m_909_25_alg».proof.Proof.RunSetup

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The host stretches -/

/-- The host operation before the first region: the table transposed. -/
abbrev hostOps0 : List (HloOp τ sig (Elt F)) :=
  [StableHlo.unary main_arg9 main_v0 ((transpose S64x1000000 [1, 0] · transposes_S1000000x64_S64x1000000_1_0) : (⟨S1000000x64, .f32⟩ : BufTy).Contents (Elt F) → (⟨S64x1000000, .f32⟩ : BufTy).Contents (Elt F))]

/-- The host operations between the SparseCore call and the second region: the index arrays and the biases re-laid. -/
abbrev hostOps1 : List (HloOp τ sig (Elt F)) :=
  [StableHlo.reshape main_arg0 main_v3 rfl shapeCasts_S16384_S8x1x2048,
   StableHlo.reshape main_arg1 main_v4 rfl shapeCasts_S16384_S8x1x2048,
   StableHlo.reshape main_arg2 main_v5 rfl shapeCasts_S16384_S8x1x2048,
   StableHlo.reshape main_arg3 main_v6 rfl shapeCasts_S16384_S8x1x2048,
   StableHlo.reshape main_arg4 main_v7 rfl shapeCasts_S16384_S8x1x2048,
   StableHlo.reshape main_arg5 main_v8 rfl shapeCasts_S16384_S8x1x2048,
   StableHlo.reshape main_arg6 main_v9 rfl shapeCasts_S16384_S8x1x2048,
   StableHlo.reshape main_arg7 main_v10 rfl shapeCasts_S16384_S8x1x2048,
   StableHlo.reshape main_arg8 main_v11 rfl shapeCasts_S16384_S8x1x2048,
   StableHlo.reshape main_arg19 main_v12 rfl shapeCasts_S1_S1x1,
   StableHlo.reshape main_arg22 main_v13 rfl shapeCasts_S128_S1x128,
   StableHlo.reshape main_arg24 main_v14 rfl shapeCasts_S128_S1x128,
   StableHlo.reshape main_arg26 main_v15 rfl shapeCasts_S128_S1x128]

/-- A TensorCore region's call, as @main spells it in the extended signature: the call in the pipelines' signature, lifted. -/
abbrev regionCall (p : Fin 2) : Prog (TpuEff nD τ sig (Elt F) (SparseCore.Sig (ΛP (F := F)) 1) .tc) PUnit :=
  SparseCore.liftProg (Prog.lift (.customCall (Pipeline.entry p) ()))

/-- @main, stretch by stretch. -/
theorem main_eq (d : Dev nD) :
    main (F := F) d = (StableHlo.seq (hostOps0 (F := F)) >>= fun _ => regionCall (F := F) 0 >>= fun _ => (K (F := F)).run d 0 >>= fun _ =>
      StableHlo.seq (hostOps1 (F := F)) >>= fun _ => regionCall (F := F) 1 >>= fun _ => pure ⟨⟩) := rfl

end Cert.KernelIdeal.Run

end
-- ==== Proof.Tc0Body.lean ====
import proofs.«205263_g58420145160647_cont_9to1_m_909_25_alg».proof.Proof.Gen.KernelIdeal.Launch
import proofs.«205263_g58420145160647_cont_9to1_m_909_25_alg».proof.Proof.Gen.KernelIdeal.Skeleton
import proofs.«205263_g58420145160647_cont_9to1_m_909_25_alg».proof.Proof.Gen.KernelIdeal.Points
import Idealize.ShloMosaic.Lib.Pipeline.FrameBody
import Idealize.ShloMosaic.Lib.Ring
import Idealize.ShloMosaic.Lib.Tactic

/-! # The transposing kernel's body: what it stores, and its triple

The body loads its input window (64 × 32768) whole, transposes it, and stores the two halves of the transpose
side by side (16384 × 128) over the whole of its output window. `out0_1` names the stored block as a function
of the input block; `sound_kernel0` is the body's triple on whole staging memrefs, at ANY contents of the
input buffer. -/

set_option maxRecDepth 16384

noncomputable section

namespace Cert.KernelIdeal.Tc0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U]

local notation "𝕄" => MT nD τ sig Ix (Elt F) ℕ U ℕ

/-! ## The whole-buffer rectangles the body loads and stores through -/

abbrev r_in : Rect S64x32768 := Rect.unit (s := S64x32768) ![0, 0] S64x32768.size inb_S64x32768_S64x32768_0_0
abbrev r_out : Rect S16384x128 := Rect.unit (s := S16384x128) ![0, 0] S16384x128.size inb_S16384x128_S16384x128_0_0

/-! ## What the body leaves in the output window's buffer -/

/-- The output staging buffer after the body, from the input buffer's contents: its one store as a piece
    (the payload is the skeleton's). -/
def out0_1 (x0 : Vec F S64x32768 .f32) : Vec F S16384x128 .f32 :=
  View.canon [⟨r_out, k0_pay1 (View.ld x0 r_in)⟩]

/-- The store's rectangle is the whole buffer, so it covers it. -/
theorem cover0_1 (p0 : Vec F S16384x128 .f32) (y : S16384x128.Idx) :
    ∃ pc ∈ ([⟨r_out, p0⟩] : List (View.Piece (Elt F) S16384x128 .f32)), y ∈ pc.1.set :=
  View.cover_of_tiled [⟨r_out, p0⟩] S16384x128.size (by rfl) y

/-! ## The body's triple -/

set_option maxHeartbeats 1000000 in
/-- The kernel body on whole staging memrefs, the input's at ANY contents `x0` and the output's at anything, runs
    to the continuation holding the input's as it was and the output's at `out0_1 x0`. -/
theorem sound_kernel0 (c : Dev nD) (E : Set ℕ) (i : grid0.Coords)
    (arg1 : Memref sig .tc .vmem S64x32768 .f32) (harg1 : arg1.IsWhole)
    (arg2 : Memref sig .tc .vmem S16384x128 .f32) (harg2 : arg2.IsWhole)
    (x0 : Vec F S64x32768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__tp_body i arg1 harg1 arg2 harg2) K := by
  simp only [cc0__tp_body_eq_skeleton]; unfold cc0__tp_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.KernelIdeal.Tc0

end
-- ==== Proof.Tc0Dat.lean ====
import proofs.«205263_g58420145160647_cont_9to1_m_909_25_alg».proof.Proof.Tc0Body
import Idealize.ShloMosaic.Lib.ValueLayout
import Idealize.ShloMosaic.Lib.Pipeline.Value

/-! # The transposing kernel's pipeline: relational proof data and the body obligation

The operand `main_v0` (64 × 1000000) is read in blocks of 32768 columns; 1000000 = 30 · 32768 + 16960, so the last
block overhangs the array by 15808 columns and its fetch fills the staging buffer's columns 16960‥32767 with words
nothing names. The body transposes those words too and writes them back to rows of the result, so no closed form
names the whole result: the proof data is relational. `After1` says what the body leaves in the result's staging
buffer on the lanes whose source column lies inside the array, in terms of the operand array at region entry;
`rdat0` is the proof data; `body_obligation0` its body obligation at every point. -/

set_option maxRecDepth 16384

noncomputable section

namespace Cert.KernelIdeal.Tc0

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {U : Type} [URA U]

local notation "𝕄" => MT nD τ sig Ix (Elt F) ℕ U ℕ

variable (V : (c : Dev nD) → (b : Ref sig .tc) → Buf (Elt F) ((c : Thread nD τ).loc b))

/-! ## The value the body computes, read at an index -/

/-- Lanes 0‥63 of row `r` of the stored block are column `r` of the loaded block, top to bottom. -/
theorem pay_apply_lo (v0 : Vec F S64x32768 .f32) (r : Fin 16384) (j : Fin 128) (hj : j.val < 64)
    (a : Fin 64) (cc : Fin 32768) (ha : a.val = j.val) (hc : cc.val = r.val) :
    k0_pay1 v0 (ix2 r j) = v0 (ix2 a cc) := by
  unfold k0_pay1
  refine (concatenate_pair_apply_left (t := S16384x128) (s₁ := S16384x64) (s₂ := S16384x64) 1 _ _ _ (ix2 r j) rfl (ix2 r ⟨j.val, hj⟩) (fun b => ?_)).trans ?_
  · match b with
    | ⟨0, _⟩ => rfl
    | ⟨1, _⟩ => rfl
  refine (slice2_axis0_apply 0 _ _ r ⟨j.val, hj⟩ ⟨r.val, by omega⟩ (by simp)).trans ?_
  refine (transpose_ix2_apply _ _ _ _).trans ?_
  rw [shapeCast_self]
  congr 1
  funext b
  match b with
  | ⟨0, _⟩ => exact Fin.ext ha.symm
  | ⟨1, _⟩ => exact Fin.ext hc.symm

/-- Lanes 64‥127 of row `r` are column `16384 + r`. -/
theorem pay_apply_hi (v0 : Vec F S64x32768 .f32) (r : Fin 16384) (j : Fin 128) (hj : 64 ≤ j.val)
    (a : Fin 64) (cc : Fin 32768) (ha : a.val + 64 = j.val) (hc : cc.val = 16384 + r.val) :
    k0_pay1 v0 (ix2 r j) = v0 (ix2 a cc) := by
  unfold k0_pay1
  refine (concatenate_pair_apply_right (t := S16384x128) (s₁ := S16384x64) (s₂ := S16384x64) 1 _ _ _ (ix2 r j) rfl rfl (ix2 r a) (fun b hb => ?_) ?_).trans ?_
  · match b with
    | ⟨0, _⟩ => rfl
    | ⟨1, _⟩ => exact absurd rfl hb
  · exact ha
  refine (slice2_axis0_apply 16384 _ _ r a cc hc).trans ?_
  refine (transpose_ix2_apply _ _ _ _).trans ?_
  rw [shapeCast_self]

/-- The stored block at `(r, j)` is the loaded block at `(j mod 64, (j div 64) · 16384 + r)`. -/
theorem out0_1_apply (x0 : Vec F S64x32768 .f32) (r : Fin 16384) (j : Fin 128)
    (a : Fin 64) (cc : Fin 32768) (ha : a.val = j.val % 64) (hc : cc.val = (j.val / 64) * 16384 + r.val) :
    out0_1 x0 (ix2 r j) = x0 (ix2 a cc) := by
  unfold out0_1
  have he : (ix2 r j : S16384x128.Idx) = r_out.emb (ix2 r j) := by
    funext b; apply Fin.ext; rw [Rect.emb_apply]
    match b with
    | ⟨0, _⟩ => show r.val = 0 + 1 * r.val; omega
    | ⟨1, _⟩ => show j.val = 0 + 1 * j.val; omega
  rw [he, View.canon_cons_emb]
  have hl : View.ld x0 r_in (ix2 a cc) = x0 (ix2 a cc) := by
    show x0 (r_in.idx (ix2 a cc)) = x0 (ix2 a cc)
    congr 1
    funext b; apply Fin.ext
    match b with
    | ⟨0, _⟩ => show 0 + 1 * a.val = a.val; omega
    | ⟨1, _⟩ => show 0 + 1 * cc.val = cc.val; omega
  have hj := j.isLt
  by_cases h64 : j.val < 64
  · exact (pay_apply_lo _ r j h64 a cc (by omega) (by omega)).trans hl
  · exact (pay_apply_hi _ r j (by omega) a cc (by omega) (by omega)).trans hl

/-! ## The schedule, decided over the grid -/

/-- At point `t` the operand's window sits at block (0, t) and moves 64 rows and the block's columns inside the
    array (32768, at the last point 16960); the result's window sits at block (t, 0). -/
theorem grid_facts0 : ∀ t : Fin grid0.N,
    win0_0.index t 0 = 0 ∧ win0_0.index t 1 = t.val
    ∧ win0_0.xsize (grid0.coords t) 0 = 64
    ∧ win0_0.xsize (grid0.coords t) 1 = min 32768 (1000000 - t.val * 32768)
    ∧ win0_1.index t 0 = t.val ∧ win0_1.index t 1 = 0 := by decide +kernel

/-! ## The proof data -/

/-- What the body leaves in the result window's buffer at point `t`, as a relation to the operand array `V c main_v0`
    at region entry: lane `j` of row `r` holds row `j mod 64` of the operand at column
    `t · 32768 + (j div 64) · 16384 + r`, WHEREVER that column lies inside the array. Nothing is said of the other
    lanes (at the last point, the transposed overhang). -/
def After1 (c : Dev nD) (t : Fin cfg0.N) (X : S16384x128.Idx → Elt F .f32) : Prop :=
  ∀ (r : Fin 16384) (j : Fin 128) (h : t.val * 32768 + (j.val / 64) * 16384 + r.val < 1000000),
    X (ix2 r j) = V c main_v0 (ix2 (⟨j.val % 64, Nat.mod_lt _ (by decide)⟩ : Fin 64)
      (⟨t.val * 32768 + (j.val / 64) * 16384 + r.val, h⟩ : Fin 1000000))

/-- The proof data of the transposing pipeline on core `c`: the arrays as the region finds them; the body leaves its
    input buffer as it found it and the result's buffer in the relation `After1` to the operand array; an invariant
    `Φ₀` the body neither reads nor changes; the tallies `O` owed throughout, the recorded pairs within `Rc`
    throughout; full shares. -/
def rdat0 (O : CellTallies nD τ sig Ix) (Rc : Set (SemLoc sig × Ix)) (Φ₀ : sProp 𝕄) (c : Dev nD) :
    RDat τ (Elt F) Ix ℕ U ℕ cfg0 c where
  A w := V c (Pipeline.arrRef spec0 w)
  after w t := match w with
    | ⟨0, _⟩ => fun Y X => X = Y
    | ⟨1, _⟩ => fun _ X => After1 V c t X
  Φ _ := Φ₀
  q _ := fullShare
  owed _ := O
  recorded _ := Rc

variable (O : CellTallies nD τ sig Ix) (Rc : Set (SemLoc sig × Ix)) (Φ₀ : sProp (MT nD τ sig Ix (Elt F) ℕ U ℕ))

theorem A_eq0 (c : Dev nD) (w : Fin cfg0.W) : (rdat0 V O Rc Φ₀ c).A w = V c (Pipeline.arrRef spec0 w) := by
  dsimp only [rdat0]

theorem after0_0 (c : Dev nD) (t : Fin cfg0.N) (Y X) : (rdat0 V O Rc Φ₀ c).after 0 t Y X ↔ X = Y := Iff.rfl
theorem after0_1 (c : Dev nD) (t : Fin cfg0.N) (Y X) : (rdat0 V O Rc Φ₀ c).after 1 t Y X ↔ After1 V c t X := Iff.rfl

/-- What a fetch at point `t` puts in the operand's buffer, at an index whose column lies inside the array: the
    operand array there. -/
theorem fetched0_apply (c : Dev nD) (t : Fin cfg0.N) (d) (a : Fin 64) (cc : Fin 32768) (h : t.val * 32768 + cc.val < 1000000) :
    (rdat0 V O Rc Φ₀ c).fetched 0 t d (ix2 a cc) = V c main_v0 (ix2 a (⟨t.val * 32768 + cc.val, h⟩ : Fin 1000000)) := by
  obtain ⟨h00, h01, hx0, hx1, -, -⟩ := grid_facts0 t
  have hm : win0_0.moved (grid0.coords t) (ix2 a cc) = true := (win0_0.moved_iff _ _).mpr fun ax => by
    match ax with
    | ⟨0, _⟩ => show a.val < win0_0.xsize (grid0.coords t) 0; rw [hx0]; exact a.isLt
    | ⟨1, _⟩ => show cc.val < win0_0.xsize (grid0.coords t) 1; rw [hx1]; have := cc.isLt; omega
  unfold RDat.fetched
  show win0_0.fill (grid0.coords t) d _ (ix2 a cc) = _
  unfold Window.fill
  rw [dif_pos hm]
  unfold RDat.blockOf
  rw [View.read_apply]
  show V c main_v0 ((win0_0.blk t).view.emb _) = _
  refine congrArg (V c main_v0) ?_
  funext ax; apply Fin.ext
  show ((win0_0.rect t).emb _ ax : ℕ) = _
  rw [Window.rect_emb_val]
  match ax with
  | ⟨0, _⟩ => show win0_0.index t 0 * 64 + a.val = a.val; rw [h00]; omega
  | ⟨1, _⟩ => show win0_0.index t 1 * 32768 + cc.val = t.val * 32768 + cc.val; rw [h01]

/-- What the body may find in the operand's buffer at point `t` (the window is fetched at every point), at an index
    whose column lies inside the array: the operand array there. -/
theorem finds0_apply (c : Dev nD) (t : Fin cfg0.N) (Y) (hY : (rdat0 V O Rc Φ₀ c).Finds 0 t Y)
    (a : Fin 64) (cc : Fin 32768) (h : t.val * 32768 + cc.val < 1000000) :
    Y (ix2 a cc) = V c main_v0 (ix2 a (⟨t.val * 32768 + cc.val, h⟩ : Fin 1000000)) := by
  obtain ⟨d, rfl⟩ := ((rdat0 V O Rc Φ₀ c).finds_of_fetch (fetch0_0 t) Y).mp hY
  exact fetched0_apply V O Rc Φ₀ c t d a cc h

/-- The block the body stores, computed from anything it may find in the operand's buffer, is in `After1`. -/
theorem after1_of_finds (c : Dev nD) (t : Fin cfg0.N) (Y) (hY : (rdat0 V O Rc Φ₀ c).Finds 0 t Y) :
    After1 V c t (out0_1 Y) := by
  intro r j h
  have hj := j.isLt
  have hr := r.isLt
  have hc : (j.val / 64) * 16384 + r.val < 32768 := by clear h; omega
  rw [out0_1_apply Y r j ⟨j.val % 64, Nat.mod_lt _ (by decide)⟩ ⟨(j.val / 64) * 16384 + r.val, hc⟩ rfl rfl,
    finds0_apply V O Rc Φ₀ c t Y hY _ _ (show t.val * 32768 + ((j.val / 64) * 16384 + r.val) < 1000000 from (Nat.add_assoc _ _ _) ▸ h)]
  refine congrArg (V c main_v0) (funext fun ax => ?_)
  match ax with
  | ⟨0, _⟩ => rfl
  | ⟨1, _⟩ => exact Fin.ext (Nat.add_assoc _ _ _).symm

/-! ## The body obligation -/

/-- The relational body obligation at every point: the body's triple at whatever the operand's buffer holds; the
    invariant and the core's tallies pass through unread; the operand's buffer is left as found and the result's in
    `After1` (by what `Finds` says of the operand's buffer on the part inside the array). -/
theorem body_obligation0 (ι : Ix) (c : Dev nD) :
    (rdat0 V O Rc Φ₀ c).BodyObligation (defs₀ (F := F)) Variants.none ι Set.univ := fun t Y hY => by
  rw [bigSep_W0, bigSep_W0]
  rw [show (rdat0 V O Rc Φ₀ c).Φ t.succ = (rdat0 V O Rc Φ₀ c).Φ t.castSucc from rfl,
    show (rdat0 V O Rc Φ₀ c).owesAt ι t.succ = (rdat0 V O Rc Φ₀ c).owesAt ι t.castSucc from rfl]
  show _ ⊢ wp frame _ _ (bodyAt0 t) _
  unfold bodyAt0
  iintro ⟨HΦ, Ho, H0, H1⟩
  iapply (sound_kernel0 (F := F) c Set.univ (grid0.coords t) _ _ _ _ (Y 0) _)
  isplitl [H0]; · iexact H0
  isplitl [H1]; · iexists _; iexact H1
  iintro ⟨H0, H1⟩
  isplitl [HΦ]; · iexact HΦ
  isplitl [Ho]; · iexact Ho
  isplitl [H0]
  · iexists (Y 0); isplitr
    · ipureintro; exact (after0_0 V O Rc Φ₀ c t (Y 0) (Y 0)).mpr rfl
    iexact H0
  · iexists (out0_1 (Y 0)); isplitr
    · ipureintro; exact (after0_1 V O Rc Φ₀ c t (Y 1) _).mpr (after1_of_finds V O Rc Φ₀ c t (Y 0) (hY 0))
    iexact H1

end Cert.KernelIdeal.Tc0

end
-- ==== Proof.Tc2Body.lean ====
import proofs.«205263_g58420145160647_cont_9to1_m_909_25_alg».proof.Proof.Gen.KernelIdeal.Launch
import proofs.«205263_g58420145160647_cont_9to1_m_909_25_alg».proof.Proof.Gen.KernelIdeal.Skeleton
import proofs.«205263_g58420145160647_cont_9to1_m_909_25_alg».proof.Proof.Gen.KernelIdeal.Points
import Idealize.ShloMosaic.Lib.Pipeline.FrameBody
import Idealize.ShloMosaic.Lib.Ring
import Idealize.ShloMosaic.Lib.Tactic

/-! # The second TensorCore kernel's body: what it stores, and its triple

The body loads its 28 input windows whole, computes one 2048×1 column from them and stores it over the whole
of its output window. `out2_28` names that column as a function of the input blocks; `sound_kernel2` is the
body's triple on whole staging memrefs. -/

set_option maxRecDepth 16384

noncomputable section

namespace Cert.KernelIdeal.Tc2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U]

local notation "𝕄" => MT nD τ sig Ix (Elt F) ℕ U ℕ

/-! ## The whole-buffer rectangles the body loads and stores through -/

abbrev r_S2048x128 : Rect S2048x128 := Rect.unit (s := S2048x128) ![0, 0] S2048x128.size inb_S2048x128_S2048x128_0_0
abbrev r_S1x1x2048 : Rect S1x1x2048 := Rect.unit (s := S1x1x2048) ![0, 0, 0] S1x1x2048.size inb_S1x1x2048_S1x1x2048_0_0_0
abbrev r_S100x64 : Rect S100x64 := Rect.unit (s := S100x64) ![0, 0] S100x64.size inb_S100x64_S100x64_0_0
abbrev r_S5x8 : Rect S5x8 := Rect.unit (s := S5x8) ![0, 0] S5x8.size inb_S5x8_S5x8_0_0
abbrev r_S8x16 : Rect S8x16 := Rect.unit (s := S8x16) ![0, 0] S8x16.size inb_S8x16_S8x16_0_0
abbrev r_S25x8 : Rect S25x8 := Rect.unit (s := S25x8) ![0, 0] S25x8.size inb_S25x8_S25x8_0_0
abbrev r_S61x8 : Rect S61x8 := Rect.unit (s := S61x8) ![0, 0] S61x8.size inb_S61x8_S61x8_0_0
abbrev r_S500x64 : Rect S500x64 := Rect.unit (s := S500x64) ![0, 0] S500x64.size inb_S500x64_S500x64_0_0
abbrev r_S40x16 : Rect S40x16 := Rect.unit (s := S40x16) ![0, 0] S40x16.size inb_S40x16_S40x16_0_0
abbrev r_S256x1 : Rect S256x1 := Rect.unit (s := S256x1) ![0, 0] S256x1.size inb_S256x1_S256x1_0_0
abbrev r_S1x1 : Rect S1x1 := Rect.unit (s := S1x1) ![0, 0] S1x1.size inb_S1x1_S1x1_0_0
abbrev r_S256x32 : Rect S256x32 := Rect.unit (s := S256x32) ![0, 0] S256x32.size inb_S256x32_S256x32_0_0
abbrev r_S256x128 : Rect S256x128 := Rect.unit (s := S256x128) ![0, 0] S256x128.size inb_S256x128_S256x128_0_0
abbrev r_S1x128 : Rect S1x128 := Rect.unit (s := S1x128) ![0, 0] S1x128.size inb_S1x128_S1x128_0_0
abbrev r_S128x128 : Rect S128x128 := Rect.unit (s := S128x128) ![0, 0] S128x128.size inb_S128x128_S128x128_0_0
abbrev r_S128x1 : Rect S128x1 := Rect.unit (s := S128x1) ![0, 0] S128x1.size inb_S128x1_S128x1_0_0
abbrev r_S2048x1 : Rect S2048x1 := Rect.unit (s := S2048x1) ![0, 0] S2048x1.size inb_S2048x1_S2048x1_0_0

/-! ## What the body computes -/

/-- The concatenated embedding row block (2048×256) as a function of the index blocks and the tables. -/
abbrev emb2 (x0 : Vec F S2048x128 .f32) (x1 : Vec F S1x1x2048 .i32) (x2 : Vec F S1x1x2048 .i32) (x3 : Vec F S1x1x2048 .i32) (x4 : Vec F S1x1x2048 .i32) (x5 : Vec F S1x1x2048 .i32) (x6 : Vec F S1x1x2048 .i32) (x7 : Vec F S1x1x2048 .i32) (x8 : Vec F S1x1x2048 .i32) (x9 : Vec F S1x1x2048 .i32) (x10 : Vec F S100x64 .f32) (x11 : Vec F S5x8 .f32) (x12 : Vec F S8x16 .f32) (x13 : Vec F S25x8 .f32) (x14 : Vec F S61x8 .f32) (x15 : Vec F S61x8 .f32) (x16 : Vec F S500x64 .f32) (x17 : Vec F S40x16 .f32) : FVec F S2048x256 .f32 :=
  k2_pay11 (k2_pay2 (View.ld x1 r_S1x1x2048) (View.ld x0 r_S2048x128)) (k2_pay3 (View.ld x2 r_S1x1x2048) (View.ld x10 r_S100x64))
    (k2_pay7 (View.ld x11 r_S5x8) (k2_pay4 (View.ld x3 r_S1x1x2048)) (k2_pay5 (F := F)) (k2_pay6 (F := F)))
    (k2_pay8 (View.ld x4 r_S1x1x2048) (View.ld x12 r_S8x16)) (k2_pay9 (View.ld x5 r_S1x1x2048) (View.ld x13 r_S25x8)) (k2_pay10 (View.ld x6 r_S1x1x2048) (View.ld x14 r_S61x8))
    (View.ld x7 r_S1x1x2048) (View.ld x15 r_S61x8) (View.ld x8 r_S1x1x2048) (View.ld x16 r_S500x64) (View.ld x9 r_S1x1x2048) (View.ld x17 r_S40x16)

/-- The stored value (2048×1) as a function of the 28 input blocks. -/
abbrev val2 (x0 : Vec F S2048x128 .f32) (x1 : Vec F S1x1x2048 .i32) (x2 : Vec F S1x1x2048 .i32) (x3 : Vec F S1x1x2048 .i32) (x4 : Vec F S1x1x2048 .i32) (x5 : Vec F S1x1x2048 .i32) (x6 : Vec F S1x1x2048 .i32) (x7 : Vec F S1x1x2048 .i32) (x8 : Vec F S1x1x2048 .i32) (x9 : Vec F S1x1x2048 .i32) (x10 : Vec F S100x64 .f32) (x11 : Vec F S5x8 .f32) (x12 : Vec F S8x16 .f32) (x13 : Vec F S25x8 .f32) (x14 : Vec F S61x8 .f32) (x15 : Vec F S61x8 .f32) (x16 : Vec F S500x64 .f32) (x17 : Vec F S40x16 .f32) (x18 : Vec F S256x1 .f32) (x19 : Vec F S1x1 .f32) (x20 : Vec F S256x32 .f32) (x21 : Vec F S256x128 .f32) (x22 : Vec F S1x128 .f32) (x23 : Vec F S128x128 .f32) (x24 : Vec F S1x128 .f32) (x25 : Vec F S128x128 .f32) (x26 : Vec F S1x128 .f32) (x27 : Vec F S128x1 .f32) : FVec F S2048x1 .f32 :=
  k2_pay1 (k2_pay12 (emb2 x0 x1 x2 x3 x4 x5 x6 x7 x8 x9 x10 x11 x12 x13 x14 x15 x16 x17) (View.ld x18 r_S256x1) (View.ld x19 r_S1x1)) (k2_pay13 (emb2 x0 x1 x2 x3 x4 x5 x6 x7 x8 x9 x10 x11 x12 x13 x14 x15 x16 x17) (View.ld x20 r_S256x32))
    (k2_pay14 (emb2 x0 x1 x2 x3 x4 x5 x6 x7 x8 x9 x10 x11 x12 x13 x14 x15 x16 x17) (View.ld x21 r_S256x128) (View.ld x22 r_S1x128) (View.ld x23 r_S128x128) (View.ld x24 r_S1x128) (View.ld x25 r_S128x128)) (View.ld x26 r_S1x128) (View.ld x27 r_S128x1)

/-- Window 28's staging buffer after the body: its one store, over the whole buffer. -/
def out2_28 (x0 : Vec F S2048x128 .f32) (x1 : Vec F S1x1x2048 .i32) (x2 : Vec F S1x1x2048 .i32) (x3 : Vec F S1x1x2048 .i32) (x4 : Vec F S1x1x2048 .i32) (x5 : Vec F S1x1x2048 .i32) (x6 : Vec F S1x1x2048 .i32) (x7 : Vec F S1x1x2048 .i32) (x8 : Vec F S1x1x2048 .i32) (x9 : Vec F S1x1x2048 .i32) (x10 : Vec F S100x64 .f32) (x11 : Vec F S5x8 .f32) (x12 : Vec F S8x16 .f32) (x13 : Vec F S25x8 .f32) (x14 : Vec F S61x8 .f32) (x15 : Vec F S61x8 .f32) (x16 : Vec F S500x64 .f32) (x17 : Vec F S40x16 .f32) (x18 : Vec F S256x1 .f32) (x19 : Vec F S1x1 .f32) (x20 : Vec F S256x32 .f32) (x21 : Vec F S256x128 .f32) (x22 : Vec F S1x128 .f32) (x23 : Vec F S128x128 .f32) (x24 : Vec F S1x128 .f32) (x25 : Vec F S128x128 .f32) (x26 : Vec F S1x128 .f32) (x27 : Vec F S128x1 .f32) : Vec F S2048x1 .f32 :=
  View.canon [⟨r_S2048x1, val2 x0 x1 x2 x3 x4 x5 x6 x7 x8 x9 x10 x11 x12 x13 x14 x15 x16 x17 x18 x19 x20 x21 x22 x23 x24 x25 x26 x27⟩]

/-- The store's rectangle is the whole buffer, so it covers it. -/
theorem cover2_28 (p0 : Vec F S2048x1 .f32) (y : S2048x1.Idx) :
    ∃ pc ∈ ([⟨r_S2048x1, p0⟩] : List (View.Piece (Elt F) S2048x1 .f32)), y ∈ pc.1.set :=
  View.cover_of_tiled [⟨r_S2048x1, p0⟩] S2048x1.size (by rfl) y

/-! ## The body's triple -/

set_option maxHeartbeats 4000000 in
/-- The body on whole staging memrefs, the inputs' at read contents `xW` and the output's at anything, runs to the
    continuation holding the inputs' as they were and the output's at `out2_28` of the inputs'. -/
theorem sound_kernel2 (c : Dev nD) (E : Set ℕ) (i : grid2.Coords) (arg1 : Memref sig .tc .vmem S2048x128 .f32) (harg1 : arg1.IsWhole) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .i32) (harg6 : arg6.IsWhole) (arg7 : Memref sig .tc .vmem S1x1x2048 .i32) (harg7 : arg7.IsWhole) (arg8 : Memref sig .tc .vmem S1x1x2048 .i32) (harg8 : arg8.IsWhole) (arg9 : Memref sig .tc .vmem S1x1x2048 .i32) (harg9 : arg9.IsWhole) (arg10 : Memref sig .tc .vmem S1x1x2048 .i32) (harg10 : arg10.IsWhole) (arg11 : Memref sig .tc .vmem S100x64 .f32) (harg11 : arg11.IsWhole) (arg12 : Memref sig .tc .vmem S5x8 .f32) (harg12 : arg12.IsWhole) (arg13 : Memref sig .tc .vmem S8x16 .f32) (harg13 : arg13.IsWhole) (arg14 : Memref sig .tc .vmem S25x8 .f32) (harg14 : arg14.IsWhole) (arg15 : Memref sig .tc .vmem S61x8 .f32) (harg15 : arg15.IsWhole) (arg16 : Memref sig .tc .vmem S61x8 .f32) (harg16 : arg16.IsWhole) (arg17 : Memref sig .tc .vmem S500x64 .f32) (harg17 : arg17.IsWhole) (arg18 : Memref sig .tc .vmem S40x16 .f32) (harg18 : arg18.IsWhole) (arg19 : Memref sig .tc .vmem S256x1 .f32) (harg19 : arg19.IsWhole) (arg20 : Memref sig .tc .vmem S1x1 .f32) (harg20 : arg20.IsWhole) (arg21 : Memref sig .tc .vmem S256x32 .f32) (harg21 : arg21.IsWhole) (arg22 : Memref sig .tc .vmem S256x128 .f32) (harg22 : arg22.IsWhole) (arg23 : Memref sig .tc .vmem S1x128 .f32) (harg23 : arg23.IsWhole) (arg24 : Memref sig .tc .vmem S128x128 .f32) (harg24 : arg24.IsWhole) (arg25 : Memref sig .tc .vmem S1x128 .f32) (harg25 : arg25.IsWhole) (arg26 : Memref sig .tc .vmem S128x128 .f32) (harg26 : arg26.IsWhole) (arg27 : Memref sig .tc .vmem S1x128 .f32) (harg27 : arg27.IsWhole) (arg28 : Memref sig .tc .vmem S128x1 .f32) (harg28 : arg28.IsWhole) (arg29 : Memref sig .tc .vmem S2048x1 .f32) (harg29 : arg29.IsWhole)
    (x0 : Vec F S2048x128 .f32) (x1 : Vec F S1x1x2048 .i32) (x2 : Vec F S1x1x2048 .i32) (x3 : Vec F S1x1x2048 .i32) (x4 : Vec F S1x1x2048 .i32) (x5 : Vec F S1x1x2048 .i32) (x6 : Vec F S1x1x2048 .i32) (x7 : Vec F S1x1x2048 .i32) (x8 : Vec F S1x1x2048 .i32) (x9 : Vec F S1x1x2048 .i32) (x10 : Vec F S100x64 .f32) (x11 : Vec F S5x8 .f32) (x12 : Vec F S8x16 .f32) (x13 : Vec F S25x8 .f32) (x14 : Vec F S61x8 .f32) (x15 : Vec F S61x8 .f32) (x16 : Vec F S500x64 .f32) (x17 : Vec F S40x16 .f32) (x18 : Vec F S256x1 .f32) (x19 : Vec F S1x1 .f32) (x20 : Vec F S256x32 .f32) (x21 : Vec F S256x128 .f32) (x22 : Vec F S1x128 .f32) (x23 : Vec F S128x128 .f32) (x24 : Vec F S1x128 .f32) (x25 : Vec F S128x128 .f32) (x26 : Vec F S1x128 .f32) (x27 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare (out2_28 x0 x1 x2 x3 x4 x5 x6 x7 x8 x9 x10 x11 x12 x13 x14 x15 x16 x17 x18 x19 x20 x21 x22 x23 x24 x25 x26 x27)) -∗ K ⟨⟩))
      ⊢ wp frame (wpE (defs₀ (F := F)) Variants.none c none) E (cc2__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc2__tc_body_eq_skeleton]; unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  iexists _; isplitr
  swap; · iexact H28
  ipureintro
  exact View.read_writes_eq_canon _ _ _ (cover2_28 _)

end Cert.KernelIdeal.Tc2

end
-- ==== Proof.Tc2Dat.lean ====
import proofs.«205263_g58420145160647_cont_9to1_m_909_25_alg».proof.Proof.Tc2Body

/-! # The second TensorCore kernel: the pipeline's proof data and the body obligation

The arrays are read as the region finds them (`V`, a parameter). Each input window's staging buffer holds, at
every point, that window's block of its array — fetched there or not: the windows whose block index never moves
are fetched at the first point only and keep their block —, and the body leaves in the output window's buffer the
column `out2_28` of the input blocks. -/

set_option maxRecDepth 16384

noncomputable section

namespace Cert.KernelIdeal.Tc2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U]

local notation "𝕄" => MT nD τ sig Ix (Elt F) ℕ U ℕ

variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for ANY proof
data whose array is `V`'s and whose body leaves the block in place: unfetched, the block index has not moved. -/

theorem before2_0_of {c : Dev nD} (dat : Dat τ (Elt F) Ix ℕ U ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix ℕ U ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix ℕ U ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix ℕ U ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix ℕ U ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix ℕ U ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Ix ℕ U ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Ix ℕ U ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Ix ℕ U ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Ix ℕ U ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Ix ℕ U ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Ix ℕ U ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Ix ℕ U ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Ix ℕ U ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
theorem before2_14_of {c : Dev nD} (dat : Dat τ (Elt F) Ix ℕ U ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
theorem before2_15_of {c : Dev nD} (dat : Dat τ (Elt F) Ix ℕ U ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
theorem before2_16_of {c : Dev nD} (dat : Dat τ (Elt F) Ix ℕ U ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
theorem before2_17_of {c : Dev nD} (dat : Dat τ (Elt F) Ix ℕ U ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)
theorem before2_18_of {c : Dev nD} (dat : Dat τ (Elt F) Ix ℕ U ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)
theorem before2_19_of {c : Dev nD} (dat : Dat τ (Elt F) Ix ℕ U ℕ cfg2 c) (hA : dat.A 19 = V c (Pipeline.arrRef spec2 19))
    (hafter : ∀ t, dat.after 19 t = iblk2 V c 19 t) (t : Fin cfg2.N) (d) : dat.before 19 t d = iblk2 V c 19 t :=
  (dat.before_in_eq_fetched 19 rfl (fun _ => rfl) (fun _ _ _ => rfl) (fun t => by rw [hafter]; unfold Dat.blockOf iblk2; rw [hA]; try rfl) t d).trans
    (by unfold Dat.fetched Dat.blockOf iblk2; rw [hA]; try rfl)
theorem before2_20_of {c : Dev nD} (dat : Dat τ (Elt F) Ix ℕ U ℕ cfg2 c) (hA : dat.A 20 = V c (Pipeline.arrRef spec2 20))
    (hafter : ∀ t, dat.after 20 t = iblk2 V c 20 t) (t : Fin cfg2.N) (d) : dat.before 20 t d = iblk2 V c 20 t :=
  (dat.before_in_eq_fetched 20 rfl (fun _ => rfl) (fun _ _ _ => rfl) (fun t => by rw [hafter]; unfold Dat.blockOf iblk2; rw [hA]; try rfl) t d).trans
    (by unfold Dat.fetched Dat.blockOf iblk2; rw [hA]; try rfl)
theorem before2_21_of {c : Dev nD} (dat : Dat τ (Elt F) Ix ℕ U ℕ cfg2 c) (hA : dat.A 21 = V c (Pipeline.arrRef spec2 21))
    (hafter : ∀ t, dat.after 21 t = iblk2 V c 21 t) (t : Fin cfg2.N) (d) : dat.before 21 t d = iblk2 V c 21 t :=
  (dat.before_in_eq_fetched 21 rfl (fun _ => rfl) (fun _ _ _ => rfl) (fun t => by rw [hafter]; unfold Dat.blockOf iblk2; rw [hA]; try rfl) t d).trans
    (by unfold Dat.fetched Dat.blockOf iblk2; rw [hA]; try rfl)
theorem before2_22_of {c : Dev nD} (dat : Dat τ (Elt F) Ix ℕ U ℕ cfg2 c) (hA : dat.A 22 = V c (Pipeline.arrRef spec2 22))
    (hafter : ∀ t, dat.after 22 t = iblk2 V c 22 t) (t : Fin cfg2.N) (d) : dat.before 22 t d = iblk2 V c 22 t :=
  (dat.before_in_eq_fetched 22 rfl (fun _ => rfl) (fun _ _ _ => rfl) (fun t => by rw [hafter]; unfold Dat.blockOf iblk2; rw [hA]; try rfl) t d).trans
    (by unfold Dat.fetched Dat.blockOf iblk2; rw [hA]; try rfl)
theorem before2_23_of {c : Dev nD} (dat : Dat τ (Elt F) Ix ℕ U ℕ cfg2 c) (hA : dat.A 23 = V c (Pipeline.arrRef spec2 23))
    (hafter : ∀ t, dat.after 23 t = iblk2 V c 23 t) (t : Fin cfg2.N) (d) : dat.before 23 t d = iblk2 V c 23 t :=
  (dat.before_in_eq_fetched 23 rfl (fun _ => rfl) (fun _ _ _ => rfl) (fun t => by rw [hafter]; unfold Dat.blockOf iblk2; rw [hA]; try rfl) t d).trans
    (by unfold Dat.fetched Dat.blockOf iblk2; rw [hA]; try rfl)
theorem before2_24_of {c : Dev nD} (dat : Dat τ (Elt F) Ix ℕ U ℕ cfg2 c) (hA : dat.A 24 = V c (Pipeline.arrRef spec2 24))
    (hafter : ∀ t, dat.after 24 t = iblk2 V c 24 t) (t : Fin cfg2.N) (d) : dat.before 24 t d = iblk2 V c 24 t :=
  (dat.before_in_eq_fetched 24 rfl (fun _ => rfl) (fun _ _ _ => rfl) (fun t => by rw [hafter]; unfold Dat.blockOf iblk2; rw [hA]; try rfl) t d).trans
    (by unfold Dat.fetched Dat.blockOf iblk2; rw [hA]; try rfl)
theorem before2_25_of {c : Dev nD} (dat : Dat τ (Elt F) Ix ℕ U ℕ cfg2 c) (hA : dat.A 25 = V c (Pipeline.arrRef spec2 25))
    (hafter : ∀ t, dat.after 25 t = iblk2 V c 25 t) (t : Fin cfg2.N) (d) : dat.before 25 t d = iblk2 V c 25 t :=
  (dat.before_in_eq_fetched 25 rfl (fun _ => rfl) (fun _ _ _ => rfl) (fun t => by rw [hafter]; unfold Dat.blockOf iblk2; rw [hA]; try rfl) t d).trans
    (by unfold Dat.fetched Dat.blockOf iblk2; rw [hA]; try rfl)
theorem before2_26_of {c : Dev nD} (dat : Dat τ (Elt F) Ix ℕ U ℕ cfg2 c) (hA : dat.A 26 = V c (Pipeline.arrRef spec2 26))
    (hafter : ∀ t, dat.after 26 t = iblk2 V c 26 t) (t : Fin cfg2.N) (d) : dat.before 26 t d = iblk2 V c 26 t :=
  (dat.before_in_eq_fetched 26 rfl (fun _ => rfl) (fun _ _ _ => rfl) (fun t => by rw [hafter]; unfold Dat.blockOf iblk2; rw [hA]; try rfl) t d).trans
    (by unfold Dat.fetched Dat.blockOf iblk2; rw [hA]; try rfl)
theorem before2_27_of {c : Dev nD} (dat : Dat τ (Elt F) Ix ℕ U ℕ cfg2 c) (hA : dat.A 27 = V c (Pipeline.arrRef spec2 27))
    (hafter : ∀ t, dat.after 27 t = iblk2 V c 27 t) (t : Fin cfg2.N) (d) : dat.before 27 t d = iblk2 V c 27 t :=
  (dat.before_in_eq_fetched 27 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of the pipeline on core `c`: the arrays as the region finds them; after the body at point `t`
    each input's buffer at its block and the output's at `out2_28` of the input blocks; an invariant `Φ₀` the body
    neither reads nor changes; the tallies `O` owed throughout, the recorded pairs within `Rc` throughout; full shares. -/
noncomputable def dats2 (O : CellTallies nD τ sig Ix) (Rc : Set (SemLoc sig × Ix)) (Φ₀ : sProp 𝕄) (c : Dev nD) : Dat τ (Elt F) Ix ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => iblk2 V c 22 t
    | ⟨23, _⟩ => iblk2 V c 23 t
    | ⟨24, _⟩ => iblk2 V c 24 t
    | ⟨25, _⟩ => iblk2 V c 25 t
    | ⟨26, _⟩ => iblk2 V c 26 t
    | ⟨27, _⟩ => iblk2 V c 27 t
    | ⟨28, _⟩ => out2_28 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t)
    | ⟨_ + 29, h⟩ => absurd h (Nat.not_lt.2 (Nat.le_add_left _ _))
  Φ _ := Φ₀
  q _ := fullShare
  owed _ := O
  recorded _ := Rc

variable (O : CellTallies nD τ sig Ix) (Rc : Set (SemLoc sig × Ix))

/-- The proof data's arrays are the region-entry contents. -/
theorem A_eq2 (Φ₀ : sProp 𝕄) (c : Dev nD) (w : Fin cfg2.W) : (dats2 V O Rc Φ₀ c).A w = V c (Pipeline.arrRef spec2 w) := by
  dsimp only [dats2]

/-- What the body leaves, window by window. -/
theorem after2_0 (Φ₀ : sProp 𝕄) (c : Dev nD) (t : Fin cfg2.N) : (dats2 V O Rc Φ₀ c).after 0 t = iblk2 V c 0 t := by dsimp only [dats2]
theorem after2_1 (Φ₀ : sProp 𝕄) (c : Dev nD) (t : Fin cfg2.N) : (dats2 V O Rc Φ₀ c).after 1 t = iblk2 V c 1 t := by dsimp only [dats2]
theorem after2_2 (Φ₀ : sProp 𝕄) (c : Dev nD) (t : Fin cfg2.N) : (dats2 V O Rc Φ₀ c).after 2 t = iblk2 V c 2 t := by dsimp only [dats2]
theorem after2_3 (Φ₀ : sProp 𝕄) (c : Dev nD) (t : Fin cfg2.N) : (dats2 V O Rc Φ₀ c).after 3 t = iblk2 V c 3 t := by dsimp only [dats2]
theorem after2_4 (Φ₀ : sProp 𝕄) (c : Dev nD) (t : Fin cfg2.N) : (dats2 V O Rc Φ₀ c).after 4 t = iblk2 V c 4 t := by dsimp only [dats2]
theorem after2_5 (Φ₀ : sProp 𝕄) (c : Dev nD) (t : Fin cfg2.N) : (dats2 V O Rc Φ₀ c).after 5 t = iblk2 V c 5 t := by dsimp only [dats2]
theorem after2_6 (Φ₀ : sProp 𝕄) (c : Dev nD) (t : Fin cfg2.N) : (dats2 V O Rc Φ₀ c).after 6 t = iblk2 V c 6 t := by dsimp only [dats2]
theorem after2_7 (Φ₀ : sProp 𝕄) (c : Dev nD) (t : Fin cfg2.N) : (dats2 V O Rc Φ₀ c).after 7 t = iblk2 V c 7 t := by dsimp only [dats2]
theorem after2_8 (Φ₀ : sProp 𝕄) (c : Dev nD) (t : Fin cfg2.N) : (dats2 V O Rc Φ₀ c).after 8 t = iblk2 V c 8 t := by dsimp only [dats2]
theorem after2_9 (Φ₀ : sProp 𝕄) (c : Dev nD) (t : Fin cfg2.N) : (dats2 V O Rc Φ₀ c).after 9 t = iblk2 V c 9 t := by dsimp only [dats2]
theorem after2_10 (Φ₀ : sProp 𝕄) (c : Dev nD) (t : Fin cfg2.N) : (dats2 V O Rc Φ₀ c).after 10 t = iblk2 V c 10 t := by dsimp only [dats2]
theorem after2_11 (Φ₀ : sProp 𝕄) (c : Dev nD) (t : Fin cfg2.N) : (dats2 V O Rc Φ₀ c).after 11 t = iblk2 V c 11 t := by dsimp only [dats2]
theorem after2_12 (Φ₀ : sProp 𝕄) (c : Dev nD) (t : Fin cfg2.N) : (dats2 V O Rc Φ₀ c).after 12 t = iblk2 V c 12 t := by dsimp only [dats2]
theorem after2_13 (Φ₀ : sProp 𝕄) (c : Dev nD) (t : Fin cfg2.N) : (dats2 V O Rc Φ₀ c).after 13 t = iblk2 V c 13 t := by dsimp only [dats2]
theorem after2_14 (Φ₀ : sProp 𝕄) (c : Dev nD) (t : Fin cfg2.N) : (dats2 V O Rc Φ₀ c).after 14 t = iblk2 V c 14 t := by dsimp only [dats2]
theorem after2_15 (Φ₀ : sProp 𝕄) (c : Dev nD) (t : Fin cfg2.N) : (dats2 V O Rc Φ₀ c).after 15 t = iblk2 V c 15 t := by dsimp only [dats2]
theorem after2_16 (Φ₀ : sProp 𝕄) (c : Dev nD) (t : Fin cfg2.N) : (dats2 V O Rc Φ₀ c).after 16 t = iblk2 V c 16 t := by dsimp only [dats2]
theorem after2_17 (Φ₀ : sProp 𝕄) (c : Dev nD) (t : Fin cfg2.N) : (dats2 V O Rc Φ₀ c).after 17 t = iblk2 V c 17 t := by dsimp only [dats2]
theorem after2_18 (Φ₀ : sProp 𝕄) (c : Dev nD) (t : Fin cfg2.N) : (dats2 V O Rc Φ₀ c).after 18 t = iblk2 V c 18 t := by dsimp only [dats2]
theorem after2_19 (Φ₀ : sProp 𝕄) (c : Dev nD) (t : Fin cfg2.N) : (dats2 V O Rc Φ₀ c).after 19 t = iblk2 V c 19 t := by dsimp only [dats2]
theorem after2_20 (Φ₀ : sProp 𝕄) (c : Dev nD) (t : Fin cfg2.N) : (dats2 V O Rc Φ₀ c).after 20 t = iblk2 V c 20 t := by dsimp only [dats2]
theorem after2_21 (Φ₀ : sProp 𝕄) (c : Dev nD) (t : Fin cfg2.N) : (dats2 V O Rc Φ₀ c).after 21 t = iblk2 V c 21 t := by dsimp only [dats2]
theorem after2_22 (Φ₀ : sProp 𝕄) (c : Dev nD) (t : Fin cfg2.N) : (dats2 V O Rc Φ₀ c).after 22 t = iblk2 V c 22 t := by dsimp only [dats2]
theorem after2_23 (Φ₀ : sProp 𝕄) (c : Dev nD) (t : Fin cfg2.N) : (dats2 V O Rc Φ₀ c).after 23 t = iblk2 V c 23 t := by dsimp only [dats2]
theorem after2_24 (Φ₀ : sProp 𝕄) (c : Dev nD) (t : Fin cfg2.N) : (dats2 V O Rc Φ₀ c).after 24 t = iblk2 V c 24 t := by dsimp only [dats2]
theorem after2_25 (Φ₀ : sProp 𝕄) (c : Dev nD) (t : Fin cfg2.N) : (dats2 V O Rc Φ₀ c).after 25 t = iblk2 V c 25 t := by dsimp only [dats2]
theorem after2_26 (Φ₀ : sProp 𝕄) (c : Dev nD) (t : Fin cfg2.N) : (dats2 V O Rc Φ₀ c).after 26 t = iblk2 V c 26 t := by dsimp only [dats2]
theorem after2_27 (Φ₀ : sProp 𝕄) (c : Dev nD) (t : Fin cfg2.N) : (dats2 V O Rc Φ₀ c).after 27 t = iblk2 V c 27 t := by dsimp only [dats2]
theorem after2_28 (Φ₀ : sProp 𝕄) (c : Dev nD) (t : Fin cfg2.N) : (dats2 V O Rc Φ₀ c).after 28 t = out2_28 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) := by dsimp only [dats2]

/-- Each input's current staging buffer holds its block at every point. -/
theorem before2_0 (Φ₀ : sProp 𝕄) (c : Dev nD) (t : Fin cfg2.N) (d) : (dats2 V O Rc Φ₀ c).before 0 t d = iblk2 V c 0 t :=
  before2_0_of V (dats2 V O Rc Φ₀ c) (A_eq2 V O Rc Φ₀ c 0) (after2_0 V O Rc Φ₀ c) t d
theorem before2_1 (Φ₀ : sProp 𝕄) (c : Dev nD) (t : Fin cfg2.N) (d) : (dats2 V O Rc Φ₀ c).before 1 t d = iblk2 V c 1 t :=
  before2_1_of V (dats2 V O Rc Φ₀ c) (A_eq2 V O Rc Φ₀ c 1) (after2_1 V O Rc Φ₀ c) t d
theorem before2_2 (Φ₀ : sProp 𝕄) (c : Dev nD) (t : Fin cfg2.N) (d) : (dats2 V O Rc Φ₀ c).before 2 t d = iblk2 V c 2 t :=
  before2_2_of V (dats2 V O Rc Φ₀ c) (A_eq2 V O Rc Φ₀ c 2) (after2_2 V O Rc Φ₀ c) t d
theorem before2_3 (Φ₀ : sProp 𝕄) (c : Dev nD) (t : Fin cfg2.N) (d) : (dats2 V O Rc Φ₀ c).before 3 t d = iblk2 V c 3 t :=
  before2_3_of V (dats2 V O Rc Φ₀ c) (A_eq2 V O Rc Φ₀ c 3) (after2_3 V O Rc Φ₀ c) t d
theorem before2_4 (Φ₀ : sProp 𝕄) (c : Dev nD) (t : Fin cfg2.N) (d) : (dats2 V O Rc Φ₀ c).before 4 t d = iblk2 V c 4 t :=
  before2_4_of V (dats2 V O Rc Φ₀ c) (A_eq2 V O Rc Φ₀ c 4) (after2_4 V O Rc Φ₀ c) t d
theorem before2_5 (Φ₀ : sProp 𝕄) (c : Dev nD) (t : Fin cfg2.N) (d) : (dats2 V O Rc Φ₀ c).before 5 t d = iblk2 V c 5 t :=
  before2_5_of V (dats2 V O Rc Φ₀ c) (A_eq2 V O Rc Φ₀ c 5) (after2_5 V O Rc Φ₀ c) t d
theorem before2_6 (Φ₀ : sProp 𝕄) (c : Dev nD) (t : Fin cfg2.N) (d) : (dats2 V O Rc Φ₀ c).before 6 t d = iblk2 V c 6 t :=
  before2_6_of V (dats2 V O Rc Φ₀ c) (A_eq2 V O Rc Φ₀ c 6) (after2_6 V O Rc Φ₀ c) t d
theorem before2_7 (Φ₀ : sProp 𝕄) (c : Dev nD) (t : Fin cfg2.N) (d) : (dats2 V O Rc Φ₀ c).before 7 t d = iblk2 V c 7 t :=
  before2_7_of V (dats2 V O Rc Φ₀ c) (A_eq2 V O Rc Φ₀ c 7) (after2_7 V O Rc Φ₀ c) t d
theorem before2_8 (Φ₀ : sProp 𝕄) (c : Dev nD) (t : Fin cfg2.N) (d) : (dats2 V O Rc Φ₀ c).before 8 t d = iblk2 V c 8 t :=
  before2_8_of V (dats2 V O Rc Φ₀ c) (A_eq2 V O Rc Φ₀ c 8) (after2_8 V O Rc Φ₀ c) t d
theorem before2_9 (Φ₀ : sProp 𝕄) (c : Dev nD) (t : Fin cfg2.N) (d) : (dats2 V O Rc Φ₀ c).before 9 t d = iblk2 V c 9 t :=
  before2_9_of V (dats2 V O Rc Φ₀ c) (A_eq2 V O Rc Φ₀ c 9) (after2_9 V O Rc Φ₀ c) t d
theorem before2_10 (Φ₀ : sProp 𝕄) (c : Dev nD) (t : Fin cfg2.N) (d) : (dats2 V O Rc Φ₀ c).before 10 t d = iblk2 V c 10 t :=
  before2_10_of V (dats2 V O Rc Φ₀ c) (A_eq2 V O Rc Φ₀ c 10) (after2_10 V O Rc Φ₀ c) t d
theorem before2_11 (Φ₀ : sProp 𝕄) (c : Dev nD) (t : Fin cfg2.N) (d) : (dats2 V O Rc Φ₀ c).before 11 t d = iblk2 V c 11 t :=
  before2_11_of V (dats2 V O Rc Φ₀ c) (A_eq2 V O Rc Φ₀ c 11) (after2_11 V O Rc Φ₀ c) t d
theorem before2_12 (Φ₀ : sProp 𝕄) (c : Dev nD) (t : Fin cfg2.N) (d) : (dats2 V O Rc Φ₀ c).before 12 t d = iblk2 V c 12 t :=
  before2_12_of V (dats2 V O Rc Φ₀ c) (A_eq2 V O Rc Φ₀ c 12) (after2_12 V O Rc Φ₀ c) t d
theorem before2_13 (Φ₀ : sProp 𝕄) (c : Dev nD) (t : Fin cfg2.N) (d) : (dats2 V O Rc Φ₀ c).before 13 t d = iblk2 V c 13 t :=
  before2_13_of V (dats2 V O Rc Φ₀ c) (A_eq2 V O Rc Φ₀ c 13) (after2_13 V O Rc Φ₀ c) t d
theorem before2_14 (Φ₀ : sProp 𝕄) (c : Dev nD) (t : Fin cfg2.N) (d) : (dats2 V O Rc Φ₀ c).before 14 t d = iblk2 V c 14 t :=
  before2_14_of V (dats2 V O Rc Φ₀ c) (A_eq2 V O Rc Φ₀ c 14) (after2_14 V O Rc Φ₀ c) t d
theorem before2_15 (Φ₀ : sProp 𝕄) (c : Dev nD) (t : Fin cfg2.N) (d) : (dats2 V O Rc Φ₀ c).before 15 t d = iblk2 V c 15 t :=
  before2_15_of V (dats2 V O Rc Φ₀ c) (A_eq2 V O Rc Φ₀ c 15) (after2_15 V O Rc Φ₀ c) t d
theorem before2_16 (Φ₀ : sProp 𝕄) (c : Dev nD) (t : Fin cfg2.N) (d) : (dats2 V O Rc Φ₀ c).before 16 t d = iblk2 V c 16 t :=
  before2_16_of V (dats2 V O Rc Φ₀ c) (A_eq2 V O Rc Φ₀ c 16) (after2_16 V O Rc Φ₀ c) t d
theorem before2_17 (Φ₀ : sProp 𝕄) (c : Dev nD) (t : Fin cfg2.N) (d) : (dats2 V O Rc Φ₀ c).before 17 t d = iblk2 V c 17 t :=
  before2_17_of V (dats2 V O Rc Φ₀ c) (A_eq2 V O Rc Φ₀ c 17) (after2_17 V O Rc Φ₀ c) t d
theorem before2_18 (Φ₀ : sProp 𝕄) (c : Dev nD) (t : Fin cfg2.N) (d) : (dats2 V O Rc Φ₀ c).before 18 t d = iblk2 V c 18 t :=
  before2_18_of V (dats2 V O Rc Φ₀ c) (A_eq2 V O Rc Φ₀ c 18) (after2_18 V O Rc Φ₀ c) t d
theorem before2_19 (Φ₀ : sProp 𝕄) (c : Dev nD) (t : Fin cfg2.N) (d) : (dats2 V O Rc Φ₀ c).before 19 t d = iblk2 V c 19 t :=
  before2_19_of V (dats2 V O Rc Φ₀ c) (A_eq2 V O Rc Φ₀ c 19) (after2_19 V O Rc Φ₀ c) t d
theorem before2_20 (Φ₀ : sProp 𝕄) (c : Dev nD) (t : Fin cfg2.N) (d) : (dats2 V O Rc Φ₀ c).before 20 t d = iblk2 V c 20 t :=
  before2_20_of V (dats2 V O Rc Φ₀ c) (A_eq2 V O Rc Φ₀ c 20) (after2_20 V O Rc Φ₀ c) t d
theorem before2_21 (Φ₀ : sProp 𝕄) (c : Dev nD) (t : Fin cfg2.N) (d) : (dats2 V O Rc Φ₀ c).before 21 t d = iblk2 V c 21 t :=
  before2_21_of V (dats2 V O Rc Φ₀ c) (A_eq2 V O Rc Φ₀ c 21) (after2_21 V O Rc Φ₀ c) t d
theorem before2_22 (Φ₀ : sProp 𝕄) (c : Dev nD) (t : Fin cfg2.N) (d) : (dats2 V O Rc Φ₀ c).before 22 t d = iblk2 V c 22 t :=
  before2_22_of V (dats2 V O Rc Φ₀ c) (A_eq2 V O Rc Φ₀ c 22) (after2_22 V O Rc Φ₀ c) t d
theorem before2_23 (Φ₀ : sProp 𝕄) (c : Dev nD) (t : Fin cfg2.N) (d) : (dats2 V O Rc Φ₀ c).before 23 t d = iblk2 V c 23 t :=
  before2_23_of V (dats2 V O Rc Φ₀ c) (A_eq2 V O Rc Φ₀ c 23) (after2_23 V O Rc Φ₀ c) t d
theorem before2_24 (Φ₀ : sProp 𝕄) (c : Dev nD) (t : Fin cfg2.N) (d) : (dats2 V O Rc Φ₀ c).before 24 t d = iblk2 V c 24 t :=
  before2_24_of V (dats2 V O Rc Φ₀ c) (A_eq2 V O Rc Φ₀ c 24) (after2_24 V O Rc Φ₀ c) t d
theorem before2_25 (Φ₀ : sProp 𝕄) (c : Dev nD) (t : Fin cfg2.N) (d) : (dats2 V O Rc Φ₀ c).before 25 t d = iblk2 V c 25 t :=
  before2_25_of V (dats2 V O Rc Φ₀ c) (A_eq2 V O Rc Φ₀ c 25) (after2_25 V O Rc Φ₀ c) t d
theorem before2_26 (Φ₀ : sProp 𝕄) (c : Dev nD) (t : Fin cfg2.N) (d) : (dats2 V O Rc Φ₀ c).before 26 t d = iblk2 V c 26 t :=
  before2_26_of V (dats2 V O Rc Φ₀ c) (A_eq2 V O Rc Φ₀ c 26) (after2_26 V O Rc Φ₀ c) t d
theorem before2_27 (Φ₀ : sProp 𝕄) (c : Dev nD) (t : Fin cfg2.N) (d) : (dats2 V O Rc Φ₀ c).before 27 t d = iblk2 V c 27 t :=
  before2_27_of V (dats2 V O Rc Φ₀ c) (A_eq2 V O Rc Φ₀ c 27) (after2_27 V O Rc Φ₀ c) t d

/-! ## The body obligation, at a generic point -/

/-- What the body is called with at point `t`, the windows one by one, -/
noncomputable def bodyPre2 (Φ₀ : sProp 𝕄) (ι : Ix) (c : Dev nD) (t : Fin cfg2.N) : sProp 𝕄 :=
  iprop((dats2 V O Rc Φ₀ c).Φ t.castSucc ∗ (dats2 V O Rc Φ₀ c).owesAt ι t.castSucc
    ∗ (∃ d, owns (c : Thread nD τ) (st2_0 t) fullShare ((dats2 V O Rc Φ₀ c).before 0 t d))
    ∗ (∃ d, owns (c : Thread nD τ) (st2_1 t) fullShare ((dats2 V O Rc Φ₀ c).before 1 t d))
    ∗ (∃ d, owns (c : Thread nD τ) (st2_2 t) fullShare ((dats2 V O Rc Φ₀ c).before 2 t d))
    ∗ (∃ d, owns (c : Thread nD τ) (st2_3 t) fullShare ((dats2 V O Rc Φ₀ c).before 3 t d))
    ∗ (∃ d, owns (c : Thread nD τ) (st2_4 t) fullShare ((dats2 V O Rc Φ₀ c).before 4 t d))
    ∗ (∃ d, owns (c : Thread nD τ) (st2_5 t) fullShare ((dats2 V O Rc Φ₀ c).before 5 t d))
    ∗ (∃ d, owns (c : Thread nD τ) (st2_6 t) fullShare ((dats2 V O Rc Φ₀ c).before 6 t d))
    ∗ (∃ d, owns (c : Thread nD τ) (st2_7 t) fullShare ((dats2 V O Rc Φ₀ c).before 7 t d))
    ∗ (∃ d, owns (c : Thread nD τ) (st2_8 t) fullShare ((dats2 V O Rc Φ₀ c).before 8 t d))
    ∗ (∃ d, owns (c : Thread nD τ) (st2_9 t) fullShare ((dats2 V O Rc Φ₀ c).before 9 t d))
    ∗ (∃ d, owns (c : Thread nD τ) (st2_10 t) fullShare ((dats2 V O Rc Φ₀ c).before 10 t d))
    ∗ (∃ d, owns (c : Thread nD τ) (st2_11 t) fullShare ((dats2 V O Rc Φ₀ c).before 11 t d))
    ∗ (∃ d, owns (c : Thread nD τ) (st2_12 t) fullShare ((dats2 V O Rc Φ₀ c).before 12 t d))
    ∗ (∃ d, owns (c : Thread nD τ) (st2_13 t) fullShare ((dats2 V O Rc Φ₀ c).before 13 t d))
    ∗ (∃ d, owns (c : Thread nD τ) (st2_14 t) fullShare ((dats2 V O Rc Φ₀ c).before 14 t d))
    ∗ (∃ d, owns (c : Thread nD τ) (st2_15 t) fullShare ((dats2 V O Rc Φ₀ c).before 15 t d))
    ∗ (∃ d, owns (c : Thread nD τ) (st2_16 t) fullShare ((dats2 V O Rc Φ₀ c).before 16 t d))
    ∗ (∃ d, owns (c : Thread nD τ) (st2_17 t) fullShare ((dats2 V O Rc Φ₀ c).before 17 t d))
    ∗ (∃ d, owns (c : Thread nD τ) (st2_18 t) fullShare ((dats2 V O Rc Φ₀ c).before 18 t d))
    ∗ (∃ d, owns (c : Thread nD τ) (st2_19 t) fullShare ((dats2 V O Rc Φ₀ c).before 19 t d))
    ∗ (∃ d, owns (c : Thread nD τ) (st2_20 t) fullShare ((dats2 V O Rc Φ₀ c).before 20 t d))
    ∗ (∃ d, owns (c : Thread nD τ) (st2_21 t) fullShare ((dats2 V O Rc Φ₀ c).before 21 t d))
    ∗ (∃ d, owns (c : Thread nD τ) (st2_22 t) fullShare ((dats2 V O Rc Φ₀ c).before 22 t d))
    ∗ (∃ d, owns (c : Thread nD τ) (st2_23 t) fullShare ((dats2 V O Rc Φ₀ c).before 23 t d))
    ∗ (∃ d, owns (c : Thread nD τ) (st2_24 t) fullShare ((dats2 V O Rc Φ₀ c).before 24 t d))
    ∗ (∃ d, owns (c : Thread nD τ) (st2_25 t) fullShare ((dats2 V O Rc Φ₀ c).before 25 t d))
    ∗ (∃ d, owns (c : Thread nD τ) (st2_26 t) fullShare ((dats2 V O Rc Φ₀ c).before 26 t d))
    ∗ (∃ d, owns (c : Thread nD τ) (st2_27 t) fullShare ((dats2 V O Rc Φ₀ c).before 27 t d))
    ∗ (∃ d, owns (c : Thread nD τ) (st2_28 t) fullShare ((dats2 V O Rc Φ₀ c).before 28 t d)))

/-- and what it returns. -/
noncomputable def bodyPost2 (Φ₀ : sProp 𝕄) (ι : Ix) (c : Dev nD) (t : Fin cfg2.N) : sProp 𝕄 :=
  iprop((dats2 V O Rc Φ₀ c).Φ t.succ ∗ (dats2 V O Rc Φ₀ c).owesAt ι t.succ
    ∗ owns (c : Thread nD τ) (st2_0 t) fullShare ((dats2 V O Rc Φ₀ c).after 0 t)
    ∗ owns (c : Thread nD τ) (st2_1 t) fullShare ((dats2 V O Rc Φ₀ c).after 1 t)
    ∗ owns (c : Thread nD τ) (st2_2 t) fullShare ((dats2 V O Rc Φ₀ c).after 2 t)
    ∗ owns (c : Thread nD τ) (st2_3 t) fullShare ((dats2 V O Rc Φ₀ c).after 3 t)
    ∗ owns (c : Thread nD τ) (st2_4 t) fullShare ((dats2 V O Rc Φ₀ c).after 4 t)
    ∗ owns (c : Thread nD τ) (st2_5 t) fullShare ((dats2 V O Rc Φ₀ c).after 5 t)
    ∗ owns (c : Thread nD τ) (st2_6 t) fullShare ((dats2 V O Rc Φ₀ c).after 6 t)
    ∗ owns (c : Thread nD τ) (st2_7 t) fullShare ((dats2 V O Rc Φ₀ c).after 7 t)
    ∗ owns (c : Thread nD τ) (st2_8 t) fullShare ((dats2 V O Rc Φ₀ c).after 8 t)
    ∗ owns (c : Thread nD τ) (st2_9 t) fullShare ((dats2 V O Rc Φ₀ c).after 9 t)
    ∗ owns (c : Thread nD τ) (st2_10 t) fullShare ((dats2 V O Rc Φ₀ c).after 10 t)
    ∗ owns (c : Thread nD τ) (st2_11 t) fullShare ((dats2 V O Rc Φ₀ c).after 11 t)
    ∗ owns (c : Thread nD τ) (st2_12 t) fullShare ((dats2 V O Rc Φ₀ c).after 12 t)
    ∗ owns (c : Thread nD τ) (st2_13 t) fullShare ((dats2 V O Rc Φ₀ c).after 13 t)
    ∗ owns (c : Thread nD τ) (st2_14 t) fullShare ((dats2 V O Rc Φ₀ c).after 14 t)
    ∗ owns (c : Thread nD τ) (st2_15 t) fullShare ((dats2 V O Rc Φ₀ c).after 15 t)
    ∗ owns (c : Thread nD τ) (st2_16 t) fullShare ((dats2 V O Rc Φ₀ c).after 16 t)
    ∗ owns (c : Thread nD τ) (st2_17 t) fullShare ((dats2 V O Rc Φ₀ c).after 17 t)
    ∗ owns (c : Thread nD τ) (st2_18 t) fullShare ((dats2 V O Rc Φ₀ c).after 18 t)
    ∗ owns (c : Thread nD τ) (st2_19 t) fullShare ((dats2 V O Rc Φ₀ c).after 19 t)
    ∗ owns (c : Thread nD τ) (st2_20 t) fullShare ((dats2 V O Rc Φ₀ c).after 20 t)
    ∗ owns (c : Thread nD τ) (st2_21 t) fullShare ((dats2 V O Rc Φ₀ c).after 21 t)
    ∗ owns (c : Thread nD τ) (st2_22 t) fullShare ((dats2 V O Rc Φ₀ c).after 22 t)
    ∗ owns (c : Thread nD τ) (st2_23 t) fullShare ((dats2 V O Rc Φ₀ c).after 23 t)
    ∗ owns (c : Thread nD τ) (st2_24 t) fullShare ((dats2 V O Rc Φ₀ c).after 24 t)
    ∗ owns (c : Thread nD τ) (st2_25 t) fullShare ((dats2 V O Rc Φ₀ c).after 25 t)
    ∗ owns (c : Thread nD τ) (st2_26 t) fullShare ((dats2 V O Rc Φ₀ c).after 26 t)
    ∗ owns (c : Thread nD τ) (st2_27 t) fullShare ((dats2 V O Rc Φ₀ c).after 27 t)
    ∗ owns (c : Thread nD τ) (st2_28 t) fullShare ((dats2 V O Rc Φ₀ c).after 28 t))

set_option maxHeartbeats 4000000 in
/-- The body at any point: the inputs' memrefs hold their blocks, so the body's triple applies; the invariant and
    the core's tallies pass through unread. -/
theorem sound_body2 (Φ₀ : sProp 𝕄) (ι : Ix) (c : Dev nD) (t : Fin cfg2.N) :
    bodyPre2 V O Rc Φ₀ ι c t ⊢ wp frame (wpE (defs₀ (F := F)) Variants.none c none) Set.univ (bodyAt2 t) (fun _ => bodyPost2 V O Rc Φ₀ ι c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18, before2_19, before2_20, before2_21, before2_22, before2_23, before2_24, before2_25, before2_26, before2_27]
  rw [show (dats2 V O Rc Φ₀ c).Φ t.succ = (dats2 V O Rc Φ₀ c).Φ t.castSucc from rfl,
    show (dats2 V O Rc Φ₀ c).owesAt ι t.succ = (dats2 V O Rc Φ₀ c).owesAt ι t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22, after2_23, after2_24, after2_25, after2_26, after2_27, after2_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel2 c Set.univ (grid2.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

set_option maxHeartbeats 4000000 in
/-- The library's body obligation, at every point. -/
theorem body_obligation2 (Φ₀ : sProp 𝕄) (ι : Ix) (c : Dev nD) :
    BodyObligation (dats2 (F := F) V O Rc Φ₀ c) (defs₀ (F := F)) Variants.none ι Set.univ := fun t => by
  rw [bigSep_W2, bigSep_W2]
  exact sound_body2 V O Rc Φ₀ ι c t

end Cert.KernelIdeal.Tc2

end
-- ==== Proof.RunReg0.lean ====
/-
  The run of the whole program, part 3: the first TensorCore region as a segment of @main on the TensorCore thread
  of the SparseCore launch — what it is entered from, what it leaves, and how its arrays are sorted out of the
  thread's buffers and put back.
-/
import proofs.«205263_g58420145160647_cont_9to1_m_909_25_alg».proof.Proof.RunMain
import proofs.«205263_g58420145160647_cont_9to1_m_909_25_alg».proof.Proof.Tc0Dat
import proofs.«205263_g58420145160647_cont_9to1_m_909_25_alg».proof.Proof.Tc2Dat

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The buffers' contents up to the first region -/

/-- Device `d`'s buffers at launch. -/
abbrev W0 (d : Dev nD) : Valuation τ sig (Elt F) := fun b => m (d, b)
/-- After the host transpose (the first region's entry). -/
abbrev W1 (d : Dev nD) : Valuation τ sig (Elt F) := StableHlo.after (hostOps0 (F := F)) (W0 m d)
/-- The same read at the TensorCore's references. -/
abbrev V1 : (c : Dev nD) → (b : Ref sig .tc) → Buf (Elt F) ((c : Thread nD τ).loc b) := fun c b => W1 m c b

/-! ## What rides beside the buffers -/

/-- The pairs a wait of the TensorCore of `d` may have recorded before call `n`: those at a level at most `8 n`. -/
def Rc (d : Dev nD) (n : ℕ) : Set (SemLoc sig × HIx 1) := {p | (K (F := F)).lev (T d, p.1) p.2 ≤ 8 * n}

/-- The TensorCore's debts before call `n`, its recorded pairs bounded. -/
abbrev OW (d : Dev nD) (n : ℕ) : sProp 𝕄 :=
  iprop(∃ W, ⌜(K (F := F)).WBelow (T d) W (8 * n)⌝ ∗ owes (T d) ((K (F := F)).Otc d n) W)

/-- The invariant of a region whose body keeps nothing of its own: the scoped buffers no window stages and the
    generator register. -/
abbrev ΦR {gr W : Nat} (win : Fin W → Pipeline.WinSpec sig gr) (d : Dev nD) : sProp 𝕄 :=
  iprop(Pipeline.scopedRest (Ix := HIx 1) (Name := ℕ) (U := UU) (Lvl := ℕ) (Val := Elt F) win d ∗ ∃ r, prngReg d r)

/-- Proof data that say nothing, for the pipeline a family's region is not about. -/
def datAny {cfg : Pipeline.Cfg sig Λ₀} (c : Dev nD) : Dat τ (Elt F) (HIx 1) ℕ UU ℕ cfg c where
  A _ := Classical.arbitrary _
  after _ _ := Classical.arbitrary _
  Φ _ := iprop(emp)
  q _ := fullShare
  owed _ := 0

/-- The proof data, the first region's at its entry contents (the second's says nothing here: it is entered later,
    with a family of its own). -/
def rdatsA : (p : Fin 2) → (c : Dev nD) → RDat τ (Elt F) (HIx 1) ℕ UU ℕ (Pipeline.pin (pcfgs (F := F)) adm p) c
  | ⟨0, _⟩ => fun c => Tc0.rdat0 (V1 m) ((K (F := F)).Otc c 0) (Rc (F := F) c 0) (ΦR spec0 c) c
  | ⟨1, _⟩ => fun c => (datAny (cfg := cfg2) c).toR

/-- What the TensorCore owes the SparseCores sits at a call's index: nothing at the kernels' own. -/
theorem Otc_none (d : Dev nD) (n : ℕ) (g : GSem nD τ sig) : (K (F := F)).Otc d n g none = 0 := by
  unfold SparseCore.Cfg.Otc
  simp only [Finset.sum_apply, Finsupp.coe_finset_sum]
  refine Finset.sum_eq_zero fun q _ => ?_
  split
  · simp only [Finset.sum_apply, Finsupp.coe_finset_sum]
    refine Finset.sum_eq_zero fun c _ => ?_
    by_contra h
    exact absurd (Pipeline.tallyAt_pos (Nat.pos_of_ne_zero h)).2 (by simp)
  · rfl

theorem share0 (c : Dev nD) (w : Fin cfg0.W) : (rdatsA m 0 c).share w = fullShare := by unfold RDat.share; split <;> rfl

/-- A window's array of the first region, held as the pipeline holds it, is its buffer whole at the full share. -/
theorem arr0_eq (c : Dev nD) (w : Fin cfg0.W) (X : Buf (Elt F) ((cfg0.win w).arr.view.loc (c.tc : Thread nD τ))) :
    (((cfg0.win w).arr.view.loc (c.tc : Thread nD τ)) ↦[(cfg0.win w).arr.view.set]{(rdatsA m 0 c).share w} X : sProp 𝕄)
      = (((c.tc : Thread nD τ).loc (Pipeline.arrRef spec0 w)) ↦{fullShare} X) := by
  rw [show (cfg0.win w).arr.view.set = Finset.univ from (launch0.arr_whole w).set_eq_univ, share0]

/-- THE FIRST REGION over the TensorCore's thread state. -/
def reg0 : Pipeline.RDat.RegionSeg (pcfgs (F := F)) adm (rdatsA m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := Tc0.body_obligation0 (V1 m) ((K (F := F)).Otc c 0) (Rc (F := F) c 0) (ΦR spec0 c) none c
  hwaits c := Pipeline.RDat.cellsWaits_intro (Pipeline.pin (pcfgs (F := F)) adm) (rdatsA m) none 0 c fun w s t =>
    (K (F := F)).mayWait_none (thr := T c) _ (Otc_none c 0)
  pre c := iprop(StableHlo.held (c : Thread nD τ) (Pipeline.ucRefs τ sig) (W1 m c) ∗ (∃ r, prngReg c r) ∗ OW (F := F) c 0)
  post c := iprop((∃ X0 X1, ⌜(rdatsA m 0 c).ArrAt 0 cfg0.N X0 ∧ (rdatsA m 0 c).ArrAt 1 cfg0.N X1⌝
      ∗ ((c.tc : Thread nD τ).loc (Pipeline.arrRef spec0 0) ↦{fullShare} X0) ∗ ((c.tc : Thread nD τ).loc (Pipeline.arrRef spec0 1) ↦{fullShare} X1))
    ∗ Pipeline.unscopedRest (Ix := HIx 1) (Name := ℕ) (U := UU) (Lvl := ℕ) spec0 c (V1 m c) ∗ (∃ r, prngReg c r) ∗ OW (F := F) c 0)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.RDat.arrays_of_unscopedBufs (p := 0) (pcfgs (F := F)) adm (rdatsA m) launch0.win launch0.arr_whole c
      (share0 m c) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, %hW, HO⟩; iexists W; isplitr
      · ipureintro; exact fun p hp => Or.inl (hW p (Finset.mem_coe.mp hp))
      iexact HO
    isplitl [Hp]; · iexact Hp
    iexact Hrest
  hin c := by
    show iprop(_ ∗ _ ∗ _) ⊢ ΦR spec0 c
    iintro ⟨Hp, -, Hr⟩
    isplitl [Hr]; · iexact Hr
    iexact Hp
  hout c := by
    rw [Pipeline.ownSems0_none]
    show ΦR spec0 c ⊢ _
    iintro ⟨Hr, Hp⟩
    isplitl [Hp]; · iexact Hp
    isplitr; · iempintro
    iexact Hr
  hexit c := by
    iintro ⟨Ha, HO, HY, Hrest⟩
    unfold RDat.arraysAt
    ihave Ha' := (Entails.of_eq (bigSep_W0 _)) $$ Ha
    icases Ha' with ⟨⟨%X0, %h0, H0⟩, ⟨%X1, %h1, H1⟩⟩
    imodintro
    isplitl [H0 H1]
    · iexists X0; iexists X1
      isplitr; · ipureintro; exact ⟨h0, h1⟩
      isplitl [H0]
      · iapply (Entails.of_eq (arr0_eq m c 0 X0)); iexact H0
      · iapply (Entails.of_eq (arr0_eq m c 1 X1)); iexact H1
    isplitl [Hrest]; · iexact Hrest
    isplitl [HY]; · iexact HY
    icases HO with ⟨%W, %hW, HO⟩; iexists W; isplitr
    · ipureintro
      intro p hp
      rcases hW (Finset.mem_coe.mpr hp) with h | ⟨w, s, rfl⟩
      · exact h
      · show (K (F := F)).lev _ none ≤ _
        rw [SparseCore.Cfg.lev_none]
    iexact HO

end Cert.KernelIdeal.Run

end
-- ==== Proof.RunReg1.lean ====
/-
  The run of the whole program, part 3b: the second TensorCore region as a segment of @main on the TensorCore thread
  — entered from every unscoped buffer the thread still holds after the SparseCore call (all but the pairs' buffer,
  which the vector subcores keep their shares of), at any contents.
-/
import proofs.«205263_g58420145160647_cont_9to1_m_909_25_alg».proof.Proof.RunReg0

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)

variable {F : FTy → Type} [FloatOps F] [∀ e, Nonempty (Elt F e)]

local notation "𝕄" => MT nD τ sig (HIx 1) (Elt F) ℕ UU ℕ

/-! ## The references held after the SparseCore call -/

/-- Every unscoped TensorCore reference but the pairs' buffer. -/
abbrev S1 : Finset (DevRef τ sig) := (Pipeline.ucRefs τ sig).erase (Proc.devRef .tc main_v1)
/-- The second region's arrays. -/
abbrev T2 : Finset (DevRef τ sig) := Finset.univ.image fun w : Fin cfg2.W => Proc.devRef (τ := τ) .tc (Pipeline.arrRef spec2 w)

theorem arr2_ne_v1 : ∀ w : Fin cfg2.W, Pipeline.arrRef spec2 w ≠ main_v1 := by decide

theorem T2_sub : T2 ⊆ S1 := by
  intro b hb
  obtain ⟨w, -, rfl⟩ := Finset.mem_image.mp hb
  refine Finset.mem_erase.mpr ⟨fun e => arr2_ne_v1 w (Proc.devRef_injective _ e), ?_⟩
  exact Finset.mem_filter.mpr ⟨StableHlo.devRef_mem_tcRefs _, by simpa using launch2.win.arr_unscoped w⟩

theorem arr2_inj : Function.Injective fun w : Fin cfg2.W => Proc.devRef (τ := τ) .tc (Pipeline.arrRef spec2 w) :=
  fun _ _ e => launch2.win.arr_inj (Proc.devRef_injective _ e)

/-- The references held are the second region's arrays and the rest. -/
theorem held_S1_split (c : Dev nD) (W : Valuation τ sig (Elt F)) :
    (StableHlo.held (c.tc : Thread nD τ) S1 W : sProp 𝕄)
      = iprop((bigSep Finset.univ fun w : Fin cfg2.W => (((c.tc : Thread nD τ).loc (Pipeline.arrRef spec2 w)) ↦{fullShare} W (Pipeline.arrRef spec2 w) : sProp 𝕄))
          ∗ StableHlo.held (c.tc : Thread nD τ) (S1 \ T2) W) := by
  rw [StableHlo.held_sub_split (c.tc : Thread nD τ) T2_sub W]
  congr 1

/-! ## The second region -/

variable (W4 : Dev nD → Valuation τ sig (Elt F))

/-- The contents the second region is entered at, read at the TensorCore's references. -/
abbrev V4 : (c : Dev nD) → (b : Ref sig .tc) → Buf (Elt F) ((c : Thread nD τ).loc b) := fun c b => W4 c b

/-- The proof data, the second region's at its entry contents. -/
def pdatsB : (p : Fin 2) → (c : Dev nD) → Dat τ (Elt F) (HIx 1) ℕ UU ℕ (Pipeline.pin (pcfgs (F := F)) adm p) c
  | ⟨0, _⟩ => fun c => datAny (cfg := cfg0) c
  | ⟨1, _⟩ => fun c => Tc2.dats2 (V4 W4) ((K (F := F)).Otc c 1) (Rc (F := F) c 1) (ΦR spec2 c) c

theorem share2 (c : Dev nD) (w : Fin cfg2.W) : (pdatsB W4 1 c).share w = fullShare := by unfold Dat.share; split <;> rfl

/-- THE SECOND REGION over the TensorCore's thread state. -/
def reg1 : Pipeline.RegionSeg (pcfgs (F := F)) adm (pdatsB W4) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (Tc2.body_obligation2 (V4 W4) ((K (F := F)).Otc c 1) (Rc (F := F) c 1) (ΦR spec2 c) none c).loose
  hwaits c := Pipeline.cellsWaits_intro (Pipeline.pin (pcfgs (F := F)) adm) (pdatsB W4) none 1 c fun w s t =>
    (K (F := F)).mayWait_none (thr := T c) _ (Otc_none c 1)
  pre c := iprop(StableHlo.held (c : Thread nD τ) S1 (W4 c) ∗ (∃ r, prngReg c r) ∗ OW (F := F) c 1)
  post c := iprop((bigSep Finset.univ fun w : Fin cfg2.W => (((c.tc : Thread nD τ).loc (Pipeline.arrRef spec2 w)) ↦{fullShare} (pdatsB W4 1 c).arrAt w cfg2.N : sProp 𝕄))
    ∗ StableHlo.held (c : Thread nD τ) (S1 \ T2) (W4 c) ∗ (∃ r, prngReg c r) ∗ OW (F := F) c 1)
  X c := iprop(∃ r, prngReg c r)
  Y c := iprop(∃ r, prngReg c r)
  Z c := StableHlo.held (c : Thread nD τ) (S1 \ T2) (W4 c)
  hentry c := by
    rw [Pipeline.ownSems0_none, held_S1_split]
    iintro ⟨⟨⟨Ha, Hrest⟩, Hp, HO⟩, -, -⟩
    imodintro
    isplitl [Ha]
    · rw [Pipeline.arrays_eq (Pipeline.pin (pcfgs (F := F)) adm) (pdatsB W4) 1 c launch2.arr_whole (share2 W4 c)]
      iexact Ha
    isplitr; · unfold Pipeline.prefHeld; rw [show (Finset.univ : Finset (Fin 0)) = ∅ from rfl, BI.bigSep_empty]; iempintro
    isplitl [HO]
    · icases HO with ⟨%W, %hW, HO⟩; iexists W; isplitr
      · ipureintro; exact fun p hp => Or.inl (hW p (Finset.mem_coe.mp hp))
      iexact HO
    isplitl [Hp]; · iexact Hp
    iexact Hrest
  hin c := by
    show iprop(_ ∗ _ ∗ _) ⊢ ΦR spec2 c
    iintro ⟨Hp, -, Hr⟩
    isplitl [Hr]; · iexact Hr
    iexact Hp
  hout c := by
    rw [Pipeline.ownSems0_none]
    show ΦR spec2 c ⊢ _
    iintro ⟨Hr, Hp⟩
    isplitl [Hp]; · iexact Hp
    isplitr; · iempintro
    iexact Hr
  hexit c := by
    rw [Pipeline.arrays_eq (Pipeline.pin (pcfgs (F := F)) adm) (pdatsB W4) 1 c launch2.arr_whole (share2 W4 c)]
    iintro ⟨Ha, HO, HY, Hrest⟩
    imodintro
    isplitl [Ha]; · iexact Ha
    isplitl [Hrest]; · iexact Hrest
    isplitl [HY]; · iexact HY
    icases HO with ⟨%W, %hW, HO⟩; iexists W; isplitr
    · ipureintro
      intro p hp
      rcases hW (Finset.mem_coe.mpr hp) with h | ⟨w, s, rfl⟩
      · exact h
      · show (K (F := F)).lev _ none ≤ _
        rw [SparseCore.Cfg.lev_none]; exact Nat.zero_le _
    iexact HO

end Cert.KernelIdeal.Run

end
-- ==== Proof.RunVals.lean ====
/-
  The run of the whole program, part 3c: the buffers' contents after the first region and after the SparseCore call,
  and the bookkeeping that moves the call's three arrays out of the thread's references and back.
-/
import proofs.«205263_g58420145160647_cont_9to1_m_909_25_alg».proof.Proof.RunReg1

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The contents after the first region and after the SparseCore call -/

abbrev rArg0 : DevRef τ sig := Proc.devRef .tc main_arg0
abbrev rV1 : DevRef τ sig := Proc.devRef .tc main_v1
abbrev rV2 : DevRef τ sig := Proc.devRef .tc main_v2

/-- After the first region: the pairs' buffer at `X1`, everything else as the region found it. -/
abbrev W2 (d : Dev nD) (X1 : (rV1).ty.Contents (Elt F)) : Valuation τ sig (Elt F) := Function.update (W1 m d) rV1 X1
/-- After the SparseCore call: the gathered rows' buffer at `Y`. -/
abbrev W3 (d : Dev nD) (X1 : (rV1).ty.Contents (Elt F)) (Y : (rV2).ty.Contents (Elt F)) : Valuation τ sig (Elt F) :=
  Function.update (W2 m d X1) rV2 Y
/-- After the reshapes (the second region's entry). -/
abbrev W4 (d : Dev nD) (X1 : (rV1).ty.Contents (Elt F)) (Y : (rV2).ty.Contents (Elt F)) : Valuation τ sig (Elt F) :=
  StableHlo.after (hostOps1 (F := F)) (W3 m d X1 Y)

/-- The first region's arrays at what it left and the rest as it was found are every unscoped buffer at `W2`. -/
theorem held_of_reg0 (d : Dev nD) (X0 : Buf (Elt F) ((d.tc : Thread nD τ).loc (Pipeline.arrRef spec0 0)))
    (X1 : Buf (Elt F) ((d.tc : Thread nD τ).loc (Pipeline.arrRef spec0 1))) (h0 : X0 = V1 m d main_v0) :
    iprop((((d.tc : Thread nD τ).loc (Pipeline.arrRef spec0 0)) ↦{fullShare} X0) ∗ (((d.tc : Thread nD τ).loc (Pipeline.arrRef spec0 1)) ↦{fullShare} X1)
        ∗ Pipeline.unscopedRest (Ix := HIx 1) (Name := ℕ) (U := UU) (Lvl := ℕ) spec0 d (V1 m d))
      ⊢ (StableHlo.held (d.tc : Thread nD τ) (Pipeline.ucRefs τ sig) (W2 m d X1) : sProp 𝕄) := by
  subst h0
  rw [← Pipeline.unscopedBufs_held d (W2 m d X1),
    Pipeline.unscopedBufs_split (Pipeline.pin (pcfgs (F := F)) adm) 0 launch0.win.arr_unscoped launch0.win.arr_inj d _, bigSep_W0]
  iintro ⟨H0, H1, Hrest⟩
  isplitl [H0 H1]
  · isplitl [H0]
    · iapply (Entails.of_eq (by
        show _ = ((d.tc : Thread nD τ).loc main_v0 ↦{fullShare} W2 m d X1 (Proc.devRef .tc main_v0) : sProp 𝕄)
        rw [show W2 m d X1 (Proc.devRef .tc main_v0) = W1 m d (Proc.devRef .tc main_v0) from Function.update_of_ne (by decide) _ _]))
      iexact H0
    · iapply (Entails.of_eq (by
        show _ = ((d.tc : Thread nD τ).loc main_v1 ↦{fullShare} W2 m d X1 rV1 : sProp 𝕄)
        rw [show W2 m d X1 rV1 = X1 from Function.update_self _ _ _]))
      iexact H1
  · iapply (Entails.of_eq (show (Pipeline.unscopedRest (Ix := HIx 1) (Name := ℕ) (U := UU) (Lvl := ℕ) spec0 d (V1 m d) : sProp 𝕄)
        = Pipeline.unscopedRest (Pipeline.pin (pcfgs (F := F)) adm 0).spec d (fun b => W2 m d X1 (Proc.devRef .tc b)) from by
      unfold Pipeline.unscopedRest
      refine bigSep_congr fun b hb => ?_
      have hb' : b ≠ main_v1 := fun e => (Finset.mem_sdiff.mp hb).2 (Finset.mem_image.mpr ⟨1, Finset.mem_univ _, e ▸ rfl⟩)
      dsimp only
      rw [show W2 m d X1 (Proc.devRef .tc b) = W1 m d (Proc.devRef .tc b) from
        Function.update_of_ne (fun e => hb' (Proc.devRef_injective _ e)) _ _]))
    iexact Hrest

/-! ## The SparseCore call's three arrays, out of the references held and back -/

abbrev T3 : Finset (DevRef τ sig) := {rArg0, rV1, rV2}
theorem T3_sub : T3 ⊆ Pipeline.ucRefs τ sig := by decide

theorem held_T3 (c : Thread nD τ) (W : Valuation τ sig (Elt F)) :
    (StableHlo.held c T3 W : sProp 𝕄) = iprop(((c.1, rArg0) ↦{fullShare} W rArg0) ∗ ((c.1, rV1) ↦{fullShare} W rV1) ∗ ((c.1, rV2) ↦{fullShare} W rV2)) := by
  unfold StableHlo.held T3
  rw [SparseCore.bigSep_insert' (by decide), SparseCore.bigSep_insert' (by decide), bigSep_singleton]

abbrev T3' : Finset (DevRef τ sig) := {rArg0, rV2}
theorem T3'_sub : T3' ⊆ S1 := by decide
theorem S1_sdiff : S1 \ T3' = Pipeline.ucRefs τ sig \ T3 := by decide

theorem held_T3' (c : Thread nD τ) (W : Valuation τ sig (Elt F)) :
    (StableHlo.held c T3' W : sProp 𝕄) = iprop(((c.1, rArg0) ↦{fullShare} W rArg0) ∗ ((c.1, rV2) ↦{fullShare} W rV2)) := by
  unfold StableHlo.held T3'
  rw [SparseCore.bigSep_insert' (by decide), bigSep_singleton]

/-- After the call: the index array as it was, the gathered rows' buffer at `Y`, and the references that bypassed the
    call are the references still held, at `W3`. -/
theorem held_after_call (d : Dev nD) (X1 : (rV1).ty.Contents (Elt F)) (Y : (rV2).ty.Contents (Elt F)) :
    iprop((((d.tc : Thread nD τ).1, rArg0) ↦{fullShare} W2 m d X1 rArg0) ∗ ((((d.tc : Thread nD τ).1, rV2)) ↦{fullShare} Y)
        ∗ StableHlo.held (d.tc : Thread nD τ) (Pipeline.ucRefs τ sig \ T3) (W2 m d X1))
      ⊢ (StableHlo.held (d.tc : Thread nD τ) S1 (W3 m d X1 Y) : sProp 𝕄) := by
  rw [StableHlo.held_sub_split (d.tc : Thread nD τ) T3'_sub (W3 m d X1 Y), held_T3', S1_sdiff,
    show W3 m d X1 Y rV2 = Y from Function.update_self _ _ _,
    show W3 m d X1 Y rArg0 = W2 m d X1 rArg0 from Function.update_of_ne (by decide) _ _,
    StableHlo.held_congr (c := (d.tc : Thread nD τ)) (S := Pipeline.ucRefs τ sig \ T3) (V := W3 m d X1 Y) (V' := W2 m d X1)
      (fun b hb => Function.update_of_ne (fun e => (Finset.mem_sdiff.mp hb).2 (by rw [e]; decide)) _ _)]
  iintro ⟨Ha, Hy, Hr⟩
  isplitl [Ha Hy]
  · isplitl [Ha] <;> iassumption
  · iexact Hr

end Cert.KernelIdeal.Run

end
-- ==== Proof.Tc0Value.lean ====
import proofs.«205263_g58420145160647_cont_9to1_m_909_25_alg».proof.Proof.Tc0Dat
import Idealize.ShloMosaic.Lib.ValueLayout
import Idealize.ShloMosaic.Lib.Pipeline.Value

/-! # The transposing kernel's pipeline: the arrays after the region, in closed form

From what the library's region exit hands over — each windowed array at SOME contents it may hold after every
write-back (`RDat.ArrAt … cfg0.N`) —: the operand array is as at region entry (`arrAt0_eq`), and the result array
holds the operand transposed block by block on every lane whose source column lies inside the operand
(`arrAt1_closed`). The blocks of the result are disjoint row bands, written once each in point order; the proof
is an induction over the points, reading each write-back at an index inside or outside its band. -/

set_option maxRecDepth 16384

noncomputable section

namespace Cert.KernelIdeal.Tc0

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {U : Type} [URA U]

local notation "𝕄" => MT nD τ sig Ix (Elt F) ℕ U ℕ

variable (V : (c : Dev nD) → (b : Ref sig .tc) → Buf (Elt F) ((c : Thread nD τ).loc b))
variable (O : CellTallies nD τ sig Ix) (Rc : Set (SemLoc sig × Ix)) (Φ₀ : sProp (MT nD τ sig Ix (Elt F) ℕ U ℕ))

/-! ## The operand array -/

/-- The operand is an input: after any number of points its array holds what it held at region entry. -/
theorem arrAt0_eq (c : Dev nD) (n : Nat) (X : Buf (Elt F) ((c : Thread nD τ).loc main_v0))
    (hX : (rdat0 V O Rc Φ₀ c).ArrAt 0 n X) : X = V c main_v0 := by
  rw [(rdat0 V O Rc Φ₀ c).ArrAt_in 0 rfl n] at hX
  exact hX

/-! ## The result array -/

/-- Row `k` of the result lies in the block of point `k div 16384`, at the block's row `k mod 16384`. -/
theorem row_split (k n : Nat) (hk : k / 16384 = n) : k = n * 16384 + k % 16384 := by omega

/-- After the write-backs of the points below `n`, the result's rows of the blocks below `n` hold the operand
    transposed, on every lane whose source column lies inside the array. -/
theorem arrAt1_rows (c : Dev nD) : ∀ (n : Nat), n ≤ cfg0.N → ∀ (P : Buf (Elt F) ((c : Thread nD τ).loc main_v1)),
    (rdat0 V O Rc Φ₀ c).ArrAt 1 n P →
    ∀ (k : Fin 507904) (j : Fin 128), k.val / 16384 < n →
      ∀ h : (k.val / 16384) * 32768 + (j.val / 64) * 16384 + k.val % 16384 < 1000000,
        P (ix2 k j) = V c main_v0 (ix2 (⟨j.val % 64, Nat.mod_lt _ (by decide)⟩ : Fin 64)
          (⟨(k.val / 16384) * 32768 + (j.val / 64) * 16384 + k.val % 16384, h⟩ : Fin 1000000))
  := by
  intro n
  induction n with
  | zero => intro _ _ _ _ _ hk _; exact absurd hk (Nat.not_lt_zero _)
  | succ n ih =>
    intro hn P hP k j hk h
    have hn' : n < cfg0.N := hn
    have e := (rdat0 V O Rc Φ₀ c).ArrAt_succ 1 ⟨n, hn'⟩
    rw [if_pos (flush0_1 _)] at e
    obtain ⟨G₀, X, hG₀, ⟨Y, -, hX⟩, rfl⟩ := (congrFun e P).mp hP
    have hX' : After1 V c ⟨n, hn'⟩ X := (after0_1 V O Rc Φ₀ c ⟨n, hn'⟩ Y X).mp hX
    obtain ⟨-, -, -, -, hi0, hi1⟩ := grid_facts0 ⟨n, hn'⟩
    by_cases hkn : k.val / 16384 = n
    · -- the row lies in this point's block: the write-back put the body's block there
      have hkm : k.val % 16384 < 16384 := Nat.mod_lt _ (by decide)
      have he : (win0_1.blk ⟨n, hn'⟩).view.emb (ix2 (⟨k.val % 16384, hkm⟩ : Fin 16384) j) = ix2 k j := by
        funext ax; apply Fin.ext
        show ((win0_1.rect ⟨n, hn'⟩).emb _ ax : ℕ) = _
        rw [Window.rect_emb_val]
        match ax with
        | ⟨0, _⟩ =>
          show win0_1.index ⟨n, hn'⟩ 0 * 16384 + k.val % 16384 = k.val
          rw [hi0]; exact (row_split k.val n hkn).symm
        | ⟨1, _⟩ =>
          show win0_1.index ⟨n, hn'⟩ 1 * 128 + j.val = j.val
          rw [hi1]; omega
      rw [← he, View.write_emb_of_mem _ _ (Finset.mem_univ _)]
      show X (ix2 (⟨k.val % 16384, hkm⟩ : Fin 16384) j) = _
      subst hkn
      exact hX' ⟨k.val % 16384, hkm⟩ j h
    · -- the row lies in an earlier block, which this write-back does not touch
      have hlt : k.val / 16384 < n := by omega
      have hnot : ix2 k j ∉ (win0_1.blk ⟨n, hn'⟩).view.setOn Finset.univ := by
        rw [View.setOn_univ]
        show _ ∉ ((View.whole main_v1).slice (win0_1.rect ⟨n, hn'⟩)).set
        rw [View.set_slice_whole, Rect.mem_set_unit]
        intro hm
        have h0 := hm 0
        have h0' : win0_1.index ⟨n, hn'⟩ 0 * 16384 ≤ k.val ∧ k.val < win0_1.index ⟨n, hn'⟩ 0 * 16384 + 16384 := h0
        rw [show win0_1.index ⟨n, hn'⟩ 0 = n from hi0] at h0'
        clear h0 hm e hX hX'
        omega
      rw [View.write_of_not_mem _ _ _ hnot]
      exact ih (Nat.le_of_lt hn') G₀ hG₀ k j hlt h

/-- The result array after the whole region, in closed form: row `k`, lane `j` holds row `j mod 64` of the operand at
    column `(k div 16384) · 32768 + (j div 64) · 16384 + k mod 16384`, wherever that column lies inside the array. -/
theorem arrAt1_closed (c : Dev nD) (P : Buf (Elt F) ((c : Thread nD τ).loc main_v1))
    (hP : (rdat0 V O Rc Φ₀ c).ArrAt 1 cfg0.N P) (k : Fin 507904) (j : Fin 128)
    (h : (k.val / 16384) * 32768 + (j.val / 64) * 16384 + k.val % 16384 < 1000000) :
    P (ix2 k j) = V c main_v0 (ix2 (⟨j.val % 64, Nat.mod_lt _ (by decide)⟩ : Fin 64)
      (⟨(k.val / 16384) * 32768 + (j.val / 64) * 16384 + k.val % 16384, h⟩ : Fin 1000000)) :=
  arrAt1_rows V O Rc Φ₀ c cfg0.N (Nat.le_refl _) P hP k j
    (by have := k.isLt; rw [show cfg0.N = 31 from N_0]; omega) h

end Cert.KernelIdeal.Tc0

end
-- ==== Proof.RunHmain.lean ====
/-
  The run of the whole program, part 4: @main on the TensorCore thread, stretch by stretch.
-/
import proofs.«205263_g58420145160647_cont_9to1_m_909_25_alg».proof.Proof.RunVals
import proofs.«205263_g58420145160647_cont_9to1_m_909_25_alg».proof.Proof.Tc0Value

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)
variable (P : (K (F := F)).Pay (nD := nD) (Val := Elt F) (Name := ℕ) (U := UU))

/-- The two pipelines' staging cells' ghost state on device `d`, as the launch deals it. -/
abbrev GH (d : Dev nD) : sProp 𝕄 :=
  iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d))

theorem hostOps0_sub : ∀ op ∈ (hostOps0 : List (HloOp τ sig (Elt F))), op.bufs ⊆ Pipeline.ucRefs τ sig := by
  intro op hop
  simp only [List.mem_singleton] at hop
  subst hop
  exact Pipeline.sub_ucRefs _ (StableHlo.unary_bufs_sub ..)

theorem hostOps0_fresh : ∀ op ∈ (hostOps0 : List (HloOp τ sig (Elt F))), op.fresh = ∅ := by
  intro op hop
  simp only [List.mem_singleton] at hop
  subst hop
  rfl

theorem reg0_pre (d : Dev nD) : (reg0 m).pre d
    = iprop(StableHlo.held (d : Thread nD τ) (Pipeline.ucRefs τ sig) (W1 m d) ∗ (∃ r, prngReg d r) ∗ OW (F := F) d 0) := rfl
theorem reg0_post (d : Dev nD) : (reg0 m).post d
    = iprop((∃ X0 X1, ⌜(rdatsA m 0 d).ArrAt 0 cfg0.N X0 ∧ (rdatsA m 0 d).ArrAt 1 cfg0.N X1⌝
      ∗ ((d.tc : Thread nD τ).loc (Pipeline.arrRef spec0 0) ↦{fullShare} X0) ∗ ((d.tc : Thread nD τ).loc (Pipeline.arrRef spec0 1) ↦{fullShare} X1))
    ∗ Pipeline.unscopedRest (Ix := HIx 1) (Name := ℕ) (U := UU) (Lvl := ℕ) spec0 d (V1 m d) ∗ (∃ r, prngReg d r) ∗ OW (F := F) d 0) := rfl

theorem reg1_pre (W4 : Dev nD → Valuation τ sig (Elt F)) (d : Dev nD) : (reg1 W4).pre d
    = iprop(StableHlo.held (d : Thread nD τ) S1 (W4 d) ∗ (∃ r, prngReg d r) ∗ OW (F := F) d 1) := rfl
theorem reg1_post (W4 : Dev nD → Valuation τ sig (Elt F)) (d : Dev nD) : (reg1 W4).post d
    = iprop((bigSep Finset.univ fun w : Fin cfg2.W => (((d.tc : Thread nD τ).loc (Pipeline.arrRef spec2 w)) ↦{fullShare} (pdatsB W4 1 d).arrAt w cfg2.N : sProp 𝕄))
    ∗ StableHlo.held (d : Thread nD τ) (S1 \ T2) (W4 d) ∗ (∃ r, prngReg d r) ∗ OW (F := F) d 1) := rfl

theorem regionCall_eq (p : Fin 2) :
    regionCall (F := F) p = SparseCore.liftProg (.op (.customCall (Pipeline.entry p) ()) fun x => .ret x) := rfl

/-- The launch's unscoped buffers are that set of references held at the launch contents. -/
theorem W0_held (d : Dev nD) :
    (unscopedBufs d (fun b => m ((SparseCore.T d).loc b)) : sProp 𝕄) = StableHlo.held (d.tc : Thread nD τ) (Pipeline.ucRefs τ sig) (W0 m d) :=
  Pipeline.unscopedBufs_held d (W0 m d)

set_option backward.isDefEq.respectTransparency.types false in
theorem hostOps1_sub : ∀ op ∈ (hostOps1 : List (HloOp τ sig (Elt F))), op.bufs ⊆ S1 := by
  intro op hop b hb
  have h1 : op.bufs ⊆ Pipeline.ucRefs τ sig := by
    simp only [hostOps1, List.mem_cons, List.not_mem_nil, or_false] at hop
    rcases hop with rfl | rfl | rfl | rfl | rfl | rfl | rfl | rfl | rfl | rfl | rfl | rfl | rfl <;>
      exact Pipeline.sub_ucRefs _ (StableHlo.reshape_bufs_sub ..)
  refine Finset.mem_erase.mpr ⟨?_, h1 hb⟩
  rintro rfl
  simp only [hostOps1, List.mem_cons, List.not_mem_nil, or_false] at hop
  rcases hop with rfl | rfl | rfl | rfl | rfl | rfl | rfl | rfl | rfl | rfl | rfl | rfl | rfl <;>
    (rw [StableHlo.reshape_bufs, Finset.mem_insert, Finset.mem_singleton] at hb
     rcases hb with h | h <;> exact absurd h (by decide))

theorem hostOps1_fresh : ∀ op ∈ (hostOps1 : List (HloOp τ sig (Elt F))), op.fresh = ∅ := by
  intro op hop
  simp only [hostOps1, List.mem_cons, List.not_mem_nil, or_false] at hop
  rcases hop with rfl | rfl | rfl | rfl | rfl | rfl | rfl | rfl | rfl | rfl | rfl | rfl | rfl <;> rfl

/-- What the run leaves on device `d`'s TensorCore beside its handshake state: for some contents `X1` the first region
    may leave in the pairs' buffer and some `Y` the SparseCore call may leave in the gathered rows', the second region's
    arrays at what its pipeline leaves and every other reference still held, as the second region found it. -/
def FIN (R1 : Dev nD → (rV1).ty.Contents (Elt F) → Prop) (YR : Dev nD → (rV2).ty.Contents (Elt F) → Prop) (d : Dev nD) : sProp 𝕄 :=
  iprop(∃ X1 Y, ⌜R1 d X1 ∧ YR d Y⌝
    ∗ (bigSep Finset.univ fun w : Fin cfg2.W => (((d.tc : Thread nD τ).loc (Pipeline.arrRef spec2 w)) ↦{fullShare} (pdatsB (fun d' => W4 m d' X1 Y) 1 d).arrAt w cfg2.N : sProp 𝕄))
    ∗ StableHlo.held (d : Thread nD τ) (S1 \ T2) (W4 m d X1 Y))

theorem hmain (R1 : Dev nD → (rV1).ty.Contents (Elt F) → Prop) (YR : Dev nD → (rV2).ty.Contents (Elt F) → Prop)
    (hR1 : ∀ d (X1 : Buf (Elt F) ((d.tc : Thread nD τ).loc (Pipeline.arrRef spec0 1))), (rdatsA m 0 d).ArrAt 1 cfg0.N X1 → R1 d X1)
    (hst : ∀ d (X1 : (rV1).ty.Contents (Elt F)), R1 d X1 →
      iprop((((d.tc : Thread nD τ).1, rArg0) ↦{fullShare} W2 m d X1 rArg0) ∗ ((((d.tc : Thread nD τ).1, rV1)) ↦{fullShare} X1)
          ∗ ((((d.tc : Thread nD τ).1, rV2)) ↦{fullShare} W2 m d X1 rV2))
        ⊢ (bigSep Finset.univ fun c : Fin ((K (F := F)).nCore 0) => P.st 0 d c : sProp 𝕄))
    (hdn : ∀ d (X1 : (rV1).ty.Contents (Elt F)), R1 d X1 → (bigSep Finset.univ fun c : Fin ((K (F := F)).nCore 0) => P.dn 0 d c : sProp 𝕄)
        ⊢ iprop((((d.tc : Thread nD τ).1, rArg0) ↦{fullShare} W2 m d X1 rArg0) ∗ ∃ Y, ⌜YR d Y⌝ ∗ ((((d.tc : Thread nD τ).1, rV2)) ↦{fullShare} Y)))
    (κ : GSem nD τ sig → ℕ) (d : Dev nD) :
    iprop((K (F := F)).ctx EH P κ ∗ (K (F := F)).tcSt EH d 0 ∗ (K (F := F)).tcRes m ρ d ∗ GH (F := F) d)
      ⊢ wp frame (wpE ((K (F := F)).defs (D (F := F))) 𝒱 (SparseCore.T d) none) Set.univ (main d)
          fun _ => iprop((K (F := F)).tcSt EH d 1 ∗ FIN m R1 YR d) := by
  rw [main_eq]
  unfold SparseCore.Cfg.tcRes SparseCore.Cfg.tcSt
  rw [W0_held m d]
  iintro ⟨#Hctx, ⟨HOW, Hat, #Hrd, #Hrs, Htoks⟩, ⟨Hb, Hub, Hsm, Hp⟩, ⟨⟨Hcg0, Htk0⟩, ⟨Hcg1, Htk1⟩⟩⟩
  ihave #Hlev := ((K (F := F)).ctx_levAts κ) $$ Hctx
  iapply (StableHlo.wp_seq 𝒱 none Set.univ d (Pipeline.ucRefs τ sig) _ (hostOps0 (F := F)) hostOps0_sub hostOps0_fresh (W0 m d)) $$ [Hb Hub]
  · isplitl [Hb] <;> iassumption
  iintro ⟨Hb, Hub⟩
  -- the first region
  rw [wp_bind, regionCall_eq]
  iapply ((K (F := F)).wp_liftProg (D (F := F)) 𝒱 (SparseCore.T d) Set.univ none _ _)
  iapply (Pipeline.RDat.RegionSeg.wp (pcfgs (F := F)) adm (rdatsA m) none cellOf_inj EP defs₀ 𝒱₀ (K (F := F)).L (K (F := F)).lev (reg0 m) d none
      (fun u hu => nomatch hu) (fun x => .ret x) _)
  rw [reg0_pre m d, reg0_post m d]
  isplitr [Hb Hub Hp HOW Hcg0 Htk0]
  swap
  · isplitl [Hb]; · iexact Hb
    isplitl [Hub Hp HOW]
    · isplitl [Hub]; · iexact Hub
      isplitl [Hp]; · iexists _; iexact Hp
      iexact HOW
    isplitr; · iexact Hlev
    isplitl [Hcg0]; · iexact Hcg0
    iexact Htk0
  iintro ⟨Hb, Hpost⟩
  rw [wp_ret]
  imodintro
  icases Hpost with ⟨⟨%X0, %X1, %hX, H0, H1⟩, Hrest, Hp, HOW⟩
  have hX0 : X0 = V1 m d main_v0 := Tc0.arrAt0_eq (V1 m) _ _ _ d cfg0.N X0 hX.1
  ihave Hub := (held_of_reg0 m d X0 X1 hX0) $$ [H0 H1 Hrest]
  · isplitl [H0]; · iexact H0
    isplitl [H1] <;> iassumption
  ihave Hub' := (Entails.of_eq (StableHlo.held_sub_split (d.tc : Thread nD τ) T3_sub (W2 m d X1))) $$ Hub
  icases Hub' with ⟨H3, Hrest⟩
  ihave H3' := (Entails.of_eq (held_T3 (d.tc : Thread nD τ) (W2 m d X1))) $$ H3
  icases H3' with ⟨Ha0, Hv1, Hv2⟩
  ihave Hv1' := (Entails.of_eq (show ((((d.tc : Thread nD τ).1, rV1)) ↦{fullShare} W2 m d X1 rV1 : sProp 𝕄) = ((((d.tc : Thread nD τ).1, rV1)) ↦{fullShare} X1) by
    rw [show W2 m d X1 rV1 = X1 from Function.update_self _ _ _])) $$ Hv1
  -- the SparseCore call
  rw [wp_bind]
  iapply (SparseCore.Cfg.wp_run (K := K (F := F)) (D (F := F)) 𝒱 (EH := EH) (P := P) κ d 0)
  isplitr; · iexact Hctx
  isplitl [HOW Hat Htoks]
  · unfold SparseCore.Cfg.tcSt
    isplitl [HOW]; · iexact HOW
    isplitl [Hat]; · iexact Hat
    isplitr; · iexact Hrd
    isplitr; · iexact Hrs
    iexact Htoks
  isplitl [Ha0 Hv1' Hv2]
  · iapply (hst d X1 (hR1 d X1 hX.2))
    isplitl [Ha0]; · iexact Ha0
    isplitl [Hv1'] <;> iassumption
  iintro ⟨Hst1, Hdn⟩
  ihave Hdn' := (hdn d X1 (hR1 d X1 hX.2)) $$ Hdn
  icases Hdn' with ⟨Ha0, %Y, %hY, Hv2⟩
  ihave Hub := (held_after_call m d X1 Y) $$ [Ha0 Hv2 Hrest]
  · isplitl [Ha0]; · iexact Ha0
    isplitl [Hv2] <;> iassumption
  -- the reshapes
  iapply (StableHlo.wp_seq 𝒱 none Set.univ d S1 _ (hostOps1 (F := F)) hostOps1_sub hostOps1_fresh (W3 m d X1 Y)) $$ [Hb Hub]
  · isplitl [Hb] <;> iassumption
  iintro ⟨Hb, Hub⟩
  -- the second region
  rw [wp_bind, regionCall_eq]
  iapply ((K (F := F)).wp_liftProg (D (F := F)) 𝒱 (SparseCore.T d) Set.univ none _ _)
  iapply (Pipeline.RegionSeg.wp (pcfgs (F := F)) adm (pdatsB (fun d' => W4 m d' X1 Y)) none cellOf_inj EP defs₀ 𝒱₀ (K (F := F)).L (K (F := F)).lev
      (reg1 (fun d' => W4 m d' X1 Y)) d none (fun u hu => nomatch hu) (fun x => .ret x) _)
  rw [reg1_pre, reg1_post]
  unfold SparseCore.Cfg.tcSt
  icases Hst1 with ⟨HOW1, Hat1, #Hrd1, #Hrs1, Htoks1⟩
  isplitr [Hb Hub Hp HOW1 Hcg1 Htk1]
  swap
  · isplitl [Hb]; · iexact Hb
    isplitl [Hub Hp HOW1]
    · isplitl [Hub]; · iexact Hub
      isplitl [Hp]; · iexact Hp
      iexact HOW1
    isplitr; · iexact Hlev
    isplitl [Hcg1]; · iexact Hcg1
    iexact Htk1
  iintro ⟨Hb, Hpost⟩
  rw [wp_ret]
  imodintro
  rw [wp_pure]
  imodintro
  icases Hpost with ⟨Harr, Hrest, Hp, HOW1⟩
  isplitl [HOW1 Hat1 Htoks1]
  · isplitl [HOW1]; · iexact HOW1
    isplitl [Hat1]; · iexact Hat1
    isplitr; · iexact Hrd1
    isplitr; · iexact Hrs1
    iexact Htoks1
  unfold FIN
  iexists X1; iexists Y
  isplitr; · ipureintro; exact ⟨hR1 d X1 hX.2, hY⟩
  isplitl [Harr]; · iexact Harr
  iexact Hrest

end Cert.KernelIdeal.Run

end
-- ==== Proof.ScSplit.lean ====
/-
  The SparseCore call of the program (the row gather), as the launch theorem sees it: its configuration and facts,
  the contents the call sees (the pair table, the index list, the result at entry) as parameters, the ONE whole-array
  function the result holds at exit (`gathered`: row r is the pair-table row the index list's word r names), and what
  the handshakes carry: per tile, its 512 words of the list, a thirty-second share of the pair table, and its 512 rows
  of the result. The 32 tiles' pieces join to the three arrays whole (`st_eq`, `dn_eq`).
-/
import proofs.«205263_g58420145160647_cont_9to1_m_909_25_alg».proof.Proof.Gen.KernelIdeal
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import Idealize.ShloMosaic.Lib.ValueIdx

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: any algebra with a copy of the transfers' counters -/

variable {U : Type} [URA U] [CountersIn U]

local notation "𝕄" => MT nD τ sig (HIx 1) (Elt F) ℕ U ℕ

/-! ## The three arrays -/

abbrev idxLoc (d : Dev nD) : Loc nD τ sig := (SparseCore.T d).loc main_arg0
abbrev pairsLoc (d : Dev nD) : Loc nD τ sig := (SparseCore.T d).loc main_v1
abbrev outLoc (d : Dev nD) : Loc nD τ sig := (SparseCore.T d).loc main_v2

local notation "pV" => (Memref.whole Cert.KernelIdeal.main_v1_scv : Memref Cert.KernelIdeal.sig Kind.scVector Space.hbm Cert.KernelIdeal.S507904x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v2_scv : Memref Cert.KernelIdeal.sig Kind.scVector Space.hbm Cert.KernelIdeal.S16384x128 EltTy.f32)

/-! ## The row the kernel reads for a word of the list -/

/-- The pair-table row a word `v` of the list names, as the kernel computes it on the vector unit:
    `((v >>> 15) <<< 14) + (v &&& 16383)`. -/
def kOf (v : BitVec 32) : BitVec 32 :=
  IntOp.addi (IntOp.shli .vector (IntOp.shrui .vector v 15#32) 14#32) (IntOp.andi v 16383#32)

theorem kOf_eq (v : BitVec 32) : kOf v = ((v >>> 15) <<< 14) + (v &&& 16383#32) := by
  unfold kOf IntOp.addi IntOp.shli IntOp.shrui IntOp.andi
  rw [if_pos (by decide), if_pos (by decide)]
  rfl

/-- A word below 1000000 names a row of the pair table: the block number `v >>> 15` is at most 30, so the row is at
    most `30 * 16384 + 16383 = 507903`. -/
theorem kOf_lt (v : BitVec 32) (h : v.toNat < 1000000) : (kOf v).toNat < 507904 := by
  rw [kOf_eq]
  have h1 : (v >>> 15).toNat = v.toNat / 32768 := by
    rw [BitVec.toNat_ushiftRight, Nat.shiftRight_eq_div_pow]
  have h2 : (v &&& 16383#32).toNat = v.toNat % 16384 := by
    rw [BitVec.toNat_and, show (16383#32 : BitVec 32).toNat = 2 ^ 14 - 1 by decide, Nat.and_two_pow_sub_one_eq_mod]
  have h3 : ((v >>> 15) <<< 14).toNat = (v.toNat / 32768) * 16384 := by
    rw [BitVec.toNat_shiftLeft, h1, Nat.shiftLeft_eq, Nat.mod_eq_of_lt (by omega)]
  have h4 : v.toNat / 32768 ≤ 30 := by omega
  have h5 : v.toNat % 16384 < 16384 := Nat.mod_lt _ (by decide)
  rw [BitVec.toNat_add, h3, h2, Nat.mod_eq_of_lt (by omega)]
  omega

/-- A row number as a row of the pair table (total: reduced modulo the table's extent, which changes nothing below it). -/
def rowOfNat (n : ℕ) : Fin 507904 := ⟨n % 507904, Nat.mod_lt _ (by decide)⟩

theorem rowOfNat_of_lt {n : ℕ} (h : n < 507904) : rowOfNat n = ⟨n, h⟩ := Fin.ext (Nat.mod_eq_of_lt h)

/-- What the call leaves in the result, as ONE function of the whole array: row `r`, lane `j` is the pair table at the
    row the list's word `r` names, lane `j`. -/
def gathered (d : Dev nD) (pairs : Buf (Elt F) (pairsLoc d)) (idx : Buf (Elt F) (idxLoc d)) : Buf (Elt F) (outLoc d) :=
  fun i => pairs (ix2 (rowOfNat (kOf (idx (ix1 (i 0)))).toNat) (i 1))

theorem gathered_apply (d : Dev nD) (pairs : Buf (Elt F) (pairsLoc d)) (idx : Buf (Elt F) (idxLoc d)) (i : S16384x128.Idx)
    (h : (kOf (idx (ix1 (i 0)))).toNat < 507904) :
    gathered d pairs idx i = pairs (ix2 (⟨(kOf (idx (ix1 (i 0)))).toNat, h⟩ : Fin 507904) (i 1)) := by
  unfold gathered; rw [rowOfNat_of_lt h]

/-! ## The 32 tiles' rows -/

theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- The tile on SparseCore `c`, vector subcore `s` works on block `2 s + c` of the list and of the result. -/
def wid (c : Fin 2) (s : Fin 16) : Fin 32 := ⟨2 * s.val + c.val, by omega⟩

/-- Tiles and blocks correspond one to one. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem iRowSet_eq (w : Fin 32) : iRowSet w = (irow w).set := by
  show ((View.whole (main_arg0_scv : Ref sig .scVector)).slice (irow w)).set = _
  rw [View.set_slice]; exact Finset.map_refl
theorem oRowSet_eq (w : Fin 32) : oRowSet w = (orow w).set := by
  show ((View.whole (main_v2_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

omit [FloatOps F] [CountersIn U] in
theorem iPts_rows (d : Dev nD) (f : Buf (Elt F) (idxLoc d)) :
    (idxLoc d ↦{fullShare} f : sProp 𝕄) = bigSep Finset.univ fun w : Fin 32 => idxLoc d ↦[iRowSet w]{fullShare} f := by
  rw [← pointsTo_biUnion Finset.univ (ℓ := idxLoc d) iRowSet irows_disjoint, irows_cover]; try rfl
omit [FloatOps F] [CountersIn U] in
theorem oPts_rows (d : Dev nD) (f : Buf (Elt F) (outLoc d)) :
    (outLoc d ↦{fullShare} f : sProp 𝕄) = bigSep Finset.univ fun w : Fin 32 => outLoc d ↦[oRowSet w]{fullShare} f := by
  rw [← pointsTo_biUnion Finset.univ (ℓ := outLoc d) oRowSet orows_disjoint, orows_cover]; try rfl

/-! ## Shares of the pair table: the full share halved five times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit [FloatOps F] [CountersIn U] in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Block `w`'s tile's share of the pair table. -/
abbrev pq (w : Fin 32) : PosShare TreeShare := leaf 5 fullShare w

omit [FloatOps F] [CountersIn U] in
theorem pPts_shares (d : Dev nD) (f : Buf (Elt F) (pairsLoc d)) :
    (pairsLoc d ↦{fullShare} f : sProp 𝕄) = bigSep Finset.univ fun w : Fin 32 => pairsLoc d ↦{pq w} f :=
  pointsTo_leaves Finset.univ f 5 fullShare

omit [FloatOps F] [CountersIn U] in
/-- Pure facts, one per summand, hold for all summands. -/
theorem bigSep_pure_univ {I : Type} [Fintype I] [DecidableEq I] (φ : I → Prop) :
    (bigSep Finset.univ fun i : I => (iprop(⌜φ i⌝) : sProp 𝕄)) ⊢ (iprop(⌜∀ i, φ i⌝) : sProp 𝕄) := by
  suffices h : ∀ s : Finset I, (bigSep s fun i : I => (iprop(⌜φ i⌝) : sProp 𝕄)) ⊢ (iprop(⌜∀ i ∈ s, φ i⌝) : sProp 𝕄) from
    (h Finset.univ).trans (Laws.pure_mono fun h i => h i (Finset.mem_univ i))
  intro s
  induction s using Finset.induction_on with
  | empty => iintro -; ipureintro; intro i hi; exact absurd hi (Finset.notMem_empty _)
  | insert a s ha ih =>
    rw [SparseCore.bigSep_insert' ha]
    iintro ⟨%h1, H⟩
    ihave H' := ih $$ H
    icases H' with %h2
    ipureintro
    intro i hi
    rcases Finset.mem_insert.mp hi with rfl | hi
    · exact h1
    · exact h2 i hi

/-! ## What the handshakes carry

The pair table's contents at the call are not a function of the launch memory: they are SOME contents satisfying a
predicate `R`. So every piece quantifies them; a tile returns its rows of the result at contents that agree with the
gathered function of some such table (its share of the table is dropped: nothing reads the table after the call). -/

variable (R : (d : Dev nD) → Buf (Elt F) (pairsLoc d) → Prop) (idx : (d : Dev nD) → Buf (Elt F) (idxLoc d))
  (o0 : (d : Dev nD) → Buf (Elt F) (outLoc d))

/-- Block `w`'s tile holds: its share of the pair table at `X`, its 512 words of the list, its 512 rows of the result at `f`. -/
abbrev tileIn (d : Dev nD) (w : Fin 32) (X : Buf (Elt F) (pairsLoc d)) (ix : Buf (Elt F) (idxLoc d)) (f : Buf (Elt F) (outLoc d)) : sProp 𝕄 :=
  iprop((pairsLoc d ↦{pq w} X) ∗ (idxLoc d ↦[iRowSet w]{fullShare} ix) ∗ (outLoc d ↦[oRowSet w]{fullShare} f))

/-- `Y` holds the gathered function of the table `X` on block `w`'s rows. -/
def AgreesOn (d : Dev nD) (w : Fin 32) (X : Buf (Elt F) (pairsLoc d)) (ix : Buf (Elt F) (idxLoc d)) (Y : Buf (Elt F) (outLoc d)) : Prop :=
  ∀ i ∈ oRowSet w, Y i = gathered d X ix i

/-- What block `w`'s tile is handed: -/
abbrev goPts (d : Dev nD) (w : Fin 32) : sProp 𝕄 :=
  iprop(∃ X, ⌜R d X⌝ ∗ tileIn d w X (idx d) (o0 d))
/-- and what it hands back. -/
abbrev tdPts (d : Dev nD) (w : Fin 32) : sProp 𝕄 :=
  iprop((idxLoc d ↦[iRowSet w]{fullShare} idx d) ∗ ∃ X Y, ⌜R d X ∧ AgreesOn d w X (idx d) Y⌝ ∗ (outLoc d ↦[oRowSet w]{fullShare} Y))

abbrev cC (c : Fin ((K (F := F)).nCore 0)) : Fin 2 := Fin.cast nCore_zero c
abbrev cS (i : Fin ((K (F := F)).nSub 0)) : Fin 16 := Fin.cast nSub_zero i

/-- The one call: a SparseCore takes and returns its sixteen tiles' pieces. -/
def P : (K (F := F)).Pay (nD := nD) (Val := Elt F) (Name := ℕ) (U := U) where
  st := fun q d c => match q with
    | 0 => bigSep Finset.univ fun i : Fin ((K (F := F)).nSub 0) => goPts R idx o0 d (wid (cC c) (cS i))
  dn := fun q d c => match q with
    | 0 => bigSep Finset.univ fun i : Fin ((K (F := F)).nSub 0) => tdPts R idx d (wid (cC c) (cS i))
  go := fun q d c i => match q with
    | 0 => goPts R idx o0 d (wid (cC c) (cS i))
  td := fun q d c i => match q with
    | 0 => tdPts R idx d (wid (cC c) (cS i))
  x := fun _ _ => iprop(emp)

instance P_storable : (P (F := F) (U := U) R idx o0).IsStorable where
  st q d c := match q with
    | 0 => (inferInstance : BI.Storable (upEmb : UEmb _ 𝕄)
        (bigSep Finset.univ fun i : Fin ((K (F := F)).nSub 0) => goPts R idx o0 d (wid (cC c) (cS i))))
  dn q d c := match q with
    | 0 => (inferInstance : BI.Storable (upEmb : UEmb _ 𝕄)
        (bigSep Finset.univ fun i : Fin ((K (F := F)).nSub 0) => tdPts R idx d (wid (cC c) (cS i))))
  go q d c i := match q with
    | 0 => (inferInstance : BI.Storable (upEmb : UEmb _ 𝕄) (goPts R idx o0 d (wid (cC c) (cS i))))
  td q d c i := match q with
    | 0 => (inferInstance : BI.Storable (upEmb : UEmb _ 𝕄) (tdPts R idx d (wid (cC c) (cS i))))

theorem P_go (d : Dev nD) (c : Fin ((K (F := F)).nCore 0)) (i : Fin ((K (F := F)).nSub 0)) :
    (P (U := U) R idx o0).go 0 d c i = goPts R idx o0 d (wid (cC c) (cS i)) := rfl
theorem P_td (d : Dev nD) (c : Fin ((K (F := F)).nCore 0)) (i : Fin ((K (F := F)).nSub 0)) :
    (P (U := U) R idx o0).td 0 d c i = tdPts R idx d (wid (cC c) (cS i)) := rfl
theorem P_st (d : Dev nD) (c : Fin ((K (F := F)).nCore 0)) :
    (P (U := U) R idx o0).st 0 d c = bigSep Finset.univ fun i : Fin ((K (F := F)).nSub 0) => (P (U := U) R idx o0).go 0 d c i := rfl
theorem P_dn (d : Dev nD) (c : Fin ((K (F := F)).nCore 0)) :
    (P (U := U) R idx o0).dn 0 d c = bigSep Finset.univ fun i : Fin ((K (F := F)).nSub 0) => (P (U := U) R idx o0).td 0 d c i := rfl

/-- A SparseCore's operands ARE its tiles' pieces, and its results theirs. -/
theorem vecSplit : (K (F := F)).VecSplit' (P (U := U) R idx o0) 0 := by
  intro d c
  rw [P_st, P_dn]
  iintro H; imodintro
  isplitl [H]; · iexact H
  iintro H; iexact H

/-! ## The tiles' pieces and the three arrays -/

omit [CountersIn U] in
/-- Tiles by (SparseCore, subcore) are blocks by number. -/
theorem bigSep_tiles (Φ : Fin 32 → sProp 𝕄) :
    (bigSep Finset.univ fun c : Fin 2 => bigSep Finset.univ fun s : Fin 16 => Φ (wid c s)) = bigSep Finset.univ Φ :=
  (bigSep_univ_prod (M := 𝕄) (fun p : Fin 2 × Fin 16 => Φ (wid p.1 p.2))).symm.trans (bigSep_univ_equiv (M := 𝕄) widEquiv Φ).symm

omit [CountersIn U] in
theorem tiles_join (d : Dev nD) (X : Buf (Elt F) (pairsLoc d)) (ix : Buf (Elt F) (idxLoc d)) (f : Buf (Elt F) (outLoc d)) :
    (bigSep Finset.univ fun w : Fin 32 => (tileIn d w X ix f : sProp 𝕄))
      = iprop((pairsLoc d ↦{fullShare} X) ∗ (idxLoc d ↦{fullShare} ix) ∗ (outLoc d ↦{fullShare} f)) := by
  rw [bigSep_sep', bigSep_sep', ← iPts_rows, ← pPts_shares, ← oPts_rows]

theorem st_unfold (d : Dev nD) :
    (bigSep Finset.univ fun c : Fin ((K (F := F)).nCore 0) => (P (U := U) R idx o0).st 0 d c)
      = bigSep Finset.univ fun c : Fin 2 => bigSep Finset.univ fun s : Fin 16 => goPts (U := U) R idx o0 d (wid c s) := rfl
theorem dn_unfold (d : Dev nD) :
    (bigSep Finset.univ fun c : Fin ((K (F := F)).nCore 0) => (P (U := U) R idx o0).dn 0 d c)
      = bigSep Finset.univ fun c : Fin 2 => bigSep Finset.univ fun s : Fin 16 => tdPts (U := U) R idx d (wid c s) := rfl

/-- The call's operands, the pair table at contents satisfying `R`, are the SparseCores' pieces. -/
theorem st_intro (d : Dev nD) (X : Buf (Elt F) (pairsLoc d)) :
    iprop(⌜R d X⌝ ∗ (pairsLoc d ↦{fullShare} X) ∗ (idxLoc d ↦{fullShare} idx d) ∗ (outLoc d ↦{fullShare} o0 d))
      ⊢ bigSep Finset.univ fun c : Fin ((K (F := F)).nCore 0) => (P (U := U) R idx o0).st 0 d c := by
  iintro ⟨%hR, H⟩
  ihave H' := (Entails.of_eq (tiles_join (F := F) (U := U) d X (idx d) (o0 d)).symm) $$ H
  have hm : (bigSep Finset.univ fun w : Fin 32 => (tileIn d w X (idx d) (o0 d) : sProp 𝕄)) ⊢ bigSep Finset.univ fun w : Fin 32 => goPts (U := U) R idx o0 d w :=
    bigSep_mono (fun w _ => by
      show (tileIn d w X (idx d) (o0 d) : sProp 𝕄) ⊢ goPts (U := U) R idx o0 d w
      iintro Hw; iexists X; isplitr
      · ipureintro; exact hR
      · iexact Hw)
  iapply (Entails.of_eq ((bigSep_tiles (F := F) (U := U) (fun w => goPts R idx o0 d w)).symm.trans (st_unfold R idx o0 d).symm))
  iapply hm $$ H'

/-- What a result satisfying the tiles' agreements says row by row. -/
theorem rows_of_agrees (d : Dev nD) (Xs : Fin 32 → Buf (Elt F) (pairsLoc d)) (Ys : Fin 32 → Buf (Elt F) (outLoc d)) (g : Buf (Elt F) (outLoc d))
    (hX : ∀ w, R d (Xs w) ∧ AgreesOn d w (Xs w) (idx d) (Ys w)) (hg : ∀ w ∈ (Finset.univ : Finset (Fin 32)), ∀ i ∈ oRowSet w, g i = Ys w i) :
    ∀ r : Fin 16384, ∃ X, R d X ∧ ∀ j : Fin 128, g (ix2 r j) = gathered d X (idx d) (ix2 r j) := by
  intro r
  have hmem : (ix2 r (⟨0, by decide⟩ : Fin 128) : S16384x128.Idx) ∈ (Finset.univ : Finset (Fin 32)).biUnion oRowSet := by
    rw [orows_cover]; exact Finset.mem_univ _
  obtain ⟨w, -, hw⟩ := Finset.mem_biUnion.mp hmem
  refine ⟨Xs w, (hX w).1, fun j => ?_⟩
  have hj : (ix2 r j : S16384x128.Idx) ∈ oRowSet w := by
    rw [oRowSet_eq, Rect.mem_set_unit] at hw ⊢
    intro a
    match a with
    | 0 => exact hw 0
    | 1 => simp [Shape.partIx, Shape.partSize]
  rw [hg w (Finset.mem_univ w) _ hj]
  exact (hX w).2 _ hj

omit [CountersIn U] in
set_option maxRecDepth 4096 in
/-- The tiles' rows of the result join to the result whole, each row the gathered row of some table satisfying `R`. -/
theorem out_join (d : Dev nD) :
    (bigSep Finset.univ fun w : Fin 32 => (iprop(∃ X Y, ⌜R d X ∧ AgreesOn d w X (idx d) Y⌝ ∗ (outLoc d ↦[oRowSet w]{fullShare} Y)) : sProp 𝕄))
      ⊢ iprop(∃ Y, ⌜∀ r : Fin 16384, ∃ X, R d X ∧ ∀ j : Fin 128, Y (ix2 r j) = gathered d X (idx d) (ix2 r j)⌝ ∗ (outLoc d ↦{fullShare} Y)) := by
  refine (bigSep_exists_pi Finset.univ (fun (w : Fin 32) (X : Buf (Elt F) (pairsLoc d)) =>
    (iprop(∃ Y, ⌜R d X ∧ AgreesOn d w X (idx d) Y⌝ ∗ (outLoc d ↦[oRowSet w]{fullShare} Y)) : sProp 𝕄))).trans ?_
  iintro ⟨%Xs, Ho1⟩
  ihave Ho2 := (bigSep_exists_pi Finset.univ (fun (w : Fin 32) (Y : Buf (Elt F) (outLoc d)) =>
    (iprop(⌜R d (Xs w) ∧ AgreesOn d w (Xs w) (idx d) Y⌝ ∗ (outLoc d ↦[oRowSet w]{fullShare} Y)) : sProp 𝕄))) $$ Ho1
  icases Ho2 with ⟨%Ys, Ho2⟩
  ihave Ho2' := (Entails.of_eq (bigSep_sep' Finset.univ (fun w : Fin 32 => (iprop(⌜R d (Xs w) ∧ AgreesOn d w (Xs w) (idx d) (Ys w)⌝) : sProp 𝕄))
    (fun w : Fin 32 => (outLoc d ↦[oRowSet w]{fullShare} Ys w : sProp 𝕄)))) $$ Ho2
  icases Ho2' with ⟨Hp, Ho3⟩
  ihave Hp' := (bigSep_pure_univ (F := F) (U := U) (fun w : Fin 32 => R d (Xs w) ∧ AgreesOn d w (Xs w) (idx d) (Ys w))) $$ Hp
  icases Hp' with %hX
  ihave H' := (pointsTo_biUnion_join (ℓ := outLoc d) (q := fullShare) (Val := Elt F) Finset.univ oRowSet Ys (Ys 0) orows_disjoint) $$ Ho3
  icases H' with ⟨%g, %hg, Hg⟩
  ihave Hg' := (Entails.of_eq (show (outLoc d ↦[(Finset.univ : Finset (Fin 32)).biUnion oRowSet]{fullShare} g : sProp 𝕄) = (outLoc d ↦{fullShare} g) by rw [orows_cover])) $$ Hg
  iexists g
  isplitr
  · ipureintro; exact rows_of_agrees R idx d Xs Ys g hX hg
  · iexact Hg'

/-- The SparseCores' results are the list unchanged and the result whole, each row the gathered row of SOME table
    satisfying `R`. -/
theorem dn_elim (d : Dev nD) :
    (bigSep Finset.univ fun c : Fin ((K (F := F)).nCore 0) => (P (U := U) R idx o0).dn 0 d c)
      ⊢ iprop((idxLoc d ↦{fullShare} idx d)
          ∗ ∃ Y, ⌜∀ r : Fin 16384, ∃ X, R d X ∧ ∀ j : Fin 128, Y (ix2 r j) = gathered d X (idx d) (ix2 r j)⌝ ∗ (outLoc d ↦{fullShare} Y)) := by
  refine (Entails.of_eq ((dn_unfold R idx o0 d).trans (bigSep_tiles (F := F) (U := U) (fun w => tdPts R idx d w)))).trans ?_
  refine (Entails.of_eq (bigSep_sep' Finset.univ (fun w : Fin 32 => (idxLoc d ↦[iRowSet w]{fullShare} idx d : sProp 𝕄))
    (fun w : Fin 32 => (iprop(∃ X Y, ⌜R d X ∧ AgreesOn d w X (idx d) Y⌝ ∗ (outLoc d ↦[oRowSet w]{fullShare} Y)) : sProp 𝕄)))).trans ?_
  rw [← iPts_rows]
  exact sep_mono_right (out_join R idx d)

end Cert.KernelIdeal.Sc

end
-- ==== Proof.ScValue.lean ====
/-
  The row gather on one vector subcore, the mathematics: the tile at a symbolic place addresses block `2 s + c` of the
  index list and of the result; each group of sixteen words it stores into the row-number scratch is the row function
  `kOf` of the sixteen words it fetched, so the scratch, written by 32 such stores, reads as ONE function of the fetched
  words; the stream's payload over that list, copied out, is the gathered function on the tile's rows.
-/
import proofs.«205263_g58420145160647_cont_9to1_m_909_25_alg».proof.Proof.ScSplit
import Idealize.ShloMosaic.Lib.Pipeline.Value
import Idealize.ShloMosaic.Lib.Pipeline.FrameBody
import Idealize.ShloMosaic.Lib.Writes

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]
variable {U : Type} [URA U] [CountersIn U]

local notation "𝕄" => MT nD τ sig (HIx 1) (Elt F) ℕ U ℕ

local notation "pV" => (Memref.whole Cert.KernelIdeal.main_v1_scv : Memref Cert.KernelIdeal.sig Kind.scVector Space.hbm Cert.KernelIdeal.S507904x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v2_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S512 EltTy.i32)
local notation "kV" => (Memref.whole Cert.KernelIdeal.cc1_scratch1 : Memref Cert.KernelIdeal.sig Kind.scVector Space.vmem Cert.KernelIdeal.S512 EltTy.i32)
local notation "rV" => (Memref.whole Cert.KernelIdeal.cc1_scratch2 : Memref Cert.KernelIdeal.sig Kind.scVector Space.vmem Cert.KernelIdeal.S512x128 EltTy.f32)

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
/-- The block the tile at `L` works on. -/
def wL (L : grid1.Coords) : Fin 32 := ⟨2 * (L 1).val + (L 0).val, by
  have h0 := (L 0).isLt; have h1 := (L 1).isLt
  have e0 : grid1.bound 0 = 2 := rfl; have e1 : grid1.bound 1 = 16 := rfl
  omega⟩
omit [FloatOps F] in
theorem wL_eq (L : grid1.Coords) : wL L = wid (Fin.cast bound_zero (L 0)) (Fin.cast bound_one (L 1)) := rfl

abbrev irowK (L : grid1.Coords) : Rect S16384 := Rect.unit (s := S16384) (k1_off1 L) S512.size (k1_off1_inb L)
abbrev orowK (L : grid1.Coords) : Rect S16384x128 := Rect.unit (s := S16384x128) (k1_off2 L) S512x128.size (k1_off2_inb L)
/-- The tile's words of the list and rows of the result, as it addresses them, and the pair table whole. -/
abbrev iRowK (L : grid1.Coords) : Memref sig .scVector .hbm S512 .i32 := (iV).slice (irowK L) (fun _ => rfl)
abbrev oRowK (L : grid1.Coords) : Memref sig .scVector .hbm S512x128 .f32 := (oV).slice (orowK L) (fun _ => rfl)
abbrev pAllK : Memref sig .scVector .hbm S507904x128 .f32 := (pV).slice (Rect.unit (s := S507904x128) ![0, 0] S507904x128.size inb_S507904x128_S507904x128_0_0) (fun _ => rfl)

omit [FloatOps F] in
theorem irowK_eq : irowK L = irow (wL L) := by
  unfold irowK irow Rect.part Rect.block
  congr 1 <;> funext a
  · rw [k1_off1_eq]
    match a with
    | 0 => simp [Shape.partIx, Shape.partSize, wL]; omega
  · match a with
    | 0 => simp [Shape.partSize]
omit [FloatOps F] in
theorem orowK_eq : orowK L = orow (wL L) := by
  unfold orowK orow Rect.part Rect.block
  congr 1 <;> funext a
  · rw [k1_off2_eq]
    match a with
    | 0 => simp [Shape.partIx, Shape.partSize, wL]; omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] [CountersIn U] in
theorem pts_iRowK (f : Buf (Elt F) (idxLoc d)) :
    ((iRowK L).view.loc (V d (cV L) (jV L)) ↦[(iRowK L).view.set]{fullShare} f : sProp 𝕄) = idxLoc d ↦[iRowSet (wL L)]{fullShare} f := by
  rw [set_iRowK]
omit [FloatOps F] [CountersIn U] in
theorem pts_oRowK (f : Buf (Elt F) (outLoc d)) :
    ((oRowK L).view.loc (V d (cV L) (jV L)) ↦[(oRowK L).view.set]{fullShare} f : sProp 𝕄) = outLoc d ↦[oRowSet (wL L)]{fullShare} f := by
  rw [set_oRowK]
omit [FloatOps F] [CountersIn U] in
theorem pts_pV (q : PosShare TreeShare) (f : Buf (Elt F) (pairsLoc d)) :
    ((pV).view.loc (V d (cV L) (jV L)) ↦{q} f : sProp 𝕄) = pairsLoc d ↦{q} f := rfl
omit [FloatOps F] [CountersIn U] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] [CountersIn U] in
theorem pts_kV (f : Buf (Elt F) ((V d (cV L) (jV L)).loc cc1_scratch1)) :
    ((kV).view.loc (V d (cV L) (jV L)) ↦{fullShare} f : sProp 𝕄) = (V d (cV L) (jV L)).loc cc1_scratch1 ↦{fullShare} f := rfl
omit [FloatOps F] [CountersIn U] in
theorem pts_rV (f : Buf (Elt F) ((V d (cV L) (jV L)).loc cc1_scratch2)) :
    ((rV).view.loc (V d (cV L) (jV L)) ↦{fullShare} f : sProp 𝕄) = (V d (cV L) (jV L)).loc cc1_scratch2 ↦{fullShare} f := rfl

/-! ## One group's store -/

omit [CountersIn U] in
/-- Sixteen words loaded at `off` from the word scratch, holding the fetched words `sread`, and pushed through the kernel's
    vector chain, are `kOf` of the fetched words there. -/
theorem pay_apply (fs : Buf (Elt F) ((V d (cV L) (jV L)).loc cc1_scratch0)) (sread : S512.Idx → Elt F .i32)
    (off : Fin 1 → ℕ) (inb : ∀ a, off a + S16.size a ≤ S512.size a) (h1 h2 : S16.ShapeCasts S16) (x : S16.Idx) :
    shapeCast S16 (addi (shli (shrui (shapeCast S16 (View.readAt (Elt F) (sV).view (Rect.unit (s := S512) off S16.size inb).toLoadRect
        (View.write (Elt F) (sV).view fs sread Finset.univ)) h1) (broadcast S16 15#32)) (broadcast S16 14#32))
      (andi (shapeCast S16 (View.readAt (Elt F) (sV).view (Rect.unit (s := S512) off S16.size inb).toLoadRect
        (View.write (Elt F) (sV).view fs sread Finset.univ)) h1) (broadcast S16 16383#32))) h2 x
      = kOf (sread ((Rect.unit (s := S512) off S16.size inb).emb x)) := by
  have e : shapeCast S16 (View.readAt (Elt F) (sV).view (Rect.unit (s := S512) off S16.size inb).toLoadRect
        (View.write (Elt F) (sV).view fs sread Finset.univ)) h1
      = fun x => sread ((Rect.unit (s := S512) off S16.size inb).emb x) := by
    refine (shapeCast_self (s := S16) _ h1).trans ?_
    rw [View.readAt_eq_ld, View.read_write_univ]; rfl
  rw [shapeCast_self, e]; rfl

/-! ## Pieces of one function -/

omit [FloatOps F] in
theorem pieces_nil {S : Shape} {e : EltTy} (G : S.Idx → Elt F e) :
    ∀ p ∈ ([] : List (View.Piece (Elt F) S e)), ∀ x : p.1.shape.Idx, p.2 x = G (p.1.emb x) :=
  fun _ h => absurd h List.not_mem_nil
omit [FloatOps F] in
theorem pieces_cons {S : Shape} {e : EltTy} (G : S.Idx → Elt F e) (p : View.Piece (Elt F) S e) (Lst : List (View.Piece (Elt F) S e))
    (h1 : ∀ x : p.1.shape.Idx, p.2 x = G (p.1.emb x)) (h2 : ∀ q ∈ Lst, ∀ x : q.1.shape.Idx, q.2 x = G (q.1.emb x)) :
    ∀ q ∈ p :: Lst, ∀ x : q.1.shape.Idx, q.2 x = G (q.1.emb x) := by
  intro q hq
  rcases List.mem_cons.mp hq with rfl | hq
  · exact h1
  · exact h2 q hq

omit [CountersIn U] in
/-- The row-number scratch after stores that cover it, each a block of ONE function `G`, reads as `G`. -/
theorem kv_read [∀ e, Nonempty (Elt F e)] (G : S512.Idx → Elt F .i32) (Lst : List (View.Piece (Elt F) S512 .i32))
    (hp : ∀ p ∈ Lst, ∀ x : p.1.shape.Idx, p.2 x = G (p.1.emb x)) (hc : ∀ y : S512.Idx, ∃ p ∈ Lst, y ∈ p.1.set) (y : S512.Idx) :
    (kV).view.read (Elt F) ((kV).view.writes (Elt F) (kV).view.junk Lst) y = G y := by
  rw [View.read_writes_apply_eq_canon _ _ _ _ (hc y)]
  exact View.canon_apply_of_pieces G Lst hp y (hc y)

/-! ## The gathered rows -/

omit [FloatOps F] in
theorem rowNo_lt (n : ℕ) (hn : n < 512) : 1024 * (L 1).val + 512 * (L 0).val + n < 16384 := by
  have h0 := (L 0).isLt; have h1 := (L 1).isLt
  have e0 : grid1.bound 0 = 2 := rfl; have e1 : grid1.bound 1 = 16 := rfl
  omega
omit [FloatOps F] in
/-- Word `y` of the tile's block of the list is word `512 w + y` of the list. -/
theorem iRowK_emb (y : S512.Idx) :
    (iRowK L).view.emb y = ix1 (⟨1024 * (L 1).val + 512 * (L 0).val + (y 0).val, rowNo_lt L _ (y 0).isLt⟩ : Fin 16384) := by
  funext a
  match a with
  | 0 =>
    apply Fin.ext
    show (k1_off1 L) 0 + 1 * (y 0).val = 1024 * (L 1).val + 512 * (L 0).val + (y 0).val
    rw [k1_off1_eq]; simp
omit [FloatOps F] in
/-- Row `j 0`, lane `j 1` of the tile's block of the result is row `512 w + j 0`, lane `j 1` of the result. -/
theorem oRowK_emb (j : S512x128.Idx) :
    (oRowK L).view.emb j = ix2 (⟨1024 * (L 1).val + 512 * (L 0).val + (j 0).val, rowNo_lt L _ (j 0).isLt⟩ : Fin 16384) (j 1) := by
  funext a
  match a with
  | 0 =>
    apply Fin.ext
    show (k1_off2 L) 0 + 1 * (j 0).val = 1024 * (L 1).val + 512 * (L 0).val + (j 0).val
    rw [k1_off2_eq]; simp
  | 1 =>
    apply Fin.ext
    show (k1_off2 L) 1 + 1 * (j 1).val = (j 1).val
    rw [k1_off2_eq]; simp
omit [FloatOps F] in
/-- The pair table sliced whole is the pair table. -/
theorem pAllK_emb (z : S507904x128.Idx) : (pAllK).view.emb z = z := by
  funext a
  apply Fin.ext
  show (![0, 0] : Fin 2 → ℕ) a + 1 * (z a).val = (z a).val
  match a with
  | 0 => simp
  | 1 => simp

omit [CountersIn U] in
/-- The stream's payload over a list that reads as `kOf` of the tile's words is the gathered function on the tile's rows. -/
theorem gather_value (X : Buf (Elt F) (pairsLoc d)) (ix : Buf (Elt F) (idxLoc d)) (kread : S512.Idx → Elt F .i32)
    (hn : S512.numel = S512x128.size gathers_S507904x128_S512x128.axis')
    (hin : ∀ x, (kread x).toNat < S507904x128.size gathers_S507904x128_S512x128.axis)
    (hk : ∀ y, kread y = kOf (ix ((iRowK L).view.emb y))) (j : S512x128.Idx) :
    SparseCore.gatherPayload gathers_S507904x128_S512x128 ((pAllK).view.read (Elt F) X) (SparseCore.rows kread hn hin) j
      = gathered d X ix ((oRowK L).view.emb j) := by
  unfold SparseCore.gatherPayload
  rw [View.read_apply]
  show X ((pAllK).view.emb _) = _
  rw [pAllK_emb]
  have hrow : ∀ y : S512.Idx, (y 0).val = (j 0).val → (iRowK L).view.emb y = ix1 (((oRowK L).view.emb j) 0) := by
    intro y hy
    rw [iRowK_emb, oRowK_emb]
    congr 1
    apply Fin.ext
    show _ + (y 0).val = _ + (j 0).val
    rw [hy]
  have hy0 : ((S512.rowMajor.symm ((j 0).cast hn.symm)) 0).val = (j 0).val := by
    have e := Shape.rowMajor_val_one (S512.rowMajor.symm ((j 0).cast hn.symm))
    rw [Equiv.apply_symm_apply] at e
    exact e.symm
  have hk0 : kread (S512.rowMajor.symm ((j 0).cast hn.symm)) = kOf (ix (ix1 (((oRowK L).view.emb j) 0))) := by
    have h := hk (S512.rowMajor.symm ((j 0).cast hn.symm))
    rw [hrow _ hy0] at h
    exact h
  have hlt : (kOf (ix (ix1 (((oRowK L).view.emb j) 0)))).toNat < 507904 := by
    have h := hin (S512.rowMajor.symm ((j 0).cast hn.symm))
    rw [hk0] at h
    exact h
  rw [gathered_apply d X ix _ hlt]
  congr 1
  funext a
  match a with
  | 0 =>
    apply Fin.ext
    refine (congrArg Fin.val (Shape.Gathers.idx_axis gathers_S507904x128_S512x128 (SparseCore.rows kread hn hin) j)).trans ?_
    show (kread (S512.rowMajor.symm ((j 0).cast hn.symm))).toNat = _
    rw [hk0]
  | 1 =>
    apply Fin.ext
    refine (Shape.Gathers.idx_of_ne gathers_S507904x128_S512x128 (SparseCore.rows kread hn hin) j 1 (by decide)).trans ?_
    show (j 1).val = ((oRowK L).view.emb j 1).val
    exact (congrArg Fin.val (congrFun (oRowK_emb L j) 1)).symm

omit [CountersIn U] in
/-- The tile's rows of the result, written whole with a payload that is the gathered function there, hold it. -/
theorem out_value (X : Buf (Elt F) (pairsLoc d)) (ix : Buf (Elt F) (idxLoc d)) (fo : Buf (Elt F) (outLoc d)) (pay : S512x128.Idx → Elt F .f32)
    (hpay : ∀ j, pay j = gathered d X ix ((oRowK L).view.emb j)) :
    ∀ i ∈ (oRowK L).view.set, (oRowK L).view.writes (Elt F) fo [⟨Rect.whole S512x128, pay⟩] i = gathered d X ix i := by
  intro i hi
  obtain ⟨j, -, rfl⟩ := Finset.mem_map.mp hi
  have e := View.read_writes_cons_emb (oRowK L).view fo (Rect.whole S512x128) pay [] j
  rw [Rect.emb_whole_apply, View.read_apply] at e
  rw [← hpay j, ← e]
  rfl

end Tile

end Cert.KernelIdeal.Sc

end
-- ==== Proof.ScTile.lean ====
/-
  The body of the row gather on one vector subcore, at a symbolic place: the tile fetches
  its 512 words of the index list, stores for each group of sixteen the pair-table rows they name, gathers those 512
  rows by the indirect stream (its offsets in range because every word of the list is below 1000000), waits, and copies
  them out to its 512 rows of the result, which then hold the gathered function. Then the launch theorem's obligation
  for a tile: the pair table at SOME contents satisfying the predicate, the result's rows returned at contents agreeing
  with the gathered function of that table.
-/
import proofs.«205263_g58420145160647_cont_9to1_m_909_25_alg».proof.Proof.ScValue
import proofs.«205263_g58420145160647_cont_9to1_m_909_25_alg».proof.Proof.Gen.KernelIdeal.Skeleton
import Idealize.ShloMosaic.Lib.Ring

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]
variable {U : Type} [URA U] [CountersIn U]

local notation "𝕄" => MT nD τ sig (HIx 1) (Elt F) ℕ U ℕ

local notation "pV" => (Memref.whole Cert.KernelIdeal.main_v1_scv : Memref Cert.KernelIdeal.sig Kind.scVector Space.hbm Cert.KernelIdeal.S507904x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v2_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S512 EltTy.i32)
local notation "kV" => (Memref.whole Cert.KernelIdeal.cc1_scratch1 : Memref Cert.KernelIdeal.sig Kind.scVector Space.vmem Cert.KernelIdeal.S512 EltTy.i32)
local notation "rV" => (Memref.whole Cert.KernelIdeal.cc1_scratch2 : Memref Cert.KernelIdeal.sig Kind.scVector Space.vmem Cert.KernelIdeal.S512x128 EltTy.f32)

section Tile

variable (d : Dev nD) (L : grid1.Coords)

abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

omit [FloatOps F] [CountersIn U] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] [CountersIn U] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

variable (X : Buf (Elt F) (pairsLoc d)) (ix : Buf (Elt F) (idxLoc d)) (fo : Buf (Elt F) (outLoc d))

set_option maxHeartbeats 4000000 in
set_option maxRecDepth 16384 in
/-- The task on vector subcore `(L 0, L 1)` of device `d`, the pair table at `X`: the fetch of the list's words, the 32
    groups' stores, the stream and its wait, the copy-out; the stream's offsets are in range and the result's rows hold the
    gathered function because every store's payload is `kOf` of the fetched words. -/
theorem tile_body (hF : (K (F := F)).Facts) (hpre : ∀ r : S16384.Idx, (ix r).toNat < 1000000)
    (O : CellTallies nD τ sig (HIx 1)) (W : Waits sig (HIx 1)) (hO : ∀ g, O g none = 0) :
    iprop(levAts (K (F := F)).L (K (F := F)).lev ∗ emp
        ∗ tileIn (U := U) d (wL L) X ix fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L pV (Memref.isWhole_whole _) iV (Memref.isWhole_whole _) oV (Memref.isWhole_whole _)
            sV (Memref.isWhole_whole _) kV (Memref.isWhole_whole _) rV (Memref.isWhole_whole _) cc1_scratch3 cc1_scoped0 cc1_scoped1)
          fun _ => iprop(tileIn (U := U) d (wL L) X ix (gathered d X ix)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fk, Hk⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) (U := U) d L _).symm) $$ Hi
  ihave Ho' := (Entails.of_eq (pts_oRowK (F := F) (U := U) d L _).symm) $$ Ho
  ihave Hx' := (Entails.of_eq (pts_pV (F := F) (U := U) d L _ _).symm) $$ Hx
  ihave Hs' := (Entails.of_eq (pts_sV (F := F) (U := U) d L _).symm) $$ Hs
  ihave Hk' := (Entails.of_eq (pts_kV (F := F) (U := U) d L _).symm) $$ Hk
  ihave Hr' := (Entails.of_eq (pts_rV (F := F) (U := U) d L _).symm) $$ Hr
  sl_exec
  -- THE ROW NUMBERS: the 32 stores' pieces are blocks of ONE function, `kOf` of the fetched words, and cover the scratch.
  have hpieces : ∀ p ∈ tile_body.sl.Hk'_32 d L ix fs, ∀ x : p.1.shape.Idx,
      p.2 x = (fun y : S512.Idx => kOf (tile_body.sl.dma0 d L ix y)) (p.1.emb x) := by
    unfold tile_body.sl.Hk'_32
    repeat (refine pieces_cons (F := F) (S := S512) (e := .i32) (fun y : S512.Idx => kOf (tile_body.sl.dma0 d L ix y)) _ _ (by intro x; exact pay_apply (F := F) d L fs (tile_body.sl.dma0 d L ix) _ _ _ _ x) ?_)
    exact pieces_nil (F := F) (S := S512) (e := .i32) (fun y : S512.Idx => kOf (tile_body.sl.dma0 d L ix y))
  have hcover : ∀ y : S512.Idx, ∃ p ∈ tile_body.sl.Hk'_32 d L ix fs, y ∈ p.1.set :=
    View.cover_of_tiledL _ S16.size (by sl_kernel_rfl)
  have hk : ∀ y, (kV).view.read (Elt F) ((kV).view.writes (Elt F) (kV).view.junk (tile_body.sl.Hk'_32 d L ix fs)) y
      = kOf (ix ((iRowK L).view.emb y)) :=
    fun y => kv_read (F := F) (fun y : S512.Idx => kOf (tile_body.sl.dma0 d L ix y)) _ hpieces hcover y
  have hin : ∀ x, ((kV).view.read (Elt F) ((kV).view.writes (Elt F) (kV).view.junk (tile_body.sl.Hk'_32 d L ix fs)) x).toNat
      < S507904x128.size gathers_S507904x128_S512x128.axis := fun x => by
    rw [hk x]; exact kOf_lt _ (hpre _)
  -- THE INDIRECT GATHER: the stream over the row numbers; the tile hands in its share of the pair table, the row buffer,
  -- the list's buffer whole and the cell at zero; back comes the stream's flight.
  ihave Hxs := (pointsTo_split_subset (q := pq (wL L)) (f := X) (S := Finset.univ) (Finset.subset_univ (pAllK).view.set)).1 $$ Hx'
  icases Hxs with ⟨Hxs, Hxr⟩
  have hrs : (rV).view.set = Finset.univ := View.set_whole _
  have hks : (kV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hk'' := (Entails.of_eq (show ((kV).view.loc (V d (cV L) (jV L)) ↦{fullShare} (kV).view.writes (Elt F) (kV).view.junk (tile_body.sl.Hk'_32 d L ix fs) : sProp 𝕄)
      = (kV).view.loc (V d (cV L) (jV L)) ↦[(kV).view.set]{fullShare} (kV).view.writes (Elt F) (kV).view.junk (tile_body.sl.Hk'_32 d L ix fs)
      by rw [hks])) $$ Hk'
  have hN : ∀ h : S507904x128.Gathers 0 S512x128, ∑ j, ((rV).slice (S512x128.rowRect h.axis' j) (S512x128.stride_rowRect h.axis' j)).view.dmaCredit
      = (rV).view.dmaCredit := fun h => SparseCore.sum_rowCredit_eq_dmaCredit (rV) h.axis' (fun _ => rfl)
  iapply (SparseCore.wp_indirectGatherLocal countersEmb 𝒱₀ (V d (cV L) (jV L)) none (hg := gathers_S507904x128_S512x128) (default : HIx 1)
      (rV).view.dmaCredit (hN _) (by decide) hin) $$ [Hxs Hr'' Hk'' HsemA]
  · isplitl [Hxs]; · iexact Hxs
    isplitl [Hr'']; · iexact Hr''
    isplitl [Hk'']; · iexact Hk''
    iexact HsemA
  iintro Hfl
  sl_exec
  -- ITS WAIT: the row buffer written with the gathered rows, the share of the pair table and the list's buffer back.
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch3.sem)) $$ Hmw
  iintro ⟨⟨Hr', Hxs, Hk'⟩, HsemA, HO⟩
  ihave Hx' := (pointsTo_split_subset (q := pq (wL L)) (f := X) (S := Finset.univ) (Finset.subset_univ (pAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hk3 := (Entails.of_eq (show ((kV).view.loc (V d (cV L) (jV L)) ↦[(kV).view.set]{fullShare} _ : sProp 𝕄)
      = (kV).view.loc (V d (cV L) (jV L)) ↦{fullShare} _ by rw [hks])) $$ Hk'
  sl_exec
  sl_step
  -- THE VALUE: what the copy-out wrote is the stream's payload read back, the gathered function on the tile's rows.
  have hval : ∀ i ∈ (oRowK L).view.set,
      (oRowK L).view.writes (Elt F) fo [⟨Rect.whole S512x128, tile_body.sl.dma0_1 d L X ix fs fr hin⟩] i = gathered d X ix i :=
    out_value (F := F) d L X ix fo _ (fun j => by
      unfold tile_body.sl.dma0_1
      rw [ReadAs.apply_same, View.read_write_univ]
      exact gather_value (F := F) d L X ix _ _ hin hk j)
  isplitl [Hi' Hx' Ho']
  · isplitl [Hx']; · iexact Hx'
    isplitl [Hi']; · iapply (Entails.of_eq (pts_iRowK (F := F) (U := U) d L _)); iexact Hi'
    iapply (Entails.of_eq (pts_oRowK (F := F) (U := U) d L _))
    iapply (Entails.of_eq (pointsTo_congr hval)); iexact Ho'
  isplitl [Hs' Hk3 Hr3 Hbufs]
  · isplitl [Hs']; · iexists _; iexact Hs'
    isplitl [Hk3]; · iexists _; iexact Hk3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The obligation -/

section Obl

variable (R : (d : Dev nD) → Buf (Elt F) (pairsLoc d) → Prop) (idx : (d : Dev nD) → Buf (Elt F) (idxLoc d))
  (o0 : (d : Dev nD) → Buf (Elt F) (outLoc d))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          pV (Memref.isWhole_whole _) iV (Memref.isWhole_whole _) oV (Memref.isWhole_whole _)
          sV (Memref.isWhole_whole _) kV (Memref.isWhole_whole _) rV (Memref.isWhole_whole _) cc1_scratch3 cc1_scoped0 cc1_scoped1) ⟨⟩ c s := rfl

omit [FloatOps F] [CountersIn U] in
/-- The table's contents, quantified in what a tile is handed, are fixed for its run. -/
theorem go_open {A B C Q : sProp 𝕄} {α : Type} {φ : α → Prop} {G : α → sProp 𝕄}
    (h : ∀ X, φ X → iprop(A ∗ B ∗ G X ∗ C) ⊢ Q) : iprop(A ∗ B ∗ (∃ X, ⌜φ X⌝ ∗ G X) ∗ C) ⊢ Q := by
  iintro ⟨HA, HB, ⟨%X, %hX, HG⟩, HC⟩
  iapply (h X hX)
  isplitl [HA]; · iexact HA
  isplitl [HB]; · iexact HB
  isplitl [HG]; · iexact HG
  iexact HC

omit [CountersIn U] in
/-- What the body leaves is what the tile hands back: the table's share dropped, the rows at contents that agree with the
    gathered function of a table satisfying `R`. -/
theorem td_post (d : Dev nD) (w : Fin 32) (X : Buf (Elt F) (pairsLoc d)) (hR : R d X) {thr : Thread nD τ} {B C : sProp 𝕄}
    {O : CellTallies nD τ sig (HIx 1)} {W : Waits sig (HIx 1)} {q : Fin 1} :
    iprop(tileIn (U := U) d w X (idx d) (gathered d X (idx d)) ∗ B ∗ C ∗ ∃ W', ⌜∀ p ∈ W', p ∈ W ∨ p.2 = none⌝ ∗ owes thr O W')
      ⊢ iprop(tdPts (U := U) R idx d w ∗ B ∗ C ∗ ∃ W', ⌜∀ p ∈ W', p ∈ W ∨ p.2 = none ∨ p.2 = some q⌝ ∗ owes thr O W') := by
  iintro ⟨⟨-, Hi, Ho⟩, HB, HC, %W', %hW', HO⟩
  isplitl [Hi Ho]
  · isplitl [Hi]; · iexact Hi
    iexists X; iexists (gathered d X (idx d)); isplitr
    · ipureintro; exact ⟨hR, fun _ _ => rfl⟩
    · iexact Ho
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d (r : S16384.Idx), (idx d r).toNat < 1000000) :
    (K (F := F)).TileObl (D (F := F)) 𝒱 (P (U := U) R idx o0) v₀ 0 := by
  intro d c i O W hO _ _
  simp only [show (P (U := U) R idx o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go]; simp only [P_td]
  refine go_open (fun X hR => ?_)
  exact (tile_body (U := U) d (coordsV ⟨_, hci.1⟩ ⟨_, hci.2⟩) X (idx d) (o0 d) hF (hpre d) O W hO).trans
    (wp_mono frame _ _ fun _ => td_post (U := U) R idx d _ X hR)

end Obl

end Cert.KernelIdeal.Sc

end
-- ==== Proof.GatherValue.lean ====
import proofs.«205263_g58420145160647_cont_9to1_m_909_25_alg».proof.Proof.Tc0Value
import proofs.«205263_g58420145160647_cont_9to1_m_909_25_alg».proof.Proof.ScSplit
import proofs.«205263_g58420145160647_cont_9to1_m_909_25_alg».proof.Proof.RunReg0
import Idealize.ShloMosaic.Lib.StableHlo.Run
/-! # The gathered rows and the first region's entry contents, read at an index

(A) The SparseCore call copies, for each word `v` of the list, row `kOf v` of the pair table into the result. The
first region leaves the pair table holding the operand `main_v0` (the table transposed) block by block, so the 64
lanes of the half `halfOf v` of that row are column `v` of the operand: the table's row `v`
(`gathered_half`). The arithmetic is on the words' numbers: below 2^20, `kOf v = (v div 32768) · 16384 + v mod 16384`
and `halfOf v = (v div 16384) mod 2`.

(B) The operand at the first region's entry is the host's transpose of the table (`Host.V1_main_v0_apply`); every
other reference is as launched (`Host.V1_of`). -/

set_option maxRecDepth 16384

noncomputable section

namespace Cert.KernelIdeal.Gather

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {U : Type} [URA U]

/-! ## The words of the list: the row they name and the half they select -/

/-- Which half of a pair-table row holds the table row a word `v` of the list names, as the second kernel computes
    it on the vector unit: `(v >>> 14) &&& 1`. -/
def halfOf (v : BitVec 32) : BitVec 32 := IntOp.andi (IntOp.shrui .vector v 14#32) 1#32

theorem halfOf_eq (v : BitVec 32) : halfOf v = (v >>> 14) &&& 1#32 := by
  unfold halfOf IntOp.shrui IntOp.andi
  rw [if_pos (by decide)]
  rfl

/-- The half as a number: bit 14 of the word. -/
theorem halfOf_toNat (v : BitVec 32) : (halfOf v).toNat = (v.toNat / 16384) % 2 := by
  rw [halfOf_eq, BitVec.toNat_and, BitVec.toNat_ushiftRight, Nat.shiftRight_eq_div_pow,
    show (1#32 : BitVec 32).toNat = 2 ^ 1 - 1 by decide, Nat.and_two_pow_sub_one_eq_mod]

/-- The row as a number: the block number `v div 32768` times 16384 plus the row in the block `v mod 16384`. -/
theorem kOf_toNat (v : BitVec 32) (h : v.toNat < 1000000) :
    (Sc.kOf v).toNat = (v.toNat / 32768) * 16384 + v.toNat % 16384 := by
  rw [Sc.kOf_eq]
  have h1 : (v >>> 15).toNat = v.toNat / 32768 := by
    rw [BitVec.toNat_ushiftRight, Nat.shiftRight_eq_div_pow]
  have h2 : (v &&& 16383#32).toNat = v.toNat % 16384 := by
    rw [BitVec.toNat_and, show (16383#32 : BitVec 32).toNat = 2 ^ 14 - 1 by decide, Nat.and_two_pow_sub_one_eq_mod]
  have h3 : ((v >>> 15) <<< 14).toNat = (v.toNat / 32768) * 16384 := by
    rw [BitVec.toNat_shiftLeft, h1, Nat.shiftLeft_eq, Nat.mod_eq_of_lt (by omega)]
  rw [BitVec.toNat_add, h3, h2, Nat.mod_eq_of_lt (by omega)]

/-- The arithmetic of the selection: for a word `n` below 1000000 naming row `k` and half `hf`, lane `64 hf + j` of
    pair-table row `k` has source row `j` and source column `n`. -/
theorem col_arith (n k hf j : ℕ) (hn : n < 1000000) (hk : k = (n / 32768) * 16384 + n % 16384) (hh : hf = (n / 16384) % 2)
    (hj : j < 64) :
    (64 * hf + j) % 64 = j ∧ (k / 16384) * 32768 + ((64 * hf + j) / 64) * 16384 + k % 16384 = n := by
  subst hk hh
  omega

variable (V : (c : Dev nD) → (b : Ref sig .tc) → Buf (Elt F) ((c : Thread nD τ).loc b))
variable (O : CellTallies nD τ sig Ix) (Rc : Set (SemLoc sig × Ix)) (Φ₀ : sProp (MT nD τ sig Ix (Elt F) ℕ U ℕ))

/-! ## The selected half of a gathered row is the table's row -/

/-- Row `r` of the gathered array, read at the 64 lanes of the half its word selects, is the table row the word names
    (the operand `main_v0` is the table transposed: its column `v`). The pair table may be ANY contents the first
    region may leave, a different one for each row. -/
theorem gathered_half (c : Dev nD) (idx : Buf (Elt F) (Sc.idxLoc c)) (Y : Buf (Elt F) (Sc.outLoc c))
    (hidx : ∀ r : Fin 16384, (idx (ix1 r) : BitVec 32).toNat < 1000000)
    (hY : ∀ r : Fin 16384, ∃ X : Buf (Elt F) ((c : Thread nD τ).loc main_v1),
      (Tc0.rdat0 V O Rc Φ₀ c).ArrAt 1 cfg0.N X ∧ ∀ j : Fin 128, Y (ix2 r j) = Sc.gathered c X idx (ix2 r j))
    (r : Fin 16384) (j : Fin 64) (hl : 64 * (halfOf (idx (ix1 r))).toNat + j.val < 128) :
    Y (ix2 r (⟨64 * (halfOf (idx (ix1 r))).toNat + j.val, hl⟩ : Fin 128))
      = V c main_v0 (ix2 j (⟨(idx (ix1 r) : BitVec 32).toNat, hidx r⟩ : Fin 1000000)) := by
  obtain ⟨X, hX, hYr⟩ := hY r
  have hv := hidx r
  have hk := kOf_toNat (idx (ix1 r)) hv
  have hh := halfOf_toNat (idx (ix1 r))
  have hklt : (Sc.kOf (idx (ix1 r))).toNat < 507904 := Sc.kOf_lt _ hv
  have hj := j.isLt
  obtain ⟨e4, hcol⟩ := col_arith _ _ _ _ hv hk hh hj
  rw [hYr]
  show X (ix2 (Sc.rowOfNat (Sc.kOf (idx (ix1 r))).toNat) (⟨64 * (halfOf (idx (ix1 r))).toNat + j.val, hl⟩ : Fin 128)) = _
  rw [Sc.rowOfNat_of_lt hklt]
  refine (Tc0.arrAt1_closed V O Rc Φ₀ c X hX ⟨(Sc.kOf (idx (ix1 r))).toNat, hklt⟩ ⟨64 * (halfOf (idx (ix1 r))).toNat + j.val, hl⟩
    (lt_of_eq_of_lt hcol hv)).trans ?_
  refine congrArg (V c main_v0) (funext fun ax => ?_)
  match ax with
  | ⟨0, _⟩ => exact Fin.ext e4
  | ⟨1, _⟩ => exact Fin.ext hcol

/-! ## The first region's entry contents -/

namespace Host

open Cert.KernelIdeal.Run

variable (m : (ℓ : Loc nD τ sig) → Buf (Elt F) ℓ)

/-- The operand `main_v0` at the first region's entry is the table `main_arg9` transposed by the host. -/
theorem V1_main_v0 (c : Dev nD) :
    (V1 m c main_v0 : S64x1000000.Idx → Elt F .f32)
      = transpose S64x1000000 [1, 0] (m ((c : Thread nD τ).loc main_arg9)) transposes_S1000000x64_S64x1000000_1_0 := by
  dsimp only [V1, W1, W0, hostOps0]; after_results

/-- Read at an index: row `j`, column `u` of the operand is row `u`, column `j` of the table. -/
theorem V1_main_v0_apply (c : Dev nD) (j : Fin 64) (u : Fin 1000000) :
    V1 m c main_v0 (ix2 j u) = m ((c : Thread nD τ).loc main_arg9) (ix2 u j) := by
  rw [V1_main_v0]; exact transpose_ix2_apply _ _ j u

/-- The one reference the host operation before the first region writes. -/
abbrev hostOps0_W : List (Ref sig .tc) := [main_v0]

theorem hostOps0_writes : (hostOps0 : List (HloOp τ sig (Elt F))).Forall fun op => op.writes ⊆ (hostOps0_W.map (Proc.devRef (τ := τ) .tc)).toFinset := by
  simp only [List.Forall]; exact (by simp only [StableHlo.unary_writes, Finset.singleton_subset_iff, List.mem_toFinset]; exact List.mem_map_of_mem (by decide))

/-- Every other reference is at the first region's entry as launched. -/
theorem V1_of (c : Dev nD) (r : Ref sig .tc) (h : r ∉ hostOps0_W) : V1 m c r = m ((c : Thread nD τ).loc r) :=
  StableHlo.after_of_writes_sub hostOps0 _ hostOps0_writes h

end Host

end Cert.KernelIdeal.Gather

end
-- ==== Proof.RunLaunch.lean ====
/-
  The run of the whole program, part 5: the launch — the SparseCore launch theorem applied to the vector subcores'
  task, the operands' split, @main on the TensorCore, the launch element of the ghost state, and the reading of the
  final memory.
-/
import proofs.«205263_g58420145160647_cont_9to1_m_909_25_alg».proof.Proof.RunHmain
import proofs.«205263_g58420145160647_cont_9to1_m_909_25_alg».proof.Proof.ScTile
import proofs.«205263_g58420145160647_cont_9to1_m_909_25_alg».proof.Proof.GatherValue

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)
open Idealize.ShloMosaic.ValueIdx

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## What the SparseCore call is handed and hands back -/

/-- The index array the call reads and the contents its result buffer is launched with. -/
abbrev idxOf (d : Dev nD) : Buf (Elt F) (Sc.idxLoc d) := m (Sc.idxLoc d)
abbrev o0Of (d : Dev nD) : Buf (Elt F) (Sc.outLoc d) := m (Sc.outLoc d)

/-- What the first region may leave in the pairs' buffer. -/
def R1 (d : Dev nD) (X : Buf (Elt F) (Sc.pairsLoc d)) : Prop := (rdatsA m 0 d).ArrAt 1 cfg0.N X

/-- What the call may leave in the gathered rows' buffer: row by row the gather of some contents the first region may
    have left. -/
def YR (d : Dev nD) (Y : Buf (Elt F) (Sc.outLoc d)) : Prop :=
  ∀ r : Fin 16384, ∃ X, R1 m d X ∧ ∀ j : Fin 128, Y (ix2 r j) = Sc.gathered d X (idxOf m d) (ix2 r j)

/-- What the handshakes carry. -/
abbrev PP : (K (F := F)).Pay (nD := nD) (Val := Elt F) (Name := ℕ) (U := UU) := Sc.P (R1 m) (idxOf m) (o0Of m)

theorem W2_arg0 (d : Dev nD) (X1 : (rV1).ty.Contents (Elt F)) : W2 m d X1 rArg0 = idxOf m d :=
  (Function.update_of_ne (by decide) _ _).trans (Gather.Host.V1_of m d main_arg0 (by decide))
theorem W2_v2 (d : Dev nD) (X1 : (rV1).ty.Contents (Elt F)) : W2 m d X1 rV2 = o0Of m d :=
  (Function.update_of_ne (by decide) _ _).trans (Gather.Host.V1_of m d main_v2 (by decide))

theorem hst (d : Dev nD) (X1 : (rV1).ty.Contents (Elt F)) (h : R1 m d X1) :
    iprop((((d.tc : Thread nD τ).1, rArg0) ↦{fullShare} W2 m d X1 rArg0) ∗ ((((d.tc : Thread nD τ).1, rV1)) ↦{fullShare} X1)
        ∗ ((((d.tc : Thread nD τ).1, rV2)) ↦{fullShare} W2 m d X1 rV2))
      ⊢ (bigSep Finset.univ fun c : Fin ((K (F := F)).nCore 0) => (PP m).st 0 d c : sProp 𝕄) := by
  rw [W2_arg0, W2_v2]
  iintro ⟨Ha, Hv1, Hv2⟩
  iapply (Sc.st_intro (R1 m) (idxOf m) (o0Of m) d X1)
  isplitr; · ipureintro; exact h
  isplitl [Hv1]; · iexact Hv1
  isplitl [Ha]; · iexact Ha
  iexact Hv2

theorem hdn (d : Dev nD) (X1 : (rV1).ty.Contents (Elt F)) (h : R1 m d X1) :
    (bigSep Finset.univ fun c : Fin ((K (F := F)).nCore 0) => (PP m).dn 0 d c : sProp 𝕄)
      ⊢ iprop((((d.tc : Thread nD τ).1, rArg0) ↦{fullShare} W2 m d X1 rArg0) ∗ ∃ Y, ⌜YR m d Y⌝ ∗ ((((d.tc : Thread nD τ).1, rV2)) ↦{fullShare} Y)) := by
  rw [W2_arg0]
  exact Sc.dn_elim (R1 m) (idxOf m) (o0Of m) d

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

theorem bigSep_emp' {I : Type} (s : Finset I) : (bigSep s fun _ => iprop(emp)) = (iprop(emp) : sProp 𝕄) := bigSep_emp_const s

theorem own_EP (x : UP) :
    (BI.own ((Emb.inl : Emb UP (UP × Counters)).trans (embR : Emb (UP × Counters) (𝕄F F)) x) : sProp 𝕄) = BI.own (EP x) := rfl

theorem GH_one (d : Dev nD) :
    iprop((bigSep Finset.univ fun p : Fin 2 => Pipeline.cellsGhost (Pipeline.pin (pcfgs (F := F)) adm) EP p d)
        ∗ (bigSep Finset.univ fun p : Fin 2 => (Pipeline.toksInit (Pipeline.pin (pcfgs (F := F)) adm) EP p d : sProp 𝕄)))
      ⊢ (GH (F := F) d : sProp 𝕄) := by
  rw [bigSep_W0, bigSep_W0]
  iintro ⟨⟨H0, H1⟩, ⟨K0, K1⟩⟩
  isplitl [H0 K0]
  · isplitl [H0] <;> iassumption
  · isplitl [H1] <;> iassumption

/-- The pipelines' ghost state, dealt per device. -/
theorem GH_of :
    iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => (Pipeline.toksInit (Pipeline.pin (pcfgs (F := F)) adm) EP p c : sProp 𝕄)))
      ⊢ (bigSep Finset.univ fun d : Dev nD => GH (F := F) d : sProp 𝕄) := by
  rw [← bigSep_sep']
  exact bigSep_mono fun d _ => GH_one d

theorem hu₀ : (ownU (u₀ (F := F)) : sProp 𝕄)
    ⊢ |={Set.univ}=> iprop(BI.own (EH (initOf (K (F := F)).hsCells (K (F := F)).hsToks)) ∗ (bigSep Finset.univ fun d : Dev nD => GH (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb (embR : Emb (UP × Counters) (𝕄F F)) _ _) $$ HR
  icases H with ⟨HP, -⟩
  ihave HP' := (Entails.of_eq (own_EP _)) $$ HP
  imod (Pipeline.fund_ghost (Pipeline.pin (pcfgs (F := F)) adm) EP cellOf_inj) $$ HP' with ⟨Hcg, Htk⟩
  imodintro
  isplitl [HH]; · iexact HH
  isplitl [Hcg Htk]
  · iapply GH_of; isplitl [Hcg] <;> iassumption
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## Reading the final memory -/

/-- Buffers held whole beside the state interpretation of a state are that state's memory there. -/
theorem bigSep_read {I : Type} [DecidableEq I] (s : Finset I) (ℓ : I → Loc nD τ sig) (f : (i : I) → Buf (Elt F) (ℓ i)) (s' : Phys nD τ sig (Elt F)) :
    iprop((bigSep s fun i => (ℓ i ↦{fullShare} f i : sProp 𝕄)) ∗ SI s') ⊢ (⌜∀ i ∈ s, s'.mem.mem (ℓ i) = f i⌝ : sProp 𝕄) := by
  have h : ∀ i ∈ s, iprop((bigSep s fun i => (ℓ i ↦{fullShare} f i : sProp 𝕄)) ∗ SI s') ⊢ (⌜s'.mem.mem (ℓ i) = f i⌝ : sProp 𝕄) := by
    intro i hi
    iintro ⟨H, HSI⟩
    ihave Hi := (show (bigSep s fun i => (ℓ i ↦{fullShare} f i : sProp 𝕄)) ⊢ (ℓ i ↦{fullShare} f i : sProp 𝕄) from bigSep_elim hi) $$ H
    ihave Hg := (SI_pointsTo_agree (st := s') (ℓ := ℓ i) (I := Finset.univ) (q := fullShare) (f := f i)) $$ [HSI Hi]
    · isplitl [HSI] <;> iassumption
    icases Hg with %hg
    ipureintro; exact funext fun j => hg j (Finset.mem_univ j)
  exact fun a ha i hi => h i hi a ha

/-- What the final memory of device `d` satisfies. -/
def fq (d : Dev nD) (s' : Phys nD τ sig (Elt F)) : Prop :=
  ∃ (X1 : (rV1).ty.Contents (Elt F)) (Y : (rV2).ty.Contents (Elt F)), R1 m d X1 ∧ YR m d Y
    ∧ (∀ w : Fin cfg2.W, s'.mem.mem ((d.tc : Thread nD τ).loc (Pipeline.arrRef spec2 w)) = (pdatsB (fun d' => W4 m d' X1 Y) 1 d).arrAt w cfg2.N)
    ∧ (∀ b ∈ S1 \ T2, s'.mem.mem ((d.tc : Thread nD τ).1, b) = W4 m d X1 Y b)

theorem hfin (d : Dev nD) (s' : Phys nD τ sig (Elt F)) : iprop(FIN m (R1 m) (YR m) d ∗ SI s') ⊢ (⌜fq m d s'⌝ : sProp 𝕄) := by
  unfold FIN
  iintro ⟨⟨%X1, %Y, %hRY, Harr, Hheld⟩, HSI⟩
  ihave H1 := (persistent_entails_right (bigSep_read (Finset.univ : Finset (Fin cfg2.W)) (fun w => (d.tc : Thread nD τ).loc (Pipeline.arrRef spec2 w))
      (fun w => (pdatsB (fun d' => W4 m d' X1 Y) 1 d).arrAt w cfg2.N) s')) $$ [Harr HSI]
  · isplitl [Harr] <;> iassumption
  icases H1 with ⟨%h1, -, HSI⟩
  unfold StableHlo.held
  ihave H2 := (bigSep_read (S1 \ T2) (fun b => ((d.tc : Thread nD τ).1, b)) (fun b => W4 m d X1 Y b) s') $$ [Hheld HSI]
  · isplitl [Hheld] <;> iassumption
  icases H2 with %h2
  ipureintro
  exact ⟨X1, Y, hRY.1, hRY.2, fun w => h1 w (Finset.mem_univ w), h2⟩

/-! ## The run -/

/-- What the proof asks of the launch memory: every user id names a row of the user table. -/
def PreOK : Prop := ∀ (d : Dev nD) (r : S16384.Idx), (idxOf m d r).toNat < 1000000

/-- What every final memory satisfies. -/
def QC : PUnit × MemSt nD τ sig (Elt F) → Prop := fun r => ∀ d : Dev nD,
  ∃ (X1 : (rV1).ty.Contents (Elt F)) (Y : (rV2).ty.Contents (Elt F)), R1 m d X1 ∧ YR m d Y
    ∧ (∀ w : Fin cfg2.W, r.2.mem ((d.tc : Thread nD τ).loc (Pipeline.arrRef spec2 w)) = (pdatsB (fun d' => W4 m d' X1 Y) 1 d).arrAt w cfg2.N)
    ∧ (∀ b ∈ S1 \ T2, r.2.mem ((d.tc : Thread nD τ).1, b) = W4 m d X1 Y b)

theorem run_main (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => Sc.tileObl (R1 m) (idxOf m) (o0Of m) facts hpre)
    (fun q _ => match q with | 0 => SparseCore.Cfg.VecSplit.of_plain (Sc.vecSplit (R1 m) (idxOf m) (o0Of m)))
    m ρ main (fun d => GH (F := F) d) (FIN m (R1 m) (YR m)) (u₀ (F := F)) (sep_elim_left.trans (hu₀ m))
    (hmain m ρ (PP m) (R1 m) (YR m) (fun _ _ h => h) (hst m) (hdn m)) (fq m) (hfin m) (QC m) (fun _ h => h)

end Cert.KernelIdeal.Run

end
-- ==== Proof.RunReads.lean ====
import proofs.«205263_g58420145160647_cont_9to1_m_909_25_alg».proof.Proof.RunVals
import proofs.«205263_g58420145160647_cont_9to1_m_909_25_alg».proof.Proof.GatherValue

/-! # The second region's entry contents, read at an index

The buffers at the second TensorCore region's entry are `W4`: the first region's entry contents with the pairs'
buffer and the gathered rows' buffer replaced by what the first region and the SparseCore call left, then the
thirteen host reshapes. Here: the gathered rows' buffer is what the call left (`W4_rV2`); each reshaped array
is its argument as launched, re-laid, and read at an index (`W4_main_vJ`, `W4_main_vJ_apply`); every reference
nothing writes before the region is as launched (`W4_of_not_written`). -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx

variable {F : FTy → Type} [FloatOps F]

variable (m : (ℓ : Loc nD τ sig) → Buf (Elt F) ℓ)

/-! ## What the reshapes before the second region write, and what they leave -/

/-- The references the reshapes before the second region write. -/
abbrev hostOps1_W : List (Ref sig .tc) :=
  [main_v3, main_v4, main_v5, main_v6, main_v7, main_v8, main_v9, main_v10, main_v11, main_v12, main_v13, main_v14, main_v15]

theorem hostOps1_writes : (hostOps1 : List (HloOp τ sig (Elt F))).Forall fun op =>
    op.writes ⊆ (hostOps1_W.map (Proc.devRef (τ := τ) .tc)).toFinset := by
  simp only [List.Forall, StableHlo.reshape_writes, Finset.singleton_subset_iff, List.mem_toFinset]
  repeat' apply And.intro
  all_goals exact List.mem_map_of_mem (by decide)

/-- A reference no reshape writes is after the reshapes as before them. -/
theorem W4_of (c : Dev nD) (X1 : (rV1).ty.Contents (Elt F)) (Y : (rV2).ty.Contents (Elt F)) (r : Ref sig .tc) (h : r ∉ hostOps1_W) :
    W4 m c X1 Y (Proc.devRef .tc r) = W3 m c X1 Y (Proc.devRef .tc r) :=
  StableHlo.after_of_writes_sub hostOps1 _ hostOps1_writes h

/-- The gathered rows' buffer at the second region's entry is what the SparseCore call left. -/
theorem W4_rV2 (c : Dev nD) (X1 : (rV1).ty.Contents (Elt F)) (Y : (rV2).ty.Contents (Elt F)) : W4 m c X1 Y rV2 = Y :=
  (W4_of m c X1 Y main_v2 (by decide)).trans (Function.update_self _ _ _)

/-- A reference that is neither the pairs' buffer nor the gathered rows' is after the call as at the first region's entry. -/
theorem W3_of (c : Dev nD) (X1 : (rV1).ty.Contents (Elt F)) (Y : (rV2).ty.Contents (Elt F)) (b : Ref sig .tc)
    (h1 : b ≠ main_v1) (h2 : b ≠ main_v2) : W3 m c X1 Y (Proc.devRef .tc b) = W1 m c (Proc.devRef .tc b) := by
  show Function.update (Function.update (W1 m c) rV1 X1) rV2 Y (Proc.devRef .tc b) = _
  rw [Function.update_of_ne (StableHlo.devRef_ne_of_ne h2), Function.update_of_ne (StableHlo.devRef_ne_of_ne h1)]

/-- Every reference written before the second region: the host transpose's, the first region's, the call's, the reshapes'. -/
abbrev written4 : List (Ref sig .tc) := main_v0 :: main_v1 :: main_v2 :: hostOps1_W

/-- A reference nothing before the second region writes — every argument of the program — is at its entry as launched. -/
theorem W4_of_not_written (c : Dev nD) (X1 : (rV1).ty.Contents (Elt F)) (Y : (rV2).ty.Contents (Elt F)) (b : Ref sig .tc)
    (h : b ∉ written4) : W4 m c X1 Y (Proc.devRef .tc b) = m ((c : Thread nD τ).loc b) := by
  have hne : ∀ x ∈ written4, b ≠ x := fun x hx e => h (e ▸ hx)
  rw [W4_of m c X1 Y b (fun hb => h (List.mem_cons_of_mem _ (List.mem_cons_of_mem _ (List.mem_cons_of_mem _ hb)))),
    W3_of m c X1 Y b (hne _ (by decide)) (hne _ (by decide))]
  exact Gather.Host.V1_of m c b (fun hb => h (List.mem_cons.mpr (Or.inl (List.mem_singleton.mp hb))))

/-! ## The reshapes read at an index -/

/-- A list of 16384 re-laid as 8 × 1 × 2048 reads, at `(t, 0, p)`, the list at `2048 t + p`. -/
theorem shapeCast_8x1x2048_apply {α : Type} (x : S16384.Idx → α) (t : Fin 8) (u : Fin 1) (p : Fin 2048) (h : t.val * 2048 + p.val < 16384) :
    shapeCast S8x1x2048 x shapeCasts_S16384_S8x1x2048 (ix3 t u p) = x (ix1 (⟨t.val * 2048 + p.val, h⟩ : Fin 16384)) :=
  shapeCast_apply x _ _ _ (by
    rw [Shape.rowMajor_val_one, Shape.rowMajor_val_three]
    show t.val * 2048 + p.val = (t.val * 1 + u.val) * 2048 + p.val
    have := u.isLt
    omega)

theorem idx_lt (t : Fin 8) (p : Fin 2048) : t.val * 2048 + p.val < 16384 := by omega

/-- A vector of 128 re-laid as 1 × 128 reads, at `(0, k)`, the vector at `k`. -/
theorem shapeCast_1x128_apply {α : Type} (x : S128.Idx → α) (u : Fin 1) (k : Fin 128) :
    shapeCast S1x128 x shapeCasts_S128_S1x128 (ix2 u k) = x (ix1 k) :=
  shapeCast_apply x _ _ _ (by
    rw [Shape.rowMajor_val_one, Shape.rowMajor_val_two]
    show k.val = u.val * 128 + k.val
    have := u.isLt
    omega)

/-- A single word re-laid as 1 × 1. -/
theorem shapeCast_1x1_apply {α : Type} (x : Cert.KernelIdeal.S1.Idx → α) (u v : Fin 1) :
    shapeCast S1x1 x shapeCasts_S1_S1x1 (ix2 u v) = x (ix1 0) :=
  shapeCast_apply x _ _ _ (by
    rw [Shape.rowMajor_val_one, Shape.rowMajor_val_two]
    show (0 : Fin 1).val = u.val * 1 + v.val
    have := u.isLt
    have := v.isLt
    show 0 = _
    omega)

/-- `main_v3` at the second region's entry is `main_arg0` as launched, re-laid as 8 × 1 × 2048. -/
theorem W4_main_v3 (c : Dev nD) (X1 : (rV1).ty.Contents (Elt F)) (Y : (rV2).ty.Contents (Elt F)) :
    (W4 m c X1 Y (Proc.devRef .tc main_v3) : S8x1x2048.Idx → Elt F .i32)
      = shapeCast S8x1x2048 (m ((c : Thread nD τ).loc main_arg0)) shapeCasts_S16384_S8x1x2048 := by
  have e : W3 m c X1 Y (Proc.devRef .tc main_arg0) = m ((c : Thread nD τ).loc main_arg0) :=
    (W3_of m c X1 Y main_arg0 (by decide) (by decide)).trans (Gather.Host.V1_of m c main_arg0 (by decide))
  dsimp only [W4, hostOps1]; after_results
  rw [e]
  rfl
theorem W4_main_v3_apply (c : Dev nD) (X1 : (rV1).ty.Contents (Elt F)) (Y : (rV2).ty.Contents (Elt F)) (t : Fin 8) (p : Fin 2048) :
    (W4 m c X1 Y (Proc.devRef .tc main_v3) : S8x1x2048.Idx → Elt F .i32) (ix3 t 0 p)
      = m ((c : Thread nD τ).loc main_arg0) (ix1 (⟨t.val * 2048 + p.val, idx_lt t p⟩ : Fin 16384)) := by
  rw [W4_main_v3]; exact shapeCast_8x1x2048_apply _ t 0 p _

/-- `main_v4` at the second region's entry is `main_arg1` as launched, re-laid as 8 × 1 × 2048. -/
theorem W4_main_v4 (c : Dev nD) (X1 : (rV1).ty.Contents (Elt F)) (Y : (rV2).ty.Contents (Elt F)) :
    (W4 m c X1 Y (Proc.devRef .tc main_v4) : S8x1x2048.Idx → Elt F .i32)
      = shapeCast S8x1x2048 (m ((c : Thread nD τ).loc main_arg1)) shapeCasts_S16384_S8x1x2048 := by
  have e : W3 m c X1 Y (Proc.devRef .tc main_arg1) = m ((c : Thread nD τ).loc main_arg1) :=
    (W3_of m c X1 Y main_arg1 (by decide) (by decide)).trans (Gather.Host.V1_of m c main_arg1 (by decide))
  dsimp only [W4, hostOps1]; after_results
  rw [e]
  rfl
theorem W4_main_v4_apply (c : Dev nD) (X1 : (rV1).ty.Contents (Elt F)) (Y : (rV2).ty.Contents (Elt F)) (t : Fin 8) (p : Fin 2048) :
    (W4 m c X1 Y (Proc.devRef .tc main_v4) : S8x1x2048.Idx → Elt F .i32) (ix3 t 0 p)
      = m ((c : Thread nD τ).loc main_arg1) (ix1 (⟨t.val * 2048 + p.val, idx_lt t p⟩ : Fin 16384)) := by
  rw [W4_main_v4]; exact shapeCast_8x1x2048_apply _ t 0 p _

/-- `main_v5` at the second region's entry is `main_arg2` as launched, re-laid as 8 × 1 × 2048. -/
theorem W4_main_v5 (c : Dev nD) (X1 : (rV1).ty.Contents (Elt F)) (Y : (rV2).ty.Contents (Elt F)) :
    (W4 m c X1 Y (Proc.devRef .tc main_v5) : S8x1x2048.Idx → Elt F .i32)
      = shapeCast S8x1x2048 (m ((c : Thread nD τ).loc main_arg2)) shapeCasts_S16384_S8x1x2048 := by
  have e : W3 m c X1 Y (Proc.devRef .tc main_arg2) = m ((c : Thread nD τ).loc main_arg2) :=
    (W3_of m c X1 Y main_arg2 (by decide) (by decide)).trans (Gather.Host.V1_of m c main_arg2 (by decide))
  dsimp only [W4, hostOps1]; after_results
  rw [e]
  rfl
theorem W4_main_v5_apply (c : Dev nD) (X1 : (rV1).ty.Contents (Elt F)) (Y : (rV2).ty.Contents (Elt F)) (t : Fin 8) (p : Fin 2048) :
    (W4 m c X1 Y (Proc.devRef .tc main_v5) : S8x1x2048.Idx → Elt F .i32) (ix3 t 0 p)
      = m ((c : Thread nD τ).loc main_arg2) (ix1 (⟨t.val * 2048 + p.val, idx_lt t p⟩ : Fin 16384)) := by
  rw [W4_main_v5]; exact shapeCast_8x1x2048_apply _ t 0 p _

/-- `main_v6` at the second region's entry is `main_arg3` as launched, re-laid as 8 × 1 × 2048. -/
theorem W4_main_v6 (c : Dev nD) (X1 : (rV1).ty.Contents (Elt F)) (Y : (rV2).ty.Contents (Elt F)) :
    (W4 m c X1 Y (Proc.devRef .tc main_v6) : S8x1x2048.Idx → Elt F .i32)
      = shapeCast S8x1x2048 (m ((c : Thread nD τ).loc main_arg3)) shapeCasts_S16384_S8x1x2048 := by
  have e : W3 m c X1 Y (Proc.devRef .tc main_arg3) = m ((c : Thread nD τ).loc main_arg3) :=
    (W3_of m c X1 Y main_arg3 (by decide) (by decide)).trans (Gather.Host.V1_of m c main_arg3 (by decide))
  dsimp only [W4, hostOps1]; after_results
  rw [e]
  rfl
theorem W4_main_v6_apply (c : Dev nD) (X1 : (rV1).ty.Contents (Elt F)) (Y : (rV2).ty.Contents (Elt F)) (t : Fin 8) (p : Fin 2048) :
    (W4 m c X1 Y (Proc.devRef .tc main_v6) : S8x1x2048.Idx → Elt F .i32) (ix3 t 0 p)
      = m ((c : Thread nD τ).loc main_arg3) (ix1 (⟨t.val * 2048 + p.val, idx_lt t p⟩ : Fin 16384)) := by
  rw [W4_main_v6]; exact shapeCast_8x1x2048_apply _ t 0 p _

/-- `main_v7` at the second region's entry is `main_arg4` as launched, re-laid as 8 × 1 × 2048. -/
theorem W4_main_v7 (c : Dev nD) (X1 : (rV1).ty.Contents (Elt F)) (Y : (rV2).ty.Contents (Elt F)) :
    (W4 m c X1 Y (Proc.devRef .tc main_v7) : S8x1x2048.Idx → Elt F .i32)
      = shapeCast S8x1x2048 (m ((c : Thread nD τ).loc main_arg4)) shapeCasts_S16384_S8x1x2048 := by
  have e : W3 m c X1 Y (Proc.devRef .tc main_arg4) = m ((c : Thread nD τ).loc main_arg4) :=
    (W3_of m c X1 Y main_arg4 (by decide) (by decide)).trans (Gather.Host.V1_of m c main_arg4 (by decide))
  dsimp only [W4, hostOps1]; after_results
  rw [e]
  rfl
theorem W4_main_v7_apply (c : Dev nD) (X1 : (rV1).ty.Contents (Elt F)) (Y : (rV2).ty.Contents (Elt F)) (t : Fin 8) (p : Fin 2048) :
    (W4 m c X1 Y (Proc.devRef .tc main_v7) : S8x1x2048.Idx → Elt F .i32) (ix3 t 0 p)
      = m ((c : Thread nD τ).loc main_arg4) (ix1 (⟨t.val * 2048 + p.val, idx_lt t p⟩ : Fin 16384)) := by
  rw [W4_main_v7]; exact shapeCast_8x1x2048_apply _ t 0 p _

/-- `main_v8` at the second region's entry is `main_arg5` as launched, re-laid as 8 × 1 × 2048. -/
theorem W4_main_v8 (c : Dev nD) (X1 : (rV1).ty.Contents (Elt F)) (Y : (rV2).ty.Contents (Elt F)) :
    (W4 m c X1 Y (Proc.devRef .tc main_v8) : S8x1x2048.Idx → Elt F .i32)
      = shapeCast S8x1x2048 (m ((c : Thread nD τ).loc main_arg5)) shapeCasts_S16384_S8x1x2048 := by
  have e : W3 m c X1 Y (Proc.devRef .tc main_arg5) = m ((c : Thread nD τ).loc main_arg5) :=
    (W3_of m c X1 Y main_arg5 (by decide) (by decide)).trans (Gather.Host.V1_of m c main_arg5 (by decide))
  dsimp only [W4, hostOps1]; after_results
  rw [e]
  rfl
theorem W4_main_v8_apply (c : Dev nD) (X1 : (rV1).ty.Contents (Elt F)) (Y : (rV2).ty.Contents (Elt F)) (t : Fin 8) (p : Fin 2048) :
    (W4 m c X1 Y (Proc.devRef .tc main_v8) : S8x1x2048.Idx → Elt F .i32) (ix3 t 0 p)
      = m ((c : Thread nD τ).loc main_arg5) (ix1 (⟨t.val * 2048 + p.val, idx_lt t p⟩ : Fin 16384)) := by
  rw [W4_main_v8]; exact shapeCast_8x1x2048_apply _ t 0 p _

/-- `main_v9` at the second region's entry is `main_arg6` as launched, re-laid as 8 × 1 × 2048. -/
theorem W4_main_v9 (c : Dev nD) (X1 : (rV1).ty.Contents (Elt F)) (Y : (rV2).ty.Contents (Elt F)) :
    (W4 m c X1 Y (Proc.devRef .tc main_v9) : S8x1x2048.Idx → Elt F .i32)
      = shapeCast S8x1x2048 (m ((c : Thread nD τ).loc main_arg6)) shapeCasts_S16384_S8x1x2048 := by
  have e : W3 m c X1 Y (Proc.devRef .tc main_arg6) = m ((c : Thread nD τ).loc main_arg6) :=
    (W3_of m c X1 Y main_arg6 (by decide) (by decide)).trans (Gather.Host.V1_of m c main_arg6 (by decide))
  dsimp only [W4, hostOps1]; after_results
  rw [e]
  rfl
theorem W4_main_v9_apply (c : Dev nD) (X1 : (rV1).ty.Contents (Elt F)) (Y : (rV2).ty.Contents (Elt F)) (t : Fin 8) (p : Fin 2048) :
    (W4 m c X1 Y (Proc.devRef .tc main_v9) : S8x1x2048.Idx → Elt F .i32) (ix3 t 0 p)
      = m ((c : Thread nD τ).loc main_arg6) (ix1 (⟨t.val * 2048 + p.val, idx_lt t p⟩ : Fin 16384)) := by
  rw [W4_main_v9]; exact shapeCast_8x1x2048_apply _ t 0 p _

/-- `main_v10` at the second region's entry is `main_arg7` as launched, re-laid as 8 × 1 × 2048. -/
theorem W4_main_v10 (c : Dev nD) (X1 : (rV1).ty.Contents (Elt F)) (Y : (rV2).ty.Contents (Elt F)) :
    (W4 m c X1 Y (Proc.devRef .tc main_v10) : S8x1x2048.Idx → Elt F .i32)
      = shapeCast S8x1x2048 (m ((c : Thread nD τ).loc main_arg7)) shapeCasts_S16384_S8x1x2048 := by
  have e : W3 m c X1 Y (Proc.devRef .tc main_arg7) = m ((c : Thread nD τ).loc main_arg7) :=
    (W3_of m c X1 Y main_arg7 (by decide) (by decide)).trans (Gather.Host.V1_of m c main_arg7 (by decide))
  dsimp only [W4, hostOps1]; after_results
  rw [e]
  rfl
theorem W4_main_v10_apply (c : Dev nD) (X1 : (rV1).ty.Contents (Elt F)) (Y : (rV2).ty.Contents (Elt F)) (t : Fin 8) (p : Fin 2048) :
    (W4 m c X1 Y (Proc.devRef .tc main_v10) : S8x1x2048.Idx → Elt F .i32) (ix3 t 0 p)
      = m ((c : Thread nD τ).loc main_arg7) (ix1 (⟨t.val * 2048 + p.val, idx_lt t p⟩ : Fin 16384)) := by
  rw [W4_main_v10]; exact shapeCast_8x1x2048_apply _ t 0 p _

/-- `main_v11` at the second region's entry is `main_arg8` as launched, re-laid as 8 × 1 × 2048. -/
theorem W4_main_v11 (c : Dev nD) (X1 : (rV1).ty.Contents (Elt F)) (Y : (rV2).ty.Contents (Elt F)) :
    (W4 m c X1 Y (Proc.devRef .tc main_v11) : S8x1x2048.Idx → Elt F .i32)
      = shapeCast S8x1x2048 (m ((c : Thread nD τ).loc main_arg8)) shapeCasts_S16384_S8x1x2048 := by
  have e : W3 m c X1 Y (Proc.devRef .tc main_arg8) = m ((c : Thread nD τ).loc main_arg8) :=
    (W3_of m c X1 Y main_arg8 (by decide) (by decide)).trans (Gather.Host.V1_of m c main_arg8 (by decide))
  dsimp only [W4, hostOps1]; after_results
  rw [e]
  rfl
theorem W4_main_v11_apply (c : Dev nD) (X1 : (rV1).ty.Contents (Elt F)) (Y : (rV2).ty.Contents (Elt F)) (t : Fin 8) (p : Fin 2048) :
    (W4 m c X1 Y (Proc.devRef .tc main_v11) : S8x1x2048.Idx → Elt F .i32) (ix3 t 0 p)
      = m ((c : Thread nD τ).loc main_arg8) (ix1 (⟨t.val * 2048 + p.val, idx_lt t p⟩ : Fin 16384)) := by
  rw [W4_main_v11]; exact shapeCast_8x1x2048_apply _ t 0 p _

/-- `main_v12` at the second region's entry is `main_arg19` as launched, re-laid as 1 × 1. -/
theorem W4_main_v12 (c : Dev nD) (X1 : (rV1).ty.Contents (Elt F)) (Y : (rV2).ty.Contents (Elt F)) :
    (W4 m c X1 Y (Proc.devRef .tc main_v12) : S1x1.Idx → Elt F .f32)
      = shapeCast S1x1 (m ((c : Thread nD τ).loc main_arg19)) shapeCasts_S1_S1x1 := by
  have e : W3 m c X1 Y (Proc.devRef .tc main_arg19) = m ((c : Thread nD τ).loc main_arg19) :=
    (W3_of m c X1 Y main_arg19 (by decide) (by decide)).trans (Gather.Host.V1_of m c main_arg19 (by decide))
  dsimp only [W4, hostOps1]; after_results
  rw [e]
  rfl
theorem W4_main_v12_apply (c : Dev nD) (X1 : (rV1).ty.Contents (Elt F)) (Y : (rV2).ty.Contents (Elt F)) :
    (W4 m c X1 Y (Proc.devRef .tc main_v12) : S1x1.Idx → Elt F .f32) (ix2 0 0) = m ((c : Thread nD τ).loc main_arg19) (ix1 0) := by
  rw [W4_main_v12]; exact shapeCast_1x1_apply _ 0 0

/-- `main_v13` at the second region's entry is `main_arg22` as launched, re-laid as 1 × 128. -/
theorem W4_main_v13 (c : Dev nD) (X1 : (rV1).ty.Contents (Elt F)) (Y : (rV2).ty.Contents (Elt F)) :
    (W4 m c X1 Y (Proc.devRef .tc main_v13) : S1x128.Idx → Elt F .f32)
      = shapeCast S1x128 (m ((c : Thread nD τ).loc main_arg22)) shapeCasts_S128_S1x128 := by
  have e : W3 m c X1 Y (Proc.devRef .tc main_arg22) = m ((c : Thread nD τ).loc main_arg22) :=
    (W3_of m c X1 Y main_arg22 (by decide) (by decide)).trans (Gather.Host.V1_of m c main_arg22 (by decide))
  dsimp only [W4, hostOps1]; after_results
  rw [e]
  rfl
theorem W4_main_v13_apply (c : Dev nD) (X1 : (rV1).ty.Contents (Elt F)) (Y : (rV2).ty.Contents (Elt F)) (k : Fin 128) :
    (W4 m c X1 Y (Proc.devRef .tc main_v13) : S1x128.Idx → Elt F .f32) (ix2 0 k) = m ((c : Thread nD τ).loc main_arg22) (ix1 k) := by
  rw [W4_main_v13]; exact shapeCast_1x128_apply _ 0 k

/-- `main_v14` at the second region's entry is `main_arg24` as launched, re-laid as 1 × 128. -/
theorem W4_main_v14 (c : Dev nD) (X1 : (rV1).ty.Contents (Elt F)) (Y : (rV2).ty.Contents (Elt F)) :
    (W4 m c X1 Y (Proc.devRef .tc main_v14) : S1x128.Idx → Elt F .f32)
      = shapeCast S1x128 (m ((c : Thread nD τ).loc main_arg24)) shapeCasts_S128_S1x128 := by
  have e : W3 m c X1 Y (Proc.devRef .tc main_arg24) = m ((c : Thread nD τ).loc main_arg24) :=
    (W3_of m c X1 Y main_arg24 (by decide) (by decide)).trans (Gather.Host.V1_of m c main_arg24 (by decide))
  dsimp only [W4, hostOps1]; after_results
  rw [e]
  rfl
theorem W4_main_v14_apply (c : Dev nD) (X1 : (rV1).ty.Contents (Elt F)) (Y : (rV2).ty.Contents (Elt F)) (k : Fin 128) :
    (W4 m c X1 Y (Proc.devRef .tc main_v14) : S1x128.Idx → Elt F .f32) (ix2 0 k) = m ((c : Thread nD τ).loc main_arg24) (ix1 k) := by
  rw [W4_main_v14]; exact shapeCast_1x128_apply _ 0 k

/-- `main_v15` at the second region's entry is `main_arg26` as launched, re-laid as 1 × 128. -/
theorem W4_main_v15 (c : Dev nD) (X1 : (rV1).ty.Contents (Elt F)) (Y : (rV2).ty.Contents (Elt F)) :
    (W4 m c X1 Y (Proc.devRef .tc main_v15) : S1x128.Idx → Elt F .f32)
      = shapeCast S1x128 (m ((c : Thread nD τ).loc main_arg26)) shapeCasts_S128_S1x128 := by
  have e : W3 m c X1 Y (Proc.devRef .tc main_arg26) = m ((c : Thread nD τ).loc main_arg26) :=
    (W3_of m c X1 Y main_arg26 (by decide) (by decide)).trans (Gather.Host.V1_of m c main_arg26 (by decide))
  dsimp only [W4, hostOps1]; after_results
  rw [e]
  rfl
theorem W4_main_v15_apply (c : Dev nD) (X1 : (rV1).ty.Contents (Elt F)) (Y : (rV2).ty.Contents (Elt F)) (k : Fin 128) :
    (W4 m c X1 Y (Proc.devRef .tc main_v15) : S1x128.Idx → Elt F .f32) (ix2 0 k) = m ((c : Thread nD τ).loc main_arg26) (ix1 k) := by
  rw [W4_main_v15]; exact shapeCast_1x128_apply _ 0 k

end Cert.KernelIdeal.Run

end
-- ==== Proof.KiArgs.lean ====
/- The kernel's argument arrays after its run: each is as launched — an array the second region stages is an input
   window's (never written back), and at the region's entry still the launch contents; any other is held untouched
   from the region's entry on. -/
import proofs.«205263_g58420145160647_cont_9to1_m_909_25_alg».proof.Proof.RunReads
import proofs.«205263_g58420145160647_cont_9to1_m_909_25_alg».proof.Proof.RunReg1
import proofs.«205263_g58420145160647_cont_9to1_m_909_25_alg».proof.Proof.Tc2Dat

noncomputable section

namespace Cert.KernelIdeal.Run

open Cert.KernelIdeal Cert.KernelIdeal.Gen
open Idealize.ShloMosaic Idealize.ShloMosaic.TcCoe
open Idealize.ShloMosaic.Pipeline (Dat RDat)

variable {F : FTy → Type} [FloatOps F] [∀ e, Nonempty (Elt F e)]

variable (m : (ℓ : Loc nD τ sig) → Buf (Elt F) ℓ)

/-- An input window's array of the second region, at the run's end, is the launch memory's. -/
theorem arg_of_window (mem : (ℓ : Loc nD τ sig) → Buf (Elt F) ℓ) (d : Dev nD) (X1 : (rV1).ty.Contents (Elt F))
    (Y : (rV2).ty.Contents (Elt F)) (w : Fin cfg2.W) (hin : (cfg2.win w).isOut = false)
    (hnw : Pipeline.arrRef spec2 w ∉ written4)
    (h3 : mem ((d.tc : Thread nD τ).loc (Pipeline.arrRef spec2 w)) = (pdatsB (fun d' => W4 m d' X1 Y) 1 d).arrAt w cfg2.N) :
    mem ((d.tc : Thread nD τ).loc (Pipeline.arrRef spec2 w)) = m ((d.tc : Thread nD τ).loc (Pipeline.arrRef spec2 w)) :=
  h3.trans (((pdatsB (fun d' => W4 m d' X1 Y) 1 d).arrAt_in w hin _).trans
    ((Tc2.A_eq2 _ _ _ _ d w).trans (W4_of_not_written m d X1 Y (Pipeline.arrRef spec2 w) hnw)))

/-- An array the second region does not stage, at the run's end, is the launch memory's. -/
theorem arg_of_rest (mem : (ℓ : Loc nD τ sig) → Buf (Elt F) ℓ) (d : Dev nD) (X1 : (rV1).ty.Contents (Elt F))
    (Y : (rV2).ty.Contents (Elt F)) (b : Ref sig .tc) (hb : Proc.devRef (τ := τ) .tc b ∈ S1 \ T2) (hnw : b ∉ written4)
    (h4 : ∀ b ∈ S1 \ T2, mem ((d.tc : Thread nD τ).1, b) = W4 m d X1 Y b) :
    mem ((d.tc : Thread nD τ).loc b) = m ((d.tc : Thread nD τ).loc b) :=
  (h4 _ hb).trans (W4_of_not_written m d X1 Y b hnw)

set_option maxRecDepth 16384 in
/-- All 28 arguments, in order. -/
theorem args_unchanged (mem : (ℓ : Loc nD τ sig) → Buf (Elt F) ℓ) (d : Dev nD) (X1 : (rV1).ty.Contents (Elt F))
    (Y : (rV2).ty.Contents (Elt F))
    (h3 : ∀ w : Fin cfg2.W, mem ((d.tc : Thread nD τ).loc (Pipeline.arrRef spec2 w)) = (pdatsB (fun d' => W4 m d' X1 Y) 1 d).arrAt w cfg2.N)
    (h4 : ∀ b ∈ S1 \ T2, mem ((d.tc : Thread nD τ).1, b) = W4 m d X1 Y b) :
    mem ((d.tc : Thread nD τ).loc main_arg0) = m ((d.tc : Thread nD τ).loc main_arg0)
    ∧ mem ((d.tc : Thread nD τ).loc main_arg1) = m ((d.tc : Thread nD τ).loc main_arg1)
    ∧ mem ((d.tc : Thread nD τ).loc main_arg2) = m ((d.tc : Thread nD τ).loc main_arg2)
    ∧ mem ((d.tc : Thread nD τ).loc main_arg3) = m ((d.tc : Thread nD τ).loc main_arg3)
    ∧ mem ((d.tc : Thread nD τ).loc main_arg4) = m ((d.tc : Thread nD τ).loc main_arg4)
    ∧ mem ((d.tc : Thread nD τ).loc main_arg5) = m ((d.tc : Thread nD τ).loc main_arg5)
    ∧ mem ((d.tc : Thread nD τ).loc main_arg6) = m ((d.tc : Thread nD τ).loc main_arg6)
    ∧ mem ((d.tc : Thread nD τ).loc main_arg7) = m ((d.tc : Thread nD τ).loc main_arg7)
    ∧ mem ((d.tc : Thread nD τ).loc main_arg8) = m ((d.tc : Thread nD τ).loc main_arg8)
    ∧ mem ((d.tc : Thread nD τ).loc main_arg9) = m ((d.tc : Thread nD τ).loc main_arg9)
    ∧ mem ((d.tc : Thread nD τ).loc main_arg10) = m ((d.tc : Thread nD τ).loc main_arg10)
    ∧ mem ((d.tc : Thread nD τ).loc main_arg11) = m ((d.tc : Thread nD τ).loc main_arg11)
    ∧ mem ((d.tc : Thread nD τ).loc main_arg12) = m ((d.tc : Thread nD τ).loc main_arg12)
    ∧ mem ((d.tc : Thread nD τ).loc main_arg13) = m ((d.tc : Thread nD τ).loc main_arg13)
    ∧ mem ((d.tc : Thread nD τ).loc main_arg14) = m ((d.tc : Thread nD τ).loc main_arg14)
    ∧ mem ((d.tc : Thread nD τ).loc main_arg15) = m ((d.tc : Thread nD τ).loc main_arg15)
    ∧ mem ((d.tc : Thread nD τ).loc main_arg16) = m ((d.tc : Thread nD τ).loc main_arg16)
    ∧ mem ((d.tc : Thread nD τ).loc main_arg17) = m ((d.tc : Thread nD τ).loc main_arg17)
    ∧ mem ((d.tc : Thread nD τ).loc main_arg18) = m ((d.tc : Thread nD τ).loc main_arg18)
    ∧ mem ((d.tc : Thread nD τ).loc main_arg19) = m ((d.tc : Thread nD τ).loc main_arg19)
    ∧ mem ((d.tc : Thread nD τ).loc main_arg20) = m ((d.tc : Thread nD τ).loc main_arg20)
    ∧ mem ((d.tc : Thread nD τ).loc main_arg21) = m ((d.tc : Thread nD τ).loc main_arg21)
    ∧ mem ((d.tc : Thread nD τ).loc main_arg22) = m ((d.tc : Thread nD τ).loc main_arg22)
    ∧ mem ((d.tc : Thread nD τ).loc main_arg23) = m ((d.tc : Thread nD τ).loc main_arg23)
    ∧ mem ((d.tc : Thread nD τ).loc main_arg24) = m ((d.tc : Thread nD τ).loc main_arg24)
    ∧ mem ((d.tc : Thread nD τ).loc main_arg25) = m ((d.tc : Thread nD τ).loc main_arg25)
    ∧ mem ((d.tc : Thread nD τ).loc main_arg26) = m ((d.tc : Thread nD τ).loc main_arg26)
    ∧ mem ((d.tc : Thread nD τ).loc main_arg27) = m ((d.tc : Thread nD τ).loc main_arg27) :=
  ⟨arg_of_rest m mem d X1 Y main_arg0 (by decide) (by decide) h4,
   arg_of_rest m mem d X1 Y main_arg1 (by decide) (by decide) h4,
   arg_of_rest m mem d X1 Y main_arg2 (by decide) (by decide) h4,
   arg_of_rest m mem d X1 Y main_arg3 (by decide) (by decide) h4,
   arg_of_rest m mem d X1 Y main_arg4 (by decide) (by decide) h4,
   arg_of_rest m mem d X1 Y main_arg5 (by decide) (by decide) h4,
   arg_of_rest m mem d X1 Y main_arg6 (by decide) (by decide) h4,
   arg_of_rest m mem d X1 Y main_arg7 (by decide) (by decide) h4,
   arg_of_rest m mem d X1 Y main_arg8 (by decide) (by decide) h4,
   arg_of_rest m mem d X1 Y main_arg9 (by decide) (by decide) h4,
   arg_of_window m mem d X1 Y 10 rfl (by decide) (h3 10),
   arg_of_window m mem d X1 Y 11 rfl (by decide) (h3 11),
   arg_of_window m mem d X1 Y 12 rfl (by decide) (h3 12),
   arg_of_window m mem d X1 Y 13 rfl (by decide) (h3 13),
   arg_of_window m mem d X1 Y 14 rfl (by decide) (h3 14),
   arg_of_window m mem d X1 Y 15 rfl (by decide) (h3 15),
   arg_of_window m mem d X1 Y 16 rfl (by decide) (h3 16),
   arg_of_window m mem d X1 Y 17 rfl (by decide) (h3 17),
   arg_of_window m mem d X1 Y 18 rfl (by decide) (h3 18),
   arg_of_rest m mem d X1 Y main_arg19 (by decide) (by decide) h4,
   arg_of_window m mem d X1 Y 20 rfl (by decide) (h3 20),
   arg_of_window m mem d X1 Y 21 rfl (by decide) (h3 21),
   arg_of_rest m mem d X1 Y main_arg22 (by decide) (by decide) h4,
   arg_of_window m mem d X1 Y 23 rfl (by decide) (h3 23),
   arg_of_rest m mem d X1 Y main_arg24 (by decide) (by decide) h4,
   arg_of_window m mem d X1 Y 25 rfl (by decide) (h3 25),
   arg_of_rest m mem d X1 Y main_arg26 (by decide) (by decide) h4,
   arg_of_window m mem d X1 Y 27 rfl (by decide) (h3 27)⟩

end Cert.KernelIdeal.Run

end
-- ==== Proof.Tc2Tail.lean ====
import proofs.«205263_g58420145160647_cont_9to1_m_909_25_alg».proof.Proof.Tc2Body
import proofs.«205263_g58420145160647_cont_9to1_m_909_25_alg».proof.Proof.Tc2Math

/-! # The second TensorCore kernel at the ideal values: from one embedding row to the stored value

Whatever the 2048×256 block of embedding rows `E` is, the value the body stores at row `p` is `tailOf` of row `p` of
`E`: the linear term, the factorization-machine cross term, three dense layers with a rectifier, a last product,
their sum through the logistic function — each a finite sum over the extended reals in the body's own association. -/

set_option maxRecDepth 16384

noncomputable section

open scoped BigOperators

namespace Cert.KernelIdeal.Tc2

open Cert.KernelIdeal Cert.KernelIdeal.Gen Cert.Tc2Math
open Idealize.ShloMosaic Idealize.ShloMosaic.ValueIdx

/-- What the body computes from one embedding row `e`. -/
def tailOf (e : Fin 256 → EReal) (flw : FVec Ideal S256x1 .f32) (flb : FVec Ideal S1x1 .f32) (fmk : FVec Ideal S256x32 .f32)
    (W2 : FVec Ideal S256x128 .f32) (b2 : FVec Ideal S1x128 .f32) (W3 : FVec Ideal S128x128 .f32) (b3 : FVec Ideal S1x128 .f32)
    (W4 : FVec Ideal S128x128 .f32) (b4 : FVec Ideal S1x128 .f32) (W5 : FVec Ideal S128x1 .f32) : EReal :=
  Ideal.logistic
    ((((∑ k : Fin 256, e k * flw (ix2 k 0)) + flb (ix2 0 0)) + fmCross e fmk)
      + ∑ m : Fin 128, dense 128 128 (dense 128 128 (dense 256 128 e W2 b2) W3 b3) W4 b4 m * W5 (ix2 m 0))

/-- The one entry of the 1×1 bias block. -/
theorem extractAt_S1x1 (x : FVec Ideal S1x1 .f32) (h : ∀ a, (![0, 0] : Fin 2 → Nat) a < S1x1.size a) :
    extractAt ![0, 0] x h = x (ix2 0 0) := by
  unfold extractAt
  congr 1
  funext a
  match a with
  | ⟨0, _⟩ => rfl
  | ⟨1, _⟩ => rfl

/-- The logistic function at an index. -/
theorem logistic_apply {s : Shape} {φ : FTy} (v : FVec Ideal s φ) (i : s.Idx) : logistic v i = Ideal.logistic (v i) := rfl

set_option maxHeartbeats 1000000 in
/-- The stored value at row `p`, for any block of embedding rows. -/
theorem val_tail (E : FVec Ideal S2048x256 .f32) (flw : FVec Ideal S256x1 .f32) (flb : FVec Ideal S1x1 .f32) (fmk : FVec Ideal S256x32 .f32)
    (W2 : FVec Ideal S256x128 .f32) (b2 : FVec Ideal S1x128 .f32) (W3 : FVec Ideal S128x128 .f32) (b3 : FVec Ideal S1x128 .f32)
    (W4 : FVec Ideal S128x128 .f32) (b4 : FVec Ideal S1x128 .f32) (W5 : FVec Ideal S128x1 .f32) (p : Fin 2048) (z : Fin 1) :
    k2_pay1 (k2_pay12 E flw flb) (k2_pay13 E fmk) (k2_pay14 E W2 b2 W3 b3 W4) b4 W5 (ix2 p z)
      = tailOf (fun k => E (ix2 p k)) flw flb fmk W2 b2 W3 b3 W4 b4 W5 := by
  show logistic (addf (addf (addf (matmul (DotDims.plain 2048 256 1) none E flw (constant S2048x1 .f32 0x00000000#32))
              (broadcast S2048x1 (extractAt ![0, 0] flb inpos_S1x1_p0_0)))
            (crossV E fmk reduces_S2048x32_S2048 (.inl rfl) rfl shapeCasts_S2048_S2048x1))
          (matmul (DotDims.plain 2048 128 1) none
            (layerV 128 128 (layerV 128 128 (layerV 256 128 E W2 b2 shapeCasts_S1x128_S1x128 broadcasts_S1x128_S2048x128)
              W3 b3 shapeCasts_S1x128_S1x128 broadcasts_S1x128_S2048x128) W4 b4 shapeCasts_S1x128_S1x128 broadcasts_S1x128_S2048x128)
            W5 (constant S2048x1 .f32 0x00000000#32))) (ix2 p z) = _
  have hc := crossV_apply E fmk reduces_S2048x32_S2048 (.inl rfl) rfl shapeCasts_S2048_S2048x1 p z
  rw [logistic_apply, addf_apply, addf_apply, addf_apply, broadcast_apply, extractAt_S1x1, hc, matmul_plain_zero_apply, matmul_plain_zero_apply]
  have hz : z = 0 := Fin.ext (by have := z.isLt; omega)
  subst hz
  unfold tailOf fmCross
  congr 2
  refine Finset.sum_congr rfl fun m _ => ?_
  rw [layerV_apply]
  unfold dense
  congr 3
  refine Finset.sum_congr rfl fun k _ => ?_
  rw [layerV_apply]
  congr 3
  refine Finset.sum_congr rfl fun k' _ => ?_
  rw [layerV_apply]

end Cert.KernelIdeal.Tc2

end
-- ==== Proof.Tc2Emb.lean ====
import proofs.«205263_g58420145160647_cont_9to1_m_909_25_alg».proof.Proof.Tc2Body
import proofs.«205263_g58420145160647_cont_9to1_m_909_25_alg».proof.Proof.Tc2Math

/-! # The second TensorCore kernel at the ideal values: the embedding rows

The 2048×256 block the body concatenates, read at row `p` by column range: the user columns are one half or the
other of the gathered pair row, chosen by bit 14 of the user index; every other range is a one-hot lookup, which is
the table's row at the row's index when that index is in range of the table. -/

set_option maxRecDepth 16384

noncomputable section

open scoped BigOperators

namespace Cert.KernelIdeal.Tc2

open Cert.KernelIdeal Cert.KernelIdeal.Gen Cert.Tc2Math
open Idealize.ShloMosaic Idealize.ShloMosaic.ValueIdx

theorem hz2 : (![0, 0] : Fin 2 → Nat) = fun _ => 0 := by
  funext a
  match a with
  | ⟨0, _⟩ => rfl
  | ⟨1, _⟩ => rfl

theorem hz3 : (![0, 0, 0] : Fin 3 → Nat) = fun _ => 0 := by
  funext a
  match a with
  | ⟨0, _⟩ => rfl
  | ⟨1, _⟩ => rfl
  | ⟨2, _⟩ => rfl

/-! ## The user columns -/

/-- The user piece at (p, j): the upper or the lower half of the pair row, by bit 14 of the user index. -/
theorem pay2_apply (uid : Vec Ideal S1x1x2048 .i32) (u2 : Vec Ideal S2048x128 .f32) (p : Fin 2048) (j : Fin 64) :
    k2_pay2 uid u2 (ix2 p j)
      = if IntOp.andi (IntOp.shrui .vector (uid (ix3 0 0 p)) 14#32) 1#32 = 1#32
        then u2 (ix2 p (⟨64 + j.val, by omega⟩ : Fin 128)) else u2 (ix2 p (⟨j.val, by omega⟩ : Fin 128)) := by
  unfold k2_pay2
  rw [select_apply, shapeCast_self, shapeCast_self]
  have hcond : ∀ (h8 : S2048.ShapeCasts S2048x1) (h1 : S1x1x2048.ShapeCasts S2048) (hb : S2048x1.Broadcasts S2048x64),
      broadcastTo S2048x64 (cmpi .eq (shapeCast S2048x1 (andi (shrui (shapeCast S2048 uid h1) (broadcast S2048 14#32)) (broadcast S2048 1#32)) h8)
          (broadcast S2048x1 1#32)) hb (ix2 p j)
        = IntOp.cmpi .eq (IntOp.andi (IntOp.shrui .vector (uid (ix3 0 0 p)) 14#32) 1#32) 1#32 := by
    intro h8 h1 hb
    refine (broadcastTo_apply _ hb (ix2 p j) (ix2 p (0 : Fin 1)) fun a => ?_).trans ?_
    · match a with
      | ⟨0, _⟩ => exact (if_neg (show ¬ ((2048 : ℕ) = 1) by decide)).symm
      | ⟨1, _⟩ => exact (if_pos (show (1 : ℕ) = 1 from rfl)).symm
    show IntOp.cmpi .eq (shapeCast S2048x1 _ h8 (ix2 p (0 : Fin 1))) 1#32 = _
    congr 1
    refine (shapeCast_apply _ h8 (ix2 p (0 : Fin 1)) (ix1 p) ?_).trans ?_
    · rw [Shape.rowMajor_val_one, Shape.rowMajor_val_two]
      show p.val = p.val * 1 + 0
      omega
    show IntOp.andi (IntOp.shrui .vector (shapeCast S2048 uid h1 (ix1 p)) 14#32) 1#32 = _
    congr 2
    refine shapeCast_apply uid h1 (ix1 p) (ix3 (0 : Fin 1) (0 : Fin 1) p) ?_
    rw [Shape.rowMajor_val_three, Shape.rowMajor_val_one]
    show (0 * 1 + 0) * 2048 + p.val = p.val
    omega
  rw [hcond, select_cmpi_eq]
  congr 1
  · exact extractStridedSlice_apply ![0, 64] u2 _ (ix2 p j) (ix2 p (⟨64 + j.val, by omega⟩ : Fin 128)) fun a => by
      match a with
      | ⟨0, _⟩ => exact (Nat.zero_add _).symm
      | ⟨1, _⟩ => rfl
  · exact extractStridedSlice_apply ![0, 0] u2 _ (ix2 p j) (ix2 p (⟨j.val, by omega⟩ : Fin 128)) fun a => by
      match a with
      | ⟨0, _⟩ => exact (Nat.zero_add _).symm
      | ⟨1, _⟩ => exact (Nat.zero_add _).symm

/-! ## The row block as a concatenation of nine pieces -/

/-- The nine pieces: the user columns, then one one-hot lookup per remaining feature. -/
def embList (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) : List ((s : Shape) × (s.Idx → EReal)) :=
  [⟨S2048x64, k2_pay2 x1 x0⟩,
   ⟨S2048x64, onehotV 100 64 x2 x10 shapeCasts_S1x1x2048_S2048 shapeCasts_S2048_S2048x1 iota_S2048x100_d1_w32 broadcasts_S2048x1_S2048x100⟩,
   ⟨S2048x8, onehotV 5 8 x3 x11 shapeCasts_S1x1x2048_S2048 shapeCasts_S2048_S2048x1 iota_S2048x5_d1_w32 broadcasts_S2048x1_S2048x5⟩,
   ⟨S2048x16, onehotV 8 16 x4 x12 shapeCasts_S1x1x2048_S2048 shapeCasts_S2048_S2048x1 iota_S2048x8_d1_w32 broadcasts_S2048x1_S2048x8⟩,
   ⟨S2048x8, onehotV 25 8 x5 x13 shapeCasts_S1x1x2048_S2048 shapeCasts_S2048_S2048x1 iota_S2048x25_d1_w32 broadcasts_S2048x1_S2048x25⟩,
   ⟨S2048x8, onehotV 61 8 x6 x14 shapeCasts_S1x1x2048_S2048 shapeCasts_S2048_S2048x1 iota_S2048x61_d1_w32 broadcasts_S2048x1_S2048x61⟩,
   ⟨S2048x8, onehotV 61 8 x7 x15 shapeCasts_S1x1x2048_S2048 shapeCasts_S2048_S2048x1 iota_S2048x61_d1_w32 broadcasts_S2048x1_S2048x61⟩,
   ⟨S2048x64, onehotV 500 64 x8 x16 shapeCasts_S1x1x2048_S2048 shapeCasts_S2048_S2048x1 iota_S2048x500_d1_w32 broadcasts_S2048x1_S2048x500⟩,
   ⟨S2048x16, onehotV 40 16 x9 x17 shapeCasts_S1x1x2048_S2048 shapeCasts_S2048_S2048x1 iota_S2048x40_d1_w32 broadcasts_S2048x1_S2048x40⟩]

set_option maxHeartbeats 1000000 in
/-- The row block is the concatenation of the nine pieces along the columns. -/
theorem emb2_eq_concat (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) :
    emb2 x0 x1 x2 x3 x4 x5 x6 x7 x8 x9 x10 x11 x12 x13 x14 x15 x16 x17 = concatenate S2048x256 1 (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 := by
  unfold emb2
  simp only [View.ld_unit_zero (S := S2048x128) hz2, View.ld_unit_zero (S := S1x1x2048) hz3, View.ld_unit_zero (S := S100x64) hz2, View.ld_unit_zero (S := S5x8) hz2, View.ld_unit_zero (S := S8x16) hz2, View.ld_unit_zero (S := S25x8) hz2, View.ld_unit_zero (S := S61x8) hz2, View.ld_unit_zero (S := S500x64) hz2, View.ld_unit_zero (S := S40x16) hz2]
  rfl

/-- Columns 0 … 63 of the row block are piece 0 (user). -/
theorem emb2_piece0 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 64) :
    emb2 x0 x1 x2 x3 x4 x5 x6 x7 x8 x9 x10 x11 x12 x13 x14 x15 x16 x17 (ix2 p (⟨0 + j.val, by omega⟩ : Fin 256)) = (k2_pay2 x1 x0) (ix2 p j) := by
  rw [emb2_eq_concat]
  exact concatenate_apply_piece (t := S2048x256) (1 : Fin 2) (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 (ix2 p (⟨0 + j.val, by omega⟩ : Fin 256))
    0 (by simp [embList]) S2048x64 (k2_pay2 x1 x0) rfl rfl 0 (by rfl) (ix2 p j)
    (fun b hb => by
      match b with
      | ⟨0, _⟩ => rfl
      | ⟨1, _⟩ => exact absurd (Fin.ext rfl) hb) rfl

/-- Columns 64 … 127 of the row block are piece 1 (age). -/
theorem emb2_piece1 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 64) :
    emb2 x0 x1 x2 x3 x4 x5 x6 x7 x8 x9 x10 x11 x12 x13 x14 x15 x16 x17 (ix2 p (⟨64 + j.val, by omega⟩ : Fin 256)) = (onehotV 100 64 x2 x10 shapeCasts_S1x1x2048_S2048 shapeCasts_S2048_S2048x1 iota_S2048x100_d1_w32 broadcasts_S2048x1_S2048x100) (ix2 p j) := by
  rw [emb2_eq_concat]
  exact concatenate_apply_piece (t := S2048x256) (1 : Fin 2) (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 (ix2 p (⟨64 + j.val, by omega⟩ : Fin 256))
    1 (by simp [embList]) S2048x64 (onehotV 100 64 x2 x10 shapeCasts_S1x1x2048_S2048 shapeCasts_S2048_S2048x1 iota_S2048x100_d1_w32 broadcasts_S2048x1_S2048x100) rfl rfl 64 (by rfl) (ix2 p j)
    (fun b hb => by
      match b with
      | ⟨0, _⟩ => rfl
      | ⟨1, _⟩ => exact absurd (Fin.ext rfl) hb) rfl

/-- Columns 128 … 135 of the row block are piece 2 (gender). -/
theorem emb2_piece2 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 8) :
    emb2 x0 x1 x2 x3 x4 x5 x6 x7 x8 x9 x10 x11 x12 x13 x14 x15 x16 x17 (ix2 p (⟨128 + j.val, by omega⟩ : Fin 256)) = (onehotV 5 8 x3 x11 shapeCasts_S1x1x2048_S2048 shapeCasts_S2048_S2048x1 iota_S2048x5_d1_w32 broadcasts_S2048x1_S2048x5) (ix2 p j) := by
  rw [emb2_eq_concat]
  exact concatenate_apply_piece (t := S2048x256) (1 : Fin 2) (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 (ix2 p (⟨128 + j.val, by omega⟩ : Fin 256))
    2 (by simp [embList]) S2048x8 (onehotV 5 8 x3 x11 shapeCasts_S1x1x2048_S2048 shapeCasts_S2048_S2048x1 iota_S2048x5_d1_w32 broadcasts_S2048x1_S2048x5) rfl rfl 128 (by rfl) (ix2 p j)
    (fun b hb => by
      match b with
      | ⟨0, _⟩ => rfl
      | ⟨1, _⟩ => exact absurd (Fin.ext rfl) hb) rfl

/-- Columns 136 … 151 of the row block are piece 3 (weekday). -/
theorem emb2_piece3 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 16) :
    emb2 x0 x1 x2 x3 x4 x5 x6 x7 x8 x9 x10 x11 x12 x13 x14 x15 x16 x17 (ix2 p (⟨136 + j.val, by omega⟩ : Fin 256)) = (onehotV 8 16 x4 x12 shapeCasts_S1x1x2048_S2048 shapeCasts_S2048_S2048x1 iota_S2048x8_d1_w32 broadcasts_S2048x1_S2048x8) (ix2 p j) := by
  rw [emb2_eq_concat]
  exact concatenate_apply_piece (t := S2048x256) (1 : Fin 2) (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 (ix2 p (⟨136 + j.val, by omega⟩ : Fin 256))
    3 (by simp [embList]) S2048x16 (onehotV 8 16 x4 x12 shapeCasts_S1x1x2048_S2048 shapeCasts_S2048_S2048x1 iota_S2048x8_d1_w32 broadcasts_S2048x1_S2048x8) rfl rfl 136 (by rfl) (ix2 p j)
    (fun b hb => by
      match b with
      | ⟨0, _⟩ => rfl
      | ⟨1, _⟩ => exact absurd (Fin.ext rfl) hb) rfl

/-- Columns 152 … 159 of the row block are piece 4 (hour). -/
theorem emb2_piece4 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 8) :
    emb2 x0 x1 x2 x3 x4 x5 x6 x7 x8 x9 x10 x11 x12 x13 x14 x15 x16 x17 (ix2 p (⟨152 + j.val, by omega⟩ : Fin 256)) = (onehotV 25 8 x5 x13 shapeCasts_S1x1x2048_S2048 shapeCasts_S2048_S2048x1 iota_S2048x25_d1_w32 broadcasts_S2048x1_S2048x25) (ix2 p j) := by
  rw [emb2_eq_concat]
  exact concatenate_apply_piece (t := S2048x256) (1 : Fin 2) (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 (ix2 p (⟨152 + j.val, by omega⟩ : Fin 256))
    4 (by simp [embList]) S2048x8 (onehotV 25 8 x5 x13 shapeCasts_S1x1x2048_S2048 shapeCasts_S2048_S2048x1 iota_S2048x25_d1_w32 broadcasts_S2048x1_S2048x25) rfl rfl 152 (by rfl) (ix2 p j)
    (fun b hb => by
      match b with
      | ⟨0, _⟩ => rfl
      | ⟨1, _⟩ => exact absurd (Fin.ext rfl) hb) rfl

/-- Columns 160 … 167 of the row block are piece 5 (minute). -/
theorem emb2_piece5 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 8) :
    emb2 x0 x1 x2 x3 x4 x5 x6 x7 x8 x9 x10 x11 x12 x13 x14 x15 x16 x17 (ix2 p (⟨160 + j.val, by omega⟩ : Fin 256)) = (onehotV 61 8 x6 x14 shapeCasts_S1x1x2048_S2048 shapeCasts_S2048_S2048x1 iota_S2048x61_d1_w32 broadcasts_S2048x1_S2048x61) (ix2 p j) := by
  rw [emb2_eq_concat]
  exact concatenate_apply_piece (t := S2048x256) (1 : Fin 2) (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 (ix2 p (⟨160 + j.val, by omega⟩ : Fin 256))
    5 (by simp [embList]) S2048x8 (onehotV 61 8 x6 x14 shapeCasts_S1x1x2048_S2048 shapeCasts_S2048_S2048x1 iota_S2048x61_d1_w32 broadcasts_S2048x1_S2048x61) rfl rfl 160 (by rfl) (ix2 p j)
    (fun b hb => by
      match b with
      | ⟨0, _⟩ => rfl
      | ⟨1, _⟩ => exact absurd (Fin.ext rfl) hb) rfl

/-- Columns 168 … 175 of the row block are piece 6 (second). -/
theorem emb2_piece6 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 8) :
    emb2 x0 x1 x2 x3 x4 x5 x6 x7 x8 x9 x10 x11 x12 x13 x14 x15 x16 x17 (ix2 p (⟨168 + j.val, by omega⟩ : Fin 256)) = (onehotV 61 8 x7 x15 shapeCasts_S1x1x2048_S2048 shapeCasts_S2048_S2048x1 iota_S2048x61_d1_w32 broadcasts_S2048x1_S2048x61) (ix2 p j) := by
  rw [emb2_eq_concat]
  exact concatenate_apply_piece (t := S2048x256) (1 : Fin 2) (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 (ix2 p (⟨168 + j.val, by omega⟩ : Fin 256))
    6 (by simp [embList]) S2048x8 (onehotV 61 8 x7 x15 shapeCasts_S1x1x2048_S2048 shapeCasts_S2048_S2048x1 iota_S2048x61_d1_w32 broadcasts_S2048x1_S2048x61) rfl rfl 168 (by rfl) (ix2 p j)
    (fun b hb => by
      match b with
      | ⟨0, _⟩ => rfl
      | ⟨1, _⟩ => exact absurd (Fin.ext rfl) hb) rfl

/-- Columns 176 … 239 of the row block are piece 7 (item). -/
theorem emb2_piece7 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 64) :
    emb2 x0 x1 x2 x3 x4 x5 x6 x7 x8 x9 x10 x11 x12 x13 x14 x15 x16 x17 (ix2 p (⟨176 + j.val, by omega⟩ : Fin 256)) = (onehotV 500 64 x8 x16 shapeCasts_S1x1x2048_S2048 shapeCasts_S2048_S2048x1 iota_S2048x500_d1_w32 broadcasts_S2048x1_S2048x500) (ix2 p j) := by
  rw [emb2_eq_concat]
  exact concatenate_apply_piece (t := S2048x256) (1 : Fin 2) (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 (ix2 p (⟨176 + j.val, by omega⟩ : Fin 256))
    7 (by simp [embList]) S2048x64 (onehotV 500 64 x8 x16 shapeCasts_S1x1x2048_S2048 shapeCasts_S2048_S2048x1 iota_S2048x500_d1_w32 broadcasts_S2048x1_S2048x500) rfl rfl 176 (by rfl) (ix2 p j)
    (fun b hb => by
      match b with
      | ⟨0, _⟩ => rfl
      | ⟨1, _⟩ => exact absurd (Fin.ext rfl) hb) rfl

/-- Columns 240 … 255 of the row block are piece 8 (catalog). -/
theorem emb2_piece8 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 16) :
    emb2 x0 x1 x2 x3 x4 x5 x6 x7 x8 x9 x10 x11 x12 x13 x14 x15 x16 x17 (ix2 p (⟨240 + j.val, by omega⟩ : Fin 256)) = (onehotV 40 16 x9 x17 shapeCasts_S1x1x2048_S2048 shapeCasts_S2048_S2048x1 iota_S2048x40_d1_w32 broadcasts_S2048x1_S2048x40) (ix2 p j) := by
  rw [emb2_eq_concat]
  exact concatenate_apply_piece (t := S2048x256) (1 : Fin 2) (embList x0 x1 x2 x3 x4 x5 x6 x7 x8 x9 x10 x11 x12 x13 x14 x15 x16 x17) concatenates_S2048x64_S2048x64_S2048x8_S2048x16_S2048x8_S2048x8_S2048x8_S2048x64_S2048x16_S2048x256_d1 (ix2 p (⟨240 + j.val, by omega⟩ : Fin 256))
    8 (by simp [embList]) S2048x16 (onehotV 40 16 x9 x17 shapeCasts_S1x1x2048_S2048 shapeCasts_S2048_S2048x1 iota_S2048x40_d1_w32 broadcasts_S2048x1_S2048x40) rfl rfl 240 (by rfl) (ix2 p j)
    (fun b hb => by
      match b with
      | ⟨0, _⟩ => rfl
      | ⟨1, _⟩ => exact absurd (Fin.ext rfl) hb) rfl

/-! ## The row block by column range -/

/-- The user columns of row `p`. -/
theorem emb2_user (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 64) :
    emb2 x0 x1 x2 x3 x4 x5 x6 x7 x8 x9 x10 x11 x12 x13 x14 x15 x16 x17 (ix2 p (⟨0 + j.val, by omega⟩ : Fin 256))
      = if IntOp.andi (IntOp.shrui .vector (x1 (ix3 0 0 p)) 14#32) 1#32 = 1#32
        then x0 (ix2 p (⟨64 + j.val, by omega⟩ : Fin 128)) else x0 (ix2 p (⟨j.val, by omega⟩ : Fin 128)) := by
  rw [emb2_piece0, pay2_apply]

/-- The age columns of row `p`: the table's row at the row's index, when that index is in range of the table. -/
theorem emb2_age (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 64) (hlt : (x2 (ix3 0 0 p)).toNat < 100) :
    emb2 x0 x1 x2 x3 x4 x5 x6 x7 x8 x9 x10 x11 x12 x13 x14 x15 x16 x17 (ix2 p (⟨64 + j.val, by omega⟩ : Fin 256)) = x10 (ix2 ⟨(x2 (ix3 0 0 p)).toNat, hlt⟩ j) := by
  rw [emb2_piece1]
  exact onehotV_apply 100 64 (by norm_num) x2 x10 _ _ _ _ p j hlt

/-- The gender columns of row `p`: the table's row at the row's index, when that index is in range of the table. -/
theorem emb2_gender (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 8) (hlt : (x3 (ix3 0 0 p)).toNat < 5) :
    emb2 x0 x1 x2 x3 x4 x5 x6 x7 x8 x9 x10 x11 x12 x13 x14 x15 x16 x17 (ix2 p (⟨128 + j.val, by omega⟩ : Fin 256)) = x11 (ix2 ⟨(x3 (ix3 0 0 p)).toNat, hlt⟩ j) := by
  rw [emb2_piece2]
  exact onehotV_apply 5 8 (by norm_num) x3 x11 _ _ _ _ p j hlt

/-- The weekday columns of row `p`: the table's row at the row's index, when that index is in range of the table. -/
theorem emb2_weekday (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 16) (hlt : (x4 (ix3 0 0 p)).toNat < 8) :
    emb2 x0 x1 x2 x3 x4 x5 x6 x7 x8 x9 x10 x11 x12 x13 x14 x15 x16 x17 (ix2 p (⟨136 + j.val, by omega⟩ : Fin 256)) = x12 (ix2 ⟨(x4 (ix3 0 0 p)).toNat, hlt⟩ j) := by
  rw [emb2_piece3]
  exact onehotV_apply 8 16 (by norm_num) x4 x12 _ _ _ _ p j hlt

/-- The hour columns of row `p`: the table's row at the row's index, when that index is in range of the table. -/
theorem emb2_hour (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 8) (hlt : (x5 (ix3 0 0 p)).toNat < 25) :
    emb2 x0 x1 x2 x3 x4 x5 x6 x7 x8 x9 x10 x11 x12 x13 x14 x15 x16 x17 (ix2 p (⟨152 + j.val, by omega⟩ : Fin 256)) = x13 (ix2 ⟨(x5 (ix3 0 0 p)).toNat, hlt⟩ j) := by
  rw [emb2_piece4]
  exact onehotV_apply 25 8 (by norm_num) x5 x13 _ _ _ _ p j hlt

/-- The minute columns of row `p`: the table's row at the row's index, when that index is in range of the table. -/
theorem emb2_minute (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 8) (hlt : (x6 (ix3 0 0 p)).toNat < 61) :
    emb2 x0 x1 x2 x3 x4 x5 x6 x7 x8 x9 x10 x11 x12 x13 x14 x15 x16 x17 (ix2 p (⟨160 + j.val, by omega⟩ : Fin 256)) = x14 (ix2 ⟨(x6 (ix3 0 0 p)).toNat, hlt⟩ j) := by
  rw [emb2_piece5]
  exact onehotV_apply 61 8 (by norm_num) x6 x14 _ _ _ _ p j hlt

/-- The second columns of row `p`: the table's row at the row's index, when that index is in range of the table. -/
theorem emb2_second (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 8) (hlt : (x7 (ix3 0 0 p)).toNat < 61) :
    emb2 x0 x1 x2 x3 x4 x5 x6 x7 x8 x9 x10 x11 x12 x13 x14 x15 x16 x17 (ix2 p (⟨168 + j.val, by omega⟩ : Fin 256)) = x15 (ix2 ⟨(x7 (ix3 0 0 p)).toNat, hlt⟩ j) := by
  rw [emb2_piece6]
  exact onehotV_apply 61 8 (by norm_num) x7 x15 _ _ _ _ p j hlt

/-- The item columns of row `p`: the table's row at the row's index, when that index is in range of the table. -/
theorem emb2_item (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 64) (hlt : (x8 (ix3 0 0 p)).toNat < 500) :
    emb2 x0 x1 x2 x3 x4 x5 x6 x7 x8 x9 x10 x11 x12 x13 x14 x15 x16 x17 (ix2 p (⟨176 + j.val, by omega⟩ : Fin 256)) = x16 (ix2 ⟨(x8 (ix3 0 0 p)).toNat, hlt⟩ j) := by
  rw [emb2_piece7]
  exact onehotV_apply 500 64 (by norm_num) x8 x16 _ _ _ _ p j hlt

/-- The catalog columns of row `p`: the table's row at the row's index, when that index is in range of the table. -/
theorem emb2_catalog (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (p : Fin 2048) (j : Fin 16) (hlt : (x9 (ix3 0 0 p)).toNat < 40) :
    emb2 x0 x1 x2 x3 x4 x5 x6 x7 x8 x9 x10 x11 x12 x13 x14 x15 x16 x17 (ix2 p (⟨240 + j.val, by omega⟩ : Fin 256)) = x17 (ix2 ⟨(x9 (ix3 0 0 p)).toNat, hlt⟩ j) := by
  rw [emb2_piece8]
  exact onehotV_apply 40 16 (by norm_num) x9 x17 _ _ _ _ p j hlt

end Cert.KernelIdeal.Tc2

end
-- ==== Proof.Tc2Value.lean ====
import proofs.«205263_g58420145160647_cont_9to1_m_909_25_alg».proof.Proof.Tc2Tail
import proofs.«205263_g58420145160647_cont_9to1_m_909_25_alg».proof.Proof.Tc2Emb

/-! # The second TensorCore kernel at the ideal values: what the output block holds

At row `p` the output block holds `tailOf` of row `p` of the embedding block `emb2` of the input blocks
(Tc2Tail.lean), and that row is given column range by column range by `emb2_user`, `emb2_age`, … (Tc2Emb.lean). -/

set_option maxRecDepth 16384

noncomputable section

open scoped BigOperators

namespace Cert.KernelIdeal.Tc2

open Cert.KernelIdeal Cert.KernelIdeal.Gen Cert.Tc2Math
open Idealize.ShloMosaic Idealize.ShloMosaic.ValueIdx

/-- The output block is the stored column: its one store covers it. -/
theorem out2_28_eq_val2 (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (x18 : Vec Ideal S256x1 .f32) (x19 : Vec Ideal S1x1 .f32) (x20 : Vec Ideal S256x32 .f32) (x21 : Vec Ideal S256x128 .f32) (x22 : Vec Ideal S1x128 .f32) (x23 : Vec Ideal S128x128 .f32) (x24 : Vec Ideal S1x128 .f32) (x25 : Vec Ideal S128x128 .f32) (x26 : Vec Ideal S1x128 .f32) (x27 : Vec Ideal S128x1 .f32) :
    out2_28 x0 x1 x2 x3 x4 x5 x6 x7 x8 x9 x10 x11 x12 x13 x14 x15 x16 x17 x18 x19 x20 x21 x22 x23 x24 x25 x26 x27 = val2 x0 x1 x2 x3 x4 x5 x6 x7 x8 x9 x10 x11 x12 x13 x14 x15 x16 x17 x18 x19 x20 x21 x22 x23 x24 x25 x26 x27 := by
  unfold out2_28
  exact View.canon_unit_zero (S := S2048x1) hz2 _ _

/-- The output block at row `p`: `tailOf` of the embedding row. -/
theorem out2_28_apply (x0 : Vec Ideal S2048x128 .f32) (x1 : Vec Ideal S1x1x2048 .i32) (x2 : Vec Ideal S1x1x2048 .i32) (x3 : Vec Ideal S1x1x2048 .i32) (x4 : Vec Ideal S1x1x2048 .i32) (x5 : Vec Ideal S1x1x2048 .i32) (x6 : Vec Ideal S1x1x2048 .i32) (x7 : Vec Ideal S1x1x2048 .i32) (x8 : Vec Ideal S1x1x2048 .i32) (x9 : Vec Ideal S1x1x2048 .i32) (x10 : Vec Ideal S100x64 .f32) (x11 : Vec Ideal S5x8 .f32) (x12 : Vec Ideal S8x16 .f32) (x13 : Vec Ideal S25x8 .f32) (x14 : Vec Ideal S61x8 .f32) (x15 : Vec Ideal S61x8 .f32) (x16 : Vec Ideal S500x64 .f32) (x17 : Vec Ideal S40x16 .f32) (x18 : Vec Ideal S256x1 .f32) (x19 : Vec Ideal S1x1 .f32) (x20 : Vec Ideal S256x32 .f32) (x21 : Vec Ideal S256x128 .f32) (x22 : Vec Ideal S1x128 .f32) (x23 : Vec Ideal S128x128 .f32) (x24 : Vec Ideal S1x128 .f32) (x25 : Vec Ideal S128x128 .f32) (x26 : Vec Ideal S1x128 .f32) (x27 : Vec Ideal S128x1 .f32) (p : Fin 2048) (z : Fin 1) :
    out2_28 x0 x1 x2 x3 x4 x5 x6 x7 x8 x9 x10 x11 x12 x13 x14 x15 x16 x17 x18 x19 x20 x21 x22 x23 x24 x25 x26 x27 (ix2 p z)
      = tailOf (fun k => emb2 x0 x1 x2 x3 x4 x5 x6 x7 x8 x9 x10 x11 x12 x13 x14 x15 x16 x17 (ix2 p k)) x18 x19 x20 x21 x22 x23 x24 x25 x26 x27 := by
  rw [out2_28_eq_val2]
  unfold val2
  simp only [View.ld_unit_zero (S := S256x1) hz2, View.ld_unit_zero (S := S1x1) hz2, View.ld_unit_zero (S := S256x32) hz2, View.ld_unit_zero (S := S256x128) hz2, View.ld_unit_zero (S := S1x128) hz2, View.ld_unit_zero (S := S128x128) hz2, View.ld_unit_zero (S := S128x1) hz2]
  exact val_tail (emb2 x0 x1 x2 x3 x4 x5 x6 x7 x8 x9 x10 x11 x12 x13 x14 x15 x16 x17) x18 x19 x20 x21 x22 x23 x24 x25 x26 x27 p z

end Cert.KernelIdeal.Tc2

end
-- ==== Proof.Tc2Blocks.lean ====
import proofs.«205263_g58420145160647_cont_9to1_m_909_25_alg».proof.Proof.Tc2Dat
import Idealize.ShloMosaic.Lib.ValueIdx

/-! # The second TensorCore kernel: the input blocks read at an index

The printed index maps, decided once over the grid: the pair rows and the nine index arrays move with the point,
the tables and weights stay at block 0. A block's coordinate in its array is the block index times the block size
plus the coordinate inside the block, so each input block read at an index is its array read at an index. -/

set_option maxRecDepth 16384

noncomputable section

namespace Cert.KernelIdeal.Tc2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The grid has 8 points. -/
theorem t_lt (t : Fin cfg2.N) : t.val < 8 := lt_of_lt_of_eq t.isLt N_2

/-- Row `p` of block `t` is a row of the 16384. -/
theorem row_lt (t : Fin cfg2.N) (p : Fin 2048) : t.val * 2048 + p.val < 16384 := by
  have := t_lt t; have := p.isLt; omega

/-! ## The index maps over the grid -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 3) = t.val ∧ win2_1.index t (1 : Fin 3) = 0 ∧ win2_1.index t (2 : Fin 3) = 0 :=
  (by decide +kernel : ∀ t : Fin grid2.N, _)
theorem idx2_2 : ∀ t : Fin cfg2.N, win2_2.index t (0 : Fin 3) = t.val ∧ win2_2.index t (1 : Fin 3) = 0 ∧ win2_2.index t (2 : Fin 3) = 0 :=
  (by decide +kernel : ∀ t : Fin grid2.N, _)
theorem idx2_3 : ∀ t : Fin cfg2.N, win2_3.index t (0 : Fin 3) = t.val ∧ win2_3.index t (1 : Fin 3) = 0 ∧ win2_3.index t (2 : Fin 3) = 0 :=
  (by decide +kernel : ∀ t : Fin grid2.N, _)
theorem idx2_4 : ∀ t : Fin cfg2.N, win2_4.index t (0 : Fin 3) = t.val ∧ win2_4.index t (1 : Fin 3) = 0 ∧ win2_4.index t (2 : Fin 3) = 0 :=
  (by decide +kernel : ∀ t : Fin grid2.N, _)
theorem idx2_5 : ∀ t : Fin cfg2.N, win2_5.index t (0 : Fin 3) = t.val ∧ win2_5.index t (1 : Fin 3) = 0 ∧ win2_5.index t (2 : Fin 3) = 0 :=
  (by decide +kernel : ∀ t : Fin grid2.N, _)
theorem idx2_6 : ∀ t : Fin cfg2.N, win2_6.index t (0 : Fin 3) = t.val ∧ win2_6.index t (1 : Fin 3) = 0 ∧ win2_6.index t (2 : Fin 3) = 0 :=
  (by decide +kernel : ∀ t : Fin grid2.N, _)
theorem idx2_7 : ∀ t : Fin cfg2.N, win2_7.index t (0 : Fin 3) = t.val ∧ win2_7.index t (1 : Fin 3) = 0 ∧ win2_7.index t (2 : Fin 3) = 0 :=
  (by decide +kernel : ∀ t : Fin grid2.N, _)
theorem idx2_8 : ∀ t : Fin cfg2.N, win2_8.index t (0 : Fin 3) = t.val ∧ win2_8.index t (1 : Fin 3) = 0 ∧ win2_8.index t (2 : Fin 3) = 0 :=
  (by decide +kernel : ∀ t : Fin grid2.N, _)
theorem idx2_9 : ∀ t : Fin cfg2.N, win2_9.index t (0 : Fin 3) = t.val ∧ win2_9.index t (1 : Fin 3) = 0 ∧ win2_9.index t (2 : Fin 3) = 0 :=
  (by decide +kernel : ∀ t : Fin grid2.N, _)
theorem idx2_10 : ∀ t : Fin cfg2.N, win2_10.index t (0 : Fin 2) = 0 ∧ win2_10.index t (1 : Fin 2) = 0 :=
  (by decide +kernel : ∀ t : Fin grid2.N, _)
theorem idx2_11 : ∀ t : Fin cfg2.N, win2_11.index t (0 : Fin 2) = 0 ∧ win2_11.index t (1 : Fin 2) = 0 :=
  (by decide +kernel : ∀ t : Fin grid2.N, _)
theorem idx2_12 : ∀ t : Fin cfg2.N, win2_12.index t (0 : Fin 2) = 0 ∧ win2_12.index t (1 : Fin 2) = 0 :=
  (by decide +kernel : ∀ t : Fin grid2.N, _)
theorem idx2_13 : ∀ t : Fin cfg2.N, win2_13.index t (0 : Fin 2) = 0 ∧ win2_13.index t (1 : Fin 2) = 0 :=
  (by decide +kernel : ∀ t : Fin grid2.N, _)
theorem idx2_14 : ∀ t : Fin cfg2.N, win2_14.index t (0 : Fin 2) = 0 ∧ win2_14.index t (1 : Fin 2) = 0 :=
  (by decide +kernel : ∀ t : Fin grid2.N, _)
theorem idx2_15 : ∀ t : Fin cfg2.N, win2_15.index t (0 : Fin 2) = 0 ∧ win2_15.index t (1 : Fin 2) = 0 :=
  (by decide +kernel : ∀ t : Fin grid2.N, _)
theorem idx2_16 : ∀ t : Fin cfg2.N, win2_16.index t (0 : Fin 2) = 0 ∧ win2_16.index t (1 : Fin 2) = 0 :=
  (by decide +kernel : ∀ t : Fin grid2.N, _)
theorem idx2_17 : ∀ t : Fin cfg2.N, win2_17.index t (0 : Fin 2) = 0 ∧ win2_17.index t (1 : Fin 2) = 0 :=
  (by decide +kernel : ∀ t : Fin grid2.N, _)
theorem idx2_18 : ∀ t : Fin cfg2.N, win2_18.index t (0 : Fin 2) = 0 ∧ win2_18.index t (1 : Fin 2) = 0 :=
  (by decide +kernel : ∀ t : Fin grid2.N, _)
theorem idx2_19 : ∀ t : Fin cfg2.N, win2_19.index t (0 : Fin 2) = 0 ∧ win2_19.index t (1 : Fin 2) = 0 :=
  (by decide +kernel : ∀ t : Fin grid2.N, _)
theorem idx2_20 : ∀ t : Fin cfg2.N, win2_20.index t (0 : Fin 2) = 0 ∧ win2_20.index t (1 : Fin 2) = 0 :=
  (by decide +kernel : ∀ t : Fin grid2.N, _)
theorem idx2_21 : ∀ t : Fin cfg2.N, win2_21.index t (0 : Fin 2) = 0 ∧ win2_21.index t (1 : Fin 2) = 0 :=
  (by decide +kernel : ∀ t : Fin grid2.N, _)
theorem idx2_22 : ∀ t : Fin cfg2.N, win2_22.index t (0 : Fin 2) = 0 ∧ win2_22.index t (1 : Fin 2) = 0 :=
  (by decide +kernel : ∀ t : Fin grid2.N, _)
theorem idx2_23 : ∀ t : Fin cfg2.N, win2_23.index t (0 : Fin 2) = 0 ∧ win2_23.index t (1 : Fin 2) = 0 :=
  (by decide +kernel : ∀ t : Fin grid2.N, _)
theorem idx2_24 : ∀ t : Fin cfg2.N, win2_24.index t (0 : Fin 2) = 0 ∧ win2_24.index t (1 : Fin 2) = 0 :=
  (by decide +kernel : ∀ t : Fin grid2.N, _)
theorem idx2_25 : ∀ t : Fin cfg2.N, win2_25.index t (0 : Fin 2) = 0 ∧ win2_25.index t (1 : Fin 2) = 0 :=
  (by decide +kernel : ∀ t : Fin grid2.N, _)
theorem idx2_26 : ∀ t : Fin cfg2.N, win2_26.index t (0 : Fin 2) = 0 ∧ win2_26.index t (1 : Fin 2) = 0 :=
  (by decide +kernel : ∀ t : Fin grid2.N, _)
theorem idx2_27 : ∀ t : Fin cfg2.N, win2_27.index t (0 : Fin 2) = 0 ∧ win2_27.index t (1 : Fin 2) = 0 :=
  (by decide +kernel : ∀ t : Fin grid2.N, _)
theorem idx2_28 : ∀ t : Fin cfg2.N, win2_28.index t (0 : Fin 2) = t.val ∧ win2_28.index t (1 : Fin 2) = 0 :=
  (by decide +kernel : ∀ t : Fin grid2.N, _)

/-! ## The blocks -/

/-- Window 0's block at point `t`, row `p`: row `2048 t + p` of the pair array. -/
theorem iblk2_0_apply (c : Dev nD) (t : Fin cfg2.N) (p : Fin 2048) (j : Fin 128) :
    (iblk2 V c 0 t : S2048x128.Idx → Elt F .f32) (ix2 p j)
      = (V c main_v2 : S16384x128.Idx → Elt F .f32) (ix2 (⟨t.val * 2048 + p.val, row_lt t p⟩ : Fin 16384) j) := by
  show (V c main_v2 : S16384x128.Idx → Elt F .f32) (((cfg2.win 0).blk t).view.emb (ix2 p j)) = _
  refine congrArg _ (funext fun a => Fin.ext ?_)
  obtain ⟨e0, e1⟩ := idx2_0 t
  match a with
  | ⟨0, _⟩ => show win2_0.index t (0 : Fin 2) * 2048 + 1 * p.val = t.val * 2048 + p.val; omega
  | ⟨1, _⟩ => show win2_0.index t (1 : Fin 2) * 128 + 1 * j.val = j.val; omega

/-- Window 1's block at point `t`, entry `p`: entry `(t, 0, p)` of its array. -/
theorem iblk2_1_apply (c : Dev nD) (t : Fin cfg2.N) (p : Fin 2048) :
    (iblk2 V c 1 t : S1x1x2048.Idx → Elt F .i32) (ix3 0 0 p)
      = (V c main_v3 : S8x1x2048.Idx → Elt F .i32) (ix3 (⟨t.val, t_lt t⟩ : Fin 8) 0 p) := by
  show (V c main_v3 : S8x1x2048.Idx → Elt F .i32) (((cfg2.win 1).blk t).view.emb (ix3 0 0 p)) = _
  refine congrArg _ (funext fun a => Fin.ext ?_)
  obtain ⟨e0, e1, e2⟩ := idx2_1 t
  match a with
  | ⟨0, _⟩ => show win2_1.index t (0 : Fin 3) * 1 + 1 * 0 = t.val; omega
  | ⟨1, _⟩ => show win2_1.index t (1 : Fin 3) * 1 + 1 * 0 = 0; omega
  | ⟨2, _⟩ => show win2_1.index t (2 : Fin 3) * 2048 + 1 * p.val = p.val; omega

/-- Window 2's block at point `t`, entry `p`: entry `(t, 0, p)` of its array. -/
theorem iblk2_2_apply (c : Dev nD) (t : Fin cfg2.N) (p : Fin 2048) :
    (iblk2 V c 2 t : S1x1x2048.Idx → Elt F .i32) (ix3 0 0 p)
      = (V c main_v4 : S8x1x2048.Idx → Elt F .i32) (ix3 (⟨t.val, t_lt t⟩ : Fin 8) 0 p) := by
  show (V c main_v4 : S8x1x2048.Idx → Elt F .i32) (((cfg2.win 2).blk t).view.emb (ix3 0 0 p)) = _
  refine congrArg _ (funext fun a => Fin.ext ?_)
  obtain ⟨e0, e1, e2⟩ := idx2_2 t
  match a with
  | ⟨0, _⟩ => show win2_2.index t (0 : Fin 3) * 1 + 1 * 0 = t.val; omega
  | ⟨1, _⟩ => show win2_2.index t (1 : Fin 3) * 1 + 1 * 0 = 0; omega
  | ⟨2, _⟩ => show win2_2.index t (2 : Fin 3) * 2048 + 1 * p.val = p.val; omega

/-- Window 3's block at point `t`, entry `p`: entry `(t, 0, p)` of its array. -/
theorem iblk2_3_apply (c : Dev nD) (t : Fin cfg2.N) (p : Fin 2048) :
    (iblk2 V c 3 t : S1x1x2048.Idx → Elt F .i32) (ix3 0 0 p)
      = (V c main_v5 : S8x1x2048.Idx → Elt F .i32) (ix3 (⟨t.val, t_lt t⟩ : Fin 8) 0 p) := by
  show (V c main_v5 : S8x1x2048.Idx → Elt F .i32) (((cfg2.win 3).blk t).view.emb (ix3 0 0 p)) = _
  refine congrArg _ (funext fun a => Fin.ext ?_)
  obtain ⟨e0, e1, e2⟩ := idx2_3 t
  match a with
  | ⟨0, _⟩ => show win2_3.index t (0 : Fin 3) * 1 + 1 * 0 = t.val; omega
  | ⟨1, _⟩ => show win2_3.index t (1 : Fin 3) * 1 + 1 * 0 = 0; omega
  | ⟨2, _⟩ => show win2_3.index t (2 : Fin 3) * 2048 + 1 * p.val = p.val; omega

/-- Window 4's block at point `t`, entry `p`: entry `(t, 0, p)` of its array. -/
theorem iblk2_4_apply (c : Dev nD) (t : Fin cfg2.N) (p : Fin 2048) :
    (iblk2 V c 4 t : S1x1x2048.Idx → Elt F .i32) (ix3 0 0 p)
      = (V c main_v6 : S8x1x2048.Idx → Elt F .i32) (ix3 (⟨t.val, t_lt t⟩ : Fin 8) 0 p) := by
  show (V c main_v6 : S8x1x2048.Idx → Elt F .i32) (((cfg2.win 4).blk t).view.emb (ix3 0 0 p)) = _
  refine congrArg _ (funext fun a => Fin.ext ?_)
  obtain ⟨e0, e1, e2⟩ := idx2_4 t
  match a with
  | ⟨0, _⟩ => show win2_4.index t (0 : Fin 3) * 1 + 1 * 0 = t.val; omega
  | ⟨1, _⟩ => show win2_4.index t (1 : Fin 3) * 1 + 1 * 0 = 0; omega
  | ⟨2, _⟩ => show win2_4.index t (2 : Fin 3) * 2048 + 1 * p.val = p.val; omega

/-- Window 5's block at point `t`, entry `p`: entry `(t, 0, p)` of its array. -/
theorem iblk2_5_apply (c : Dev nD) (t : Fin cfg2.N) (p : Fin 2048) :
    (iblk2 V c 5 t : S1x1x2048.Idx → Elt F .i32) (ix3 0 0 p)
      = (V c main_v7 : S8x1x2048.Idx → Elt F .i32) (ix3 (⟨t.val, t_lt t⟩ : Fin 8) 0 p) := by
  show (V c main_v7 : S8x1x2048.Idx → Elt F .i32) (((cfg2.win 5).blk t).view.emb (ix3 0 0 p)) = _
  refine congrArg _ (funext fun a => Fin.ext ?_)
  obtain ⟨e0, e1, e2⟩ := idx2_5 t
  match a with
  | ⟨0, _⟩ => show win2_5.index t (0 : Fin 3) * 1 + 1 * 0 = t.val; omega
  | ⟨1, _⟩ => show win2_5.index t (1 : Fin 3) * 1 + 1 * 0 = 0; omega
  | ⟨2, _⟩ => show win2_5.index t (2 : Fin 3) * 2048 + 1 * p.val = p.val; omega

/-- Window 6's block at point `t`, entry `p`: entry `(t, 0, p)` of its array. -/
theorem iblk2_6_apply (c : Dev nD) (t : Fin cfg2.N) (p : Fin 2048) :
    (iblk2 V c 6 t : S1x1x2048.Idx → Elt F .i32) (ix3 0 0 p)
      = (V c main_v8 : S8x1x2048.Idx → Elt F .i32) (ix3 (⟨t.val, t_lt t⟩ : Fin 8) 0 p) := by
  show (V c main_v8 : S8x1x2048.Idx → Elt F .i32) (((cfg2.win 6).blk t).view.emb (ix3 0 0 p)) = _
  refine congrArg _ (funext fun a => Fin.ext ?_)
  obtain ⟨e0, e1, e2⟩ := idx2_6 t
  match a with
  | ⟨0, _⟩ => show win2_6.index t (0 : Fin 3) * 1 + 1 * 0 = t.val; omega
  | ⟨1, _⟩ => show win2_6.index t (1 : Fin 3) * 1 + 1 * 0 = 0; omega
  | ⟨2, _⟩ => show win2_6.index t (2 : Fin 3) * 2048 + 1 * p.val = p.val; omega

/-- Window 7's block at point `t`, entry `p`: entry `(t, 0, p)` of its array. -/
theorem iblk2_7_apply (c : Dev nD) (t : Fin cfg2.N) (p : Fin 2048) :
    (iblk2 V c 7 t : S1x1x2048.Idx → Elt F .i32) (ix3 0 0 p)
      = (V c main_v9 : S8x1x2048.Idx → Elt F .i32) (ix3 (⟨t.val, t_lt t⟩ : Fin 8) 0 p) := by
  show (V c main_v9 : S8x1x2048.Idx → Elt F .i32) (((cfg2.win 7).blk t).view.emb (ix3 0 0 p)) = _
  refine congrArg _ (funext fun a => Fin.ext ?_)
  obtain ⟨e0, e1, e2⟩ := idx2_7 t
  match a with
  | ⟨0, _⟩ => show win2_7.index t (0 : Fin 3) * 1 + 1 * 0 = t.val; omega
  | ⟨1, _⟩ => show win2_7.index t (1 : Fin 3) * 1 + 1 * 0 = 0; omega
  | ⟨2, _⟩ => show win2_7.index t (2 : Fin 3) * 2048 + 1 * p.val = p.val; omega

/-- Window 8's block at point `t`, entry `p`: entry `(t, 0, p)` of its array. -/
theorem iblk2_8_apply (c : Dev nD) (t : Fin cfg2.N) (p : Fin 2048) :
    (iblk2 V c 8 t : S1x1x2048.Idx → Elt F .i32) (ix3 0 0 p)
      = (V c main_v10 : S8x1x2048.Idx → Elt F .i32) (ix3 (⟨t.val, t_lt t⟩ : Fin 8) 0 p) := by
  show (V c main_v10 : S8x1x2048.Idx → Elt F .i32) (((cfg2.win 8).blk t).view.emb (ix3 0 0 p)) = _
  refine congrArg _ (funext fun a => Fin.ext ?_)
  obtain ⟨e0, e1, e2⟩ := idx2_8 t
  match a with
  | ⟨0, _⟩ => show win2_8.index t (0 : Fin 3) * 1 + 1 * 0 = t.val; omega
  | ⟨1, _⟩ => show win2_8.index t (1 : Fin 3) * 1 + 1 * 0 = 0; omega
  | ⟨2, _⟩ => show win2_8.index t (2 : Fin 3) * 2048 + 1 * p.val = p.val; omega

/-- Window 9's block at point `t`, entry `p`: entry `(t, 0, p)` of its array. -/
theorem iblk2_9_apply (c : Dev nD) (t : Fin cfg2.N) (p : Fin 2048) :
    (iblk2 V c 9 t : S1x1x2048.Idx → Elt F .i32) (ix3 0 0 p)
      = (V c main_v11 : S8x1x2048.Idx → Elt F .i32) (ix3 (⟨t.val, t_lt t⟩ : Fin 8) 0 p) := by
  show (V c main_v11 : S8x1x2048.Idx → Elt F .i32) (((cfg2.win 9).blk t).view.emb (ix3 0 0 p)) = _
  refine congrArg _ (funext fun a => Fin.ext ?_)
  obtain ⟨e0, e1, e2⟩ := idx2_9 t
  match a with
  | ⟨0, _⟩ => show win2_9.index t (0 : Fin 3) * 1 + 1 * 0 = t.val; omega
  | ⟨1, _⟩ => show win2_9.index t (1 : Fin 3) * 1 + 1 * 0 = 0; omega
  | ⟨2, _⟩ => show win2_9.index t (2 : Fin 3) * 2048 + 1 * p.val = p.val; omega

/-- Window 10's block at every point is its whole array. -/
theorem iblk2_10_eq (c : Dev nD) (t : Fin cfg2.N) :
    (iblk2 V c 10 t : S100x64.Idx → Elt F .f32) = (V c main_arg10 : S100x64.Idx → Elt F .f32) := by
  funext y
  show (V c main_arg10 : S100x64.Idx → Elt F .f32) (((cfg2.win 10).blk t).view.emb y) = _
  refine congrArg _ (funext fun a => Fin.ext ?_)
  obtain ⟨e0, e1⟩ := idx2_10 t
  match a with
  | ⟨0, _⟩ => show win2_10.index t (0 : Fin 2) * 100 + 1 * (y 0).val = (y 0).val; omega
  | ⟨1, _⟩ => show win2_10.index t (1 : Fin 2) * 64 + 1 * (y 1).val = (y 1).val; omega

/-- Window 11's block at every point is its whole array. -/
theorem iblk2_11_eq (c : Dev nD) (t : Fin cfg2.N) :
    (iblk2 V c 11 t : S5x8.Idx → Elt F .f32) = (V c main_arg11 : S5x8.Idx → Elt F .f32) := by
  funext y
  show (V c main_arg11 : S5x8.Idx → Elt F .f32) (((cfg2.win 11).blk t).view.emb y) = _
  refine congrArg _ (funext fun a => Fin.ext ?_)
  obtain ⟨e0, e1⟩ := idx2_11 t
  match a with
  | ⟨0, _⟩ => show win2_11.index t (0 : Fin 2) * 5 + 1 * (y 0).val = (y 0).val; omega
  | ⟨1, _⟩ => show win2_11.index t (1 : Fin 2) * 8 + 1 * (y 1).val = (y 1).val; omega

/-- Window 12's block at every point is its whole array. -/
theorem iblk2_12_eq (c : Dev nD) (t : Fin cfg2.N) :
    (iblk2 V c 12 t : S8x16.Idx → Elt F .f32) = (V c main_arg12 : S8x16.Idx → Elt F .f32) := by
  funext y
  show (V c main_arg12 : S8x16.Idx → Elt F .f32) (((cfg2.win 12).blk t).view.emb y) = _
  refine congrArg _ (funext fun a => Fin.ext ?_)
  obtain ⟨e0, e1⟩ := idx2_12 t
  match a with
  | ⟨0, _⟩ => show win2_12.index t (0 : Fin 2) * 8 + 1 * (y 0).val = (y 0).val; omega
  | ⟨1, _⟩ => show win2_12.index t (1 : Fin 2) * 16 + 1 * (y 1).val = (y 1).val; omega

/-- Window 13's block at every point is its whole array. -/
theorem iblk2_13_eq (c : Dev nD) (t : Fin cfg2.N) :
    (iblk2 V c 13 t : S25x8.Idx → Elt F .f32) = (V c main_arg13 : S25x8.Idx → Elt F .f32) := by
  funext y
  show (V c main_arg13 : S25x8.Idx → Elt F .f32) (((cfg2.win 13).blk t).view.emb y) = _
  refine congrArg _ (funext fun a => Fin.ext ?_)
  obtain ⟨e0, e1⟩ := idx2_13 t
  match a with
  | ⟨0, _⟩ => show win2_13.index t (0 : Fin 2) * 25 + 1 * (y 0).val = (y 0).val; omega
  | ⟨1, _⟩ => show win2_13.index t (1 : Fin 2) * 8 + 1 * (y 1).val = (y 1).val; omega

/-- Window 14's block at every point is its whole array. -/
theorem iblk2_14_eq (c : Dev nD) (t : Fin cfg2.N) :
    (iblk2 V c 14 t : S61x8.Idx → Elt F .f32) = (V c main_arg14 : S61x8.Idx → Elt F .f32) := by
  funext y
  show (V c main_arg14 : S61x8.Idx → Elt F .f32) (((cfg2.win 14).blk t).view.emb y) = _
  refine congrArg _ (funext fun a => Fin.ext ?_)
  obtain ⟨e0, e1⟩ := idx2_14 t
  match a with
  | ⟨0, _⟩ => show win2_14.index t (0 : Fin 2) * 61 + 1 * (y 0).val = (y 0).val; omega
  | ⟨1, _⟩ => show win2_14.index t (1 : Fin 2) * 8 + 1 * (y 1).val = (y 1).val; omega

/-- Window 15's block at every point is its whole array. -/
theorem iblk2_15_eq (c : Dev nD) (t : Fin cfg2.N) :
    (iblk2 V c 15 t : S61x8.Idx → Elt F .f32) = (V c main_arg15 : S61x8.Idx → Elt F .f32) := by
  funext y
  show (V c main_arg15 : S61x8.Idx → Elt F .f32) (((cfg2.win 15).blk t).view.emb y) = _
  refine congrArg _ (funext fun a => Fin.ext ?_)
  obtain ⟨e0, e1⟩ := idx2_15 t
  match a with
  | ⟨0, _⟩ => show win2_15.index t (0 : Fin 2) * 61 + 1 * (y 0).val = (y 0).val; omega
  | ⟨1, _⟩ => show win2_15.index t (1 : Fin 2) * 8 + 1 * (y 1).val = (y 1).val; omega

/-- Window 16's block at every point is its whole array. -/
theorem iblk2_16_eq (c : Dev nD) (t : Fin cfg2.N) :
    (iblk2 V c 16 t : S500x64.Idx → Elt F .f32) = (V c main_arg16 : S500x64.Idx → Elt F .f32) := by
  funext y
  show (V c main_arg16 : S500x64.Idx → Elt F .f32) (((cfg2.win 16).blk t).view.emb y) = _
  refine congrArg _ (funext fun a => Fin.ext ?_)
  obtain ⟨e0, e1⟩ := idx2_16 t
  match a with
  | ⟨0, _⟩ => show win2_16.index t (0 : Fin 2) * 500 + 1 * (y 0).val = (y 0).val; omega
  | ⟨1, _⟩ => show win2_16.index t (1 : Fin 2) * 64 + 1 * (y 1).val = (y 1).val; omega

/-- Window 17's block at every point is its whole array. -/
theorem iblk2_17_eq (c : Dev nD) (t : Fin cfg2.N) :
    (iblk2 V c 17 t : S40x16.Idx → Elt F .f32) = (V c main_arg17 : S40x16.Idx → Elt F .f32) := by
  funext y
  show (V c main_arg17 : S40x16.Idx → Elt F .f32) (((cfg2.win 17).blk t).view.emb y) = _
  refine congrArg _ (funext fun a => Fin.ext ?_)
  obtain ⟨e0, e1⟩ := idx2_17 t
  match a with
  | ⟨0, _⟩ => show win2_17.index t (0 : Fin 2) * 40 + 1 * (y 0).val = (y 0).val; omega
  | ⟨1, _⟩ => show win2_17.index t (1 : Fin 2) * 16 + 1 * (y 1).val = (y 1).val; omega

/-- Window 18's block at every point is its whole array. -/
theorem iblk2_18_eq (c : Dev nD) (t : Fin cfg2.N) :
    (iblk2 V c 18 t : S256x1.Idx → Elt F .f32) = (V c main_arg18 : S256x1.Idx → Elt F .f32) := by
  funext y
  show (V c main_arg18 : S256x1.Idx → Elt F .f32) (((cfg2.win 18).blk t).view.emb y) = _
  refine congrArg _ (funext fun a => Fin.ext ?_)
  obtain ⟨e0, e1⟩ := idx2_18 t
  match a with
  | ⟨0, _⟩ => show win2_18.index t (0 : Fin 2) * 256 + 1 * (y 0).val = (y 0).val; omega
  | ⟨1, _⟩ => show win2_18.index t (1 : Fin 2) * 1 + 1 * (y 1).val = (y 1).val; omega

/-- Window 19's block at every point is its whole array. -/
theorem iblk2_19_eq (c : Dev nD) (t : Fin cfg2.N) :
    (iblk2 V c 19 t : S1x1.Idx → Elt F .f32) = (V c main_v12 : S1x1.Idx → Elt F .f32) := by
  funext y
  show (V c main_v12 : S1x1.Idx → Elt F .f32) (((cfg2.win 19).blk t).view.emb y) = _
  refine congrArg _ (funext fun a => Fin.ext ?_)
  obtain ⟨e0, e1⟩ := idx2_19 t
  match a with
  | ⟨0, _⟩ => show win2_19.index t (0 : Fin 2) * 1 + 1 * (y 0).val = (y 0).val; omega
  | ⟨1, _⟩ => show win2_19.index t (1 : Fin 2) * 1 + 1 * (y 1).val = (y 1).val; omega

/-- Window 20's block at every point is its whole array. -/
theorem iblk2_20_eq (c : Dev nD) (t : Fin cfg2.N) :
    (iblk2 V c 20 t : S256x32.Idx → Elt F .f32) = (V c main_arg20 : S256x32.Idx → Elt F .f32) := by
  funext y
  show (V c main_arg20 : S256x32.Idx → Elt F .f32) (((cfg2.win 20).blk t).view.emb y) = _
  refine congrArg _ (funext fun a => Fin.ext ?_)
  obtain ⟨e0, e1⟩ := idx2_20 t
  match a with
  | ⟨0, _⟩ => show win2_20.index t (0 : Fin 2) * 256 + 1 * (y 0).val = (y 0).val; omega
  | ⟨1, _⟩ => show win2_20.index t (1 : Fin 2) * 32 + 1 * (y 1).val = (y 1).val; omega

/-- Window 21's block at every point is its whole array. -/
theorem iblk2_21_eq (c : Dev nD) (t : Fin cfg2.N) :
    (iblk2 V c 21 t : S256x128.Idx → Elt F .f32) = (V c main_arg21 : S256x128.Idx → Elt F .f32) := by
  funext y
  show (V c main_arg21 : S256x128.Idx → Elt F .f32) (((cfg2.win 21).blk t).view.emb y) = _
  refine congrArg _ (funext fun a => Fin.ext ?_)
  obtain ⟨e0, e1⟩ := idx2_21 t
  match a with
  | ⟨0, _⟩ => show win2_21.index t (0 : Fin 2) * 256 + 1 * (y 0).val = (y 0).val; omega
  | ⟨1, _⟩ => show win2_21.index t (1 : Fin 2) * 128 + 1 * (y 1).val = (y 1).val; omega

/-- Window 22's block at every point is its whole array. -/
theorem iblk2_22_eq (c : Dev nD) (t : Fin cfg2.N) :
    (iblk2 V c 22 t : S1x128.Idx → Elt F .f32) = (V c main_v13 : S1x128.Idx → Elt F .f32) := by
  funext y
  show (V c main_v13 : S1x128.Idx → Elt F .f32) (((cfg2.win 22).blk t).view.emb y) = _
  refine congrArg _ (funext fun a => Fin.ext ?_)
  obtain ⟨e0, e1⟩ := idx2_22 t
  match a with
  | ⟨0, _⟩ => show win2_22.index t (0 : Fin 2) * 1 + 1 * (y 0).val = (y 0).val; omega
  | ⟨1, _⟩ => show win2_22.index t (1 : Fin 2) * 128 + 1 * (y 1).val = (y 1).val; omega

/-- Window 23's block at every point is its whole array. -/
theorem iblk2_23_eq (c : Dev nD) (t : Fin cfg2.N) :
    (iblk2 V c 23 t : S128x128.Idx → Elt F .f32) = (V c main_arg23 : S128x128.Idx → Elt F .f32) := by
  funext y
  show (V c main_arg23 : S128x128.Idx → Elt F .f32) (((cfg2.win 23).blk t).view.emb y) = _
  refine congrArg _ (funext fun a => Fin.ext ?_)
  obtain ⟨e0, e1⟩ := idx2_23 t
  match a with
  | ⟨0, _⟩ => show win2_23.index t (0 : Fin 2) * 128 + 1 * (y 0).val = (y 0).val; omega
  | ⟨1, _⟩ => show win2_23.index t (1 : Fin 2) * 128 + 1 * (y 1).val = (y 1).val; omega

/-- Window 24's block at every point is its whole array. -/
theorem iblk2_24_eq (c : Dev nD) (t : Fin cfg2.N) :
    (iblk2 V c 24 t : S1x128.Idx → Elt F .f32) = (V c main_v14 : S1x128.Idx → Elt F .f32) := by
  funext y
  show (V c main_v14 : S1x128.Idx → Elt F .f32) (((cfg2.win 24).blk t).view.emb y) = _
  refine congrArg _ (funext fun a => Fin.ext ?_)
  obtain ⟨e0, e1⟩ := idx2_24 t
  match a with
  | ⟨0, _⟩ => show win2_24.index t (0 : Fin 2) * 1 + 1 * (y 0).val = (y 0).val; omega
  | ⟨1, _⟩ => show win2_24.index t (1 : Fin 2) * 128 + 1 * (y 1).val = (y 1).val; omega

/-- Window 25's block at every point is its whole array. -/
theorem iblk2_25_eq (c : Dev nD) (t : Fin cfg2.N) :
    (iblk2 V c 25 t : S128x128.Idx → Elt F .f32) = (V c main_arg25 : S128x128.Idx → Elt F .f32) := by
  funext y
  show (V c main_arg25 : S128x128.Idx → Elt F .f32) (((cfg2.win 25).blk t).view.emb y) = _
  refine congrArg _ (funext fun a => Fin.ext ?_)
  obtain ⟨e0, e1⟩ := idx2_25 t
  match a with
  | ⟨0, _⟩ => show win2_25.index t (0 : Fin 2) * 128 + 1 * (y 0).val = (y 0).val; omega
  | ⟨1, _⟩ => show win2_25.index t (1 : Fin 2) * 128 + 1 * (y 1).val = (y 1).val; omega

/-- Window 26's block at every point is its whole array. -/
theorem iblk2_26_eq (c : Dev nD) (t : Fin cfg2.N) :
    (iblk2 V c 26 t : S1x128.Idx → Elt F .f32) = (V c main_v15 : S1x128.Idx → Elt F .f32) := by
  funext y
  show (V c main_v15 : S1x128.Idx → Elt F .f32) (((cfg2.win 26).blk t).view.emb y) = _
  refine congrArg _ (funext fun a => Fin.ext ?_)
  obtain ⟨e0, e1⟩ := idx2_26 t
  match a with
  | ⟨0, _⟩ => show win2_26.index t (0 : Fin 2) * 1 + 1 * (y 0).val = (y 0).val; omega
  | ⟨1, _⟩ => show win2_26.index t (1 : Fin 2) * 128 + 1 * (y 1).val = (y 1).val; omega

/-- Window 27's block at every point is its whole array. -/
theorem iblk2_27_eq (c : Dev nD) (t : Fin cfg2.N) :
    (iblk2 V c 27 t : S128x1.Idx → Elt F .f32) = (V c main_arg27 : S128x1.Idx → Elt F .f32) := by
  funext y
  show (V c main_arg27 : S128x1.Idx → Elt F .f32) (((cfg2.win 27).blk t).view.emb y) = _
  refine congrArg _ (funext fun a => Fin.ext ?_)
  obtain ⟨e0, e1⟩ := idx2_27 t
  match a with
  | ⟨0, _⟩ => show win2_27.index t (0 : Fin 2) * 128 + 1 * (y 0).val = (y 0).val; omega
  | ⟨1, _⟩ => show win2_27.index t (1 : Fin 2) * 1 + 1 * (y 1).val = (y 1).val; omega

end Cert.KernelIdeal.Tc2

end
-- ==== Proof.Tc2Final.lean ====
import proofs.«205263_g58420145160647_cont_9to1_m_909_25_alg».proof.Proof.Tc2Blocks
import Idealize.ShloMosaic.Lib.Pipeline.Value

/-! # The second TensorCore kernel: the arrays after the pipeline, in closed form

Point `t` writes back rows `2048 t … 2048 t + 2047` of the result array, and the eight points cover it: so after the
pipeline row `r` of the result array is row `r % 2048` of what the body stored at point `r / 2048`. The input
windows' arrays are never written back. -/

set_option maxRecDepth 16384

noncomputable section

namespace Cert.KernelIdeal.Tc2

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)

variable {F : FTy → Type} [FloatOps F]
variable {Ix : Type} [DecidableEq Ix] {U : Type} [URA U]

local notation "𝕄" => MT nD τ sig Ix (Elt F) ℕ U ℕ

variable (V : (c : Dev nD) → (b : Ref sig .tc) → Buf (Elt F) ((c : Thread nD τ).loc b))

/-- What the body stores at point `t`, from the input blocks there. -/
noncomputable def outAt (c : Dev nD) (t : Fin cfg2.N) : S2048x1.Idx → Elt F .f32 :=
  out2_28 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t)

/-- The point whose block holds row `i 0` of the result array. -/
def pt (i : S16384x1.Idx) : Fin cfg2.N :=
  ⟨(i 0).val / 2048, lt_of_lt_of_eq (by have := idx2_lt0 i; omega : (i 0).val / 2048 < 8) N_2.symm⟩

/-- The place of row `i 0` inside that block. -/
def inBlk (i : S16384x1.Idx) : S2048x1.Idx :=
  ix2 (⟨(i 0).val % 2048, Nat.mod_lt _ (by decide)⟩ : Fin 2048) (⟨(i 1).val, idx2_lt1 i⟩ : Fin 1)

/-- The result array in closed form. -/
noncomputable def G28 (c : Dev nD) : S16384x1.Idx → Elt F .f32 := fun i => outAt V c (pt i) (inBlk i)

variable (O : CellTallies nD τ sig Ix) (Rc : Set (SemLoc sig × Ix))

/-- The result window's blocks are not cut: what is written back is all of what the body left. -/
theorem cut28 (t : Fin cfg2.N) (X : (cfg2.win 28).block.Idx → Elt F (cfg2.win 28).elt) :
    (cfg2.win 28).cut (grid2.coords t) X = X := rfl

/-- What the body leaves in the result window's buffer at point `t`. -/
theorem after2_28_outAt (Φ₀ : sProp 𝕄) (c : Dev nD) (t : Fin cfg2.N) : (dats2 V O Rc Φ₀ c).after 28 t = outAt V c t :=
  after2_28 V O Rc Φ₀ c t

/-- A block of the result array read back: the array at the block's indices. -/
theorem read_blk28 (t : Fin cfg2.N) (G : S16384x1.Idx → Elt F .f32) (j : S2048x1.Idx) :
    ((cfg2.win 28).blk t).view.read (Elt F) G j = G (((cfg2.win 28).blk t).view.emb j) := rfl

/-- The block of point `t` sits at rows `2048 t …`: its index `j` is row `2048 t + j 0` of the array. -/
theorem emb28_val (t : Fin cfg2.N) (j : S2048x1.Idx) :
    ((((cfg2.win 28).blk t).view.emb j) 0).val = t.val * 2048 + (j 0).val
      ∧ ((((cfg2.win 28).blk t).view.emb j) 1).val = (j 1).val := by
  obtain ⟨e0, e1⟩ := idx2_28 t
  constructor
  · show win2_28.index t (0 : Fin 2) * 2048 + 1 * (j 0).val = _; omega
  · show win2_28.index t (1 : Fin 2) * 1 + 1 * (j 1).val = _; omega

/-- `G28` at an index of point `t`'s block is what the body stored at point `t`, there. -/
theorem G28_emb (c : Dev nD) (t : Fin cfg2.N) (j : S2048x1.Idx) :
    G28 V c (((cfg2.win 28).blk t).view.emb j) = outAt V c t j := by
  obtain ⟨h0, h1⟩ := emb28_val t j
  have hj0 : (j 0).val < 2048 := idx2_lt0 j
  have hpt : pt (((cfg2.win 28).blk t).view.emb j) = t := by
    apply Fin.ext
    show ((((cfg2.win 28).blk t).view.emb j) 0).val / 2048 = t.val
    rw [h0]; omega
  have hin : inBlk (((cfg2.win 28).blk t).view.emb j) = j := by
    funext a; apply Fin.ext
    match a with
    | ⟨0, _⟩ =>
      show ((((cfg2.win 28).blk t).view.emb j) 0).val % 2048 = (j 0).val
      rw [h0]; omega
    | ⟨1, _⟩ => exact h1
  unfold G28
  rw [hpt, hin]

/-- What point `t` writes back is block `t` of `G28`. -/
theorem flushed28_eq (Φ₀ : sProp 𝕄) (c : Dev nD) (t : Fin cfg2.N) :
    (dats2 V O Rc Φ₀ c).flushed 28 t = ((cfg2.win 28).blk t).view.read (Elt F) (G28 V c) := by
  show (cfg2.win 28).cut (grid2.coords t) ((dats2 V O Rc Φ₀ c).after 28 t) = _
  rw [after2_28_outAt, cut28]
  funext j
  rw [read_blk28, G28_emb]

/-- An index of the result array is in point `t`'s block iff each coordinate is in the block's range on its axis. -/
theorem mem_blk28 (t : Fin cfg2.N) (i : S16384x1.Idx) :
    i ∈ ((cfg2.win 28).blk t).view.set ↔ ∀ a : Fin 2, win2_28.index t a * S2048x1.size a ≤ (i a).val ∧ (i a).val < win2_28.index t a * S2048x1.size a + S2048x1.size a := by
  show i ∈ ((View.whole main_v16).slice (win2_28.rect t)).set ↔ _
  rw [View.set_slice_whole, Rect.mem_set_unit]
  exact Iff.rfl

/-- Every row of the result array is in the block of the point `row / 2048`, which writes it back. -/
theorem cover28 (i : S16384x1.Idx) : ∃ t : Fin cfg2.N, (cfg2.win 28).flush t = true ∧ i ∈ ((cfg2.win 28).blk t).view.set := by
  refine ⟨pt i, flush2_28 (pt i), ?_⟩
  rw [mem_blk28]
  obtain ⟨e0, e1⟩ := idx2_28 (pt i)
  have hi0 : (i 0).val < 16384 := idx2_lt0 i
  have hi1 : (i 1).val < 1 := idx2_lt1 i
  have hp : (pt i).val = (i 0).val / 2048 := rfl
  intro a
  match a with
  | ⟨0, _⟩ =>
    show win2_28.index (pt i) (0 : Fin 2) * 2048 ≤ (i 0).val ∧ (i 0).val < win2_28.index (pt i) (0 : Fin 2) * 2048 + 2048
    omega
  | ⟨1, _⟩ =>
    show win2_28.index (pt i) (1 : Fin 2) * 1 ≤ (i 1).val ∧ (i 1).val < win2_28.index (pt i) (1 : Fin 2) * 1 + 1
    omega

/-- THE RESULT ARRAY after the pipeline. -/
theorem final28 (Φ₀ : sProp 𝕄) (c : Dev nD) : (dats2 V O Rc Φ₀ c).arrAt 28 cfg2.N = G28 V c :=
  (dats2 V O Rc Φ₀ c).arrAt_eq_of_cover 28 (G28 V c) (fun t _ => flushed28_eq V O Rc Φ₀ c t) cover28

/-- THE INPUT ARRAYS after the pipeline: as the region found them. -/
theorem arrAt_in2 (Φ₀ : sProp 𝕄) (c : Dev nD) (w : Fin cfg2.W) (hw : w.val < 28) :
    (dats2 V O Rc Φ₀ c).arrAt w cfg2.N = V c (Pipeline.arrRef spec2 w) := by
  have hin : (cfg2.win w).isOut = false := by
    obtain ⟨n, hn⟩ := w
    have hw' : n < 28 := hw
    interval_cases n <;> rfl
  exact ((dats2 V O Rc Φ₀ c).arrAt_in w hin cfg2.N).trans (A_eq2 V O Rc Φ₀ c w)

end Cert.KernelIdeal.Tc2

end
-- ==== Proof.Tc2Spec.lean ====
import proofs.«205263_g58420145160647_cont_9to1_m_909_25_alg».proof.Proof.Tc2Math

/-! # The embedding row by column range, and the value computed from a row

`embRow` lays nine pieces end to end into one 256-wide row (64, 64, 8, 16, 8, 8, 8, 64, 16 columns);
`tailRow` is the value computed from such a row: the linear term, the cross term, three dense layers with a
rectifier and the last product, summed and passed through the logistic function. -/

noncomputable section

open scoped BigOperators

namespace Cert.Tc2Math

open Idealize.ShloMosaic Idealize.ShloMosaic.ValueIdx

/-- The 256-wide row from its nine pieces. -/
def embRow (u : Fin 64 → EReal) (r1 : Fin 64 → EReal) (r2 : Fin 8 → EReal) (r3 : Fin 16 → EReal) (r4 r5 r6 : Fin 8 → EReal) (r7 : Fin 64 → EReal) (r8 : Fin 16 → EReal) : Fin 256 → EReal := fun c =>
  if h0 : c.val < 64 then u ⟨c.val - 0, by omega⟩
  else if h1 : c.val < 128 then r1 ⟨c.val - 64, by omega⟩
  else if h2 : c.val < 136 then r2 ⟨c.val - 128, by omega⟩
  else if h3 : c.val < 152 then r3 ⟨c.val - 136, by omega⟩
  else if h4 : c.val < 160 then r4 ⟨c.val - 152, by omega⟩
  else if h5 : c.val < 168 then r5 ⟨c.val - 160, by omega⟩
  else if h6 : c.val < 176 then r6 ⟨c.val - 168, by omega⟩
  else if h7 : c.val < 240 then r7 ⟨c.val - 176, by omega⟩
  else r8 ⟨c.val - 240, by omega⟩

/-- Columns 0 … 63 of the row are piece 0. -/
theorem embRow_0 (u : Fin 64 → EReal) (r1 : Fin 64 → EReal) (r2 : Fin 8 → EReal) (r3 : Fin 16 → EReal) (r4 r5 r6 : Fin 8 → EReal) (r7 : Fin 64 → EReal) (r8 : Fin 16 → EReal) (c : Fin 256) (j : Fin 64) (hc : c.val = 0 + j.val) :
    embRow u r1 r2 r3 r4 r5 r6 r7 r8 c = u j := by
  have hj := j.isLt
  unfold embRow
  rw [dif_pos (show c.val < 64 by omega)]
  exact congrArg u (Fin.ext (by show c.val - 0 = j.val; omega))

/-- Columns 64 … 127 of the row are piece 1. -/
theorem embRow_1 (u : Fin 64 → EReal) (r1 : Fin 64 → EReal) (r2 : Fin 8 → EReal) (r3 : Fin 16 → EReal) (r4 r5 r6 : Fin 8 → EReal) (r7 : Fin 64 → EReal) (r8 : Fin 16 → EReal) (c : Fin 256) (j : Fin 64) (hc : c.val = 64 + j.val) :
    embRow u r1 r2 r3 r4 r5 r6 r7 r8 c = r1 j := by
  have hj := j.isLt
  unfold embRow
  rw [dif_neg (show ¬ c.val < 64 by omega), dif_pos (show c.val < 128 by omega)]
  exact congrArg r1 (Fin.ext (by show c.val - 64 = j.val; omega))

/-- Columns 128 … 135 of the row are piece 2. -/
theorem embRow_2 (u : Fin 64 → EReal) (r1 : Fin 64 → EReal) (r2 : Fin 8 → EReal) (r3 : Fin 16 → EReal) (r4 r5 r6 : Fin 8 → EReal) (r7 : Fin 64 → EReal) (r8 : Fin 16 → EReal) (c : Fin 256) (j : Fin 8) (hc : c.val = 128 + j.val) :
    embRow u r1 r2 r3 r4 r5 r6 r7 r8 c = r2 j := by
  have hj := j.isLt
  unfold embRow
  rw [dif_neg (show ¬ c.val < 64 by omega), dif_neg (show ¬ c.val < 128 by omega), dif_pos (show c.val < 136 by omega)]
  exact congrArg r2 (Fin.ext (by show c.val - 128 = j.val; omega))

/-- Columns 136 … 151 of the row are piece 3. -/
theorem embRow_3 (u : Fin 64 → EReal) (r1 : Fin 64 → EReal) (r2 : Fin 8 → EReal) (r3 : Fin 16 → EReal) (r4 r5 r6 : Fin 8 → EReal) (r7 : Fin 64 → EReal) (r8 : Fin 16 → EReal) (c : Fin 256) (j : Fin 16) (hc : c.val = 136 + j.val) :
    embRow u r1 r2 r3 r4 r5 r6 r7 r8 c = r3 j := by
  have hj := j.isLt
  unfold embRow
  rw [dif_neg (show ¬ c.val < 64 by omega), dif_neg (show ¬ c.val < 128 by omega), dif_neg (show ¬ c.val < 136 by omega), dif_pos (show c.val < 152 by omega)]
  exact congrArg r3 (Fin.ext (by show c.val - 136 = j.val; omega))

/-- Columns 152 … 159 of the row are piece 4. -/
theorem embRow_4 (u : Fin 64 → EReal) (r1 : Fin 64 → EReal) (r2 : Fin 8 → EReal) (r3 : Fin 16 → EReal) (r4 r5 r6 : Fin 8 → EReal) (r7 : Fin 64 → EReal) (r8 : Fin 16 → EReal) (c : Fin 256) (j : Fin 8) (hc : c.val = 152 + j.val) :
    embRow u r1 r2 r3 r4 r5 r6 r7 r8 c = r4 j := by
  have hj := j.isLt
  unfold embRow
  rw [dif_neg (show ¬ c.val < 64 by omega), dif_neg (show ¬ c.val < 128 by omega), dif_neg (show ¬ c.val < 136 by omega), dif_neg (show ¬ c.val < 152 by omega), dif_pos (show c.val < 160 by omega)]
  exact congrArg r4 (Fin.ext (by show c.val - 152 = j.val; omega))

/-- Columns 160 … 167 of the row are piece 5. -/
theorem embRow_5 (u : Fin 64 → EReal) (r1 : Fin 64 → EReal) (r2 : Fin 8 → EReal) (r3 : Fin 16 → EReal) (r4 r5 r6 : Fin 8 → EReal) (r7 : Fin 64 → EReal) (r8 : Fin 16 → EReal) (c : Fin 256) (j : Fin 8) (hc : c.val = 160 + j.val) :
    embRow u r1 r2 r3 r4 r5 r6 r7 r8 c = r5 j := by
  have hj := j.isLt
  unfold embRow
  rw [dif_neg (show ¬ c.val < 64 by omega), dif_neg (show ¬ c.val < 128 by omega), dif_neg (show ¬ c.val < 136 by omega), dif_neg (show ¬ c.val < 152 by omega), dif_neg (show ¬ c.val < 160 by omega), dif_pos (show c.val < 168 by omega)]
  exact congrArg r5 (Fin.ext (by show c.val - 160 = j.val; omega))

/-- Columns 168 … 175 of the row are piece 6. -/
theorem embRow_6 (u : Fin 64 → EReal) (r1 : Fin 64 → EReal) (r2 : Fin 8 → EReal) (r3 : Fin 16 → EReal) (r4 r5 r6 : Fin 8 → EReal) (r7 : Fin 64 → EReal) (r8 : Fin 16 → EReal) (c : Fin 256) (j : Fin 8) (hc : c.val = 168 + j.val) :
    embRow u r1 r2 r3 r4 r5 r6 r7 r8 c = r6 j := by
  have hj := j.isLt
  unfold embRow
  rw [dif_neg (show ¬ c.val < 64 by omega), dif_neg (show ¬ c.val < 128 by omega), dif_neg (show ¬ c.val < 136 by omega), dif_neg (show ¬ c.val < 152 by omega), dif_neg (show ¬ c.val < 160 by omega), dif_neg (show ¬ c.val < 168 by omega), dif_pos (show c.val < 176 by omega)]
  exact congrArg r6 (Fin.ext (by show c.val - 168 = j.val; omega))

/-- Columns 176 … 239 of the row are piece 7. -/
theorem embRow_7 (u : Fin 64 → EReal) (r1 : Fin 64 → EReal) (r2 : Fin 8 → EReal) (r3 : Fin 16 → EReal) (r4 r5 r6 : Fin 8 → EReal) (r7 : Fin 64 → EReal) (r8 : Fin 16 → EReal) (c : Fin 256) (j : Fin 64) (hc : c.val = 176 + j.val) :
    embRow u r1 r2 r3 r4 r5 r6 r7 r8 c = r7 j := by
  have hj := j.isLt
  unfold embRow
  rw [dif_neg (show ¬ c.val < 64 by omega), dif_neg (show ¬ c.val < 128 by omega), dif_neg (show ¬ c.val < 136 by omega), dif_neg (show ¬ c.val < 152 by omega), dif_neg (show ¬ c.val < 160 by omega), dif_neg (show ¬ c.val < 168 by omega), dif_neg (show ¬ c.val < 176 by omega), dif_pos (show c.val < 240 by omega)]
  exact congrArg r7 (Fin.ext (by show c.val - 176 = j.val; omega))

/-- Columns 240 … 255 of the row are piece 8. -/
theorem embRow_8 (u : Fin 64 → EReal) (r1 : Fin 64 → EReal) (r2 : Fin 8 → EReal) (r3 : Fin 16 → EReal) (r4 r5 r6 : Fin 8 → EReal) (r7 : Fin 64 → EReal) (r8 : Fin 16 → EReal) (c : Fin 256) (j : Fin 16) (hc : c.val = 240 + j.val) :
    embRow u r1 r2 r3 r4 r5 r6 r7 r8 c = r8 j := by
  have hj := j.isLt
  unfold embRow
  rw [dif_neg (show ¬ c.val < 64 by omega), dif_neg (show ¬ c.val < 128 by omega), dif_neg (show ¬ c.val < 136 by omega), dif_neg (show ¬ c.val < 152 by omega), dif_neg (show ¬ c.val < 160 by omega), dif_neg (show ¬ c.val < 168 by omega), dif_neg (show ¬ c.val < 176 by omega), dif_neg (show ¬ c.val < 240 by omega)]
  exact congrArg r8 (Fin.ext (by show c.val - 240 = j.val; omega))

/-- Every column lies in one of the nine ranges. -/
theorem col_cases (c : Fin 256) :
    (∃ j : Fin 64, c.val = 0 + j.val)
    ∨ (∃ j : Fin 64, c.val = 64 + j.val)
    ∨ (∃ j : Fin 8, c.val = 128 + j.val)
    ∨ (∃ j : Fin 16, c.val = 136 + j.val)
    ∨ (∃ j : Fin 8, c.val = 152 + j.val)
    ∨ (∃ j : Fin 8, c.val = 160 + j.val)
    ∨ (∃ j : Fin 8, c.val = 168 + j.val)
    ∨ (∃ j : Fin 64, c.val = 176 + j.val)
    ∨ (∃ j : Fin 16, c.val = 240 + j.val) := by
  have hc := c.isLt
  by_cases h0 : c.val < 64
  · exact Or.inl ⟨⟨c.val - 0, by omega⟩, by show c.val = 0 + (c.val - 0); omega⟩
  by_cases h1 : c.val < 128
  · exact Or.inr (Or.inl ⟨⟨c.val - 64, by omega⟩, by show c.val = 64 + (c.val - 64); omega⟩)
  by_cases h2 : c.val < 136
  · exact Or.inr (Or.inr (Or.inl ⟨⟨c.val - 128, by omega⟩, by show c.val = 128 + (c.val - 128); omega⟩))
  by_cases h3 : c.val < 152
  · exact Or.inr (Or.inr (Or.inr (Or.inl ⟨⟨c.val - 136, by omega⟩, by show c.val = 136 + (c.val - 136); omega⟩)))
  by_cases h4 : c.val < 160
  · exact Or.inr (Or.inr (Or.inr (Or.inr (Or.inl ⟨⟨c.val - 152, by omega⟩, by show c.val = 152 + (c.val - 152); omega⟩))))
  by_cases h5 : c.val < 168
  · exact Or.inr (Or.inr (Or.inr (Or.inr (Or.inr (Or.inl ⟨⟨c.val - 160, by omega⟩, by show c.val = 160 + (c.val - 160); omega⟩)))))
  by_cases h6 : c.val < 176
  · exact Or.inr (Or.inr (Or.inr (Or.inr (Or.inr (Or.inr (Or.inl ⟨⟨c.val - 168, by omega⟩, by show c.val = 168 + (c.val - 168); omega⟩))))))
  by_cases h7 : c.val < 240
  · exact Or.inr (Or.inr (Or.inr (Or.inr (Or.inr (Or.inr (Or.inr (Or.inl ⟨⟨c.val - 176, by omega⟩, by show c.val = 176 + (c.val - 176); omega⟩)))))))
  exact Or.inr (Or.inr (Or.inr (Or.inr (Or.inr (Or.inr (Or.inr (Or.inr ⟨⟨c.val - 240, by omega⟩, by show c.val = 240 + (c.val - 240); omega⟩)))))))

/-- The value computed from one embedding row `e`. -/
def tailRow (e : Fin 256 → EReal) (flw : FVec Ideal ⟨2, ![256, 1]⟩ .f32) (flb : FVec Ideal ⟨2, ![1, 1]⟩ .f32)
    (fmk : FVec Ideal ⟨2, ![256, 32]⟩ .f32) (W2 : FVec Ideal ⟨2, ![256, 128]⟩ .f32) (b2 : FVec Ideal ⟨2, ![1, 128]⟩ .f32)
    (W3 : FVec Ideal ⟨2, ![128, 128]⟩ .f32) (b3 : FVec Ideal ⟨2, ![1, 128]⟩ .f32) (W4 : FVec Ideal ⟨2, ![128, 128]⟩ .f32)
    (b4 : FVec Ideal ⟨2, ![1, 128]⟩ .f32) (W5 : FVec Ideal ⟨2, ![128, 1]⟩ .f32) : EReal :=
  Ideal.logistic
    ((((∑ k : Fin 256, e k * flw (ix2 k 0)) + flb (ix2 0 0)) + fmCross e fmk)
      + ∑ m : Fin 128, dense 128 128 (dense 128 128 (dense 256 128 e W2 b2) W3 b3) W4 b4 m * W5 (ix2 m 0))

end Cert.Tc2Math

end
-- ==== Proof.KernelValue.lean ====
import proofs.«205263_g58420145160647_cont_9to1_m_909_25_alg».proof.Proof.RunReads
import proofs.«205263_g58420145160647_cont_9to1_m_909_25_alg».proof.Proof.Tc2Value
import proofs.«205263_g58420145160647_cont_9to1_m_909_25_alg».proof.Proof.Tc2Final
import proofs.«205263_g58420145160647_cont_9to1_m_909_25_alg».proof.Proof.Tc2Spec
import proofs.«205263_g58420145160647_cont_9to1_m_909_25_alg».proof.Proof.Spec

/-! # The bridge at the ideal values: the kernel's result array is the specification

After the second TensorCore region the result array `main_v16` holds, index by index, the specification `Cert.Spec.G`
of the launched arrays — when the nine index arrays name rows of their tables (`Cert.Spec.Dom`) and the gathered
rows' buffer holds what the SparseCore call may leave (`YRof`: row by row the gather of some pair table the first
region may leave).

The road: the library's closed form of the result array (row `r` is row `r mod 2048` of what the body stored at
point `r div 2048`); the body's stored value at a row is the tail of the row of its embedding block; the embedding
row is, column range by column range, the launched tables at the rows the launched index arrays name — the first
range through the gathered rows (the selected half of the gathered row is the user table's row), the others through
the one-hot products —; the reshaped index arrays and biases are the launched ones re-laid. -/

set_option maxRecDepth 16384

noncomputable section

open scoped BigOperators

namespace Cert.KernelIdeal.Run

open Cert.KernelIdeal Cert.KernelIdeal.Gen Cert.Tc2Math
open Idealize.ShloMosaic Idealize.ShloMosaic.TcCoe Idealize.ShloMosaic.Tactic
open Idealize.ShloMosaic.ValueIdx
open Idealize.ShloMosaic.Pipeline (Dat RDat)
open Cert.KernelIdeal.Gather (halfOf halfOf_toNat gathered_half)

variable (m : (ℓ : Loc nD τ sig) → Buf (Elt Ideal) ℓ)

/-! ## The second region's entry contents and its blocks -/

/-- The second region's entry contents, at the TensorCore's references. -/
abbrev VB (X1 : (rV1).ty.Contents (Elt Ideal)) (Y : (rV2).ty.Contents (Elt Ideal)) :
    (c : Dev nD) → (b : Ref sig .tc) → Buf (Elt Ideal) ((c : Thread nD τ).loc b) :=
  V4 (fun d' => W4 m d' X1 Y)

/-- The row of the batch that row `p` of point `t`'s blocks is. -/
abbrev rowAt (t : Fin cfg2.N) (p : Fin 2048) : Fin 16384 := ⟨t.val * 2048 + p.val, Tc2.row_lt t p⟩

variable (c : Dev nD) (X1 : (rV1).ty.Contents (Elt Ideal)) (Y : (rV2).ty.Contents (Elt Ideal))

/-- Index block 1 at point `t`, entry `p`: the launched `main_arg0` at row `2048 t + p`. -/
theorem idxblk_1 (t : Fin cfg2.N) (p : Fin 2048) :
    (Tc2.iblk2 (VB m X1 Y) c 1 t : S1x1x2048.Idx → Elt Ideal .i32) (ix3 0 0 p)
      = m ((c : Thread nD τ).loc main_arg0) (ix1 (rowAt t p)) :=
  (Tc2.iblk2_1_apply (VB m X1 Y) c t p).trans (W4_main_v3_apply m c X1 Y ⟨t.val, Tc2.t_lt t⟩ p)

/-- Index block 2 at point `t`, entry `p`: the launched `main_arg1` at row `2048 t + p`. -/
theorem idxblk_2 (t : Fin cfg2.N) (p : Fin 2048) :
    (Tc2.iblk2 (VB m X1 Y) c 2 t : S1x1x2048.Idx → Elt Ideal .i32) (ix3 0 0 p)
      = m ((c : Thread nD τ).loc main_arg1) (ix1 (rowAt t p)) :=
  (Tc2.iblk2_2_apply (VB m X1 Y) c t p).trans (W4_main_v4_apply m c X1 Y ⟨t.val, Tc2.t_lt t⟩ p)

/-- Index block 3 at point `t`, entry `p`: the launched `main_arg2` at row `2048 t + p`. -/
theorem idxblk_3 (t : Fin cfg2.N) (p : Fin 2048) :
    (Tc2.iblk2 (VB m X1 Y) c 3 t : S1x1x2048.Idx → Elt Ideal .i32) (ix3 0 0 p)
      = m ((c : Thread nD τ).loc main_arg2) (ix1 (rowAt t p)) :=
  (Tc2.iblk2_3_apply (VB m X1 Y) c t p).trans (W4_main_v5_apply m c X1 Y ⟨t.val, Tc2.t_lt t⟩ p)

/-- Index block 4 at point `t`, entry `p`: the launched `main_arg3` at row `2048 t + p`. -/
theorem idxblk_4 (t : Fin cfg2.N) (p : Fin 2048) :
    (Tc2.iblk2 (VB m X1 Y) c 4 t : S1x1x2048.Idx → Elt Ideal .i32) (ix3 0 0 p)
      = m ((c : Thread nD τ).loc main_arg3) (ix1 (rowAt t p)) :=
  (Tc2.iblk2_4_apply (VB m X1 Y) c t p).trans (W4_main_v6_apply m c X1 Y ⟨t.val, Tc2.t_lt t⟩ p)

/-- Index block 5 at point `t`, entry `p`: the launched `main_arg4` at row `2048 t + p`. -/
theorem idxblk_5 (t : Fin cfg2.N) (p : Fin 2048) :
    (Tc2.iblk2 (VB m X1 Y) c 5 t : S1x1x2048.Idx → Elt Ideal .i32) (ix3 0 0 p)
      = m ((c : Thread nD τ).loc main_arg4) (ix1 (rowAt t p)) :=
  (Tc2.iblk2_5_apply (VB m X1 Y) c t p).trans (W4_main_v7_apply m c X1 Y ⟨t.val, Tc2.t_lt t⟩ p)

/-- Index block 6 at point `t`, entry `p`: the launched `main_arg5` at row `2048 t + p`. -/
theorem idxblk_6 (t : Fin cfg2.N) (p : Fin 2048) :
    (Tc2.iblk2 (VB m X1 Y) c 6 t : S1x1x2048.Idx → Elt Ideal .i32) (ix3 0 0 p)
      = m ((c : Thread nD τ).loc main_arg5) (ix1 (rowAt t p)) :=
  (Tc2.iblk2_6_apply (VB m X1 Y) c t p).trans (W4_main_v8_apply m c X1 Y ⟨t.val, Tc2.t_lt t⟩ p)

/-- Index block 7 at point `t`, entry `p`: the launched `main_arg6` at row `2048 t + p`. -/
theorem idxblk_7 (t : Fin cfg2.N) (p : Fin 2048) :
    (Tc2.iblk2 (VB m X1 Y) c 7 t : S1x1x2048.Idx → Elt Ideal .i32) (ix3 0 0 p)
      = m ((c : Thread nD τ).loc main_arg6) (ix1 (rowAt t p)) :=
  (Tc2.iblk2_7_apply (VB m X1 Y) c t p).trans (W4_main_v9_apply m c X1 Y ⟨t.val, Tc2.t_lt t⟩ p)

/-- Index block 8 at point `t`, entry `p`: the launched `main_arg7` at row `2048 t + p`. -/
theorem idxblk_8 (t : Fin cfg2.N) (p : Fin 2048) :
    (Tc2.iblk2 (VB m X1 Y) c 8 t : S1x1x2048.Idx → Elt Ideal .i32) (ix3 0 0 p)
      = m ((c : Thread nD τ).loc main_arg7) (ix1 (rowAt t p)) :=
  (Tc2.iblk2_8_apply (VB m X1 Y) c t p).trans (W4_main_v10_apply m c X1 Y ⟨t.val, Tc2.t_lt t⟩ p)

/-- Index block 9 at point `t`, entry `p`: the launched `main_arg8` at row `2048 t + p`. -/
theorem idxblk_9 (t : Fin cfg2.N) (p : Fin 2048) :
    (Tc2.iblk2 (VB m X1 Y) c 9 t : S1x1x2048.Idx → Elt Ideal .i32) (ix3 0 0 p)
      = m ((c : Thread nD τ).loc main_arg8) (ix1 (rowAt t p)) :=
  (Tc2.iblk2_9_apply (VB m X1 Y) c t p).trans (W4_main_v11_apply m c X1 Y ⟨t.val, Tc2.t_lt t⟩ p)

/-- The gathered rows' block at point `t`, row `p`: what the SparseCore call left at row `2048 t + p`. -/
theorem pairblk (t : Fin cfg2.N) (p : Fin 2048) (j : Fin 128) :
    (Tc2.iblk2 (VB m X1 Y) c 0 t : S2048x128.Idx → Elt Ideal .f32) (ix2 p j) = (Y : S16384x128.Idx → Elt Ideal .f32) (ix2 (rowAt t p) j) := by
  rw [Tc2.iblk2_0_apply (VB m X1 Y) c t p j]
  show (W4 m c X1 Y rV2 : S16384x128.Idx → Elt Ideal .f32) _ = _
  rw [W4_rV2]

/-! ## The user piece: the selected half of the gathered row is the user table's row -/

/-- What the SparseCore call may leave in the gathered rows' buffer: row by row the gather of some contents the first
    region may have left in the pairs' buffer. -/
def YRof (c : Dev nD) (Y : (rV2).ty.Contents (Elt Ideal)) : Prop :=
  ∀ r : Fin 16384, ∃ X : Buf (Elt Ideal) ((c : Thread nD τ).loc main_v1),
    (Tc0.rdat0 (V1 m) ((K (F := Ideal)).Otc c 0) (Rc (F := Ideal) c 0) (ΦR spec0 c) c).ArrAt 1 cfg0.N X
      ∧ ∀ j : Fin 128, (Y : S16384x128.Idx → Elt Ideal .f32) (ix2 r j) = Sc.gathered c X (m (Sc.idxLoc c)) (ix2 r j)

/-- Row `r` of the gathered array at the half its word selects is the user table's row the word names. -/
theorem user_piece (hu : ∀ r : Fin 16384, (m ((c : Thread nD τ).loc main_arg0) (ix1 r) : BitVec 32).toNat < 1000000)
    (hY : YRof m c Y) (r : Fin 16384) (j : Fin 64) :
    (if halfOf (m ((c : Thread nD τ).loc main_arg0) (ix1 r)) = 1#32
        then (Y : S16384x128.Idx → Elt Ideal .f32) (ix2 r (⟨64 + j.val, by omega⟩ : Fin 128))
        else (Y : S16384x128.Idx → Elt Ideal .f32) (ix2 r (⟨j.val, by omega⟩ : Fin 128)))
      = m ((c : Thread nD τ).loc main_arg9) (ix2 (⟨(m ((c : Thread nD τ).loc main_arg0) (ix1 r) : BitVec 32).toNat, hu r⟩ : Fin 1000000) j) := by
  have hg := fun hl => gathered_half (V1 m) ((K (F := Ideal)).Otc c 0) (Rc (F := Ideal) c 0) (ΦR spec0 c) c (m (Sc.idxLoc c)) Y hu hY r j hl
  have hh := halfOf_toNat (m ((c : Thread nD τ).loc main_arg0) (ix1 r))
  have hj := j.isLt
  rw [← Gather.Host.V1_main_v0_apply m c j ⟨_, hu r⟩]
  split
  · next h1 =>
    have h1' : (halfOf (m ((c : Thread nD τ).loc main_arg0) (ix1 r))).toNat = 1 := by rw [h1]; rfl
    rw [← hg (by rw [h1']; omega)]
    exact congrArg _ (congrArg (ix2 r) (Fin.ext (by show 64 + j.val = 64 * _ + j.val; rw [h1'])))
  · next h1 =>
    have h0 : (halfOf (m ((c : Thread nD τ).loc main_arg0) (ix1 r))).toNat = 0 := by
      rcases Nat.mod_two_eq_zero_or_one ((m ((c : Thread nD τ).loc main_arg0) (ix1 r) : BitVec 32).toNat / 16384) with e | e
      · rw [hh, e]
      · exact absurd (BitVec.eq_of_toNat_eq (by rw [hh, e]; rfl)) h1
    rw [← hg (by rw [h0]; omega)]
    exact congrArg _ (congrArg (ix2 r) (Fin.ext (by show j.val = 64 * _ + j.val; rw [h0]; omega)))

/-! ## The specification's embedding row, by pieces -/

/-- The specification's embedding row is the nine table rows laid end to end. -/
theorem spec_emb_eq (uid age gen wd hr mi se it cat : IVec (⟨1, ![16384]⟩ : Shape) 32)
    (utab : FVec Ideal (⟨2, ![1000000, 64]⟩ : Shape) .f32) (agetab : FVec Ideal (⟨2, ![100, 64]⟩ : Shape) .f32)
    (gentab : FVec Ideal (⟨2, ![5, 8]⟩ : Shape) .f32) (wdtab : FVec Ideal (⟨2, ![8, 16]⟩ : Shape) .f32)
    (hrtab : FVec Ideal (⟨2, ![25, 8]⟩ : Shape) .f32) (mitab : FVec Ideal (⟨2, ![61, 8]⟩ : Shape) .f32)
    (setab : FVec Ideal (⟨2, ![61, 8]⟩ : Shape) .f32) (ittab : FVec Ideal (⟨2, ![500, 64]⟩ : Shape) .f32)
    (cattab : FVec Ideal (⟨2, ![40, 16]⟩ : Shape) .f32) (r : Fin 16384) :
    Cert.Spec.emb uid age gen wd hr mi se it cat utab agetab gentab wdtab hrtab mitab setab ittab cattab r
      = embRow (fun j => utab (ix2 (Cert.Spec.rowOf 1000000 (by decide) (uid (ix1 r))) j))
          (fun j => agetab (ix2 (Cert.Spec.rowOf 100 (by decide) (age (ix1 r))) j))
          (fun j => gentab (ix2 (Cert.Spec.rowOf 5 (by decide) (gen (ix1 r))) j))
          (fun j => wdtab (ix2 (Cert.Spec.rowOf 8 (by decide) (wd (ix1 r))) j))
          (fun j => hrtab (ix2 (Cert.Spec.rowOf 25 (by decide) (hr (ix1 r))) j))
          (fun j => mitab (ix2 (Cert.Spec.rowOf 61 (by decide) (mi (ix1 r))) j))
          (fun j => setab (ix2 (Cert.Spec.rowOf 61 (by decide) (se (ix1 r))) j))
          (fun j => ittab (ix2 (Cert.Spec.rowOf 500 (by decide) (it (ix1 r))) j))
          (fun j => cattab (ix2 (Cert.Spec.rowOf 40 (by decide) (cat (ix1 r))) j)) := by
  funext k
  unfold Cert.Spec.emb embRow
  rfl

/-- A table row named by a word in range. -/
theorem rowOf_eq {n : ℕ} (hn : 0 < n) {w : BitVec 32} (h : w.toNat < n) : Cert.Spec.rowOf n hn w = ⟨w.toNat, h⟩ :=
  Fin.ext (Cert.Spec.rowOf_val hn h)

/-- A bias re-laid as a 1 × 128 row is the specification's bias row. -/
theorem shapeCast_bias (b : FVec Ideal (⟨1, ![128]⟩ : Shape) .f32) :
    shapeCast S1x128 b shapeCasts_S128_S1x128 = Cert.Spec.biasRow 128 b := by
  funext i
  obtain ⟨u, k, rfl⟩ : ∃ (u : Fin 1) (k : Fin 128), i = ix2 u k := ⟨i 0, i 1, eq_ix2 i⟩
  rw [shapeCast_1x128_apply]
  rfl

/-- A table block read at the row an index-block entry names is the specification's table row: the block is the
    launched table, the entry the launched index, in range. -/
theorem piece_eq {n w : ℕ} (blk tab : (⟨2, ![n, w]⟩ : Shape).Idx → EReal) (hb : blk = tab) (x a : BitVec 32) (hx : x = a)
    (hlt : x.toNat < n) (ha : a.toNat < n) (hn : 0 < n) (j : Fin w) :
    blk (ix2 (⟨x.toNat, hlt⟩ : Fin n) j) = tab (ix2 (Cert.Spec.rowOf n hn a) j) := by
  subst hb hx
  rw [rowOf_eq hn ha]

/-! ## Row `p` of point `t`'s embedding block is the specification's embedding row -/

set_option maxHeartbeats 1000000 in
theorem emb_row (hdom : Cert.Spec.Dom (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (hY : YRof m c Y) (t : Fin cfg2.N) (p : Fin 2048) :
    (fun k => Tc2.emb2 (Tc2.iblk2 (VB m X1 Y) c 0 t) (Tc2.iblk2 (VB m X1 Y) c 1 t) (Tc2.iblk2 (VB m X1 Y) c 2 t) (Tc2.iblk2 (VB m X1 Y) c 3 t) (Tc2.iblk2 (VB m X1 Y) c 4 t) (Tc2.iblk2 (VB m X1 Y) c 5 t) (Tc2.iblk2 (VB m X1 Y) c 6 t) (Tc2.iblk2 (VB m X1 Y) c 7 t) (Tc2.iblk2 (VB m X1 Y) c 8 t) (Tc2.iblk2 (VB m X1 Y) c 9 t) (Tc2.iblk2 (VB m X1 Y) c 10 t) (Tc2.iblk2 (VB m X1 Y) c 11 t) (Tc2.iblk2 (VB m X1 Y) c 12 t) (Tc2.iblk2 (VB m X1 Y) c 13 t) (Tc2.iblk2 (VB m X1 Y) c 14 t) (Tc2.iblk2 (VB m X1 Y) c 15 t) (Tc2.iblk2 (VB m X1 Y) c 16 t) (Tc2.iblk2 (VB m X1 Y) c 17 t) (ix2 p k))
      = Cert.Spec.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (rowAt t p) := by
  rw [spec_emb_eq]
  funext k
  have h1 := idxblk_1 m c X1 Y t p
  have h2 := idxblk_2 m c X1 Y t p
  have h3 := idxblk_3 m c X1 Y t p
  have h4 := idxblk_4 m c X1 Y t p
  have h5 := idxblk_5 m c X1 Y t p
  have h6 := idxblk_6 m c X1 Y t p
  have h7 := idxblk_7 m c X1 Y t p
  have h8 := idxblk_8 m c X1 Y t p
  have h9 := idxblk_9 m c X1 Y t p
  rcases col_cases k with ⟨j, hj⟩ | ⟨j, hj⟩ | ⟨j, hj⟩ | ⟨j, hj⟩ | ⟨j, hj⟩ | ⟨j, hj⟩ | ⟨j, hj⟩ | ⟨j, hj⟩ | ⟨j, hj⟩
  · -- columns 0 … 63: the selected half of the gathered row
    obtain rfl : k = (⟨0 + j.val, Nat.lt_of_lt_of_le (Nat.add_lt_add_left j.isLt 0) (by decide)⟩ : Fin 256) := Fin.ext hj
    rw [embRow_0 _ _ _ _ _ _ _ _ _ _ j rfl, Tc2.emb2_user, h1, pairblk, pairblk, rowOf_eq _ (hdom.uid (rowAt t p))]
    exact user_piece m c Y hdom.uid hY (rowAt t p) j
  · -- columns 64 … 127: the age table's row
    have hlt : (((Tc2.iblk2 (VB m X1 Y) c 2 t) : S1x1x2048.Idx → Elt Ideal .i32) (ix3 0 0 p) : BitVec 32).toNat < 100 := by rw [h2]; exact hdom.age (rowAt t p)
    obtain rfl : k = (⟨64 + j.val, Nat.lt_of_lt_of_le (Nat.add_lt_add_left j.isLt 64) (by decide)⟩ : Fin 256) := Fin.ext hj
    rw [embRow_1 _ _ _ _ _ _ _ _ _ _ j rfl, Tc2.emb2_age _ _ _ _ _ _ _ _ _ _ _ _ _ _ _ _ _ _ p j hlt]
    exact piece_eq _ _ ((Tc2.iblk2_10_eq (VB m X1 Y) c t).trans (W4_of_not_written m c X1 Y main_arg10 (by decide))) _ _ h2 hlt (hdom.age (rowAt t p)) _ j
  · -- columns 128 … 135: the gender table's row
    have hlt : (((Tc2.iblk2 (VB m X1 Y) c 3 t) : S1x1x2048.Idx → Elt Ideal .i32) (ix3 0 0 p) : BitVec 32).toNat < 5 := by rw [h3]; exact hdom.gen (rowAt t p)
    obtain rfl : k = (⟨128 + j.val, Nat.lt_of_lt_of_le (Nat.add_lt_add_left j.isLt 128) (by decide)⟩ : Fin 256) := Fin.ext hj
    rw [embRow_2 _ _ _ _ _ _ _ _ _ _ j rfl, Tc2.emb2_gender _ _ _ _ _ _ _ _ _ _ _ _ _ _ _ _ _ _ p j hlt]
    exact piece_eq _ _ ((Tc2.iblk2_11_eq (VB m X1 Y) c t).trans (W4_of_not_written m c X1 Y main_arg11 (by decide))) _ _ h3 hlt (hdom.gen (rowAt t p)) _ j
  · -- columns 136 … 151: the weekday table's row
    have hlt : (((Tc2.iblk2 (VB m X1 Y) c 4 t) : S1x1x2048.Idx → Elt Ideal .i32) (ix3 0 0 p) : BitVec 32).toNat < 8 := by rw [h4]; exact hdom.wd (rowAt t p)
    obtain rfl : k = (⟨136 + j.val, Nat.lt_of_lt_of_le (Nat.add_lt_add_left j.isLt 136) (by decide)⟩ : Fin 256) := Fin.ext hj
    rw [embRow_3 _ _ _ _ _ _ _ _ _ _ j rfl, Tc2.emb2_weekday _ _ _ _ _ _ _ _ _ _ _ _ _ _ _ _ _ _ p j hlt]
    exact piece_eq _ _ ((Tc2.iblk2_12_eq (VB m X1 Y) c t).trans (W4_of_not_written m c X1 Y main_arg12 (by decide))) _ _ h4 hlt (hdom.wd (rowAt t p)) _ j
  · -- columns 152 … 159: the hour table's row
    have hlt : (((Tc2.iblk2 (VB m X1 Y) c 5 t) : S1x1x2048.Idx → Elt Ideal .i32) (ix3 0 0 p) : BitVec 32).toNat < 25 := by rw [h5]; exact hdom.hr (rowAt t p)
    obtain rfl : k = (⟨152 + j.val, Nat.lt_of_lt_of_le (Nat.add_lt_add_left j.isLt 152) (by decide)⟩ : Fin 256) := Fin.ext hj
    rw [embRow_4 _ _ _ _ _ _ _ _ _ _ j rfl, Tc2.emb2_hour _ _ _ _ _ _ _ _ _ _ _ _ _ _ _ _ _ _ p j hlt]
    exact piece_eq _ _ ((Tc2.iblk2_13_eq (VB m X1 Y) c t).trans (W4_of_not_written m c X1 Y main_arg13 (by decide))) _ _ h5 hlt (hdom.hr (rowAt t p)) _ j
  · -- columns 160 … 167: the minute table's row
    have hlt : (((Tc2.iblk2 (VB m X1 Y) c 6 t) : S1x1x2048.Idx → Elt Ideal .i32) (ix3 0 0 p) : BitVec 32).toNat < 61 := by rw [h6]; exact hdom.mi (rowAt t p)
    obtain rfl : k = (⟨160 + j.val, Nat.lt_of_lt_of_le (Nat.add_lt_add_left j.isLt 160) (by decide)⟩ : Fin 256) := Fin.ext hj
    rw [embRow_5 _ _ _ _ _ _ _ _ _ _ j rfl, Tc2.emb2_minute _ _ _ _ _ _ _ _ _ _ _ _ _ _ _ _ _ _ p j hlt]
    exact piece_eq _ _ ((Tc2.iblk2_14_eq (VB m X1 Y) c t).trans (W4_of_not_written m c X1 Y main_arg14 (by decide))) _ _ h6 hlt (hdom.mi (rowAt t p)) _ j
  · -- columns 168 … 175: the second table's row
    have hlt : (((Tc2.iblk2 (VB m X1 Y) c 7 t) : S1x1x2048.Idx → Elt Ideal .i32) (ix3 0 0 p) : BitVec 32).toNat < 61 := by rw [h7]; exact hdom.se (rowAt t p)
    obtain rfl : k = (⟨168 + j.val, Nat.lt_of_lt_of_le (Nat.add_lt_add_left j.isLt 168) (by decide)⟩ : Fin 256) := Fin.ext hj
    rw [embRow_6 _ _ _ _ _ _ _ _ _ _ j rfl, Tc2.emb2_second _ _ _ _ _ _ _ _ _ _ _ _ _ _ _ _ _ _ p j hlt]
    exact piece_eq _ _ ((Tc2.iblk2_15_eq (VB m X1 Y) c t).trans (W4_of_not_written m c X1 Y main_arg15 (by decide))) _ _ h7 hlt (hdom.se (rowAt t p)) _ j
  · -- columns 176 … 239: the item table's row
    have hlt : (((Tc2.iblk2 (VB m X1 Y) c 8 t) : S1x1x2048.Idx → Elt Ideal .i32) (ix3 0 0 p) : BitVec 32).toNat < 500 := by rw [h8]; exact hdom.it (rowAt t p)
    obtain rfl : k = (⟨176 + j.val, Nat.lt_of_lt_of_le (Nat.add_lt_add_left j.isLt 176) (by decide)⟩ : Fin 256) := Fin.ext hj
    rw [embRow_7 _ _ _ _ _ _ _ _ _ _ j rfl, Tc2.emb2_item _ _ _ _ _ _ _ _ _ _ _ _ _ _ _ _ _ _ p j hlt]
    exact piece_eq _ _ ((Tc2.iblk2_16_eq (VB m X1 Y) c t).trans (W4_of_not_written m c X1 Y main_arg16 (by decide))) _ _ h8 hlt (hdom.it (rowAt t p)) _ j
  · -- columns 240 … 255: the catalog table's row
    have hlt : (((Tc2.iblk2 (VB m X1 Y) c 9 t) : S1x1x2048.Idx → Elt Ideal .i32) (ix3 0 0 p) : BitVec 32).toNat < 40 := by rw [h9]; exact hdom.cat (rowAt t p)
    obtain rfl : k = (⟨240 + j.val, Nat.lt_of_lt_of_le (Nat.add_lt_add_left j.isLt 240) (by decide)⟩ : Fin 256) := Fin.ext hj
    rw [embRow_8 _ _ _ _ _ _ _ _ _ _ j rfl, Tc2.emb2_catalog _ _ _ _ _ _ _ _ _ _ _ _ _ _ _ _ _ _ p j hlt]
    exact piece_eq _ _ ((Tc2.iblk2_17_eq (VB m X1 Y) c t).trans (W4_of_not_written m c X1 Y main_arg17 (by decide))) _ _ h9 hlt (hdom.cat (rowAt t p)) _ j

/-! ## From the embedding row to the stored value: the specification's tail -/

set_option maxHeartbeats 1000000 in
/-- What the body stores at point `t`, row `p`: the specification at row `2048 t + p`. -/
theorem out_row (hdom : Cert.Spec.Dom (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (hY : YRof m c Y) (t : Fin cfg2.N) (p : Fin 2048) (z : Fin 1) :
    Tc2.out2_28 (Tc2.iblk2 (VB m X1 Y) c 0 t) (Tc2.iblk2 (VB m X1 Y) c 1 t) (Tc2.iblk2 (VB m X1 Y) c 2 t) (Tc2.iblk2 (VB m X1 Y) c 3 t) (Tc2.iblk2 (VB m X1 Y) c 4 t) (Tc2.iblk2 (VB m X1 Y) c 5 t) (Tc2.iblk2 (VB m X1 Y) c 6 t) (Tc2.iblk2 (VB m X1 Y) c 7 t) (Tc2.iblk2 (VB m X1 Y) c 8 t) (Tc2.iblk2 (VB m X1 Y) c 9 t) (Tc2.iblk2 (VB m X1 Y) c 10 t) (Tc2.iblk2 (VB m X1 Y) c 11 t) (Tc2.iblk2 (VB m X1 Y) c 12 t) (Tc2.iblk2 (VB m X1 Y) c 13 t) (Tc2.iblk2 (VB m X1 Y) c 14 t) (Tc2.iblk2 (VB m X1 Y) c 15 t) (Tc2.iblk2 (VB m X1 Y) c 16 t) (Tc2.iblk2 (VB m X1 Y) c 17 t) (Tc2.iblk2 (VB m X1 Y) c 18 t) (Tc2.iblk2 (VB m X1 Y) c 19 t) (Tc2.iblk2 (VB m X1 Y) c 20 t) (Tc2.iblk2 (VB m X1 Y) c 21 t) (Tc2.iblk2 (VB m X1 Y) c 22 t) (Tc2.iblk2 (VB m X1 Y) c 23 t) (Tc2.iblk2 (VB m X1 Y) c 24 t) (Tc2.iblk2 (VB m X1 Y) c 25 t) (Tc2.iblk2 (VB m X1 Y) c 26 t) (Tc2.iblk2 (VB m X1 Y) c 27 t) (ix2 p z)
      = Cert.Spec.tail (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))
          (Cert.Spec.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (rowAt t p)) := by
  rw [Tc2.out2_28_apply, emb_row m c X1 Y hdom hY t p]
  have e18 : ((Tc2.iblk2 (VB m X1 Y) c 18 t) : _ → Elt Ideal .f32) = (m ((c : Thread nD τ).loc main_arg18)) :=
    (Tc2.iblk2_18_eq (VB m X1 Y) c t).trans (W4_of_not_written m c X1 Y main_arg18 (by decide))
  have e19 : ((Tc2.iblk2 (VB m X1 Y) c 19 t) : S1x1.Idx → Elt Ideal .f32) (ix2 0 0) = (m ((c : Thread nD τ).loc main_arg19)) (ix1 0) := by
    rw [Tc2.iblk2_19_eq (VB m X1 Y) c t]; exact W4_main_v12_apply m c X1 Y
  have e20 : ((Tc2.iblk2 (VB m X1 Y) c 20 t) : _ → Elt Ideal .f32) = (m ((c : Thread nD τ).loc main_arg20)) :=
    (Tc2.iblk2_20_eq (VB m X1 Y) c t).trans (W4_of_not_written m c X1 Y main_arg20 (by decide))
  have e21 : ((Tc2.iblk2 (VB m X1 Y) c 21 t) : _ → Elt Ideal .f32) = (m ((c : Thread nD τ).loc main_arg21)) :=
    (Tc2.iblk2_21_eq (VB m X1 Y) c t).trans (W4_of_not_written m c X1 Y main_arg21 (by decide))
  have e22 : ((Tc2.iblk2 (VB m X1 Y) c 22 t) : S1x128.Idx → Elt Ideal .f32) = Cert.Spec.biasRow 128 (m ((c : Thread nD τ).loc main_arg22)) :=
    (Tc2.iblk2_22_eq (VB m X1 Y) c t).trans ((W4_main_v13 m c X1 Y).trans (shapeCast_bias _))
  have e23 : ((Tc2.iblk2 (VB m X1 Y) c 23 t) : _ → Elt Ideal .f32) = (m ((c : Thread nD τ).loc main_arg23)) :=
    (Tc2.iblk2_23_eq (VB m X1 Y) c t).trans (W4_of_not_written m c X1 Y main_arg23 (by decide))
  have e24 : ((Tc2.iblk2 (VB m X1 Y) c 24 t) : S1x128.Idx → Elt Ideal .f32) = Cert.Spec.biasRow 128 (m ((c : Thread nD τ).loc main_arg24)) :=
    (Tc2.iblk2_24_eq (VB m X1 Y) c t).trans ((W4_main_v14 m c X1 Y).trans (shapeCast_bias _))
  have e25 : ((Tc2.iblk2 (VB m X1 Y) c 25 t) : _ → Elt Ideal .f32) = (m ((c : Thread nD τ).loc main_arg25)) :=
    (Tc2.iblk2_25_eq (VB m X1 Y) c t).trans (W4_of_not_written m c X1 Y main_arg25 (by decide))
  have e26 : ((Tc2.iblk2 (VB m X1 Y) c 26 t) : S1x128.Idx → Elt Ideal .f32) = Cert.Spec.biasRow 128 (m ((c : Thread nD τ).loc main_arg26)) :=
    (Tc2.iblk2_26_eq (VB m X1 Y) c t).trans ((W4_main_v15 m c X1 Y).trans (shapeCast_bias _))
  have e27 : ((Tc2.iblk2 (VB m X1 Y) c 27 t) : _ → Elt Ideal .f32) = (m ((c : Thread nD τ).loc main_arg27)) :=
    (Tc2.iblk2_27_eq (VB m X1 Y) c t).trans (W4_of_not_written m c X1 Y main_arg27 (by decide))
  unfold Tc2.tailOf Cert.Spec.tail
  rw [e18, e19, e20, e21, e22, e23, e24, e25, e26, e27]

/-! ## The result array after the second region is the specification -/

set_option maxHeartbeats 1000000 in
/-- THE BRIDGE: after the second region the result array holds the specification's function of the launched arrays, when
    the nine index arrays name rows of their tables and the gathered rows' buffer holds what the SparseCore call may
    leave. -/
theorem kernel_out (hdom : Cert.Spec.Dom (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (hY : YRof m c Y) :
    ((pdatsB (fun d' => W4 m d' X1 Y) 1 c).arrAt 28 cfg2.N : S16384x1.Idx → Elt Ideal .f32)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  refine Eq.trans (Tc2.final28 (VB m X1 Y) ((K (F := Ideal)).Otc c 1) (Rc (F := Ideal) c 1) (ΦR spec2 c) c) ?_
  funext i
  obtain ⟨r, z, rfl⟩ : ∃ (r : Fin 16384) (z : Fin 1), i = ix2 r z := ⟨i 0, i 1, eq_ix2 i⟩
  show Tc2.outAt (VB m X1 Y) c (Tc2.pt (ix2 r z)) (Tc2.inBlk (ix2 r z)) = _
  unfold Tc2.outAt
  have hin : Tc2.inBlk (ix2 r z) = ix2 (⟨r.val % 2048, Nat.mod_lt _ (by decide)⟩ : Fin 2048) z := rfl
  rw [hin, out_row m c X1 Y hdom hY]
  unfold Cert.Spec.G
  refine congrArg _ (congrArg _ (Fin.ext ?_))
  exact Nat.div_add_mod' r.val 2048

end Cert.KernelIdeal.Run

end
-- ==== Proof.RefOps.lean ====
/- The idealized reference's run: @main's 256 host operations as a list (the nine
   row lookups, each the 23 operations of jnp.take with its select unfolded, then the concatenation, the
   factorisation-machine terms, the three dense layers and the logistic), the program as that list run in
   order, and what the result buffer holds afterwards as ONE pure term `value` of the 28 argument arrays. -/
import proofs.«205263_g58420145160647_cont_9to1_m_909_25_alg».proof.Proof.Gen.ReferenceIdeal
import proofs.«205263_g58420145160647_cont_9to1_m_909_25_alg».proof.Proof.Gen.Pre_input_domain
import proofs.«205263_g58420145160647_cont_9to1_m_909_25_alg».proof.Defs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value, stage by stage -/

/-- A row index as the lookup normalises it: a negative index has the table length `n` added; then as a
    one-column array. -/
def wrapIdx (n : BitVec 32) (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 n))) idx)

/-- Row by row, whether the normalised index lies in `[0, hi]` (signed): the conjunction over the single column. -/
def inRange (hi : BitVec 32) (col : IVec S16384x1 32) : IVec S16384 1 :=
  Host.reduce IntOp.andi
    (andi (cmpi .sge col (broadcastInDim S16384x1 ![] bcast_S_S16384x1 (constantI S_ 32 0#32)))
      (cmpi .sle col (broadcastInDim S16384x1 ![0, 1] bcast_S1x1_S16384x1_0_1
        (broadcastInDim S1x1 ![1] bcast_S1_S1x1_1 (constantI S1 32 hi)))))
    (constantI S_ 1 1#1) reducesTo_S16384x1_S16384_d1 h_S_

/-- One lookup `take(tab, idx, axis = 0)` of an `N × D` table: the gathered rows where the normalised index is in
    range, the quiet NaN word elsewhere. -/
def takeRows {N D : Nat} (g : GatherDims (⟨2, ![N, D]⟩ : Shape) S16384x1 (⟨2, ![16384, D]⟩ : Shape))
    (hm : S16384.BroadcastsInDim (⟨2, ![16384, D]⟩ : Shape) (![0] : Fin 1 → Fin 2))
    (hf : S_.BroadcastsInDim (⟨2, ![16384, D]⟩ : Shape) (![] : Fin 0 → Fin 2))
    (n hi : BitVec 32) (tab : FVec F (⟨2, ![N, D]⟩ : Shape) .f32) (idx : IVec S16384 32) :
    FVec F (⟨2, ![16384, D]⟩ : Shape) .f32 :=
  select (broadcastInDim (⟨2, ![16384, D]⟩ : Shape) ![0] hm (inRange hi (wrapIdx n idx)))
    (Host.gather g tab (wrapIdx n idx))
    (broadcastInDim (⟨2, ![16384, D]⟩ : Shape) ![] hf (constant S_ .f32 0x7FC00000#32))

/-- The nine looked-up blocks side by side: the 256-wide embedding. -/
def embOf (t0 t1 : FVec F S16384x64 .f32) (t2 : FVec F S16384x8 .f32) (t3 : FVec F S16384x16 .f32)
    (t4 t5 t6 : FVec F S16384x8 .f32) (t7 : FVec F S16384x64 .f32) (t8 : FVec F S16384x16 .f32) : FVec F S16384x256 .f32 :=
  concatenate S16384x256 1 [⟨S16384x64, t0⟩, ⟨S16384x64, t1⟩, ⟨S16384x8, t2⟩, ⟨S16384x16, t3⟩, ⟨S16384x8, t4⟩, ⟨S16384x8, t5⟩, ⟨S16384x8, t6⟩, ⟨S16384x64, t7⟩, ⟨S16384x16, t8⟩]
    concatenates_S16384x64_S16384x64_S16384x8_S16384x16_S16384x8_S16384x8_S16384x8_S16384x64_S16384x16_S16384x256_d1

/-- The first-order term `emb · w + b`. -/
def fmLinear (e : FVec F S16384x256 .f32) (w : FVec F S256x1 .f32) (b : FVec F S1 .f32) : FVec F S16384x1 .f32 :=
  addf (Host.dotGeneral dot_S16384x256_S256x1_S16384x1_1_0_0_1_n_n none e w)
    (broadcastInDim S16384x1 ![0, 1] bcast_S1x1_S16384x1_0_1 (broadcastInDim S1x1 ![1] bcast_S1_S1x1_1 b))

/-- The second-order term `½ · Σ_f ((emb · k)² − emb² · k²)`, the sum from zero, kept as a column. -/
def fmCross (e : FVec F S16384x256 .f32) (k : FVec F S256x32 .f32) : FVec F S16384x1 .f32 :=
  mulf (broadcastInDim S16384x1 ![] bcast_S_S16384x1 (constant S_ .f32 0x3F000000#32))
    (broadcastInDim S16384x1 ![0] bcast_S16384_S16384x1_0
      (Host.reduceAdd
        (subf
          (mulf (Host.dotGeneral dot_S16384x256_S256x32_S16384x32_1_0_0_1_n_n none e k)
            (Host.dotGeneral dot_S16384x256_S256x32_S16384x32_1_0_0_1_n_n none e k))
          (Host.dotGeneral dot_S16384x256_S256x32_S16384x32_1_0_0_1_n_n none (mulf e e) (mulf k k)))
        (constant S_ .f32 0x00000000#32) reducesTo_S16384x32_S16384_d1 h_S_))

/-- `max(x, 0)`. -/
def relu (x : FVec F S16384x128 .f32) : FVec F S16384x128 .f32 :=
  maximumf x (broadcastInDim S16384x128 ![] bcast_S_S16384x128 (constant S_ .f32 0x00000000#32))

/-- A bias row repeated down the batch. -/
def bias128 (b : FVec F S128 .f32) : FVec F S16384x128 .f32 :=
  broadcastInDim S16384x128 ![0, 1] bcast_S1x128_S16384x128_0_1 (broadcastInDim S1x128 ![1] bcast_S128_S1x128_1 b)

/-- The first dense layer, from the embedding. -/
def dense1 (e : FVec F S16384x256 .f32) (W : FVec F S256x128 .f32) (b : FVec F S128 .f32) : FVec F S16384x128 .f32 :=
  relu (addf (Host.dotGeneral dot_S16384x256_S256x128_S16384x128_1_0_0_1_n_n none e W) (bias128 b))

/-- A hidden dense layer. -/
def dense (h : FVec F S16384x128 .f32) (W : FVec F S128x128 .f32) (b : FVec F S128 .f32) : FVec F S16384x128 .f32 :=
  relu (addf (Host.dotGeneral dot_S16384x128_S128x128_S16384x128_1_0_0_1_n_n none h W) (bias128 b))

/-- The logit: (first-order + second-order) + the network's output. -/
def logit (e : FVec F S16384x256 .f32) (w : FVec F S256x1 .f32) (b : FVec F S1 .f32) (k : FVec F S256x32 .f32)
    (W2 : FVec F S256x128 .f32) (b2 : FVec F S128 .f32) (W3 : FVec F S128x128 .f32) (b3 : FVec F S128 .f32)
    (W4 : FVec F S128x128 .f32) (b4 : FVec F S128 .f32) (W5 : FVec F S128x1 .f32) : FVec F S16384x1 .f32 :=
  addf (addf (fmLinear e w b) (fmCross e k))
    (Host.dotGeneral dot_S16384x128_S128x1_S16384x1_1_0_0_1_n_n none (dense (dense (dense1 e W2 b2) W3 b3) W4 b4) W5)

/-- The logistic function as the program spells it: `1 / (1 + exp(−z))`. -/
def sigm (z : FVec F S16384x1 .f32) : FVec F S16384x1 .f32 :=
  Host.divf (broadcastInDim S16384x1 ![] bcast_S_S16384x1 (constant S_ .f32 0x3F800000#32))
    (addf (broadcastInDim S16384x1 ![] bcast_S_S16384x1 (constant S_ .f32 0x3F800000#32)) (Host.exp (Host.negf z)))

/-- The embedding of the nine index arrays in the nine tables. -/
def embedding (uid age gen wd hr mi se it cat : IVec S16384 32)
    (utab : FVec F S1000000x64 .f32) (agetab : FVec F S100x64 .f32) (gentab : FVec F S5x8 .f32) (wdtab : FVec F S8x16 .f32)
    (hrtab : FVec F S25x8 .f32) (mitab : FVec F S61x8 .f32) (setab : FVec F S61x8 .f32) (ittab : FVec F S500x64 .f32)
    (cattab : FVec F S40x16 .f32) : FVec F S16384x256 .f32 :=
  embOf
    (takeRows gather_S1000000x64_S16384x1_S16384x64_1_0_n_n_0_1_164 bcast_S16384_S16384x64_0 bcast_S_S16384x64 1000000#32 999999#32 utab uid)
    (takeRows gather_S100x64_S16384x1_S16384x64_1_0_n_n_0_1_164 bcast_S16384_S16384x64_0 bcast_S_S16384x64 100#32 99#32 agetab age)
    (takeRows gather_S5x8_S16384x1_S16384x8_1_0_n_n_0_1_18 bcast_S16384_S16384x8_0 bcast_S_S16384x8 5#32 4#32 gentab gen)
    (takeRows gather_S8x16_S16384x1_S16384x16_1_0_n_n_0_1_116 bcast_S16384_S16384x16_0 bcast_S_S16384x16 8#32 7#32 wdtab wd)
    (takeRows gather_S25x8_S16384x1_S16384x8_1_0_n_n_0_1_18 bcast_S16384_S16384x8_0 bcast_S_S16384x8 25#32 24#32 hrtab hr)
    (takeRows gather_S61x8_S16384x1_S16384x8_1_0_n_n_0_1_18 bcast_S16384_S16384x8_0 bcast_S_S16384x8 61#32 60#32 mitab mi)
    (takeRows gather_S61x8_S16384x1_S16384x8_1_0_n_n_0_1_18 bcast_S16384_S16384x8_0 bcast_S_S16384x8 61#32 60#32 setab se)
    (takeRows gather_S500x64_S16384x1_S16384x64_1_0_n_n_0_1_164 bcast_S16384_S16384x64_0 bcast_S_S16384x64 500#32 499#32 ittab it)
    (takeRows gather_S40x16_S16384x1_S16384x16_1_0_n_n_0_1_116 bcast_S16384_S16384x16_0 bcast_S_S16384x16 40#32 39#32 cattab cat)

/-- What the reference returns, as one function of its 28 arguments. -/
def value (uid age gen wd hr mi se it cat : IVec S16384 32)
    (utab : FVec F S1000000x64 .f32) (agetab : FVec F S100x64 .f32) (gentab : FVec F S5x8 .f32) (wdtab : FVec F S8x16 .f32)
    (hrtab : FVec F S25x8 .f32) (mitab : FVec F S61x8 .f32) (setab : FVec F S61x8 .f32) (ittab : FVec F S500x64 .f32)
    (cattab : FVec F S40x16 .f32)
    (w : FVec F S256x1 .f32) (b : FVec F S1 .f32) (k : FVec F S256x32 .f32)
    (W2 : FVec F S256x128 .f32) (b2 : FVec F S128 .f32) (W3 : FVec F S128x128 .f32) (b3 : FVec F S128 .f32)
    (W4 : FVec F S128x128 .f32) (b4 : FVec F S128 .f32) (W5 : FVec F S128x1 .f32) : FVec F S16384x1 .f32 :=
  sigm (logit (embedding uid age gen wd hr mi se it cat utab agetab gentab wdtab hrtab mitab setab ittab cattab)
    w b k W2 b2 W3 b3 W4 b4 W5)

/-! ## The operations, in order: one list per lookup, then the rest -/

/-- The 23 operations of the user-id lookup. -/
abbrev seg0 : List (HloOp τ sig (Elt F)) :=
  [
    StableHlo.TRef.nullary main_call0.c (constantI S_ 32 0#32),
    StableHlo.TRef.unary main_call0.c main_call0.v0 (broadcastInDim S16384 ![] bcast_S_S16384),
    StableHlo.TRef.binary (.of main_arg0) main_call0.v0 main_call0.v1 (cmpi .slt),
    StableHlo.TRef.nullary main_call0.c_0 (constantI S_ 32 1000000#32),
    StableHlo.TRef.unary main_call0.c_0 main_call0.v2 (broadcastInDim S16384 ![] bcast_S_S16384),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S16384x1 ![0] bcast_S16384_S16384x1_0),
    StableHlo.TRef.nullary main_call0.c_1 (constantI S1 32 999999#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg9) main_call0.v5 main_call0.v13 (fun x i => Host.gather gather_S1000000x64_S16384x1_S16384x64_1_0_n_n_0_1_164 x i),
    StableHlo.TRef.unary main_call0.v12 main_call0.v14 (broadcastInDim S16384x64 ![0] bcast_S16384_S16384x64_0),
    StableHlo.TRef.nullary main_call0.cst (constant S_ .f32 0x7FC00000#32),
    StableHlo.TRef.unary main_call0.cst main_call0.v15 (broadcastInDim S16384x64 ![] bcast_S_S16384x64),
    StableHlo.TRef.ternary main_call0.v14 main_call0.v13 main_call0.v15 main_call0.v16 select ]

/-- The 23 operations of the age lookup. -/
abbrev seg1 : List (HloOp τ sig (Elt F)) :=
  [
    StableHlo.TRef.nullary main_call1.c (constantI S_ 32 0#32),
    StableHlo.TRef.unary main_call1.c main_call1.v0 (broadcastInDim S16384 ![] bcast_S_S16384),
    StableHlo.TRef.binary (.of main_arg1) main_call1.v0 main_call1.v1 (cmpi .slt),
    StableHlo.TRef.nullary main_call1.c_0 (constantI S_ 32 100#32),
    StableHlo.TRef.unary main_call1.c_0 main_call1.v2 (broadcastInDim S16384 ![] bcast_S_S16384),
    StableHlo.TRef.binary (.of main_arg1) main_call1.v2 main_call1.v3 addi,
    StableHlo.TRef.ternary main_call1.v1 main_call1.v3 (.of main_arg1) main_call1.call0.v0 select,
    StableHlo.TRef.unary main_call1.call0.v0 main_call1.v5 (broadcastInDim S16384x1 ![0] bcast_S16384_S16384x1_0),
    StableHlo.TRef.nullary main_call1.c_1 (constantI S1 32 99#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg10) main_call1.v5 main_call1.v13 (fun x i => Host.gather gather_S100x64_S16384x1_S16384x64_1_0_n_n_0_1_164 x i),
    StableHlo.TRef.unary main_call1.v12 main_call1.v14 (broadcastInDim S16384x64 ![0] bcast_S16384_S16384x64_0),
    StableHlo.TRef.nullary main_call1.cst (constant S_ .f32 0x7FC00000#32),
    StableHlo.TRef.unary main_call1.cst main_call1.v15 (broadcastInDim S16384x64 ![] bcast_S_S16384x64),
    StableHlo.TRef.ternary main_call1.v14 main_call1.v13 main_call1.v15 main_call1.v16 select ]

/-- The 23 operations of the gender lookup. -/
abbrev seg2 : List (HloOp τ sig (Elt F)) :=
  [
    StableHlo.TRef.nullary main_call2.c (constantI S_ 32 0#32),
    StableHlo.TRef.unary main_call2.c main_call2.v0 (broadcastInDim S16384 ![] bcast_S_S16384),
    StableHlo.TRef.binary (.of main_arg2) main_call2.v0 main_call2.v1 (cmpi .slt),
    StableHlo.TRef.nullary main_call2.c_0 (constantI S_ 32 5#32),
    StableHlo.TRef.unary main_call2.c_0 main_call2.v2 (broadcastInDim S16384 ![] bcast_S_S16384),
    StableHlo.TRef.binary (.of main_arg2) main_call2.v2 main_call2.v3 addi,
    StableHlo.TRef.ternary main_call2.v1 main_call2.v3 (.of main_arg2) main_call2.call0.v0 select,
    StableHlo.TRef.unary main_call2.call0.v0 main_call2.v5 (broadcastInDim S16384x1 ![0] bcast_S16384_S16384x1_0),
    StableHlo.TRef.nullary main_call2.c_1 (constantI S1 32 4#32),
    StableHlo.TRef.nullary main_call2.c_2 (constantI S_ 32 0#32),
    StableHlo.TRef.unary main_call2.c_2 main_call2.v6 (broadcastInDim S16384x1 ![] bcast_S_S16384x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S16384x1 ![0, 1] bcast_S1x1_S16384x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x1_S16384_d1 h_S_),
    StableHlo.TRef.binary (.of main_arg11) main_call2.v5 main_call2.v13 (fun x i => Host.gather gather_S5x8_S16384x1_S16384x8_1_0_n_n_0_1_18 x i),
    StableHlo.TRef.unary main_call2.v12 main_call2.v14 (broadcastInDim S16384x8 ![0] bcast_S16384_S16384x8_0),
    StableHlo.TRef.nullary main_call2.cst (constant S_ .f32 0x7FC00000#32),
    StableHlo.TRef.unary main_call2.cst main_call2.v15 (broadcastInDim S16384x8 ![] bcast_S_S16384x8),
    StableHlo.TRef.ternary main_call2.v14 main_call2.v13 main_call2.v15 main_call2.v16 select ]

/-- The 23 operations of the weekday lookup. -/
abbrev seg3 : List (HloOp τ sig (Elt F)) :=
  [
    StableHlo.TRef.nullary main_call3.c (constantI S_ 32 0#32),
    StableHlo.TRef.unary main_call3.c main_call3.v0 (broadcastInDim S16384 ![] bcast_S_S16384),
    StableHlo.TRef.binary (.of main_arg3) main_call3.v0 main_call3.v1 (cmpi .slt),
    StableHlo.TRef.nullary main_call3.c_0 (constantI S_ 32 8#32),
    StableHlo.TRef.unary main_call3.c_0 main_call3.v2 (broadcastInDim S16384 ![] bcast_S_S16384),
    StableHlo.TRef.binary (.of main_arg3) main_call3.v2 main_call3.v3 addi,
    StableHlo.TRef.ternary main_call3.v1 main_call3.v3 (.of main_arg3) main_call3.call0.v0 select,
    StableHlo.TRef.unary main_call3.call0.v0 main_call3.v5 (broadcastInDim S16384x1 ![0] bcast_S16384_S16384x1_0),
    StableHlo.TRef.nullary main_call3.c_1 (constantI S1 32 7#32),
    StableHlo.TRef.nullary main_call3.c_2 (constantI S_ 32 0#32),
    StableHlo.TRef.unary main_call3.c_2 main_call3.v6 (broadcastInDim S16384x1 ![] bcast_S_S16384x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S16384x1 ![0, 1] bcast_S1x1_S16384x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S16384x1_S16384_d1 h_S_),
    StableHlo.TRef.binary (.of main_arg12) main_call3.v5 main_call3.v13 (fun x i => Host.gather gather_S8x16_S16384x1_S16384x16_1_0_n_n_0_1_116 x i),
    StableHlo.TRef.unary main_call3.v12 main_call3.v14 (broadcastInDim S16384x16 ![0] bcast_S16384_S16384x16_0),
    StableHlo.TRef.nullary main_call3.cst (constant S_ .f32 0x7FC00000#32),
    StableHlo.TRef.unary main_call3.cst main_call3.v15 (broadcastInDim S16384x16 ![] bcast_S_S16384x16),
    StableHlo.TRef.ternary main_call3.v14 main_call3.v13 main_call3.v15 main_call3.v16 select ]

/-- The 23 operations of the hour lookup. -/
abbrev seg4 : List (HloOp τ sig (Elt F)) :=
  [
    StableHlo.TRef.nullary main_call4.c (constantI S_ 32 0#32),
    StableHlo.TRef.unary main_call4.c main_call4.v0 (broadcastInDim S16384 ![] bcast_S_S16384),
    StableHlo.TRef.binary (.of main_arg4) main_call4.v0 main_call4.v1 (cmpi .slt),
    StableHlo.TRef.nullary main_call4.c_0 (constantI S_ 32 25#32),
    StableHlo.TRef.unary main_call4.c_0 main_call4.v2 (broadcastInDim S16384 ![] bcast_S_S16384),
    StableHlo.TRef.binary (.of main_arg4) main_call4.v2 main_call4.v3 addi,
    StableHlo.TRef.ternary main_call4.v1 main_call4.v3 (.of main_arg4) main_call4.call0.v0 select,
    StableHlo.TRef.unary main_call4.call0.v0 main_call4.v5 (broadcastInDim S16384x1 ![0] bcast_S16384_S16384x1_0),
    StableHlo.TRef.nullary main_call4.c_1 (constantI S1 32 24#32),
    StableHlo.TRef.nullary main_call4.c_2 (constantI S_ 32 0#32),
    StableHlo.TRef.unary main_call4.c_2 main_call4.v6 (broadcastInDim S16384x1 ![] bcast_S_S16384x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S16384x1 ![0, 1] bcast_S1x1_S16384x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S16384x1_S16384_d1 h_S_),
    StableHlo.TRef.binary (.of main_arg13) main_call4.v5 main_call4.v13 (fun x i => Host.gather gather_S25x8_S16384x1_S16384x8_1_0_n_n_0_1_18 x i),
    StableHlo.TRef.unary main_call4.v12 main_call4.v14 (broadcastInDim S16384x8 ![0] bcast_S16384_S16384x8_0),
    StableHlo.TRef.nullary main_call4.cst (constant S_ .f32 0x7FC00000#32),
    StableHlo.TRef.unary main_call4.cst main_call4.v15 (broadcastInDim S16384x8 ![] bcast_S_S16384x8),
    StableHlo.TRef.ternary main_call4.v14 main_call4.v13 main_call4.v15 main_call4.v16 select ]

/-- The 23 operations of the minute lookup. -/
abbrev seg5 : List (HloOp τ sig (Elt F)) :=
  [
    StableHlo.TRef.nullary main_call5.c (constantI S_ 32 0#32),
    StableHlo.TRef.unary main_call5.c main_call5.v0 (broadcastInDim S16384 ![] bcast_S_S16384),
    StableHlo.TRef.binary (.of main_arg5) main_call5.v0 main_call5.v1 (cmpi .slt),
    StableHlo.TRef.nullary main_call5.c_0 (constantI S_ 32 61#32),
    StableHlo.TRef.unary main_call5.c_0 main_call5.v2 (broadcastInDim S16384 ![] bcast_S_S16384),
    StableHlo.TRef.binary (.of main_arg5) main_call5.v2 main_call5.v3 addi,
    StableHlo.TRef.ternary main_call5.v1 main_call5.v3 (.of main_arg5) main_call5.call0.v0 select,
    StableHlo.TRef.unary main_call5.call0.v0 main_call5.v5 (broadcastInDim S16384x1 ![0] bcast_S16384_S16384x1_0),
    StableHlo.TRef.nullary main_call5.c_1 (constantI S1 32 60#32),
    StableHlo.TRef.nullary main_call5.c_2 (constantI S_ 32 0#32),
    StableHlo.TRef.unary main_call5.c_2 main_call5.v6 (broadcastInDim S16384x1 ![] bcast_S_S16384x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S16384x1 ![0, 1] bcast_S1x1_S16384x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S16384x1_S16384_d1 h_S_),
    StableHlo.TRef.binary (.of main_arg14) main_call5.v5 main_call5.v13 (fun x i => Host.gather gather_S61x8_S16384x1_S16384x8_1_0_n_n_0_1_18 x i),
    StableHlo.TRef.unary main_call5.v12 main_call5.v14 (broadcastInDim S16384x8 ![0] bcast_S16384_S16384x8_0),
    StableHlo.TRef.nullary main_call5.cst (constant S_ .f32 0x7FC00000#32),
    StableHlo.TRef.unary main_call5.cst main_call5.v15 (broadcastInDim S16384x8 ![] bcast_S_S16384x8),
    StableHlo.TRef.ternary main_call5.v14 main_call5.v13 main_call5.v15 main_call5.v16 select ]

/-- The 23 operations of the second lookup. -/
abbrev seg6 : List (HloOp τ sig (Elt F)) :=
  [
    StableHlo.TRef.nullary main_call6.c (constantI S_ 32 0#32),
    StableHlo.TRef.unary main_call6.c main_call6.v0 (broadcastInDim S16384 ![] bcast_S_S16384),
    StableHlo.TRef.binary (.of main_arg6) main_call6.v0 main_call6.v1 (cmpi .slt),
    StableHlo.TRef.nullary main_call6.c_0 (constantI S_ 32 61#32),
    StableHlo.TRef.unary main_call6.c_0 main_call6.v2 (broadcastInDim S16384 ![] bcast_S_S16384),
    StableHlo.TRef.binary (.of main_arg6) main_call6.v2 main_call6.v3 addi,
    StableHlo.TRef.ternary main_call6.v1 main_call6.v3 (.of main_arg6) main_call6.call0.v0 select,
    StableHlo.TRef.unary main_call6.call0.v0 main_call6.v5 (broadcastInDim S16384x1 ![0] bcast_S16384_S16384x1_0),
    StableHlo.TRef.nullary main_call6.c_1 (constantI S1 32 60#32),
    StableHlo.TRef.nullary main_call6.c_2 (constantI S_ 32 0#32),
    StableHlo.TRef.unary main_call6.c_2 main_call6.v6 (broadcastInDim S16384x1 ![] bcast_S_S16384x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S16384x1 ![0, 1] bcast_S1x1_S16384x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S16384x1_S16384_d1 h_S_),
    StableHlo.TRef.binary (.of main_arg15) main_call6.v5 main_call6.v13 (fun x i => Host.gather gather_S61x8_S16384x1_S16384x8_1_0_n_n_0_1_18 x i),
    StableHlo.TRef.unary main_call6.v12 main_call6.v14 (broadcastInDim S16384x8 ![0] bcast_S16384_S16384x8_0),
    StableHlo.TRef.nullary main_call6.cst (constant S_ .f32 0x7FC00000#32),
    StableHlo.TRef.unary main_call6.cst main_call6.v15 (broadcastInDim S16384x8 ![] bcast_S_S16384x8),
    StableHlo.TRef.ternary main_call6.v14 main_call6.v13 main_call6.v15 main_call6.v16 select ]

/-- The 23 operations of the item-id lookup. -/
abbrev seg7 : List (HloOp τ sig (Elt F)) :=
  [
    StableHlo.TRef.nullary main_call7.c (constantI S_ 32 0#32),
    StableHlo.TRef.unary main_call7.c main_call7.v0 (broadcastInDim S16384 ![] bcast_S_S16384),
    StableHlo.TRef.binary (.of main_arg7) main_call7.v0 main_call7.v1 (cmpi .slt),
    StableHlo.TRef.nullary main_call7.c_0 (constantI S_ 32 500#32),
    StableHlo.TRef.unary main_call7.c_0 main_call7.v2 (broadcastInDim S16384 ![] bcast_S_S16384),
    StableHlo.TRef.binary (.of main_arg7) main_call7.v2 main_call7.v3 addi,
    StableHlo.TRef.ternary main_call7.v1 main_call7.v3 (.of main_arg7) main_call7.call0.v0 select,
    StableHlo.TRef.unary main_call7.call0.v0 main_call7.v5 (broadcastInDim S16384x1 ![0] bcast_S16384_S16384x1_0),
    StableHlo.TRef.nullary main_call7.c_1 (constantI S1 32 499#32),
    StableHlo.TRef.nullary main_call7.c_2 (constantI S_ 32 0#32),
    StableHlo.TRef.unary main_call7.c_2 main_call7.v6 (broadcastInDim S16384x1 ![] bcast_S_S16384x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S16384x1 ![0, 1] bcast_S1x1_S16384x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S16384x1_S16384_d1 h_S_),
    StableHlo.TRef.binary (.of main_arg16) main_call7.v5 main_call7.v13 (fun x i => Host.gather gather_S500x64_S16384x1_S16384x64_1_0_n_n_0_1_164 x i),
    StableHlo.TRef.unary main_call7.v12 main_call7.v14 (broadcastInDim S16384x64 ![0] bcast_S16384_S16384x64_0),
    StableHlo.TRef.nullary main_call7.cst (constant S_ .f32 0x7FC00000#32),
    StableHlo.TRef.unary main_call7.cst main_call7.v15 (broadcastInDim S16384x64 ![] bcast_S_S16384x64),
    StableHlo.TRef.ternary main_call7.v14 main_call7.v13 main_call7.v15 main_call7.v16 select ]

/-- The 23 operations of the item-catalog lookup. -/
abbrev seg8 : List (HloOp τ sig (Elt F)) :=
  [
    StableHlo.TRef.nullary main_call8.c (constantI S_ 32 0#32),
    StableHlo.TRef.unary main_call8.c main_call8.v0 (broadcastInDim S16384 ![] bcast_S_S16384),
    StableHlo.TRef.binary (.of main_arg8) main_call8.v0 main_call8.v1 (cmpi .slt),
    StableHlo.TRef.nullary main_call8.c_0 (constantI S_ 32 40#32),
    StableHlo.TRef.unary main_call8.c_0 main_call8.v2 (broadcastInDim S16384 ![] bcast_S_S16384),
    StableHlo.TRef.binary (.of main_arg8) main_call8.v2 main_call8.v3 addi,
    StableHlo.TRef.ternary main_call8.v1 main_call8.v3 (.of main_arg8) main_call8.call0.v0 select,
    StableHlo.TRef.unary main_call8.call0.v0 main_call8.v5 (broadcastInDim S16384x1 ![0] bcast_S16384_S16384x1_0),
    StableHlo.TRef.nullary main_call8.c_1 (constantI S1 32 39#32),
    StableHlo.TRef.nullary main_call8.c_2 (constantI S_ 32 0#32),
    StableHlo.TRef.unary main_call8.c_2 main_call8.v6 (broadcastInDim S16384x1 ![] bcast_S_S16384x1),
    StableHlo.TRef.binary main_call8.v5 main_call8.v6 main_call8.v7 (cmpi .sge),
    StableHlo.TRef.unary main_call8.c_1 main_call8.v8 (broadcastInDim S1x1 ![1] bcast_S1_S1x1_1),
    StableHlo.TRef.unary main_call8.v8 main_call8.v9 (broadcastInDim S16384x1 ![0, 1] bcast_S1x1_S16384x1_0_1),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S16384x1_S16384_d1 h_S_),
    StableHlo.TRef.binary (.of main_arg17) main_call8.v5 main_call8.v13 (fun x i => Host.gather gather_S40x16_S16384x1_S16384x16_1_0_n_n_0_1_116 x i),
    StableHlo.TRef.unary main_call8.v12 main_call8.v14 (broadcastInDim S16384x16 ![0] bcast_S16384_S16384x16_0),
    StableHlo.TRef.nullary main_call8.cst (constant S_ .f32 0x7FC00000#32),
    StableHlo.TRef.unary main_call8.cst main_call8.v15 (broadcastInDim S16384x16 ![] bcast_S_S16384x16),
    StableHlo.TRef.ternary main_call8.v14 main_call8.v13 main_call8.v15 main_call8.v16 select ]

/-- The 49 operations after the lookups: the concatenation, the two factorisation-machine terms, the three dense layers, the logistic. -/
abbrev tail : List (HloOp τ sig (Elt F)) :=
  [
    StableHlo.nary ![main_v0, main_v1, main_v2, main_v3, main_v4, main_v5, main_v6, main_v7, main_v8] main_v9 (fun u => concatenate S16384x256 1 [⟨S16384x64, u 0⟩, ⟨S16384x64, u 1⟩, ⟨S16384x8, u 2⟩, ⟨S16384x16, u 3⟩, ⟨S16384x8, u 4⟩, ⟨S16384x8, u 5⟩, ⟨S16384x8, u 6⟩, ⟨S16384x64, u 7⟩, ⟨S16384x16, u 8⟩] concatenates_S16384x64_S16384x64_S16384x8_S16384x16_S16384x8_S16384x8_S16384x8_S16384x64_S16384x16_S16384x256_d1),
    StableHlo.binary main_v9 main_arg18 main_v10 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    StableHlo.unary main_arg19 main_v11 (broadcastInDim S1x1 ![1] bcast_S1_S1x1_1 : (⟨S1, .f32⟩ : BufTy).Contents (Elt F) → (⟨S1x1, .f32⟩ : BufTy).Contents (Elt F)),
    StableHlo.unary main_v11 main_v12 (broadcastInDim S16384x1 ![0, 1] bcast_S1x1_S16384x1_0_1 : (⟨S1x1, .f32⟩ : BufTy).Contents (Elt F) → (⟨S16384x1, .f32⟩ : BufTy).Contents (Elt F)),
    StableHlo.binary main_v10 main_v12 main_v13 (addf : (⟨S16384x1, .f32⟩ : BufTy).Contents (Elt F) → (⟨S16384x1, .f32⟩ : BufTy).Contents (Elt F) → (⟨S16384x1, .f32⟩ : BufTy).Contents (Elt F)),
    StableHlo.binary main_v9 main_arg20 main_v14 ((fun l r => Host.dotGeneral dot_S16384x256_S256x32_S16384x32_1_0_0_1_n_n none l r) : (⟨S16384x256, .f32⟩ : BufTy).Contents (Elt F) → (⟨S256x32, .f32⟩ : BufTy).Contents (Elt F) → (⟨S16384x32, .f32⟩ : BufTy).Contents (Elt F)),
    StableHlo.binary main_v14 main_v14 main_v15 (mulf : (⟨S16384x32, .f32⟩ : BufTy).Contents (Elt F) → (⟨S16384x32, .f32⟩ : BufTy).Contents (Elt F) → (⟨S16384x32, .f32⟩ : BufTy).Contents (Elt F)),
    StableHlo.binary main_v9 main_v9 main_v16 (mulf : (⟨S16384x256, .f32⟩ : BufTy).Contents (Elt F) → (⟨S16384x256, .f32⟩ : BufTy).Contents (Elt F) → (⟨S16384x256, .f32⟩ : BufTy).Contents (Elt F)),
    StableHlo.binary main_arg20 main_arg20 main_v17 (mulf : (⟨S256x32, .f32⟩ : BufTy).Contents (Elt F) → (⟨S256x32, .f32⟩ : BufTy).Contents (Elt F) → (⟨S256x32, .f32⟩ : BufTy).Contents (Elt F)),
    StableHlo.binary main_v16 main_v17 main_v18 ((fun l r => Host.dotGeneral dot_S16384x256_S256x32_S16384x32_1_0_0_1_n_n none l r) : (⟨S16384x256, .f32⟩ : BufTy).Contents (Elt F) → (⟨S256x32, .f32⟩ : BufTy).Contents (Elt F) → (⟨S16384x32, .f32⟩ : BufTy).Contents (Elt F)),
    StableHlo.binary main_v15 main_v18 main_v19 (subf : (⟨S16384x32, .f32⟩ : BufTy).Contents (Elt F) → (⟨S16384x32, .f32⟩ : BufTy).Contents (Elt F) → (⟨S16384x32, .f32⟩ : BufTy).Contents (Elt F)),
    StableHlo.nullary main_cst (constant S_ .f32 0x00000000#32),
    StableHlo.binary main_v19 main_cst main_v20 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    StableHlo.unary main_v20 main_v21 (broadcastInDim S16384x1 ![0] bcast_S16384_S16384x1_0 : (⟨S16384, .f32⟩ : BufTy).Contents (Elt F) → (⟨S16384x1, .f32⟩ : BufTy).Contents (Elt F)),
    StableHlo.nullary main_cst_0 (constant S_ .f32 0x3F000000#32),
    StableHlo.unary main_cst_0 main_v22 (broadcastInDim S16384x1 ![] bcast_S_S16384x1 : (⟨S_, .f32⟩ : BufTy).Contents (Elt F) → (⟨S16384x1, .f32⟩ : BufTy).Contents (Elt F)),
    StableHlo.binary main_v22 main_v21 main_v23 (mulf : (⟨S16384x1, .f32⟩ : BufTy).Contents (Elt F) → (⟨S16384x1, .f32⟩ : BufTy).Contents (Elt F) → (⟨S16384x1, .f32⟩ : BufTy).Contents (Elt F)),
    StableHlo.binary main_v13 main_v23 main_v24 (addf : (⟨S16384x1, .f32⟩ : BufTy).Contents (Elt F) → (⟨S16384x1, .f32⟩ : BufTy).Contents (Elt F) → (⟨S16384x1, .f32⟩ : BufTy).Contents (Elt F)),
    StableHlo.binary main_v9 main_arg21 main_v25 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    StableHlo.unary main_arg22 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S16384x128 ![0, 1] bcast_S1x128_S16384x128_0_1 : (⟨S1x128, .f32⟩ : BufTy).Contents (Elt F) → (⟨S16384x128, .f32⟩ : BufTy).Contents (Elt F)),
    StableHlo.binary main_v25 main_v27 main_v28 (addf : (⟨S16384x128, .f32⟩ : BufTy).Contents (Elt F) → (⟨S16384x128, .f32⟩ : BufTy).Contents (Elt F) → (⟨S16384x128, .f32⟩ : BufTy).Contents (Elt F)),
    StableHlo.TRef.nullary main_call9.cst (constant S_ .f32 0x00000000#32),
    StableHlo.TRef.unary main_call9.cst main_call9.v0 (broadcastInDim S16384x128 ![] bcast_S_S16384x128),
    StableHlo.TRef.binary (.of main_v28) main_call9.v0 main_call9.v1 maximumf,
    StableHlo.binary main_v29 main_arg23 main_v30 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.unary main_arg24 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S16384x128 ![0, 1] bcast_S1x128_S16384x128_0_1 : (⟨S1x128, .f32⟩ : BufTy).Contents (Elt F) → (⟨S16384x128, .f32⟩ : BufTy).Contents (Elt F)),
    StableHlo.binary main_v30 main_v32 main_v33 (addf : (⟨S16384x128, .f32⟩ : BufTy).Contents (Elt F) → (⟨S16384x128, .f32⟩ : BufTy).Contents (Elt F) → (⟨S16384x128, .f32⟩ : BufTy).Contents (Elt F)),
    StableHlo.TRef.nullary main_call10.cst (constant S_ .f32 0x00000000#32),
    StableHlo.TRef.unary main_call10.cst main_call10.v0 (broadcastInDim S16384x128 ![] bcast_S_S16384x128),
    StableHlo.TRef.binary (.of main_v33) main_call10.v0 main_call10.v1 maximumf,
    StableHlo.binary main_v34 main_arg25 main_v35 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.unary main_arg26 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S16384x128 ![0, 1] bcast_S1x128_S16384x128_0_1 : (⟨S1x128, .f32⟩ : BufTy).Contents (Elt F) → (⟨S16384x128, .f32⟩ : BufTy).Contents (Elt F)),
    StableHlo.binary main_v35 main_v37 main_v38 (addf : (⟨S16384x128, .f32⟩ : BufTy).Contents (Elt F) → (⟨S16384x128, .f32⟩ : BufTy).Contents (Elt F) → (⟨S16384x128, .f32⟩ : BufTy).Contents (Elt F)),
    StableHlo.TRef.nullary main_call11.cst (constant S_ .f32 0x00000000#32),
    StableHlo.TRef.unary main_call11.cst main_call11.v0 (broadcastInDim S16384x128 ![] bcast_S_S16384x128),
    StableHlo.TRef.binary (.of main_v38) main_call11.v0 main_call11.v1 maximumf,
    StableHlo.binary main_v39 main_arg27 main_v40 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    StableHlo.binary main_v24 main_v40 main_v41 (addf : (⟨S16384x1, .f32⟩ : BufTy).Contents (Elt F) → (⟨S16384x1, .f32⟩ : BufTy).Contents (Elt F) → (⟨S16384x1, .f32⟩ : BufTy).Contents (Elt F)),
    StableHlo.unary main_v41 main_v42 (Host.negf : (⟨S16384x1, .f32⟩ : BufTy).Contents (Elt F) → (⟨S16384x1, .f32⟩ : BufTy).Contents (Elt F)),
    StableHlo.unary main_v42 main_v43 (Host.exp : (⟨S16384x1, .f32⟩ : BufTy).Contents (Elt F) → (⟨S16384x1, .f32⟩ : BufTy).Contents (Elt F)),
    StableHlo.nullary main_cst_1 (constant S_ .f32 0x3F800000#32),
    StableHlo.unary main_cst_1 main_v44 (broadcastInDim S16384x1 ![] bcast_S_S16384x1 : (⟨S_, .f32⟩ : BufTy).Contents (Elt F) → (⟨S16384x1, .f32⟩ : BufTy).Contents (Elt F)),
    StableHlo.binary main_v44 main_v43 main_v45 (addf : (⟨S16384x1, .f32⟩ : BufTy).Contents (Elt F) → (⟨S16384x1, .f32⟩ : BufTy).Contents (Elt F) → (⟨S16384x1, .f32⟩ : BufTy).Contents (Elt F)),
    StableHlo.nullary main_cst_2 (constant S_ .f32 0x3F800000#32),
    StableHlo.unary main_cst_2 main_v46 (broadcastInDim S16384x1 ![] bcast_S_S16384x1 : (⟨S_, .f32⟩ : BufTy).Contents (Elt F) → (⟨S16384x1, .f32⟩ : BufTy).Contents (Elt F)),
    StableHlo.binary main_v46 main_v45 main_v47 (Host.divf : (⟨S16384x1, .f32⟩ : BufTy).Contents (Elt F) → (⟨S16384x1, .f32⟩ : BufTy).Contents (Elt F) → (⟨S16384x1, .f32⟩ : BufTy).Contents (Elt F)) ]

/-- @main's 256 operations. -/
abbrev ops : List (HloOp τ sig (Elt F)) :=
  seg0 ++ (seg1 ++ (seg2 ++ (seg3 ++ (seg4 ++ (seg5 ++ (seg6 ++ (seg7 ++ (seg8 ++ (tail)))))))))

set_option maxRecDepth 4096 in
theorem seg0_eq : fn_take.body (F := F) (.of main_arg9) (.of main_arg0) main_call0 = seq seg0 := by
  simp only [fn_take.body, fn_where.body, seq, bind_assoc, pure_bind]

set_option maxRecDepth 4096 in
theorem seg1_eq : fn_take_0.body (F := F) (.of main_arg10) (.of main_arg1) main_call1 = seq seg1 := by
  simp only [fn_take_0.body, fn_where.body, seq, bind_assoc, pure_bind]

set_option maxRecDepth 4096 in
theorem seg2_eq : fn_take_1.body (F := F) (.of main_arg11) (.of main_arg2) main_call2 = seq seg2 := by
  simp only [fn_take_1.body, fn_where.body, seq, bind_assoc, pure_bind]

set_option maxRecDepth 4096 in
theorem seg3_eq : fn_take_2.body (F := F) (.of main_arg12) (.of main_arg3) main_call3 = seq seg3 := by
  simp only [fn_take_2.body, fn_where.body, seq, bind_assoc, pure_bind]

set_option maxRecDepth 4096 in
theorem seg4_eq : fn_take_3.body (F := F) (.of main_arg13) (.of main_arg4) main_call4 = seq seg4 := by
  simp only [fn_take_3.body, fn_where.body, seq, bind_assoc, pure_bind]

set_option maxRecDepth 4096 in
theorem seg5_eq : fn_take_4.body (F := F) (.of main_arg14) (.of main_arg5) main_call5 = seq seg5 := by
  simp only [fn_take_4.body, fn_where.body, seq, bind_assoc, pure_bind]

set_option maxRecDepth 4096 in
theorem seg6_eq : fn_take_4.body (F := F) (.of main_arg15) (.of main_arg6) main_call6 = seq seg6 := by
  simp only [fn_take_4.body, fn_where.body, seq, bind_assoc, pure_bind]

set_option maxRecDepth 4096 in
theorem seg7_eq : fn_take_5.body (F := F) (.of main_arg16) (.of main_arg7) main_call7 = seq seg7 := by
  simp only [fn_take_5.body, fn_where.body, seq, bind_assoc, pure_bind]

set_option maxRecDepth 4096 in
theorem seg8_eq : fn_take_6.body (F := F) (.of main_arg17) (.of main_arg8) main_call8 = seq seg8 := by
  simp only [fn_take_6.body, fn_where.body, seq, bind_assoc, pure_bind]

set_option maxRecDepth 8192 in
set_option maxHeartbeats 1000000 in
/-- @main is that straight line: each lookup's call is its list, the remaining operations are their own. -/
theorem main_eq (c : Dev nD) : main (F := F) c = seq ops := by
  simp only [ops, seq_append, ← seg0_eq, ← seg1_eq, ← seg2_eq, ← seg3_eq, ← seg4_eq, ← seg5_eq, ← seg6_eq, ← seg7_eq, ← seg8_eq]
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem seg0_sub : (seg0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem seg0_fresh : ∀ op ∈ (seg0 : List (HloOp τ sig (Elt F))), op.fresh = ∅ := by
  intro _ h; (repeat (cases h with | head => rfl | tail _ h => ?_)); exact nomatch h

theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem seg1_fresh : ∀ op ∈ (seg1 : List (HloOp τ sig (Elt F))), op.fresh = ∅ := by
  intro _ h; (repeat (cases h with | head => rfl | tail _ h => ?_)); exact nomatch h

theorem seg2_sub : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem seg2_fresh : ∀ op ∈ (seg2 : List (HloOp τ sig (Elt F))), op.fresh = ∅ := by
  intro _ h; (repeat (cases h with | head => rfl | tail _ h => ?_)); exact nomatch h

theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem seg3_fresh : ∀ op ∈ (seg3 : List (HloOp τ sig (Elt F))), op.fresh = ∅ := by
  intro _ h; (repeat (cases h with | head => rfl | tail _ h => ?_)); exact nomatch h

theorem seg4_sub : (seg4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem seg4_fresh : ∀ op ∈ (seg4 : List (HloOp τ sig (Elt F))), op.fresh = ∅ := by
  intro _ h; (repeat (cases h with | head => rfl | tail _ h => ?_)); exact nomatch h

theorem seg5_sub : (seg5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem seg5_fresh : ∀ op ∈ (seg5 : List (HloOp τ sig (Elt F))), op.fresh = ∅ := by
  intro _ h; (repeat (cases h with | head => rfl | tail _ h => ?_)); exact nomatch h

theorem seg6_sub : (seg6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem seg6_fresh : ∀ op ∈ (seg6 : List (HloOp τ sig (Elt F))), op.fresh = ∅ := by
  intro _ h; (repeat (cases h with | head => rfl | tail _ h => ?_)); exact nomatch h

theorem seg7_sub : (seg7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem seg7_fresh : ∀ op ∈ (seg7 : List (HloOp τ sig (Elt F))), op.fresh = ∅ := by
  intro _ h; (repeat (cases h with | head => rfl | tail _ h => ?_)); exact nomatch h

theorem seg8_sub : (seg8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem seg8_fresh : ∀ op ∈ (seg8 : List (HloOp τ sig (Elt F))), op.fresh = ∅ := by
  intro _ h; (repeat (cases h with | head => rfl | tail _ h => ?_)); exact nomatch h

theorem tail_sub : (tail : List (HloOp τ sig (Elt F))).Forall fun op => op.bufs ⊆ tcRefs τ sig :=
  ⟨nary_bufs_sub .., binary_bufs_sub .., unary_bufs_sub .., unary_bufs_sub .., binary_bufs_sub .., binary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩
theorem tail_fresh : ∀ op ∈ (tail : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp seg0_sub op h, List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h, List.forall_iff_forall_mem.mp seg8_sub op h, List.forall_iff_forall_mem.mp tail_sub op h]

theorem ops_fresh : ∀ op ∈ (ops : List (HloOp τ sig (Elt F))), op.fresh = ∅ := fun op h => by
  simp only [ops, List.mem_append] at h
  rcases h with h | h | h | h | h | h | h | h | h | h
  exacts [seg0_fresh op h, seg1_fresh op h, seg2_fresh op h, seg3_fresh op h, seg4_fresh op h, seg5_fresh op h, seg6_fresh op h, seg7_fresh op h, seg8_fresh op h, tail_fresh op h]

end Cert.ReferenceIdeal.RefRun

end
-- ==== Proof.RefLemmas.lean ====
/- Operations read at an index, with no program in sight: a conjunction-fold of ones, a row gather of a two-axis table,
   a plain matrix product from zero, and the signed reading of a small unsigned word. -/
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.Affine
import proofs.«205263_g58420145160647_cont_9to1_m_909_25_alg».proof.Proof.Tc2Math

noncomputable section

open scoped BigOperators

namespace Cert.RefLemmas

open Idealize.ShloMosaic Idealize.ShloMosaic.ValueIdx Cert.Tc2Math

/-! ## A conjunction over ones -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from one over an array of ones is one at every index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-! ## A small unsigned word read signed -/

theorem toInt_of_lt {v : BitVec 32} {n : ℕ} (hv : v.toNat < n) (hn : n ≤ 2 ^ 31) : v.toInt = (v.toNat : ℤ) := by
  rw [BitVec.toInt_eq_toNat_cond]
  split
  · rfl
  · omega

/-! ## A row gather -/

section Gather
variable {α : Type}

/-- The dimension numbers of `take(tab, idx, axis = 0)` on an `N × D` table at a column of 16384 start indices. -/
abbrev rowDims (N D : ℕ)
    (wf : GatherDims.WF (⟨2, ![N, D]⟩ : Shape) (⟨2, ![16384, 1]⟩ : Shape) (⟨2, ![16384, D]⟩ : Shape) [1] [0] [] [0] [] 1 ![1, D]) :
    GatherDims (⟨2, ![N, D]⟩ : Shape) (⟨2, ![16384, 1]⟩ : Shape) (⟨2, ![16384, D]⟩ : Shape) where
  offsetDims := [1]
  collapsedSliceDims := [0]
  operandBatchingDims := []
  startIndicesBatchingDims := []
  startIndexMap := [0]
  indexVectorDim := 1
  sliceSizes := ![1, D]
  wf := wf

/-- The gather read at `(r, j)`: the table at the start index of row `r`, read signed and clamped into `[0, N − 1]`,
    and column `j`. -/
theorem gather_rows_apply {N D w : ℕ} (hN : 0 < N)
    (wf : GatherDims.WF (⟨2, ![N, D]⟩ : Shape) (⟨2, ![16384, 1]⟩ : Shape) (⟨2, ![16384, D]⟩ : Shape) [1] [0] [] [0] [] 1 ![1, D])
    (x : (⟨2, ![N, D]⟩ : Shape).Idx → α) (idx : IVec (⟨2, ![16384, 1]⟩ : Shape) w) (r : Fin 16384) (j : Fin D) :
    Host.gather (rowDims N D wf) x idx (ix2 r j)
      = x (ix2 ⟨min (idx (ix2 r 0)).toInt.toNat (N - 1), by omega⟩ j) := by
  unfold Host.gather
  have h0 : (rowDims N D wf).start (ix2 r j) idx (0 : Fin 2) + (rowDims N D wf).batchCoord (ix2 r j) (0 : Fin 2)
      + (rowDims N D wf).offCoord (ix2 r j) (0 : Fin 2) = min (idx (ix2 r 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D wf).startIndexMap from List.mem_singleton.mpr rfl)]
    have hsi : (rowDims N D wf).siIdx (ix2 r j) ⟨List.idxOf (0 : Fin 2) (rowDims N D wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  have h1 : (rowDims N D wf).start (ix2 r j) idx (1 : Fin 2) + (rowDims N D wf).batchCoord (ix2 r j) (1 : Fin 2)
      + (rowDims N D wf).offCoord (ix2 r j) (1 : Fin 2) = j.val := by
    have hs : (rowDims N D wf).start (ix2 r j) idx (1 : Fin 2) = 0 := by
      unfold GatherDims.start
      rw [dif_neg (show (1 : Fin 2) ∉ ([0] : List (Fin 2)) by decide)]
    have hk : (1 : Fin 2) ∈ (rowDims N D wf).sKept :=
      (GatherDims.mem_sKept _ _).mpr ⟨show (1 : Fin 2) ∉ ([0] : List (Fin 2)) by decide, List.not_mem_nil⟩
    have ho : (rowDims N D wf).offCoord (ix2 r j) (1 : Fin 2) = j.val := by
      unfold GatherDims.offCoord
      rw [dif_pos hk]
      rfl
    rw [hs, GatherDims.batchCoord_eq_zero _ _ _ List.not_mem_nil, ho]
    omega
  congr 1
  funext a
  refine Fin.ext ?_
  match a with
  | ⟨0, _⟩ => exact h0
  | ⟨1, _⟩ => exact h1

end Gather

/-! ## A plain product from zero -/

/-- `dot_general` of an `M × K` by a `K × N` array, contracting the inner axis, at `(p, j)`. -/
theorem dot_apply (M K N : ℕ) (D : DotDims (⟨2, ![M, K]⟩ : Shape) (⟨2, ![K, N]⟩ : Shape) (⟨2, ![M, N]⟩ : Shape))
    (hD : D = DotDims.plain M K N) (A : FVec Ideal (⟨2, ![M, K]⟩ : Shape) .f32) (B : FVec Ideal (⟨2, ![K, N]⟩ : Shape) .f32)
    (p : Fin M) (j : Fin N) :
    Host.dotGeneral D none A B (ix2 p j) = ∑ k : Fin K, A (ix2 p k) * B (ix2 k j) := by
  subst hD
  rw [← matmul_plain_zero_apply M K N none A B p j]
  show Ideal.matmul _ A B (fun _ => 0) _ = Ideal.matmul _ A B (constant (F := Ideal) _ .f32 0x00000000#32) _
  unfold Ideal.matmul
  rw [constant_apply, Ideal.ofBits_zero_f32]

end Cert.RefLemmas

end
-- ==== Proof.RefTake.lean ====
/- One lookup of the reference read at an index: where the index array names rows of the table, `takeRows` is the table's
   row; and the nine lookups side by side are the specification's embedding. -/
import proofs.«205263_g58420145160647_cont_9to1_m_909_25_alg».proof.Proof.RefOps
import proofs.«205263_g58420145160647_cont_9to1_m_909_25_alg».proof.Proof.Spec
import proofs.«205263_g58420145160647_cont_9to1_m_909_25_alg».proof.Proof.RefLemmas
import Idealize.ShloMosaic.Lib.Pipeline.Value

noncomputable section

open scoped BigOperators

namespace Cert.ReferenceIdeal.RefValue

open Cert.ReferenceIdeal Cert.ReferenceIdeal.Gen Cert.ReferenceIdeal.RefRun Cert.RefLemmas
open Idealize.ShloMosaic Idealize.ShloMosaic.ValueIdx

/-! ## Broadcasts read at an index -/

section Bcast
variable {α : Type}

/-- A column of 16384 entries laid along `D` columns: entry `r` at `(r, j)`. -/
theorem bcast_rows_apply {D : ℕ} (h : S16384.BroadcastsInDim (⟨2, ![16384, D]⟩ : Shape) (![0] : Fin 1 → Fin 2))
    (x : S16384.Idx → α) (r : Fin 16384) (j : Fin D) :
    broadcastInDim (⟨2, ![16384, D]⟩ : Shape) ![0] h x (ix2 r j) = x (ix1 r) := by
  unfold broadcastInDim
  congr 1
  funext a
  match a with
  | ⟨0, _⟩ => rfl

/-- The same at any index of the one-column shape. -/
theorem bcast_col_apply (h : S16384.BroadcastsInDim S16384x1 (![0] : Fin 1 → Fin 2)) (x : S16384.Idx → α) (i : S16384x1.Idx) :
    broadcastInDim S16384x1 ![0] h x i = x (ix1 ⟨(i 0).val, idx2_lt0 i⟩) := by
  unfold broadcastInDim
  congr 1
  funext a
  match a with
  | ⟨0, _⟩ => rfl

end Bcast

/-! ## The normalised index and the bounds mask -/

theorem wrapIdx_apply (n : BitVec 32) (idx : IVec S16384 32) (i : S16384x1.Idx) :
    wrapIdx n idx i = Scalar.select (IntOp.cmpi .slt (idx (ix1 ⟨(i 0).val, idx2_lt0 i⟩)) 0#32)
      (IntOp.addi (idx (ix1 ⟨(i 0).val, idx2_lt0 i⟩)) n) (idx (ix1 ⟨(i 0).val, idx2_lt0 i⟩)) := by
  unfold wrapIdx
  rw [bcast_col_apply]
  rfl

/-- An index that names a row is left as it is. -/
theorem wrapIdx_inRange {N : ℕ} (hN31 : N ≤ 2 ^ 31) (n : BitVec 32) (idx : IVec S16384 32) (hidx : Cert.Spec.InRange N idx)
    (i : S16384x1.Idx) : wrapIdx n idx i = idx (ix1 ⟨(i 0).val, idx2_lt0 i⟩) := by
  have hv := hidx ⟨(i 0).val, idx2_lt0 i⟩
  have hc : IntOp.cmpi .slt (idx (ix1 ⟨(i 0).val, idx2_lt0 i⟩)) 0#32 = 0#1 := eq_zero_of_ne_one fun h => by
    have h' := IntOp.cmpi_slt.mp h
    rw [toInt_of_lt hv hN31] at h'
    have : (0#32 : BitVec 32).toInt = 0 := by decide
    omega
  rw [wrapIdx_apply, hc, select_zero]

/-- … and passes the bounds test. -/
theorem inRange_one {N : ℕ} (hN31 : N ≤ 2 ^ 31) (n hi : BitVec 32) (hhi : hi.toInt = (N : ℤ) - 1) (idx : IVec S16384 32)
    (hidx : Cert.Spec.InRange N idx) (j : S16384.Idx) : inRange hi (wrapIdx n idx) j = 1#1 := by
  unfold inRange
  refine reduce_andi_one _ _ _ _ _ rfl fun i => ?_
  show IntOp.andi (IntOp.cmpi .sge (wrapIdx n idx i) 0#32) (IntOp.cmpi .sle (wrapIdx n idx i) hi) = 1#1
  rw [wrapIdx_inRange hN31 n idx hidx i]
  have hv := hidx ⟨(i 0).val, idx2_lt0 i⟩
  have h0 : (0#32 : BitVec 32).toInt = 0 := by decide
  rw [IntOp.cmpi_sge.mpr (by rw [toInt_of_lt hv hN31, h0]; omega),
    IntOp.cmpi_sle.mpr (by rw [toInt_of_lt hv hN31, hhi]; omega)]
  decide

/-! ## One lookup -/

/-- Where the index array names rows of the table, the lookup at `(r, j)` is the table at that row and column `j`. -/
theorem takeRows_apply {N D : ℕ} (hN : 0 < N) (hN31 : N ≤ 2 ^ 31)
    (wf : GatherDims.WF (⟨2, ![N, D]⟩ : Shape) (⟨2, ![16384, 1]⟩ : Shape) (⟨2, ![16384, D]⟩ : Shape) [1] [0] [] [0] [] 1 ![1, D])
    (hm : S16384.BroadcastsInDim (⟨2, ![16384, D]⟩ : Shape) (![0] : Fin 1 → Fin 2))
    (hf : S_.BroadcastsInDim (⟨2, ![16384, D]⟩ : Shape) (![] : Fin 0 → Fin 2))
    (n hi : BitVec 32) (hhi : hi.toInt = (N : ℤ) - 1)
    (tab : FVec Ideal (⟨2, ![N, D]⟩ : Shape) .f32) (idx : IVec S16384 32) (hidx : Cert.Spec.InRange N idx)
    (r : Fin 16384) (j : Fin D) :
    takeRows (F := Ideal) (rowDims N D wf) hm hf n hi tab idx (ix2 r j)
      = tab (ix2 (Cert.Spec.rowOf N hN (idx (ix1 r))) j) := by
  unfold takeRows
  rw [select_apply, bcast_rows_apply, inRange_one hN31 n hi hhi idx hidx, select_one, gather_rows_apply hN wf]
  have hv := hidx r
  congr 1
  funext a
  refine Fin.ext ?_
  match a with
  | ⟨0, _⟩ =>
    show min (wrapIdx n idx (ix2 r 0)).toInt.toNat (N - 1) = (Cert.Spec.rowOf N hN (idx (ix1 r))).val
    rw [wrapIdx_inRange hN31 n idx hidx]
    show min (idx (ix1 r)).toInt.toNat (N - 1) = (Cert.Spec.rowOf N hN (idx (ix1 r))).val
    rw [Cert.Spec.rowOf_val hN hv, toInt_of_lt hv hN31, Int.toNat_natCast]
    omega
  | ⟨1, _⟩ => rfl

/-! ## The nine lookups side by side -/

section Emb

variable (uid age gen wd hr mi se it cat : IVec S16384 32)
  (utab : FVec Ideal S1000000x64 .f32) (agetab : FVec Ideal S100x64 .f32) (gentab : FVec Ideal S5x8 .f32)
  (wdtab : FVec Ideal S8x16 .f32) (hrtab : FVec Ideal S25x8 .f32) (mitab : FVec Ideal S61x8 .f32)
  (setab : FVec Ideal S61x8 .f32) (ittab : FVec Ideal S500x64 .f32) (cattab : FVec Ideal S40x16 .f32)

set_option maxRecDepth 8192 in
set_option maxHeartbeats 1000000 in
/-- Under the range hypothesis the reference's embedding is the specification's, entry by entry. -/
theorem embedding_apply (hd : Cert.Spec.Dom uid age gen wd hr mi se it cat) (r : Fin 16384) (c : Fin 256) :
    embedding (F := Ideal) uid age gen wd hr mi se it cat utab agetab gentab wdtab hrtab mitab setab ittab cattab (ix2 r c)
      = Cert.Spec.emb uid age gen wd hr mi se it cat utab agetab gentab wdtab hrtab mitab setab ittab cattab r c := by
  have hside : ∀ (D : ℕ) (x : Fin D) (hr : (⟨2, ![16384, D]⟩ : Shape).rank = S16384x256.rank) (b : Fin (⟨2, ![16384, D]⟩ : Shape).rank),
      b.cast hr ≠ (1 : Fin S16384x256.rank) → ((ix2 r x : (⟨2, ![16384, D]⟩ : Shape).Idx) b).val = ((ix2 r c : S16384x256.Idx) (b.cast hr)).val := by
    intro D x hr b hb
    match b with
    | ⟨0, _⟩ => rfl
    | ⟨1, _⟩ => exact absurd rfl hb
  unfold embedding embOf Cert.Spec.emb
  by_cases h0 : c.val < 64
  ·
    rw [dif_pos h0]
    rw [concatenate_apply_piece (1 : Fin S16384x256.rank) _ _ (ix2 r c) 0 (by show (0 : ℕ) < 9; omega) S16384x64 _ rfl rfl 0 rfl
      (ix2 r ⟨c.val, h0⟩) (hside 64 _ rfl) (by show 0 + (c.val - 0) = c.val; omega)]
    exact takeRows_apply (N := 1000000) (D := 64) (by decide) (by decide) gather_S1000000x64_S16384x1_S16384x64_1_0_n_n_0_1_164_wf bcast_S16384_S16384x64_0 bcast_S_S16384x64
      1000000#32 999999#32 (by decide) utab uid hd.uid r _
  by_cases h1 : c.val < 128
  ·
    rw [dif_neg h0, dif_pos h1]
    rw [concatenate_apply_piece (1 : Fin S16384x256.rank) _ _ (ix2 r c) 1 (by show (1 : ℕ) < 9; omega) S16384x64 _ rfl rfl 64 rfl
      (ix2 r ⟨c.val - 64, by have := c.isLt; omega⟩) (hside 64 _ rfl) (by show 64 + (c.val - 64) = c.val; omega)]
    exact takeRows_apply (N := 100) (D := 64) (by decide) (by decide) gather_S100x64_S16384x1_S16384x64_1_0_n_n_0_1_164_wf bcast_S16384_S16384x64_0 bcast_S_S16384x64
      100#32 99#32 (by decide) agetab age hd.age r _
  by_cases h2 : c.val < 136
  ·
    rw [dif_neg h0, dif_neg h1, dif_pos h2]
    rw [concatenate_apply_piece (1 : Fin S16384x256.rank) _ _ (ix2 r c) 2 (by show (2 : ℕ) < 9; omega) S16384x8 _ rfl rfl 128 rfl
      (ix2 r ⟨c.val - 128, by have := c.isLt; omega⟩) (hside 8 _ rfl) (by show 128 + (c.val - 128) = c.val; omega)]
    exact takeRows_apply (N := 5) (D := 8) (by decide) (by decide) gather_S5x8_S16384x1_S16384x8_1_0_n_n_0_1_18_wf bcast_S16384_S16384x8_0 bcast_S_S16384x8
      5#32 4#32 (by decide) gentab gen hd.gen r _
  by_cases h3 : c.val < 152
  ·
    rw [dif_neg h0, dif_neg h1, dif_neg h2, dif_pos h3]
    rw [concatenate_apply_piece (1 : Fin S16384x256.rank) _ _ (ix2 r c) 3 (by show (3 : ℕ) < 9; omega) S16384x16 _ rfl rfl 136 rfl
      (ix2 r ⟨c.val - 136, by have := c.isLt; omega⟩) (hside 16 _ rfl) (by show 136 + (c.val - 136) = c.val; omega)]
    exact takeRows_apply (N := 8) (D := 16) (by decide) (by decide) gather_S8x16_S16384x1_S16384x16_1_0_n_n_0_1_116_wf bcast_S16384_S16384x16_0 bcast_S_S16384x16
      8#32 7#32 (by decide) wdtab wd hd.wd r _
  by_cases h4 : c.val < 160
  ·
    rw [dif_neg h0, dif_neg h1, dif_neg h2, dif_neg h3, dif_pos h4]
    rw [concatenate_apply_piece (1 : Fin S16384x256.rank) _ _ (ix2 r c) 4 (by show (4 : ℕ) < 9; omega) S16384x8 _ rfl rfl 152 rfl
      (ix2 r ⟨c.val - 152, by have := c.isLt; omega⟩) (hside 8 _ rfl) (by show 152 + (c.val - 152) = c.val; omega)]
    exact takeRows_apply (N := 25) (D := 8) (by decide) (by decide) gather_S25x8_S16384x1_S16384x8_1_0_n_n_0_1_18_wf bcast_S16384_S16384x8_0 bcast_S_S16384x8
      25#32 24#32 (by decide) hrtab hr hd.hr r _
  by_cases h5 : c.val < 168
  ·
    rw [dif_neg h0, dif_neg h1, dif_neg h2, dif_neg h3, dif_neg h4, dif_pos h5]
    rw [concatenate_apply_piece (1 : Fin S16384x256.rank) _ _ (ix2 r c) 5 (by show (5 : ℕ) < 9; omega) S16384x8 _ rfl rfl 160 rfl
      (ix2 r ⟨c.val - 160, by have := c.isLt; omega⟩) (hside 8 _ rfl) (by show 160 + (c.val - 160) = c.val; omega)]
    exact takeRows_apply (N := 61) (D := 8) (by decide) (by decide) gather_S61x8_S16384x1_S16384x8_1_0_n_n_0_1_18_wf bcast_S16384_S16384x8_0 bcast_S_S16384x8
      61#32 60#32 (by decide) mitab mi hd.mi r _
  by_cases h6 : c.val < 176
  ·
    rw [dif_neg h0, dif_neg h1, dif_neg h2, dif_neg h3, dif_neg h4, dif_neg h5, dif_pos h6]
    rw [concatenate_apply_piece (1 : Fin S16384x256.rank) _ _ (ix2 r c) 6 (by show (6 : ℕ) < 9; omega) S16384x8 _ rfl rfl 168 rfl
      (ix2 r ⟨c.val - 168, by have := c.isLt; omega⟩) (hside 8 _ rfl) (by show 168 + (c.val - 168) = c.val; omega)]
    exact takeRows_apply (N := 61) (D := 8) (by decide) (by decide) gather_S61x8_S16384x1_S16384x8_1_0_n_n_0_1_18_wf bcast_S16384_S16384x8_0 bcast_S_S16384x8
      61#32 60#32 (by decide) setab se hd.se r _
  by_cases h7 : c.val < 240
  ·
    rw [dif_neg h0, dif_neg h1, dif_neg h2, dif_neg h3, dif_neg h4, dif_neg h5, dif_neg h6, dif_pos h7]
    rw [concatenate_apply_piece (1 : Fin S16384x256.rank) _ _ (ix2 r c) 7 (by show (7 : ℕ) < 9; omega) S16384x64 _ rfl rfl 176 rfl
      (ix2 r ⟨c.val - 176, by have := c.isLt; omega⟩) (hside 64 _ rfl) (by show 176 + (c.val - 176) = c.val; omega)]
    exact takeRows_apply (N := 500) (D := 64) (by decide) (by decide) gather_S500x64_S16384x1_S16384x64_1_0_n_n_0_1_164_wf bcast_S16384_S16384x64_0 bcast_S_S16384x64
      500#32 499#32 (by decide) ittab it hd.it r _
  ·
    rw [dif_neg h0, dif_neg h1, dif_neg h2, dif_neg h3, dif_neg h4, dif_neg h5, dif_neg h6, dif_neg h7]
    rw [concatenate_apply_piece (1 : Fin S16384x256.rank) _ _ (ix2 r c) 8 (by show (8 : ℕ) < 9; omega) S16384x16 _ rfl rfl 240 rfl
      (ix2 r ⟨c.val - 240, by have := c.isLt; omega⟩) (hside 16 _ rfl) (by show 240 + (c.val - 240) = c.val; omega)]
    exact takeRows_apply (N := 40) (D := 16) (by decide) (by decide) gather_S40x16_S16384x1_S16384x16_1_0_n_n_0_1_116_wf bcast_S16384_S16384x16_0 bcast_S_S16384x16
      40#32 39#32 (by decide) cattab cat hd.cat r _

end Emb

end Cert.ReferenceIdeal.RefValue

end
-- ==== Proof.RefVals.lean ====
/- What each buffer holds after the reference's nine lookups, lookup by lookup: each leaves its one result at `takeRows` of its
   table and index array, and a buffer a lookup does not write keeps its contents. -/
import proofs.«205263_g58420145160647_cont_9to1_m_909_25_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The buffers after each list

`valK V0` is what the device's buffers hold after the first `K` lists, from contents `V0`; a buffer a list does not
write keeps its contents through it, and the one result each lookup leaves is `takeRows` of its table and index array. -/

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl
theorem val0_main_arg21 (V0 : Valuation τ sig (Elt F)) : val0 V0 (no_index (Proc.devRef .tc main_arg21)) = V0 (Proc.devRef .tc main_arg21) := rfl
theorem val0_main_arg22 (V0 : Valuation τ sig (Elt F)) : val0 V0 (no_index (Proc.devRef .tc main_arg22)) = V0 (Proc.devRef .tc main_arg22) := rfl
theorem val0_main_arg23 (V0 : Valuation τ sig (Elt F)) : val0 V0 (no_index (Proc.devRef .tc main_arg23)) = V0 (Proc.devRef .tc main_arg23) := rfl
theorem val0_main_arg24 (V0 : Valuation τ sig (Elt F)) : val0 V0 (no_index (Proc.devRef .tc main_arg24)) = V0 (Proc.devRef .tc main_arg24) := rfl
theorem val0_main_arg25 (V0 : Valuation τ sig (Elt F)) : val0 V0 (no_index (Proc.devRef .tc main_arg25)) = V0 (Proc.devRef .tc main_arg25) := rfl
theorem val0_main_arg26 (V0 : Valuation τ sig (Elt F)) : val0 V0 (no_index (Proc.devRef .tc main_arg26)) = V0 (Proc.devRef .tc main_arg26) := rfl
theorem val0_main_arg27 (V0 : Valuation τ sig (Elt F)) : val0 V0 (no_index (Proc.devRef .tc main_arg27)) = V0 (Proc.devRef .tc main_arg27) := rfl

/-- The buffers after the first 1 list. -/
def val1 (V0 : Valuation τ sig (Elt F)) : Valuation τ sig (Elt F) := after seg0 (val0 V0)
/-- The buffers `seg0` writes. -/
abbrev seg0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
set_option maxRecDepth 8192 in
theorem seg0_writes : (seg0 : List (HloOp τ sig (Elt F))).Forall fun op =>
    op.writes ⊆ (seg0_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val1_keep (V0 : Valuation τ sig (Elt F)) (r : Ref sig .tc) (h : r ∉ seg0_W) :
    val1 V0 (Proc.devRef .tc r) = val0 V0 (Proc.devRef .tc r) :=
  after_of_writes_sub seg0 _ seg0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_arg20 (V0 : Valuation τ sig (Elt F)) : val1 V0 (no_index (Proc.devRef .tc main_arg20)) = V0 (Proc.devRef .tc main_arg20) :=
  (val1_keep V0 main_arg20 (by decide)).trans (val0_main_arg20 V0)
theorem val1_main_arg21 (V0 : Valuation τ sig (Elt F)) : val1 V0 (no_index (Proc.devRef .tc main_arg21)) = V0 (Proc.devRef .tc main_arg21) :=
  (val1_keep V0 main_arg21 (by decide)).trans (val0_main_arg21 V0)
theorem val1_main_arg22 (V0 : Valuation τ sig (Elt F)) : val1 V0 (no_index (Proc.devRef .tc main_arg22)) = V0 (Proc.devRef .tc main_arg22) :=
  (val1_keep V0 main_arg22 (by decide)).trans (val0_main_arg22 V0)
theorem val1_main_arg23 (V0 : Valuation τ sig (Elt F)) : val1 V0 (no_index (Proc.devRef .tc main_arg23)) = V0 (Proc.devRef .tc main_arg23) :=
  (val1_keep V0 main_arg23 (by decide)).trans (val0_main_arg23 V0)
theorem val1_main_arg24 (V0 : Valuation τ sig (Elt F)) : val1 V0 (no_index (Proc.devRef .tc main_arg24)) = V0 (Proc.devRef .tc main_arg24) :=
  (val1_keep V0 main_arg24 (by decide)).trans (val0_main_arg24 V0)
theorem val1_main_arg25 (V0 : Valuation τ sig (Elt F)) : val1 V0 (no_index (Proc.devRef .tc main_arg25)) = V0 (Proc.devRef .tc main_arg25) :=
  (val1_keep V0 main_arg25 (by decide)).trans (val0_main_arg25 V0)
theorem val1_main_arg26 (V0 : Valuation τ sig (Elt F)) : val1 V0 (no_index (Proc.devRef .tc main_arg26)) = V0 (Proc.devRef .tc main_arg26) :=
  (val1_keep V0 main_arg26 (by decide)).trans (val0_main_arg26 V0)
theorem val1_main_arg27 (V0 : Valuation τ sig (Elt F)) : val1 V0 (no_index (Proc.devRef .tc main_arg27)) = V0 (Proc.devRef .tc main_arg27) :=
  (val1_keep V0 main_arg27 (by decide)).trans (val0_main_arg27 V0)
set_option maxRecDepth 100000 in
set_option maxHeartbeats 2000000 in
theorem val1_main_v0 (V0 : Valuation τ sig (Elt F)) : val1 V0 (no_index (Proc.devRef .tc main_v0)) =
    takeRows gather_S1000000x64_S16384x1_S16384x64_1_0_n_n_0_1_164 bcast_S16384_S16384x64_0 bcast_S_S16384x64 1000000#32 999999#32 (V0 (Proc.devRef .tc main_arg9)) (V0 (Proc.devRef .tc main_arg0)) := by
  unfold val1
  simp only [seg0]
  after_results_simp
  simp only [val0_main_arg9, val0_main_arg0, cast_cast, cast_eq]
  rfl

/-- The buffers after the first 2 lists. -/
def val2 (V0 : Valuation τ sig (Elt F)) : Valuation τ sig (Elt F) := after seg1 (val1 V0)
/-- The buffers `seg1` writes. -/
abbrev seg1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
set_option maxRecDepth 8192 in
theorem seg1_writes : (seg1 : List (HloOp τ sig (Elt F))).Forall fun op =>
    op.writes ⊆ (seg1_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val2_keep (V0 : Valuation τ sig (Elt F)) (r : Ref sig .tc) (h : r ∉ seg1_W) :
    val2 V0 (Proc.devRef .tc r) = val1 V0 (Proc.devRef .tc r) :=
  after_of_writes_sub seg1 _ seg1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_arg21 (V0 : Valuation τ sig (Elt F)) : val2 V0 (no_index (Proc.devRef .tc main_arg21)) = V0 (Proc.devRef .tc main_arg21) :=
  (val2_keep V0 main_arg21 (by decide)).trans (val1_main_arg21 V0)
theorem val2_main_arg22 (V0 : Valuation τ sig (Elt F)) : val2 V0 (no_index (Proc.devRef .tc main_arg22)) = V0 (Proc.devRef .tc main_arg22) :=
  (val2_keep V0 main_arg22 (by decide)).trans (val1_main_arg22 V0)
theorem val2_main_arg23 (V0 : Valuation τ sig (Elt F)) : val2 V0 (no_index (Proc.devRef .tc main_arg23)) = V0 (Proc.devRef .tc main_arg23) :=
  (val2_keep V0 main_arg23 (by decide)).trans (val1_main_arg23 V0)
theorem val2_main_arg24 (V0 : Valuation τ sig (Elt F)) : val2 V0 (no_index (Proc.devRef .tc main_arg24)) = V0 (Proc.devRef .tc main_arg24) :=
  (val2_keep V0 main_arg24 (by decide)).trans (val1_main_arg24 V0)
theorem val2_main_arg25 (V0 : Valuation τ sig (Elt F)) : val2 V0 (no_index (Proc.devRef .tc main_arg25)) = V0 (Proc.devRef .tc main_arg25) :=
  (val2_keep V0 main_arg25 (by decide)).trans (val1_main_arg25 V0)
theorem val2_main_arg26 (V0 : Valuation τ sig (Elt F)) : val2 V0 (no_index (Proc.devRef .tc main_arg26)) = V0 (Proc.devRef .tc main_arg26) :=
  (val2_keep V0 main_arg26 (by decide)).trans (val1_main_arg26 V0)
theorem val2_main_arg27 (V0 : Valuation τ sig (Elt F)) : val2 V0 (no_index (Proc.devRef .tc main_arg27)) = V0 (Proc.devRef .tc main_arg27) :=
  (val2_keep V0 main_arg27 (by decide)).trans (val1_main_arg27 V0)
theorem val2_main_v0 (V0 : Valuation τ sig (Elt F)) : val2 V0 (no_index (Proc.devRef .tc main_v0)) =
    takeRows gather_S1000000x64_S16384x1_S16384x64_1_0_n_n_0_1_164 bcast_S16384_S16384x64_0 bcast_S_S16384x64 1000000#32 999999#32 (V0 (Proc.devRef .tc main_arg9)) (V0 (Proc.devRef .tc main_arg0)) :=
  (val2_keep V0 main_v0 (by decide)).trans (val1_main_v0 V0)
set_option maxRecDepth 100000 in
set_option maxHeartbeats 2000000 in
theorem val2_main_v1 (V0 : Valuation τ sig (Elt F)) : val2 V0 (no_index (Proc.devRef .tc main_v1)) =
    takeRows gather_S100x64_S16384x1_S16384x64_1_0_n_n_0_1_164 bcast_S16384_S16384x64_0 bcast_S_S16384x64 100#32 99#32 (V0 (Proc.devRef .tc main_arg10)) (V0 (Proc.devRef .tc main_arg1)) := by
  unfold val2
  simp only [seg1]
  after_results_simp
  simp only [val1_main_arg10, val1_main_arg1, cast_cast, cast_eq]
  rfl

/-- The buffers after the first 3 lists. -/
def val3 (V0 : Valuation τ sig (Elt F)) : Valuation τ sig (Elt F) := after seg2 (val2 V0)
/-- The buffers `seg2` writes. -/
abbrev seg2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v2]
set_option maxRecDepth 8192 in
theorem seg2_writes : (seg2 : List (HloOp τ sig (Elt F))).Forall fun op =>
    op.writes ⊆ (seg2_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val3_keep (V0 : Valuation τ sig (Elt F)) (r : Ref sig .tc) (h : r ∉ seg2_W) :
    val3 V0 (Proc.devRef .tc r) = val2 V0 (Proc.devRef .tc r) :=
  after_of_writes_sub seg2 _ seg2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_arg21 (V0 : Valuation τ sig (Elt F)) : val3 V0 (no_index (Proc.devRef .tc main_arg21)) = V0 (Proc.devRef .tc main_arg21) :=
  (val3_keep V0 main_arg21 (by decide)).trans (val2_main_arg21 V0)
theorem val3_main_arg22 (V0 : Valuation τ sig (Elt F)) : val3 V0 (no_index (Proc.devRef .tc main_arg22)) = V0 (Proc.devRef .tc main_arg22) :=
  (val3_keep V0 main_arg22 (by decide)).trans (val2_main_arg22 V0)
theorem val3_main_arg23 (V0 : Valuation τ sig (Elt F)) : val3 V0 (no_index (Proc.devRef .tc main_arg23)) = V0 (Proc.devRef .tc main_arg23) :=
  (val3_keep V0 main_arg23 (by decide)).trans (val2_main_arg23 V0)
theorem val3_main_arg24 (V0 : Valuation τ sig (Elt F)) : val3 V0 (no_index (Proc.devRef .tc main_arg24)) = V0 (Proc.devRef .tc main_arg24) :=
  (val3_keep V0 main_arg24 (by decide)).trans (val2_main_arg24 V0)
theorem val3_main_arg25 (V0 : Valuation τ sig (Elt F)) : val3 V0 (no_index (Proc.devRef .tc main_arg25)) = V0 (Proc.devRef .tc main_arg25) :=
  (val3_keep V0 main_arg25 (by decide)).trans (val2_main_arg25 V0)
theorem val3_main_arg26 (V0 : Valuation τ sig (Elt F)) : val3 V0 (no_index (Proc.devRef .tc main_arg26)) = V0 (Proc.devRef .tc main_arg26) :=
  (val3_keep V0 main_arg26 (by decide)).trans (val2_main_arg26 V0)
theorem val3_main_arg27 (V0 : Valuation τ sig (Elt F)) : val3 V0 (no_index (Proc.devRef .tc main_arg27)) = V0 (Proc.devRef .tc main_arg27) :=
  (val3_keep V0 main_arg27 (by decide)).trans (val2_main_arg27 V0)
theorem val3_main_v0 (V0 : Valuation τ sig (Elt F)) : val3 V0 (no_index (Proc.devRef .tc main_v0)) =
    takeRows gather_S1000000x64_S16384x1_S16384x64_1_0_n_n_0_1_164 bcast_S16384_S16384x64_0 bcast_S_S16384x64 1000000#32 999999#32 (V0 (Proc.devRef .tc main_arg9)) (V0 (Proc.devRef .tc main_arg0)) :=
  (val3_keep V0 main_v0 (by decide)).trans (val2_main_v0 V0)
theorem val3_main_v1 (V0 : Valuation τ sig (Elt F)) : val3 V0 (no_index (Proc.devRef .tc main_v1)) =
    takeRows gather_S100x64_S16384x1_S16384x64_1_0_n_n_0_1_164 bcast_S16384_S16384x64_0 bcast_S_S16384x64 100#32 99#32 (V0 (Proc.devRef .tc main_arg10)) (V0 (Proc.devRef .tc main_arg1)) :=
  (val3_keep V0 main_v1 (by decide)).trans (val2_main_v1 V0)
set_option maxRecDepth 100000 in
set_option maxHeartbeats 2000000 in
theorem val3_main_v2 (V0 : Valuation τ sig (Elt F)) : val3 V0 (no_index (Proc.devRef .tc main_v2)) =
    takeRows gather_S5x8_S16384x1_S16384x8_1_0_n_n_0_1_18 bcast_S16384_S16384x8_0 bcast_S_S16384x8 5#32 4#32 (V0 (Proc.devRef .tc main_arg11)) (V0 (Proc.devRef .tc main_arg2)) := by
  unfold val3
  simp only [seg2]
  after_results_simp
  simp only [val2_main_arg11, val2_main_arg2, cast_cast, cast_eq]
  rfl

/-- The buffers after the first 4 lists. -/
def val4 (V0 : Valuation τ sig (Elt F)) : Valuation τ sig (Elt F) := after seg3 (val3 V0)
/-- The buffers `seg3` writes. -/
abbrev seg3_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v3]
set_option maxRecDepth 8192 in
theorem seg3_writes : (seg3 : List (HloOp τ sig (Elt F))).Forall fun op =>
    op.writes ⊆ (seg3_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val4_keep (V0 : Valuation τ sig (Elt F)) (r : Ref sig .tc) (h : r ∉ seg3_W) :
    val4 V0 (Proc.devRef .tc r) = val3 V0 (Proc.devRef .tc r) :=
  after_of_writes_sub seg3 _ seg3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_arg21 (V0 : Valuation τ sig (Elt F)) : val4 V0 (no_index (Proc.devRef .tc main_arg21)) = V0 (Proc.devRef .tc main_arg21) :=
  (val4_keep V0 main_arg21 (by decide)).trans (val3_main_arg21 V0)
theorem val4_main_arg22 (V0 : Valuation τ sig (Elt F)) : val4 V0 (no_index (Proc.devRef .tc main_arg22)) = V0 (Proc.devRef .tc main_arg22) :=
  (val4_keep V0 main_arg22 (by decide)).trans (val3_main_arg22 V0)
theorem val4_main_arg23 (V0 : Valuation τ sig (Elt F)) : val4 V0 (no_index (Proc.devRef .tc main_arg23)) = V0 (Proc.devRef .tc main_arg23) :=
  (val4_keep V0 main_arg23 (by decide)).trans (val3_main_arg23 V0)
theorem val4_main_arg24 (V0 : Valuation τ sig (Elt F)) : val4 V0 (no_index (Proc.devRef .tc main_arg24)) = V0 (Proc.devRef .tc main_arg24) :=
  (val4_keep V0 main_arg24 (by decide)).trans (val3_main_arg24 V0)
theorem val4_main_arg25 (V0 : Valuation τ sig (Elt F)) : val4 V0 (no_index (Proc.devRef .tc main_arg25)) = V0 (Proc.devRef .tc main_arg25) :=
  (val4_keep V0 main_arg25 (by decide)).trans (val3_main_arg25 V0)
theorem val4_main_arg26 (V0 : Valuation τ sig (Elt F)) : val4 V0 (no_index (Proc.devRef .tc main_arg26)) = V0 (Proc.devRef .tc main_arg26) :=
  (val4_keep V0 main_arg26 (by decide)).trans (val3_main_arg26 V0)
theorem val4_main_arg27 (V0 : Valuation τ sig (Elt F)) : val4 V0 (no_index (Proc.devRef .tc main_arg27)) = V0 (Proc.devRef .tc main_arg27) :=
  (val4_keep V0 main_arg27 (by decide)).trans (val3_main_arg27 V0)
theorem val4_main_v0 (V0 : Valuation τ sig (Elt F)) : val4 V0 (no_index (Proc.devRef .tc main_v0)) =
    takeRows gather_S1000000x64_S16384x1_S16384x64_1_0_n_n_0_1_164 bcast_S16384_S16384x64_0 bcast_S_S16384x64 1000000#32 999999#32 (V0 (Proc.devRef .tc main_arg9)) (V0 (Proc.devRef .tc main_arg0)) :=
  (val4_keep V0 main_v0 (by decide)).trans (val3_main_v0 V0)
theorem val4_main_v1 (V0 : Valuation τ sig (Elt F)) : val4 V0 (no_index (Proc.devRef .tc main_v1)) =
    takeRows gather_S100x64_S16384x1_S16384x64_1_0_n_n_0_1_164 bcast_S16384_S16384x64_0 bcast_S_S16384x64 100#32 99#32 (V0 (Proc.devRef .tc main_arg10)) (V0 (Proc.devRef .tc main_arg1)) :=
  (val4_keep V0 main_v1 (by decide)).trans (val3_main_v1 V0)
theorem val4_main_v2 (V0 : Valuation τ sig (Elt F)) : val4 V0 (no_index (Proc.devRef .tc main_v2)) =
    takeRows gather_S5x8_S16384x1_S16384x8_1_0_n_n_0_1_18 bcast_S16384_S16384x8_0 bcast_S_S16384x8 5#32 4#32 (V0 (Proc.devRef .tc main_arg11)) (V0 (Proc.devRef .tc main_arg2)) :=
  (val4_keep V0 main_v2 (by decide)).trans (val3_main_v2 V0)
set_option maxRecDepth 100000 in
set_option maxHeartbeats 2000000 in
theorem val4_main_v3 (V0 : Valuation τ sig (Elt F)) : val4 V0 (no_index (Proc.devRef .tc main_v3)) =
    takeRows gather_S8x16_S16384x1_S16384x16_1_0_n_n_0_1_116 bcast_S16384_S16384x16_0 bcast_S_S16384x16 8#32 7#32 (V0 (Proc.devRef .tc main_arg12)) (V0 (Proc.devRef .tc main_arg3)) := by
  unfold val4
  simp only [seg3]
  after_results_simp
  simp only [val3_main_arg12, val3_main_arg3, cast_cast, cast_eq]
  rfl

/-- The buffers after the first 5 lists. -/
def val5 (V0 : Valuation τ sig (Elt F)) : Valuation τ sig (Elt F) := after seg4 (val4 V0)
/-- The buffers `seg4` writes. -/
abbrev seg4_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v4]
set_option maxRecDepth 8192 in
theorem seg4_writes : (seg4 : List (HloOp τ sig (Elt F))).Forall fun op =>
    op.writes ⊆ (seg4_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val5_keep (V0 : Valuation τ sig (Elt F)) (r : Ref sig .tc) (h : r ∉ seg4_W) :
    val5 V0 (Proc.devRef .tc r) = val4 V0 (Proc.devRef .tc r) :=
  after_of_writes_sub seg4 _ seg4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_arg20 (V0 : Valuation τ sig (Elt F)) : val5 V0 (no_index (Proc.devRef .tc main_arg20)) = V0 (Proc.devRef .tc main_arg20) :=
  (val5_keep V0 main_arg20 (by decide)).trans (val4_main_arg20 V0)
theorem val5_main_arg21 (V0 : Valuation τ sig (Elt F)) : val5 V0 (no_index (Proc.devRef .tc main_arg21)) = V0 (Proc.devRef .tc main_arg21) :=
  (val5_keep V0 main_arg21 (by decide)).trans (val4_main_arg21 V0)
theorem val5_main_arg22 (V0 : Valuation τ sig (Elt F)) : val5 V0 (no_index (Proc.devRef .tc main_arg22)) = V0 (Proc.devRef .tc main_arg22) :=
  (val5_keep V0 main_arg22 (by decide)).trans (val4_main_arg22 V0)
theorem val5_main_arg23 (V0 : Valuation τ sig (Elt F)) : val5 V0 (no_index (Proc.devRef .tc main_arg23)) = V0 (Proc.devRef .tc main_arg23) :=
  (val5_keep V0 main_arg23 (by decide)).trans (val4_main_arg23 V0)
theorem val5_main_arg24 (V0 : Valuation τ sig (Elt F)) : val5 V0 (no_index (Proc.devRef .tc main_arg24)) = V0 (Proc.devRef .tc main_arg24) :=
  (val5_keep V0 main_arg24 (by decide)).trans (val4_main_arg24 V0)
theorem val5_main_arg25 (V0 : Valuation τ sig (Elt F)) : val5 V0 (no_index (Proc.devRef .tc main_arg25)) = V0 (Proc.devRef .tc main_arg25) :=
  (val5_keep V0 main_arg25 (by decide)).trans (val4_main_arg25 V0)
theorem val5_main_arg26 (V0 : Valuation τ sig (Elt F)) : val5 V0 (no_index (Proc.devRef .tc main_arg26)) = V0 (Proc.devRef .tc main_arg26) :=
  (val5_keep V0 main_arg26 (by decide)).trans (val4_main_arg26 V0)
theorem val5_main_arg27 (V0 : Valuation τ sig (Elt F)) : val5 V0 (no_index (Proc.devRef .tc main_arg27)) = V0 (Proc.devRef .tc main_arg27) :=
  (val5_keep V0 main_arg27 (by decide)).trans (val4_main_arg27 V0)
theorem val5_main_v0 (V0 : Valuation τ sig (Elt F)) : val5 V0 (no_index (Proc.devRef .tc main_v0)) =
    takeRows gather_S1000000x64_S16384x1_S16384x64_1_0_n_n_0_1_164 bcast_S16384_S16384x64_0 bcast_S_S16384x64 1000000#32 999999#32 (V0 (Proc.devRef .tc main_arg9)) (V0 (Proc.devRef .tc main_arg0)) :=
  (val5_keep V0 main_v0 (by decide)).trans (val4_main_v0 V0)
theorem val5_main_v1 (V0 : Valuation τ sig (Elt F)) : val5 V0 (no_index (Proc.devRef .tc main_v1)) =
    takeRows gather_S100x64_S16384x1_S16384x64_1_0_n_n_0_1_164 bcast_S16384_S16384x64_0 bcast_S_S16384x64 100#32 99#32 (V0 (Proc.devRef .tc main_arg10)) (V0 (Proc.devRef .tc main_arg1)) :=
  (val5_keep V0 main_v1 (by decide)).trans (val4_main_v1 V0)
theorem val5_main_v2 (V0 : Valuation τ sig (Elt F)) : val5 V0 (no_index (Proc.devRef .tc main_v2)) =
    takeRows gather_S5x8_S16384x1_S16384x8_1_0_n_n_0_1_18 bcast_S16384_S16384x8_0 bcast_S_S16384x8 5#32 4#32 (V0 (Proc.devRef .tc main_arg11)) (V0 (Proc.devRef .tc main_arg2)) :=
  (val5_keep V0 main_v2 (by decide)).trans (val4_main_v2 V0)
theorem val5_main_v3 (V0 : Valuation τ sig (Elt F)) : val5 V0 (no_index (Proc.devRef .tc main_v3)) =
    takeRows gather_S8x16_S16384x1_S16384x16_1_0_n_n_0_1_116 bcast_S16384_S16384x16_0 bcast_S_S16384x16 8#32 7#32 (V0 (Proc.devRef .tc main_arg12)) (V0 (Proc.devRef .tc main_arg3)) :=
  (val5_keep V0 main_v3 (by decide)).trans (val4_main_v3 V0)
set_option maxRecDepth 100000 in
set_option maxHeartbeats 2000000 in
theorem val5_main_v4 (V0 : Valuation τ sig (Elt F)) : val5 V0 (no_index (Proc.devRef .tc main_v4)) =
    takeRows gather_S25x8_S16384x1_S16384x8_1_0_n_n_0_1_18 bcast_S16384_S16384x8_0 bcast_S_S16384x8 25#32 24#32 (V0 (Proc.devRef .tc main_arg13)) (V0 (Proc.devRef .tc main_arg4)) := by
  unfold val5
  simp only [seg4]
  after_results_simp
  simp only [val4_main_arg13, val4_main_arg4, cast_cast, cast_eq]
  rfl

/-- The buffers after the first 6 lists. -/
def val6 (V0 : Valuation τ sig (Elt F)) : Valuation τ sig (Elt F) := after seg5 (val5 V0)
/-- The buffers `seg5` writes. -/
abbrev seg5_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v5]
set_option maxRecDepth 8192 in
theorem seg5_writes : (seg5 : List (HloOp τ sig (Elt F))).Forall fun op =>
    op.writes ⊆ (seg5_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val6_keep (V0 : Valuation τ sig (Elt F)) (r : Ref sig .tc) (h : r ∉ seg5_W) :
    val6 V0 (Proc.devRef .tc r) = val5 V0 (Proc.devRef .tc r) :=
  after_of_writes_sub seg5 _ seg5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_arg20 (V0 : Valuation τ sig (Elt F)) : val6 V0 (no_index (Proc.devRef .tc main_arg20)) = V0 (Proc.devRef .tc main_arg20) :=
  (val6_keep V0 main_arg20 (by decide)).trans (val5_main_arg20 V0)
theorem val6_main_arg21 (V0 : Valuation τ sig (Elt F)) : val6 V0 (no_index (Proc.devRef .tc main_arg21)) = V0 (Proc.devRef .tc main_arg21) :=
  (val6_keep V0 main_arg21 (by decide)).trans (val5_main_arg21 V0)
theorem val6_main_arg22 (V0 : Valuation τ sig (Elt F)) : val6 V0 (no_index (Proc.devRef .tc main_arg22)) = V0 (Proc.devRef .tc main_arg22) :=
  (val6_keep V0 main_arg22 (by decide)).trans (val5_main_arg22 V0)
theorem val6_main_arg23 (V0 : Valuation τ sig (Elt F)) : val6 V0 (no_index (Proc.devRef .tc main_arg23)) = V0 (Proc.devRef .tc main_arg23) :=
  (val6_keep V0 main_arg23 (by decide)).trans (val5_main_arg23 V0)
theorem val6_main_arg24 (V0 : Valuation τ sig (Elt F)) : val6 V0 (no_index (Proc.devRef .tc main_arg24)) = V0 (Proc.devRef .tc main_arg24) :=
  (val6_keep V0 main_arg24 (by decide)).trans (val5_main_arg24 V0)
theorem val6_main_arg25 (V0 : Valuation τ sig (Elt F)) : val6 V0 (no_index (Proc.devRef .tc main_arg25)) = V0 (Proc.devRef .tc main_arg25) :=
  (val6_keep V0 main_arg25 (by decide)).trans (val5_main_arg25 V0)
theorem val6_main_arg26 (V0 : Valuation τ sig (Elt F)) : val6 V0 (no_index (Proc.devRef .tc main_arg26)) = V0 (Proc.devRef .tc main_arg26) :=
  (val6_keep V0 main_arg26 (by decide)).trans (val5_main_arg26 V0)
theorem val6_main_arg27 (V0 : Valuation τ sig (Elt F)) : val6 V0 (no_index (Proc.devRef .tc main_arg27)) = V0 (Proc.devRef .tc main_arg27) :=
  (val6_keep V0 main_arg27 (by decide)).trans (val5_main_arg27 V0)
theorem val6_main_v0 (V0 : Valuation τ sig (Elt F)) : val6 V0 (no_index (Proc.devRef .tc main_v0)) =
    takeRows gather_S1000000x64_S16384x1_S16384x64_1_0_n_n_0_1_164 bcast_S16384_S16384x64_0 bcast_S_S16384x64 1000000#32 999999#32 (V0 (Proc.devRef .tc main_arg9)) (V0 (Proc.devRef .tc main_arg0)) :=
  (val6_keep V0 main_v0 (by decide)).trans (val5_main_v0 V0)
theorem val6_main_v1 (V0 : Valuation τ sig (Elt F)) : val6 V0 (no_index (Proc.devRef .tc main_v1)) =
    takeRows gather_S100x64_S16384x1_S16384x64_1_0_n_n_0_1_164 bcast_S16384_S16384x64_0 bcast_S_S16384x64 100#32 99#32 (V0 (Proc.devRef .tc main_arg10)) (V0 (Proc.devRef .tc main_arg1)) :=
  (val6_keep V0 main_v1 (by decide)).trans (val5_main_v1 V0)
theorem val6_main_v2 (V0 : Valuation τ sig (Elt F)) : val6 V0 (no_index (Proc.devRef .tc main_v2)) =
    takeRows gather_S5x8_S16384x1_S16384x8_1_0_n_n_0_1_18 bcast_S16384_S16384x8_0 bcast_S_S16384x8 5#32 4#32 (V0 (Proc.devRef .tc main_arg11)) (V0 (Proc.devRef .tc main_arg2)) :=
  (val6_keep V0 main_v2 (by decide)).trans (val5_main_v2 V0)
theorem val6_main_v3 (V0 : Valuation τ sig (Elt F)) : val6 V0 (no_index (Proc.devRef .tc main_v3)) =
    takeRows gather_S8x16_S16384x1_S16384x16_1_0_n_n_0_1_116 bcast_S16384_S16384x16_0 bcast_S_S16384x16 8#32 7#32 (V0 (Proc.devRef .tc main_arg12)) (V0 (Proc.devRef .tc main_arg3)) :=
  (val6_keep V0 main_v3 (by decide)).trans (val5_main_v3 V0)
theorem val6_main_v4 (V0 : Valuation τ sig (Elt F)) : val6 V0 (no_index (Proc.devRef .tc main_v4)) =
    takeRows gather_S25x8_S16384x1_S16384x8_1_0_n_n_0_1_18 bcast_S16384_S16384x8_0 bcast_S_S16384x8 25#32 24#32 (V0 (Proc.devRef .tc main_arg13)) (V0 (Proc.devRef .tc main_arg4)) :=
  (val6_keep V0 main_v4 (by decide)).trans (val5_main_v4 V0)
set_option maxRecDepth 100000 in
set_option maxHeartbeats 2000000 in
theorem val6_main_v5 (V0 : Valuation τ sig (Elt F)) : val6 V0 (no_index (Proc.devRef .tc main_v5)) =
    takeRows gather_S61x8_S16384x1_S16384x8_1_0_n_n_0_1_18 bcast_S16384_S16384x8_0 bcast_S_S16384x8 61#32 60#32 (V0 (Proc.devRef .tc main_arg14)) (V0 (Proc.devRef .tc main_arg5)) := by
  unfold val6
  simp only [seg5]
  after_results_simp
  simp only [val5_main_arg14, val5_main_arg5, cast_cast, cast_eq]
  rfl

/-- The buffers after the first 7 lists. -/
def val7 (V0 : Valuation τ sig (Elt F)) : Valuation τ sig (Elt F) := after seg6 (val6 V0)
/-- The buffers `seg6` writes. -/
abbrev seg6_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v6]
set_option maxRecDepth 8192 in
theorem seg6_writes : (seg6 : List (HloOp τ sig (Elt F))).Forall fun op =>
    op.writes ⊆ (seg6_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val7_keep (V0 : Valuation τ sig (Elt F)) (r : Ref sig .tc) (h : r ∉ seg6_W) :
    val7 V0 (Proc.devRef .tc r) = val6 V0 (Proc.devRef .tc r) :=
  after_of_writes_sub seg6 _ seg6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_arg20 (V0 : Valuation τ sig (Elt F)) : val7 V0 (no_index (Proc.devRef .tc main_arg20)) = V0 (Proc.devRef .tc main_arg20) :=
  (val7_keep V0 main_arg20 (by decide)).trans (val6_main_arg20 V0)
theorem val7_main_arg21 (V0 : Valuation τ sig (Elt F)) : val7 V0 (no_index (Proc.devRef .tc main_arg21)) = V0 (Proc.devRef .tc main_arg21) :=
  (val7_keep V0 main_arg21 (by decide)).trans (val6_main_arg21 V0)
theorem val7_main_arg22 (V0 : Valuation τ sig (Elt F)) : val7 V0 (no_index (Proc.devRef .tc main_arg22)) = V0 (Proc.devRef .tc main_arg22) :=
  (val7_keep V0 main_arg22 (by decide)).trans (val6_main_arg22 V0)
theorem val7_main_arg23 (V0 : Valuation τ sig (Elt F)) : val7 V0 (no_index (Proc.devRef .tc main_arg23)) = V0 (Proc.devRef .tc main_arg23) :=
  (val7_keep V0 main_arg23 (by decide)).trans (val6_main_arg23 V0)
theorem val7_main_arg24 (V0 : Valuation τ sig (Elt F)) : val7 V0 (no_index (Proc.devRef .tc main_arg24)) = V0 (Proc.devRef .tc main_arg24) :=
  (val7_keep V0 main_arg24 (by decide)).trans (val6_main_arg24 V0)
theorem val7_main_arg25 (V0 : Valuation τ sig (Elt F)) : val7 V0 (no_index (Proc.devRef .tc main_arg25)) = V0 (Proc.devRef .tc main_arg25) :=
  (val7_keep V0 main_arg25 (by decide)).trans (val6_main_arg25 V0)
theorem val7_main_arg26 (V0 : Valuation τ sig (Elt F)) : val7 V0 (no_index (Proc.devRef .tc main_arg26)) = V0 (Proc.devRef .tc main_arg26) :=
  (val7_keep V0 main_arg26 (by decide)).trans (val6_main_arg26 V0)
theorem val7_main_arg27 (V0 : Valuation τ sig (Elt F)) : val7 V0 (no_index (Proc.devRef .tc main_arg27)) = V0 (Proc.devRef .tc main_arg27) :=
  (val7_keep V0 main_arg27 (by decide)).trans (val6_main_arg27 V0)
theorem val7_main_v0 (V0 : Valuation τ sig (Elt F)) : val7 V0 (no_index (Proc.devRef .tc main_v0)) =
    takeRows gather_S1000000x64_S16384x1_S16384x64_1_0_n_n_0_1_164 bcast_S16384_S16384x64_0 bcast_S_S16384x64 1000000#32 999999#32 (V0 (Proc.devRef .tc main_arg9)) (V0 (Proc.devRef .tc main_arg0)) :=
  (val7_keep V0 main_v0 (by decide)).trans (val6_main_v0 V0)
theorem val7_main_v1 (V0 : Valuation τ sig (Elt F)) : val7 V0 (no_index (Proc.devRef .tc main_v1)) =
    takeRows gather_S100x64_S16384x1_S16384x64_1_0_n_n_0_1_164 bcast_S16384_S16384x64_0 bcast_S_S16384x64 100#32 99#32 (V0 (Proc.devRef .tc main_arg10)) (V0 (Proc.devRef .tc main_arg1)) :=
  (val7_keep V0 main_v1 (by decide)).trans (val6_main_v1 V0)
theorem val7_main_v2 (V0 : Valuation τ sig (Elt F)) : val7 V0 (no_index (Proc.devRef .tc main_v2)) =
    takeRows gather_S5x8_S16384x1_S16384x8_1_0_n_n_0_1_18 bcast_S16384_S16384x8_0 bcast_S_S16384x8 5#32 4#32 (V0 (Proc.devRef .tc main_arg11)) (V0 (Proc.devRef .tc main_arg2)) :=
  (val7_keep V0 main_v2 (by decide)).trans (val6_main_v2 V0)
theorem val7_main_v3 (V0 : Valuation τ sig (Elt F)) : val7 V0 (no_index (Proc.devRef .tc main_v3)) =
    takeRows gather_S8x16_S16384x1_S16384x16_1_0_n_n_0_1_116 bcast_S16384_S16384x16_0 bcast_S_S16384x16 8#32 7#32 (V0 (Proc.devRef .tc main_arg12)) (V0 (Proc.devRef .tc main_arg3)) :=
  (val7_keep V0 main_v3 (by decide)).trans (val6_main_v3 V0)
theorem val7_main_v4 (V0 : Valuation τ sig (Elt F)) : val7 V0 (no_index (Proc.devRef .tc main_v4)) =
    takeRows gather_S25x8_S16384x1_S16384x8_1_0_n_n_0_1_18 bcast_S16384_S16384x8_0 bcast_S_S16384x8 25#32 24#32 (V0 (Proc.devRef .tc main_arg13)) (V0 (Proc.devRef .tc main_arg4)) :=
  (val7_keep V0 main_v4 (by decide)).trans (val6_main_v4 V0)
theorem val7_main_v5 (V0 : Valuation τ sig (Elt F)) : val7 V0 (no_index (Proc.devRef .tc main_v5)) =
    takeRows gather_S61x8_S16384x1_S16384x8_1_0_n_n_0_1_18 bcast_S16384_S16384x8_0 bcast_S_S16384x8 61#32 60#32 (V0 (Proc.devRef .tc main_arg14)) (V0 (Proc.devRef .tc main_arg5)) :=
  (val7_keep V0 main_v5 (by decide)).trans (val6_main_v5 V0)
set_option maxRecDepth 100000 in
set_option maxHeartbeats 2000000 in
theorem val7_main_v6 (V0 : Valuation τ sig (Elt F)) : val7 V0 (no_index (Proc.devRef .tc main_v6)) =
    takeRows gather_S61x8_S16384x1_S16384x8_1_0_n_n_0_1_18 bcast_S16384_S16384x8_0 bcast_S_S16384x8 61#32 60#32 (V0 (Proc.devRef .tc main_arg15)) (V0 (Proc.devRef .tc main_arg6)) := by
  unfold val7
  simp only [seg6]
  after_results_simp
  simp only [val6_main_arg15, val6_main_arg6, cast_cast, cast_eq]
  rfl

/-- The buffers after the first 8 lists. -/
def val8 (V0 : Valuation τ sig (Elt F)) : Valuation τ sig (Elt F) := after seg7 (val7 V0)
/-- The buffers `seg7` writes. -/
abbrev seg7_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v7]
set_option maxRecDepth 8192 in
theorem seg7_writes : (seg7 : List (HloOp τ sig (Elt F))).Forall fun op =>
    op.writes ⊆ (seg7_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val8_keep (V0 : Valuation τ sig (Elt F)) (r : Ref sig .tc) (h : r ∉ seg7_W) :
    val8 V0 (Proc.devRef .tc r) = val7 V0 (Proc.devRef .tc r) :=
  after_of_writes_sub seg7 _ seg7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_arg20 (V0 : Valuation τ sig (Elt F)) : val8 V0 (no_index (Proc.devRef .tc main_arg20)) = V0 (Proc.devRef .tc main_arg20) :=
  (val8_keep V0 main_arg20 (by decide)).trans (val7_main_arg20 V0)
theorem val8_main_arg21 (V0 : Valuation τ sig (Elt F)) : val8 V0 (no_index (Proc.devRef .tc main_arg21)) = V0 (Proc.devRef .tc main_arg21) :=
  (val8_keep V0 main_arg21 (by decide)).trans (val7_main_arg21 V0)
theorem val8_main_arg22 (V0 : Valuation τ sig (Elt F)) : val8 V0 (no_index (Proc.devRef .tc main_arg22)) = V0 (Proc.devRef .tc main_arg22) :=
  (val8_keep V0 main_arg22 (by decide)).trans (val7_main_arg22 V0)
theorem val8_main_arg23 (V0 : Valuation τ sig (Elt F)) : val8 V0 (no_index (Proc.devRef .tc main_arg23)) = V0 (Proc.devRef .tc main_arg23) :=
  (val8_keep V0 main_arg23 (by decide)).trans (val7_main_arg23 V0)
theorem val8_main_arg24 (V0 : Valuation τ sig (Elt F)) : val8 V0 (no_index (Proc.devRef .tc main_arg24)) = V0 (Proc.devRef .tc main_arg24) :=
  (val8_keep V0 main_arg24 (by decide)).trans (val7_main_arg24 V0)
theorem val8_main_arg25 (V0 : Valuation τ sig (Elt F)) : val8 V0 (no_index (Proc.devRef .tc main_arg25)) = V0 (Proc.devRef .tc main_arg25) :=
  (val8_keep V0 main_arg25 (by decide)).trans (val7_main_arg25 V0)
theorem val8_main_arg26 (V0 : Valuation τ sig (Elt F)) : val8 V0 (no_index (Proc.devRef .tc main_arg26)) = V0 (Proc.devRef .tc main_arg26) :=
  (val8_keep V0 main_arg26 (by decide)).trans (val7_main_arg26 V0)
theorem val8_main_arg27 (V0 : Valuation τ sig (Elt F)) : val8 V0 (no_index (Proc.devRef .tc main_arg27)) = V0 (Proc.devRef .tc main_arg27) :=
  (val8_keep V0 main_arg27 (by decide)).trans (val7_main_arg27 V0)
theorem val8_main_v0 (V0 : Valuation τ sig (Elt F)) : val8 V0 (no_index (Proc.devRef .tc main_v0)) =
    takeRows gather_S1000000x64_S16384x1_S16384x64_1_0_n_n_0_1_164 bcast_S16384_S16384x64_0 bcast_S_S16384x64 1000000#32 999999#32 (V0 (Proc.devRef .tc main_arg9)) (V0 (Proc.devRef .tc main_arg0)) :=
  (val8_keep V0 main_v0 (by decide)).trans (val7_main_v0 V0)
theorem val8_main_v1 (V0 : Valuation τ sig (Elt F)) : val8 V0 (no_index (Proc.devRef .tc main_v1)) =
    takeRows gather_S100x64_S16384x1_S16384x64_1_0_n_n_0_1_164 bcast_S16384_S16384x64_0 bcast_S_S16384x64 100#32 99#32 (V0 (Proc.devRef .tc main_arg10)) (V0 (Proc.devRef .tc main_arg1)) :=
  (val8_keep V0 main_v1 (by decide)).trans (val7_main_v1 V0)
theorem val8_main_v2 (V0 : Valuation τ sig (Elt F)) : val8 V0 (no_index (Proc.devRef .tc main_v2)) =
    takeRows gather_S5x8_S16384x1_S16384x8_1_0_n_n_0_1_18 bcast_S16384_S16384x8_0 bcast_S_S16384x8 5#32 4#32 (V0 (Proc.devRef .tc main_arg11)) (V0 (Proc.devRef .tc main_arg2)) :=
  (val8_keep V0 main_v2 (by decide)).trans (val7_main_v2 V0)
theorem val8_main_v3 (V0 : Valuation τ sig (Elt F)) : val8 V0 (no_index (Proc.devRef .tc main_v3)) =
    takeRows gather_S8x16_S16384x1_S16384x16_1_0_n_n_0_1_116 bcast_S16384_S16384x16_0 bcast_S_S16384x16 8#32 7#32 (V0 (Proc.devRef .tc main_arg12)) (V0 (Proc.devRef .tc main_arg3)) :=
  (val8_keep V0 main_v3 (by decide)).trans (val7_main_v3 V0)
theorem val8_main_v4 (V0 : Valuation τ sig (Elt F)) : val8 V0 (no_index (Proc.devRef .tc main_v4)) =
    takeRows gather_S25x8_S16384x1_S16384x8_1_0_n_n_0_1_18 bcast_S16384_S16384x8_0 bcast_S_S16384x8 25#32 24#32 (V0 (Proc.devRef .tc main_arg13)) (V0 (Proc.devRef .tc main_arg4)) :=
  (val8_keep V0 main_v4 (by decide)).trans (val7_main_v4 V0)
theorem val8_main_v5 (V0 : Valuation τ sig (Elt F)) : val8 V0 (no_index (Proc.devRef .tc main_v5)) =
    takeRows gather_S61x8_S16384x1_S16384x8_1_0_n_n_0_1_18 bcast_S16384_S16384x8_0 bcast_S_S16384x8 61#32 60#32 (V0 (Proc.devRef .tc main_arg14)) (V0 (Proc.devRef .tc main_arg5)) :=
  (val8_keep V0 main_v5 (by decide)).trans (val7_main_v5 V0)
theorem val8_main_v6 (V0 : Valuation τ sig (Elt F)) : val8 V0 (no_index (Proc.devRef .tc main_v6)) =
    takeRows gather_S61x8_S16384x1_S16384x8_1_0_n_n_0_1_18 bcast_S16384_S16384x8_0 bcast_S_S16384x8 61#32 60#32 (V0 (Proc.devRef .tc main_arg15)) (V0 (Proc.devRef .tc main_arg6)) :=
  (val8_keep V0 main_v6 (by decide)).trans (val7_main_v6 V0)
set_option maxRecDepth 100000 in
set_option maxHeartbeats 2000000 in
theorem val8_main_v7 (V0 : Valuation τ sig (Elt F)) : val8 V0 (no_index (Proc.devRef .tc main_v7)) =
    takeRows gather_S500x64_S16384x1_S16384x64_1_0_n_n_0_1_164 bcast_S16384_S16384x64_0 bcast_S_S16384x64 500#32 499#32 (V0 (Proc.devRef .tc main_arg16)) (V0 (Proc.devRef .tc main_arg7)) := by
  unfold val8
  simp only [seg7]
  after_results_simp
  simp only [val7_main_arg16, val7_main_arg7, cast_cast, cast_eq]
  rfl

/-- The buffers after the first 9 lists. -/
def val9 (V0 : Valuation τ sig (Elt F)) : Valuation τ sig (Elt F) := after seg8 (val8 V0)
/-- The buffers `seg8` writes. -/
abbrev seg8_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v8]
set_option maxRecDepth 8192 in
theorem seg8_writes : (seg8 : List (HloOp τ sig (Elt F))).Forall fun op =>
    op.writes ⊆ (seg8_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val9_keep (V0 : Valuation τ sig (Elt F)) (r : Ref sig .tc) (h : r ∉ seg8_W) :
    val9 V0 (Proc.devRef .tc r) = val8 V0 (Proc.devRef .tc r) :=
  after_of_writes_sub seg8 _ seg8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_arg20 (V0 : Valuation τ sig (Elt F)) : val9 V0 (no_index (Proc.devRef .tc main_arg20)) = V0 (Proc.devRef .tc main_arg20) :=
  (val9_keep V0 main_arg20 (by decide)).trans (val8_main_arg20 V0)
theorem val9_main_arg21 (V0 : Valuation τ sig (Elt F)) : val9 V0 (no_index (Proc.devRef .tc main_arg21)) = V0 (Proc.devRef .tc main_arg21) :=
  (val9_keep V0 main_arg21 (by decide)).trans (val8_main_arg21 V0)
theorem val9_main_arg22 (V0 : Valuation τ sig (Elt F)) : val9 V0 (no_index (Proc.devRef .tc main_arg22)) = V0 (Proc.devRef .tc main_arg22) :=
  (val9_keep V0 main_arg22 (by decide)).trans (val8_main_arg22 V0)
theorem val9_main_arg23 (V0 : Valuation τ sig (Elt F)) : val9 V0 (no_index (Proc.devRef .tc main_arg23)) = V0 (Proc.devRef .tc main_arg23) :=
  (val9_keep V0 main_arg23 (by decide)).trans (val8_main_arg23 V0)
theorem val9_main_arg24 (V0 : Valuation τ sig (Elt F)) : val9 V0 (no_index (Proc.devRef .tc main_arg24)) = V0 (Proc.devRef .tc main_arg24) :=
  (val9_keep V0 main_arg24 (by decide)).trans (val8_main_arg24 V0)
theorem val9_main_arg25 (V0 : Valuation τ sig (Elt F)) : val9 V0 (no_index (Proc.devRef .tc main_arg25)) = V0 (Proc.devRef .tc main_arg25) :=
  (val9_keep V0 main_arg25 (by decide)).trans (val8_main_arg25 V0)
theorem val9_main_arg26 (V0 : Valuation τ sig (Elt F)) : val9 V0 (no_index (Proc.devRef .tc main_arg26)) = V0 (Proc.devRef .tc main_arg26) :=
  (val9_keep V0 main_arg26 (by decide)).trans (val8_main_arg26 V0)
theorem val9_main_arg27 (V0 : Valuation τ sig (Elt F)) : val9 V0 (no_index (Proc.devRef .tc main_arg27)) = V0 (Proc.devRef .tc main_arg27) :=
  (val9_keep V0 main_arg27 (by decide)).trans (val8_main_arg27 V0)
theorem val9_main_v0 (V0 : Valuation τ sig (Elt F)) : val9 V0 (no_index (Proc.devRef .tc main_v0)) =
    takeRows gather_S1000000x64_S16384x1_S16384x64_1_0_n_n_0_1_164 bcast_S16384_S16384x64_0 bcast_S_S16384x64 1000000#32 999999#32 (V0 (Proc.devRef .tc main_arg9)) (V0 (Proc.devRef .tc main_arg0)) :=
  (val9_keep V0 main_v0 (by decide)).trans (val8_main_v0 V0)
theorem val9_main_v1 (V0 : Valuation τ sig (Elt F)) : val9 V0 (no_index (Proc.devRef .tc main_v1)) =
    takeRows gather_S100x64_S16384x1_S16384x64_1_0_n_n_0_1_164 bcast_S16384_S16384x64_0 bcast_S_S16384x64 100#32 99#32 (V0 (Proc.devRef .tc main_arg10)) (V0 (Proc.devRef .tc main_arg1)) :=
  (val9_keep V0 main_v1 (by decide)).trans (val8_main_v1 V0)
theorem val9_main_v2 (V0 : Valuation τ sig (Elt F)) : val9 V0 (no_index (Proc.devRef .tc main_v2)) =
    takeRows gather_S5x8_S16384x1_S16384x8_1_0_n_n_0_1_18 bcast_S16384_S16384x8_0 bcast_S_S16384x8 5#32 4#32 (V0 (Proc.devRef .tc main_arg11)) (V0 (Proc.devRef .tc main_arg2)) :=
  (val9_keep V0 main_v2 (by decide)).trans (val8_main_v2 V0)
theorem val9_main_v3 (V0 : Valuation τ sig (Elt F)) : val9 V0 (no_index (Proc.devRef .tc main_v3)) =
    takeRows gather_S8x16_S16384x1_S16384x16_1_0_n_n_0_1_116 bcast_S16384_S16384x16_0 bcast_S_S16384x16 8#32 7#32 (V0 (Proc.devRef .tc main_arg12)) (V0 (Proc.devRef .tc main_arg3)) :=
  (val9_keep V0 main_v3 (by decide)).trans (val8_main_v3 V0)
theorem val9_main_v4 (V0 : Valuation τ sig (Elt F)) : val9 V0 (no_index (Proc.devRef .tc main_v4)) =
    takeRows gather_S25x8_S16384x1_S16384x8_1_0_n_n_0_1_18 bcast_S16384_S16384x8_0 bcast_S_S16384x8 25#32 24#32 (V0 (Proc.devRef .tc main_arg13)) (V0 (Proc.devRef .tc main_arg4)) :=
  (val9_keep V0 main_v4 (by decide)).trans (val8_main_v4 V0)
theorem val9_main_v5 (V0 : Valuation τ sig (Elt F)) : val9 V0 (no_index (Proc.devRef .tc main_v5)) =
    takeRows gather_S61x8_S16384x1_S16384x8_1_0_n_n_0_1_18 bcast_S16384_S16384x8_0 bcast_S_S16384x8 61#32 60#32 (V0 (Proc.devRef .tc main_arg14)) (V0 (Proc.devRef .tc main_arg5)) :=
  (val9_keep V0 main_v5 (by decide)).trans (val8_main_v5 V0)
theorem val9_main_v6 (V0 : Valuation τ sig (Elt F)) : val9 V0 (no_index (Proc.devRef .tc main_v6)) =
    takeRows gather_S61x8_S16384x1_S16384x8_1_0_n_n_0_1_18 bcast_S16384_S16384x8_0 bcast_S_S16384x8 61#32 60#32 (V0 (Proc.devRef .tc main_arg15)) (V0 (Proc.devRef .tc main_arg6)) :=
  (val9_keep V0 main_v6 (by decide)).trans (val8_main_v6 V0)
theorem val9_main_v7 (V0 : Valuation τ sig (Elt F)) : val9 V0 (no_index (Proc.devRef .tc main_v7)) =
    takeRows gather_S500x64_S16384x1_S16384x64_1_0_n_n_0_1_164 bcast_S16384_S16384x64_0 bcast_S_S16384x64 500#32 499#32 (V0 (Proc.devRef .tc main_arg16)) (V0 (Proc.devRef .tc main_arg7)) :=
  (val9_keep V0 main_v7 (by decide)).trans (val8_main_v7 V0)
set_option maxRecDepth 100000 in
set_option maxHeartbeats 2000000 in
theorem val9_main_v8 (V0 : Valuation τ sig (Elt F)) : val9 V0 (no_index (Proc.devRef .tc main_v8)) =
    takeRows gather_S40x16_S16384x1_S16384x16_1_0_n_n_0_1_116 bcast_S16384_S16384x16_0 bcast_S_S16384x16 40#32 39#32 (V0 (Proc.devRef .tc main_arg17)) (V0 (Proc.devRef .tc main_arg8)) := by
  unfold val9
  simp only [seg8]
  after_results_simp
  simp only [val8_main_arg17, val8_main_arg8, cast_cast, cast_eq]
  rfl

end Cert.ReferenceIdeal.RefRun

end
-- ==== Proof.RefRun.lean ====
/- The idealized reference's run: what each buffer holds after @main's operations, list by list, and the run itself —
   the result buffer at the pure term `value` of the 28 argument arrays, the arguments unchanged. -/
import proofs.«205263_g58420145160647_cont_9to1_m_909_25_alg».proof.Proof.RefVals

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers after the first 10 lists. -/
def val10 (V0 : Valuation τ sig (Elt F)) : Valuation τ sig (Elt F) := after tail (val9 V0)
/-- The buffers `tail` writes. -/
abbrev tail_W : List (Ref sig .tc) := [main_v9, main_v10, main_v11, main_v12, main_v13, main_v14, main_v15, main_v16, main_v17, main_v18, main_v19, main_cst, main_v20, main_v21, main_cst_0, main_v22, main_v23, main_v24, main_v25, main_v26, main_v27, main_v28, main_call9_cst, main_call9_v0, main_v29, main_v30, main_v31, main_v32, main_v33, main_call10_cst, main_call10_v0, main_v34, main_v35, main_v36, main_v37, main_v38, main_call11_cst, main_call11_v0, main_v39, main_v40, main_v41, main_v42, main_v43, main_cst_1, main_v44, main_v45, main_cst_2, main_v46, main_v47]
set_option maxRecDepth 8192 in
theorem tail_writes : (tail : List (HloOp τ sig (Elt F))).Forall fun op =>
    op.writes ⊆ (tail_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
theorem val10_keep (V0 : Valuation τ sig (Elt F)) (r : Ref sig .tc) (h : r ∉ tail_W) :
    val10 V0 (Proc.devRef .tc r) = val9 V0 (Proc.devRef .tc r) :=
  after_of_writes_sub tail _ tail_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_arg18 (V0 : Valuation τ sig (Elt F)) : val10 V0 (no_index (Proc.devRef .tc main_arg18)) = V0 (Proc.devRef .tc main_arg18) :=
  (val10_keep V0 main_arg18 (by decide)).trans (val9_main_arg18 V0)
theorem val10_main_arg19 (V0 : Valuation τ sig (Elt F)) : val10 V0 (no_index (Proc.devRef .tc main_arg19)) = V0 (Proc.devRef .tc main_arg19) :=
  (val10_keep V0 main_arg19 (by decide)).trans (val9_main_arg19 V0)
theorem val10_main_arg20 (V0 : Valuation τ sig (Elt F)) : val10 V0 (no_index (Proc.devRef .tc main_arg20)) = V0 (Proc.devRef .tc main_arg20) :=
  (val10_keep V0 main_arg20 (by decide)).trans (val9_main_arg20 V0)
theorem val10_main_arg21 (V0 : Valuation τ sig (Elt F)) : val10 V0 (no_index (Proc.devRef .tc main_arg21)) = V0 (Proc.devRef .tc main_arg21) :=
  (val10_keep V0 main_arg21 (by decide)).trans (val9_main_arg21 V0)
theorem val10_main_arg22 (V0 : Valuation τ sig (Elt F)) : val10 V0 (no_index (Proc.devRef .tc main_arg22)) = V0 (Proc.devRef .tc main_arg22) :=
  (val10_keep V0 main_arg22 (by decide)).trans (val9_main_arg22 V0)
theorem val10_main_arg23 (V0 : Valuation τ sig (Elt F)) : val10 V0 (no_index (Proc.devRef .tc main_arg23)) = V0 (Proc.devRef .tc main_arg23) :=
  (val10_keep V0 main_arg23 (by decide)).trans (val9_main_arg23 V0)
theorem val10_main_arg24 (V0 : Valuation τ sig (Elt F)) : val10 V0 (no_index (Proc.devRef .tc main_arg24)) = V0 (Proc.devRef .tc main_arg24) :=
  (val10_keep V0 main_arg24 (by decide)).trans (val9_main_arg24 V0)
theorem val10_main_arg25 (V0 : Valuation τ sig (Elt F)) : val10 V0 (no_index (Proc.devRef .tc main_arg25)) = V0 (Proc.devRef .tc main_arg25) :=
  (val10_keep V0 main_arg25 (by decide)).trans (val9_main_arg25 V0)
theorem val10_main_arg26 (V0 : Valuation τ sig (Elt F)) : val10 V0 (no_index (Proc.devRef .tc main_arg26)) = V0 (Proc.devRef .tc main_arg26) :=
  (val10_keep V0 main_arg26 (by decide)).trans (val9_main_arg26 V0)
theorem val10_main_arg27 (V0 : Valuation τ sig (Elt F)) : val10 V0 (no_index (Proc.devRef .tc main_arg27)) = V0 (Proc.devRef .tc main_arg27) :=
  (val10_keep V0 main_arg27 (by decide)).trans (val9_main_arg27 V0)
set_option maxRecDepth 100000 in
set_option maxHeartbeats 4000000 in
theorem val10_main_v47 (V0 : Valuation τ sig (Elt F)) : val10 V0 (no_index (Proc.devRef .tc main_v47)) =
    value (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) := by
  unfold val10
  simp only [tail]
  after_results_simp
  try dsimp only [Matrix.cons_val]
  try after_results_simp
  simp only [val9_main_arg18, val9_main_arg19, val9_main_arg20, val9_main_arg21, val9_main_arg22, val9_main_arg23, val9_main_arg24, val9_main_arg25, val9_main_arg26, val9_main_arg27, cast_cast, cast_eq]
  rw [val9_main_v0 V0, val9_main_v1 V0, val9_main_v2 V0, val9_main_v3 V0, val9_main_v4 V0, val9_main_v5 V0, val9_main_v6 V0, val9_main_v7 V0, val9_main_v8 V0]
  rfl

theorem after_ops (V0 : Valuation τ sig (Elt F)) : after ops V0 = val10 V0 := by
  simp only [ops, after_app]
  rfl

/-! ## The run -/

/-- The result array, from the launch memory. -/
def out (m : (ℓ : Loc nD τ sig) → Buf (Elt F) ℓ) (c : Dev nD) : FVec F S16384x1 .f32 :=
  value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))

/-- On every device, for any float values, from any memory with zero counters: every weakly fair execution of
    @main terminates with the result at `out` and the 28 arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v47) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c =>
    ⟨(h c main_v47).trans ((congrFun (after_ops _) _).trans (val10_main_v47 _)),
      (h c main_arg0).trans ((congrFun (after_ops _) _).trans (val10_main_arg0 _)),
      (h c main_arg1).trans ((congrFun (after_ops _) _).trans (val10_main_arg1 _)),
      (h c main_arg2).trans ((congrFun (after_ops _) _).trans (val10_main_arg2 _)),
      (h c main_arg3).trans ((congrFun (after_ops _) _).trans (val10_main_arg3 _)),
      (h c main_arg4).trans ((congrFun (after_ops _) _).trans (val10_main_arg4 _)),
      (h c main_arg5).trans ((congrFun (after_ops _) _).trans (val10_main_arg5 _)),
      (h c main_arg6).trans ((congrFun (after_ops _) _).trans (val10_main_arg6 _)),
      (h c main_arg7).trans ((congrFun (after_ops _) _).trans (val10_main_arg7 _)),
      (h c main_arg8).trans ((congrFun (after_ops _) _).trans (val10_main_arg8 _)),
      (h c main_arg9).trans ((congrFun (after_ops _) _).trans (val10_main_arg9 _)),
      (h c main_arg10).trans ((congrFun (after_ops _) _).trans (val10_main_arg10 _)),
      (h c main_arg11).trans ((congrFun (after_ops _) _).trans (val10_main_arg11 _)),
      (h c main_arg12).trans ((congrFun (after_ops _) _).trans (val10_main_arg12 _)),
      (h c main_arg13).trans ((congrFun (after_ops _) _).trans (val10_main_arg13 _)),
      (h c main_arg14).trans ((congrFun (after_ops _) _).trans (val10_main_arg14 _)),
      (h c main_arg15).trans ((congrFun (after_ops _) _).trans (val10_main_arg15 _)),
      (h c main_arg16).trans ((congrFun (after_ops _) _).trans (val10_main_arg16 _)),
      (h c main_arg17).trans ((congrFun (after_ops _) _).trans (val10_main_arg17 _)),
      (h c main_arg18).trans ((congrFun (after_ops _) _).trans (val10_main_arg18 _)),
      (h c main_arg19).trans ((congrFun (after_ops _) _).trans (val10_main_arg19 _)),
      (h c main_arg20).trans ((congrFun (after_ops _) _).trans (val10_main_arg20 _)),
      (h c main_arg21).trans ((congrFun (after_ops _) _).trans (val10_main_arg21 _)),
      (h c main_arg22).trans ((congrFun (after_ops _) _).trans (val10_main_arg22 _)),
      (h c main_arg23).trans ((congrFun (after_ops _) _).trans (val10_main_arg23 _)),
      (h c main_arg24).trans ((congrFun (after_ops _) _).trans (val10_main_arg24 _)),
      (h c main_arg25).trans ((congrFun (after_ops _) _).trans (val10_main_arg25 _)),
      (h c main_arg26).trans ((congrFun (after_ops _) _).trans (val10_main_arg26 _)),
      (h c main_arg27).trans ((congrFun (after_ops _) _).trans (val10_main_arg27 _))⟩)
    (run_seq scopedRefs_eq scopedSems_eq defs main (fun _ => ops) main_eq (fun _ => ops_sub) m ρ (fun _ => ops_fresh))

/-- The reference runs and leaves its arguments unchanged. -/
theorem frame : Cert.frame_ReferenceIdeal := fun m ρ _ =>
  (θ_run _ _ _).mono (fun _ h c => (h c).2) (run (F := Ideal) m ρ)

end Cert.ReferenceIdeal.RefRun

end
-- ==== Proof.RefValue.lean ====
/- The reference's value is the specification: each stage read at an index — the logistic, the logit's three parts, the
   first-order and cross terms, the dense layers — and, under the range hypothesis on the nine index arrays, the whole. -/
import proofs.«205263_g58420145160647_cont_9to1_m_909_25_alg».proof.Proof.RefTake
import proofs.«205263_g58420145160647_cont_9to1_m_909_25_alg».proof.Proof.RefRun

noncomputable section

open scoped BigOperators

namespace Cert.ReferenceIdeal.RefValue

open Cert.ReferenceIdeal Cert.ReferenceIdeal.Gen Cert.ReferenceIdeal.RefRun Cert.RefLemmas
open Idealize.ShloMosaic Idealize.ShloMosaic.ValueIdx

/-! ## The stages at an index -/

/-- `1 / (1 + exp (−z))` is the logistic function. -/
theorem sigm_apply (z : FVec Ideal S16384x1 .f32) (i : S16384x1.Idx) : sigm z i = Ideal.logistic (z i) := by
  unfold sigm
  show Ideal.div (Ideal.ofBits .f32 0x3F800000#32) (Ideal.ofBits .f32 0x3F800000#32 + Ideal.exp (-(z i))) = _
  rw [Ideal.ofBits_one_f32]
  rfl

/-- The bias row down the batch, at `(r, m)`. -/
theorem bias128_apply (b : FVec Ideal S128 .f32) (r : Fin 16384) (m : Fin 128) : bias128 b (ix2 r m) = b (ix1 m) := by
  unfold bias128 broadcastInDim
  congr 1
  funext a
  match a with
  | ⟨0, _⟩ => rfl

/-- The first-order term at row `r`. -/
theorem fmLinear_apply (e : FVec Ideal S16384x256 .f32) (w : FVec Ideal S256x1 .f32) (b : FVec Ideal S1 .f32) (r : Fin 16384) :
    fmLinear e w b (ix2 r 0) = (∑ k : Fin 256, e (ix2 r k) * w (ix2 k 0)) + b (ix1 0) := by
  unfold fmLinear
  rw [addf_apply, dot_apply 16384 256 1 dot_S16384x256_S256x1_S16384x1_1_0_0_1_n_n rfl]
  congr 1
  unfold broadcastInDim
  congr 1
  funext a
  match a with
  | ⟨0, _⟩ => rfl

/-- The cross term at row `r`. -/
theorem fmCross_apply (e : FVec Ideal S16384x256 .f32) (k : FVec Ideal S256x32 .f32) (r : Fin 16384) :
    fmCross e k (ix2 r 0) = Cert.Tc2Math.fmCross (fun q => e (ix2 r q)) k := by
  have hR : S16384x32.Reduces [1] S16384 := by decide
  unfold fmCross Cert.Tc2Math.fmCross
  rw [mulf_apply, bcast_rows_apply (D := 1), hostReduceAdd_apply, Ideal.hostReduceAdd_single reducesTo_S16384x32_S16384_d1 hR]
  show Ideal.ofBits .f32 0x3F000000#32 * (Ideal.ofBits .f32 0x00000000#32 + ∑ q : Fin 32, _) = _
  rw [Ideal.ofBits_zero_f32, zero_add]
  congr 1
  refine Finset.sum_congr rfl fun q _ => ?_
  have hl : hR.lift (ix1 r) q = ix2 r q := by
    funext b; refine Fin.ext ?_
    match b with
    | ⟨0, _⟩ => rfl
    | ⟨1, _⟩ => rfl
  rw [hl, subf_apply, mulf_apply, dot_apply 16384 256 32 dot_S16384x256_S256x32_S16384x32_1_0_0_1_n_n rfl,
    dot_apply 16384 256 32 dot_S16384x256_S256x32_S16384x32_1_0_0_1_n_n rfl]
  rfl

/-- The first dense layer at `(r, m)`. -/
theorem dense1_apply (e : FVec Ideal S16384x256 .f32) (W : FVec Ideal S256x128 .f32) (b : FVec Ideal S128 .f32)
    (r : Fin 16384) (m : Fin 128) :
    dense1 e W b (ix2 r m) = Cert.Tc2Math.dense 256 128 (fun k => e (ix2 r k)) W (Cert.Spec.biasRow 128 b) m := by
  unfold dense1 relu Cert.Tc2Math.dense
  rw [maximumf_apply, addf_apply, dot_apply 16384 256 128 dot_S16384x256_S256x128_S16384x128_1_0_0_1_n_n rfl, bias128_apply]
  show max _ (Ideal.ofBits .f32 0x00000000#32) = _
  rw [Ideal.ofBits_zero_f32]
  rfl

/-- A hidden dense layer at `(r, m)`. -/
theorem dense_apply (h : FVec Ideal S16384x128 .f32) (W : FVec Ideal S128x128 .f32) (b : FVec Ideal S128 .f32)
    (r : Fin 16384) (m : Fin 128) :
    dense h W b (ix2 r m) = Cert.Tc2Math.dense 128 128 (fun k => h (ix2 r k)) W (Cert.Spec.biasRow 128 b) m := by
  unfold dense relu Cert.Tc2Math.dense
  rw [maximumf_apply, addf_apply, dot_apply 16384 128 128 dot_S16384x128_S128x128_S16384x128_1_0_0_1_n_n rfl, bias128_apply]
  show max _ (Ideal.ofBits .f32 0x00000000#32) = _
  rw [Ideal.ofBits_zero_f32]
  rfl

/-- The logit at row `r`: its three parts. -/
theorem logit_apply (e : FVec Ideal S16384x256 .f32) (w : FVec Ideal S256x1 .f32) (b : FVec Ideal S1 .f32)
    (k : FVec Ideal S256x32 .f32) (W2 : FVec Ideal S256x128 .f32) (b2 : FVec Ideal S128 .f32) (W3 : FVec Ideal S128x128 .f32)
    (b3 : FVec Ideal S128 .f32) (W4 : FVec Ideal S128x128 .f32) (b4 : FVec Ideal S128 .f32) (W5 : FVec Ideal S128x1 .f32)
    (r : Fin 16384) :
    logit e w b k W2 b2 W3 b3 W4 b4 W5 (ix2 r 0)
      = (fmLinear e w b (ix2 r 0) + fmCross e k (ix2 r 0))
        + ∑ m : Fin 128, dense (dense (dense1 e W2 b2) W3 b3) W4 b4 (ix2 r m) * W5 (ix2 m 0) := by
  unfold logit
  rw [addf_apply, addf_apply, dot_apply 16384 128 1 dot_S16384x128_S128x1_S16384x1_1_0_0_1_n_n rfl]

/-! ## The whole -/

/-- Where the nine index arrays name rows of their tables, the reference's value is the specification. -/
theorem value_eq (uid age gen wd hr mi se it cat : IVec S16384 32)
    (utab : FVec Ideal S1000000x64 .f32) (agetab : FVec Ideal S100x64 .f32) (gentab : FVec Ideal S5x8 .f32)
    (wdtab : FVec Ideal S8x16 .f32) (hrtab : FVec Ideal S25x8 .f32) (mitab : FVec Ideal S61x8 .f32)
    (setab : FVec Ideal S61x8 .f32) (ittab : FVec Ideal S500x64 .f32) (cattab : FVec Ideal S40x16 .f32)
    (flw : FVec Ideal S256x1 .f32) (flb : FVec Ideal S1 .f32) (fmk : FVec Ideal S256x32 .f32)
    (W2 : FVec Ideal S256x128 .f32) (b2 : FVec Ideal S128 .f32) (W3 : FVec Ideal S128x128 .f32) (b3 : FVec Ideal S128 .f32)
    (W4 : FVec Ideal S128x128 .f32) (b4 : FVec Ideal S128 .f32) (W5 : FVec Ideal S128x1 .f32)
    (hd : Cert.Spec.Dom uid age gen wd hr mi se it cat) :
    value (F := Ideal) uid age gen wd hr mi se it cat utab agetab gentab wdtab hrtab mitab setab ittab cattab flw flb fmk W2 b2 W3 b3 W4 b4 W5
      = Cert.Spec.G uid age gen wd hr mi se it cat utab agetab gentab wdtab hrtab mitab setab ittab cattab flw flb fmk W2 b2 W3 b3 W4 b4 W5 := by
  funext i
  obtain ⟨r, z, rfl⟩ : ∃ (r : Fin 16384) (z : Fin 1), i = ix2 r z := ⟨i 0, i 1, eq_ix2 i⟩
  obtain rfl : z = 0 := Subsingleton.elim _ _
  unfold value Cert.Spec.G Cert.Spec.tail
  rw [sigm_apply, logit_apply, fmLinear_apply, fmCross_apply]
  simp only [dense_apply, dense1_apply, embedding_apply uid age gen wd hr mi se it cat utab agetab gentab wdtab hrtab mitab setab ittab cattab hd]

/-- The run's result array is the specification of the launch memory's arguments. -/
theorem out_eq (m : (ℓ : Loc nD τ sig) → Buf (Elt Ideal) ℓ) (c : Dev nD)
    (hd : Cert.Spec.Dom (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :
    out (F := Ideal) m c
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) :=
  value_eq _ _ _ _ _ _ _ _ _ _ _ _ _ _ _ _ _ _ _ _ _ _ _ _ _ _ _ _ hd

end Cert.ReferenceIdeal.RefValue

end
-- ==== Proof.KiClaims.lean ====
/- The claims about the idealized kernel, assembled: the precondition gives the run its hypothesis; the run's final
   memory has the 28 arguments as launched (the frame) and the result array at the specification (the algebraic claim, the
   reference's run landing on the same function of the arguments); the idealization rewrote nothing. -/
import proofs.«205263_g58420145160647_cont_9to1_m_909_25_alg».proof.Proof.RunLaunch
import proofs.«205263_g58420145160647_cont_9to1_m_909_25_alg».proof.Proof.KiArgs
import proofs.«205263_g58420145160647_cont_9to1_m_909_25_alg».proof.Proof.KernelValue
import proofs.«205263_g58420145160647_cont_9to1_m_909_25_alg».proof.Proof.RefValue
import proofs.«205263_g58420145160647_cont_9to1_m_909_25_alg».proof.Proof.PreDom
import proofs.«205263_g58420145160647_cont_9to1_m_909_25_alg».proof.Defs

noncomputable section

namespace Cert.Proof.KiClaims

open Idealize.ShloMosaic Idealize.SL.Sem Idealize.ShloMosaic.ValueIdx
open Cert.KernelIdeal.Run

/-- The specification at equal arguments. -/
theorem G_congr {x0 y0 : IVec (⟨1, ![16384]⟩ : Shape) 32} {x1 y1 : IVec (⟨1, ![16384]⟩ : Shape) 32} {x2 y2 : IVec (⟨1, ![16384]⟩ : Shape) 32} {x3 y3 : IVec (⟨1, ![16384]⟩ : Shape) 32} {x4 y4 : IVec (⟨1, ![16384]⟩ : Shape) 32} {x5 y5 : IVec (⟨1, ![16384]⟩ : Shape) 32} {x6 y6 : IVec (⟨1, ![16384]⟩ : Shape) 32} {x7 y7 : IVec (⟨1, ![16384]⟩ : Shape) 32} {x8 y8 : IVec (⟨1, ![16384]⟩ : Shape) 32} {x9 y9 : FVec Ideal (⟨2, ![1000000, 64]⟩ : Shape) .f32} {x10 y10 : FVec Ideal (⟨2, ![100, 64]⟩ : Shape) .f32} {x11 y11 : FVec Ideal (⟨2, ![5, 8]⟩ : Shape) .f32} {x12 y12 : FVec Ideal (⟨2, ![8, 16]⟩ : Shape) .f32} {x13 y13 : FVec Ideal (⟨2, ![25, 8]⟩ : Shape) .f32} {x14 y14 : FVec Ideal (⟨2, ![61, 8]⟩ : Shape) .f32} {x15 y15 : FVec Ideal (⟨2, ![61, 8]⟩ : Shape) .f32} {x16 y16 : FVec Ideal (⟨2, ![500, 64]⟩ : Shape) .f32} {x17 y17 : FVec Ideal (⟨2, ![40, 16]⟩ : Shape) .f32} {x18 y18 : FVec Ideal (⟨2, ![256, 1]⟩ : Shape) .f32} {x19 y19 : FVec Ideal (⟨1, ![1]⟩ : Shape) .f32} {x20 y20 : FVec Ideal (⟨2, ![256, 32]⟩ : Shape) .f32} {x21 y21 : FVec Ideal (⟨2, ![256, 128]⟩ : Shape) .f32} {x22 y22 : FVec Ideal (⟨1, ![128]⟩ : Shape) .f32} {x23 y23 : FVec Ideal (⟨2, ![128, 128]⟩ : Shape) .f32} {x24 y24 : FVec Ideal (⟨1, ![128]⟩ : Shape) .f32} {x25 y25 : FVec Ideal (⟨2, ![128, 128]⟩ : Shape) .f32} {x26 y26 : FVec Ideal (⟨1, ![128]⟩ : Shape) .f32} {x27 y27 : FVec Ideal (⟨2, ![128, 1]⟩ : Shape) .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) :
    Cert.Spec.G x0 x1 x2 x3 x4 x5 x6 x7 x8 x9 x10 x11 x12 x13 x14 x15 x16 x17 x18 x19 x20 x21 x22 x23 x24 x25 x26 x27 = Cert.Spec.G y0 y1 y2 y3 y4 y5 y6 y7 y8 y9 y10 y11 y12 y13 y14 y15 y16 y17 y18 y19 y20 y21 y22 y23 y24 y25 y26 y27 := by
  subst_vars
  rfl

/-- The range hypothesis at equal index arrays. -/
theorem Dom_congr {x0 y0 : IVec (⟨1, ![16384]⟩ : Shape) 32} {x1 y1 : IVec (⟨1, ![16384]⟩ : Shape) 32} {x2 y2 : IVec (⟨1, ![16384]⟩ : Shape) 32} {x3 y3 : IVec (⟨1, ![16384]⟩ : Shape) 32} {x4 y4 : IVec (⟨1, ![16384]⟩ : Shape) 32} {x5 y5 : IVec (⟨1, ![16384]⟩ : Shape) 32} {x6 y6 : IVec (⟨1, ![16384]⟩ : Shape) 32} {x7 y7 : IVec (⟨1, ![16384]⟩ : Shape) 32} {x8 y8 : IVec (⟨1, ![16384]⟩ : Shape) 32}
    (h0 : x0 = y0) (h1 : x1 = y1) (h2 : x2 = y2) (h3 : x3 = y3) (h4 : x4 = y4) (h5 : x5 = y5) (h6 : x6 = y6) (h7 : x7 = y7) (h8 : x8 = y8) (hd : Cert.Spec.Dom y0 y1 y2 y3 y4 y5 y6 y7 y8) :
    Cert.Spec.Dom x0 x1 x2 x3 x4 x5 x6 x7 x8 := by
  subst_vars
  exact hd

/-- Where the input-domain predicate is all ones on every device, every user id names a row of the user table. -/
theorem preOK_of_fn [Cert.Pre_input_domain.Facts] {F : FTy → Type} [FloatOps F] [∀ e, Nonempty (Elt F e)]
    (m : (ℓ : Loc Cert.KernelIdeal.nD Cert.KernelIdeal.τ Cert.KernelIdeal.sig) → Buf (Elt F) ℓ)
    (h : ∀ c : Dev Cert.KernelIdeal.nD, Cert.Pre_input_domain.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) = fun _ => 1#1) :
    PreOK (F := F) m := fun d r => by
  have hu := (Cert.Pre_input_domain.PreDom.dom_of_pre _ _ _ _ _ _ _ _ _ _ _ _ _ _ _ _ _ _ _ _ _ _ _ _ _ _ _ _ (h d)).uid (r 0)
  have e := eq_ix1 r
  rw [e]
  exact hu

theorem preOK_of_pre [Cert.Pre_input_domain.Facts]
    (m : (ℓ : Loc Cert.KernelIdeal.nD Cert.KernelIdeal.τ Cert.KernelIdeal.sig) → Buf (Elt Ideal) ℓ) (hpre : Cert.Pre_KernelIdeal m) :
    PreOK (F := Ideal) m := preOK_of_fn m hpre

/-- The idealized kernel runs and leaves its arguments unchanged. -/
theorem frame_ki : Cert.frame_KernelIdeal := fun m ρ hpre =>
  (θ_run _ _ _).mono (fun r h c => by
    obtain ⟨X1, Y, -, -, h3, h4⟩ := h c
    exact args_unchanged m r.2.mem c X1 Y h3 h4) (run_main (F := Ideal) m ρ (preOK_of_pre m hpre))

/-- The idealization pass rewrote no operation. -/
theorem preserves : Cert.preserves_Kernel_KernelIdeal := trivial

set_option maxRecDepth 16384 in
/-- The idealized kernel and the idealized reference compute the same function of the arguments: both result arrays are the
    specification of the (agreeing) argument arrays. -/
theorem algebraic : Cert.algebraic_KernelIdeal_ReferenceIdeal := fun m g m' g' hpre hagree =>
  ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)),
    (θ_run _ _ _).mono (fun r h c => by
      obtain ⟨X1, Y, hX1, hY, h3, h4⟩ := h c
      exact ⟨(h3 28).trans (kernel_out m c X1 Y (Cert.Pre_input_domain.PreDom.dom_of_pre _ _ _ _ _ _ _ _ _ _ _ _ _ _ _ _ _ _ _ _ _ _ _ _ _ _ _ _ (hpre c)) hY),
        args_unchanged m r.2.mem c X1 Y h3 h4⟩) (run_main (F := Ideal) m g (preOK_of_pre m hpre)),
    (θ_run _ _ _).mono (fun r h c => by
      obtain ⟨e0, e1, e2, e3, e4, e5, e6, e7, e8, e9, e10, e11, e12, e13, e14, e15, e16, e17, e18, e19, e20, e21, e22, e23, e24, e25, e26, e27⟩ := hagree c
      have hdom := Cert.Pre_input_domain.PreDom.dom_of_pre _ _ _ _ _ _ _ _ _ _ _ _ _ _ _ _ _ _ _ _ _ _ _ _ _ _ _ _ (hpre c)
      exact ⟨(h c).1.trans ((Cert.ReferenceIdeal.RefValue.out_eq m' c (Dom_congr e0 e1 e2 e3 e4 e5 e6 e7 e8 hdom)).trans
        (G_congr e0 e1 e2 e3 e4 e5 e6 e7 e8 e9 e10 e11 e12 e13 e14 e15 e16 e17 e18 e19 e20 e21 e22 e23 e24 e25 e26 e27)), (h c).2⟩) (Cert.ReferenceIdeal.RefRun.run (F := Ideal) m' g')⟩

end Cert.Proof.KiClaims

end
-- ==== Proof.lean ====
/-
  The five claims of this certificate, assembled.

  The kernel transposes the user table into a table of row PAIRS (a TensorCore region over 31 blocks, the last one
  reaching past the table's end), gathers on the SparseCores' vector subcores, for each example, the pair that
  holds its user's row (row `(u >>> 15) <<< 14 + (u &&& 16383)` of the pairs), and in a second TensorCore region
  selects the half of the pair that bit 14 of the user id names, looks the other eight features up as products of
  one-hot rows with their tables, concatenates the nine rows and applies the factorization-machine terms, the
  three dense layers and the logistic. The reference takes the nine rows directly and applies the same layers.
  At the ideal instance the selected half IS the user's row (the pairs agree with the transposed table wherever a
  column lies inside it, and the selected column always does), a one-hot product IS the table's row when the index
  is in range (the precondition's ranges), and the remaining operations are the same sums in the same order on
  both sides.

  The frames (each program runs to its end, faults nowhere, leaves its arguments as they were) come from ONE run
  of the printed program, proved once for any float instance: the TensorCore thread's @main stretch by stretch —
  the host transpose, the first region, the call to the SparseCores, the host reshapes, the second region — beside
  the vector subcores' task and the split of the call's operands among them; the reference's from its run as a
  list of host operations.
-/
import proofs.«205263_g58420145160647_cont_9to1_m_909_25_alg».proof.Defs
import proofs.«205263_g58420145160647_cont_9to1_m_909_25_alg».proof.Proof.Gen.Kernel
import proofs.«205263_g58420145160647_cont_9to1_m_909_25_alg».proof.Proof.Gen.KernelIdeal
import proofs.«205263_g58420145160647_cont_9to1_m_909_25_alg».proof.Proof.Gen.ReferenceIdeal
import proofs.«205263_g58420145160647_cont_9to1_m_909_25_alg».proof.Proof.Gen.Pre_input_domain
import proofs.«205263_g58420145160647_cont_9to1_m_909_25_alg».proof.Proof.KClaims
import proofs.«205263_g58420145160647_cont_9to1_m_909_25_alg».proof.Proof.KiClaims
import proofs.«205263_g58420145160647_cont_9to1_m_909_25_alg».proof.Proof.RefRun

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KClaims.frame_k, Cert.Proof.KiClaims.frame_ki, Cert.ReferenceIdeal.RefRun.frame,
    Cert.Proof.KiClaims.preserves, Cert.Proof.KiClaims.algebraic⟩

end Cert.Proof

end
